-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S1024x200 : S_.BroadcastsInDim S1024x200 (![] : Fin 0 → Fin S1024x200.rank)
  reducesTo_S1024x200_S_d0_1 : S1024x200.ReducesTo [0, 1] S_

variable [Facts]

def fn_part2 {F : FTy → Type} [FloatOps F] (main_arg1 : IVec S1024x200 32) (main_v30 : IVec S_ 1) (main_v32 : IVec S1024x200 1) (main_c_12 : IVec S_ 32) : IVec S_ 1 :=
  let main_v33 : IVec S1024x200 32 := broadcastInDim S1024x200 ![] bcast_S_S1024x200 main_c_12
  let main_v34 : IVec S1024x200 1 := cmpi .sle main_arg1 main_v33
  let main_v35 : IVec S1024x200 1 := andi main_v32 main_v34
  let main_c_13 : IVec S_ 1 := constantI S_ 1 1#1
  let main_v36 : IVec S_ 1 := (fun x v => Host.reduce IntOp.andi x v reducesTo_S1024x200_S_d0_1 h_S_) main_v35 main_c_13
  let main_v37 : IVec S_ 1 := andi main_v30 main_v36
  main_v37

def fn_part1 {F : FTy → Type} [FloatOps F] (main_arg0 : IVec S1024x200 32) (main_arg1 : IVec S1024x200 32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1024x200 32 := broadcastInDim S1024x200 ![] bcast_S_S1024x200 main_c_8
  let main_v25 : IVec S1024x200 1 := cmpi .sge main_arg0 main_v24
  let main_c_9 : IVec S_ 32 := constantI S_ 32 99999#32
  let main_v26 : IVec S1024x200 32 := broadcastInDim S1024x200 ![] bcast_S_S1024x200 main_c_9
  let main_v27 : IVec S1024x200 1 := cmpi .sle main_arg0 main_v26
  let main_v28 : IVec S1024x200 1 := andi main_v25 main_v27
  let main_c_10 : IVec S_ 1 := constantI S_ 1 1#1
  let main_v29 : IVec S_ 1 := (fun x v => Host.reduce IntOp.andi x v reducesTo_S1024x200_S_d0_1 h_S_) main_v28 main_c_10
  let main_v30 : IVec S_ 1 := andi main_v23 main_v29
  let main_c_11 : IVec S_ 32 := constantI S_ 32 0#32
  let main_v31 : IVec S1024x200 32 := broadcastInDim S1024x200 ![] bcast_S_S1024x200 main_c_11
  let main_v32 : IVec S1024x200 1 := cmpi .sge main_arg1 main_v31
  let main_c_12 : IVec S_ 32 := constantI S_ 32 1#32
  fn_part2 (F := F) main_arg1 main_v30 main_v32 main_c_12

def fn {F : FTy → Type} [FloatOps F] (main_arg0 : IVec S1024x200 32) (main_arg1 : IVec S1024x200 32) (main_arg2 : FVec F S100000x128 .f32) (main_arg3 : FVec F S512x128 .f32) (main_arg4 : FVec F S2x128 .f32) (main_arg5 : FVec F S128 .f32) (main_arg6 : FVec F S128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_v13 main_v16
-- ==== Kernel.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S204800 : Shape := ⟨1, ![204800]⟩
abbrev S_ : Shape := ⟨0, ![]⟩
abbrev S256x200 : Shape := ⟨2, ![256, 200]⟩
abbrev S32x25x64 : Shape := ⟨3, ![32, 25, 64]⟩
abbrev S51200x128 : Shape := ⟨2, ![51200, 128]⟩
abbrev S25x64 : Shape := ⟨2, ![25, 64]⟩
abbrev S64x128 : Shape := ⟨2, ![64, 128]⟩
abbrev S1x25x64 : Shape := ⟨3, ![1, 25, 64]⟩
abbrev S1x64 : Shape := ⟨2, ![1, 64]⟩
abbrev S64 : Shape := ⟨1, ![64]⟩
abbrev S200x128 : Shape := ⟨2, ![200, 128]⟩
abbrev S1x128 : Shape := ⟨2, ![1, 128]⟩
abbrev S256x200x128 : Shape := ⟨3, ![256, 200, 128]⟩
abbrev S1024x200x128 : Shape := ⟨3, ![1024, 200, 128]⟩
abbrev S64x200x128 : Shape := ⟨3, ![64, 200, 128]⟩
abbrev S64x200 : Shape := ⟨2, ![64, 200]⟩
abbrev S64x200x1 : Shape := ⟨3, ![64, 200, 1]⟩
abbrev S1x200x128 : Shape := ⟨3, ![1, 200, 128]⟩
abbrev S1x1x128 : Shape := ⟨3, ![1, 1, 128]⟩

abbrev nBuf : Table → Nat
  | .hbm => 51
  | .local .tc .vmem => 40
  | .local .scVector .vmem => 24
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S204800, .i32⟩
  | .hbm, ⟨8, _⟩ => ⟨S1024x200, .i32⟩
  | .hbm, ⟨9, _⟩ => ⟨S_, .i32⟩
  | .hbm, ⟨10, _⟩ => ⟨S_, .i32⟩
  | .hbm, ⟨11, _⟩ => ⟨S256x200, .i32⟩
  | .hbm, ⟨12, _⟩ => ⟨S32x25x64, .i32⟩
  | .hbm, ⟨13, _⟩ => ⟨S51200x128, .f32⟩
  | .hbm, ⟨14, _⟩ => ⟨S_, .i32⟩
  | .hbm, ⟨15, _⟩ => ⟨S_, .i32⟩
  | .hbm, ⟨16, _⟩ => ⟨S256x200, .i32⟩
  | .hbm, ⟨17, _⟩ => ⟨S32x25x64, .i32⟩
  | .hbm, ⟨18, _⟩ => ⟨S51200x128, .f32⟩
  | .hbm, ⟨19, _⟩ => ⟨S_, .i32⟩
  | .hbm, ⟨20, _⟩ => ⟨S_, .i32⟩
  | .hbm, ⟨21, _⟩ => ⟨S256x200, .i32⟩
  | .hbm, ⟨22, _⟩ => ⟨S32x25x64, .i32⟩
  | .hbm, ⟨23, _⟩ => ⟨S51200x128, .f32⟩
  | .hbm, ⟨24, _⟩ => ⟨S_, .i32⟩
  | .hbm, ⟨25, _⟩ => ⟨S_, .i32⟩
  | .hbm, ⟨26, _⟩ => ⟨S256x200, .i32⟩
  | .hbm, ⟨27, _⟩ => ⟨S32x25x64, .i32⟩
  | .hbm, ⟨28, _⟩ => ⟨S51200x128, .f32⟩
  | .hbm, ⟨29, _⟩ => ⟨S200x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S200x128, .f32⟩
  | .hbm, ⟨34, _⟩ => ⟨S200x128, .f32⟩
  | .hbm, ⟨35, _⟩ => ⟨S1x128, .f32⟩
  | .hbm, ⟨36, _⟩ => ⟨S128, .f32⟩
  | .hbm, ⟨37, _⟩ => ⟨S1x128, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S256x200x128, .f32⟩
  | .hbm, ⟨44, _⟩ => ⟨S1024x200x128, .f32⟩
  | .hbm, ⟨45, _⟩ => ⟨S256x200x128, .f32⟩
  | .hbm, ⟨46, _⟩ => ⟨S1024x200x128, .f32⟩
  | .hbm, ⟨47, _⟩ => ⟨S256x200x128, .f32⟩
  | .hbm, ⟨48, _⟩ => ⟨S1024x200x128, .f32⟩
  | .hbm, ⟨49, _⟩ => ⟨S256x200x128, .f32⟩
  | .hbm, ⟨50, _⟩ => ⟨S1024x200x128, .f32⟩
  | .local .tc .vmem, ⟨0, _⟩ => ⟨S64x200x128, .f32⟩
  | .local .tc .vmem, ⟨1, _⟩ => ⟨S64x200x128, .f32⟩
  | .local .tc .vmem, ⟨2, _⟩ => ⟨S64x200, .i32⟩
  | .local .tc .vmem, ⟨3, _⟩ => ⟨S64x200, .i32⟩
  | .local .tc .vmem, ⟨4, _⟩ => ⟨S200x128, .f32⟩
  | .local .tc .vmem, ⟨5, _⟩ => ⟨S1x128, .f32⟩
  | .local .tc .vmem, ⟨6, _⟩ => ⟨S1x128, .f32⟩
  | .local .tc .vmem, ⟨7, _⟩ => ⟨S1x128, .f32⟩
  | .local .tc .vmem, ⟨8, _⟩ => ⟨S64x200x128, .f32⟩
  | .local .tc .vmem, ⟨9, _⟩ => ⟨S64x200x128, .f32⟩
  | .local .tc .vmem, ⟨10, _⟩ => ⟨S64x200x128, .f32⟩
  | .local .tc .vmem, ⟨11, _⟩ => ⟨S64x200x128, .f32⟩
  | .local .tc .vmem, ⟨12, _⟩ => ⟨S64x200, .i32⟩
  | .local .tc .vmem, ⟨13, _⟩ => ⟨S64x200, .i32⟩
  | .local .tc .vmem, ⟨14, _⟩ => ⟨S200x128, .f32⟩
  | .local .tc .vmem, ⟨15, _⟩ => ⟨S1x128, .f32⟩
  | .local .tc .vmem, ⟨16, _⟩ => ⟨S1x128, .f32⟩
  | .local .tc .vmem, ⟨17, _⟩ => ⟨S1x128, .f32⟩
  | .local .tc .vmem, ⟨18, _⟩ => ⟨S64x200x128, .f32⟩
  | .local .tc .vmem, ⟨19, _⟩ => ⟨S64x200x128, .f32⟩
  | .local .tc .vmem, ⟨20, _⟩ => ⟨S64x200x128, .f32⟩
  | .local .tc .vmem, ⟨21, _⟩ => ⟨S64x200x128, .f32⟩
  | .local .tc .vmem, ⟨22, _⟩ => ⟨S64x200, .i32⟩
  | .local .tc .vmem, ⟨23, _⟩ => ⟨S64x200, .i32⟩
  | .local .tc .vmem, ⟨24, _⟩ => ⟨S200x128, .f32⟩
  | .local .tc .vmem, ⟨25, _⟩ => ⟨S1x128, .f32⟩
  | .local .tc .vmem, ⟨26, _⟩ => ⟨S1x128, .f32⟩
  | .local .tc .vmem, ⟨27, _⟩ => ⟨S1x128, .f32⟩
  | .local .tc .vmem, ⟨28, _⟩ => ⟨S64x200x128, .f32⟩
  | .local .tc .vmem, ⟨29, _⟩ => ⟨S64x200x128, .f32⟩
  | .local .tc .vmem, ⟨30, _⟩ => ⟨S64x200x128, .f32⟩
  | .local .tc .vmem, ⟨31, _⟩ => ⟨S64x200x128, .f32⟩
  | .local .tc .vmem, ⟨32, _⟩ => ⟨S64x200, .i32⟩
  | .local .tc .vmem, ⟨33, _⟩ => ⟨S64x200, .i32⟩
  | .local .tc .vmem, ⟨34, _⟩ => ⟨S200x128, .f32⟩
  | .local .tc .vmem, ⟨35, _⟩ => ⟨S1x128, .f32⟩
  | .local .tc .vmem, ⟨36, _⟩ => ⟨S1x128, .f32⟩
  | .local .tc .vmem, ⟨37, _⟩ => ⟨S1x128, .f32⟩
  | .local .tc .vmem, ⟨38, _⟩ => ⟨S64x200x128, .f32⟩
  | .local .tc .vmem, ⟨39, _⟩ => ⟨S64x200x128, .f32⟩
  | .local .scVector .vmem, ⟨0, _⟩ => ⟨S25x64, .i32⟩
  | .local .scVector .vmem, ⟨1, _⟩ => ⟨S64x128, .f32⟩
  | .local .scVector .vmem, ⟨2, _⟩ => ⟨S64x128, .f32⟩
  | .local .scVector .vmem, ⟨3, _⟩ => ⟨S64x128, .f32⟩
  | .local .scVector .vmem, ⟨4, _⟩ => ⟨S64x128, .f32⟩
  | .local .scVector .vmem, ⟨5, _⟩ => ⟨S64x128, .f32⟩
  | .local .scVector .vmem, ⟨6, _⟩ => ⟨S25x64, .i32⟩
  | .local .scVector .vmem, ⟨7, _⟩ => ⟨S64x128, .f32⟩
  | .local .scVector .vmem, ⟨8, _⟩ => ⟨S64x128, .f32⟩
  | .local .scVector .vmem, ⟨9, _⟩ => ⟨S64x128, .f32⟩
  | .local .scVector .vmem, ⟨10, _⟩ => ⟨S64x128, .f32⟩
  | .local .scVector .vmem, ⟨11, _⟩ => ⟨S64x128, .f32⟩
  | .local .scVector .vmem, ⟨12, _⟩ => ⟨S25x64, .i32⟩
  | .local .scVector .vmem, ⟨13, _⟩ => ⟨S64x128, .f32⟩
  | .local .scVector .vmem, ⟨14, _⟩ => ⟨S64x128, .f32⟩
  | .local .scVector .vmem, ⟨15, _⟩ => ⟨S64x128, .f32⟩
  | .local .scVector .vmem, ⟨16, _⟩ => ⟨S64x128, .f32⟩
  | .local .scVector .vmem, ⟨17, _⟩ => ⟨S64x128, .f32⟩
  | .local .scVector .vmem, ⟨18, _⟩ => ⟨S25x64, .i32⟩
  | .local .scVector .vmem, ⟨19, _⟩ => ⟨S64x128, .f32⟩
  | .local .scVector .vmem, ⟨20, _⟩ => ⟨S64x128, .f32⟩
  | .local .scVector .vmem, ⟨21, _⟩ => ⟨S64x128, .f32⟩
  | .local .scVector .vmem, ⟨22, _⟩ => ⟨S64x128, .f32⟩
  | .local .scVector .vmem, ⟨23, _⟩ => ⟨S64x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 84 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTables nBuf rfl bufTy 4 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_c_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_arg2_scv : Ref sig .scVector := ⟨.hbm, 2, rfl⟩
abbrev main_v3_scv : Ref sig .scVector := ⟨.hbm, 12, rfl⟩
abbrev main_v4_scv : Ref sig .scVector := ⟨.hbm, 13, rfl⟩
abbrev main_v6_scv : Ref sig .scVector := ⟨.hbm, 17, rfl⟩
abbrev main_v7_scv : Ref sig .scVector := ⟨.hbm, 18, rfl⟩
abbrev main_v9_scv : Ref sig .scVector := ⟨.hbm, 22, rfl⟩
abbrev main_v10_scv : Ref sig .scVector := ⟨.hbm, 23, rfl⟩
abbrev main_v12_scv : Ref sig .scVector := ⟨.hbm, 27, rfl⟩
abbrev main_v13_scv : Ref sig .scVector := ⟨.hbm, 28, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg1_1 : Ref sig .tc := ⟨.vmem, 3, rfl⟩
abbrev cc4_stg2_0 : Ref sig .tc := ⟨.vmem, 4, rfl⟩
abbrev cc4_stg3_0 : Ref sig .tc := ⟨.vmem, 5, rfl⟩
abbrev cc4_stg4_0 : Ref sig .tc := ⟨.vmem, 6, rfl⟩
abbrev cc4_stg5_0 : Ref sig .tc := ⟨.vmem, 7, rfl⟩
abbrev cc4_stg6_0 : Ref sig .tc := ⟨.vmem, 8, rfl⟩
abbrev cc4_stg6_1 : Ref sig .tc := ⟨.vmem, 9, rfl⟩
abbrev cc5_stg0_0 : Ref sig .tc := ⟨.vmem, 10, rfl⟩
abbrev cc5_stg0_1 : Ref sig .tc := ⟨.vmem, 11, rfl⟩
abbrev cc5_stg1_0 : Ref sig .tc := ⟨.vmem, 12, rfl⟩
abbrev cc5_stg1_1 : Ref sig .tc := ⟨.vmem, 13, rfl⟩
abbrev cc5_stg2_0 : Ref sig .tc := ⟨.vmem, 14, rfl⟩
abbrev cc5_stg3_0 : Ref sig .tc := ⟨.vmem, 15, rfl⟩
abbrev cc5_stg4_0 : Ref sig .tc := ⟨.vmem, 16, rfl⟩
abbrev cc5_stg5_0 : Ref sig .tc := ⟨.vmem, 17, rfl⟩
abbrev cc5_stg6_0 : Ref sig .tc := ⟨.vmem, 18, rfl⟩
abbrev cc5_stg6_1 : Ref sig .tc := ⟨.vmem, 19, rfl⟩
abbrev cc6_stg0_0 : Ref sig .tc := ⟨.vmem, 20, rfl⟩
abbrev cc6_stg0_1 : Ref sig .tc := ⟨.vmem, 21, rfl⟩
abbrev cc6_stg1_0 : Ref sig .tc := ⟨.vmem, 22, rfl⟩
abbrev cc6_stg1_1 : Ref sig .tc := ⟨.vmem, 23, rfl⟩
abbrev cc6_stg2_0 : Ref sig .tc := ⟨.vmem, 24, rfl⟩
abbrev cc6_stg3_0 : Ref sig .tc := ⟨.vmem, 25, rfl⟩
abbrev cc6_stg4_0 : Ref sig .tc := ⟨.vmem, 26, rfl⟩
abbrev cc6_stg5_0 : Ref sig .tc := ⟨.vmem, 27, rfl⟩
abbrev cc6_stg6_0 : Ref sig .tc := ⟨.vmem, 28, rfl⟩
abbrev cc6_stg6_1 : Ref sig .tc := ⟨.vmem, 29, rfl⟩
abbrev cc7_stg0_0 : Ref sig .tc := ⟨.vmem, 30, rfl⟩
abbrev cc7_stg0_1 : Ref sig .tc := ⟨.vmem, 31, rfl⟩
abbrev cc7_stg1_0 : Ref sig .tc := ⟨.vmem, 32, rfl⟩
abbrev cc7_stg1_1 : Ref sig .tc := ⟨.vmem, 33, rfl⟩
abbrev cc7_stg2_0 : Ref sig .tc := ⟨.vmem, 34, rfl⟩
abbrev cc7_stg3_0 : Ref sig .tc := ⟨.vmem, 35, rfl⟩
abbrev cc7_stg4_0 : Ref sig .tc := ⟨.vmem, 36, rfl⟩
abbrev cc7_stg5_0 : Ref sig .tc := ⟨.vmem, 37, rfl⟩
abbrev cc7_stg6_0 : Ref sig .tc := ⟨.vmem, 38, rfl⟩
abbrev cc7_stg6_1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc2_scratch0 : Ref sig .scVector := ⟨.vmem, 12, rfl⟩
abbrev cc2_scratch1 : Ref sig .scVector := ⟨.vmem, 13, rfl⟩
abbrev cc2_scratch2 : Ref sig .scVector := ⟨.vmem, 14, rfl⟩
abbrev cc2_scratch3 : Ref sig .scVector := ⟨.vmem, 15, rfl⟩
abbrev cc2_scratch4 : Ref sig .scVector := ⟨.vmem, 16, rfl⟩
abbrev cc2_scratch5 : Ref sig .scVector := ⟨.vmem, 17, rfl⟩
abbrev cc3_scratch0 : Ref sig .scVector := ⟨.vmem, 18, rfl⟩
abbrev cc3_scratch1 : Ref sig .scVector := ⟨.vmem, 19, rfl⟩
abbrev cc3_scratch2 : Ref sig .scVector := ⟨.vmem, 20, rfl⟩
abbrev cc3_scratch3 : Ref sig .scVector := ⟨.vmem, 21, rfl⟩
abbrev cc3_scratch4 : Ref sig .scVector := ⟨.vmem, 22, rfl⟩
abbrev cc3_scratch5 : Ref sig .scVector := ⟨.vmem, 23, rfl⟩
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem6_1 : DmaSem sig := 53
abbrev cc5_sem0_0 : DmaSem sig := 54
abbrev cc5_sem0_1 : DmaSem sig := 55
abbrev cc5_sem1_0 : DmaSem sig := 56
abbrev cc5_sem1_1 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem6_1 : DmaSem sig := 63
abbrev cc6_sem0_0 : DmaSem sig := 64
abbrev cc6_sem0_1 : DmaSem sig := 65
abbrev cc6_sem1_0 : DmaSem sig := 66
abbrev cc6_sem1_1 : DmaSem sig := 67
abbrev cc6_sem2_0 : DmaSem sig := 68
abbrev cc6_sem3_0 : DmaSem sig := 69
abbrev cc6_sem4_0 : DmaSem sig := 70
abbrev cc6_sem5_0 : DmaSem sig := 71
abbrev cc6_sem6_0 : DmaSem sig := 72
abbrev cc6_sem6_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem3_0 : DmaSem sig := 79
abbrev cc7_sem4_0 : DmaSem sig := 80
abbrev cc7_sem5_0 : DmaSem sig := 81
abbrev cc7_sem6_0 : DmaSem sig := 82
abbrev cc7_sem6_1 : DmaSem sig := 83
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
@[reducible] def k0_t1_loop : Scf.Loop 32 :=
  let c0_i32_11 : BitVec 32 := 0#32
  let c5_i32 : BitVec 32 := 5#32
  let v12 : BitVec 32 := Scalar.addi c0_i32_11 c5_i32
  let c1_i32_12 : BitVec 32 := 1#32
  ⟨c0_i32_11, v12, c1_i32_12⟩
def k0_cond1 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c25_i32 : BitVec 32 := 25#32
  let v31 : BitVec 1 := Scalar.cmpi .slt v30 c25_i32
  let v32 : BitVec 32 := Scalar.extui v31
  let c0_i32_26 : BitVec 32 := 0#32
  let v33 : BitVec 1 := Scalar.cmpi .ne v32 c0_i32_26
  v33

def k0_cond2 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_75 : BitVec 32 := 5#32
  let v93 : BitVec 1 := Scalar.cmpi .sge v30 c5_i32_75
  let v94 : BitVec 32 := Scalar.extui v93
  let c0_i32_76 : BitVec 32 := 0#32
  let v95 : BitVec 1 := Scalar.cmpi .ne v94 c0_i32_76
  v95

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_80 : BitVec 32 := 5#32
  let v99 : BitVec 32 := Scalar.subi v30 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k0_off3 (k0_t1 : Fin k0_t1_loop.trips) : Fin 2 → Nat :=
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c0_i32_77 : BitVec 32 := 0#32
  ![v30.toNat, 0]
def k0_off4 (k0_t1 : Fin k0_t1_loop.trips) (c0_i32_25 : BitVec 32) : Fin 2 → Nat :=
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let v29 : BitVec 32 := Scalar.addi v28 c0_i32_25
  let c0_i32_27 : BitVec 32 := 0#32
  ![v29.toNat, 0]
def k0_off5 (i : grid0.Coords) (k0_t1 : Fin k0_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_24 : BitVec 32 := 5#32
  let v28 : BitVec 32 := Scalar.muli arg21 c5_i32_24
  let v29 : BitVec 32 := Scalar.addi v28 c0_i32_25
  let c64_i32 : BitVec 32 := 64#32
  let v37 : BitVec 32 := Scalar.muli v29 c64_i32
  let v38 : BitVec 32 := Scalar.addi v2 v37
  let c0_i32_30 : BitVec 32 := 0#32
  ![v38.toNat, 0]
def k0_cond3 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c25_i32_35 : BitVec 32 := 25#32
  let v44 : BitVec 1 := Scalar.cmpi .slt v43 c25_i32_35
  let v45 : BitVec 32 := Scalar.extui v44
  let c0_i32_36 : BitVec 32 := 0#32
  let v46 : BitVec 1 := Scalar.cmpi .ne v45 c0_i32_36
  v46

def k0_cond4 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_75 : BitVec 32 := 5#32
  let v93 : BitVec 1 := Scalar.cmpi .sge v43 c5_i32_75
  let v94 : BitVec 32 := Scalar.extui v93
  let c0_i32_76 : BitVec 32 := 0#32
  let v95 : BitVec 1 := Scalar.cmpi .ne v94 c0_i32_76
  v95

def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_80 : BitVec 32 := 5#32
  let v99 : BitVec 32 := Scalar.subi v43 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k0_off7 (k0_t1 : Fin k0_t1_loop.trips) : Fin 2 → Nat :=
  let c0_i32_11 : BitVec 32 := 0#32
  let c1_i32_12 : BitVec 32 := 1#32
  let arg21 : BitVec 32 := Scf.iv c0_i32_11 c1_i32_12 k0_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c0_i32_77 : BitVec 32 := 0#32
  ![v43.toNat, 0]
def k0_cond5 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c25_i32_46 : BitVec 32 := 25#32
  let v57 : BitVec 1 := Scalar.cmpi .slt v56 c25_i32_46
  let v58 : BitVec 32 := Scalar.extui v57
  let c0_i32_47 : BitVec 32 := 0#32
  let v59 : BitVec 1 := Scalar.cmpi .ne v58 c0_i32_47
  v59

def k0_cond6 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_75 : BitVec 32 := 5#32
  let v93 : BitVec 1 := Scalar.cmpi .sge v56 c5_i32_75
  let v94 : BitVec 32 := Scalar.extui v93
  let c0_i32_76 : BitVec 32 := 0#32
  let v95 : BitVec 1 := Scalar.cmpi .ne v94 c0_i32_76
  v95

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_80 : BitVec 32 := 5#32
  let v99 : BitVec 32 := Scalar.subi v56 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k0_off9 (k0_t1 : Fin k0_t1_loop.trips) : Fin 2 → Nat :=
  let c0_i32_11 : BitVec 32 := 0#32
  let c1_i32_12 : BitVec 32 := 1#32
  let arg21 : BitVec 32 := Scf.iv c0_i32_11 c1_i32_12 k0_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c0_i32_77 : BitVec 32 := 0#32
  ![v56.toNat, 0]
def k0_cond7 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c25_i32_57 : BitVec 32 := 25#32
  let v70 : BitVec 1 := Scalar.cmpi .slt v69 c25_i32_57
  let v71 : BitVec 32 := Scalar.extui v70
  let c0_i32_58 : BitVec 32 := 0#32
  let v72 : BitVec 1 := Scalar.cmpi .ne v71 c0_i32_58
  v72

def k0_cond8 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_75 : BitVec 32 := 5#32
  let v93 : BitVec 1 := Scalar.cmpi .sge v69 c5_i32_75
  let v94 : BitVec 32 := Scalar.extui v93
  let c0_i32_76 : BitVec 32 := 0#32
  let v95 : BitVec 1 := Scalar.cmpi .ne v94 c0_i32_76
  v95

def k0_off10 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_80 : BitVec 32 := 5#32
  let v99 : BitVec 32 := Scalar.subi v69 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k0_off11 (k0_t1 : Fin k0_t1_loop.trips) : Fin 2 → Nat :=
  let c0_i32_11 : BitVec 32 := 0#32
  let c1_i32_12 : BitVec 32 := 1#32
  let arg21 : BitVec 32 := Scf.iv c0_i32_11 c1_i32_12 k0_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c0_i32_77 : BitVec 32 := 0#32
  ![v69.toNat, 0]
def k0_cond9 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c25_i32_67 : BitVec 32 := 25#32
  let v83 : BitVec 1 := Scalar.cmpi .slt v82 c25_i32_67
  let v84 : BitVec 32 := Scalar.extui v83
  let c0_i32_68 : BitVec 32 := 0#32
  let v85 : BitVec 1 := Scalar.cmpi .ne v84 c0_i32_68
  v85

def k0_cond10 (k0_t1 : Fin k0_t1_loop.trips) : BitVec 1 :=
  let c0_i32_11 : BitVec 32 := 0#32
  let c1_i32_12 : BitVec 32 := 1#32
  let arg21 : BitVec 32 := Scf.iv c0_i32_11 c1_i32_12 k0_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_75 : BitVec 32 := 5#32
  let v93 : BitVec 1 := Scalar.cmpi .sge v82 c5_i32_75
  let v94 : BitVec 32 := Scalar.extui v93
  let c0_i32_76 : BitVec 32 := 0#32
  let v95 : BitVec 1 := Scalar.cmpi .ne v94 c0_i32_76
  v95

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k0_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_80 : BitVec 32 := 5#32
  let v99 : BitVec 32 := Scalar.subi v82 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k0_off13 (k0_t1 : Fin k0_t1_loop.trips) : Fin 2 → Nat :=
  let c0_i32_11 : BitVec 32 := 0#32
  let c1_i32_12 : BitVec 32 := 1#32
  let arg21 : BitVec 32 := Scf.iv c0_i32_11 c1_i32_12 k0_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c0_i32_77 : BitVec 32 := 0#32
  ![v82.toNat, 0]
def k0_off14 (i : grid0.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v13 : BitVec 32 := Scalar.addi v2 c1280_i32
  let c0_i32_14 : BitVec 32 := 0#32
  ![v13.toNat, 0]
abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
@[reducible] def k1_t1_loop : Scf.Loop 32 :=
  let c0_i32_11 : BitVec 32 := 0#32
  let c5_i32 : BitVec 32 := 5#32
  let v12 : BitVec 32 := Scalar.addi c0_i32_11 c5_i32
  let c1_i32_12 : BitVec 32 := 1#32
  ⟨c0_i32_11, v12, c1_i32_12⟩
def k1_cond1 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c25_i32 : BitVec 32 := 25#32
  let v31 : BitVec 1 := Scalar.cmpi .slt v30 c25_i32
  let v32 : BitVec 32 := Scalar.extui v31
  let c0_i32_26 : BitVec 32 := 0#32
  let v33 : BitVec 1 := Scalar.cmpi .ne v32 c0_i32_26
  v33

def k1_cond2 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_75 : BitVec 32 := 5#32
  let v93 : BitVec 1 := Scalar.cmpi .sge v30 c5_i32_75
  let v94 : BitVec 32 := Scalar.extui v93
  let c0_i32_76 : BitVec 32 := 0#32
  let v95 : BitVec 1 := Scalar.cmpi .ne v94 c0_i32_76
  v95

def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_80 : BitVec 32 := 5#32
  let v99 : BitVec 32 := Scalar.subi v30 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k1_off3 (k1_t1 : Fin k1_t1_loop.trips) : Fin 2 → Nat :=
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c0_i32_77 : BitVec 32 := 0#32
  ![v30.toNat, 0]
def k1_off4 (k1_t1 : Fin k1_t1_loop.trips) (c0_i32_25 : BitVec 32) : Fin 2 → Nat :=
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let v29 : BitVec 32 := Scalar.addi v28 c0_i32_25
  let c0_i32_27 : BitVec 32 := 0#32
  ![v29.toNat, 0]
def k1_off5 (i : grid1.Coords) (k1_t1 : Fin k1_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_24 : BitVec 32 := 5#32
  let v28 : BitVec 32 := Scalar.muli arg21 c5_i32_24
  let v29 : BitVec 32 := Scalar.addi v28 c0_i32_25
  let c64_i32 : BitVec 32 := 64#32
  let v37 : BitVec 32 := Scalar.muli v29 c64_i32
  let v38 : BitVec 32 := Scalar.addi v2 v37
  let c0_i32_30 : BitVec 32 := 0#32
  ![v38.toNat, 0]
def k1_cond3 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c25_i32_35 : BitVec 32 := 25#32
  let v44 : BitVec 1 := Scalar.cmpi .slt v43 c25_i32_35
  let v45 : BitVec 32 := Scalar.extui v44
  let c0_i32_36 : BitVec 32 := 0#32
  let v46 : BitVec 1 := Scalar.cmpi .ne v45 c0_i32_36
  v46

def k1_cond4 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_75 : BitVec 32 := 5#32
  let v93 : BitVec 1 := Scalar.cmpi .sge v43 c5_i32_75
  let v94 : BitVec 32 := Scalar.extui v93
  let c0_i32_76 : BitVec 32 := 0#32
  let v95 : BitVec 1 := Scalar.cmpi .ne v94 c0_i32_76
  v95

def k1_off6 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_80 : BitVec 32 := 5#32
  let v99 : BitVec 32 := Scalar.subi v43 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k1_off7 (k1_t1 : Fin k1_t1_loop.trips) : Fin 2 → Nat :=
  let c0_i32_11 : BitVec 32 := 0#32
  let c1_i32_12 : BitVec 32 := 1#32
  let arg21 : BitVec 32 := Scf.iv c0_i32_11 c1_i32_12 k1_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c0_i32_77 : BitVec 32 := 0#32
  ![v43.toNat, 0]
def k1_cond5 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c25_i32_46 : BitVec 32 := 25#32
  let v57 : BitVec 1 := Scalar.cmpi .slt v56 c25_i32_46
  let v58 : BitVec 32 := Scalar.extui v57
  let c0_i32_47 : BitVec 32 := 0#32
  let v59 : BitVec 1 := Scalar.cmpi .ne v58 c0_i32_47
  v59

def k1_cond6 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_75 : BitVec 32 := 5#32
  let v93 : BitVec 1 := Scalar.cmpi .sge v56 c5_i32_75
  let v94 : BitVec 32 := Scalar.extui v93
  let c0_i32_76 : BitVec 32 := 0#32
  let v95 : BitVec 1 := Scalar.cmpi .ne v94 c0_i32_76
  v95

def k1_off8 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_80 : BitVec 32 := 5#32
  let v99 : BitVec 32 := Scalar.subi v56 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k1_off9 (k1_t1 : Fin k1_t1_loop.trips) : Fin 2 → Nat :=
  let c0_i32_11 : BitVec 32 := 0#32
  let c1_i32_12 : BitVec 32 := 1#32
  let arg21 : BitVec 32 := Scf.iv c0_i32_11 c1_i32_12 k1_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c0_i32_77 : BitVec 32 := 0#32
  ![v56.toNat, 0]
def k1_cond7 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c25_i32_57 : BitVec 32 := 25#32
  let v70 : BitVec 1 := Scalar.cmpi .slt v69 c25_i32_57
  let v71 : BitVec 32 := Scalar.extui v70
  let c0_i32_58 : BitVec 32 := 0#32
  let v72 : BitVec 1 := Scalar.cmpi .ne v71 c0_i32_58
  v72

def k1_cond8 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_75 : BitVec 32 := 5#32
  let v93 : BitVec 1 := Scalar.cmpi .sge v69 c5_i32_75
  let v94 : BitVec 32 := Scalar.extui v93
  let c0_i32_76 : BitVec 32 := 0#32
  let v95 : BitVec 1 := Scalar.cmpi .ne v94 c0_i32_76
  v95

def k1_off10 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_80 : BitVec 32 := 5#32
  let v99 : BitVec 32 := Scalar.subi v69 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k1_off11 (k1_t1 : Fin k1_t1_loop.trips) : Fin 2 → Nat :=
  let c0_i32_11 : BitVec 32 := 0#32
  let c1_i32_12 : BitVec 32 := 1#32
  let arg21 : BitVec 32 := Scf.iv c0_i32_11 c1_i32_12 k1_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c0_i32_77 : BitVec 32 := 0#32
  ![v69.toNat, 0]
def k1_cond9 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c25_i32_67 : BitVec 32 := 25#32
  let v83 : BitVec 1 := Scalar.cmpi .slt v82 c25_i32_67
  let v84 : BitVec 32 := Scalar.extui v83
  let c0_i32_68 : BitVec 32 := 0#32
  let v85 : BitVec 1 := Scalar.cmpi .ne v84 c0_i32_68
  v85

def k1_cond10 (k1_t1 : Fin k1_t1_loop.trips) : BitVec 1 :=
  let c0_i32_11 : BitVec 32 := 0#32
  let c1_i32_12 : BitVec 32 := 1#32
  let arg21 : BitVec 32 := Scf.iv c0_i32_11 c1_i32_12 k1_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_75 : BitVec 32 := 5#32
  let v93 : BitVec 1 := Scalar.cmpi .sge v82 c5_i32_75
  let v94 : BitVec 32 := Scalar.extui v93
  let c0_i32_76 : BitVec 32 := 0#32
  let v95 : BitVec 1 := Scalar.cmpi .ne v94 c0_i32_76
  v95

def k1_off12 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k1_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_80 : BitVec 32 := 5#32
  let v99 : BitVec 32 := Scalar.subi v82 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k1_off13 (k1_t1 : Fin k1_t1_loop.trips) : Fin 2 → Nat :=
  let c0_i32_11 : BitVec 32 := 0#32
  let c1_i32_12 : BitVec 32 := 1#32
  let arg21 : BitVec 32 := Scf.iv c0_i32_11 c1_i32_12 k1_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c0_i32_77 : BitVec 32 := 0#32
  ![v82.toNat, 0]
def k1_off14 (i : grid1.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v13 : BitVec 32 := Scalar.addi v2 c1280_i32
  let c0_i32_14 : BitVec 32 := 0#32
  ![v13.toNat, 0]
abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
@[reducible] def k2_t1_loop : Scf.Loop 32 :=
  let c0_i32_11 : BitVec 32 := 0#32
  let c5_i32 : BitVec 32 := 5#32
  let v12 : BitVec 32 := Scalar.addi c0_i32_11 c5_i32
  let c1_i32_12 : BitVec 32 := 1#32
  ⟨c0_i32_11, v12, c1_i32_12⟩
def k2_cond1 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c25_i32 : BitVec 32 := 25#32
  let v31 : BitVec 1 := Scalar.cmpi .slt v30 c25_i32
  let v32 : BitVec 32 := Scalar.extui v31
  let c0_i32_26 : BitVec 32 := 0#32
  let v33 : BitVec 1 := Scalar.cmpi .ne v32 c0_i32_26
  v33

def k2_cond2 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_75 : BitVec 32 := 5#32
  let v93 : BitVec 1 := Scalar.cmpi .sge v30 c5_i32_75
  let v94 : BitVec 32 := Scalar.extui v93
  let c0_i32_76 : BitVec 32 := 0#32
  let v95 : BitVec 1 := Scalar.cmpi .ne v94 c0_i32_76
  v95

def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_80 : BitVec 32 := 5#32
  let v99 : BitVec 32 := Scalar.subi v30 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k2_off3 (k2_t1 : Fin k2_t1_loop.trips) : Fin 2 → Nat :=
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c0_i32_77 : BitVec 32 := 0#32
  ![v30.toNat, 0]
def k2_off4 (k2_t1 : Fin k2_t1_loop.trips) (c0_i32_25 : BitVec 32) : Fin 2 → Nat :=
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let v29 : BitVec 32 := Scalar.addi v28 c0_i32_25
  let c0_i32_27 : BitVec 32 := 0#32
  ![v29.toNat, 0]
def k2_off5 (i : grid2.Coords) (k2_t1 : Fin k2_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_24 : BitVec 32 := 5#32
  let v28 : BitVec 32 := Scalar.muli arg21 c5_i32_24
  let v29 : BitVec 32 := Scalar.addi v28 c0_i32_25
  let c64_i32 : BitVec 32 := 64#32
  let v37 : BitVec 32 := Scalar.muli v29 c64_i32
  let v38 : BitVec 32 := Scalar.addi v2 v37
  let c0_i32_30 : BitVec 32 := 0#32
  ![v38.toNat, 0]
def k2_cond3 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c25_i32_35 : BitVec 32 := 25#32
  let v44 : BitVec 1 := Scalar.cmpi .slt v43 c25_i32_35
  let v45 : BitVec 32 := Scalar.extui v44
  let c0_i32_36 : BitVec 32 := 0#32
  let v46 : BitVec 1 := Scalar.cmpi .ne v45 c0_i32_36
  v46

def k2_cond4 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_75 : BitVec 32 := 5#32
  let v93 : BitVec 1 := Scalar.cmpi .sge v43 c5_i32_75
  let v94 : BitVec 32 := Scalar.extui v93
  let c0_i32_76 : BitVec 32 := 0#32
  let v95 : BitVec 1 := Scalar.cmpi .ne v94 c0_i32_76
  v95

def k2_off6 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_80 : BitVec 32 := 5#32
  let v99 : BitVec 32 := Scalar.subi v43 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k2_off7 (k2_t1 : Fin k2_t1_loop.trips) : Fin 2 → Nat :=
  let c0_i32_11 : BitVec 32 := 0#32
  let c1_i32_12 : BitVec 32 := 1#32
  let arg21 : BitVec 32 := Scf.iv c0_i32_11 c1_i32_12 k2_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c0_i32_77 : BitVec 32 := 0#32
  ![v43.toNat, 0]
def k2_cond5 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c25_i32_46 : BitVec 32 := 25#32
  let v57 : BitVec 1 := Scalar.cmpi .slt v56 c25_i32_46
  let v58 : BitVec 32 := Scalar.extui v57
  let c0_i32_47 : BitVec 32 := 0#32
  let v59 : BitVec 1 := Scalar.cmpi .ne v58 c0_i32_47
  v59

def k2_cond6 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_75 : BitVec 32 := 5#32
  let v93 : BitVec 1 := Scalar.cmpi .sge v56 c5_i32_75
  let v94 : BitVec 32 := Scalar.extui v93
  let c0_i32_76 : BitVec 32 := 0#32
  let v95 : BitVec 1 := Scalar.cmpi .ne v94 c0_i32_76
  v95

def k2_off8 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_80 : BitVec 32 := 5#32
  let v99 : BitVec 32 := Scalar.subi v56 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k2_off9 (k2_t1 : Fin k2_t1_loop.trips) : Fin 2 → Nat :=
  let c0_i32_11 : BitVec 32 := 0#32
  let c1_i32_12 : BitVec 32 := 1#32
  let arg21 : BitVec 32 := Scf.iv c0_i32_11 c1_i32_12 k2_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c0_i32_77 : BitVec 32 := 0#32
  ![v56.toNat, 0]
def k2_cond7 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c25_i32_57 : BitVec 32 := 25#32
  let v70 : BitVec 1 := Scalar.cmpi .slt v69 c25_i32_57
  let v71 : BitVec 32 := Scalar.extui v70
  let c0_i32_58 : BitVec 32 := 0#32
  let v72 : BitVec 1 := Scalar.cmpi .ne v71 c0_i32_58
  v72

def k2_cond8 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_75 : BitVec 32 := 5#32
  let v93 : BitVec 1 := Scalar.cmpi .sge v69 c5_i32_75
  let v94 : BitVec 32 := Scalar.extui v93
  let c0_i32_76 : BitVec 32 := 0#32
  let v95 : BitVec 1 := Scalar.cmpi .ne v94 c0_i32_76
  v95

def k2_off10 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_80 : BitVec 32 := 5#32
  let v99 : BitVec 32 := Scalar.subi v69 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k2_off11 (k2_t1 : Fin k2_t1_loop.trips) : Fin 2 → Nat :=
  let c0_i32_11 : BitVec 32 := 0#32
  let c1_i32_12 : BitVec 32 := 1#32
  let arg21 : BitVec 32 := Scf.iv c0_i32_11 c1_i32_12 k2_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c0_i32_77 : BitVec 32 := 0#32
  ![v69.toNat, 0]
def k2_cond9 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c25_i32_67 : BitVec 32 := 25#32
  let v83 : BitVec 1 := Scalar.cmpi .slt v82 c25_i32_67
  let v84 : BitVec 32 := Scalar.extui v83
  let c0_i32_68 : BitVec 32 := 0#32
  let v85 : BitVec 1 := Scalar.cmpi .ne v84 c0_i32_68
  v85

def k2_cond10 (k2_t1 : Fin k2_t1_loop.trips) : BitVec 1 :=
  let c0_i32_11 : BitVec 32 := 0#32
  let c1_i32_12 : BitVec 32 := 1#32
  let arg21 : BitVec 32 := Scf.iv c0_i32_11 c1_i32_12 k2_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_75 : BitVec 32 := 5#32
  let v93 : BitVec 1 := Scalar.cmpi .sge v82 c5_i32_75
  let v94 : BitVec 32 := Scalar.extui v93
  let c0_i32_76 : BitVec 32 := 0#32
  let v95 : BitVec 1 := Scalar.cmpi .ne v94 c0_i32_76
  v95

def k2_off12 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k2_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_80 : BitVec 32 := 5#32
  let v99 : BitVec 32 := Scalar.subi v82 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k2_off13 (k2_t1 : Fin k2_t1_loop.trips) : Fin 2 → Nat :=
  let c0_i32_11 : BitVec 32 := 0#32
  let c1_i32_12 : BitVec 32 := 1#32
  let arg21 : BitVec 32 := Scf.iv c0_i32_11 c1_i32_12 k2_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c0_i32_77 : BitVec 32 := 0#32
  ![v82.toNat, 0]
def k2_off14 (i : grid2.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v13 : BitVec 32 := Scalar.addi v2 c1280_i32
  let c0_i32_14 : BitVec 32 := 0#32
  ![v13.toNat, 0]
abbrev grid3 : Pipeline.Grid := ⟨2, ![2, 16], ![false, false]⟩

def k3_off1 (i : grid3.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r0 : BitVec 32 := 0#32
  let c0_i32_25_r0 : BitVec 32 := 0#32
  ![v1.toNat, 0, 0]
@[reducible] def k3_t1_loop : Scf.Loop 32 :=
  let c0_i32_11 : BitVec 32 := 0#32
  let c5_i32 : BitVec 32 := 5#32
  let v12 : BitVec 32 := Scalar.addi c0_i32_11 c5_i32
  let c1_i32_12 : BitVec 32 := 1#32
  ⟨c0_i32_11, v12, c1_i32_12⟩
def k3_cond1 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c25_i32 : BitVec 32 := 25#32
  let v31 : BitVec 1 := Scalar.cmpi .slt v30 c25_i32
  let v32 : BitVec 32 := Scalar.extui v31
  let c0_i32_26 : BitVec 32 := 0#32
  let v33 : BitVec 1 := Scalar.cmpi .ne v32 c0_i32_26
  v33

def k3_cond2 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_75 : BitVec 32 := 5#32
  let v93 : BitVec 1 := Scalar.cmpi .sge v30 c5_i32_75
  let v94 : BitVec 32 := Scalar.extui v93
  let c0_i32_76 : BitVec 32 := 0#32
  let v95 : BitVec 1 := Scalar.cmpi .ne v94 c0_i32_76
  v95

def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c5_i32_80 : BitVec 32 := 5#32
  let v99 : BitVec 32 := Scalar.subi v30 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k3_off3 (k3_t1 : Fin k3_t1_loop.trips) : Fin 2 → Nat :=
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let c0_i32_25 : BitVec 32 := 0#32
  let v29 : BitVec 32 := Scalar.addi v28 c0_i32_25
  let c3_i32 : BitVec 32 := 3#32
  let v30 : BitVec 32 := Scalar.addi v29 c3_i32
  let c0_i32_77 : BitVec 32 := 0#32
  ![v30.toNat, 0]
def k3_off4 (k3_t1 : Fin k3_t1_loop.trips) (c0_i32_25 : BitVec 32) : Fin 2 → Nat :=
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let v29 : BitVec 32 := Scalar.addi v28 c0_i32_25
  let c0_i32_27 : BitVec 32 := 0#32
  ![v29.toNat, 0]
def k3_off5 (i : grid3.Coords) (k3_t1 : Fin k3_t1_loop.trips) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_24 : BitVec 32 := 5#32
  let v28 : BitVec 32 := Scalar.muli arg21 c5_i32_24
  let v29 : BitVec 32 := Scalar.addi v28 c0_i32_25
  let c64_i32 : BitVec 32 := 64#32
  let v37 : BitVec 32 := Scalar.muli v29 c64_i32
  let v38 : BitVec 32 := Scalar.addi v2 v37
  let c0_i32_30 : BitVec 32 := 0#32
  ![v38.toNat, 0]
def k3_cond3 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c25_i32_35 : BitVec 32 := 25#32
  let v44 : BitVec 1 := Scalar.cmpi .slt v43 c25_i32_35
  let v45 : BitVec 32 := Scalar.extui v44
  let c0_i32_36 : BitVec 32 := 0#32
  let v46 : BitVec 1 := Scalar.cmpi .ne v45 c0_i32_36
  v46

def k3_cond4 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_75 : BitVec 32 := 5#32
  let v93 : BitVec 1 := Scalar.cmpi .sge v43 c5_i32_75
  let v94 : BitVec 32 := Scalar.extui v93
  let c0_i32_76 : BitVec 32 := 0#32
  let v95 : BitVec 1 := Scalar.cmpi .ne v94 c0_i32_76
  v95

def k3_off6 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c5_i32_80 : BitVec 32 := 5#32
  let v99 : BitVec 32 := Scalar.subi v43 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k3_off7 (k3_t1 : Fin k3_t1_loop.trips) : Fin 2 → Nat :=
  let c0_i32_11 : BitVec 32 := 0#32
  let c1_i32_12 : BitVec 32 := 1#32
  let arg21 : BitVec 32 := Scf.iv c0_i32_11 c1_i32_12 k3_t1
  let c5_i32_32 : BitVec 32 := 5#32
  let v41 : BitVec 32 := Scalar.muli arg21 c5_i32_32
  let c1_i32_33 : BitVec 32 := 1#32
  let v42 : BitVec 32 := Scalar.addi v41 c1_i32_33
  let c3_i32_34 : BitVec 32 := 3#32
  let v43 : BitVec 32 := Scalar.addi v42 c3_i32_34
  let c0_i32_77 : BitVec 32 := 0#32
  ![v43.toNat, 0]
def k3_cond5 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c25_i32_46 : BitVec 32 := 25#32
  let v57 : BitVec 1 := Scalar.cmpi .slt v56 c25_i32_46
  let v58 : BitVec 32 := Scalar.extui v57
  let c0_i32_47 : BitVec 32 := 0#32
  let v59 : BitVec 1 := Scalar.cmpi .ne v58 c0_i32_47
  v59

def k3_cond6 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_75 : BitVec 32 := 5#32
  let v93 : BitVec 1 := Scalar.cmpi .sge v56 c5_i32_75
  let v94 : BitVec 32 := Scalar.extui v93
  let c0_i32_76 : BitVec 32 := 0#32
  let v95 : BitVec 1 := Scalar.cmpi .ne v94 c0_i32_76
  v95

def k3_off8 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c5_i32_80 : BitVec 32 := 5#32
  let v99 : BitVec 32 := Scalar.subi v56 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k3_off9 (k3_t1 : Fin k3_t1_loop.trips) : Fin 2 → Nat :=
  let c0_i32_11 : BitVec 32 := 0#32
  let c1_i32_12 : BitVec 32 := 1#32
  let arg21 : BitVec 32 := Scf.iv c0_i32_11 c1_i32_12 k3_t1
  let c5_i32_43 : BitVec 32 := 5#32
  let v54 : BitVec 32 := Scalar.muli arg21 c5_i32_43
  let c2_i32_44 : BitVec 32 := 2#32
  let v55 : BitVec 32 := Scalar.addi v54 c2_i32_44
  let c3_i32_45 : BitVec 32 := 3#32
  let v56 : BitVec 32 := Scalar.addi v55 c3_i32_45
  let c0_i32_77 : BitVec 32 := 0#32
  ![v56.toNat, 0]
def k3_cond7 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c25_i32_57 : BitVec 32 := 25#32
  let v70 : BitVec 1 := Scalar.cmpi .slt v69 c25_i32_57
  let v71 : BitVec 32 := Scalar.extui v70
  let c0_i32_58 : BitVec 32 := 0#32
  let v72 : BitVec 1 := Scalar.cmpi .ne v71 c0_i32_58
  v72

def k3_cond8 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_75 : BitVec 32 := 5#32
  let v93 : BitVec 1 := Scalar.cmpi .sge v69 c5_i32_75
  let v94 : BitVec 32 := Scalar.extui v93
  let c0_i32_76 : BitVec 32 := 0#32
  let v95 : BitVec 1 := Scalar.cmpi .ne v94 c0_i32_76
  v95

def k3_off10 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c5_i32_80 : BitVec 32 := 5#32
  let v99 : BitVec 32 := Scalar.subi v69 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k3_off11 (k3_t1 : Fin k3_t1_loop.trips) : Fin 2 → Nat :=
  let c0_i32_11 : BitVec 32 := 0#32
  let c1_i32_12 : BitVec 32 := 1#32
  let arg21 : BitVec 32 := Scf.iv c0_i32_11 c1_i32_12 k3_t1
  let c5_i32_54 : BitVec 32 := 5#32
  let v67 : BitVec 32 := Scalar.muli arg21 c5_i32_54
  let c3_i32_55 : BitVec 32 := 3#32
  let v68 : BitVec 32 := Scalar.addi v67 c3_i32_55
  let c3_i32_56 : BitVec 32 := 3#32
  let v69 : BitVec 32 := Scalar.addi v68 c3_i32_56
  let c0_i32_77 : BitVec 32 := 0#32
  ![v69.toNat, 0]
def k3_cond9 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c25_i32_67 : BitVec 32 := 25#32
  let v83 : BitVec 1 := Scalar.cmpi .slt v82 c25_i32_67
  let v84 : BitVec 32 := Scalar.extui v83
  let c0_i32_68 : BitVec 32 := 0#32
  let v85 : BitVec 1 := Scalar.cmpi .ne v84 c0_i32_68
  v85

def k3_cond10 (k3_t1 : Fin k3_t1_loop.trips) : BitVec 1 :=
  let c0_i32_11 : BitVec 32 := 0#32
  let c1_i32_12 : BitVec 32 := 1#32
  let arg21 : BitVec 32 := Scf.iv c0_i32_11 c1_i32_12 k3_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_75 : BitVec 32 := 5#32
  let v93 : BitVec 1 := Scalar.cmpi .sge v82 c5_i32_75
  let v94 : BitVec 32 := Scalar.extui v93
  let c0_i32_76 : BitVec 32 := 0#32
  let v95 : BitVec 1 := Scalar.cmpi .ne v94 c0_i32_76
  v95

def k3_off12 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_11 : BitVec 32 := 0#32
  let c1_i32_12 : BitVec 32 := 1#32
  let arg21 : BitVec 32 := Scf.iv c0_i32_11 c1_i32_12 k3_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c5_i32_80 : BitVec 32 := 5#32
  let v99 : BitVec 32 := Scalar.subi v82 c5_i32_80
  let c64_i32_81 : BitVec 32 := 64#32
  let v100 : BitVec 32 := Scalar.muli v99 c64_i32_81
  let v101 : BitVec 32 := Scalar.addi v2 v100
  let c0_i32_82 : BitVec 32 := 0#32
  ![v101.toNat, 0]
def k3_off13 (k3_t1 : Fin k3_t1_loop.trips) : Fin 2 → Nat :=
  let c0_i32_11 : BitVec 32 := 0#32
  let c1_i32_12 : BitVec 32 := 1#32
  let arg21 : BitVec 32 := Scf.iv c0_i32_11 c1_i32_12 k3_t1
  let c5_i32_65 : BitVec 32 := 5#32
  let v80 : BitVec 32 := Scalar.muli arg21 c5_i32_65
  let c4_i32 : BitVec 32 := 4#32
  let v81 : BitVec 32 := Scalar.addi v80 c4_i32
  let c3_i32_66 : BitVec 32 := 3#32
  let v82 : BitVec 32 := Scalar.addi v81 c3_i32_66
  let c0_i32_77 : BitVec 32 := 0#32
  ![v82.toNat, 0]
def k3_off14 (i : grid3.Coords) (c1280_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v13 : BitVec 32 := Scalar.addi v2 c1280_i32
  let c0_i32_14 : BitVec 32 := 0#32
  ![v13.toNat, 0]
abbrev grid4 : Pipeline.Grid := ⟨1, ![4], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage4_0 : Fin 2 → Memref sig .tc .vmem S64x200x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S64x200 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S200x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S64x200x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![4], ![false]⟩

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

abbrev stage5_0 : Fin 2 → Memref sig .tc .vmem S64x200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x200 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S64x200x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

abbrev stage6_0 : Fin 2 → Memref sig .tc .vmem S64x200x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x200 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S200x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S64x200x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![4], ![false]⟩

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

abbrev stage7_0 : Fin 2 → Memref sig .tc .vmem S64x200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x200 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S200x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S64x200x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S1024x200_S204800 : S1024x200.ShapeCasts S204800
  shapeCasts_S204800_S1024x200 : S204800.ShapeCasts S1024x200
  sliceFits_S1024x200_S256x200 : S1024x200.Slices (fun _ => 0) S256x200
  h_S_ : 0 < S_.numel
  shapeCasts_S256x200_S32x25x64 : S256x200.ShapeCasts S32x25x64
  squeezes_S1x25x64_S25x64 : S1x25x64.Squeezes S25x64
  inb_S25x64_S1x64_0_0 : ∀ a, (![0, 0] : Fin 2 → Nat) a + S1x64.size a ≤ S25x64.size a
  squeezes_S1x64_S64 : S1x64.Squeezes S64
  inb_S100000x128_S100000x128_0_0 : ∀ a, (![0, 0] : Fin 2 → Nat) a + S100000x128.size a ≤ S100000x128.size a
  gathers_S100000x128_S64x128 : S100000x128.Gathers 0 S64x128
  inb_S25x64_S1x64_1_0 : ∀ a, (![1, 0] : Fin 2 → Nat) a + S1x64.size a ≤ S25x64.size a
  inb_S25x64_S1x64_2_0 : ∀ a, (![2, 0] : Fin 2 → Nat) a + S1x64.size a ≤ S25x64.size a
  slices_S512x128_S200x128_0_0 : S512x128.Slices ![0, 0] S200x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S200x128_0_1 : S1x128.BroadcastsInDim S200x128 (![0, 1] : Fin 2 → Fin S200x128.rank)
  slices_S2x128_S1x128_1_0 : S2x128.Slices ![1, 0] S1x128
  shapeCasts_S128_S1x128 : S128.ShapeCasts S1x128
  shapeCasts_S51200x128_S256x200x128 : S51200x128.ShapeCasts S256x200x128
  inb_S64x200x128_S64x200x128_0_0_0 : ∀ a, (![0, 0, 0] : Fin 3 → Nat) a + S64x200x128.size a ≤ S64x200x128.size a
  h_S64x200x128 : 0 < S64x200x128.numel
  shapeCasts_S64x200x128_S64x200x128 : S64x200x128.ShapeCasts S64x200x128
  inb_S64x200_S64x200_0_0 : ∀ a, (![0, 0] : Fin 2 → Nat) a + S64x200.size a ≤ S64x200.size a
  h_S64x200 : 0 < S64x200.numel
  shapeCasts_S64x200_S64x200x1 : S64x200.ShapeCasts S64x200x1
  broadcasts_S64x200x1_S64x200x128 : S64x200x1.Broadcasts S64x200x128
  inb_S200x128_S200x128_0_0 : ∀ a, (![0, 0] : Fin 2 → Nat) a + S200x128.size a ≤ S200x128.size a
  h_S200x128 : 0 < S200x128.numel
  shapeCasts_S200x128_S200x128 : S200x128.ShapeCasts S200x128
  shapeCasts_S200x128_S1x200x128 : S200x128.ShapeCasts S1x200x128
  broadcasts_S1x200x128_S64x200x128 : S1x200x128.Broadcasts S64x200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S64x200x128 : S1x1x128.Broadcasts S64x200x128
  reduces_S64x200x128_S64x200 : S64x200x128.Reduces [2] S64x200
  hcc0_scratch6 : 0 + S_.numel ≤ 84
  hcc0_scratch7 : 1 + S_.numel ≤ 84
  hcc0_scratch8 : 2 + S_.numel ≤ 84
  hcc0_scratch9 : 3 + S_.numel ≤ 84
  hcc0_scratch10 : 4 + S_.numel ≤ 84
  hcc0_scratch11 : 5 + S_.numel ≤ 84
  hcc0_scratch12 : 6 + S_.numel ≤ 84
  hcc0_scratch13 : 7 + S_.numel ≤ 84
  hcc0_scratch14 : 8 + S_.numel ≤ 84
  hcc0_scratch15 : 9 + S_.numel ≤ 84
  hcc0_scoped0 : 10 + S_.numel ≤ 84
  hcc1_scratch6 : 11 + S_.numel ≤ 84
  hcc1_scratch7 : 12 + S_.numel ≤ 84
  hcc1_scratch8 : 13 + S_.numel ≤ 84
  hcc1_scratch9 : 14 + S_.numel ≤ 84
  hcc1_scratch10 : 15 + S_.numel ≤ 84
  hcc1_scratch11 : 16 + S_.numel ≤ 84
  hcc1_scratch12 : 17 + S_.numel ≤ 84
  hcc1_scratch13 : 18 + S_.numel ≤ 84
  hcc1_scratch14 : 19 + S_.numel ≤ 84
  hcc1_scratch15 : 20 + S_.numel ≤ 84
  hcc1_scoped0 : 21 + S_.numel ≤ 84
  hcc2_scratch6 : 22 + S_.numel ≤ 84
  hcc2_scratch7 : 23 + S_.numel ≤ 84
  hcc2_scratch8 : 24 + S_.numel ≤ 84
  hcc2_scratch9 : 25 + S_.numel ≤ 84
  hcc2_scratch10 : 26 + S_.numel ≤ 84
  hcc2_scratch11 : 27 + S_.numel ≤ 84
  hcc2_scratch12 : 28 + S_.numel ≤ 84
  hcc2_scratch13 : 29 + S_.numel ≤ 84
  hcc2_scratch14 : 30 + S_.numel ≤ 84
  hcc2_scratch15 : 31 + S_.numel ≤ 84
  hcc2_scoped0 : 32 + S_.numel ≤ 84
  hcc3_scratch6 : 33 + S_.numel ≤ 84
  hcc3_scratch7 : 34 + S_.numel ≤ 84
  hcc3_scratch8 : 35 + S_.numel ≤ 84
  hcc3_scratch9 : 36 + S_.numel ≤ 84
  hcc3_scratch10 : 37 + S_.numel ≤ 84
  hcc3_scratch11 : 38 + S_.numel ≤ 84
  hcc3_scratch12 : 39 + S_.numel ≤ 84
  hcc3_scratch13 : 40 + S_.numel ≤ 84
  hcc3_scratch14 : 41 + S_.numel ≤ 84
  hcc3_scratch15 : 42 + S_.numel ≤ 84
  hcc3_scoped0 : 43 + S_.numel ≤ 84
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x25x64.size a ≤ S32x25x64.size a
  k0_t1_ok : k0_t1_loop.OK
  k0_off2_inb : ∀ (i : grid0.Coords) (k0_t1 : Fin k0_t1_loop.trips), ∀ (k0_h1 : k0_cond1 k0_t1 = 1#1), ∀ (k0_h2 : k0_cond2 k0_t1 = 1#1), ∀ a, (k0_off2 i k0_t1) a + S64x128.size a ≤ S51200x128.size a
  k0_off3_inb : ∀ k0_t1 : Fin k0_t1_loop.trips, ∀ (k0_h1 : k0_cond1 k0_t1 = 1#1), ∀ a, (k0_off3 k0_t1) a + S1x64.size a ≤ S25x64.size a
  k0_off4_inb : ∀ k0_t1 : Fin k0_t1_loop.trips, ∀ (r : Fin 5), ∀ a, (k0_off4 k0_t1 (BitVec.ofNat 32 r.val)) a + S1x64.size a ≤ S25x64.size a
  k0_off5_inb : ∀ (i : grid0.Coords) (k0_t1 : Fin k0_t1_loop.trips), ∀ (r : Fin 5), ∀ a, (k0_off5 i k0_t1 (BitVec.ofNat 32 r.val)) a + S64x128.size a ≤ S51200x128.size a
  k0_off6_inb : ∀ (i : grid0.Coords) (k0_t1 : Fin k0_t1_loop.trips), ∀ (k0_h3 : k0_cond3 k0_t1 = 1#1), ∀ (k0_h4 : k0_cond4 k0_t1 = 1#1), ∀ a, (k0_off6 i k0_t1) a + S64x128.size a ≤ S51200x128.size a
  k0_off7_inb : ∀ k0_t1 : Fin k0_t1_loop.trips, ∀ (k0_h3 : k0_cond3 k0_t1 = 1#1), ∀ a, (k0_off7 k0_t1) a + S1x64.size a ≤ S25x64.size a
  k0_off8_inb : ∀ (i : grid0.Coords) (k0_t1 : Fin k0_t1_loop.trips), ∀ (k0_h5 : k0_cond5 k0_t1 = 1#1), ∀ (k0_h6 : k0_cond6 k0_t1 = 1#1), ∀ a, (k0_off8 i k0_t1) a + S64x128.size a ≤ S51200x128.size a
  k0_off9_inb : ∀ k0_t1 : Fin k0_t1_loop.trips, ∀ (k0_h5 : k0_cond5 k0_t1 = 1#1), ∀ a, (k0_off9 k0_t1) a + S1x64.size a ≤ S25x64.size a
  k0_off10_inb : ∀ (i : grid0.Coords) (k0_t1 : Fin k0_t1_loop.trips), ∀ (k0_h7 : k0_cond7 k0_t1 = 1#1), ∀ (k0_h8 : k0_cond8 k0_t1 = 1#1), ∀ a, (k0_off10 i k0_t1) a + S64x128.size a ≤ S51200x128.size a
  k0_off11_inb : ∀ k0_t1 : Fin k0_t1_loop.trips, ∀ (k0_h7 : k0_cond7 k0_t1 = 1#1), ∀ a, (k0_off11 k0_t1) a + S1x64.size a ≤ S25x64.size a
  k0_off12_inb : ∀ (i : grid0.Coords) (k0_t1 : Fin k0_t1_loop.trips), ∀ (k0_h9 : k0_cond9 k0_t1 = 1#1), ∀ (k0_h10 : k0_cond10 k0_t1 = 1#1), ∀ a, (k0_off12 i k0_t1) a + S64x128.size a ≤ S51200x128.size a
  k0_off13_inb : ∀ k0_t1 : Fin k0_t1_loop.trips, ∀ (k0_h9 : k0_cond9 k0_t1 = 1#1), ∀ a, (k0_off13 k0_t1) a + S1x64.size a ≤ S25x64.size a
  k0_off14_inb : ∀ i : grid0.Coords, ∀ (r : Fin 5), ∀ a, (k0_off14 i (BitVec.ofNat 32 (1280 + 64 * r.val))) a + S64x128.size a ≤ S51200x128.size a
  hcore1 : grid1.bound 0 ≤ τ.nSC
  hsub1 : grid1.bound 1 ≤ τ.nSub
  k1_off1_inb : ∀ i : grid1.Coords, ∀ a, (k1_off1 i) a + S1x25x64.size a ≤ S32x25x64.size a
  k1_t1_ok : k1_t1_loop.OK
  k1_off2_inb : ∀ (i : grid1.Coords) (k1_t1 : Fin k1_t1_loop.trips), ∀ (k1_h1 : k1_cond1 k1_t1 = 1#1), ∀ (k1_h2 : k1_cond2 k1_t1 = 1#1), ∀ a, (k1_off2 i k1_t1) a + S64x128.size a ≤ S51200x128.size a
  k1_off3_inb : ∀ k1_t1 : Fin k1_t1_loop.trips, ∀ (k1_h1 : k1_cond1 k1_t1 = 1#1), ∀ a, (k1_off3 k1_t1) a + S1x64.size a ≤ S25x64.size a
  k1_off4_inb : ∀ k1_t1 : Fin k1_t1_loop.trips, ∀ (r : Fin 5), ∀ a, (k1_off4 k1_t1 (BitVec.ofNat 32 r.val)) a + S1x64.size a ≤ S25x64.size a
  k1_off5_inb : ∀ (i : grid1.Coords) (k1_t1 : Fin k1_t1_loop.trips), ∀ (r : Fin 5), ∀ a, (k1_off5 i k1_t1 (BitVec.ofNat 32 r.val)) a + S64x128.size a ≤ S51200x128.size a
  k1_off6_inb : ∀ (i : grid1.Coords) (k1_t1 : Fin k1_t1_loop.trips), ∀ (k1_h3 : k1_cond3 k1_t1 = 1#1), ∀ (k1_h4 : k1_cond4 k1_t1 = 1#1), ∀ a, (k1_off6 i k1_t1) a + S64x128.size a ≤ S51200x128.size a
  k1_off7_inb : ∀ k1_t1 : Fin k1_t1_loop.trips, ∀ (k1_h3 : k1_cond3 k1_t1 = 1#1), ∀ a, (k1_off7 k1_t1) a + S1x64.size a ≤ S25x64.size a
  k1_off8_inb : ∀ (i : grid1.Coords) (k1_t1 : Fin k1_t1_loop.trips), ∀ (k1_h5 : k1_cond5 k1_t1 = 1#1), ∀ (k1_h6 : k1_cond6 k1_t1 = 1#1), ∀ a, (k1_off8 i k1_t1) a + S64x128.size a ≤ S51200x128.size a
  k1_off9_inb : ∀ k1_t1 : Fin k1_t1_loop.trips, ∀ (k1_h5 : k1_cond5 k1_t1 = 1#1), ∀ a, (k1_off9 k1_t1) a + S1x64.size a ≤ S25x64.size a
  k1_off10_inb : ∀ (i : grid1.Coords) (k1_t1 : Fin k1_t1_loop.trips), ∀ (k1_h7 : k1_cond7 k1_t1 = 1#1), ∀ (k1_h8 : k1_cond8 k1_t1 = 1#1), ∀ a, (k1_off10 i k1_t1) a + S64x128.size a ≤ S51200x128.size a
  k1_off11_inb : ∀ k1_t1 : Fin k1_t1_loop.trips, ∀ (k1_h7 : k1_cond7 k1_t1 = 1#1), ∀ a, (k1_off11 k1_t1) a + S1x64.size a ≤ S25x64.size a
  k1_off12_inb : ∀ (i : grid1.Coords) (k1_t1 : Fin k1_t1_loop.trips), ∀ (k1_h9 : k1_cond9 k1_t1 = 1#1), ∀ (k1_h10 : k1_cond10 k1_t1 = 1#1), ∀ a, (k1_off12 i k1_t1) a + S64x128.size a ≤ S51200x128.size a
  k1_off13_inb : ∀ k1_t1 : Fin k1_t1_loop.trips, ∀ (k1_h9 : k1_cond9 k1_t1 = 1#1), ∀ a, (k1_off13 k1_t1) a + S1x64.size a ≤ S25x64.size a
  k1_off14_inb : ∀ i : grid1.Coords, ∀ (r : Fin 5), ∀ a, (k1_off14 i (BitVec.ofNat 32 (1280 + 64 * r.val))) a + S64x128.size a ≤ S51200x128.size a
  hcore2 : grid2.bound 0 ≤ τ.nSC
  hsub2 : grid2.bound 1 ≤ τ.nSub
  k2_off1_inb : ∀ i : grid2.Coords, ∀ a, (k2_off1 i) a + S1x25x64.size a ≤ S32x25x64.size a
  k2_t1_ok : k2_t1_loop.OK
  k2_off2_inb : ∀ (i : grid2.Coords) (k2_t1 : Fin k2_t1_loop.trips), ∀ (k2_h1 : k2_cond1 k2_t1 = 1#1), ∀ (k2_h2 : k2_cond2 k2_t1 = 1#1), ∀ a, (k2_off2 i k2_t1) a + S64x128.size a ≤ S51200x128.size a
  k2_off3_inb : ∀ k2_t1 : Fin k2_t1_loop.trips, ∀ (k2_h1 : k2_cond1 k2_t1 = 1#1), ∀ a, (k2_off3 k2_t1) a + S1x64.size a ≤ S25x64.size a
  k2_off4_inb : ∀ k2_t1 : Fin k2_t1_loop.trips, ∀ (r : Fin 5), ∀ a, (k2_off4 k2_t1 (BitVec.ofNat 32 r.val)) a + S1x64.size a ≤ S25x64.size a
  k2_off5_inb : ∀ (i : grid2.Coords) (k2_t1 : Fin k2_t1_loop.trips), ∀ (r : Fin 5), ∀ a, (k2_off5 i k2_t1 (BitVec.ofNat 32 r.val)) a + S64x128.size a ≤ S51200x128.size a
  k2_off6_inb : ∀ (i : grid2.Coords) (k2_t1 : Fin k2_t1_loop.trips), ∀ (k2_h3 : k2_cond3 k2_t1 = 1#1), ∀ (k2_h4 : k2_cond4 k2_t1 = 1#1), ∀ a, (k2_off6 i k2_t1) a + S64x128.size a ≤ S51200x128.size a
  k2_off7_inb : ∀ k2_t1 : Fin k2_t1_loop.trips, ∀ (k2_h3 : k2_cond3 k2_t1 = 1#1), ∀ a, (k2_off7 k2_t1) a + S1x64.size a ≤ S25x64.size a
  k2_off8_inb : ∀ (i : grid2.Coords) (k2_t1 : Fin k2_t1_loop.trips), ∀ (k2_h5 : k2_cond5 k2_t1 = 1#1), ∀ (k2_h6 : k2_cond6 k2_t1 = 1#1), ∀ a, (k2_off8 i k2_t1) a + S64x128.size a ≤ S51200x128.size a
  k2_off9_inb : ∀ k2_t1 : Fin k2_t1_loop.trips, ∀ (k2_h5 : k2_cond5 k2_t1 = 1#1), ∀ a, (k2_off9 k2_t1) a + S1x64.size a ≤ S25x64.size a
  k2_off10_inb : ∀ (i : grid2.Coords) (k2_t1 : Fin k2_t1_loop.trips), ∀ (k2_h7 : k2_cond7 k2_t1 = 1#1), ∀ (k2_h8 : k2_cond8 k2_t1 = 1#1), ∀ a, (k2_off10 i k2_t1) a + S64x128.size a ≤ S51200x128.size a
  k2_off11_inb : ∀ k2_t1 : Fin k2_t1_loop.trips, ∀ (k2_h7 : k2_cond7 k2_t1 = 1#1), ∀ a, (k2_off11 k2_t1) a + S1x64.size a ≤ S25x64.size a
  k2_off12_inb : ∀ (i : grid2.Coords) (k2_t1 : Fin k2_t1_loop.trips), ∀ (k2_h9 : k2_cond9 k2_t1 = 1#1), ∀ (k2_h10 : k2_cond10 k2_t1 = 1#1), ∀ a, (k2_off12 i k2_t1) a + S64x128.size a ≤ S51200x128.size a
  k2_off13_inb : ∀ k2_t1 : Fin k2_t1_loop.trips, ∀ (k2_h9 : k2_cond9 k2_t1 = 1#1), ∀ a, (k2_off13 k2_t1) a + S1x64.size a ≤ S25x64.size a
  k2_off14_inb : ∀ i : grid2.Coords, ∀ (r : Fin 5), ∀ a, (k2_off14 i (BitVec.ofNat 32 (1280 + 64 * r.val))) a + S64x128.size a ≤ S51200x128.size a
  hcore3 : grid3.bound 0 ≤ τ.nSC
  hsub3 : grid3.bound 1 ≤ τ.nSub
  k3_off1_inb : ∀ i : grid3.Coords, ∀ a, (k3_off1 i) a + S1x25x64.size a ≤ S32x25x64.size a
  k3_t1_ok : k3_t1_loop.OK
  k3_off2_inb : ∀ (i : grid3.Coords) (k3_t1 : Fin k3_t1_loop.trips), ∀ (k3_h1 : k3_cond1 k3_t1 = 1#1), ∀ (k3_h2 : k3_cond2 k3_t1 = 1#1), ∀ a, (k3_off2 i k3_t1) a + S64x128.size a ≤ S51200x128.size a
  k3_off3_inb : ∀ k3_t1 : Fin k3_t1_loop.trips, ∀ (k3_h1 : k3_cond1 k3_t1 = 1#1), ∀ a, (k3_off3 k3_t1) a + S1x64.size a ≤ S25x64.size a
  k3_off4_inb : ∀ k3_t1 : Fin k3_t1_loop.trips, ∀ (r : Fin 5), ∀ a, (k3_off4 k3_t1 (BitVec.ofNat 32 r.val)) a + S1x64.size a ≤ S25x64.size a
  k3_off5_inb : ∀ (i : grid3.Coords) (k3_t1 : Fin k3_t1_loop.trips), ∀ (r : Fin 5), ∀ a, (k3_off5 i k3_t1 (BitVec.ofNat 32 r.val)) a + S64x128.size a ≤ S51200x128.size a
  k3_off6_inb : ∀ (i : grid3.Coords) (k3_t1 : Fin k3_t1_loop.trips), ∀ (k3_h3 : k3_cond3 k3_t1 = 1#1), ∀ (k3_h4 : k3_cond4 k3_t1 = 1#1), ∀ a, (k3_off6 i k3_t1) a + S64x128.size a ≤ S51200x128.size a
  k3_off7_inb : ∀ k3_t1 : Fin k3_t1_loop.trips, ∀ (k3_h3 : k3_cond3 k3_t1 = 1#1), ∀ a, (k3_off7 k3_t1) a + S1x64.size a ≤ S25x64.size a
  k3_off8_inb : ∀ (i : grid3.Coords) (k3_t1 : Fin k3_t1_loop.trips), ∀ (k3_h5 : k3_cond5 k3_t1 = 1#1), ∀ (k3_h6 : k3_cond6 k3_t1 = 1#1), ∀ a, (k3_off8 i k3_t1) a + S64x128.size a ≤ S51200x128.size a
  k3_off9_inb : ∀ k3_t1 : Fin k3_t1_loop.trips, ∀ (k3_h5 : k3_cond5 k3_t1 = 1#1), ∀ a, (k3_off9 k3_t1) a + S1x64.size a ≤ S25x64.size a
  k3_off10_inb : ∀ (i : grid3.Coords) (k3_t1 : Fin k3_t1_loop.trips), ∀ (k3_h7 : k3_cond7 k3_t1 = 1#1), ∀ (k3_h8 : k3_cond8 k3_t1 = 1#1), ∀ a, (k3_off10 i k3_t1) a + S64x128.size a ≤ S51200x128.size a
  k3_off11_inb : ∀ k3_t1 : Fin k3_t1_loop.trips, ∀ (k3_h7 : k3_cond7 k3_t1 = 1#1), ∀ a, (k3_off11 k3_t1) a + S1x64.size a ≤ S25x64.size a
  k3_off12_inb : ∀ (i : grid3.Coords) (k3_t1 : Fin k3_t1_loop.trips), ∀ (k3_h9 : k3_cond9 k3_t1 = 1#1), ∀ (k3_h10 : k3_cond10 k3_t1 = 1#1), ∀ a, (k3_off12 i k3_t1) a + S64x128.size a ≤ S51200x128.size a
  k3_off13_inb : ∀ k3_t1 : Fin k3_t1_loop.trips, ∀ (k3_h9 : k3_cond9 k3_t1 = 1#1), ∀ a, (k3_off13 k3_t1) a + S1x64.size a ≤ S25x64.size a
  k3_off14_inb : ∀ i : grid3.Coords, ∀ (r : Fin 5), ∀ a, (k3_off14 i (BitVec.ofNat 32 (1280 + 64 * r.val))) a + S64x128.size a ≤ S51200x128.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x200x128.size a ≤ S256x200x128.size a
  hwx4_0 : ∀ i : grid4.Coords, EltTy.bits .f32 = 32 ∨ (Rect.block (s := S256x200x128) S64x200x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x200.size a ≤ S1024x200.size a
  hwx4_1 : ∀ i : grid4.Coords, EltTy.bits .i32 = 32 ∨ (Rect.block (s := S1024x200) S64x200.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S200x128.size a ≤ S200x128.size a
  hwx4_2 : ∀ i : grid4.Coords, EltTy.bits .f32 = 32 ∨ (Rect.block (s := S200x128) S200x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x200x128.size a ≤ S1024x200x128.size a
  hwx4_6 : ∀ i : grid4.Coords, EltTy.bits .f32 = 32 ∨ (Rect.block (s := S1024x200x128) S64x200x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S64x200x128.size a ≤ S256x200x128.size a
  hwx5_0 : ∀ i : grid5.Coords, EltTy.bits .f32 = 32 ∨ (Rect.block (s := S256x200x128) S64x200x128.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S64x200.size a ≤ S1024x200.size a
  hwx5_1 : ∀ i : grid5.Coords, EltTy.bits .i32 = 32 ∨ (Rect.block (s := S1024x200) S64x200.size (cc5_transform_2 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_3 i = cc5_transform_3 i'
  hinb5_2 : ∀ (i : grid5.Coords) a, (cc5_transform_3 i a + 1) * S200x128.size a ≤ S200x128.size a
  hwx5_2 : ∀ i : grid5.Coords, EltTy.bits .f32 = 32 ∨ (Rect.block (s := S200x128) S200x128.size (cc5_transform_3 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_4 i = cc5_transform_4 i'
  hinb5_3 : ∀ (i : grid5.Coords) a, (cc5_transform_4 i a + 1) * S1x128.size a ≤ S1x128.size a
  hwx5_3 : ∀ i : grid5.Coords, EltTy.bits .f32 = 32 ∨ (Rect.block (s := S1x128) S1x128.size (cc5_transform_4 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_5 i = cc5_transform_5 i'
  hinb5_4 : ∀ (i : grid5.Coords) a, (cc5_transform_5 i a + 1) * S1x128.size a ≤ S1x128.size a
  hwx5_4 : ∀ i : grid5.Coords, EltTy.bits .f32 = 32 ∨ (Rect.block (s := S1x128) S1x128.size (cc5_transform_5 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_6 i = cc5_transform_6 i'
  hinb5_5 : ∀ (i : grid5.Coords) a, (cc5_transform_6 i a + 1) * S1x128.size a ≤ S1x128.size a
  hwx5_5 : ∀ i : grid5.Coords, EltTy.bits .f32 = 32 ∨ (Rect.block (s := S1x128) S1x128.size (cc5_transform_6 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_7 i = cc5_transform_7 i'
  hinb5_6 : ∀ (i : grid5.Coords) a, (cc5_transform_7 i a + 1) * S64x200x128.size a ≤ S1024x200x128.size a
  hwx5_6 : ∀ i : grid5.Coords, EltTy.bits .f32 = 32 ∨ (Rect.block (s := S1024x200x128) S64x200x128.size (cc5_transform_7 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S64x200x128.size a ≤ S256x200x128.size a
  hwx6_0 : ∀ i : grid6.Coords, EltTy.bits .f32 = 32 ∨ (Rect.block (s := S256x200x128) S64x200x128.size (cc6_transform_1 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_2 i = cc6_transform_2 i'
  hinb6_1 : ∀ (i : grid6.Coords) a, (cc6_transform_2 i a + 1) * S64x200.size a ≤ S1024x200.size a
  hwx6_1 : ∀ i : grid6.Coords, EltTy.bits .i32 = 32 ∨ (Rect.block (s := S1024x200) S64x200.size (cc6_transform_2 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_3 i = cc6_transform_3 i'
  hinb6_2 : ∀ (i : grid6.Coords) a, (cc6_transform_3 i a + 1) * S200x128.size a ≤ S200x128.size a
  hwx6_2 : ∀ i : grid6.Coords, EltTy.bits .f32 = 32 ∨ (Rect.block (s := S200x128) S200x128.size (cc6_transform_3 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_4 i = cc6_transform_4 i'
  hinb6_3 : ∀ (i : grid6.Coords) a, (cc6_transform_4 i a + 1) * S1x128.size a ≤ S1x128.size a
  hwx6_3 : ∀ i : grid6.Coords, EltTy.bits .f32 = 32 ∨ (Rect.block (s := S1x128) S1x128.size (cc6_transform_4 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_5 i = cc6_transform_5 i'
  hinb6_4 : ∀ (i : grid6.Coords) a, (cc6_transform_5 i a + 1) * S1x128.size a ≤ S1x128.size a
  hwx6_4 : ∀ i : grid6.Coords, EltTy.bits .f32 = 32 ∨ (Rect.block (s := S1x128) S1x128.size (cc6_transform_5 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_6 i = cc6_transform_6 i'
  hinb6_5 : ∀ (i : grid6.Coords) a, (cc6_transform_6 i a + 1) * S1x128.size a ≤ S1x128.size a
  hwx6_5 : ∀ i : grid6.Coords, EltTy.bits .f32 = 32 ∨ (Rect.block (s := S1x128) S1x128.size (cc6_transform_6 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_7 i = cc6_transform_7 i'
  hinb6_6 : ∀ (i : grid6.Coords) a, (cc6_transform_7 i a + 1) * S64x200x128.size a ≤ S1024x200x128.size a
  hwx6_6 : ∀ i : grid6.Coords, EltTy.bits .f32 = 32 ∨ (Rect.block (s := S1024x200x128) S64x200x128.size (cc6_transform_7 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S64x200x128.size a ≤ S256x200x128.size a
  hwx7_0 : ∀ i : grid7.Coords, EltTy.bits .f32 = 32 ∨ (Rect.block (s := S256x200x128) S64x200x128.size (cc7_transform_1 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_2 i = cc7_transform_2 i'
  hinb7_1 : ∀ (i : grid7.Coords) a, (cc7_transform_2 i a + 1) * S64x200.size a ≤ S1024x200.size a
  hwx7_1 : ∀ i : grid7.Coords, EltTy.bits .i32 = 32 ∨ (Rect.block (s := S1024x200) S64x200.size (cc7_transform_2 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_3 i = cc7_transform_3 i'
  hinb7_2 : ∀ (i : grid7.Coords) a, (cc7_transform_3 i a + 1) * S200x128.size a ≤ S200x128.size a
  hwx7_2 : ∀ i : grid7.Coords, EltTy.bits .f32 = 32 ∨ (Rect.block (s := S200x128) S200x128.size (cc7_transform_3 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_4 i = cc7_transform_4 i'
  hinb7_3 : ∀ (i : grid7.Coords) a, (cc7_transform_4 i a + 1) * S1x128.size a ≤ S1x128.size a
  hwx7_3 : ∀ i : grid7.Coords, EltTy.bits .f32 = 32 ∨ (Rect.block (s := S1x128) S1x128.size (cc7_transform_4 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_5 i = cc7_transform_5 i'
  hinb7_4 : ∀ (i : grid7.Coords) a, (cc7_transform_5 i a + 1) * S1x128.size a ≤ S1x128.size a
  hwx7_4 : ∀ i : grid7.Coords, EltTy.bits .f32 = 32 ∨ (Rect.block (s := S1x128) S1x128.size (cc7_transform_5 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_6 i = cc7_transform_6 i'
  hinb7_5 : ∀ (i : grid7.Coords) a, (cc7_transform_6 i a + 1) * S1x128.size a ≤ S1x128.size a
  hwx7_5 : ∀ i : grid7.Coords, EltTy.bits .f32 = 32 ∨ (Rect.block (s := S1x128) S1x128.size (cc7_transform_6 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_7 i = cc7_transform_7 i'
  hinb7_6 : ∀ (i : grid7.Coords) a, (cc7_transform_7 i a + 1) * S64x200x128.size a ≤ S1024x200x128.size a
  hwx7_6 : ∀ i : grid7.Coords, EltTy.bits .f32 = 32 ∨ (Rect.block (s := S1024x200x128) S64x200x128.size (cc7_transform_7 i) (hinb7_6 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scratch13 : DmaSems sig S_ := SemArray.consecutive 7 S_ hcc0_scratch13
abbrev cc0_scratch14 : DmaSems sig S_ := SemArray.consecutive 8 S_ hcc0_scratch14
abbrev cc0_scratch15 : DmaSems sig S_ := SemArray.consecutive 9 S_ hcc0_scratch15
abbrev cc0_scoped0 : DmaSems sig S_ := SemArray.consecutive 10 S_ hcc0_scoped0
abbrev cc1_scratch6 : DmaSems sig S_ := SemArray.consecutive 11 S_ hcc1_scratch6
abbrev cc1_scratch7 : DmaSems sig S_ := SemArray.consecutive 12 S_ hcc1_scratch7
abbrev cc1_scratch8 : DmaSems sig S_ := SemArray.consecutive 13 S_ hcc1_scratch8
abbrev cc1_scratch9 : DmaSems sig S_ := SemArray.consecutive 14 S_ hcc1_scratch9
abbrev cc1_scratch10 : DmaSems sig S_ := SemArray.consecutive 15 S_ hcc1_scratch10
abbrev cc1_scratch11 : DmaSems sig S_ := SemArray.consecutive 16 S_ hcc1_scratch11
abbrev cc1_scratch12 : DmaSems sig S_ := SemArray.consecutive 17 S_ hcc1_scratch12
abbrev cc1_scratch13 : DmaSems sig S_ := SemArray.consecutive 18 S_ hcc1_scratch13
abbrev cc1_scratch14 : DmaSems sig S_ := SemArray.consecutive 19 S_ hcc1_scratch14
abbrev cc1_scratch15 : DmaSems sig S_ := SemArray.consecutive 20 S_ hcc1_scratch15
abbrev cc1_scoped0 : DmaSems sig S_ := SemArray.consecutive 21 S_ hcc1_scoped0
abbrev cc2_scratch6 : DmaSems sig S_ := SemArray.consecutive 22 S_ hcc2_scratch6
abbrev cc2_scratch7 : DmaSems sig S_ := SemArray.consecutive 23 S_ hcc2_scratch7
abbrev cc2_scratch8 : DmaSems sig S_ := SemArray.consecutive 24 S_ hcc2_scratch8
abbrev cc2_scratch9 : DmaSems sig S_ := SemArray.consecutive 25 S_ hcc2_scratch9
abbrev cc2_scratch10 : DmaSems sig S_ := SemArray.consecutive 26 S_ hcc2_scratch10
abbrev cc2_scratch11 : DmaSems sig S_ := SemArray.consecutive 27 S_ hcc2_scratch11
abbrev cc2_scratch12 : DmaSems sig S_ := SemArray.consecutive 28 S_ hcc2_scratch12
abbrev cc2_scratch13 : DmaSems sig S_ := SemArray.consecutive 29 S_ hcc2_scratch13
abbrev cc2_scratch14 : DmaSems sig S_ := SemArray.consecutive 30 S_ hcc2_scratch14
abbrev cc2_scratch15 : DmaSems sig S_ := SemArray.consecutive 31 S_ hcc2_scratch15
abbrev cc2_scoped0 : DmaSems sig S_ := SemArray.consecutive 32 S_ hcc2_scoped0
abbrev cc3_scratch6 : DmaSems sig S_ := SemArray.consecutive 33 S_ hcc3_scratch6
abbrev cc3_scratch7 : DmaSems sig S_ := SemArray.consecutive 34 S_ hcc3_scratch7
abbrev cc3_scratch8 : DmaSems sig S_ := SemArray.consecutive 35 S_ hcc3_scratch8
abbrev cc3_scratch9 : DmaSems sig S_ := SemArray.consecutive 36 S_ hcc3_scratch9
abbrev cc3_scratch10 : DmaSems sig S_ := SemArray.consecutive 37 S_ hcc3_scratch10
abbrev cc3_scratch11 : DmaSems sig S_ := SemArray.consecutive 38 S_ hcc3_scratch11
abbrev cc3_scratch12 : DmaSems sig S_ := SemArray.consecutive 39 S_ hcc3_scratch12
abbrev cc3_scratch13 : DmaSems sig S_ := SemArray.consecutive 40 S_ hcc3_scratch13
abbrev cc3_scratch14 : DmaSems sig S_ := SemArray.consecutive 41 S_ hcc3_scratch14
abbrev cc3_scratch15 : DmaSems sig S_ := SemArray.consecutive 42 S_ hcc3_scratch15
abbrev cc3_scoped0 : DmaSems sig S_ := SemArray.consecutive 43 S_ hcc3_scoped0

abbrev win4_0 : Pipeline.Window sig grid4 :=
  Pipeline.Window.ofSpec (Memref.whole main_v28) S64x200x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S64x200.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S200x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v25) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v26) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v27) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v29) S64x200x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v30) S64x200x128.size cc5_transform_1 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S64x200.size cc5_transform_2 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S200x128.size cc5_transform_3 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v25) S1x128.size cc5_transform_4 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S1x128.size cc5_transform_5 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v27) S1x128.size cc5_transform_6 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v31) S64x200x128.size cc5_transform_7 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v32) S64x200x128.size cc6_transform_1 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S64x200.size cc6_transform_2 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v19) S200x128.size cc6_transform_3 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v25) S1x128.size cc6_transform_4 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v26) S1x128.size cc6_transform_5 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v27) S1x128.size cc6_transform_6 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v33) S64x200x128.size cc6_transform_7 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v34) S64x200x128.size cc7_transform_1 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg1) S64x200.size cc7_transform_2 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v19) S200x128.size cc7_transform_3 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v25) S1x128.size cc7_transform_4 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v26) S1x128.size cc7_transform_5 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v27) S1x128.size cc7_transform_6 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v35) S64x200x128.size cc7_transform_7 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

class Facts : Prop extends Facts₀ where

variable [Facts]
-- ==== ReferenceIdeal.lean ====
abbrev S1024x200 : Shape := ⟨2, ![1024, 200]⟩
abbrev S100000x128 : Shape := ⟨2, ![100000, 128]⟩
abbrev S512x128 : Shape := ⟨2, ![512, 128]⟩
abbrev S2x128 : Shape := ⟨2, ![2, 128]⟩
abbrev S128 : Shape := ⟨1, ![128]⟩
abbrev S200 : Shape := ⟨1, ![200]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200x1 : Shape := ⟨2, ![200, 1]⟩
abbrev S1x1 : Shape := ⟨2, ![1, 1]⟩
abbrev S200x128 : Shape := ⟨2, ![200, 128]⟩
abbrev S1x200x128 : Shape := ⟨3, ![1, 200, 128]⟩
abbrev S1x1x128 : Shape := ⟨3, ![1, 1, 128]⟩

abbrev nBuf : Space → Nat
  | .hbm => 110
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .i32⟩
  | .hbm, ⟨2, _⟩ => ⟨S100000x128, .f32⟩
  | .hbm, ⟨3, _⟩ => ⟨S512x128, .f32⟩
  | .hbm, ⟨4, _⟩ => ⟨S2x128, .f32⟩
  | .hbm, ⟨5, _⟩ => ⟨S128, .f32⟩
  | .hbm, ⟨6, _⟩ => ⟨S128, .f32⟩
  | .hbm, ⟨7, _⟩ => ⟨S200, .i32⟩
  | .hbm, ⟨8, _⟩ => ⟨S_, .i32⟩
  | .hbm, ⟨9, _⟩ => ⟨S1024x200, .i32⟩
  | .hbm, ⟨10, _⟩ => ⟨S1024x200, .i1⟩
  | .hbm, ⟨11, _⟩ => ⟨S_, .i32⟩
  | .hbm, ⟨12, _⟩ => ⟨S1024x200, .i32⟩
  | .hbm, ⟨13, _⟩ => ⟨S1024x200, .i32⟩
  | .hbm, ⟨14, _⟩ => ⟨S1024x200, .i32⟩
  | .hbm, ⟨15, _⟩ => ⟨S1024x200x1, .i32⟩
  | .hbm, ⟨16, _⟩ => ⟨S1, .i32⟩
  | .hbm, ⟨17, _⟩ => ⟨S_, .i32⟩
  | .hbm, ⟨18, _⟩ => ⟨S1024x200x1, .i32⟩
  | .hbm, ⟨19, _⟩ => ⟨S1024x200x1, .i1⟩
  | .hbm, ⟨20, _⟩ => ⟨S1x1x1, .i32⟩
  | .hbm, ⟨21, _⟩ => ⟨S1024x200x1, .i32⟩
  | .hbm, ⟨22, _⟩ => ⟨S1024x200x1, .i1⟩
  | .hbm, ⟨23, _⟩ => ⟨S1024x200x1, .i1⟩
  | .hbm, ⟨24, _⟩ => ⟨S_, .i1⟩
  | .hbm, ⟨25, _⟩ => ⟨S1024x200, .i1⟩
  | .hbm, ⟨26, _⟩ => ⟨S1024x200x128, .f32⟩
  | .hbm, ⟨27, _⟩ => ⟨S1024x200x128, .i1⟩
  | .hbm, ⟨28, _⟩ => ⟨S_, .f32⟩
  | .hbm, ⟨29, _⟩ => ⟨S1024x200x128, .f32⟩
  | .hbm, ⟨30, _⟩ => ⟨S1024x200x128, .f32⟩
  | .hbm, ⟨31, _⟩ => ⟨S_, .i32⟩
  | .hbm, ⟨32, _⟩ => ⟨S200, .i32⟩
  | .hbm, ⟨33, _⟩ => ⟨S200, .i1⟩
  | .hbm, ⟨34, _⟩ => ⟨S_, .i32⟩
  | .hbm, ⟨35, _⟩ => ⟨S200, .i32⟩
  | .hbm, ⟨36, _⟩ => ⟨S200, .i32⟩
  | .hbm, ⟨37, _⟩ => ⟨S200, .i32⟩
  | .hbm, ⟨38, _⟩ => ⟨S200x1, .i32⟩
  | .hbm, ⟨39, _⟩ => ⟨S1, .i32⟩
  | .hbm, ⟨40, _⟩ => ⟨S_, .i32⟩
  | .hbm, ⟨41, _⟩ => ⟨S200x1, .i32⟩
  | .hbm, ⟨42, _⟩ => ⟨S200x1, .i1⟩
  | .hbm, ⟨43, _⟩ => ⟨S1x1, .i32⟩
  | .hbm, ⟨44, _⟩ => ⟨S200x1, .i32⟩
  | .hbm, ⟨45, _⟩ => ⟨S200x1, .i1⟩
  | .hbm, ⟨46, _⟩ => ⟨S200x1, .i1⟩
  | .hbm, ⟨47, _⟩ => ⟨S_, .i1⟩
  | .hbm, ⟨48, _⟩ => ⟨S200, .i1⟩
  | .hbm, ⟨49, _⟩ => ⟨S200x128, .f32⟩
  | .hbm, ⟨50, _⟩ => ⟨S200x128, .i1⟩
  | .hbm, ⟨51, _⟩ => ⟨S_, .f32⟩
  | .hbm, ⟨52, _⟩ => ⟨S200x128, .f32⟩
  | .hbm, ⟨53, _⟩ => ⟨S200x128, .f32⟩
  | .hbm, ⟨54, _⟩ => ⟨S1x200x128, .f32⟩
  | .hbm, ⟨55, _⟩ => ⟨S_, .i32⟩
  | .hbm, ⟨56, _⟩ => ⟨S1024x200, .i32⟩
  | .hbm, ⟨57, _⟩ => ⟨S1024x200, .i1⟩
  | .hbm, ⟨58, _⟩ => ⟨S_, .i32⟩
  | .hbm, ⟨59, _⟩ => ⟨S1024x200, .i32⟩
  | .hbm, ⟨60, _⟩ => ⟨S1024x200, .i32⟩
  | .hbm, ⟨61, _⟩ => ⟨S1024x200, .i32⟩
  | .hbm, ⟨62, _⟩ => ⟨S1024x200x1, .i32⟩
  | .hbm, ⟨63, _⟩ => ⟨S1, .i32⟩
  | .hbm, ⟨64, _⟩ => ⟨S_, .i32⟩
  | .hbm, ⟨65, _⟩ => ⟨S1024x200x1, .i32⟩
  | .hbm, ⟨66, _⟩ => ⟨S1024x200x1, .i1⟩
  | .hbm, ⟨67, _⟩ => ⟨S1x1x1, .i32⟩
  | .hbm, ⟨68, _⟩ => ⟨S1024x200x1, .i32⟩
  | .hbm, ⟨69, _⟩ => ⟨S1024x200x1, .i1⟩
  | .hbm, ⟨70, _⟩ => ⟨S1024x200x1, .i1⟩
  | .hbm, ⟨71, _⟩ => ⟨S_, .i1⟩
  | .hbm, ⟨72, _⟩ => ⟨S1024x200, .i1⟩
  | .hbm, ⟨73, _⟩ => ⟨S1024x200x128, .f32⟩
  | .hbm, ⟨74, _⟩ => ⟨S1024x200x128, .i1⟩
  | .hbm, ⟨75, _⟩ => ⟨S_, .f32⟩
  | .hbm, ⟨76, _⟩ => ⟨S1024x200x128, .f32⟩
  | .hbm, ⟨77, _⟩ => ⟨S1024x200x128, .f32⟩
  | .hbm, ⟨78, _⟩ => ⟨S1024x200x128, .f32⟩
  | .hbm, ⟨79, _⟩ => ⟨S1024x200x128, .f32⟩
  | .hbm, ⟨80, _⟩ => ⟨S1024x200x128, .f32⟩
  | .hbm, ⟨81, _⟩ => ⟨S_, .f32⟩
  | .hbm, ⟨82, _⟩ => ⟨S1024x200, .f32⟩
  | .hbm, ⟨83, _⟩ => ⟨S1024x200x1, .f32⟩
  | .hbm, ⟨84, _⟩ => ⟨S_, .f32⟩
  | .hbm, ⟨85, _⟩ => ⟨S1024x200x1, .f32⟩
  | .hbm, ⟨86, _⟩ => ⟨S1024x200x1, .f32⟩
  | .hbm, ⟨87, _⟩ => ⟨S1024x200x128, .f32⟩
  | .hbm, ⟨88, _⟩ => ⟨S1024x200x128, .f32⟩
  | .hbm, ⟨89, _⟩ => ⟨S1024x200x128, .f32⟩
  | .hbm, ⟨90, _⟩ => ⟨S_, .f32⟩
  | .hbm, ⟨91, _⟩ => ⟨S1024x200, .f32⟩
  | .hbm, ⟨92, _⟩ => ⟨S1024x200x1, .f32⟩
  | .hbm, ⟨93, _⟩ => ⟨S_, .f32⟩
  | .hbm, ⟨94, _⟩ => ⟨S1024x200x1, .f32⟩
  | .hbm, ⟨95, _⟩ => ⟨S1024x200x1, .f32⟩
  | .hbm, ⟨96, _⟩ => ⟨S1024x200x128, .f32⟩
  | .hbm, ⟨97, _⟩ => ⟨S1024x200x128, .f32⟩
  | .hbm, ⟨98, _⟩ => ⟨S_, .f32⟩
  | .hbm, ⟨99, _⟩ => ⟨S1024x200x1, .f32⟩
  | .hbm, ⟨100, _⟩ => ⟨S1024x200x1, .f32⟩
  | .hbm, ⟨101, _⟩ => ⟨S1024x200x1, .f32⟩
  | .hbm, ⟨102, _⟩ => ⟨S1024x200x128, .f32⟩
  | .hbm, ⟨103, _⟩ => ⟨S1024x200x128, .f32⟩
  | .hbm, ⟨104, _⟩ => ⟨S1x1x128, .f32⟩
  | .hbm, ⟨105, _⟩ => ⟨S1024x200x128, .f32⟩
  | .hbm, ⟨106, _⟩ => ⟨S1024x200x128, .f32⟩
  | .hbm, ⟨107, _⟩ => ⟨S1x1x128, .f32⟩
  | .hbm, ⟨108, _⟩ => ⟨S1024x200x128, .f32⟩
  | .hbm, ⟨109, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v2 : Ref sig .tc := ⟨.hbm, 53, rfl⟩
abbrev main_v3 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_v7 : Ref sig .tc := ⟨.hbm, 80, rfl⟩
abbrev main_cst : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_1 : Ref sig .tc := ⟨.hbm, 90, rfl⟩
abbrev main_v15 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S_S1024x200x1 : S_.BroadcastsInDim S1024x200x1 (![] : Fin 0 → Fin S1024x200x1.rank)
  bcast_S1_S1x1x1_2 : S1.BroadcastsInDim S1x1x1 (![2] : Fin 1 → Fin S1x1x1.rank)
  bcast_S1x1x1_S1024x200x1_0_1_2 : S1x1x1.BroadcastsInDim S1024x200x1 (![0, 1, 2] : Fin 3 → Fin S1024x200x1.rank)
  reducesTo_S1024x200x1_S1024x200_d2 : S1024x200x1.ReducesTo [2] S1024x200
  h_S_ : 0 < S_.numel
  bcast_S1024x200_S1024x200x128_0_1 : S1024x200.BroadcastsInDim S1024x200x128 (![0, 1] : Fin 2 → Fin S1024x200x128.rank)
  bcast_S_S1024x200x128 : S_.BroadcastsInDim S1024x200x128 (![] : Fin 0 → Fin S1024x200x128.rank)
  bcast_S_S200 : S_.BroadcastsInDim S200 (![] : Fin 0 → Fin S200.rank)
  bcast_S200_S200x1_0 : S200.BroadcastsInDim S200x1 (![0] : Fin 1 → Fin S200x1.rank)
  bcast_S_S200x1 : S_.BroadcastsInDim S200x1 (![] : Fin 0 → Fin S200x1.rank)
  bcast_S1_S1x1_1 : S1.BroadcastsInDim S1x1 (![1] : Fin 1 → Fin S1x1.rank)
  bcast_S1x1_S200x1_0_1 : S1x1.BroadcastsInDim S200x1 (![0, 1] : Fin 2 → Fin S200x1.rank)
  reducesTo_S200x1_S200_d1 : S200x1.ReducesTo [1] S200
  bcast_S200_S200x128_0 : S200.BroadcastsInDim S200x128 (![0] : Fin 1 → Fin S200x128.rank)
  bcast_S_S200x128 : S_.BroadcastsInDim S200x128 (![] : Fin 0 → Fin S200x128.rank)
  bcast_S200x128_S1x200x128_1_2 : S200x128.BroadcastsInDim S1x200x128 (![1, 2] : Fin 2 → Fin S1x200x128.rank)
  bcast_S1x200x128_S1024x200x128_0_1_2 : S1x200x128.BroadcastsInDim S1024x200x128 (![0, 1, 2] : Fin 3 → Fin S1024x200x128.rank)
  reducesTo_S1024x200x128_S1024x200_d2 : S1024x200x128.ReducesTo [2] S1024x200
  bcast_S1024x200x1_S1024x200x128_0_1_2 : S1024x200x1.BroadcastsInDim S1024x200x128 (![0, 1, 2] : Fin 3 → Fin S1024x200x128.rank)
  bcast_S128_S1x1x128_2 : S128.BroadcastsInDim S1x1x128 (![2] : Fin 1 → Fin S1x1x128.rank)
  bcast_S1x1x128_S1024x200x128_0_1_2 : S1x1x128.BroadcastsInDim S1024x200x128 (![0, 1, 2] : Fin 3 → Fin S1024x200x128.rank)
  gather_S100000x128_S1024x200x1_S1024x200x128_2_0_n_n_0_2_1128_wf : GatherDims.WF S100000x128 S1024x200x1 S1024x200x128 [2] [0] [] [0] [] 2 ![1, 128]
  gather_S512x128_S200x1_S200x128_1_0_n_n_0_1_1128_wf : GatherDims.WF S512x128 S200x1 S200x128 [1] [0] [] [0] [] 1 ![1, 128]
  gather_S2x128_S1024x200x1_S1024x200x128_2_0_n_n_0_2_1128_wf : GatherDims.WF S2x128 S1024x200x1 S1024x200x128 [2] [0] [] [0] [] 2 ![1, 128]

variable [Facts₀]

def gather_S100000x128_S1024x200x1_S1024x200x128_2_0_n_n_0_2_1128 : GatherDims S100000x128 S1024x200x1 S1024x200x128 where
  offsetDims := [2]
  collapsedSliceDims := [0]
  operandBatchingDims := []
  startIndicesBatchingDims := []
  startIndexMap := [0]
  indexVectorDim := 2
  sliceSizes := ![1, 128]
  wf := gather_S100000x128_S1024x200x1_S1024x200x128_2_0_n_n_0_2_1128_wf
def gather_S512x128_S200x1_S200x128_1_0_n_n_0_1_1128 : GatherDims S512x128 S200x1 S200x128 where
  offsetDims := [1]
  collapsedSliceDims := [0]
  operandBatchingDims := []
  startIndicesBatchingDims := []
  startIndexMap := [0]
  indexVectorDim := 1
  sliceSizes := ![1, 128]
  wf := gather_S512x128_S200x1_S200x128_1_0_n_n_0_1_1128_wf
def gather_S2x128_S1024x200x1_S1024x200x128_2_0_n_n_0_2_1128 : GatherDims S2x128 S1024x200x1 S1024x200x128 where
  offsetDims := [2]
  collapsedSliceDims := [0]
  operandBatchingDims := []
  startIndicesBatchingDims := []
  startIndexMap := [0]
  indexVectorDim := 2
  sliceSizes := ![1, 128]
  wf := gather_S2x128_S1024x200x1_S1024x200x128_2_0_n_n_0_2_1128_wf

class Facts : Prop extends Facts₀ where

variable [Facts]
-- ==== Proof.Common.lean ====
/-
  The idealized kernel program as the SparseCore launch theorem sees it: the four vector-subcore calls (each the same
  row gather over its own quarter of the token ids), the four TensorCore layer-norm regions as pipelines of the inner
  signature, and the resource algebra the proofs share — the launch handshakes' rounds, the pipelines' staging cells'
  rounds, and the counters of the tiles' own local copies.
-/
import proofs.«203556_g1357209665813_cont_week2b_798_48_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«203556_g1357209665813_cont_week2b_798_48_alg».proof.Proof.Gen.KernelIdeal
import proofs.«203556_g1357209665813_cont_week2b_798_48_alg».proof.Proof.Gen.KernelIdeal.Skeleton
import proofs.«203556_g1357209665813_cont_week2b_798_48_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 4) : (K (F := F)).nSub q = 16 := by
  match q with
  | 0 => rfl
  | 1 => rfl
  | 2 => rfl
  | 3 => rfl
theorem nCore_eq (q : Fin 4) : (K (F := F)).nCore q = 2 := by
  match q with
  | 0 => rfl
  | 1 => rfl
  | 2 => rfl
  | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UP : Type := URounds (GSem nD τ sig) Unit
abbrev UU : Type := UH × (UP × Counters)

/-- The handshakes' rounds sit in the left factor; -/
abbrev EH : Emb UH (MT nD τ sig (HIx 4) (Elt F) ℕ UU ℕ) := embL
/-- the staging cells' rounds in the middle one; the counters are found by instance in the last. -/
def EP : Emb UP (MT nD τ sig (HIx 4) (Elt F) ℕ UU ℕ) :=
  (Emb.inl : Emb UP (UP × Counters)).trans (embR (A := UH) (B := UP × Counters))

instance EP_landsIn : (EP : Emb UP (MT nD τ sig (HIx 4) (Elt F) ℕ UU ℕ)).LandsIn (upEmb : UEmb _ (MT nD τ sig (HIx 4) (Elt F) ℕ UU ℕ)) := by
  unfold EP; infer_instance

end Cert.Proof.KI

end
-- ==== Proof.Region4.lean ====
/-
  Region 4 of the program's TensorCore half (pipeline 0 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.

  Stated at a parameter `V`, the TensorCore's buffer contents when the region is entered, and a parameter `Bd`, a
  bound on the wait pairs the core has recorded:
  * `iblk4`: a window's block at a point, read off its array in `V`;
  * `before4_W_of`: an input window's current staging buffer holds that block at every point, fetched there or not;
  * `out4_6`: what the body leaves in the output window's buffer, as a function of the six input blocks;
  * `sound_kernel4`: the body's triple on whole staging memrefs;
  * `dat4`, `A_eq4`, `after4_W`, `before4_W`, `Φ_eq4`, `owed_eq4`: the pipeline's proof data and its projections;
  * `body_obligation4`: the library's body obligation, at every point.
-/
import proofs.«203556_g1357209665813_cont_week2b_798_48_alg».proof.Proof.Common
import proofs.«203556_g1357209665813_cont_week2b_798_48_alg».proof.Proof.Gen.KernelIdeal.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KI.Reg

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region4
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched
    it there (an unfetched point has the block index of the point before, and the body leaves the block in place), for
    any proof data whose array is `V`'s and whose body leaves the block as found. -/
theorem before4_0_of {c : Dev nD} (dat : Dat τ (Elt F) (HIx 4) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the pipeline fetched
    it there (an unfetched point has the block index of the point before, and the body leaves the block in place), for
    any proof data whose array is `V`'s and whose body leaves the block as found. -/
theorem before4_1_of {c : Dev nD} (dat : Dat τ (Elt F) (HIx 4) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the pipeline fetched
    it there (an unfetched point has the block index of the point before, and the body leaves the block in place), for
    any proof data whose array is `V`'s and whose body leaves the block as found. -/
theorem before4_2_of {c : Dev nD} (dat : Dat τ (Elt F) (HIx 4) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the pipeline fetched
    it there (an unfetched point has the block index of the point before, and the body leaves the block in place), for
    any proof data whose array is `V`'s and whose body leaves the block as found. -/
theorem before4_3_of {c : Dev nD} (dat : Dat τ (Elt F) (HIx 4) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether or not the pipeline fetched
    it there (an unfetched point has the block index of the point before, and the body leaves the block in place), for
    any proof data whose array is `V`'s and whose body leaves the block as found. -/
theorem before4_4_of {c : Dev nD} (dat : Dat τ (Elt F) (HIx 4) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether or not the pipeline fetched
    it there (an unfetched point has the block index of the point before, and the body leaves the block in place), for
    any proof data whose array is `V`'s and whose body leaves the block as found. -/
theorem before4_5_of {c : Dev nD} (dat : Dat τ (Elt F) (HIx 4) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole of a staging buffer -/

abbrev r4_0 : Rect S64x200x128 := Rect.unit (s := S64x200x128) ![0, 0, 0] S64x200x128.size inb_S64x200x128_S64x200x128_0_0_0
abbrev r4_1 : Rect S64x200 := Rect.unit (s := S64x200) ![0, 0] S64x200.size inb_S64x200_S64x200_0_0
abbrev r4_2 : Rect S200x128 := Rect.unit (s := S200x128) ![0, 0] S200x128.size inb_S200x128_S200x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S1x128 := Rect.unit (s := S1x128) ![0, 0] S1x128.size inb_S1x128_S1x128_0_0
abbrev r4_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out4_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r4_6, k4_pay1 (k4_pay2 (View.ld x0 r4_0) (View.ld x1 r4_1) (View.ld x2 r4_2) (View.ld x3 r4_3) (View.ld x4 r4_4)) (View.ld x5 r4_5)⟩]

/-- The one store's rectangle is the whole buffer, so it covers it (a tiling by one tile, checked by evaluation). -/
theorem cover4_6 (p0 : Vec F S64x200x128 .f32) (y : S64x200x128.Idx) :
    ∃ pc ∈ ([⟨r4_6, p0⟩] : List (View.Piece (Elt F) S64x200x128 .f32)), y ∈ pc.1.set :=
  View.cover_of_tiled [⟨r4_6, p0⟩] S64x200x128.size (by rfl) y

/-! ## The body's triple -/

set_option maxHeartbeats 1000000 in
/-- The body on whole staging memrefs — the six inputs' at read contents `x0 … x5`, the output's at anything — runs to
    the continuation holding the inputs' as they were and the output's at `out4_6` of them: the six loads read the
    inputs whole, the output buffer's load is of contents nothing uses, and the one store overwrites all of it. -/
theorem sound_kernel4 (c : Dev nD) (E : Set ℕ) (i : grid4.Coords) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ K ⟨⟩))
      ⊢ wp frame (wpE (defs₀ (F := F)) Variants.none c none) E (cc4__ln_body i a0 ha0 a1 ha1 a2 ha2 a3 ha3 a4 ha4 a5 ha5 a6 ha6) K := by
  simp only [cc4__ln_body_eq_skeleton]; unfold cc4__ln_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The region's invariant on core `c`: the core's scoped buffers that are no staging buffer of this pipeline, each at
    some contents, and its generator register at some state — what the body neither reads nor describes. -/
def Φ4 (c : Dev nD) : sProp 𝕄 :=
  iprop(Pipeline.scopedRest (Ix := HIx 4) (Name := ℕ) (U := UU) (Lvl := ℕ) (Val := Elt F) spec4 c ∗ ∃ r, prngReg c r)

/-- The proof data of pipeline 0 on core `c`: the arrays as the region finds them (`V`); after the body at point `t`
    each input's buffer still at its block and the output's at `out4_6` of the six input blocks; the invariant
    `Φ4` at every point; full shares; nothing owed; the recorded waits within `Bd` throughout. -/
def dat4 (c : Dev nD) : Dat τ (Elt F) (HIx 4) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Φ4 c
  q _ := fullShare
  owed _ := 0
  recorded _ := Bd

/-- The proof data's arrays are the region-entry contents. -/
theorem A_eq4 (c : Dev nD) (w : Fin cfg4.W) : (dat4 V Bd c).A w = V c (Pipeline.arrRef spec4 w) := by
  dsimp only [dat4]

/-- The invariant is the same at every point, -/
theorem Φ_eq4 (c : Dev nD) (t : Fin (cfg4.N + 1)) : (dat4 V Bd c).Φ t = Φ4 c := by
  dsimp only [dat4]
/-- nothing is ever owed, -/
theorem owed_eq4 (c : Dev nD) (t : Fin (cfg4.N + 1)) : (dat4 V Bd c).owed t = 0 := by
  dsimp only [dat4]
/-- and the bound on the recorded waits does not move. -/
theorem recorded_eq4 (c : Dev nD) (t : Fin (cfg4.N + 1)) : (dat4 V Bd c).recorded t = Bd := by
  dsimp only [dat4]

/-- What the body leaves, window by window. -/
theorem after4_0 (c : Dev nD) (t : Fin cfg4.N) : (dat4 V Bd c).after 0 t = iblk4 V c 0 t := by dsimp only [dat4]
theorem after4_1 (c : Dev nD) (t : Fin cfg4.N) : (dat4 V Bd c).after 1 t = iblk4 V c 1 t := by dsimp only [dat4]
theorem after4_2 (c : Dev nD) (t : Fin cfg4.N) : (dat4 V Bd c).after 2 t = iblk4 V c 2 t := by dsimp only [dat4]
theorem after4_3 (c : Dev nD) (t : Fin cfg4.N) : (dat4 V Bd c).after 3 t = iblk4 V c 3 t := by dsimp only [dat4]
theorem after4_4 (c : Dev nD) (t : Fin cfg4.N) : (dat4 V Bd c).after 4 t = iblk4 V c 4 t := by dsimp only [dat4]
theorem after4_5 (c : Dev nD) (t : Fin cfg4.N) : (dat4 V Bd c).after 5 t = iblk4 V c 5 t := by dsimp only [dat4]
theorem after4_6 (c : Dev nD) (t : Fin cfg4.N) : (dat4 V Bd c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V Bd c).before 0 t d = iblk4 V c 0 t :=
  before4_0_of V (dat4 V Bd c) (A_eq4 V Bd c 0) (after4_0 V Bd c) t d
theorem before4_1 (c : Dev nD) (t : Fin cfg4.N) (d) : (dat4 V Bd c).before 1 t d = iblk4 V c 1 t :=
  before4_1_of V (dat4 V Bd c) (A_eq4 V Bd c 1) (after4_1 V Bd c) t d
theorem before4_2 (c : Dev nD) (t : Fin cfg4.N) (d) : (dat4 V Bd c).before 2 t d = iblk4 V c 2 t :=
  before4_2_of V (dat4 V Bd c) (A_eq4 V Bd c 2) (after4_2 V Bd c) t d
theorem before4_3 (c : Dev nD) (t : Fin cfg4.N) (d) : (dat4 V Bd c).before 3 t d = iblk4 V c 3 t :=
  before4_3_of V (dat4 V Bd c) (A_eq4 V Bd c 3) (after4_3 V Bd c) t d
theorem before4_4 (c : Dev nD) (t : Fin cfg4.N) (d) : (dat4 V Bd c).before 4 t d = iblk4 V c 4 t :=
  before4_4_of V (dat4 V Bd c) (A_eq4 V Bd c 4) (after4_4 V Bd c) t d
theorem before4_5 (c : Dev nD) (t : Fin cfg4.N) (d) : (dat4 V Bd c).before 5 t d = iblk4 V c 5 t :=
  before4_5_of V (dat4 V Bd c) (A_eq4 V Bd c 5) (after4_5 V Bd c) t d

/-! ## The body obligation, at a generic point -/

/-- What the body is called with at point `t`: the invariant, the core's dues, and each window's current staging
    buffer at what it then holds, -/
def bodyPre4 (c : Dev nD) (t : Fin cfg4.N) : sProp 𝕄 :=
  iprop((dat4 V Bd c).Φ t.castSucc ∗ (dat4 V Bd c).owesAt none t.castSucc
    ∗ (∃ d, owns (c : Thread nD τ) (st4_0 t) fullShare ((dat4 V Bd c).before 0 t d))
    ∗ (∃ d, owns (c : Thread nD τ) (st4_1 t) fullShare ((dat4 V Bd c).before 1 t d))
    ∗ (∃ d, owns (c : Thread nD τ) (st4_2 t) fullShare ((dat4 V Bd c).before 2 t d))
    ∗ (∃ d, owns (c : Thread nD τ) (st4_3 t) fullShare ((dat4 V Bd c).before 3 t d))
    ∗ (∃ d, owns (c : Thread nD τ) (st4_4 t) fullShare ((dat4 V Bd c).before 4 t d))
    ∗ (∃ d, owns (c : Thread nD τ) (st4_5 t) fullShare ((dat4 V Bd c).before 5 t d))
    ∗ (∃ d, owns (c : Thread nD τ) (st4_6 t) fullShare ((dat4 V Bd c).before 6 t d)))

/-- and what it returns: the same, each buffer at what the body leaves. -/
def bodyPost4 (c : Dev nD) (t : Fin cfg4.N) : sProp 𝕄 :=
  iprop((dat4 V Bd c).Φ t.succ ∗ (dat4 V Bd c).owesAt none t.succ
    ∗ owns (c : Thread nD τ) (st4_0 t) fullShare ((dat4 V Bd c).after 0 t)
    ∗ owns (c : Thread nD τ) (st4_1 t) fullShare ((dat4 V Bd c).after 1 t)
    ∗ owns (c : Thread nD τ) (st4_2 t) fullShare ((dat4 V Bd c).after 2 t)
    ∗ owns (c : Thread nD τ) (st4_3 t) fullShare ((dat4 V Bd c).after 3 t)
    ∗ owns (c : Thread nD τ) (st4_4 t) fullShare ((dat4 V Bd c).after 4 t)
    ∗ owns (c : Thread nD τ) (st4_5 t) fullShare ((dat4 V Bd c).after 5 t)
    ∗ owns (c : Thread nD τ) (st4_6 t) fullShare ((dat4 V Bd c).after 6 t))

/-- The body at any point: the inputs' buffers hold their blocks (`before4_W`), so `sound_kernel4` applies; the
    invariant and the core's dues pass through unread. -/
theorem sound_body4 (c : Dev nD) (t : Fin cfg4.N) :
    bodyPre4 V Bd c t ⊢ wp frame (wpE (defs₀ (F := F)) Variants.none c none) Set.univ (bodyAt4 t) (fun _ => bodyPost4 V Bd c t) := by
  unfold bodyPre4 bodyPost4 bodyAt4
  simp only [before4_0, before4_1, before4_2, before4_3, before4_4, before4_5]
  rw [show (dat4 V Bd c).Φ t.succ = (dat4 V Bd c).Φ t.castSucc from rfl,
    show (dat4 V Bd c).owesAt none t.succ = (dat4 V Bd c).owesAt none t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V Bd c) (defs₀ (F := F)) Variants.none (none : HIx 4) Set.univ := fun t => by
  rw [bigSep_W4, bigSep_W4]
  exact sound_body4 V Bd c t

end Region4

end Cert.Proof.KI.Reg

end
-- ==== Proof.Region5.lean ====
/-
  Region 5 of the program's TensorCore half (pipeline 1 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk5`: a window's block at a point, read off its array in `V`;
  * `before5_W_of`: an input window's current staging buffer holds that block at every point, fetched there or not;
  * `out5_6`: what the body leaves in the output window's buffer, as a function of the six input blocks;
  * `sound_kernel5`: the body's triple on whole staging memrefs;
  * `dat5`, `A_eq5`, `after5_W`, `before5_W`, `Φ_eq5`, `owed_eq5`: the pipeline's proof data and its projections;
  * `body_obligation5`: the library's body obligation, at every point.
-/
import proofs.«203556_g1357209665813_cont_week2b_798_48_alg».proof.Proof.Common
import proofs.«203556_g1357209665813_cont_week2b_798_48_alg».proof.Proof.Gen.KernelIdeal.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KI.Reg

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region5
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched
    it there (an unfetched point has the block index of the point before, and the body leaves the block in place), for
    any proof data whose array is `V`'s and whose body leaves the block as found. -/
theorem before5_0_of {c : Dev nD} (dat : Dat τ (Elt F) (HIx 4) ℕ UU ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the pipeline fetched
    it there (an unfetched point has the block index of the point before, and the body leaves the block in place), for
    any proof data whose array is `V`'s and whose body leaves the block as found. -/
theorem before5_1_of {c : Dev nD} (dat : Dat τ (Elt F) (HIx 4) ℕ UU ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the pipeline fetched
    it there (an unfetched point has the block index of the point before, and the body leaves the block in place), for
    any proof data whose array is `V`'s and whose body leaves the block as found. -/
theorem before5_2_of {c : Dev nD} (dat : Dat τ (Elt F) (HIx 4) ℕ UU ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the pipeline fetched
    it there (an unfetched point has the block index of the point before, and the body leaves the block in place), for
    any proof data whose array is `V`'s and whose body leaves the block as found. -/
theorem before5_3_of {c : Dev nD} (dat : Dat τ (Elt F) (HIx 4) ℕ UU ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not the pipeline fetched
    it there (an unfetched point has the block index of the point before, and the body leaves the block in place), for
    any proof data whose array is `V`'s and whose body leaves the block as found. -/
theorem before5_4_of {c : Dev nD} (dat : Dat τ (Elt F) (HIx 4) ℕ UU ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether or not the pipeline fetched
    it there (an unfetched point has the block index of the point before, and the body leaves the block in place), for
    any proof data whose array is `V`'s and whose body leaves the block as found. -/
theorem before5_5_of {c : Dev nD} (dat : Dat τ (Elt F) (HIx 4) ℕ UU ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store go through the whole of a staging buffer -/

abbrev r5_0 : Rect S64x200x128 := Rect.unit (s := S64x200x128) ![0, 0, 0] S64x200x128.size inb_S64x200x128_S64x200x128_0_0_0
abbrev r5_1 : Rect S64x200 := Rect.unit (s := S64x200) ![0, 0] S64x200.size inb_S64x200_S64x200_0_0
abbrev r5_2 : Rect S200x128 := Rect.unit (s := S200x128) ![0, 0] S200x128.size inb_S200x128_S200x128_0_0
abbrev r5_3 : Rect S1x128 := Rect.unit (s := S1x128) ![0, 0] S1x128.size inb_S1x128_S1x128_0_0
abbrev r5_4 : Rect S1x128 := Rect.unit (s := S1x128) ![0, 0] S1x128.size inb_S1x128_S1x128_0_0
abbrev r5_5 : Rect S1x128 := Rect.unit (s := S1x128) ![0, 0] S1x128.size inb_S1x128_S1x128_0_0
abbrev r5_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out5_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r5_6, k5_pay1 (k5_pay2 (View.ld x0 r5_0) (View.ld x1 r5_1) (View.ld x2 r5_2) (View.ld x3 r5_3) (View.ld x4 r5_4)) (View.ld x5 r5_5)⟩]

/-- The one store's rectangle is the whole buffer, so it covers it (a tiling by one tile, checked by evaluation). -/
theorem cover5_6 (p0 : Vec F S64x200x128 .f32) (y : S64x200x128.Idx) :
    ∃ pc ∈ ([⟨r5_6, p0⟩] : List (View.Piece (Elt F) S64x200x128 .f32)), y ∈ pc.1.set :=
  View.cover_of_tiled [⟨r5_6, p0⟩] S64x200x128.size (by rfl) y

/-! ## The body's triple -/

set_option maxHeartbeats 1000000 in
/-- The body on whole staging memrefs — the six inputs' at read contents `x0 … x5`, the output's at anything — runs to
    the continuation holding the inputs' as they were and the output's at `out5_6` of them: the six loads read the
    inputs whole, the output buffer's load is of contents nothing uses, and the one store overwrites all of it.
    The leading HBM array is passed along and never accessed. -/
theorem sound_kernel5 (c : Dev nD) (E : Set ℕ) (i : grid5.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ K ⟨⟩))
      ⊢ wp frame (wpE (defs₀ (F := F)) Variants.none c none) E (cc5__ln_body_aliased i hb hhb a0 ha0 a1 ha1 a2 ha2 a3 ha3 a4 ha4 a5 ha5 a6 ha6) K := by
  simp only [cc5__ln_body_aliased_eq_skeleton]; unfold cc5__ln_body_aliased_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The region's invariant on core `c`: the core's scoped buffers that are no staging buffer of this pipeline, each at
    some contents, and its generator register at some state — what the body neither reads nor describes. -/
def Φ5 (c : Dev nD) : sProp 𝕄 :=
  iprop(Pipeline.scopedRest (Ix := HIx 4) (Name := ℕ) (U := UU) (Lvl := ℕ) (Val := Elt F) spec5 c ∗ ∃ r, prngReg c r)

/-- The proof data of pipeline 1 on core `c`: the arrays as the region finds them (`V`); after the body at point `t`
    each input's buffer still at its block and the output's at `out5_6` of the six input blocks; the invariant
    `Φ5` at every point; full shares; nothing owed; the recorded waits within `Bd` throughout. -/
def dat5 (c : Dev nD) : Dat τ (Elt F) (HIx 4) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Φ5 c
  q _ := fullShare
  owed _ := 0
  recorded _ := Bd

/-- The proof data's arrays are the region-entry contents. -/
theorem A_eq5 (c : Dev nD) (w : Fin cfg5.W) : (dat5 V Bd c).A w = V c (Pipeline.arrRef spec5 w) := by
  dsimp only [dat5]

/-- The invariant is the same at every point, -/
theorem Φ_eq5 (c : Dev nD) (t : Fin (cfg5.N + 1)) : (dat5 V Bd c).Φ t = Φ5 c := by
  dsimp only [dat5]
/-- nothing is ever owed, -/
theorem owed_eq5 (c : Dev nD) (t : Fin (cfg5.N + 1)) : (dat5 V Bd c).owed t = 0 := by
  dsimp only [dat5]
/-- and the bound on the recorded waits does not move. -/
theorem recorded_eq5 (c : Dev nD) (t : Fin (cfg5.N + 1)) : (dat5 V Bd c).recorded t = Bd := by
  dsimp only [dat5]

/-- What the body leaves, window by window. -/
theorem after5_0 (c : Dev nD) (t : Fin cfg5.N) : (dat5 V Bd c).after 0 t = iblk5 V c 0 t := by dsimp only [dat5]
theorem after5_1 (c : Dev nD) (t : Fin cfg5.N) : (dat5 V Bd c).after 1 t = iblk5 V c 1 t := by dsimp only [dat5]
theorem after5_2 (c : Dev nD) (t : Fin cfg5.N) : (dat5 V Bd c).after 2 t = iblk5 V c 2 t := by dsimp only [dat5]
theorem after5_3 (c : Dev nD) (t : Fin cfg5.N) : (dat5 V Bd c).after 3 t = iblk5 V c 3 t := by dsimp only [dat5]
theorem after5_4 (c : Dev nD) (t : Fin cfg5.N) : (dat5 V Bd c).after 4 t = iblk5 V c 4 t := by dsimp only [dat5]
theorem after5_5 (c : Dev nD) (t : Fin cfg5.N) : (dat5 V Bd c).after 5 t = iblk5 V c 5 t := by dsimp only [dat5]
theorem after5_6 (c : Dev nD) (t : Fin cfg5.N) : (dat5 V Bd c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V Bd c).before 0 t d = iblk5 V c 0 t :=
  before5_0_of V (dat5 V Bd c) (A_eq5 V Bd c 0) (after5_0 V Bd c) t d
theorem before5_1 (c : Dev nD) (t : Fin cfg5.N) (d) : (dat5 V Bd c).before 1 t d = iblk5 V c 1 t :=
  before5_1_of V (dat5 V Bd c) (A_eq5 V Bd c 1) (after5_1 V Bd c) t d
theorem before5_2 (c : Dev nD) (t : Fin cfg5.N) (d) : (dat5 V Bd c).before 2 t d = iblk5 V c 2 t :=
  before5_2_of V (dat5 V Bd c) (A_eq5 V Bd c 2) (after5_2 V Bd c) t d
theorem before5_3 (c : Dev nD) (t : Fin cfg5.N) (d) : (dat5 V Bd c).before 3 t d = iblk5 V c 3 t :=
  before5_3_of V (dat5 V Bd c) (A_eq5 V Bd c 3) (after5_3 V Bd c) t d
theorem before5_4 (c : Dev nD) (t : Fin cfg5.N) (d) : (dat5 V Bd c).before 4 t d = iblk5 V c 4 t :=
  before5_4_of V (dat5 V Bd c) (A_eq5 V Bd c 4) (after5_4 V Bd c) t d
theorem before5_5 (c : Dev nD) (t : Fin cfg5.N) (d) : (dat5 V Bd c).before 5 t d = iblk5 V c 5 t :=
  before5_5_of V (dat5 V Bd c) (A_eq5 V Bd c 5) (after5_5 V Bd c) t d

/-! ## The body obligation, at a generic point -/

/-- What the body is called with at point `t`: the invariant, the core's dues, and each window's current staging
    buffer at what it then holds, -/
def bodyPre5 (c : Dev nD) (t : Fin cfg5.N) : sProp 𝕄 :=
  iprop((dat5 V Bd c).Φ t.castSucc ∗ (dat5 V Bd c).owesAt none t.castSucc
    ∗ (∃ d, owns (c : Thread nD τ) (st5_0 t) fullShare ((dat5 V Bd c).before 0 t d))
    ∗ (∃ d, owns (c : Thread nD τ) (st5_1 t) fullShare ((dat5 V Bd c).before 1 t d))
    ∗ (∃ d, owns (c : Thread nD τ) (st5_2 t) fullShare ((dat5 V Bd c).before 2 t d))
    ∗ (∃ d, owns (c : Thread nD τ) (st5_3 t) fullShare ((dat5 V Bd c).before 3 t d))
    ∗ (∃ d, owns (c : Thread nD τ) (st5_4 t) fullShare ((dat5 V Bd c).before 4 t d))
    ∗ (∃ d, owns (c : Thread nD τ) (st5_5 t) fullShare ((dat5 V Bd c).before 5 t d))
    ∗ (∃ d, owns (c : Thread nD τ) (st5_6 t) fullShare ((dat5 V Bd c).before 6 t d)))

/-- and what it returns: the same, each buffer at what the body leaves. -/
def bodyPost5 (c : Dev nD) (t : Fin cfg5.N) : sProp 𝕄 :=
  iprop((dat5 V Bd c).Φ t.succ ∗ (dat5 V Bd c).owesAt none t.succ
    ∗ owns (c : Thread nD τ) (st5_0 t) fullShare ((dat5 V Bd c).after 0 t)
    ∗ owns (c : Thread nD τ) (st5_1 t) fullShare ((dat5 V Bd c).after 1 t)
    ∗ owns (c : Thread nD τ) (st5_2 t) fullShare ((dat5 V Bd c).after 2 t)
    ∗ owns (c : Thread nD τ) (st5_3 t) fullShare ((dat5 V Bd c).after 3 t)
    ∗ owns (c : Thread nD τ) (st5_4 t) fullShare ((dat5 V Bd c).after 4 t)
    ∗ owns (c : Thread nD τ) (st5_5 t) fullShare ((dat5 V Bd c).after 5 t)
    ∗ owns (c : Thread nD τ) (st5_6 t) fullShare ((dat5 V Bd c).after 6 t))

/-- The body at any point: the inputs' buffers hold their blocks (`before5_W`), so `sound_kernel5` applies; the
    invariant and the core's dues pass through unread. -/
theorem sound_body5 (c : Dev nD) (t : Fin cfg5.N) :
    bodyPre5 V Bd c t ⊢ wp frame (wpE (defs₀ (F := F)) Variants.none c none) Set.univ (bodyAt5 t) (fun _ => bodyPost5 V Bd c t) := by
  unfold bodyPre5 bodyPost5 bodyAt5
  simp only [before5_0, before5_1, before5_2, before5_3, before5_4, before5_5]
  rw [show (dat5 V Bd c).Φ t.succ = (dat5 V Bd c).Φ t.castSucc from rfl,
    show (dat5 V Bd c).owesAt none t.succ = (dat5 V Bd c).owesAt none t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V Bd c) (defs₀ (F := F)) Variants.none (none : HIx 4) Set.univ := fun t => by
  rw [bigSep_W5, bigSep_W5]
  exact sound_body5 V Bd c t

end Region5

end Cert.Proof.KI.Reg

end
-- ==== Proof.Region6.lean ====
/-
  Region 6 of the program's TensorCore half (pipeline 2 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk6`: a window's block at a point, read off its array in `V`;
  * `before6_W_of`: an input window's current staging buffer holds that block at every point, fetched there or not;
  * `out6_6`: what the body leaves in the output window's buffer, as a function of the six input blocks;
  * `sound_kernel6`: the body's triple on whole staging memrefs;
  * `dat6`, `A_eq6`, `after6_W`, `before6_W`, `Φ_eq6`, `owed_eq6`: the pipeline's proof data and its projections;
  * `body_obligation6`: the library's body obligation, at every point.
-/
import proofs.«203556_g1357209665813_cont_week2b_798_48_alg».proof.Proof.Common
import proofs.«203556_g1357209665813_cont_week2b_798_48_alg».proof.Proof.Gen.KernelIdeal.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KI.Reg

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region6
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the pipeline fetched
    it there (an unfetched point has the block index of the point before, and the body leaves the block in place), for
    any proof data whose array is `V`'s and whose body leaves the block as found. -/
theorem before6_0_of {c : Dev nD} (dat : Dat τ (Elt F) (HIx 4) ℕ UU ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not the pipeline fetched
    it there (an unfetched point has the block index of the point before, and the body leaves the block in place), for
    any proof data whose array is `V`'s and whose body leaves the block as found. -/
theorem before6_1_of {c : Dev nD} (dat : Dat τ (Elt F) (HIx 4) ℕ UU ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not the pipeline fetched
    it there (an unfetched point has the block index of the point before, and the body leaves the block in place), for
    any proof data whose array is `V`'s and whose body leaves the block as found. -/
theorem before6_2_of {c : Dev nD} (dat : Dat τ (Elt F) (HIx 4) ℕ UU ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not the pipeline fetched
    it there (an unfetched point has the block index of the point before, and the body leaves the block in place), for
    any proof data whose array is `V`'s and whose body leaves the block as found. -/
theorem before6_3_of {c : Dev nD} (dat : Dat τ (Elt F) (HIx 4) ℕ UU ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether or not the pipeline fetched
    it there (an unfetched point has the block index of the point before, and the body leaves the block in place), for
    any proof data whose array is `V`'s and whose body leaves the block as found. -/
theorem before6_4_of {c : Dev nD} (dat : Dat τ (Elt F) (HIx 4) ℕ UU ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether or not the pipeline fetched
    it there (an unfetched point has the block index of the point before, and the body leaves the block in place), for
    any proof data whose array is `V`'s and whose body leaves the block as found. -/
theorem before6_5_of {c : Dev nD} (dat : Dat τ (Elt F) (HIx 4) ℕ UU ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store go through the whole of a staging buffer -/

abbrev r6_0 : Rect S64x200x128 := Rect.unit (s := S64x200x128) ![0, 0, 0] S64x200x128.size inb_S64x200x128_S64x200x128_0_0_0
abbrev r6_1 : Rect S64x200 := Rect.unit (s := S64x200) ![0, 0] S64x200.size inb_S64x200_S64x200_0_0
abbrev r6_2 : Rect S200x128 := Rect.unit (s := S200x128) ![0, 0] S200x128.size inb_S200x128_S200x128_0_0
abbrev r6_3 : Rect S1x128 := Rect.unit (s := S1x128) ![0, 0] S1x128.size inb_S1x128_S1x128_0_0
abbrev r6_4 : Rect S1x128 := Rect.unit (s := S1x128) ![0, 0] S1x128.size inb_S1x128_S1x128_0_0
abbrev r6_5 : Rect S1x128 := Rect.unit (s := S1x128) ![0, 0] S1x128.size inb_S1x128_S1x128_0_0
abbrev r6_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out6_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r6_6, k6_pay1 (k6_pay2 (View.ld x0 r6_0) (View.ld x1 r6_1) (View.ld x2 r6_2) (View.ld x3 r6_3) (View.ld x4 r6_4)) (View.ld x5 r6_5)⟩]

/-- The one store's rectangle is the whole buffer, so it covers it (a tiling by one tile, checked by evaluation). -/
theorem cover6_6 (p0 : Vec F S64x200x128 .f32) (y : S64x200x128.Idx) :
    ∃ pc ∈ ([⟨r6_6, p0⟩] : List (View.Piece (Elt F) S64x200x128 .f32)), y ∈ pc.1.set :=
  View.cover_of_tiled [⟨r6_6, p0⟩] S64x200x128.size (by rfl) y

/-! ## The body's triple -/

set_option maxHeartbeats 1000000 in
/-- The body on whole staging memrefs — the six inputs' at read contents `x0 … x5`, the output's at anything — runs to
    the continuation holding the inputs' as they were and the output's at `out6_6` of them: the six loads read the
    inputs whole, the output buffer's load is of contents nothing uses, and the one store overwrites all of it.
    The leading HBM array is passed along and never accessed. -/
theorem sound_kernel6 (c : Dev nD) (E : Set ℕ) (i : grid6.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ K ⟨⟩))
      ⊢ wp frame (wpE (defs₀ (F := F)) Variants.none c none) E (cc6__ln_body_aliased i hb hhb a0 ha0 a1 ha1 a2 ha2 a3 ha3 a4 ha4 a5 ha5 a6 ha6) K := by
  simp only [cc6__ln_body_aliased_eq_skeleton]; unfold cc6__ln_body_aliased_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The region's invariant on core `c`: the core's scoped buffers that are no staging buffer of this pipeline, each at
    some contents, and its generator register at some state — what the body neither reads nor describes. -/
def Φ6 (c : Dev nD) : sProp 𝕄 :=
  iprop(Pipeline.scopedRest (Ix := HIx 4) (Name := ℕ) (U := UU) (Lvl := ℕ) (Val := Elt F) spec6 c ∗ ∃ r, prngReg c r)

/-- The proof data of pipeline 2 on core `c`: the arrays as the region finds them (`V`); after the body at point `t`
    each input's buffer still at its block and the output's at `out6_6` of the six input blocks; the invariant
    `Φ6` at every point; full shares; nothing owed; the recorded waits within `Bd` throughout. -/
def dat6 (c : Dev nD) : Dat τ (Elt F) (HIx 4) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Φ6 c
  q _ := fullShare
  owed _ := 0
  recorded _ := Bd

/-- The proof data's arrays are the region-entry contents. -/
theorem A_eq6 (c : Dev nD) (w : Fin cfg6.W) : (dat6 V Bd c).A w = V c (Pipeline.arrRef spec6 w) := by
  dsimp only [dat6]

/-- The invariant is the same at every point, -/
theorem Φ_eq6 (c : Dev nD) (t : Fin (cfg6.N + 1)) : (dat6 V Bd c).Φ t = Φ6 c := by
  dsimp only [dat6]
/-- nothing is ever owed, -/
theorem owed_eq6 (c : Dev nD) (t : Fin (cfg6.N + 1)) : (dat6 V Bd c).owed t = 0 := by
  dsimp only [dat6]
/-- and the bound on the recorded waits does not move. -/
theorem recorded_eq6 (c : Dev nD) (t : Fin (cfg6.N + 1)) : (dat6 V Bd c).recorded t = Bd := by
  dsimp only [dat6]

/-- What the body leaves, window by window. -/
theorem after6_0 (c : Dev nD) (t : Fin cfg6.N) : (dat6 V Bd c).after 0 t = iblk6 V c 0 t := by dsimp only [dat6]
theorem after6_1 (c : Dev nD) (t : Fin cfg6.N) : (dat6 V Bd c).after 1 t = iblk6 V c 1 t := by dsimp only [dat6]
theorem after6_2 (c : Dev nD) (t : Fin cfg6.N) : (dat6 V Bd c).after 2 t = iblk6 V c 2 t := by dsimp only [dat6]
theorem after6_3 (c : Dev nD) (t : Fin cfg6.N) : (dat6 V Bd c).after 3 t = iblk6 V c 3 t := by dsimp only [dat6]
theorem after6_4 (c : Dev nD) (t : Fin cfg6.N) : (dat6 V Bd c).after 4 t = iblk6 V c 4 t := by dsimp only [dat6]
theorem after6_5 (c : Dev nD) (t : Fin cfg6.N) : (dat6 V Bd c).after 5 t = iblk6 V c 5 t := by dsimp only [dat6]
theorem after6_6 (c : Dev nD) (t : Fin cfg6.N) : (dat6 V Bd c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V Bd c).before 0 t d = iblk6 V c 0 t :=
  before6_0_of V (dat6 V Bd c) (A_eq6 V Bd c 0) (after6_0 V Bd c) t d
theorem before6_1 (c : Dev nD) (t : Fin cfg6.N) (d) : (dat6 V Bd c).before 1 t d = iblk6 V c 1 t :=
  before6_1_of V (dat6 V Bd c) (A_eq6 V Bd c 1) (after6_1 V Bd c) t d
theorem before6_2 (c : Dev nD) (t : Fin cfg6.N) (d) : (dat6 V Bd c).before 2 t d = iblk6 V c 2 t :=
  before6_2_of V (dat6 V Bd c) (A_eq6 V Bd c 2) (after6_2 V Bd c) t d
theorem before6_3 (c : Dev nD) (t : Fin cfg6.N) (d) : (dat6 V Bd c).before 3 t d = iblk6 V c 3 t :=
  before6_3_of V (dat6 V Bd c) (A_eq6 V Bd c 3) (after6_3 V Bd c) t d
theorem before6_4 (c : Dev nD) (t : Fin cfg6.N) (d) : (dat6 V Bd c).before 4 t d = iblk6 V c 4 t :=
  before6_4_of V (dat6 V Bd c) (A_eq6 V Bd c 4) (after6_4 V Bd c) t d
theorem before6_5 (c : Dev nD) (t : Fin cfg6.N) (d) : (dat6 V Bd c).before 5 t d = iblk6 V c 5 t :=
  before6_5_of V (dat6 V Bd c) (A_eq6 V Bd c 5) (after6_5 V Bd c) t d

/-! ## The body obligation, at a generic point -/

/-- What the body is called with at point `t`: the invariant, the core's dues, and each window's current staging
    buffer at what it then holds, -/
def bodyPre6 (c : Dev nD) (t : Fin cfg6.N) : sProp 𝕄 :=
  iprop((dat6 V Bd c).Φ t.castSucc ∗ (dat6 V Bd c).owesAt none t.castSucc
    ∗ (∃ d, owns (c : Thread nD τ) (st6_0 t) fullShare ((dat6 V Bd c).before 0 t d))
    ∗ (∃ d, owns (c : Thread nD τ) (st6_1 t) fullShare ((dat6 V Bd c).before 1 t d))
    ∗ (∃ d, owns (c : Thread nD τ) (st6_2 t) fullShare ((dat6 V Bd c).before 2 t d))
    ∗ (∃ d, owns (c : Thread nD τ) (st6_3 t) fullShare ((dat6 V Bd c).before 3 t d))
    ∗ (∃ d, owns (c : Thread nD τ) (st6_4 t) fullShare ((dat6 V Bd c).before 4 t d))
    ∗ (∃ d, owns (c : Thread nD τ) (st6_5 t) fullShare ((dat6 V Bd c).before 5 t d))
    ∗ (∃ d, owns (c : Thread nD τ) (st6_6 t) fullShare ((dat6 V Bd c).before 6 t d)))

/-- and what it returns: the same, each buffer at what the body leaves. -/
def bodyPost6 (c : Dev nD) (t : Fin cfg6.N) : sProp 𝕄 :=
  iprop((dat6 V Bd c).Φ t.succ ∗ (dat6 V Bd c).owesAt none t.succ
    ∗ owns (c : Thread nD τ) (st6_0 t) fullShare ((dat6 V Bd c).after 0 t)
    ∗ owns (c : Thread nD τ) (st6_1 t) fullShare ((dat6 V Bd c).after 1 t)
    ∗ owns (c : Thread nD τ) (st6_2 t) fullShare ((dat6 V Bd c).after 2 t)
    ∗ owns (c : Thread nD τ) (st6_3 t) fullShare ((dat6 V Bd c).after 3 t)
    ∗ owns (c : Thread nD τ) (st6_4 t) fullShare ((dat6 V Bd c).after 4 t)
    ∗ owns (c : Thread nD τ) (st6_5 t) fullShare ((dat6 V Bd c).after 5 t)
    ∗ owns (c : Thread nD τ) (st6_6 t) fullShare ((dat6 V Bd c).after 6 t))

/-- The body at any point: the inputs' buffers hold their blocks (`before6_W`), so `sound_kernel6` applies; the
    invariant and the core's dues pass through unread. -/
theorem sound_body6 (c : Dev nD) (t : Fin cfg6.N) :
    bodyPre6 V Bd c t ⊢ wp frame (wpE (defs₀ (F := F)) Variants.none c none) Set.univ (bodyAt6 t) (fun _ => bodyPost6 V Bd c t) := by
  unfold bodyPre6 bodyPost6 bodyAt6
  simp only [before6_0, before6_1, before6_2, before6_3, before6_4, before6_5]
  rw [show (dat6 V Bd c).Φ t.succ = (dat6 V Bd c).Φ t.castSucc from rfl,
    show (dat6 V Bd c).owesAt none t.succ = (dat6 V Bd c).owesAt none t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V Bd c) (defs₀ (F := F)) Variants.none (none : HIx 4) Set.univ := fun t => by
  rw [bigSep_W6, bigSep_W6]
  exact sound_body6 V Bd c t

end Region6

end Cert.Proof.KI.Reg

end
-- ==== Proof.Region7.lean ====
/-
  Region 7 of the program's TensorCore half (pipeline 3 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk7`: a window's block at a point, read off its array in `V`;
  * `before7_W_of`: an input window's current staging buffer holds that block at every point, fetched there or not;
  * `out7_6`: what the body leaves in the output window's buffer, as a function of the six input blocks;
  * `sound_kernel7`: the body's triple on whole staging memrefs;
  * `dat7`, `A_eq7`, `after7_W`, `before7_W`, `Φ_eq7`, `owed_eq7`: the pipeline's proof data and its projections;
  * `body_obligation7`: the library's body obligation, at every point.
-/
import proofs.«203556_g1357209665813_cont_week2b_798_48_alg».proof.Proof.Common
import proofs.«203556_g1357209665813_cont_week2b_798_48_alg».proof.Proof.Gen.KernelIdeal.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KI.Reg

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region7
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the pipeline fetched
    it there (an unfetched point has the block index of the point before, and the body leaves the block in place), for
    any proof data whose array is `V`'s and whose body leaves the block as found. -/
theorem before7_0_of {c : Dev nD} (dat : Dat τ (Elt F) (HIx 4) ℕ UU ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the pipeline fetched
    it there (an unfetched point has the block index of the point before, and the body leaves the block in place), for
    any proof data whose array is `V`'s and whose body leaves the block as found. -/
theorem before7_1_of {c : Dev nD} (dat : Dat τ (Elt F) (HIx 4) ℕ UU ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the pipeline fetched
    it there (an unfetched point has the block index of the point before, and the body leaves the block in place), for
    any proof data whose array is `V`'s and whose body leaves the block as found. -/
theorem before7_2_of {c : Dev nD} (dat : Dat τ (Elt F) (HIx 4) ℕ UU ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the pipeline fetched
    it there (an unfetched point has the block index of the point before, and the body leaves the block in place), for
    any proof data whose array is `V`'s and whose body leaves the block as found. -/
theorem before7_3_of {c : Dev nD} (dat : Dat τ (Elt F) (HIx 4) ℕ UU ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether or not the pipeline fetched
    it there (an unfetched point has the block index of the point before, and the body leaves the block in place), for
    any proof data whose array is `V`'s and whose body leaves the block as found. -/
theorem before7_4_of {c : Dev nD} (dat : Dat τ (Elt F) (HIx 4) ℕ UU ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether or not the pipeline fetched
    it there (an unfetched point has the block index of the point before, and the body leaves the block in place), for
    any proof data whose array is `V`'s and whose body leaves the block as found. -/
theorem before7_5_of {c : Dev nD} (dat : Dat τ (Elt F) (HIx 4) ℕ UU ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the store go through the whole of a staging buffer -/

abbrev r7_0 : Rect S64x200x128 := Rect.unit (s := S64x200x128) ![0, 0, 0] S64x200x128.size inb_S64x200x128_S64x200x128_0_0_0
abbrev r7_1 : Rect S64x200 := Rect.unit (s := S64x200) ![0, 0] S64x200.size inb_S64x200_S64x200_0_0
abbrev r7_2 : Rect S200x128 := Rect.unit (s := S200x128) ![0, 0] S200x128.size inb_S200x128_S200x128_0_0
abbrev r7_3 : Rect S1x128 := Rect.unit (s := S1x128) ![0, 0] S1x128.size inb_S1x128_S1x128_0_0
abbrev r7_4 : Rect S1x128 := Rect.unit (s := S1x128) ![0, 0] S1x128.size inb_S1x128_S1x128_0_0
abbrev r7_5 : Rect S1x128 := Rect.unit (s := S1x128) ![0, 0] S1x128.size inb_S1x128_S1x128_0_0
abbrev r7_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out7_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r7_6, k7_pay1 (k7_pay2 (View.ld x0 r7_0) (View.ld x1 r7_1) (View.ld x2 r7_2) (View.ld x3 r7_3) (View.ld x4 r7_4)) (View.ld x5 r7_5)⟩]

/-- The one store's rectangle is the whole buffer, so it covers it (a tiling by one tile, checked by evaluation). -/
theorem cover7_6 (p0 : Vec F S64x200x128 .f32) (y : S64x200x128.Idx) :
    ∃ pc ∈ ([⟨r7_6, p0⟩] : List (View.Piece (Elt F) S64x200x128 .f32)), y ∈ pc.1.set :=
  View.cover_of_tiled [⟨r7_6, p0⟩] S64x200x128.size (by rfl) y

/-! ## The body's triple -/

set_option maxHeartbeats 1000000 in
/-- The body on whole staging memrefs — the six inputs' at read contents `x0 … x5`, the output's at anything — runs to
    the continuation holding the inputs' as they were and the output's at `out7_6` of them: the six loads read the
    inputs whole, the output buffer's load is of contents nothing uses, and the one store overwrites all of it.
    The leading HBM array is passed along and never accessed. -/
theorem sound_kernel7 (c : Dev nD) (E : Set ℕ) (i : grid7.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out7_6 x0 x1 x2 x3 x4 x5)) -∗ K ⟨⟩))
      ⊢ wp frame (wpE (defs₀ (F := F)) Variants.none c none) E (cc7__ln_body_aliased i hb hhb a0 ha0 a1 ha1 a2 ha2 a3 ha3 a4 ha4 a5 ha5 a6 ha6) K := by
  simp only [cc7__ln_body_aliased_eq_skeleton]; unfold cc7__ln_body_aliased_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The region's invariant on core `c`: the core's scoped buffers that are no staging buffer of this pipeline, each at
    some contents, and its generator register at some state — what the body neither reads nor describes. -/
def Φ7 (c : Dev nD) : sProp 𝕄 :=
  iprop(Pipeline.scopedRest (Ix := HIx 4) (Name := ℕ) (U := UU) (Lvl := ℕ) (Val := Elt F) spec7 c ∗ ∃ r, prngReg c r)

/-- The proof data of pipeline 3 on core `c`: the arrays as the region finds them (`V`); after the body at point `t`
    each input's buffer still at its block and the output's at `out7_6` of the six input blocks; the invariant
    `Φ7` at every point; full shares; nothing owed; the recorded waits within `Bd` throughout. -/
def dat7 (c : Dev nD) : Dat τ (Elt F) (HIx 4) ℕ UU ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Φ7 c
  q _ := fullShare
  owed _ := 0
  recorded _ := Bd

/-- The proof data's arrays are the region-entry contents. -/
theorem A_eq7 (c : Dev nD) (w : Fin cfg7.W) : (dat7 V Bd c).A w = V c (Pipeline.arrRef spec7 w) := by
  dsimp only [dat7]

/-- The invariant is the same at every point, -/
theorem Φ_eq7 (c : Dev nD) (t : Fin (cfg7.N + 1)) : (dat7 V Bd c).Φ t = Φ7 c := by
  dsimp only [dat7]
/-- nothing is ever owed, -/
theorem owed_eq7 (c : Dev nD) (t : Fin (cfg7.N + 1)) : (dat7 V Bd c).owed t = 0 := by
  dsimp only [dat7]
/-- and the bound on the recorded waits does not move. -/
theorem recorded_eq7 (c : Dev nD) (t : Fin (cfg7.N + 1)) : (dat7 V Bd c).recorded t = Bd := by
  dsimp only [dat7]

/-- What the body leaves, window by window. -/
theorem after7_0 (c : Dev nD) (t : Fin cfg7.N) : (dat7 V Bd c).after 0 t = iblk7 V c 0 t := by dsimp only [dat7]
theorem after7_1 (c : Dev nD) (t : Fin cfg7.N) : (dat7 V Bd c).after 1 t = iblk7 V c 1 t := by dsimp only [dat7]
theorem after7_2 (c : Dev nD) (t : Fin cfg7.N) : (dat7 V Bd c).after 2 t = iblk7 V c 2 t := by dsimp only [dat7]
theorem after7_3 (c : Dev nD) (t : Fin cfg7.N) : (dat7 V Bd c).after 3 t = iblk7 V c 3 t := by dsimp only [dat7]
theorem after7_4 (c : Dev nD) (t : Fin cfg7.N) : (dat7 V Bd c).after 4 t = iblk7 V c 4 t := by dsimp only [dat7]
theorem after7_5 (c : Dev nD) (t : Fin cfg7.N) : (dat7 V Bd c).after 5 t = iblk7 V c 5 t := by dsimp only [dat7]
theorem after7_6 (c : Dev nD) (t : Fin cfg7.N) : (dat7 V Bd c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V Bd c).before 0 t d = iblk7 V c 0 t :=
  before7_0_of V (dat7 V Bd c) (A_eq7 V Bd c 0) (after7_0 V Bd c) t d
theorem before7_1 (c : Dev nD) (t : Fin cfg7.N) (d) : (dat7 V Bd c).before 1 t d = iblk7 V c 1 t :=
  before7_1_of V (dat7 V Bd c) (A_eq7 V Bd c 1) (after7_1 V Bd c) t d
theorem before7_2 (c : Dev nD) (t : Fin cfg7.N) (d) : (dat7 V Bd c).before 2 t d = iblk7 V c 2 t :=
  before7_2_of V (dat7 V Bd c) (A_eq7 V Bd c 2) (after7_2 V Bd c) t d
theorem before7_3 (c : Dev nD) (t : Fin cfg7.N) (d) : (dat7 V Bd c).before 3 t d = iblk7 V c 3 t :=
  before7_3_of V (dat7 V Bd c) (A_eq7 V Bd c 3) (after7_3 V Bd c) t d
theorem before7_4 (c : Dev nD) (t : Fin cfg7.N) (d) : (dat7 V Bd c).before 4 t d = iblk7 V c 4 t :=
  before7_4_of V (dat7 V Bd c) (A_eq7 V Bd c 4) (after7_4 V Bd c) t d
theorem before7_5 (c : Dev nD) (t : Fin cfg7.N) (d) : (dat7 V Bd c).before 5 t d = iblk7 V c 5 t :=
  before7_5_of V (dat7 V Bd c) (A_eq7 V Bd c 5) (after7_5 V Bd c) t d

/-! ## The body obligation, at a generic point -/

/-- What the body is called with at point `t`: the invariant, the core's dues, and each window's current staging
    buffer at what it then holds, -/
def bodyPre7 (c : Dev nD) (t : Fin cfg7.N) : sProp 𝕄 :=
  iprop((dat7 V Bd c).Φ t.castSucc ∗ (dat7 V Bd c).owesAt none t.castSucc
    ∗ (∃ d, owns (c : Thread nD τ) (st7_0 t) fullShare ((dat7 V Bd c).before 0 t d))
    ∗ (∃ d, owns (c : Thread nD τ) (st7_1 t) fullShare ((dat7 V Bd c).before 1 t d))
    ∗ (∃ d, owns (c : Thread nD τ) (st7_2 t) fullShare ((dat7 V Bd c).before 2 t d))
    ∗ (∃ d, owns (c : Thread nD τ) (st7_3 t) fullShare ((dat7 V Bd c).before 3 t d))
    ∗ (∃ d, owns (c : Thread nD τ) (st7_4 t) fullShare ((dat7 V Bd c).before 4 t d))
    ∗ (∃ d, owns (c : Thread nD τ) (st7_5 t) fullShare ((dat7 V Bd c).before 5 t d))
    ∗ (∃ d, owns (c : Thread nD τ) (st7_6 t) fullShare ((dat7 V Bd c).before 6 t d)))

/-- and what it returns: the same, each buffer at what the body leaves. -/
def bodyPost7 (c : Dev nD) (t : Fin cfg7.N) : sProp 𝕄 :=
  iprop((dat7 V Bd c).Φ t.succ ∗ (dat7 V Bd c).owesAt none t.succ
    ∗ owns (c : Thread nD τ) (st7_0 t) fullShare ((dat7 V Bd c).after 0 t)
    ∗ owns (c : Thread nD τ) (st7_1 t) fullShare ((dat7 V Bd c).after 1 t)
    ∗ owns (c : Thread nD τ) (st7_2 t) fullShare ((dat7 V Bd c).after 2 t)
    ∗ owns (c : Thread nD τ) (st7_3 t) fullShare ((dat7 V Bd c).after 3 t)
    ∗ owns (c : Thread nD τ) (st7_4 t) fullShare ((dat7 V Bd c).after 4 t)
    ∗ owns (c : Thread nD τ) (st7_5 t) fullShare ((dat7 V Bd c).after 5 t)
    ∗ owns (c : Thread nD τ) (st7_6 t) fullShare ((dat7 V Bd c).after 6 t))

/-- The body at any point: the inputs' buffers hold their blocks (`before7_W`), so `sound_kernel7` applies; the
    invariant and the core's dues pass through unread. -/
theorem sound_body7 (c : Dev nD) (t : Fin cfg7.N) :
    bodyPre7 V Bd c t ⊢ wp frame (wpE (defs₀ (F := F)) Variants.none c none) Set.univ (bodyAt7 t) (fun _ => bodyPost7 V Bd c t) := by
  unfold bodyPre7 bodyPost7 bodyAt7
  simp only [before7_0, before7_1, before7_2, before7_3, before7_4, before7_5]
  rw [show (dat7 V Bd c).Φ t.succ = (dat7 V Bd c).Φ t.castSucc from rfl,
    show (dat7 V Bd c).owesAt none t.succ = (dat7 V Bd c).owesAt none t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V Bd c) (defs₀ (F := F)) Variants.none (none : HIx 4) Set.univ := fun t => by
  rw [bigSep_W7, bigSep_W7]
  exact sound_body7 V Bd c t

end Region7

end Cert.Proof.KI.Reg

end
-- ==== Proof.Main.lean ====
/-
  @main of the idealized kernel program as eight stretches of host operations with the calls between them: the token
  ids re-laid and cut into four quarters, each quarter's rows gathered on the SparseCores; then the position and type
  tables combined on the host, and four TensorCore layer-norm regions, each writing its quarter of the result into the
  array the previous one left (the result's buffer first a copy of the previous result's).
-/
import proofs.«203556_g1357209665813_cont_week2b_798_48_alg».proof.Proof.Common

noncomputable section

namespace Cert.Proof.KI

open Cert.KernelIdeal Cert.KernelIdeal.Gen
open Idealize.ShloMosaic Idealize.SL.Sem

variable {F : FTy → Type} [FloatOps F]

/-- Host stretch 0 of @main. -/
abbrev hops0 : List (HloOp τ sig (Elt F)) :=
  [ (StableHlo.reshape main_arg0 main_v0 rfl shapeCasts_S1024x200_S204800),
    (StableHlo.reshape main_v0 main_v1 rfl shapeCasts_S204800_S1024x200),
    (StableHlo.nullary main_c (constantI S_ 32 0#32)),
    (StableHlo.nullary main_c_0 (constantI S_ 32 0#32)),
    (StableHlo.unaryIndexed main_v1 ![main_c, main_c_0] ⟨S_, .i32⟩ main_v2 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v2 main_v3 rfl shapeCasts_S256x200_S32x25x64) ]

/-- Host stretch 1 of @main. -/
abbrev hops1 : List (HloOp τ sig (Elt F)) :=
  [ (StableHlo.nullary main_c_1 (constantI S_ 32 256#32)),
    (StableHlo.nullary main_c_2 (constantI S_ 32 0#32)),
    (StableHlo.unaryIndexed main_v1 ![main_c_1, main_c_2] ⟨S_, .i32⟩ main_v5 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v5 main_v6 rfl shapeCasts_S256x200_S32x25x64) ]

/-- Host stretch 2 of @main. -/
abbrev hops2 : List (HloOp τ sig (Elt F)) :=
  [ (StableHlo.nullary main_c_3 (constantI S_ 32 512#32)),
    (StableHlo.nullary main_c_4 (constantI S_ 32 0#32)),
    (StableHlo.unaryIndexed main_v1 ![main_c_3, main_c_4] ⟨S_, .i32⟩ main_v8 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v8 main_v9 rfl shapeCasts_S256x200_S32x25x64) ]

/-- Host stretch 3 of @main. -/
abbrev hops3 : List (HloOp τ sig (Elt F)) :=
  [ (StableHlo.nullary main_c_5 (constantI S_ 32 768#32)),
    (StableHlo.nullary main_c_6 (constantI S_ 32 0#32)),
    (StableHlo.unaryIndexed main_v1 ![main_c_5, main_c_6] ⟨S_, .i32⟩ main_v11 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v11 main_v12 rfl shapeCasts_S256x200_S32x25x64) ]

/-- Host stretch 4 of @main. -/
abbrev hops4 : List (HloOp τ sig (Elt F)) :=
  [ (StableHlo.unary main_arg3 main_v14 ((extractStridedSlice S200x128 ![0, 0] · slices_S512x128_S200x128_0_0) : (⟨S512x128, .f32⟩ : BufTy).Contents (Elt F) → (⟨S200x128, .f32⟩ : BufTy).Contents (Elt F))),
    (StableHlo.unary main_arg4 main_v15 ((extractStridedSlice S1x128 ![0, 0] · slices_S2x128_S1x128_0_0) : (⟨S2x128, .f32⟩ : BufTy).Contents (Elt F) → (⟨S1x128, .f32⟩ : BufTy).Contents (Elt F))),
    (StableHlo.reshape main_v15 main_v16 rfl shapeCasts_S1x128_S128),
    (StableHlo.unary main_v16 main_v17 (broadcastInDim S1x128 ![1] bcast_S128_S1x128_1 : (⟨S128, .f32⟩ : BufTy).Contents (Elt F) → (⟨S1x128, .f32⟩ : BufTy).Contents (Elt F))),
    (StableHlo.unary main_v17 main_v18 (broadcastInDim S200x128 ![0, 1] bcast_S1x128_S200x128_0_1 : (⟨S1x128, .f32⟩ : BufTy).Contents (Elt F) → (⟨S200x128, .f32⟩ : BufTy).Contents (Elt F))),
    (StableHlo.binary main_v14 main_v18 main_v19 (addf : (⟨S200x128, .f32⟩ : BufTy).Contents (Elt F) → (⟨S200x128, .f32⟩ : BufTy).Contents (Elt F) → (⟨S200x128, .f32⟩ : BufTy).Contents (Elt F))),
    (StableHlo.unary main_arg4 main_v20 ((extractStridedSlice S1x128 ![1, 0] · slices_S2x128_S1x128_1_0) : (⟨S2x128, .f32⟩ : BufTy).Contents (Elt F) → (⟨S1x128, .f32⟩ : BufTy).Contents (Elt F))),
    (StableHlo.reshape main_v20 main_v21 rfl shapeCasts_S1x128_S128),
    (StableHlo.unary main_arg4 main_v22 ((extractStridedSlice S1x128 ![0, 0] · slices_S2x128_S1x128_0_0) : (⟨S2x128, .f32⟩ : BufTy).Contents (Elt F) → (⟨S1x128, .f32⟩ : BufTy).Contents (Elt F))),
    (StableHlo.reshape main_v22 main_v23 rfl shapeCasts_S1x128_S128),
    (StableHlo.binary main_v21 main_v23 main_v24 (subf : (⟨S128, .f32⟩ : BufTy).Contents (Elt F) → (⟨S128, .f32⟩ : BufTy).Contents (Elt F) → (⟨S128, .f32⟩ : BufTy).Contents (Elt F))),
    (StableHlo.reshape main_v24 main_v25 rfl shapeCasts_S128_S1x128),
    (StableHlo.reshape main_arg5 main_v26 rfl shapeCasts_S128_S1x128),
    (StableHlo.reshape main_arg6 main_v27 rfl shapeCasts_S128_S1x128),
    (StableHlo.reshape main_v4 main_v28 rfl shapeCasts_S51200x128_S256x200x128) ]

/-- Host stretch 5 of @main. -/
abbrev hops5 : List (HloOp τ sig (Elt F)) :=
  [ (StableHlo.reshape main_v7 main_v30 rfl shapeCasts_S51200x128_S256x200x128),
    (StableHlo.unary main_v29 main_v31 id) ]

/-- Host stretch 6 of @main. -/
abbrev hops6 : List (HloOp τ sig (Elt F)) :=
  [ (StableHlo.reshape main_v10 main_v32 rfl shapeCasts_S51200x128_S256x200x128),
    (StableHlo.unary main_v31 main_v33 id) ]

/-- Host stretch 7 of @main. -/
abbrev hops7 : List (HloOp τ sig (Elt F)) :=
  [ (StableHlo.reshape main_v13 main_v34 rfl shapeCasts_S51200x128_S256x200x128),
    (StableHlo.unary main_v33 main_v35 id) ]

/-- @main, stretch by stretch. -/
theorem main_eq (d : Dev nD) : main (F := F) d =
    (StableHlo.seq (hops0 (F := F)) >>= fun _ => sc.run d 0 >>= fun _ =>
     StableHlo.seq (hops1 (F := F)) >>= fun _ => sc.run d 1 >>= fun _ =>
     StableHlo.seq (hops2 (F := F)) >>= fun _ => sc.run d 2 >>= fun _ =>
     StableHlo.seq (hops3 (F := F)) >>= fun _ => sc.run d 3 >>= fun _ =>
     StableHlo.seq (hops4 (F := F)) >>= fun _ => Prog.lift (.customCall (SparseCore.inner (Pipeline.entry 0)) ()) >>= fun _ =>
     StableHlo.seq (hops5 (F := F)) >>= fun _ => Prog.lift (.customCall (SparseCore.inner (Pipeline.entry 1)) ()) >>= fun _ =>
     StableHlo.seq (hops6 (F := F)) >>= fun _ => Prog.lift (.customCall (SparseCore.inner (Pipeline.entry 2)) ()) >>= fun _ =>
     StableHlo.seq (hops7 (F := F)) >>= fun _ => Prog.lift (.customCall (SparseCore.inner (Pipeline.entry 3)) ()) >>= fun _ =>
     pure ⟨⟩) := by
  simp only [main, StableHlo.seq, bind_assoc, pure_bind]

end Cert.Proof.KI

end
-- ==== Proof.Tail.lean ====
/-
  The TensorCore half of @main after the fourth SparseCore call: four host stretches, each followed by one layer-norm
  region. This module follows the unscoped buffers' contents through that tail and packages each region for the
  segment-wise launch theorem.

  Everything is stated over three parameters: `Wt`, each core's unscoped buffer contents when the tail begins;
  `Bd`, per core a bound on the wait pairs the core has recorded; and (for the regions) `hBd`, that every pipeline's own
  wait pairs lie within that bound.
  * `E0 … E3`: the contents at each region's entry (the host stretch before it applied to the previous boundary);
    `X0 … X3`: the contents at each region's exit (the region's arrays at what the pipeline's write-backs leave, every
    other buffer as entered).
  * `pdats`: every pipeline's proof data, each at its region's entry contents.
  * `R`: what rides beside the buffers through every segment — the generator register and the core's dues (nothing
    owed, recorded waits within the bound).
  * `reg4 … reg7`: each region as a segment from `E_j` to `X_j`.
  * `X3_arg0 … X3_arg6`: at the end every argument array still holds what it held when the tail began.
-/
import proofs.«203556_g1357209665813_cont_week2b_798_48_alg».proof.Proof.Region4
import proofs.«203556_g1357209665813_cont_week2b_798_48_alg».proof.Proof.Region5
import proofs.«203556_g1357209665813_cont_week2b_798_48_alg».proof.Proof.Region6
import proofs.«203556_g1357209665813_cont_week2b_798_48_alg».proof.Proof.Region7
import proofs.«203556_g1357209665813_cont_week2b_798_48_alg».proof.Proof.Main
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI.Reg

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Tail
-- each core's unscoped buffer contents when the tail begins
variable (Wt : Dev nD → Valuation τ sig (Elt F))
-- per core, a bound on the (cell, index) pairs its waits have recorded
variable (Bd : Dev nD → Set (SemLoc sig × HIx 4))

/-! ## The buffer contents at each boundary: a fold through the tail -/

/-- At region 4's entry: host stretch 4 applied to the contents the tail begins with. -/
abbrev E0 : Dev nD → Valuation τ sig (Elt F) := fun c => StableHlo.after hops4 (Wt c)
/-- The same read at the TensorCore's references (what region 4's proof data take). -/
abbrev VE0 : (c : Dev nD) → (b : Ref sig .tc) → Buf (Elt F) ((c : Thread nD τ).loc b) := fun c b => E0 Wt c b
/-- At region 4's exit: its arrays at what the pipeline leaves (the inputs as entered, the output with every point's
    write-back folded in), every other buffer as entered. -/
def X0 (c : Dev nD) : Valuation τ sig (Elt F) :=
  Pipeline.withArrays spec4 c (E0 Wt c) fun w => (dat4 (VE0 Wt) (Bd c) c).arrAt w cfg4.N
theorem X0_arr (c : Dev nD) (w : Fin cfg4.W) :
    X0 Wt Bd c (Proc.devRef .tc (Pipeline.arrRef spec4 w)) = (dat4 (VE0 Wt) (Bd c) c).arrAt w cfg4.N := by
  unfold X0; exact Pipeline.withArrays_arr spec4 launch4.win.arr_inj c _ _ w
theorem X0_of_ne (c : Dev nD) (b : Ref sig .tc) (hb : ∀ w, Pipeline.arrRef spec4 w ≠ b) :
    X0 Wt Bd c (Proc.devRef .tc b) = E0 Wt c (Proc.devRef .tc b) := by
  unfold X0; exact Pipeline.withArrays_of_ne spec4 c _ _ b hb
/-- The same read at the TensorCore's references. -/
abbrev VX0 : (c : Dev nD) → (b : Ref sig .tc) → Buf (Elt F) ((c : Thread nD τ).loc b) := fun c b => X0 Wt Bd c b
/-- At region 4's exit each of its arrays holds what the pipeline leaves, and every other buffer what it held at entry. -/
theorem hF4 (c : Dev nD) (w : Fin cfg4.W) : (dat4 (VE0 Wt) (Bd c) c).arrAt w cfg4.N = VX0 Wt Bd c (Pipeline.arrRef spec4 w) :=
  (X0_arr Wt Bd c w).symm
theorem hrest4 (c : Dev nD) : ∀ b, b ∉ Finset.univ.image (Pipeline.arrRef spec4) → VX0 Wt Bd c b = VE0 Wt c b :=
  fun b hb => X0_of_ne Wt Bd c b fun w e => hb (Finset.mem_image.mpr ⟨w, Finset.mem_univ _, e⟩)

/-- At region 5's entry: host stretch 5 applied to the contents region 4 leaves. -/
abbrev E1 : Dev nD → Valuation τ sig (Elt F) := fun c => StableHlo.after hops5 (X0 Wt Bd c)
/-- The same read at the TensorCore's references (what region 5's proof data take). -/
abbrev VE1 : (c : Dev nD) → (b : Ref sig .tc) → Buf (Elt F) ((c : Thread nD τ).loc b) := fun c b => E1 Wt Bd c b
/-- At region 5's exit: its arrays at what the pipeline leaves (the inputs as entered, the output with every point's
    write-back folded in), every other buffer as entered. -/
def X1 (c : Dev nD) : Valuation τ sig (Elt F) :=
  Pipeline.withArrays spec5 c (E1 Wt Bd c) fun w => (dat5 (VE1 Wt Bd) (Bd c) c).arrAt w cfg5.N
theorem X1_arr (c : Dev nD) (w : Fin cfg5.W) :
    X1 Wt Bd c (Proc.devRef .tc (Pipeline.arrRef spec5 w)) = (dat5 (VE1 Wt Bd) (Bd c) c).arrAt w cfg5.N := by
  unfold X1; exact Pipeline.withArrays_arr spec5 launch5.win.arr_inj c _ _ w
theorem X1_of_ne (c : Dev nD) (b : Ref sig .tc) (hb : ∀ w, Pipeline.arrRef spec5 w ≠ b) :
    X1 Wt Bd c (Proc.devRef .tc b) = E1 Wt Bd c (Proc.devRef .tc b) := by
  unfold X1; exact Pipeline.withArrays_of_ne spec5 c _ _ b hb
/-- The same read at the TensorCore's references. -/
abbrev VX1 : (c : Dev nD) → (b : Ref sig .tc) → Buf (Elt F) ((c : Thread nD τ).loc b) := fun c b => X1 Wt Bd c b
/-- At region 5's exit each of its arrays holds what the pipeline leaves, and every other buffer what it held at entry. -/
theorem hF5 (c : Dev nD) (w : Fin cfg5.W) : (dat5 (VE1 Wt Bd) (Bd c) c).arrAt w cfg5.N = VX1 Wt Bd c (Pipeline.arrRef spec5 w) :=
  (X1_arr Wt Bd c w).symm
theorem hrest5 (c : Dev nD) : ∀ b, b ∉ Finset.univ.image (Pipeline.arrRef spec5) → VX1 Wt Bd c b = VE1 Wt Bd c b :=
  fun b hb => X1_of_ne Wt Bd c b fun w e => hb (Finset.mem_image.mpr ⟨w, Finset.mem_univ _, e⟩)

/-- At region 6's entry: host stretch 6 applied to the contents region 5 leaves. -/
abbrev E2 : Dev nD → Valuation τ sig (Elt F) := fun c => StableHlo.after hops6 (X1 Wt Bd c)
/-- The same read at the TensorCore's references (what region 6's proof data take). -/
abbrev VE2 : (c : Dev nD) → (b : Ref sig .tc) → Buf (Elt F) ((c : Thread nD τ).loc b) := fun c b => E2 Wt Bd c b
/-- At region 6's exit: its arrays at what the pipeline leaves (the inputs as entered, the output with every point's
    write-back folded in), every other buffer as entered. -/
def X2 (c : Dev nD) : Valuation τ sig (Elt F) :=
  Pipeline.withArrays spec6 c (E2 Wt Bd c) fun w => (dat6 (VE2 Wt Bd) (Bd c) c).arrAt w cfg6.N
theorem X2_arr (c : Dev nD) (w : Fin cfg6.W) :
    X2 Wt Bd c (Proc.devRef .tc (Pipeline.arrRef spec6 w)) = (dat6 (VE2 Wt Bd) (Bd c) c).arrAt w cfg6.N := by
  unfold X2; exact Pipeline.withArrays_arr spec6 launch6.win.arr_inj c _ _ w
theorem X2_of_ne (c : Dev nD) (b : Ref sig .tc) (hb : ∀ w, Pipeline.arrRef spec6 w ≠ b) :
    X2 Wt Bd c (Proc.devRef .tc b) = E2 Wt Bd c (Proc.devRef .tc b) := by
  unfold X2; exact Pipeline.withArrays_of_ne spec6 c _ _ b hb
/-- The same read at the TensorCore's references. -/
abbrev VX2 : (c : Dev nD) → (b : Ref sig .tc) → Buf (Elt F) ((c : Thread nD τ).loc b) := fun c b => X2 Wt Bd c b
/-- At region 6's exit each of its arrays holds what the pipeline leaves, and every other buffer what it held at entry. -/
theorem hF6 (c : Dev nD) (w : Fin cfg6.W) : (dat6 (VE2 Wt Bd) (Bd c) c).arrAt w cfg6.N = VX2 Wt Bd c (Pipeline.arrRef spec6 w) :=
  (X2_arr Wt Bd c w).symm
theorem hrest6 (c : Dev nD) : ∀ b, b ∉ Finset.univ.image (Pipeline.arrRef spec6) → VX2 Wt Bd c b = VE2 Wt Bd c b :=
  fun b hb => X2_of_ne Wt Bd c b fun w e => hb (Finset.mem_image.mpr ⟨w, Finset.mem_univ _, e⟩)

/-- At region 7's entry: host stretch 7 applied to the contents region 6 leaves. -/
abbrev E3 : Dev nD → Valuation τ sig (Elt F) := fun c => StableHlo.after hops7 (X2 Wt Bd c)
/-- The same read at the TensorCore's references (what region 7's proof data take). -/
abbrev VE3 : (c : Dev nD) → (b : Ref sig .tc) → Buf (Elt F) ((c : Thread nD τ).loc b) := fun c b => E3 Wt Bd c b
/-- At region 7's exit: its arrays at what the pipeline leaves (the inputs as entered, the output with every point's
    write-back folded in), every other buffer as entered. -/
def X3 (c : Dev nD) : Valuation τ sig (Elt F) :=
  Pipeline.withArrays spec7 c (E3 Wt Bd c) fun w => (dat7 (VE3 Wt Bd) (Bd c) c).arrAt w cfg7.N
theorem X3_arr (c : Dev nD) (w : Fin cfg7.W) :
    X3 Wt Bd c (Proc.devRef .tc (Pipeline.arrRef spec7 w)) = (dat7 (VE3 Wt Bd) (Bd c) c).arrAt w cfg7.N := by
  unfold X3; exact Pipeline.withArrays_arr spec7 launch7.win.arr_inj c _ _ w
theorem X3_of_ne (c : Dev nD) (b : Ref sig .tc) (hb : ∀ w, Pipeline.arrRef spec7 w ≠ b) :
    X3 Wt Bd c (Proc.devRef .tc b) = E3 Wt Bd c (Proc.devRef .tc b) := by
  unfold X3; exact Pipeline.withArrays_of_ne spec7 c _ _ b hb
/-- The same read at the TensorCore's references. -/
abbrev VX3 : (c : Dev nD) → (b : Ref sig .tc) → Buf (Elt F) ((c : Thread nD τ).loc b) := fun c b => X3 Wt Bd c b
/-- At region 7's exit each of its arrays holds what the pipeline leaves, and every other buffer what it held at entry. -/
theorem hF7 (c : Dev nD) (w : Fin cfg7.W) : (dat7 (VE3 Wt Bd) (Bd c) c).arrAt w cfg7.N = VX3 Wt Bd c (Pipeline.arrRef spec7 w) :=
  (X3_arr Wt Bd c w).symm
theorem hrest7 (c : Dev nD) : ∀ b, b ∉ Finset.univ.image (Pipeline.arrRef spec7) → VX3 Wt Bd c b = VE3 Wt Bd c b :=
  fun b hb => X3_of_ne Wt Bd c b fun w e => hb (Finset.mem_image.mpr ⟨w, Finset.mem_univ _, e⟩)

/-! ## The arguments end as the tail found them

No host operation of the tail writes an argument array, and no region does: a region reads the token-type ids through an
input window and bypasses every other argument. So the fold at an argument's buffer walks back to `Wt`. -/

theorem X3_arg0 (c : Dev nD) : X3 Wt Bd c (Proc.devRef .tc main_arg0) = Wt c (Proc.devRef .tc main_arg0) :=
  calc X3 Wt Bd c (Proc.devRef .tc main_arg0)
    _ = E3 Wt Bd c (Proc.devRef .tc main_arg0) := X3_of_ne Wt Bd c main_arg0 (by decide)
    _ = X2 Wt Bd c (Proc.devRef .tc main_arg0) := StableHlo.after_of_forall_not_mem (b := Proc.devRef .tc main_arg0) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg0) := X2_of_ne Wt Bd c main_arg0 (by decide)
    _ = X1 Wt Bd c (Proc.devRef .tc main_arg0) := StableHlo.after_of_forall_not_mem (b := Proc.devRef .tc main_arg0) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg0) := X1_of_ne Wt Bd c main_arg0 (by decide)
    _ = X0 Wt Bd c (Proc.devRef .tc main_arg0) := StableHlo.after_of_forall_not_mem (b := Proc.devRef .tc main_arg0) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg0) := X0_of_ne Wt Bd c main_arg0 (by decide)
    _ = Wt c (Proc.devRef .tc main_arg0) := StableHlo.after_of_forall_not_mem (b := Proc.devRef .tc main_arg0) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg1 (c : Dev nD) : X3 Wt Bd c (Proc.devRef .tc main_arg1) = Wt c (Proc.devRef .tc main_arg1) :=
  calc X3 Wt Bd c (Proc.devRef .tc main_arg1)
    _ = E3 Wt Bd c (Proc.devRef .tc main_arg1) := (X3_arr Wt Bd c 1).trans (((dat7 (VE3 Wt Bd) (Bd c) c).arrAt_in 1 rfl _).trans (A_eq7 (VE3 Wt Bd) (Bd c) c 1))
    _ = X2 Wt Bd c (Proc.devRef .tc main_arg1) := StableHlo.after_of_forall_not_mem (b := Proc.devRef .tc main_arg1) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg1) := (X2_arr Wt Bd c 1).trans (((dat6 (VE2 Wt Bd) (Bd c) c).arrAt_in 1 rfl _).trans (A_eq6 (VE2 Wt Bd) (Bd c) c 1))
    _ = X1 Wt Bd c (Proc.devRef .tc main_arg1) := StableHlo.after_of_forall_not_mem (b := Proc.devRef .tc main_arg1) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg1) := (X1_arr Wt Bd c 1).trans (((dat5 (VE1 Wt Bd) (Bd c) c).arrAt_in 1 rfl _).trans (A_eq5 (VE1 Wt Bd) (Bd c) c 1))
    _ = X0 Wt Bd c (Proc.devRef .tc main_arg1) := StableHlo.after_of_forall_not_mem (b := Proc.devRef .tc main_arg1) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg1) := (X0_arr Wt Bd c 1).trans (((dat4 (VE0 Wt) (Bd c) c).arrAt_in 1 rfl _).trans (A_eq4 (VE0 Wt) (Bd c) c 1))
    _ = Wt c (Proc.devRef .tc main_arg1) := StableHlo.after_of_forall_not_mem (b := Proc.devRef .tc main_arg1) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg2 (c : Dev nD) : X3 Wt Bd c (Proc.devRef .tc main_arg2) = Wt c (Proc.devRef .tc main_arg2) :=
  calc X3 Wt Bd c (Proc.devRef .tc main_arg2)
    _ = E3 Wt Bd c (Proc.devRef .tc main_arg2) := X3_of_ne Wt Bd c main_arg2 (by decide)
    _ = X2 Wt Bd c (Proc.devRef .tc main_arg2) := StableHlo.after_of_forall_not_mem (b := Proc.devRef .tc main_arg2) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg2) := X2_of_ne Wt Bd c main_arg2 (by decide)
    _ = X1 Wt Bd c (Proc.devRef .tc main_arg2) := StableHlo.after_of_forall_not_mem (b := Proc.devRef .tc main_arg2) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg2) := X1_of_ne Wt Bd c main_arg2 (by decide)
    _ = X0 Wt Bd c (Proc.devRef .tc main_arg2) := StableHlo.after_of_forall_not_mem (b := Proc.devRef .tc main_arg2) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg2) := X0_of_ne Wt Bd c main_arg2 (by decide)
    _ = Wt c (Proc.devRef .tc main_arg2) := StableHlo.after_of_forall_not_mem (b := Proc.devRef .tc main_arg2) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg3 (c : Dev nD) : X3 Wt Bd c (Proc.devRef .tc main_arg3) = Wt c (Proc.devRef .tc main_arg3) :=
  calc X3 Wt Bd c (Proc.devRef .tc main_arg3)
    _ = E3 Wt Bd c (Proc.devRef .tc main_arg3) := X3_of_ne Wt Bd c main_arg3 (by decide)
    _ = X2 Wt Bd c (Proc.devRef .tc main_arg3) := StableHlo.after_of_forall_not_mem (b := Proc.devRef .tc main_arg3) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg3) := X2_of_ne Wt Bd c main_arg3 (by decide)
    _ = X1 Wt Bd c (Proc.devRef .tc main_arg3) := StableHlo.after_of_forall_not_mem (b := Proc.devRef .tc main_arg3) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg3) := X1_of_ne Wt Bd c main_arg3 (by decide)
    _ = X0 Wt Bd c (Proc.devRef .tc main_arg3) := StableHlo.after_of_forall_not_mem (b := Proc.devRef .tc main_arg3) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg3) := X0_of_ne Wt Bd c main_arg3 (by decide)
    _ = Wt c (Proc.devRef .tc main_arg3) := StableHlo.after_of_forall_not_mem (b := Proc.devRef .tc main_arg3) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg4 (c : Dev nD) : X3 Wt Bd c (Proc.devRef .tc main_arg4) = Wt c (Proc.devRef .tc main_arg4) :=
  calc X3 Wt Bd c (Proc.devRef .tc main_arg4)
    _ = E3 Wt Bd c (Proc.devRef .tc main_arg4) := X3_of_ne Wt Bd c main_arg4 (by decide)
    _ = X2 Wt Bd c (Proc.devRef .tc main_arg4) := StableHlo.after_of_forall_not_mem (b := Proc.devRef .tc main_arg4) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg4) := X2_of_ne Wt Bd c main_arg4 (by decide)
    _ = X1 Wt Bd c (Proc.devRef .tc main_arg4) := StableHlo.after_of_forall_not_mem (b := Proc.devRef .tc main_arg4) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg4) := X1_of_ne Wt Bd c main_arg4 (by decide)
    _ = X0 Wt Bd c (Proc.devRef .tc main_arg4) := StableHlo.after_of_forall_not_mem (b := Proc.devRef .tc main_arg4) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg4) := X0_of_ne Wt Bd c main_arg4 (by decide)
    _ = Wt c (Proc.devRef .tc main_arg4) := StableHlo.after_of_forall_not_mem (b := Proc.devRef .tc main_arg4) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg5 (c : Dev nD) : X3 Wt Bd c (Proc.devRef .tc main_arg5) = Wt c (Proc.devRef .tc main_arg5) :=
  calc X3 Wt Bd c (Proc.devRef .tc main_arg5)
    _ = E3 Wt Bd c (Proc.devRef .tc main_arg5) := X3_of_ne Wt Bd c main_arg5 (by decide)
    _ = X2 Wt Bd c (Proc.devRef .tc main_arg5) := StableHlo.after_of_forall_not_mem (b := Proc.devRef .tc main_arg5) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg5) := X2_of_ne Wt Bd c main_arg5 (by decide)
    _ = X1 Wt Bd c (Proc.devRef .tc main_arg5) := StableHlo.after_of_forall_not_mem (b := Proc.devRef .tc main_arg5) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg5) := X1_of_ne Wt Bd c main_arg5 (by decide)
    _ = X0 Wt Bd c (Proc.devRef .tc main_arg5) := StableHlo.after_of_forall_not_mem (b := Proc.devRef .tc main_arg5) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg5) := X0_of_ne Wt Bd c main_arg5 (by decide)
    _ = Wt c (Proc.devRef .tc main_arg5) := StableHlo.after_of_forall_not_mem (b := Proc.devRef .tc main_arg5) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg6 (c : Dev nD) : X3 Wt Bd c (Proc.devRef .tc main_arg6) = Wt c (Proc.devRef .tc main_arg6) :=
  calc X3 Wt Bd c (Proc.devRef .tc main_arg6)
    _ = E3 Wt Bd c (Proc.devRef .tc main_arg6) := X3_of_ne Wt Bd c main_arg6 (by decide)
    _ = X2 Wt Bd c (Proc.devRef .tc main_arg6) := StableHlo.after_of_forall_not_mem (b := Proc.devRef .tc main_arg6) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg6) := X2_of_ne Wt Bd c main_arg6 (by decide)
    _ = X1 Wt Bd c (Proc.devRef .tc main_arg6) := StableHlo.after_of_forall_not_mem (b := Proc.devRef .tc main_arg6) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg6) := X1_of_ne Wt Bd c main_arg6 (by decide)
    _ = X0 Wt Bd c (Proc.devRef .tc main_arg6) := StableHlo.after_of_forall_not_mem (b := Proc.devRef .tc main_arg6) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg6) := X0_of_ne Wt Bd c main_arg6 (by decide)
    _ = Wt c (Proc.devRef .tc main_arg6) := StableHlo.after_of_forall_not_mem (b := Proc.devRef .tc main_arg6) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) (HIx 4) ℕ UU ℕ (Pipeline.pin (pcfgs (F := F)) adm p) c
  | ⟨0, _⟩ => fun c => dat4 (VE0 Wt) (Bd c) c
  | ⟨1, _⟩ => fun c => dat5 (VE1 Wt Bd) (Bd c) c
  | ⟨2, _⟩ => fun c => dat6 (VE2 Wt Bd) (Bd c) c
  | ⟨3, _⟩ => fun c => dat7 (VE3 Wt Bd) (Bd c) c
/-- What rides beside the buffers through every segment: the core's generator register at some state (a region's
    invariant takes it in and gives it back) and its dues — nothing owed, the recorded waits within the bound. -/
abbrev R (c : Dev nD) : sProp 𝕄 := iprop((∃ r, prngReg c r) ∗ Pipeline.owesWithin c (0 : CellTallies nD τ sig (HIx 4)) (Bd c))

/-! ## The regions as segments -/

-- a library lemma stated over the pinned configuration unifies with the printed one only when unification may
-- unfold plain definitions in a metavariable's type
set_option backward.isDefEq.respectTransparency.types false in
/-- Region 4 over the thread state: entered from every unscoped buffer at `E0`, left at `X0`. Its arrays are split
    out of the unscoped buffers at entry and put back at the exit contents; the generator register goes into the
    region's invariant and comes out; nothing is owed, and the recorded waits stay within the bound because the
    pipeline's own wait pairs lie within it (`hBd`); the kernel has no semaphore of its own. -/
def reg4 (hBd : ∀ c p, (cfgs p).waitPairs (none : HIx 4) ⊆ Bd c) :
    Pipeline.RegionSeg (pcfgs (F := F)) adm (pdats Wt Bd) (none : HIx 4) defs₀ Variants.none (Cert.Proof.KI.K (F := F)).L (Cert.Proof.KI.K (F := F)).lev 0 where
  win := launch4.win.to₀
  block_pos := launch4.block_pos
  stage_whole := launch4.stage_whole
  K := PEmpty
  osem k := k.elim
  ho := Pipeline.OwnSemFacts.none _
  hbody c := (body_obligation4 (VE0 Wt) (Bd c) c).loose
  hwaits := Pipeline.hwaits_of_owed_zero _ _ _ _ (Cert.Proof.KI.K (F := F)).L (Cert.Proof.KI.K (F := F)).lev 0 fun _ _ => rfl
  pre c := iprop(StableHlo.held (c : Thread nD τ) (Pipeline.ucRefs τ sig) (E0 Wt c) ∗ R Bd c)
  post c := iprop(StableHlo.held (c : Thread nD τ) (Pipeline.ucRefs τ sig) (X0 Wt Bd c) ∗ R Bd c)
  X c := iprop(∃ r, prngReg c r)
  Y c := iprop(∃ r, prngReg c r)
  Z c := Pipeline.unscopedRest (Ix := HIx 4) (Name := ℕ) (U := UU) (Lvl := ℕ) spec4 c (VE0 Wt c)
  hentry c := by
    rw [Pipeline.ownSems0_none]
    have hsplit := Pipeline.arrays_of_unscopedBufs (p := 0) (pcfgs (F := F)) adm (pdats Wt Bd) launch4.win launch4.arr_whole c
      ((pdats Wt Bd 0 c).share_full fun _ => rfl) (VE0 Wt c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 0 c).Φ 0 = Φ4 c from rfl]; unfold Φ4
    iintro ⟨Hp, -, Hr⟩
    isplitl [Hr]; · iexact Hr
    iexact Hp
  hout c := by
    rw [Pipeline.ownSems0_none, show (pdats Wt Bd 0 c).Φ (Fin.last _) = Φ4 c from rfl]; unfold Φ4
    iintro ⟨Hr, Hp⟩
    isplitl [Hp]; · iexact Hp
    isplitr; · iempintro
    iexact Hr
  hexit c := by
    have hjoin := Pipeline.unscopedBufs_of_arrays (p := 0) (pcfgs (F := F)) adm (Ix := HIx 4) (Name := ℕ) (U := UU) (Lvl := ℕ)
      launch4.win launch4.arr_whole c (pdats Wt Bd) ((pdats Wt Bd 0 c).share_full fun _ => rfl)
      (VE0 Wt c) (VX0 Wt Bd c) ((pdats Wt Bd 0 c).arrAt · cfg4.N) (hF4 Wt Bd c) (hrest4 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 0 h)
    iexact HO

-- a library lemma stated over the pinned configuration unifies with the printed one only when unification may
-- unfold plain definitions in a metavariable's type
set_option backward.isDefEq.respectTransparency.types false in
/-- Region 5 over the thread state: entered from every unscoped buffer at `E1`, left at `X1`. Its arrays are split
    out of the unscoped buffers at entry and put back at the exit contents; the generator register goes into the
    region's invariant and comes out; nothing is owed, and the recorded waits stay within the bound because the
    pipeline's own wait pairs lie within it (`hBd`); the kernel has no semaphore of its own. -/
def reg5 (hBd : ∀ c p, (cfgs p).waitPairs (none : HIx 4) ⊆ Bd c) :
    Pipeline.RegionSeg (pcfgs (F := F)) adm (pdats Wt Bd) (none : HIx 4) defs₀ Variants.none (Cert.Proof.KI.K (F := F)).L (Cert.Proof.KI.K (F := F)).lev 1 where
  win := launch5.win.to₀
  block_pos := launch5.block_pos
  stage_whole := launch5.stage_whole
  K := PEmpty
  osem k := k.elim
  ho := Pipeline.OwnSemFacts.none _
  hbody c := (body_obligation5 (VE1 Wt Bd) (Bd c) c).loose
  hwaits := Pipeline.hwaits_of_owed_zero _ _ _ _ (Cert.Proof.KI.K (F := F)).L (Cert.Proof.KI.K (F := F)).lev 1 fun _ _ => rfl
  pre c := iprop(StableHlo.held (c : Thread nD τ) (Pipeline.ucRefs τ sig) (E1 Wt Bd c) ∗ R Bd c)
  post c := iprop(StableHlo.held (c : Thread nD τ) (Pipeline.ucRefs τ sig) (X1 Wt Bd c) ∗ R Bd c)
  X c := iprop(∃ r, prngReg c r)
  Y c := iprop(∃ r, prngReg c r)
  Z c := Pipeline.unscopedRest (Ix := HIx 4) (Name := ℕ) (U := UU) (Lvl := ℕ) spec5 c (VE1 Wt Bd c)
  hentry c := by
    rw [Pipeline.ownSems0_none]
    have hsplit := Pipeline.arrays_of_unscopedBufs (p := 1) (pcfgs (F := F)) adm (pdats Wt Bd) launch5.win launch5.arr_whole c
      ((pdats Wt Bd 1 c).share_full fun _ => rfl) (VE1 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 1 c).Φ 0 = Φ5 c from rfl]; unfold Φ5
    iintro ⟨Hp, -, Hr⟩
    isplitl [Hr]; · iexact Hr
    iexact Hp
  hout c := by
    rw [Pipeline.ownSems0_none, show (pdats Wt Bd 1 c).Φ (Fin.last _) = Φ5 c from rfl]; unfold Φ5
    iintro ⟨Hr, Hp⟩
    isplitl [Hp]; · iexact Hp
    isplitr; · iempintro
    iexact Hr
  hexit c := by
    have hjoin := Pipeline.unscopedBufs_of_arrays (p := 1) (pcfgs (F := F)) adm (Ix := HIx 4) (Name := ℕ) (U := UU) (Lvl := ℕ)
      launch5.win launch5.arr_whole c (pdats Wt Bd) ((pdats Wt Bd 1 c).share_full fun _ => rfl)
      (VE1 Wt Bd c) (VX1 Wt Bd c) ((pdats Wt Bd 1 c).arrAt · cfg5.N) (hF5 Wt Bd c) (hrest5 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 1 h)
    iexact HO

-- a library lemma stated over the pinned configuration unifies with the printed one only when unification may
-- unfold plain definitions in a metavariable's type
set_option backward.isDefEq.respectTransparency.types false in
/-- Region 6 over the thread state: entered from every unscoped buffer at `E2`, left at `X2`. Its arrays are split
    out of the unscoped buffers at entry and put back at the exit contents; the generator register goes into the
    region's invariant and comes out; nothing is owed, and the recorded waits stay within the bound because the
    pipeline's own wait pairs lie within it (`hBd`); the kernel has no semaphore of its own. -/
def reg6 (hBd : ∀ c p, (cfgs p).waitPairs (none : HIx 4) ⊆ Bd c) :
    Pipeline.RegionSeg (pcfgs (F := F)) adm (pdats Wt Bd) (none : HIx 4) defs₀ Variants.none (Cert.Proof.KI.K (F := F)).L (Cert.Proof.KI.K (F := F)).lev 2 where
  win := launch6.win.to₀
  block_pos := launch6.block_pos
  stage_whole := launch6.stage_whole
  K := PEmpty
  osem k := k.elim
  ho := Pipeline.OwnSemFacts.none _
  hbody c := (body_obligation6 (VE2 Wt Bd) (Bd c) c).loose
  hwaits := Pipeline.hwaits_of_owed_zero _ _ _ _ (Cert.Proof.KI.K (F := F)).L (Cert.Proof.KI.K (F := F)).lev 2 fun _ _ => rfl
  pre c := iprop(StableHlo.held (c : Thread nD τ) (Pipeline.ucRefs τ sig) (E2 Wt Bd c) ∗ R Bd c)
  post c := iprop(StableHlo.held (c : Thread nD τ) (Pipeline.ucRefs τ sig) (X2 Wt Bd c) ∗ R Bd c)
  X c := iprop(∃ r, prngReg c r)
  Y c := iprop(∃ r, prngReg c r)
  Z c := Pipeline.unscopedRest (Ix := HIx 4) (Name := ℕ) (U := UU) (Lvl := ℕ) spec6 c (VE2 Wt Bd c)
  hentry c := by
    rw [Pipeline.ownSems0_none]
    have hsplit := Pipeline.arrays_of_unscopedBufs (p := 2) (pcfgs (F := F)) adm (pdats Wt Bd) launch6.win launch6.arr_whole c
      ((pdats Wt Bd 2 c).share_full fun _ => rfl) (VE2 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 2 c).Φ 0 = Φ6 c from rfl]; unfold Φ6
    iintro ⟨Hp, -, Hr⟩
    isplitl [Hr]; · iexact Hr
    iexact Hp
  hout c := by
    rw [Pipeline.ownSems0_none, show (pdats Wt Bd 2 c).Φ (Fin.last _) = Φ6 c from rfl]; unfold Φ6
    iintro ⟨Hr, Hp⟩
    isplitl [Hp]; · iexact Hp
    isplitr; · iempintro
    iexact Hr
  hexit c := by
    have hjoin := Pipeline.unscopedBufs_of_arrays (p := 2) (pcfgs (F := F)) adm (Ix := HIx 4) (Name := ℕ) (U := UU) (Lvl := ℕ)
      launch6.win launch6.arr_whole c (pdats Wt Bd) ((pdats Wt Bd 2 c).share_full fun _ => rfl)
      (VE2 Wt Bd c) (VX2 Wt Bd c) ((pdats Wt Bd 2 c).arrAt · cfg6.N) (hF6 Wt Bd c) (hrest6 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 2 h)
    iexact HO

-- a library lemma stated over the pinned configuration unifies with the printed one only when unification may
-- unfold plain definitions in a metavariable's type
set_option backward.isDefEq.respectTransparency.types false in
/-- Region 7 over the thread state: entered from every unscoped buffer at `E3`, left at `X3`. Its arrays are split
    out of the unscoped buffers at entry and put back at the exit contents; the generator register goes into the
    region's invariant and comes out; nothing is owed, and the recorded waits stay within the bound because the
    pipeline's own wait pairs lie within it (`hBd`); the kernel has no semaphore of its own. -/
def reg7 (hBd : ∀ c p, (cfgs p).waitPairs (none : HIx 4) ⊆ Bd c) :
    Pipeline.RegionSeg (pcfgs (F := F)) adm (pdats Wt Bd) (none : HIx 4) defs₀ Variants.none (Cert.Proof.KI.K (F := F)).L (Cert.Proof.KI.K (F := F)).lev 3 where
  win := launch7.win.to₀
  block_pos := launch7.block_pos
  stage_whole := launch7.stage_whole
  K := PEmpty
  osem k := k.elim
  ho := Pipeline.OwnSemFacts.none _
  hbody c := (body_obligation7 (VE3 Wt Bd) (Bd c) c).loose
  hwaits := Pipeline.hwaits_of_owed_zero _ _ _ _ (Cert.Proof.KI.K (F := F)).L (Cert.Proof.KI.K (F := F)).lev 3 fun _ _ => rfl
  pre c := iprop(StableHlo.held (c : Thread nD τ) (Pipeline.ucRefs τ sig) (E3 Wt Bd c) ∗ R Bd c)
  post c := iprop(StableHlo.held (c : Thread nD τ) (Pipeline.ucRefs τ sig) (X3 Wt Bd c) ∗ R Bd c)
  X c := iprop(∃ r, prngReg c r)
  Y c := iprop(∃ r, prngReg c r)
  Z c := Pipeline.unscopedRest (Ix := HIx 4) (Name := ℕ) (U := UU) (Lvl := ℕ) spec7 c (VE3 Wt Bd c)
  hentry c := by
    rw [Pipeline.ownSems0_none]
    have hsplit := Pipeline.arrays_of_unscopedBufs (p := 3) (pcfgs (F := F)) adm (pdats Wt Bd) launch7.win launch7.arr_whole c
      ((pdats Wt Bd 3 c).share_full fun _ => rfl) (VE3 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 3 c).Φ 0 = Φ7 c from rfl]; unfold Φ7
    iintro ⟨Hp, -, Hr⟩
    isplitl [Hr]; · iexact Hr
    iexact Hp
  hout c := by
    rw [Pipeline.ownSems0_none, show (pdats Wt Bd 3 c).Φ (Fin.last _) = Φ7 c from rfl]; unfold Φ7
    iintro ⟨Hr, Hp⟩
    isplitl [Hp]; · iexact Hp
    isplitr; · iempintro
    iexact Hr
  hexit c := by
    have hjoin := Pipeline.unscopedBufs_of_arrays (p := 3) (pcfgs (F := F)) adm (Ix := HIx 4) (Name := ℕ) (U := UU) (Lvl := ℕ)
      launch7.win launch7.arr_whole c (pdats Wt Bd) ((pdats Wt Bd 3 c).share_full fun _ => rfl)
      (VE3 Wt Bd c) (VX3 Wt Bd c) ((pdats Wt Bd 3 c).arrAt · cfg7.N) (hF7 Wt Bd c) (hrest7 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 3 h)
    iexact HO

end Tail

end Cert.Proof.KI.Reg

end
-- ==== Proof.LaunchA.lean ====
/-
  The launch of the idealized kernel program, first half: what the four SparseCore calls' handshakes carry (each call
  hands every task its share of the table, its block of the ids and its rows of the output, and takes them back), how
  a SparseCore's operands are its tasks' put side by side, and the launch element of the ghost state — the handshakes'
  rounds, the four layer-norm pipelines' staging cells, the tiles' copy counters.
-/
import proofs.«203556_g1357209665813_cont_week2b_798_48_alg».proof.Proof.Tail

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- What a task of call `q` is handed (`go`) and hands back (`td`): families the tile's proof fixes. -/
structure TilePay (F : FTy → Type) where
  go : (q : Fin 4) → Dev nD → Fin ((K (F := F)).nCore q) → Fin ((K (F := F)).nSub q) → sProp (MT nD τ sig (HIx 4) (Elt F) ℕ UU ℕ)
  td : (q : Fin 4) → Dev nD → Fin ((K (F := F)).nCore q) → Fin ((K (F := F)).nSub q) → sProp (MT nD τ sig (HIx 4) (Elt F) ℕ UU ℕ)
  go_st : ∀ q d c i, BI.Storable (upEmb : UEmb _ (MT nD τ sig (HIx 4) (Elt F) ℕ UU ℕ)) (go q d c i)
  td_st : ∀ q d c i, BI.Storable (upEmb : UEmb _ (MT nD τ sig (HIx 4) (Elt F) ℕ UU ℕ)) (td q d c i)

variable (TP : TilePay F)

/-- A call hands SparseCore `c` its sixteen tasks' payloads side by side and takes the sixteen results back; the
    tiles' proofs consume nothing of the launch's. -/
def P : (K (F := F)).Pay (nD := nD) (Val := Elt F) (Name := ℕ) (U := UU) where
  st := fun q d c => bigSep Finset.univ fun i => TP.go q d c i
  dn := fun q d c => bigSep Finset.univ fun i => TP.td q d c i
  go := TP.go
  td := TP.td
  x := fun _ _ => iprop(emp)

instance P_storable : (P (F := F) TP).IsStorable where
  st q d c := by
    unfold P; dsimp only
    haveI := TP.go_st q d c
    infer_instance
  dn q d c := by
    unfold P; dsimp only
    haveI := TP.td_st q d c
    infer_instance
  go q d c i := TP.go_st q d c i
  td q d c i := TP.td_st q d c i

/-- A SparseCore's operands ARE its tasks' operands side by side. -/
theorem vecSplit (q : Fin 4) : (K (F := F)).VecSplit' (P TP) q := by
  intro d c
  show (bigSep Finset.univ fun i => TP.go q d c i) ⊢ |={Set.univ}=> iprop((bigSep Finset.univ fun i => TP.go q d c i)
      ∗ ((bigSep Finset.univ fun i => TP.td q d c i) -∗ bigSep Finset.univ fun i => TP.td q d c i))
  iintro H; imodintro
  isplitl [H]; · iexact H
  iintro H; iexact H

/-! ## The launch element -/

open Cert.Proof.KI.Reg (adm)

set_option backward.isDefEq.respectTransparency.types false in
/-- The launch element: the handshake cells' rounds, the staging cells' rounds, the counters at their unit. -/
def u₀ : UU :=
  (initOf (K (F := F)).hsCells (K (F := F)).hsToks, (initOf (Pipeline.cells (Pipeline.pin (pcfgs (F := F)) adm) cellOf_inj) (Pipeline.launchToks (Pipeline.pin (pcfgs (F := F)) adm) cellOf_inj), 1))

/-- What @main's proof starts from on device `d`, beyond what the launch theorem deals it: every pipeline's staging
    cells' ghost state and duty tokens. -/
def G (d : Dev nD) : sProp 𝕄 :=
  bigSep Finset.univ fun p : Fin 4 => iprop(Pipeline.cellsGhost (Pipeline.pin (pcfgs (F := F)) adm) (EP (F := F)) p d ∗ Pipeline.toksInit (Pipeline.pin (pcfgs (F := F)) adm) (EP (F := F)) p d)

theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P TP).x q thr) := by
  unfold u₀
  iintro Hu
  ihave H := (ownU_pair _ _) $$ Hu
  icases H with ⟨HH, Hrt⟩
  ihave Hrt' := (own_pair_emb (embR (A := UH) (B := UP × Counters)) _ _) $$ Hrt
  icases Hrt' with ⟨Hpl, -⟩
  ihave Hpl2 := (show (BI.own (((Emb.inl : Emb UP (UP × Counters)).trans (embR (A := UH) (B := UP × Counters))) (initOf (Pipeline.cells (Pipeline.pin (pcfgs (F := F)) adm) cellOf_inj) (Pipeline.launchToks (Pipeline.pin (pcfgs (F := F)) adm) cellOf_inj))) : sProp 𝕄)
      ⊢ BI.own ((EP (F := F)) (initOf (Pipeline.cells (Pipeline.pin (pcfgs (F := F)) adm) cellOf_inj) (Pipeline.launchToks (Pipeline.pin (pcfgs (F := F)) adm) cellOf_inj))) from .rfl) $$ Hpl
  imod (Pipeline.fund_ghost (Pipeline.pin (pcfgs (F := F)) adm) (EP (F := F)) cellOf_inj) $$ Hpl2 with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

end Cert.Proof.KI

end
-- ==== Proof.HostFacts.lean ====
/-
  Routine facts about @main's eight host stretches: each operation touches TensorCore references only, none allocates
  a buffer, and the list of references each stretch writes — so that a buffer outside that list keeps its contents.
-/
import proofs.«203556_g1357209665813_cont_week2b_798_48_alg».proof.Proof.Main
import Idealize.ShloMosaic.Lib.Pipeline.Frame

noncomputable section

namespace Cert.Proof.KI

open Cert.KernelIdeal Cert.KernelIdeal.Gen
open Idealize.ShloMosaic Idealize.SL.Sem

variable {F : FTy → Type} [FloatOps F]

theorem hops0_sub : (hops0 : List (HloOp τ sig (Elt F))).Forall fun op => op.bufs ⊆ StableHlo.tcRefs τ sig :=
  ⟨StableHlo.reshape_bufs_sub .., StableHlo.reshape_bufs_sub .., StableHlo.nullary_bufs_sub .., StableHlo.nullary_bufs_sub .., StableHlo.unaryIndexed_bufs_sub .., StableHlo.reshape_bufs_sub ..⟩
theorem hops0_fresh : (hops0 : List (HloOp τ sig (Elt F))).Forall fun op => op.fresh = ∅ := by
  simp only [List.Forall]; repeat' constructor
/-- The references stretch 0 writes. -/
abbrev hops0_W : List (Ref sig .tc) := [main_v0, main_v1, main_c, main_c_0, main_v2, main_v3]
theorem hops0_writes : (hops0 : List (HloOp τ sig (Elt F))).Forall fun op => op.writes ⊆ (hops0_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 0 does not write keeps its contents. -/
theorem hops0_keeps (W : Valuation τ sig (Elt F)) (r : Ref sig .tc) (h : r ∉ hops0_W) :
    StableHlo.after (hops0 (F := F)) W (Proc.devRef .tc r) = W (Proc.devRef .tc r) :=
  StableHlo.after_of_writes_sub hops0 _ hops0_writes h
theorem hops0_S : ∀ op ∈ (hops0 : List (HloOp τ sig (Elt F))), op.bufs ⊆ Pipeline.ucRefs τ sig :=
  fun op h => Pipeline.sub_ucRefs op ((List.forall_iff_forall_mem.mp hops0_sub) op h)
theorem hops0_f : ∀ op ∈ (hops0 : List (HloOp τ sig (Elt F))), op.fresh = ∅ :=
  fun op h => (List.forall_iff_forall_mem.mp hops0_fresh) op h

theorem hops1_sub : (hops1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops1_fresh : (hops1 : List (HloOp τ sig (Elt F))).Forall fun op => op.fresh = ∅ := by
  simp only [List.Forall]; repeat' constructor
/-- The references stretch 1 writes. -/
abbrev hops1_W : List (Ref sig .tc) := [main_c_1, main_c_2, main_v5, main_v6]
theorem hops1_writes : (hops1 : List (HloOp τ sig (Elt F))).Forall fun op => op.writes ⊆ (hops1_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 1 does not write keeps its contents. -/
theorem hops1_keeps (W : Valuation τ sig (Elt F)) (r : Ref sig .tc) (h : r ∉ hops1_W) :
    StableHlo.after (hops1 (F := F)) W (Proc.devRef .tc r) = W (Proc.devRef .tc r) :=
  StableHlo.after_of_writes_sub hops1 _ hops1_writes h
theorem hops1_S : ∀ op ∈ (hops1 : List (HloOp τ sig (Elt F))), op.bufs ⊆ Pipeline.ucRefs τ sig :=
  fun op h => Pipeline.sub_ucRefs op ((List.forall_iff_forall_mem.mp hops1_sub) op h)
theorem hops1_f : ∀ op ∈ (hops1 : List (HloOp τ sig (Elt F))), op.fresh = ∅ :=
  fun op h => (List.forall_iff_forall_mem.mp hops1_fresh) op h

theorem hops2_sub : (hops2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops2_fresh : (hops2 : List (HloOp τ sig (Elt F))).Forall fun op => op.fresh = ∅ := by
  simp only [List.Forall]; repeat' constructor
/-- The references stretch 2 writes. -/
abbrev hops2_W : List (Ref sig .tc) := [main_c_3, main_c_4, main_v8, main_v9]
theorem hops2_writes : (hops2 : List (HloOp τ sig (Elt F))).Forall fun op => op.writes ⊆ (hops2_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 2 does not write keeps its contents. -/
theorem hops2_keeps (W : Valuation τ sig (Elt F)) (r : Ref sig .tc) (h : r ∉ hops2_W) :
    StableHlo.after (hops2 (F := F)) W (Proc.devRef .tc r) = W (Proc.devRef .tc r) :=
  StableHlo.after_of_writes_sub hops2 _ hops2_writes h
theorem hops2_S : ∀ op ∈ (hops2 : List (HloOp τ sig (Elt F))), op.bufs ⊆ Pipeline.ucRefs τ sig :=
  fun op h => Pipeline.sub_ucRefs op ((List.forall_iff_forall_mem.mp hops2_sub) op h)
theorem hops2_f : ∀ op ∈ (hops2 : List (HloOp τ sig (Elt F))), op.fresh = ∅ :=
  fun op h => (List.forall_iff_forall_mem.mp hops2_fresh) op h

theorem hops3_sub : (hops3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops3_fresh : (hops3 : List (HloOp τ sig (Elt F))).Forall fun op => op.fresh = ∅ := by
  simp only [List.Forall]; repeat' constructor
/-- The references stretch 3 writes. -/
abbrev hops3_W : List (Ref sig .tc) := [main_c_5, main_c_6, main_v11, main_v12]
theorem hops3_writes : (hops3 : List (HloOp τ sig (Elt F))).Forall fun op => op.writes ⊆ (hops3_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 3 does not write keeps its contents. -/
theorem hops3_keeps (W : Valuation τ sig (Elt F)) (r : Ref sig .tc) (h : r ∉ hops3_W) :
    StableHlo.after (hops3 (F := F)) W (Proc.devRef .tc r) = W (Proc.devRef .tc r) :=
  StableHlo.after_of_writes_sub hops3 _ hops3_writes h
theorem hops3_S : ∀ op ∈ (hops3 : List (HloOp τ sig (Elt F))), op.bufs ⊆ Pipeline.ucRefs τ sig :=
  fun op h => Pipeline.sub_ucRefs op ((List.forall_iff_forall_mem.mp hops3_sub) op h)
theorem hops3_f : ∀ op ∈ (hops3 : List (HloOp τ sig (Elt F))), op.fresh = ∅ :=
  fun op h => (List.forall_iff_forall_mem.mp hops3_fresh) op h

theorem hops4_sub : (hops4 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.reshape_bufs_sub .., StableHlo.reshape_bufs_sub .., StableHlo.reshape_bufs_sub .., StableHlo.reshape_bufs_sub ..⟩
theorem hops4_fresh : (hops4 : List (HloOp τ sig (Elt F))).Forall fun op => op.fresh = ∅ := by
  simp only [List.Forall]; repeat' constructor
/-- The references stretch 4 writes. -/
abbrev hops4_W : List (Ref sig .tc) := [main_v14, main_v15, main_v16, main_v17, main_v18, main_v19, main_v20, main_v21, main_v22, main_v23, main_v24, main_v25, main_v26, main_v27, main_v28]
theorem hops4_writes : (hops4 : List (HloOp τ sig (Elt F))).Forall fun op => op.writes ⊆ (hops4_W.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 4 does not write keeps its contents. -/
theorem hops4_keeps (W : Valuation τ sig (Elt F)) (r : Ref sig .tc) (h : r ∉ hops4_W) :
    StableHlo.after (hops4 (F := F)) W (Proc.devRef .tc r) = W (Proc.devRef .tc r) :=
  StableHlo.after_of_writes_sub hops4 _ hops4_writes h
theorem hops4_S : ∀ op ∈ (hops4 : List (HloOp τ sig (Elt F))), op.bufs ⊆ Pipeline.ucRefs τ sig :=
  fun op h => Pipeline.sub_ucRefs op ((List.forall_iff_forall_mem.mp hops4_sub) op h)
theorem hops4_f : ∀ op ∈ (hops4 : List (HloOp τ sig (Elt F))), op.fresh = ∅ :=
  fun op h => (List.forall_iff_forall_mem.mp hops4_fresh) op h

theorem hops5_sub : (hops5 : List (HloOp τ sig (Elt F))).Forall fun op => op.bufs ⊆ StableHlo.tcRefs τ sig :=
  ⟨StableHlo.reshape_bufs_sub .., StableHlo.unary_bufs_sub ..⟩
theorem hops5_fresh : (hops5 : List (HloOp τ sig (Elt F))).Forall fun op => op.fresh = ∅ := by
  simp only [List.Forall]; repeat' constructor
/-- The references stretch 5 writes. -/
abbrev hops5_W : List (Ref sig .tc) := [main_v30, main_v31]
theorem hops5_writes : (hops5 : List (HloOp τ sig (Elt F))).Forall fun op => op.writes ⊆ (hops5_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 5 does not write keeps its contents. -/
theorem hops5_keeps (W : Valuation τ sig (Elt F)) (r : Ref sig .tc) (h : r ∉ hops5_W) :
    StableHlo.after (hops5 (F := F)) W (Proc.devRef .tc r) = W (Proc.devRef .tc r) :=
  StableHlo.after_of_writes_sub hops5 _ hops5_writes h
theorem hops5_S : ∀ op ∈ (hops5 : List (HloOp τ sig (Elt F))), op.bufs ⊆ Pipeline.ucRefs τ sig :=
  fun op h => Pipeline.sub_ucRefs op ((List.forall_iff_forall_mem.mp hops5_sub) op h)
theorem hops5_f : ∀ op ∈ (hops5 : List (HloOp τ sig (Elt F))), op.fresh = ∅ :=
  fun op h => (List.forall_iff_forall_mem.mp hops5_fresh) op h

theorem hops6_sub : (hops6 : List (HloOp τ sig (Elt F))).Forall fun op => op.bufs ⊆ StableHlo.tcRefs τ sig :=
  ⟨StableHlo.reshape_bufs_sub .., StableHlo.unary_bufs_sub ..⟩
theorem hops6_fresh : (hops6 : List (HloOp τ sig (Elt F))).Forall fun op => op.fresh = ∅ := by
  simp only [List.Forall]; repeat' constructor
/-- The references stretch 6 writes. -/
abbrev hops6_W : List (Ref sig .tc) := [main_v32, main_v33]
theorem hops6_writes : (hops6 : List (HloOp τ sig (Elt F))).Forall fun op => op.writes ⊆ (hops6_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 6 does not write keeps its contents. -/
theorem hops6_keeps (W : Valuation τ sig (Elt F)) (r : Ref sig .tc) (h : r ∉ hops6_W) :
    StableHlo.after (hops6 (F := F)) W (Proc.devRef .tc r) = W (Proc.devRef .tc r) :=
  StableHlo.after_of_writes_sub hops6 _ hops6_writes h
theorem hops6_S : ∀ op ∈ (hops6 : List (HloOp τ sig (Elt F))), op.bufs ⊆ Pipeline.ucRefs τ sig :=
  fun op h => Pipeline.sub_ucRefs op ((List.forall_iff_forall_mem.mp hops6_sub) op h)
theorem hops6_f : ∀ op ∈ (hops6 : List (HloOp τ sig (Elt F))), op.fresh = ∅ :=
  fun op h => (List.forall_iff_forall_mem.mp hops6_fresh) op h

theorem hops7_sub : (hops7 : List (HloOp τ sig (Elt F))).Forall fun op => op.bufs ⊆ StableHlo.tcRefs τ sig :=
  ⟨StableHlo.reshape_bufs_sub .., StableHlo.unary_bufs_sub ..⟩
theorem hops7_fresh : (hops7 : List (HloOp τ sig (Elt F))).Forall fun op => op.fresh = ∅ := by
  simp only [List.Forall]; repeat' constructor
/-- The references stretch 7 writes. -/
abbrev hops7_W : List (Ref sig .tc) := [main_v34, main_v35]
theorem hops7_writes : (hops7 : List (HloOp τ sig (Elt F))).Forall fun op => op.writes ⊆ (hops7_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 7 does not write keeps its contents. -/
theorem hops7_keeps (W : Valuation τ sig (Elt F)) (r : Ref sig .tc) (h : r ∉ hops7_W) :
    StableHlo.after (hops7 (F := F)) W (Proc.devRef .tc r) = W (Proc.devRef .tc r) :=
  StableHlo.after_of_writes_sub hops7 _ hops7_writes h
theorem hops7_S : ∀ op ∈ (hops7 : List (HloOp τ sig (Elt F))), op.bufs ⊆ Pipeline.ucRefs τ sig :=
  fun op h => Pipeline.sub_ucRefs op ((List.forall_iff_forall_mem.mp hops7_sub) op h)
theorem hops7_f : ∀ op ∈ (hops7 : List (HloOp τ sig (Elt F))), op.fresh = ∅ :=
  fun op h => (List.forall_iff_forall_mem.mp hops7_fresh) op h

end Cert.Proof.KI

end
-- ==== Proof.LaunchB.lean ====
/-
  The four layer-norm regions inside the SparseCore program: one region call at the outer level is the pipeline
  library's region rule run under the inner body table and lifted; the tail of @main is then four host stretches and
  four such calls in turn, from the TensorCore's buffers when the last SparseCore call has returned.
-/
import proofs.«203556_g1357209665813_cont_week2b_798_48_alg».proof.Proof.LaunchA
import proofs.«203556_g1357209665813_cont_week2b_798_48_alg».proof.Proof.HostFacts

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KI.Reg (adm)

variable {F : FTy → Type} [FloatOps F]

local notation "𝕄" => MT nD τ sig (HIx 4) (Elt F) ℕ UU ℕ

/-- The unscoped TensorCore buffers. -/
abbrev UC : Finset (DevRef τ sig) := Pipeline.ucRefs τ sig

/-- The inner program of a region call. -/
abbrev callIn (p : Fin 4) : Prog (TpuEff nD τ sig (Elt F) (ΛP (F := F)) .tc) PUnit := .op (.customCall (Pipeline.entry p) ()) fun _ => .ret ⟨⟩
/-- The same call as @main spells it. -/
abbrev callOut (p : Fin 4) : Prog (TpuEff nD τ sig (Elt F) (SparseCore.Sig (ΛP (F := F)) 4) .tc) PUnit :=
  Prog.lift (.customCall (SparseCore.inner (Pipeline.entry p)) ())

/-- The call of a pipeline's entry label at the SparseCore program's level is the inner call, lifted. -/
theorem entry_lift (p : Fin 4) : callOut (F := F) p = SparseCore.liftProg (Q := 4) (callIn (F := F) p) := rfl

/-- A proof about the inner call is one about the outer. -/
theorem region_lift (p : Fin 4) (d : Dev nD) (Φ : PUnit → sProp 𝕄) :
    wp frame (wpE (D (F := F)) 𝒱 (T d) none) Set.univ (callIn (F := F) p) Φ
      ⊢ wp frame (wpE ((K (F := F)).defs (D (F := F))) 𝒱 (T d) none) Set.univ (callOut (F := F) p) Φ := by
  rw [entry_lift]
  exact (K (F := F)).wp_liftProg (D (F := F)) 𝒱 (T d) Set.univ none (callIn (F := F) p) Φ

set_option maxHeartbeats 1600000 in
/-- The region rule at pipeline `p`, at the inner level, with the return as continuation. -/
theorem region_in [∀ e, Nonempty (Elt F e)]
    (pdats : (p : Fin 4) → (c : Dev nD) → Pipeline.Dat τ (Elt F) (HIx 4) ℕ UU ℕ (Pipeline.pin (pcfgs (F := F)) adm p) c)
    {p : Fin 4} (R : Pipeline.RegionSeg (pcfgs (F := F)) adm pdats (none : HIx 4) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE (D (F := F)) 𝒱 (T d) none) Set.univ (callIn (F := F) p) Φ := by
  have h := Pipeline.RegionSeg.wp (pcfgs (F := F)) adm pdats (none : HIx 4) cellOf_inj (EP (F := F)) defs₀ 𝒱₀ (K (F := F)).L (K (F := F)).lev R d none
    (fun _ hu => nomatch hu) (fun _ => .ret ⟨⟩) Φ
  iintro ⟨Hk, Hrest⟩
  iapply h
  isplitl [Hk]
  · iintro Hp
    rw [wp_ret]; imodintro
    iapply Hk; iexact Hp
  · iexact Hrest

/-- One region call of @main: from the boundary, the region's entry state, the level facts and the pipeline's ghost
    state, to the boundary and the region's exit state for the continuation. -/
theorem region_step [∀ e, Nonempty (Elt F e)]
    (pdats : (p : Fin 4) → (c : Dev nD) → Pipeline.Dat τ (Elt F) (HIx 4) ℕ UU ℕ (Pipeline.pin (pcfgs (F := F)) adm p) c)
    {p : Fin 4} (R : Pipeline.RegionSeg (pcfgs (F := F)) adm pdats (none : HIx 4) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (callOut (F := F) p) Φ :=
  (region_in pdats R d Φ).trans (region_lift p d Φ)

/-- The ghost state @main starts from, pipeline by pipeline. -/
theorem G_eq (d : Dev nD) : G (F := F) d = iprop(
    (Pipeline.cellsGhost (Pipeline.pin (pcfgs (F := F)) adm) (EP (F := F)) 0 d ∗ Pipeline.toksInit (Pipeline.pin (pcfgs (F := F)) adm) (EP (F := F)) 0 d)
    ∗ (Pipeline.cellsGhost (Pipeline.pin (pcfgs (F := F)) adm) (EP (F := F)) 1 d ∗ Pipeline.toksInit (Pipeline.pin (pcfgs (F := F)) adm) (EP (F := F)) 1 d)
    ∗ (Pipeline.cellsGhost (Pipeline.pin (pcfgs (F := F)) adm) (EP (F := F)) 2 d ∗ Pipeline.toksInit (Pipeline.pin (pcfgs (F := F)) adm) (EP (F := F)) 2 d)
    ∗ (Pipeline.cellsGhost (Pipeline.pin (pcfgs (F := F)) adm) (EP (F := F)) 3 d ∗ Pipeline.toksInit (Pipeline.pin (pcfgs (F := F)) adm) (EP (F := F)) 3 d)) := by
  unfold G
  rw [show (Finset.univ : Finset (Fin 4)) = insert 0 (insert 1 (insert 2 {3})) by decide,
    SparseCore.bigSep_insert' (by decide), SparseCore.bigSep_insert' (by decide), SparseCore.bigSep_insert' (by decide), bigSep_singleton]

/-- The tail of @main. -/
abbrev tailProg : Prog (TpuEff nD τ sig (Elt F) (SparseCore.Sig (ΛP (F := F)) 4) .tc) PUnit :=
  StableHlo.seq (hops4 (F := F)) >>= fun _ => callOut (F := F) 0 >>= fun _ =>
  StableHlo.seq (hops5 (F := F)) >>= fun _ => callOut (F := F) 1 >>= fun _ =>
  StableHlo.seq (hops6 (F := F)) >>= fun _ => callOut (F := F) 2 >>= fun _ =>
  StableHlo.seq (hops7 (F := F)) >>= fun _ => callOut (F := F) 3 >>= fun _ => pure ⟨⟩

set_option maxHeartbeats 1600000 in
/-- The tail's run on device `d`: from the buffers at `Wt d`, the generator register and the core owing nothing with
    its recorded waits within `Bd d`, through the four stretches and regions, to the buffers at the last region's exit
    contents. -/
theorem tail_run [∀ e, Nonempty (Elt F e)] (d : Dev nD) (Wt : Dev nD → Valuation τ sig (Elt F)) (Bd : Dev nD → Set (SemLoc sig × HIx 4))
    (hBd : ∀ c p, (cfgs p).waitPairs (none : HIx 4) ⊆ Bd c) (Φ : PUnit → sProp 𝕄) :
    iprop(boundary (T d) ∗ (held (T d) UC (Wt d) : sProp 𝕄) ∗ Reg.R (F := F) Bd d ∗ levAts (K (F := F)).L (K (F := F)).lev ∗ G (F := F) d
        ∗ (iprop(boundary (T d) ∗ (held (T d) UC (Reg.X3 Wt Bd d) : sProp 𝕄) ∗ Reg.R (F := F) Bd d) -∗ Φ ⟨⟩))
      ⊢ wp frame (wpE ((K (F := F)).defs (D (F := F))) 𝒱 (T d) none) Set.univ (tailProg (F := F)) Φ := by
  rw [G_eq]
  iintro ⟨Hb, Hh, HR, #Hlv, ⟨⟨Hg0, Ht0⟩, ⟨Hg1, Ht1⟩, ⟨Hg2, Ht2⟩, ⟨Hg3, Ht3⟩⟩, Hk⟩
  -- stretch 4 and region 0
  iapply (StableHlo.wp_seq (defs := (K (F := F)).defs (D (F := F))) 𝒱 none Set.univ d UC _ hops4 hops4_S hops4_f (Wt d)) $$ [Hb Hh]
  · isplitl [Hb] <;> iassumption
  iintro ⟨Hb, Hh⟩
  rw [wp_bind]
  iapply (region_step (Reg.pdats Wt Bd) (Reg.reg4 Wt Bd hBd) d _)
  rw [show (Reg.reg4 (F := F) Wt Bd hBd).pre d = iprop((held (T d) UC (Reg.E0 Wt d) : sProp 𝕄) ∗ Reg.R (F := F) Bd d) from rfl,
    show (Reg.reg4 (F := F) Wt Bd hBd).post d = iprop((held (T d) UC (Reg.X0 Wt Bd d) : sProp 𝕄) ∗ Reg.R (F := F) Bd d) from rfl]
  isplitr [Hb Hh HR Hg0 Ht0]
  swap
  · isplitl [Hb]; · iexact Hb
    isplitl [Hh HR]
    · isplitl [Hh]; · iexact Hh
      iexact HR
    isplitr; · iexact Hlv
    isplitl [Hg0]; · iexact Hg0
    iexact Ht0
  iintro ⟨Hb, Hh, HR⟩
  -- stretch 5 and region 1
  iapply (StableHlo.wp_seq (defs := (K (F := F)).defs (D (F := F))) 𝒱 none Set.univ d UC _ hops5 hops5_S hops5_f (Reg.X0 Wt Bd d)) $$ [Hb Hh]
  · isplitl [Hb] <;> iassumption
  iintro ⟨Hb, Hh⟩
  rw [wp_bind]
  iapply (region_step (Reg.pdats Wt Bd) (Reg.reg5 Wt Bd hBd) d _)
  rw [show (Reg.reg5 (F := F) Wt Bd hBd).pre d = iprop((held (T d) UC (Reg.E1 Wt Bd d) : sProp 𝕄) ∗ Reg.R (F := F) Bd d) from rfl,
    show (Reg.reg5 (F := F) Wt Bd hBd).post d = iprop((held (T d) UC (Reg.X1 Wt Bd d) : sProp 𝕄) ∗ Reg.R (F := F) Bd d) from rfl]
  isplitr [Hb Hh HR Hg1 Ht1]
  swap
  · isplitl [Hb]; · iexact Hb
    isplitl [Hh HR]
    · isplitl [Hh]; · iexact Hh
      iexact HR
    isplitr; · iexact Hlv
    isplitl [Hg1]; · iexact Hg1
    iexact Ht1
  iintro ⟨Hb, Hh, HR⟩
  -- stretch 6 and region 2
  iapply (StableHlo.wp_seq (defs := (K (F := F)).defs (D (F := F))) 𝒱 none Set.univ d UC _ hops6 hops6_S hops6_f (Reg.X1 Wt Bd d)) $$ [Hb Hh]
  · isplitl [Hb] <;> iassumption
  iintro ⟨Hb, Hh⟩
  rw [wp_bind]
  iapply (region_step (Reg.pdats Wt Bd) (Reg.reg6 Wt Bd hBd) d _)
  rw [show (Reg.reg6 (F := F) Wt Bd hBd).pre d = iprop((held (T d) UC (Reg.E2 Wt Bd d) : sProp 𝕄) ∗ Reg.R (F := F) Bd d) from rfl,
    show (Reg.reg6 (F := F) Wt Bd hBd).post d = iprop((held (T d) UC (Reg.X2 Wt Bd d) : sProp 𝕄) ∗ Reg.R (F := F) Bd d) from rfl]
  isplitr [Hb Hh HR Hg2 Ht2]
  swap
  · isplitl [Hb]; · iexact Hb
    isplitl [Hh HR]
    · isplitl [Hh]; · iexact Hh
      iexact HR
    isplitr; · iexact Hlv
    isplitl [Hg2]; · iexact Hg2
    iexact Ht2
  iintro ⟨Hb, Hh, HR⟩
  -- stretch 7 and region 3
  iapply (StableHlo.wp_seq (defs := (K (F := F)).defs (D (F := F))) 𝒱 none Set.univ d UC _ hops7 hops7_S hops7_f (Reg.X2 Wt Bd d)) $$ [Hb Hh]
  · isplitl [Hb] <;> iassumption
  iintro ⟨Hb, Hh⟩
  rw [wp_bind]
  iapply (region_step (Reg.pdats Wt Bd) (Reg.reg7 Wt Bd hBd) d _)
  rw [show (Reg.reg7 (F := F) Wt Bd hBd).pre d = iprop((held (T d) UC (Reg.E3 Wt Bd d) : sProp 𝕄) ∗ Reg.R (F := F) Bd d) from rfl,
    show (Reg.reg7 (F := F) Wt Bd hBd).post d = iprop((held (T d) UC (Reg.X3 Wt Bd d) : sProp 𝕄) ∗ Reg.R (F := F) Bd d) from rfl]
  isplitr [Hb Hh HR Hg3 Ht3]
  swap
  · isplitl [Hb]; · iexact Hb
    isplitl [Hh HR]
    · isplitl [Hh]; · iexact Hh
      iexact HR
    isplitr; · iexact Hlv
    isplitl [Hg3]; · iexact Hg3
    iexact Ht3
  iintro ⟨Hb, Hh, HR⟩
  rw [wp_pure]; imodintro
  iapply Hk
  isplitl [Hb]; · iexact Hb
  isplitl [Hh]; · iexact Hh
  iexact HR

end Cert.Proof.KI

end
-- ==== Proof.LaunchC.lean ====
/-
  @main on the TensorCore inside the SparseCore launch: four times a host stretch and a SparseCore call — the call's
  operands cut out of the TensorCore's buffers for the thirty-two tasks and its output put back at what they left —,
  then the tail of four stretches and layer-norm regions; the arguments keep their launch contents throughout.
-/
import proofs.«203556_g1357209665813_cont_week2b_798_48_alg».proof.Proof.LaunchB

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KI.Reg (adm)

variable {F : FTy → Type}

local notation "𝕄" => MT nD τ sig (HIx 4) (Elt F) ℕ UU ℕ

variable (TP : TilePay F)

/-- @main's arguments. -/
abbrev argL : List (Ref sig .tc) := [main_arg0, main_arg1, main_arg2, main_arg3, main_arg4, main_arg5, main_arg6]
/-- The output array of SparseCore call `q`. -/
abbrev outR : Fin 4 → Ref sig .tc
  | 0 => main_v4 | 1 => main_v7 | 2 => main_v10 | 3 => main_v13
abbrev outD (q : Fin 4) : DevRef τ sig := Proc.devRef .tc (outR q)

/-- How a call's operands come out of the TensorCore's buffers and its results go back: what the tile's proof and the
    partition of the arrays among the thirty-two tasks supply. `IdxOK q d W`: the ids call `q` gathers by, as the
    buffers `W` hold them, name rows of the table. -/
structure CallIface where
  IdxOK : Fin 4 → Dev nD → Valuation τ sig (Elt F) → Prop
  /-- What is known of the output a call leaves (nothing, for the frame; the gathered rows, for the value). -/
  OutOK : (q : Fin 4) → Dev nD → Valuation τ sig (Elt F) → (outD q).ty.Contents (Elt F) → Prop
  split : ∀ q d (W : Valuation τ sig (Elt F)), IdxOK q d W →
    (held (T d) UC W : sProp 𝕄) ⊢ |={Set.univ}=> iprop((bigSep Finset.univ fun c => (P TP).st q d c)
      ∗ ((bigSep Finset.univ fun c => (P TP).dn q d c) -∗ ∃ f, ⌜OutOK q d W f⌝ ∗ held (T d) UC (Function.update W (outD q) f)))

variable (m : (ℓ : Loc nD τ sig) → Buf (Elt F) ℓ) (ρ : Dev nD → PrngReg)

/-- The launch contents. -/
def W0 (d : Dev nD) : Valuation τ sig (Elt F) := fun b => m (d, b)

/-- The bound on the TensorCore's recorded waits once the four calls are over. -/
def Bd (d : Dev nD) : Set (SemLoc sig × HIx 4) := {p | (K (F := F)).lev (T d, p.1) p.2 ≤ 8 * 4}

theorem hBd : ∀ (c : Dev nD) (p : Fin 4), (cfgs p).waitPairs (none : HIx 4) ⊆ Bd (F := F) c := by
  rintro c p _ ⟨w, s, rfl⟩
  show (K (F := F)).lev _ none ≤ 8 * 4
  rw [SparseCore.Cfg.lev_none]; exact Nat.zero_le _

/-- A valuation has the arguments as launched. -/
def ArgsOf (d : Dev nD) (W : Valuation τ sig (Elt F)) : Prop := ∀ r ∈ argL, W (Proc.devRef .tc r) = m ((SparseCore.T d).loc r)

/-- What @main leaves the claim: the unscoped buffers at a valuation that has the arguments as launched. -/
def FIN (Res : Dev nD → Valuation τ sig (Elt F) → Prop) (d : Dev nD) : sProp 𝕄 :=
  iprop(∃ Wf : Valuation τ sig (Elt F), ⌜ArgsOf m d Wf ∧ Res d Wf⌝ ∗ held (T d) UC Wf)

theorem argsOf_W0 (d : Dev nD) : ArgsOf m d (W0 m d) := fun _ _ => rfl

theorem argsOf_update (d : Dev nD) (q : Fin 4) {W : Valuation τ sig (Elt F)} (f) (h : ArgsOf m d W) : ArgsOf m d (Function.update W (outD q) f) :=
  fun r hr => (Function.update_of_ne (StableHlo.devRef_ne_of_ne (by
    revert r; match q with
    | 0 => decide
    | 1 => decide
    | 2 => decide
    | 3 => decide)) _ _).trans (h r hr)

variable [FloatOps F]

theorem argsOf_hops0 (d : Dev nD) {W : Valuation τ sig (Elt F)} (h : ArgsOf m d W) : ArgsOf m d (StableHlo.after (hops0 (F := F)) W) :=
  fun r hr => (hops0_keeps W r ((by decide : ∀ r ∈ argL, r ∉ hops0_W) r hr)).trans (h r hr)
theorem argsOf_hops1 (d : Dev nD) {W : Valuation τ sig (Elt F)} (h : ArgsOf m d W) : ArgsOf m d (StableHlo.after (hops1 (F := F)) W) :=
  fun r hr => (hops1_keeps W r ((by decide : ∀ r ∈ argL, r ∉ hops1_W) r hr)).trans (h r hr)
theorem argsOf_hops2 (d : Dev nD) {W : Valuation τ sig (Elt F)} (h : ArgsOf m d W) : ArgsOf m d (StableHlo.after (hops2 (F := F)) W) :=
  fun r hr => (hops2_keeps W r ((by decide : ∀ r ∈ argL, r ∉ hops2_W) r hr)).trans (h r hr)
theorem argsOf_hops3 (d : Dev nD) {W : Valuation τ sig (Elt F)} (h : ArgsOf m d W) : ArgsOf m d (StableHlo.after (hops3 (F := F)) W) :=
  fun r hr => (hops3_keeps W r ((by decide : ∀ r ∈ argL, r ∉ hops3_W) r hr)).trans (h r hr)
theorem argsOf_hops4 (d : Dev nD) {W : Valuation τ sig (Elt F)} (h : ArgsOf m d W) : ArgsOf m d (StableHlo.after (hops4 (F := F)) W) :=
  fun r hr => (hops4_keeps W r ((by decide : ∀ r ∈ argL, r ∉ hops4_W) r hr)).trans (h r hr)
theorem argsOf_hops5 (d : Dev nD) {W : Valuation τ sig (Elt F)} (h : ArgsOf m d W) : ArgsOf m d (StableHlo.after (hops5 (F := F)) W) :=
  fun r hr => (hops5_keeps W r ((by decide : ∀ r ∈ argL, r ∉ hops5_W) r hr)).trans (h r hr)
theorem argsOf_hops6 (d : Dev nD) {W : Valuation τ sig (Elt F)} (h : ArgsOf m d W) : ArgsOf m d (StableHlo.after (hops6 (F := F)) W) :=
  fun r hr => (hops6_keeps W r ((by decide : ∀ r ∈ argL, r ∉ hops6_W) r hr)).trans (h r hr)
theorem argsOf_hops7 (d : Dev nD) {W : Valuation τ sig (Elt F)} (h : ArgsOf m d W) : ArgsOf m d (StableHlo.after (hops7 (F := F)) W) :=
  fun r hr => (hops7_keeps W r ((by decide : ∀ r ∈ argL, r ∉ hops7_W) r hr)).trans (h r hr)

theorem argsOf_X3 (d : Dev nD) (Wt : Dev nD → Valuation τ sig (Elt F)) (Bd' : Dev nD → Set (SemLoc sig × HIx 4)) (h : ArgsOf m d (Wt d)) :
    ArgsOf m d (Reg.X3 Wt Bd' d) := by
  intro r hr
  simp only [argL, List.mem_cons, List.mem_nil_iff, or_false] at hr
  rcases hr with rfl | rfl | rfl | rfl | rfl | rfl | rfl
  · exact (Reg.X3_arg0 Wt Bd' d).trans (h _ (by simp [argL]))
  · exact (Reg.X3_arg1 Wt Bd' d).trans (h _ (by simp [argL]))
  · exact (Reg.X3_arg2 Wt Bd' d).trans (h _ (by simp [argL]))
  · exact (Reg.X3_arg3 Wt Bd' d).trans (h _ (by simp [argL]))
  · exact (Reg.X3_arg4 Wt Bd' d).trans (h _ (by simp [argL]))
  · exact (Reg.X3_arg5 Wt Bd' d).trans (h _ (by simp [argL]))
  · exact (Reg.X3_arg6 Wt Bd' d).trans (h _ (by simp [argL]))

/-- The rest of the TensorCore's handshake state after the last call. -/
def tcTail (d : Dev nD) : sProp 𝕄 :=
  iprop(atPos EH ((K (F := F)).doneCell d) 4 ∅ 0 ∗ reached EH ((K (F := F)).doneCell d) 4
    ∗ (bigSep Finset.univ fun c : Fin τ.nSC => reached EH ((K (F := F)).startCell d c) ((K (F := F)).sRank c 4))
    ∗ bigSep (SparseCore.Cfg.callsFrom (Q := 4) 4) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_end (d : Dev nD) :
    (K (F := F)).tcSt EH d 4 = iprop((∃ W, ⌜(K (F := F)).WBelow (T d) W (8 * 4)⌝ ∗ owes (T d) (0 : CellTallies nD τ sig (HIx 4)) W) ∗ tcTail (F := F) d) := by
  unfold SparseCore.Cfg.tcSt tcTail
  rw [(K (F := F)).Otc_end d (le_refl 4)]

set_option maxHeartbeats 1600000 in
/-- A host stretch and the SparseCore call after it, for any continuation: the stretch's operations over the held
    buffers, the call's operands cut out of them, the call (the launch library's rule), the output put back. -/
theorem call_step [∀ e, Nonempty (Elt F e)] (CI : CallIface (F := F) TP) (q : Fin 4) (d : Dev nD) (κ : GSem nD τ sig → ℕ)
    (hops : List (HloOp τ sig (Elt F))) (hS : ∀ op ∈ hops, op.bufs ⊆ UC) (hf : ∀ op ∈ hops, op.fresh = ∅)
    (W : Valuation τ sig (Elt F)) (hidx : CI.IdxOK q d (StableHlo.after hops W))
    {α : Type} (k : PUnit → Prog (TpuEff nD τ sig (Elt F) (SparseCore.Sig (ΛP (F := F)) 4) .tc) α) (Φ : α → sProp 𝕄) :
    iprop((K (F := F)).ctx EH (P TP) κ ∗ (K (F := F)).tcSt EH d q.val ∗ boundary (T d) ∗ (held (T d) UC W : sProp 𝕄)
        ∗ (∀ f, ⌜CI.OutOK q d (StableHlo.after hops W) f⌝ -∗
            iprop((K (F := F)).tcSt EH d (q.val + 1) ∗ boundary (T d) ∗ (held (T d) UC (Function.update (StableHlo.after hops W) (outD q) f) : sProp 𝕄))
              -∗ wp frame (wpE ((K (F := F)).defs (D (F := F))) 𝒱 (T d) none) Set.univ (k ⟨⟩) Φ))
      ⊢ wp frame (wpE ((K (F := F)).defs (D (F := F))) 𝒱 (T d) none) Set.univ
          (StableHlo.seq hops >>= fun _ => (sc (F := F)).run d q >>= k) Φ := by
  iintro ⟨#Hctx, Hst, Hb, Hh, Hk⟩
  iapply (StableHlo.wp_seq (defs := (K (F := F)).defs (D (F := F))) 𝒱 none Set.univ d UC _ hops hS hf W) $$ [Hb Hh]
  · isplitl [Hb] <;> iassumption
  iintro ⟨Hb, Hh⟩
  rw [wp_bind]
  imod (CI.split q d _ hidx) $$ Hh with ⟨Hsts, Hback⟩
  iapply ((K (F := F)).wp_run (D (F := F)) 𝒱 (EH := EH) (P := P TP) κ d q) $$ [Hst Hsts Hback Hb Hk]
  isplitr; · iexact Hctx
  isplitl [Hst]; · iexact Hst
  isplitl [Hsts]; · iexact Hsts
  iintro ⟨Hst, Hdn⟩
  ihave Hh' := Hback $$ Hdn
  icases Hh' with ⟨%f, %hf', Hh⟩
  ispecialize Hk $$ %f
  ispecialize Hk $$ %hf'
  iapply Hk
  isplitl [Hst]; · iexact Hst
  isplitl [Hb]; · iexact Hb
  iexact Hh

set_option maxHeartbeats 1600000 in
/-- @main on device `d`'s TensorCore. -/
theorem hmain [∀ e, Nonempty (Elt F e)] (CI : CallIface (F := F) TP) (d : Dev nD)
    (hidx0 : CI.IdxOK 0 d (StableHlo.after hops0 (W0 m d)))
    (hidx1 : ∀ f0, CI.IdxOK 1 d (StableHlo.after hops1 (Function.update (StableHlo.after hops0 (W0 m d)) (outD 0) f0)))
    (hidx2 : ∀ f0 f1, CI.IdxOK 2 d (StableHlo.after hops2 (Function.update (StableHlo.after hops1 (Function.update (StableHlo.after hops0 (W0 m d)) (outD 0) f0)) (outD 1) f1)))
    (hidx3 : ∀ f0 f1 f2, CI.IdxOK 3 d (StableHlo.after hops3 (Function.update (StableHlo.after hops2 (Function.update (StableHlo.after hops1 (Function.update (StableHlo.after hops0 (W0 m d)) (outD 0) f0)) (outD 1) f1)) (outD 2) f2)))
    (Res : Dev nD → Valuation τ sig (Elt F) → Prop)
    (hres : ∀ f0 f1 f2 f3, CI.OutOK 0 d (StableHlo.after hops0 (W0 m d)) f0 → CI.OutOK 1 d (StableHlo.after hops1 (Function.update (StableHlo.after hops0 (W0 m d)) (outD 0) f0)) f1
      → CI.OutOK 2 d (StableHlo.after hops2 (Function.update (StableHlo.after hops1 (Function.update (StableHlo.after hops0 (W0 m d)) (outD 0) f0)) (outD 1) f1)) f2 → CI.OutOK 3 d (StableHlo.after hops3 (Function.update (StableHlo.after hops2 (Function.update (StableHlo.after hops1 (Function.update (StableHlo.after hops0 (W0 m d)) (outD 0) f0)) (outD 1) f1)) (outD 2) f2)) f3
      → Res d (Reg.X3 (fun _ => (Function.update (StableHlo.after hops3 (Function.update (StableHlo.after hops2 (Function.update (StableHlo.after hops1 (Function.update (StableHlo.after hops0 (W0 m d)) (outD 0) f0)) (outD 1) f1)) (outD 2) f2)) (outD 3) f3)) (Bd (F := F)) d))
    (κ : GSem nD τ sig → ℕ) :
    iprop((K (F := F)).ctx EH (P TP) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 4 ∗ FIN m Res d) := by
  unfold SparseCore.Cfg.tcRes
  rw [show unscopedBufs d (fun b => m ((SparseCore.T d).loc b)) = (held (T d) UC (W0 m d) : sProp 𝕄) from Pipeline.unscopedBufs_held d (W0 m d)]
  rw [main_eq]
  iintro ⟨#Hctx, Hst, ⟨Hb, Hh, -, Hprng⟩, HG⟩
  iapply (call_step TP CI 0 d κ hops0 hops0_S hops0_f (W0 m d) hidx0 _ _) $$ [Hst Hb Hh Hprng HG]
  isplitr; · iexact Hctx
  isplitl [Hst]; · iexact Hst
  isplitl [Hb]; · iexact Hb
  isplitl [Hh]; · iexact Hh
  iintro %f0 %hf0 ⟨Hst, Hb, Hh⟩
  iapply (call_step TP CI 1 d κ hops1 hops1_S hops1_f (Function.update (StableHlo.after hops0 (W0 m d)) (outD 0) f0) (hidx1 f0) _ _) $$ [Hst Hb Hh Hprng HG]
  isplitr; · iexact Hctx
  isplitl [Hst]; · iexact Hst
  isplitl [Hb]; · iexact Hb
  isplitl [Hh]; · iexact Hh
  iintro %f1 %hf1 ⟨Hst, Hb, Hh⟩
  iapply (call_step TP CI 2 d κ hops2 hops2_S hops2_f (Function.update (StableHlo.after hops1 (Function.update (StableHlo.after hops0 (W0 m d)) (outD 0) f0)) (outD 1) f1) (hidx2 f0 f1) _ _) $$ [Hst Hb Hh Hprng HG]
  isplitr; · iexact Hctx
  isplitl [Hst]; · iexact Hst
  isplitl [Hb]; · iexact Hb
  isplitl [Hh]; · iexact Hh
  iintro %f2 %hf2 ⟨Hst, Hb, Hh⟩
  iapply (call_step TP CI 3 d κ hops3 hops3_S hops3_f (Function.update (StableHlo.after hops2 (Function.update (StableHlo.after hops1 (Function.update (StableHlo.after hops0 (W0 m d)) (outD 0) f0)) (outD 1) f1)) (outD 2) f2) (hidx3 f0 f1 f2) _ _) $$ [Hst Hb Hh Hprng HG]
  isplitr; · iexact Hctx
  isplitl [Hst]; · iexact Hst
  isplitl [Hb]; · iexact Hb
  isplitl [Hh]; · iexact Hh
  iintro %f3 %hf3 ⟨Hst, Hb, Hh⟩
  -- the tail
  ihave Hlv := (SparseCore.Cfg.ctx_levAts κ) $$ Hctx
  ihave Hst4 := (show ((K (F := F)).tcSt EH d ((3 : Fin 4).val + 1) : sProp 𝕄) ⊢ (K (F := F)).tcSt EH d 4 from .rfl) $$ Hst
  ihave Hst' := (Entails.of_eq (tcSt_end (F := F) d)) $$ Hst4
  icases Hst' with ⟨⟨%Wr, %hWr, HO⟩, Htl⟩
  iapply (tail_run d (fun _ => (Function.update (StableHlo.after hops3 (Function.update (StableHlo.after hops2 (Function.update (StableHlo.after hops1 (Function.update (StableHlo.after hops0 (W0 m d)) (outD 0) f0)) (outD 1) f1)) (outD 2) f2)) (outD 3) f3)) (Bd (F := F)) hBd _) $$ [Hb Hh Hprng HO Hlv HG Htl]
  isplitl [Hb]; · iexact Hb
  isplitl [Hh]; · iexact Hh
  isplitl [Hprng HO]
  · isplitl [Hprng]; · iexists _; iexact Hprng
    iexists Wr; isplitr
    · ipureintro; exact fun p hp => hWr p (Finset.mem_coe.mp hp)
    · iexact HO
  isplitl [Hlv]; · iexact Hlv
  isplitl [HG]; · iexact HG
  iintro ⟨Hb, Hh, ⟨Hp, %W', %hW', HO⟩⟩
  isplitl [HO Htl]
  · iapply (Entails.of_eq (tcSt_end (F := F) d).symm)
    isplitl [HO]
    · iexists W'; isplitr
      · ipureintro; exact fun p hp => hW' (Finset.mem_coe.mpr hp)
      · iexact HO
    · iexact Htl
  unfold FIN
  iexists _; isplitr
  swap; · iexact Hh
  ipureintro
  refine ⟨?_, hres f0 f1 f2 f3 hf0 hf1 hf2 hf3⟩
  exact argsOf_X3 m d _ _ (argsOf_update m d 3 _ (argsOf_hops3 m d (argsOf_update m d 2 _ (argsOf_hops2 m d (argsOf_update m d 1 _ (argsOf_hops1 m d
    (argsOf_update m d 0 _ (argsOf_hops0 m d (argsOf_W0 m d)))))))))

end Cert.Proof.KI

end
-- ==== Proof.LaunchD.lean ====
/-
  The idealized kernel program's run: the SparseCore launch theorem applied to the four tile obligations, the split of
  each call's operands, the launch element and @main's proof; every final state has the seven arguments as launched.
-/
import proofs.«203556_g1357209665813_cont_week2b_798_48_alg».proof.Proof.LaunchC

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (TP : TilePay F) (m : (ℓ : Loc nD τ sig) → Buf (Elt F) ℓ) (ρ : Dev nD → PrngReg)

/-- What the claim reads off a final state on device `d`: the arguments as launched. -/
def fq (d : Dev nD) (s' : Phys nD τ sig (Elt F)) : Prop := ∀ r ∈ argL, s'.mem.mem ((SparseCore.T d).loc r) = m ((SparseCore.T d).loc r)

theorem arg_mem_UC : ∀ r ∈ argL, (Proc.devRef .tc r : DevRef τ sig) ∈ UC := by decide

theorem hfin (Res : Dev nD → Valuation τ sig (Elt F) → Prop) (d : Dev nD) (s' : Phys nD τ sig (Elt F)) : iprop(FIN m Res d ∗ SI s') ⊢ (⌜fq m d s'⌝ : sProp 𝕄) := by
  unfold FIN
  iintro ⟨⟨%Wf, %hWf, Hh⟩, HSI⟩
  unfold StableHlo.held
  ihave H := (pointsTo_read_all UC (fun b => ((SparseCore.T d).1, b)) Wf s') $$ [Hh HSI]
  · isplitl [Hh] <;> iassumption
  icases H with ⟨%h, -⟩
  ipureintro
  exact fun r hr => (h _ (arg_mem_UC r hr)).trans (hWf.1 r hr)

/-- The claim's post: on every device the seven arguments as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem hQ (s' : Phys nD τ sig (Elt F)) (h : ∀ d, fq m d s') : QC m (⟨⟩, s'.mem) := fun c =>
  ⟨h c _ (by simp [argL]), h c _ (by simp [argL]), h c _ (by simp [argL]), h c _ (by simp [argL]), h c _ (by simp [argL]), h c _ (by simp [argL]), h c _ (by simp [argL])⟩

variable [FloatOps F]

/-- The program's run, from the tiles' obligations and the calls' splits. -/
theorem run_main [∀ e, Nonempty (Elt F e)] (CI : CallIface (F := F) TP)
    (htile : ∀ q, (K (F := F)).TileObl (D (F := F)) 𝒱 (P TP) v₀ q)
    (hidx0 : ∀ d, CI.IdxOK 0 d (StableHlo.after hops0 (W0 m d)))
    (hidx1 : ∀ d f0, CI.IdxOK 1 d (StableHlo.after hops1 (Function.update (StableHlo.after hops0 (W0 m d)) (outD 0) f0)))
    (hidx2 : ∀ d f0 f1, CI.IdxOK 2 d (StableHlo.after hops2 (Function.update (StableHlo.after hops1 (Function.update (StableHlo.after hops0 (W0 m d)) (outD 0) f0)) (outD 1) f1)))
    (hidx3 : ∀ d f0 f1 f2, CI.IdxOK 3 d (StableHlo.after hops3 (Function.update (StableHlo.after hops2 (Function.update (StableHlo.after hops1 (Function.update (StableHlo.after hops0 (W0 m d)) (outD 0) f0)) (outD 1) f1)) (outD 2) f2))) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P TP) facts v₀
    (fun q hq => match q with | 0 => nomatch hq | 1 => nomatch hq | 2 => nomatch hq | 3 => nomatch hq)
    (fun q _ => htile q)
    (fun q _ => SparseCore.Cfg.VecSplit.of_plain (vecSplit TP q))
    m ρ main (G (F := F)) (FIN m fun _ _ => True) (u₀ (F := F)) (sep_elim_left.trans (hu₀ TP))
    (fun κ d => hmain TP m ρ CI d (hidx0 d) (hidx1 d) (hidx2 d) (hidx3 d) (fun _ _ => True) (fun _ _ _ _ _ _ _ _ => trivial) κ) (fq m) (hfin m _) (QC m) (hQ m)

end Cert.Proof.KI

end
-- ==== Proof.Tile0Sets.lean ====
/-
  The row gather's task on one vector subcore, call 0: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.Common

noncomputable section

namespace Cert.Proof.KI.Tile0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid0.Coords) : Thread nD τ := V d ((L 0).castLE hcore0) ((L 1).castLE hsub0)
abbrev tblLoc (d : Dev nD) : Loc nD τ sig := (SparseCore.T d).loc main_arg2
abbrev idxLoc (d : Dev nD) : Loc nD τ sig := (SparseCore.T d).loc main_v3
abbrev outLoc (d : Dev nD) : Loc nD τ sig := (SparseCore.T d).loc main_v4

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v3_scv : Memref Cert.KernelIdeal.sig Kind.scVector Space.hbm Cert.KernelIdeal.S32x25x64 EltTy.i32)
local notation "outW" => (Memref.whole Cert.KernelIdeal.main_v4_scv : Memref Cert.KernelIdeal.sig Kind.scVector Space.hbm Cert.KernelIdeal.S51200x128 EltTy.f32)
local notation "ivW" => (Memref.whole Cert.KernelIdeal.cc0_scratch0 : Memref Cert.KernelIdeal.sig Kind.scVector Space.vmem Cert.KernelIdeal.S25x64 EltTy.i32)
local notation "b0W" => (Memref.whole Cert.KernelIdeal.cc0_scratch1 : Memref Cert.KernelIdeal.sig Kind.scVector Space.vmem Cert.KernelIdeal.S64x128 EltTy.f32)
local notation "b1W" => (Memref.whole Cert.KernelIdeal.cc0_scratch2 : Memref Cert.KernelIdeal.sig Kind.scVector Space.vmem Cert.KernelIdeal.S64x128 EltTy.f32)
local notation "b2W" => (Memref.whole Cert.KernelIdeal.cc0_scratch3 : Memref Cert.KernelIdeal.sig Kind.scVector Space.vmem Cert.KernelIdeal.S64x128 EltTy.f32)
local notation "b3W" => (Memref.whole Cert.KernelIdeal.cc0_scratch4 : Memref Cert.KernelIdeal.sig Kind.scVector Space.vmem Cert.KernelIdeal.S64x128 EltTy.f32)
local notation "b4W" => (Memref.whole Cert.KernelIdeal.cc0_scratch5 : Memref Cert.KernelIdeal.sig Kind.scVector Space.vmem Cert.KernelIdeal.S64x128 EltTy.f32)

/-- The block of the index array the task copies, as the program slices it. -/
abbrev idxRow (L : grid0.Coords) : Memref sig .scVector .hbm S25x64 .i32 :=
  ((idxW).slice (Rect.unit (s := S32x25x64) (k0_off1 L) S1x25x64.size (k0_off1_inb L)) (fun _ => rfl)).squeeze S25x64 squeezes_S1x25x64_S25x64

/-- Chunk r of trip t of the output, as the program slices it at the write. -/
abbrev outChunk (L : grid0.Coords) (t : Fin k0_t1_loop.trips) (r : Fin 5) : Memref sig .scVector .hbm S64x128 .f32 :=
  (outW).slice (Rect.unit (s := S51200x128) (k0_off5 L t (BitVec.ofNat 32 r.val)) S64x128.size (k0_off5_inb L t r)) (fun _ => rfl)

def idxSet (L : grid0.Coords) : Finset S32x25x64.Idx := (idxRow L).view.set
def outSet (L : grid0.Coords) : Finset S51200x128.Idx :=
  (Finset.univ : Finset (Fin k0_t1_loop.trips × Fin 5)).biUnion fun p => (outChunk L p.1 p.2).view.set

abbrev cellOf (d : Dev nD) (L : grid0.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc0_scratch6.sem, cc0_scratch7.sem, cc0_scratch8.sem, cc0_scratch9.sem, cc0_scratch10.sem, cc0_scratch11.sem, cc0_scratch12.sem,
    cc0_scratch13.sem, cc0_scratch14.sem, cc0_scratch15.sem, cc0_scoped0.sem}
def myCells (d : Dev nD) (L : grid0.Coords) : Finset (GSem nD τ sig) := mySems.image fun i => (thr d L, SemLoc.dma i)
def myRefs (L : grid0.Coords) : Finset (DevRef τ sig) :=
  ({cc0_scratch0, cc0_scratch1, cc0_scratch2, cc0_scratch3, cc0_scratch4, cc0_scratch5} : Finset (Ref sig .scVector)).image
    fun b => (Proc.scVector ((L 0).castLE hcore0) ((L 1).castLE hsub0)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k0_t1_loop.trips = 5 := by decide

theorem idxSet_eq (L : grid0.Coords) : idxSet L = (Rect.unit (s := S32x25x64) (k0_off1 L) S1x25x64.size (k0_off1_inb L)).set := by
  unfold idxSet
  simp only [Memref.view_squeeze, View.set_reshape, Memref.view_slice, View.set_slice, Memref.view_whole, View.emb_whole]
  exact Finset.map_refl

theorem chunkSet_eq (L : grid0.Coords) (t : Fin k0_t1_loop.trips) (r : Fin 5) :
    ((outChunk L t r).view.set : Finset S51200x128.Idx)
      = (Rect.unit (s := S51200x128) (k0_off5 L t (BitVec.ofNat 32 r.val)) S64x128.size (k0_off5_inb L t r)).set := by
  simp only [Memref.view_slice, View.set_slice, Memref.view_whole, View.emb_whole]
  exact Finset.map_refl

theorem mem_idxSet (L : grid0.Coords) (i : S32x25x64.Idx) : i ∈ idxSet L ↔ (i 0 : ℕ) = 2 * (L 1).val + (L 0).val := by
  rw [idxSet_eq, mem_unit]
  constructor
  · intro H; have := H 0; rw [k0_off1_eq] at this; simp at this; omega
  · intro H a
    rw [k0_off1_eq]
    fin_cases a
    · simp; omega
    · have := (i 1).isLt; simp [S32x25x64, S1x25x64] at this ⊢; omega
    · have := (i 2).isLt; simp [S32x25x64, S1x25x64] at this ⊢; omega

theorem mem_chunk (L : grid0.Coords) (t : Fin k0_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k0_off5_eq] at this; simpa using this
  · intro H a
    rw [k0_off5_eq]
    fin_cases a
    · simpa using H
    · have := (i 1).isLt; simp [S51200x128, S64x128] at this ⊢; omega

theorem idxSet_disjoint (L L' : grid0.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid0.bound 0 = 2 := rfl
  funext a
  fin_cases a
  · apply Fin.ext; show (L 0).val = (L' 0).val; omega
  · apply Fin.ext; show (L 1).val = (L' 1).val; omega

theorem idxSet_cover : (Finset.univ : Finset grid0.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid0.Coords) (p p' : Fin k0_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid0.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k0_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid0.Coords) (h : L ≠ L') : Disjoint (outSet L) (outSet L') := by
  rw [Finset.disjoint_left]
  intro i hi hi'
  rw [mem_outSet] at hi hi'
  apply h
  have h0 := (L 0).isLt; have h0' := (L' 0).isLt
  have b0 : grid0.bound 0 = 2 := rfl
  funext a
  fin_cases a
  · apply Fin.ext; show (L 0).val = (L' 0).val; omega
  · apply Fin.ext; show (L 1).val = (L' 1).val; omega

theorem outSet_cover : (Finset.univ : Finset grid0.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KI.Tile0
end
-- ==== Proof.Call0.lean ====
/-
  SparseCore call 0's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.Tile0Sets
import proofs.«203556_g1357209665813_cont_week2b_798_48_alg».proof.Proof.LaunchC

noncomputable section

namespace Cert.Proof.KI.Tile0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid0.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid0.Coords => (L 0 : ℕ)) e
  have h1 := congrArg (fun L : grid0.Coords => (L 1 : ℕ)) e
  exact Prod.ext (Fin.ext h0) (Fin.ext h1)

theorem place_surj (L : grid0.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 0 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v3
/-- The three arrays of the call. -/
abbrev T3 : Finset (DevRef τ sig) := {tblD, idxD, outD 0}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 0))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 0) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 0) f), held_T3,
    Function.update_of_ne (show tblD ≠ outD 0 by decide), Function.update_of_ne (show idxD ≠ outD 0 by decide), Function.update_self, hT, hI]
  have hrest : (held (T d) (UC \ T3) (Function.update W (outD 0) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile0

end
-- ==== Proof.Tile1Sets.lean ====
/-
  The row gather's task on one vector subcore, call 1: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.Common

noncomputable section

namespace Cert.Proof.KI.Tile1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid1.Coords) : Thread nD τ := V d ((L 0).castLE hcore1) ((L 1).castLE hsub1)
abbrev tblLoc (d : Dev nD) : Loc nD τ sig := (SparseCore.T d).loc main_arg2
abbrev idxLoc (d : Dev nD) : Loc nD τ sig := (SparseCore.T d).loc main_v6
abbrev outLoc (d : Dev nD) : Loc nD τ sig := (SparseCore.T d).loc main_v7

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v6_scv : Memref Cert.KernelIdeal.sig Kind.scVector Space.hbm Cert.KernelIdeal.S32x25x64 EltTy.i32)
local notation "outW" => (Memref.whole Cert.KernelIdeal.main_v7_scv : Memref Cert.KernelIdeal.sig Kind.scVector Space.hbm Cert.KernelIdeal.S51200x128 EltTy.f32)
local notation "ivW" => (Memref.whole Cert.KernelIdeal.cc1_scratch0 : Memref Cert.KernelIdeal.sig Kind.scVector Space.vmem Cert.KernelIdeal.S25x64 EltTy.i32)
local notation "b0W" => (Memref.whole Cert.KernelIdeal.cc1_scratch1 : Memref Cert.KernelIdeal.sig Kind.scVector Space.vmem Cert.KernelIdeal.S64x128 EltTy.f32)
local notation "b1W" => (Memref.whole Cert.KernelIdeal.cc1_scratch2 : Memref Cert.KernelIdeal.sig Kind.scVector Space.vmem Cert.KernelIdeal.S64x128 EltTy.f32)
local notation "b2W" => (Memref.whole Cert.KernelIdeal.cc1_scratch3 : Memref Cert.KernelIdeal.sig Kind.scVector Space.vmem Cert.KernelIdeal.S64x128 EltTy.f32)
local notation "b3W" => (Memref.whole Cert.KernelIdeal.cc1_scratch4 : Memref Cert.KernelIdeal.sig Kind.scVector Space.vmem Cert.KernelIdeal.S64x128 EltTy.f32)
local notation "b4W" => (Memref.whole Cert.KernelIdeal.cc1_scratch5 : Memref Cert.KernelIdeal.sig Kind.scVector Space.vmem Cert.KernelIdeal.S64x128 EltTy.f32)

/-- The block of the index array the task copies, as the program slices it. -/
abbrev idxRow (L : grid1.Coords) : Memref sig .scVector .hbm S25x64 .i32 :=
  ((idxW).slice (Rect.unit (s := S32x25x64) (k1_off1 L) S1x25x64.size (k1_off1_inb L)) (fun _ => rfl)).squeeze S25x64 squeezes_S1x25x64_S25x64

/-- Chunk r of trip t of the output, as the program slices it at the write. -/
abbrev outChunk (L : grid1.Coords) (t : Fin k1_t1_loop.trips) (r : Fin 5) : Memref sig .scVector .hbm S64x128 .f32 :=
  (outW).slice (Rect.unit (s := S51200x128) (k1_off5 L t (BitVec.ofNat 32 r.val)) S64x128.size (k1_off5_inb L t r)) (fun _ => rfl)

def idxSet (L : grid1.Coords) : Finset S32x25x64.Idx := (idxRow L).view.set
def outSet (L : grid1.Coords) : Finset S51200x128.Idx :=
  (Finset.univ : Finset (Fin k1_t1_loop.trips × Fin 5)).biUnion fun p => (outChunk L p.1 p.2).view.set

abbrev cellOf (d : Dev nD) (L : grid1.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc1_scratch6.sem, cc1_scratch7.sem, cc1_scratch8.sem, cc1_scratch9.sem, cc1_scratch10.sem, cc1_scratch11.sem, cc1_scratch12.sem,
    cc1_scratch13.sem, cc1_scratch14.sem, cc1_scratch15.sem, cc1_scoped0.sem}
def myCells (d : Dev nD) (L : grid1.Coords) : Finset (GSem nD τ sig) := mySems.image fun i => (thr d L, SemLoc.dma i)
def myRefs (L : grid1.Coords) : Finset (DevRef τ sig) :=
  ({cc1_scratch0, cc1_scratch1, cc1_scratch2, cc1_scratch3, cc1_scratch4, cc1_scratch5} : Finset (Ref sig .scVector)).image
    fun b => (Proc.scVector ((L 0).castLE hcore1) ((L 1).castLE hsub1)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k1_t1_loop.trips = 5 := by decide

theorem idxSet_eq (L : grid1.Coords) : idxSet L = (Rect.unit (s := S32x25x64) (k1_off1 L) S1x25x64.size (k1_off1_inb L)).set := by
  unfold idxSet
  simp only [Memref.view_squeeze, View.set_reshape, Memref.view_slice, View.set_slice, Memref.view_whole, View.emb_whole]
  exact Finset.map_refl

theorem chunkSet_eq (L : grid1.Coords) (t : Fin k1_t1_loop.trips) (r : Fin 5) :
    ((outChunk L t r).view.set : Finset S51200x128.Idx)
      = (Rect.unit (s := S51200x128) (k1_off5 L t (BitVec.ofNat 32 r.val)) S64x128.size (k1_off5_inb L t r)).set := by
  simp only [Memref.view_slice, View.set_slice, Memref.view_whole, View.emb_whole]
  exact Finset.map_refl

theorem mem_idxSet (L : grid1.Coords) (i : S32x25x64.Idx) : i ∈ idxSet L ↔ (i 0 : ℕ) = 2 * (L 1).val + (L 0).val := by
  rw [idxSet_eq, mem_unit]
  constructor
  · intro H; have := H 0; rw [k1_off1_eq] at this; simp at this; omega
  · intro H a
    rw [k1_off1_eq]
    fin_cases a
    · simp; omega
    · have := (i 1).isLt; simp [S32x25x64, S1x25x64] at this ⊢; omega
    · have := (i 2).isLt; simp [S32x25x64, S1x25x64] at this ⊢; omega

theorem mem_chunk (L : grid1.Coords) (t : Fin k1_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k1_off5_eq] at this; simpa using this
  · intro H a
    rw [k1_off5_eq]
    fin_cases a
    · simpa using H
    · have := (i 1).isLt; simp [S51200x128, S64x128] at this ⊢; omega

theorem idxSet_disjoint (L L' : grid1.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid1.bound 0 = 2 := rfl
  funext a
  fin_cases a
  · apply Fin.ext; show (L 0).val = (L' 0).val; omega
  · apply Fin.ext; show (L 1).val = (L' 1).val; omega

theorem idxSet_cover : (Finset.univ : Finset grid1.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid1.Coords) (p p' : Fin k1_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid1.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k1_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid1.Coords) (h : L ≠ L') : Disjoint (outSet L) (outSet L') := by
  rw [Finset.disjoint_left]
  intro i hi hi'
  rw [mem_outSet] at hi hi'
  apply h
  have h0 := (L 0).isLt; have h0' := (L' 0).isLt
  have b0 : grid1.bound 0 = 2 := rfl
  funext a
  fin_cases a
  · apply Fin.ext; show (L 0).val = (L' 0).val; omega
  · apply Fin.ext; show (L 1).val = (L' 1).val; omega

theorem outSet_cover : (Finset.univ : Finset grid1.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KI.Tile1
end
-- ==== Proof.Call1.lean ====
/-
  SparseCore call 1's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.Tile1Sets
import proofs.«203556_g1357209665813_cont_week2b_798_48_alg».proof.Proof.LaunchC

noncomputable section

namespace Cert.Proof.KI.Tile1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid1.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid1.Coords => (L 0 : ℕ)) e
  have h1 := congrArg (fun L : grid1.Coords => (L 1 : ℕ)) e
  exact Prod.ext (Fin.ext h0) (Fin.ext h1)

theorem place_surj (L : grid1.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 1 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v6
/-- The three arrays of the call. -/
abbrev T3 : Finset (DevRef τ sig) := {tblD, idxD, outD 1}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 1))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 1) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 1) f), held_T3,
    Function.update_of_ne (show tblD ≠ outD 1 by decide), Function.update_of_ne (show idxD ≠ outD 1 by decide), Function.update_self, hT, hI]
  have hrest : (held (T d) (UC \ T3) (Function.update W (outD 1) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile1

end
-- ==== Proof.Tile2Sets.lean ====
/-
  The row gather's task on one vector subcore, call 2: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.Common

noncomputable section

namespace Cert.Proof.KI.Tile2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid2.Coords) : Thread nD τ := V d ((L 0).castLE hcore2) ((L 1).castLE hsub2)
abbrev tblLoc (d : Dev nD) : Loc nD τ sig := (SparseCore.T d).loc main_arg2
abbrev idxLoc (d : Dev nD) : Loc nD τ sig := (SparseCore.T d).loc main_v9
abbrev outLoc (d : Dev nD) : Loc nD τ sig := (SparseCore.T d).loc main_v10

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v9_scv : Memref Cert.KernelIdeal.sig Kind.scVector Space.hbm Cert.KernelIdeal.S32x25x64 EltTy.i32)
local notation "outW" => (Memref.whole Cert.KernelIdeal.main_v10_scv : Memref Cert.KernelIdeal.sig Kind.scVector Space.hbm Cert.KernelIdeal.S51200x128 EltTy.f32)
local notation "ivW" => (Memref.whole Cert.KernelIdeal.cc2_scratch0 : Memref Cert.KernelIdeal.sig Kind.scVector Space.vmem Cert.KernelIdeal.S25x64 EltTy.i32)
local notation "b0W" => (Memref.whole Cert.KernelIdeal.cc2_scratch1 : Memref Cert.KernelIdeal.sig Kind.scVector Space.vmem Cert.KernelIdeal.S64x128 EltTy.f32)
local notation "b1W" => (Memref.whole Cert.KernelIdeal.cc2_scratch2 : Memref Cert.KernelIdeal.sig Kind.scVector Space.vmem Cert.KernelIdeal.S64x128 EltTy.f32)
local notation "b2W" => (Memref.whole Cert.KernelIdeal.cc2_scratch3 : Memref Cert.KernelIdeal.sig Kind.scVector Space.vmem Cert.KernelIdeal.S64x128 EltTy.f32)
local notation "b3W" => (Memref.whole Cert.KernelIdeal.cc2_scratch4 : Memref Cert.KernelIdeal.sig Kind.scVector Space.vmem Cert.KernelIdeal.S64x128 EltTy.f32)
local notation "b4W" => (Memref.whole Cert.KernelIdeal.cc2_scratch5 : Memref Cert.KernelIdeal.sig Kind.scVector Space.vmem Cert.KernelIdeal.S64x128 EltTy.f32)

/-- The block of the index array the task copies, as the program slices it. -/
abbrev idxRow (L : grid2.Coords) : Memref sig .scVector .hbm S25x64 .i32 :=
  ((idxW).slice (Rect.unit (s := S32x25x64) (k2_off1 L) S1x25x64.size (k2_off1_inb L)) (fun _ => rfl)).squeeze S25x64 squeezes_S1x25x64_S25x64

/-- Chunk r of trip t of the output, as the program slices it at the write. -/
abbrev outChunk (L : grid2.Coords) (t : Fin k2_t1_loop.trips) (r : Fin 5) : Memref sig .scVector .hbm S64x128 .f32 :=
  (outW).slice (Rect.unit (s := S51200x128) (k2_off5 L t (BitVec.ofNat 32 r.val)) S64x128.size (k2_off5_inb L t r)) (fun _ => rfl)

def idxSet (L : grid2.Coords) : Finset S32x25x64.Idx := (idxRow L).view.set
def outSet (L : grid2.Coords) : Finset S51200x128.Idx :=
  (Finset.univ : Finset (Fin k2_t1_loop.trips × Fin 5)).biUnion fun p => (outChunk L p.1 p.2).view.set

abbrev cellOf (d : Dev nD) (L : grid2.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc2_scratch6.sem, cc2_scratch7.sem, cc2_scratch8.sem, cc2_scratch9.sem, cc2_scratch10.sem, cc2_scratch11.sem, cc2_scratch12.sem,
    cc2_scratch13.sem, cc2_scratch14.sem, cc2_scratch15.sem, cc2_scoped0.sem}
def myCells (d : Dev nD) (L : grid2.Coords) : Finset (GSem nD τ sig) := mySems.image fun i => (thr d L, SemLoc.dma i)
def myRefs (L : grid2.Coords) : Finset (DevRef τ sig) :=
  ({cc2_scratch0, cc2_scratch1, cc2_scratch2, cc2_scratch3, cc2_scratch4, cc2_scratch5} : Finset (Ref sig .scVector)).image
    fun b => (Proc.scVector ((L 0).castLE hcore2) ((L 1).castLE hsub2)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k2_t1_loop.trips = 5 := by decide

theorem idxSet_eq (L : grid2.Coords) : idxSet L = (Rect.unit (s := S32x25x64) (k2_off1 L) S1x25x64.size (k2_off1_inb L)).set := by
  unfold idxSet
  simp only [Memref.view_squeeze, View.set_reshape, Memref.view_slice, View.set_slice, Memref.view_whole, View.emb_whole]
  exact Finset.map_refl

theorem chunkSet_eq (L : grid2.Coords) (t : Fin k2_t1_loop.trips) (r : Fin 5) :
    ((outChunk L t r).view.set : Finset S51200x128.Idx)
      = (Rect.unit (s := S51200x128) (k2_off5 L t (BitVec.ofNat 32 r.val)) S64x128.size (k2_off5_inb L t r)).set := by
  simp only [Memref.view_slice, View.set_slice, Memref.view_whole, View.emb_whole]
  exact Finset.map_refl

theorem mem_idxSet (L : grid2.Coords) (i : S32x25x64.Idx) : i ∈ idxSet L ↔ (i 0 : ℕ) = 2 * (L 1).val + (L 0).val := by
  rw [idxSet_eq, mem_unit]
  constructor
  · intro H; have := H 0; rw [k2_off1_eq] at this; simp at this; omega
  · intro H a
    rw [k2_off1_eq]
    fin_cases a
    · simp; omega
    · have := (i 1).isLt; simp [S32x25x64, S1x25x64] at this ⊢; omega
    · have := (i 2).isLt; simp [S32x25x64, S1x25x64] at this ⊢; omega

theorem mem_chunk (L : grid2.Coords) (t : Fin k2_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k2_off5_eq] at this; simpa using this
  · intro H a
    rw [k2_off5_eq]
    fin_cases a
    · simpa using H
    · have := (i 1).isLt; simp [S51200x128, S64x128] at this ⊢; omega

theorem idxSet_disjoint (L L' : grid2.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid2.bound 0 = 2 := rfl
  funext a
  fin_cases a
  · apply Fin.ext; show (L 0).val = (L' 0).val; omega
  · apply Fin.ext; show (L 1).val = (L' 1).val; omega

theorem idxSet_cover : (Finset.univ : Finset grid2.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid2.Coords) (p p' : Fin k2_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid2.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k2_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid2.Coords) (h : L ≠ L') : Disjoint (outSet L) (outSet L') := by
  rw [Finset.disjoint_left]
  intro i hi hi'
  rw [mem_outSet] at hi hi'
  apply h
  have h0 := (L 0).isLt; have h0' := (L' 0).isLt
  have b0 : grid2.bound 0 = 2 := rfl
  funext a
  fin_cases a
  · apply Fin.ext; show (L 0).val = (L' 0).val; omega
  · apply Fin.ext; show (L 1).val = (L' 1).val; omega

theorem outSet_cover : (Finset.univ : Finset grid2.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KI.Tile2
end
-- ==== Proof.Call2.lean ====
/-
  SparseCore call 2's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.Tile2Sets
import proofs.«203556_g1357209665813_cont_week2b_798_48_alg».proof.Proof.LaunchC

noncomputable section

namespace Cert.Proof.KI.Tile2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid2.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid2.Coords => (L 0 : ℕ)) e
  have h1 := congrArg (fun L : grid2.Coords => (L 1 : ℕ)) e
  exact Prod.ext (Fin.ext h0) (Fin.ext h1)

theorem place_surj (L : grid2.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 2 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v9
/-- The three arrays of the call. -/
abbrev T3 : Finset (DevRef τ sig) := {tblD, idxD, outD 2}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 2))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 2) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 2) f), held_T3,
    Function.update_of_ne (show tblD ≠ outD 2 by decide), Function.update_of_ne (show idxD ≠ outD 2 by decide), Function.update_self, hT, hI]
  have hrest : (held (T d) (UC \ T3) (Function.update W (outD 2) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile2

end
-- ==== Proof.Tile3Sets.lean ====
/-
  The row gather's task on one vector subcore, call 3: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.Common

noncomputable section

namespace Cert.Proof.KI.Tile3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid3.Coords) : Thread nD τ := V d ((L 0).castLE hcore3) ((L 1).castLE hsub3)
abbrev tblLoc (d : Dev nD) : Loc nD τ sig := (SparseCore.T d).loc main_arg2
abbrev idxLoc (d : Dev nD) : Loc nD τ sig := (SparseCore.T d).loc main_v12
abbrev outLoc (d : Dev nD) : Loc nD τ sig := (SparseCore.T d).loc main_v13

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v12_scv : Memref Cert.KernelIdeal.sig Kind.scVector Space.hbm Cert.KernelIdeal.S32x25x64 EltTy.i32)
local notation "outW" => (Memref.whole Cert.KernelIdeal.main_v13_scv : Memref Cert.KernelIdeal.sig Kind.scVector Space.hbm Cert.KernelIdeal.S51200x128 EltTy.f32)
local notation "ivW" => (Memref.whole Cert.KernelIdeal.cc3_scratch0 : Memref Cert.KernelIdeal.sig Kind.scVector Space.vmem Cert.KernelIdeal.S25x64 EltTy.i32)
local notation "b0W" => (Memref.whole Cert.KernelIdeal.cc3_scratch1 : Memref Cert.KernelIdeal.sig Kind.scVector Space.vmem Cert.KernelIdeal.S64x128 EltTy.f32)
local notation "b1W" => (Memref.whole Cert.KernelIdeal.cc3_scratch2 : Memref Cert.KernelIdeal.sig Kind.scVector Space.vmem Cert.KernelIdeal.S64x128 EltTy.f32)
local notation "b2W" => (Memref.whole Cert.KernelIdeal.cc3_scratch3 : Memref Cert.KernelIdeal.sig Kind.scVector Space.vmem Cert.KernelIdeal.S64x128 EltTy.f32)
local notation "b3W" => (Memref.whole Cert.KernelIdeal.cc3_scratch4 : Memref Cert.KernelIdeal.sig Kind.scVector Space.vmem Cert.KernelIdeal.S64x128 EltTy.f32)
local notation "b4W" => (Memref.whole Cert.KernelIdeal.cc3_scratch5 : Memref Cert.KernelIdeal.sig Kind.scVector Space.vmem Cert.KernelIdeal.S64x128 EltTy.f32)

/-- The block of the index array the task copies, as the program slices it. -/
abbrev idxRow (L : grid3.Coords) : Memref sig .scVector .hbm S25x64 .i32 :=
  ((idxW).slice (Rect.unit (s := S32x25x64) (k3_off1 L) S1x25x64.size (k3_off1_inb L)) (fun _ => rfl)).squeeze S25x64 squeezes_S1x25x64_S25x64

/-- Chunk r of trip t of the output, as the program slices it at the write. -/
abbrev outChunk (L : grid3.Coords) (t : Fin k3_t1_loop.trips) (r : Fin 5) : Memref sig .scVector .hbm S64x128 .f32 :=
  (outW).slice (Rect.unit (s := S51200x128) (k3_off5 L t (BitVec.ofNat 32 r.val)) S64x128.size (k3_off5_inb L t r)) (fun _ => rfl)

def idxSet (L : grid3.Coords) : Finset S32x25x64.Idx := (idxRow L).view.set
def outSet (L : grid3.Coords) : Finset S51200x128.Idx :=
  (Finset.univ : Finset (Fin k3_t1_loop.trips × Fin 5)).biUnion fun p => (outChunk L p.1 p.2).view.set

abbrev cellOf (d : Dev nD) (L : grid3.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc3_scratch6.sem, cc3_scratch7.sem, cc3_scratch8.sem, cc3_scratch9.sem, cc3_scratch10.sem, cc3_scratch11.sem, cc3_scratch12.sem,
    cc3_scratch13.sem, cc3_scratch14.sem, cc3_scratch15.sem, cc3_scoped0.sem}
def myCells (d : Dev nD) (L : grid3.Coords) : Finset (GSem nD τ sig) := mySems.image fun i => (thr d L, SemLoc.dma i)
def myRefs (L : grid3.Coords) : Finset (DevRef τ sig) :=
  ({cc3_scratch0, cc3_scratch1, cc3_scratch2, cc3_scratch3, cc3_scratch4, cc3_scratch5} : Finset (Ref sig .scVector)).image
    fun b => (Proc.scVector ((L 0).castLE hcore3) ((L 1).castLE hsub3)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k3_t1_loop.trips = 5 := by decide

theorem idxSet_eq (L : grid3.Coords) : idxSet L = (Rect.unit (s := S32x25x64) (k3_off1 L) S1x25x64.size (k3_off1_inb L)).set := by
  unfold idxSet
  simp only [Memref.view_squeeze, View.set_reshape, Memref.view_slice, View.set_slice, Memref.view_whole, View.emb_whole]
  exact Finset.map_refl

theorem chunkSet_eq (L : grid3.Coords) (t : Fin k3_t1_loop.trips) (r : Fin 5) :
    ((outChunk L t r).view.set : Finset S51200x128.Idx)
      = (Rect.unit (s := S51200x128) (k3_off5 L t (BitVec.ofNat 32 r.val)) S64x128.size (k3_off5_inb L t r)).set := by
  simp only [Memref.view_slice, View.set_slice, Memref.view_whole, View.emb_whole]
  exact Finset.map_refl

theorem mem_idxSet (L : grid3.Coords) (i : S32x25x64.Idx) : i ∈ idxSet L ↔ (i 0 : ℕ) = 2 * (L 1).val + (L 0).val := by
  rw [idxSet_eq, mem_unit]
  constructor
  · intro H; have := H 0; rw [k3_off1_eq] at this; simp at this; omega
  · intro H a
    rw [k3_off1_eq]
    fin_cases a
    · simp; omega
    · have := (i 1).isLt; simp [S32x25x64, S1x25x64] at this ⊢; omega
    · have := (i 2).isLt; simp [S32x25x64, S1x25x64] at this ⊢; omega

theorem mem_chunk (L : grid3.Coords) (t : Fin k3_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k3_off5_eq] at this; simpa using this
  · intro H a
    rw [k3_off5_eq]
    fin_cases a
    · simpa using H
    · have := (i 1).isLt; simp [S51200x128, S64x128] at this ⊢; omega

theorem idxSet_disjoint (L L' : grid3.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid3.bound 0 = 2 := rfl
  funext a
  fin_cases a
  · apply Fin.ext; show (L 0).val = (L' 0).val; omega
  · apply Fin.ext; show (L 1).val = (L' 1).val; omega

theorem idxSet_cover : (Finset.univ : Finset grid3.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid3.Coords) (p p' : Fin k3_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid3.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k3_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid3.Coords) (h : L ≠ L') : Disjoint (outSet L) (outSet L') := by
  rw [Finset.disjoint_left]
  intro i hi hi'
  rw [mem_outSet] at hi hi'
  apply h
  have h0 := (L 0).isLt; have h0' := (L' 0).isLt
  have b0 : grid3.bound 0 = 2 := rfl
  funext a
  fin_cases a
  · apply Fin.ext; show (L 0).val = (L' 0).val; omega
  · apply Fin.ext; show (L 1).val = (L' 1).val; omega

theorem outSet_cover : (Finset.univ : Finset grid3.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KI.Tile3
end
-- ==== Proof.Call3.lean ====
/-
  SparseCore call 3's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.Tile3Sets
import proofs.«203556_g1357209665813_cont_week2b_798_48_alg».proof.Proof.LaunchC

noncomputable section

namespace Cert.Proof.KI.Tile3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid3.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid3.Coords => (L 0 : ℕ)) e
  have h1 := congrArg (fun L : grid3.Coords => (L 1 : ℕ)) e
  exact Prod.ext (Fin.ext h0) (Fin.ext h1)

theorem place_surj (L : grid3.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 3 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v12
/-- The three arrays of the call. -/
abbrev T3 : Finset (DevRef τ sig) := {tblD, idxD, outD 3}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 3))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 3) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 3) f), held_T3,
    Function.update_of_ne (show tblD ≠ outD 3 by decide), Function.update_of_ne (show idxD ≠ outD 3 by decide), Function.update_self, hT, hI]
  have hrest : (held (T d) (UC \ T3) (Function.update W (outD 3) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile3

end
-- ==== Proof.Calls.lean ====
/-
  The four SparseCore calls together: what each task of each call holds, and the calls' operands out of the
  TensorCore's buffers and back, as the launch's proof of @main consumes them.
-/
import proofs.«203556_g1357209665813_cont_week2b_798_48_alg».proof.Proof.LaunchD
import proofs.«203556_g1357209665813_cont_week2b_798_48_alg».proof.Proof.Call0
import proofs.«203556_g1357209665813_cont_week2b_798_48_alg».proof.Proof.Call1
import proofs.«203556_g1357209665813_cont_week2b_798_48_alg».proof.Proof.Call2
import proofs.«203556_g1357209665813_cont_week2b_798_48_alg».proof.Proof.Call3

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The ids each call gathers by, per device. -/
structure IdsOf (F : FTy → Type) where
  i0 : (d : Dev nD) → Buf (Elt F) (Tile0.idxLoc d)
  i1 : (d : Dev nD) → Buf (Elt F) (Tile1.idxLoc d)
  i2 : (d : Dev nD) → Buf (Elt F) (Tile2.idxLoc d)
  i3 : (d : Dev nD) → Buf (Elt F) (Tile3.idxLoc d)

variable (J : IdsOf F)

/-- What the tasks hold, call by call. -/
def TPv : TilePay F where
  go := fun q => match q with
    | 0 => fun d c i => Tile0.GO m J.i0 d (c, i)
    | 1 => fun d c i => Tile1.GO m J.i1 d (c, i)
    | 2 => fun d c i => Tile2.GO m J.i2 d (c, i)
    | 3 => fun d c i => Tile3.GO m J.i3 d (c, i)
  td := fun q => match q with
    | 0 => fun d c i => Tile0.GO m J.i0 d (c, i)
    | 1 => fun d c i => Tile1.GO m J.i1 d (c, i)
    | 2 => fun d c i => Tile2.GO m J.i2 d (c, i)
    | 3 => fun d c i => Tile3.GO m J.i3 d (c, i)
  go_st := fun q => match q with
    | 0 => fun d c i => by unfold Tile0.GO; infer_instance
    | 1 => fun d c i => by unfold Tile1.GO; infer_instance
    | 2 => fun d c i => by unfold Tile2.GO; infer_instance
    | 3 => fun d c i => by unfold Tile3.GO; infer_instance
  td_st := fun q => match q with
    | 0 => fun d c i => by unfold Tile0.GO; infer_instance
    | 1 => fun d c i => by unfold Tile1.GO; infer_instance
    | 2 => fun d c i => by unfold Tile2.GO; infer_instance
    | 3 => fun d c i => by unfold Tile3.GO; infer_instance

/-- The calls' operands and results. `IdxOK q d W`: the buffers `W` hold the table as launched and the call's ids. -/
def CIv [∀ e, Nonempty (Elt F e)] : CallIface (F := F) (TPv m J) where
  IdxOK := fun q d W => match q with
    | 0 => W Tile0.tblD = m (Tile0.tblLoc d) ∧ W Tile0.idxD = J.i0 d
    | 1 => W Tile1.tblD = m (Tile1.tblLoc d) ∧ W Tile1.idxD = J.i1 d
    | 2 => W Tile2.tblD = m (Tile2.tblLoc d) ∧ W Tile2.idxD = J.i2 d
    | 3 => W Tile3.tblD = m (Tile3.tblLoc d) ∧ W Tile3.idxD = J.i3 d
  OutOK := fun _ _ _ _ => True
  split := fun q => match q with
    | 0 => fun d W h => by
        have hs := Tile0.split m J.i0 d W h.1 h.2
        rw [bigSep_univ_prod] at hs
        exact hs
    | 1 => fun d W h => by
        have hs := Tile1.split m J.i1 d W h.1 h.2
        rw [bigSep_univ_prod] at hs
        exact hs
    | 2 => fun d W h => by
        have hs := Tile2.split m J.i2 d W h.1 h.2
        rw [bigSep_univ_prod] at hs
        exact hs
    | 3 => fun d W h => by
        have hs := Tile3.split m J.i3 d W h.1 h.2
        rw [bigSep_univ_prod] at hs
        exact hs

end Cert.Proof.KI

end
-- ==== Proof.IdxRange.lean ====
/-
  The ranges of the token ids, from the precondition, and through the host stretches that re-lay them.

  The precondition is one conjunction, read at its single index: five "every entry is finite" tests of the float
  arguments, then "every input id lies in [0, 99999]" and "every token-type id lies in [0, 1]", each a reduction by
  `and` over all entries of a pointwise conjunction of two signed comparisons. A reduction by `and` that came out 1 met
  only 1s, so each comparison holds at every entry; and a 32-bit word whose signed value lies in [0, n], n < 2^31, has
  unsigned value at most n.

  The host stretches before each gather only reshape the id array and cut a quarter out of it: every entry of a reshaped
  array, and every entry of a slice, IS an entry of the operand. So a bound that holds at every entry of the ids holds
  at every entry of each quarter's index array.
-/
import proofs.«203556_g1357209665813_cont_week2b_798_48_alg».proof.Proof.Main
import proofs.«203556_g1357209665813_cont_week2b_798_48_alg».proof.Proof.Gen.Pre_input_domain
import Idealize.ShloMosaic.Lib.ReduceAll
import Idealize.ShloMosaic.Lib.ValueIdx

noncomputable section

namespace Cert.Proof.KI

open Cert.KernelIdeal Cert.KernelIdeal.Gen
open Idealize.ShloMosaic Idealize.SL.Sem

variable {F : FTy → Type} [FloatOps F]

/-! ## The precondition decoded -/

/-- The shape of a scalar has one index. -/
instance subsingleton_scalar_idx : Subsingleton Cert.Pre_input_domain.S_.Idx := ⟨fun a b => funext fun d => d.elim0⟩

/-- A 32-bit word whose signed value lies in [0, n], with n below 2^31, has unsigned value at most n: its top bit is
    clear, so the two readings agree. -/
theorem toNat_le_of_signed (w : BitVec 32) (n : Nat) (hn : n < 2 ^ 31) (h0 : (0#32 : BitVec 32).toInt ≤ w.toInt)
    (h1 : w.toInt ≤ (BitVec.ofNat 32 n).toInt) : w.toNat ≤ n := by
  have h32 := w.isLt
  have e0 : (0#32 : BitVec 32).toInt = 0 := by decide
  have en : (BitVec.ofNat 32 n).toInt = n := by
    rw [BitVec.toInt_eq_toNat_of_lt (by rw [BitVec.toNat_ofNat]; omega), BitVec.toNat_ofNat]; omega
  rw [e0] at h0; rw [en] at h1
  rw [BitVec.toInt_eq_toNat_cond] at h0 h1
  split at h0 <;> omega

section Pre

variable {x0 x1 : IVec Cert.Pre_input_domain.S1024x200 32} {x2 : FVec F Cert.Pre_input_domain.S100000x128 .f32}
  {x3 : FVec F Cert.Pre_input_domain.S512x128 .f32} {x4 : FVec F Cert.Pre_input_domain.S2x128 .f32}
  {x5 x6 : FVec F Cert.Pre_input_domain.S128 .f32}

/-- The two integer conjuncts of the precondition, entry by entry, as signed inequalities: every input id between 0 and
    99999, every token-type id between 0 and 1. -/
theorem pre_signed (h : Cert.Pre_input_domain.fn (F := F) x0 x1 x2 x3 x4 x5 x6 = fun _ => 1#1) (j : Cert.Pre_input_domain.S1024x200.Idx) :
    ((0#32 : BitVec 32).toInt ≤ (x0 j).toInt ∧ (x0 j).toInt ≤ (99999#32 : BitVec 32).toInt)
      ∧ ((0#32 : BitVec 32).toInt ≤ (x1 j).toInt ∧ (x1 j).toInt ≤ (1#32 : BitVec 32).toInt) := by
  have e := congrFun h ValueIdx.ix0
  dsimp only [Cert.Pre_input_domain.fn, Cert.Pre_input_domain.fn_part1, Cert.Pre_input_domain.fn_part2] at e
  simp only [andi, IntOp.andi_eq_one] at e
  obtain ⟨⟨-, h0⟩, h1⟩ := e
  have hj0 := Host.reduce_andi_all _ _ _ _ ValueIdx.ix0 h0 j
  have hj1 := Host.reduce_andi_all _ _ _ _ ValueIdx.ix0 h1 j
  simp only [andi, cmpi, broadcastInDim, constantI, IntOp.andi_eq_one, IntOp.cmpi_sge, IntOp.cmpi_sle] at hj0 hj1
  exact ⟨hj0, hj1⟩

/-- Every input id names a row of the 100000-row embedding table. -/
theorem ids_range (h : Cert.Pre_input_domain.fn (F := F) x0 x1 x2 x3 x4 x5 x6 = fun _ => 1#1) :
    ∀ j : Cert.Pre_input_domain.S1024x200.Idx, (x0 j).toNat < 100000 := fun j => by
  have hj := (pre_signed h j).1
  have := toNat_le_of_signed (x0 j) 99999 (by decide) hj.1 hj.2
  omega

/-- Every token-type id is 0 or 1. -/
theorem tt_range (h : Cert.Pre_input_domain.fn (F := F) x0 x1 x2 x3 x4 x5 x6 = fun _ => 1#1) :
    ∀ j : Cert.Pre_input_domain.S1024x200.Idx, x1 j = 0#32 ∨ x1 j = 1#32 := fun j => by
  have hj := (pre_signed h j).2
  have hle := toNat_le_of_signed (x1 j) 1 (by decide) hj.1 hj.2
  rcases Nat.le_one_iff_eq_zero_or_eq_one.mp hle with e | e
  · exact Or.inl (BitVec.eq_of_toNat_eq (by rw [e]; rfl))
  · exact Or.inr (BitVec.eq_of_toNat_eq (by rw [e]; rfl))

end Pre

/-! ## The range carried through the host stretches

Each entry of a reshape's result and of a slice's result is the operand at some index, so a bound on every entry of
the operand bounds every entry of the result. -/

/-- After host stretch 0, the re-laid id array (reshaped to one axis and back) is within the range the ids are. -/
theorem v1_range (W : Valuation τ sig (Elt F))
    (hW : ∀ j, ((W (Proc.devRef .tc main_arg0) : S1024x200.Idx → BitVec 32) j).toNat < 100000) :
    ∀ j, ((StableHlo.after (hops0 (F := F)) W (Proc.devRef .tc main_v1) : S1024x200.Idx → BitVec 32) j).toNat < 100000 := by
  dsimp only [hops0]
  after_results
  intro j
  exact hW _

/-- After host stretch 0, the first quarter's index array (rows 0–255 of the ids, reshaped to 32×25×64) is within range. -/
theorem idx0_range (W : Valuation τ sig (Elt F))
    (hW : ∀ j, ((W (Proc.devRef .tc main_arg0) : S1024x200.Idx → BitVec 32) j).toNat < 100000) :
    ∀ j, ((StableHlo.after (hops0 (F := F)) W (Proc.devRef .tc main_v3) : S32x25x64.Idx → BitVec 32) j).toNat < 100000 := by
  dsimp only [hops0]
  after_results
  intro j
  exact hW _

/-- After host stretch 1, the second quarter's index array is within the range the re-laid ids are. -/
theorem idx1_range (W : Valuation τ sig (Elt F))
    (hW : ∀ j, ((W (Proc.devRef .tc main_v1) : S1024x200.Idx → BitVec 32) j).toNat < 100000) :
    ∀ j, ((StableHlo.after (hops1 (F := F)) W (Proc.devRef .tc main_v6) : S32x25x64.Idx → BitVec 32) j).toNat < 100000 := by
  dsimp only [hops1]
  after_results
  intro j
  exact hW _

/-- After host stretch 2, the third quarter's. -/
theorem idx2_range (W : Valuation τ sig (Elt F))
    (hW : ∀ j, ((W (Proc.devRef .tc main_v1) : S1024x200.Idx → BitVec 32) j).toNat < 100000) :
    ∀ j, ((StableHlo.after (hops2 (F := F)) W (Proc.devRef .tc main_v9) : S32x25x64.Idx → BitVec 32) j).toNat < 100000 := by
  dsimp only [hops2]
  after_results
  intro j
  exact hW _

/-- After host stretch 3, the fourth quarter's. -/
theorem idx3_range (W : Valuation τ sig (Elt F))
    (hW : ∀ j, ((W (Proc.devRef .tc main_v1) : S1024x200.Idx → BitVec 32) j).toNat < 100000) :
    ∀ j, ((StableHlo.after (hops3 (F := F)) W (Proc.devRef .tc main_v12) : S32x25x64.Idx → BitVec 32) j).toNat < 100000 := by
  dsimp only [hops3]
  after_results
  intro j
  exact hW _

/-! ## The float arguments are finite (read at the extended reals)

Each of the five float conjuncts tests `|x| < +∞` at every entry. Over the extended reals `|x| = max x (−x)`, which
is `+∞` at both infinities: so the test passing says the entry is a real number. -/

section Finite

/-- The bit pattern the tests compare against denotes `+∞`. -/
theorem ofBits_inf : Ideal.ofBits .f32 0x7F800000#32 = (⊤ : EReal) := by simp [Ideal.ofBits, Ideal.ieee]

/-- An extended real whose absolute value is below `+∞` is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One finiteness test read at an entry: the entry is a real. -/
theorem real_of_test {s : Shape} (x : FVec Ideal s .f32) (b : Cert.Pre_input_domain.S_.BroadcastsInDim s (![] : Fin 0 → Fin s.rank)) (i : s.Idx)
    (h : cmpf .olt (Host.absf x) (broadcastInDim s ![] b (constant Cert.Pre_input_domain.S_ .f32 0x7F800000#32)) i = 1#1) :
    ∃ r : ℝ, x i = (r : EReal) := by
  refine real_of_abs_lt_top (x i) ?_
  rw [← ofBits_inf]
  exact h

variable {x0 x1 : IVec Cert.Pre_input_domain.S1024x200 32} {x2 : FVec Ideal Cert.Pre_input_domain.S100000x128 .f32}
  {x3 : FVec Ideal Cert.Pre_input_domain.S512x128 .f32} {x4 : FVec Ideal Cert.Pre_input_domain.S2x128 .f32}
  {x5 x6 : FVec Ideal Cert.Pre_input_domain.S128 .f32}

/-- Under the precondition every entry of each of the five float arguments is a real number. -/
theorem floats_real (h : Cert.Pre_input_domain.fn (F := Ideal) x0 x1 x2 x3 x4 x5 x6 = fun _ => 1#1) :
    (∀ i, ∃ r : ℝ, x2 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  have e := congrFun h ValueIdx.ix0
  dsimp only [Cert.Pre_input_domain.fn, Cert.Pre_input_domain.fn_part1, Cert.Pre_input_domain.fn_part2] at e
  simp only [andi, IntOp.andi_eq_one] at e
  obtain ⟨⟨⟨⟨⟨⟨h2, h3⟩, h4⟩, h5⟩, h6⟩, -⟩, -⟩ := e
  exact ⟨fun i => real_of_test x2 _ i (Host.reduce_andi_all _ _ _ _ ValueIdx.ix0 h2 i),
    fun i => real_of_test x3 _ i (Host.reduce_andi_all _ _ _ _ ValueIdx.ix0 h3 i),
    fun i => real_of_test x4 _ i (Host.reduce_andi_all _ _ _ _ ValueIdx.ix0 h4 i),
    fun i => real_of_test x5 _ i (Host.reduce_andi_all _ _ _ _ ValueIdx.ix0 h5 i),
    fun i => real_of_test x6 _ i (Host.reduce_andi_all _ _ _ _ ValueIdx.ix0 h6 i)⟩

theorem arg2_real (h : Cert.Pre_input_domain.fn (F := Ideal) x0 x1 x2 x3 x4 x5 x6 = fun _ => 1#1) : ∀ i, ∃ r : ℝ, x2 i = (r : EReal) := (floats_real h).1
theorem arg3_real (h : Cert.Pre_input_domain.fn (F := Ideal) x0 x1 x2 x3 x4 x5 x6 = fun _ => 1#1) : ∀ i, ∃ r : ℝ, x3 i = (r : EReal) := (floats_real h).2.1
theorem arg4_real (h : Cert.Pre_input_domain.fn (F := Ideal) x0 x1 x2 x3 x4 x5 x6 = fun _ => 1#1) : ∀ i, ∃ r : ℝ, x4 i = (r : EReal) := (floats_real h).2.2.1
theorem arg5_real (h : Cert.Pre_input_domain.fn (F := Ideal) x0 x1 x2 x3 x4 x5 x6 = fun _ => 1#1) : ∀ i, ∃ r : ℝ, x5 i = (r : EReal) := (floats_real h).2.2.2.1
theorem arg6_real (h : Cert.Pre_input_domain.fn (F := Ideal) x0 x1 x2 x3 x4 x5 x6 = fun _ => 1#1) : ∀ i, ∃ r : ℝ, x6 i = (r : EReal) := (floats_real h).2.2.2.2

end Finite

end Cert.Proof.KI

end
-- ==== Proof.IdxChain.lean ====
/-
  The ids each SparseCore call gathers by do not depend on what the earlier calls left. Stretch 0 re-lays the id array
  (`main_v1`) and cuts its first quarter; stretches 1, 2, 3 each cut a quarter of `main_v1` through two constants of their
  own. A stretch's fold, read at a buffer among those it touches, depends on the contents before it only at the buffers it
  touches; the calls' result buffers and the other stretches' buffers are not among them.
-/
import proofs.«203556_g1357209665813_cont_week2b_798_48_alg».proof.Proof.LaunchC
import proofs.«203556_g1357209665813_cont_week2b_798_48_alg».proof.Proof.IdxRange
import proofs.«203556_g1357209665813_cont_week2b_798_48_alg».proof.Proof.HostFacts

noncomputable section

namespace Cert.Proof.KI

open Cert.KernelIdeal Cert.KernelIdeal.Gen
open Idealize.ShloMosaic Idealize.SL.Sem

variable {F : FTy → Type} [FloatOps F]

/-! ## A fold depends on the contents only at the buffers its operations touch -/

/-- Two valuations that agree on a set containing every buffer a line of operations touches still agree on it after the line. -/
theorem after_congr_on (S : Finset (DevRef τ sig)) :
    ∀ (ops : List (HloOp τ sig (Elt F))) (_ : ∀ op ∈ ops, op.bufs ⊆ S) (A B : Valuation τ sig (Elt F))
      (_ : ∀ b ∈ S, A b = B b), ∀ b ∈ S, StableHlo.after ops A b = StableHlo.after ops B b
  | [], _, _, _, hAB => hAB
  | op :: ops, hS, A, B, hAB => by
    intro b hb
    rw [StableHlo.after_cons, StableHlo.after_cons]
    refine after_congr_on S ops (fun o ho => hS o (List.mem_cons_of_mem _ ho)) _ _ (fun b' hb' => ?_) b hb
    by_cases hm : b' ∈ op.bufs
    · exact op.result_congr (fun x hx => hAB x (hS op List.mem_cons_self hx)) b' hm
    · rw [op.result_of_not_mem A (fun hw => hm (op.writes_sub hw)), op.result_of_not_mem B (fun hw => hm (op.writes_sub hw))]
      exact hAB b' hb'

/-- A list of references as a set of device buffers. -/
abbrev bufSet (L : List (Ref sig .tc)) : Finset (DevRef τ sig) := (L.map (Proc.devRef (τ := τ) .tc)).toFinset

theorem mem_bufSet {L : List (Ref sig .tc)} {r : Ref sig .tc} (h : r ∈ L) : Proc.devRef (τ := τ) .tc r ∈ bufSet L :=
  List.mem_toFinset.mpr (List.mem_map_of_mem h)

/-- A member of the set is a listed reference. -/
theorem of_mem_bufSet {L : List (Ref sig .tc)} {b : DevRef τ sig} (h : b ∈ bufSet L) : ∃ r ∈ L, b = Proc.devRef .tc r := by
  obtain ⟨r, hr, e⟩ := List.mem_map.mp (List.mem_toFinset.mp h)
  exact ⟨r, hr, e.symm⟩

/-- The buffers stretch `q` (1, 2, 3) touches: the re-laid ids, its two constants, the slice and its reshape. -/
abbrev hops1_B : List (Ref sig .tc) := [main_v1, main_c_1, main_c_2, main_v5, main_v6]
abbrev hops2_B : List (Ref sig .tc) := [main_v1, main_c_3, main_c_4, main_v8, main_v9]
abbrev hops3_B : List (Ref sig .tc) := [main_v1, main_c_5, main_c_6, main_v11, main_v12]

theorem hops1_bufs : ∀ op ∈ (hops1 : List (HloOp τ sig (Elt F))), op.bufs ⊆ bufSet hops1_B := by
  intro op h
  simp only [hops1, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

theorem hops2_bufs : ∀ op ∈ (hops2 : List (HloOp τ sig (Elt F))), op.bufs ⊆ bufSet hops2_B := by
  intro op h
  simp only [hops2, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

theorem hops3_bufs : ∀ op ∈ (hops3 : List (HloOp τ sig (Elt F))), op.bufs ⊆ bufSet hops3_B := by
  intro op h
  simp only [hops3, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

/-! ## The ids each call gathers by -/

variable (m : (ℓ : Loc nD τ sig) → Buf (Elt F) ℓ)

/-- The re-laid ids and the first quarter come out of stretch 0 from the launch contents; quarter `q` (1, 2, 3) out of
    stretch `q` run on what stretch 0 left. -/
def Ids0 (d : Dev nD) : S32x25x64.Idx → BitVec 32 := StableHlo.after (hops0 (F := F)) (W0 m d) (Proc.devRef .tc main_v3)
def Ids1 (d : Dev nD) : S32x25x64.Idx → BitVec 32 :=
  StableHlo.after (hops1 (F := F)) (StableHlo.after (hops0 (F := F)) (W0 m d)) (Proc.devRef .tc main_v6)
def Ids2 (d : Dev nD) : S32x25x64.Idx → BitVec 32 :=
  StableHlo.after (hops2 (F := F)) (StableHlo.after (hops0 (F := F)) (W0 m d)) (Proc.devRef .tc main_v9)
def Ids3 (d : Dev nD) : S32x25x64.Idx → BitVec 32 :=
  StableHlo.after (hops3 (F := F)) (StableHlo.after (hops0 (F := F)) (W0 m d)) (Proc.devRef .tc main_v12)

/-- The four together. -/
def Ids (q : Fin 4) (d : Dev nD) : S32x25x64.Idx → BitVec 32 :=
  match q with
  | 0 => Ids0 m d
  | 1 => Ids1 m d
  | 2 => Ids2 m d
  | 3 => Ids3 m d

/-- What a valuation must share with stretch 0's result for stretch `q` to cut the same quarter: the buffers stretch `q` touches. -/
theorem ids1_of_agree (d : Dev nD) (A : Valuation τ sig (Elt F))
    (h : ∀ r ∈ hops1_B, A (Proc.devRef .tc r) = StableHlo.after (hops0 (F := F)) (W0 m d) (Proc.devRef .tc r)) :
    StableHlo.after (hops1 (F := F)) A (Proc.devRef .tc main_v6) = Ids1 m d :=
  after_congr_on (bufSet hops1_B) hops1 hops1_bufs A _
    (fun b hb => by obtain ⟨r, hr, rfl⟩ := of_mem_bufSet hb; exact h r hr) _ (mem_bufSet (by decide))

theorem ids2_of_agree (d : Dev nD) (A : Valuation τ sig (Elt F))
    (h : ∀ r ∈ hops2_B, A (Proc.devRef .tc r) = StableHlo.after (hops0 (F := F)) (W0 m d) (Proc.devRef .tc r)) :
    StableHlo.after (hops2 (F := F)) A (Proc.devRef .tc main_v9) = Ids2 m d :=
  after_congr_on (bufSet hops2_B) hops2 hops2_bufs A _
    (fun b hb => by obtain ⟨r, hr, rfl⟩ := of_mem_bufSet hb; exact h r hr) _ (mem_bufSet (by decide))

theorem ids3_of_agree (d : Dev nD) (A : Valuation τ sig (Elt F))
    (h : ∀ r ∈ hops3_B, A (Proc.devRef .tc r) = StableHlo.after (hops0 (F := F)) (W0 m d) (Proc.devRef .tc r)) :
    StableHlo.after (hops3 (F := F)) A (Proc.devRef .tc main_v12) = Ids3 m d :=
  after_congr_on (bufSet hops3_B) hops3 hops3_bufs A _
    (fun b hb => by obtain ⟨r, hr, rfl⟩ := of_mem_bufSet hb; exact h r hr) _ (mem_bufSet (by decide))

/-- Call 0's result does not reach call 1's ids. -/
theorem chain_idx1 (d : Dev nD) (f0 : (outD 0).ty.Contents (Elt F)) :
    StableHlo.after (hops1 (F := F)) (Function.update (StableHlo.after (hops0 (F := F)) (W0 m d)) (outD 0) f0)
        (Proc.devRef .tc main_v6) = Ids1 m d :=
  ids1_of_agree m d _ fun r hr => by
    rw [Function.update_of_ne (StableHlo.devRef_ne_of_ne (ne_of_mem_of_not_mem hr (by decide)))]

/-- Calls 0 and 1's results, and stretch 1, do not reach call 2's ids. -/
theorem chain_idx2 (d : Dev nD) (f0 : (outD 0).ty.Contents (Elt F)) (f1 : (outD 1).ty.Contents (Elt F)) :
    StableHlo.after (hops2 (F := F))
        (Function.update (StableHlo.after (hops1 (F := F))
          (Function.update (StableHlo.after (hops0 (F := F)) (W0 m d)) (outD 0) f0)) (outD 1) f1)
        (Proc.devRef .tc main_v9) = Ids2 m d :=
  ids2_of_agree m d _ fun r hr => by
    rw [Function.update_of_ne (StableHlo.devRef_ne_of_ne (ne_of_mem_of_not_mem hr (by decide))),
      hops1_keeps _ r (fun h1 => absurd hr (by revert h1; revert r; decide)),
      Function.update_of_ne (StableHlo.devRef_ne_of_ne (ne_of_mem_of_not_mem hr (by decide)))]

/-- Calls 0, 1 and 2's results, and stretches 1 and 2, do not reach call 3's ids. -/
theorem chain_idx3 (d : Dev nD) (f0 : (outD 0).ty.Contents (Elt F)) (f1 : (outD 1).ty.Contents (Elt F))
    (f2 : (outD 2).ty.Contents (Elt F)) :
    StableHlo.after (hops3 (F := F))
        (Function.update (StableHlo.after (hops2 (F := F))
          (Function.update (StableHlo.after (hops1 (F := F))
            (Function.update (StableHlo.after (hops0 (F := F)) (W0 m d)) (outD 0) f0)) (outD 1) f1)) (outD 2) f2)
        (Proc.devRef .tc main_v12) = Ids3 m d :=
  ids3_of_agree m d _ fun r hr => by
    rw [Function.update_of_ne (StableHlo.devRef_ne_of_ne (ne_of_mem_of_not_mem hr (by decide))),
      hops2_keeps _ r (fun h1 => absurd hr (by revert h1; revert r; decide)),
      Function.update_of_ne (StableHlo.devRef_ne_of_ne (ne_of_mem_of_not_mem hr (by decide))),
      hops1_keeps _ r (fun h1 => absurd hr (by revert h1; revert r; decide)),
      Function.update_of_ne (StableHlo.devRef_ne_of_ne (ne_of_mem_of_not_mem hr (by decide)))]

/-- Without any call between: the stretches run one after the other cut the same quarters. -/
theorem ids2_nested (d : Dev nD) :
    StableHlo.after (hops2 (F := F)) (StableHlo.after (hops1 (F := F)) (StableHlo.after (hops0 (F := F)) (W0 m d)))
        (Proc.devRef .tc main_v9) = Ids2 m d :=
  ids2_of_agree m d _ fun r hr => hops1_keeps _ r (fun h1 => absurd hr (by revert h1; revert r; decide))

theorem ids3_nested (d : Dev nD) :
    StableHlo.after (hops3 (F := F)) (StableHlo.after (hops2 (F := F)) (StableHlo.after (hops1 (F := F))
        (StableHlo.after (hops0 (F := F)) (W0 m d)))) (Proc.devRef .tc main_v12) = Ids3 m d :=
  ids3_of_agree m d _ fun r hr => by
    rw [hops2_keeps _ r (fun h1 => absurd hr (by revert h1; revert r; decide)),
      hops1_keeps _ r (fun h1 => absurd hr (by revert h1; revert r; decide))]

/-! ## Their range -/

section Range

variable (d : Dev nD)
  (h0 : ∀ j, ((m ((SparseCore.T d).loc main_arg0) : S1024x200.Idx → BitVec 32) j).toNat < 100000)
include h0

theorem Ids_range0 : ∀ j, (Ids0 m d j).toNat < 100000 := idx0_range (W0 m d) h0
theorem Ids_range1 : ∀ j, (Ids1 m d j).toNat < 100000 := idx1_range _ (v1_range (W0 m d) h0)
theorem Ids_range2 : ∀ j, (Ids2 m d j).toNat < 100000 := idx2_range _ (v1_range (W0 m d) h0)
theorem Ids_range3 : ∀ j, (Ids3 m d j).toNat < 100000 := idx3_range _ (v1_range (W0 m d) h0)

theorem Ids_range (q : Fin 4) : ∀ j, (Ids m q d j).toNat < 100000 := by
  match q with
  | 0 => exact Ids_range0 m d h0
  | 1 => exact Ids_range1 m d h0
  | 2 => exact Ids_range2 m d h0
  | 3 => exact Ids_range3 m d h0

end Range

end Cert.Proof.KI

end
-- ==== Proof.FrameKI.lean ====
/-
  The idealized kernel program's run from the four tile obligations: the ids each call gathers by are the first
  stretch's, whatever the earlier calls left; the table is never written.
-/
import proofs.«203556_g1357209665813_cont_week2b_798_48_alg».proof.Proof.Calls
import proofs.«203556_g1357209665813_cont_week2b_798_48_alg».proof.Proof.IdxChain

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ) (ρ : Dev nD → PrngReg)

/-- The ids the four calls gather by. -/
def Jv : IdsOf F := ⟨Ids0 m, Ids1 m, Ids2 m, Ids3 m⟩

theorem tbl_of_args (d : Dev nD) {W : Valuation τ sig (Elt F)} (h : ArgsOf m d W) : W Tile0.tblD = m (Tile0.tblLoc d) :=
  h main_arg2 (by simp [argL])

theorem hidx0 [∀ e, Nonempty (Elt F e)] (d : Dev nD) : (CIv m (Jv m)).IdxOK 0 d (StableHlo.after hops0 (W0 m d)) :=
  ⟨tbl_of_args m d (argsOf_hops0 m d (argsOf_W0 m d)), rfl⟩
theorem hidx1 [∀ e, Nonempty (Elt F e)] (d : Dev nD) (f0) :
    (CIv m (Jv m)).IdxOK 1 d (StableHlo.after hops1 (Function.update (StableHlo.after hops0 (W0 m d)) (outD 0) f0)) :=
  ⟨tbl_of_args m d (argsOf_hops1 m d (argsOf_update m d 0 f0 (argsOf_hops0 m d (argsOf_W0 m d)))), chain_idx1 m d f0⟩
theorem hidx2 [∀ e, Nonempty (Elt F e)] (d : Dev nD) (f0 f1) :
    (CIv m (Jv m)).IdxOK 2 d (StableHlo.after hops2 (Function.update (StableHlo.after hops1 (Function.update (StableHlo.after hops0 (W0 m d)) (outD 0) f0)) (outD 1) f1)) :=
  ⟨tbl_of_args m d (argsOf_hops2 m d (argsOf_update m d 1 f1 (argsOf_hops1 m d (argsOf_update m d 0 f0 (argsOf_hops0 m d (argsOf_W0 m d)))))), chain_idx2 m d f0 f1⟩
theorem hidx3 [∀ e, Nonempty (Elt F e)] (d : Dev nD) (f0 f1 f2) :
    (CIv m (Jv m)).IdxOK 3 d (StableHlo.after hops3 (Function.update (StableHlo.after hops2 (Function.update (StableHlo.after hops1 (Function.update (StableHlo.after hops0 (W0 m d)) (outD 0) f0)) (outD 1) f1)) (outD 2) f2)) :=
  ⟨tbl_of_args m d (argsOf_hops3 m d (argsOf_update m d 2 f2 (argsOf_hops2 m d (argsOf_update m d 1 f1 (argsOf_hops1 m d (argsOf_update m d 0 f0 (argsOf_hops0 m d (argsOf_W0 m d)))))))),
    chain_idx3 m d f0 f1 f2⟩

/-- The program's run, from the four tile obligations. -/
theorem run_of_tiles [∀ e, Nonempty (Elt F e)]
    (htile : ∀ q, (K (F := F)).TileObl (D (F := F)) 𝒱 (P (TPv m (Jv m))) v₀ q) :
    θ_run (Cert.KernelIdeal.defs (F := F)) (Cert.KernelIdeal.threads (F := F)) ⟨m, fun _ => 0, ρ⟩ (QC m) :=
  run_main (TPv m (Jv m)) m ρ (CIv m (Jv m)) htile (hidx0 m) (hidx1 m) (hidx2 m) (hidx3 m)

end Cert.Proof.KI

end
-- ==== Proof.Tile0Base.lean ====
/-
  The row gather's task on one vector subcore, call 0: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.Tile0Sets

noncomputable section

namespace Cert.Proof.KI.Tile0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v3_scv : Memref Cert.KernelIdeal.sig Kind.scVector Space.hbm Cert.KernelIdeal.S32x25x64 EltTy.i32)
local notation "outW" => (Memref.whole Cert.KernelIdeal.main_v4_scv : Memref Cert.KernelIdeal.sig Kind.scVector Space.hbm Cert.KernelIdeal.S51200x128 EltTy.f32)
local notation "ivW" => (Memref.whole Cert.KernelIdeal.cc0_scratch0 : Memref Cert.KernelIdeal.sig Kind.scVector Space.vmem Cert.KernelIdeal.S25x64 EltTy.i32)
local notation "b0W" => (Memref.whole Cert.KernelIdeal.cc0_scratch1 : Memref Cert.KernelIdeal.sig Kind.scVector Space.vmem Cert.KernelIdeal.S64x128 EltTy.f32)
local notation "b1W" => (Memref.whole Cert.KernelIdeal.cc0_scratch2 : Memref Cert.KernelIdeal.sig Kind.scVector Space.vmem Cert.KernelIdeal.S64x128 EltTy.f32)
local notation "b2W" => (Memref.whole Cert.KernelIdeal.cc0_scratch3 : Memref Cert.KernelIdeal.sig Kind.scVector Space.vmem Cert.KernelIdeal.S64x128 EltTy.f32)
local notation "b3W" => (Memref.whole Cert.KernelIdeal.cc0_scratch4 : Memref Cert.KernelIdeal.sig Kind.scVector Space.vmem Cert.KernelIdeal.S64x128 EltTy.f32)
local notation "b4W" => (Memref.whole Cert.KernelIdeal.cc0_scratch5 : Memref Cert.KernelIdeal.sig Kind.scVector Space.vmem Cert.KernelIdeal.S64x128 EltTy.f32)

theorem mySems_scoped : ∀ i ∈ mySems, (SemLoc.dma i : SemLoc sig).isScoped .scVector = true := by decide

theorem myCells_sub (d : Dev nD) (L : grid0.Coords) : myCells d L ⊆ ownCells (thr d L) := by
  intro g hg
  obtain ⟨i, hi, rfl⟩ := Finset.mem_image.mp hg
  exact mem_ownCells.mpr ⟨rfl, mySems_scoped i hi⟩

theorem myRefs_sub (L : grid0.Coords) : myRefs L ⊆ ownRefs (τ := τ) (.scVector ((L 0).castLE hcore0) ((L 1).castLE hsub0)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid0.Coords) :
    (ownSems0 (thr d L) : sProp 𝕄)
      = iprop(semVal (cellOf d L cc0_scratch6) 0 ∗ semVal (cellOf d L cc0_scratch7) 0 ∗ semVal (cellOf d L cc0_scratch8) 0
          ∗ semVal (cellOf d L cc0_scratch9) 0 ∗ semVal (cellOf d L cc0_scratch10) 0 ∗ semVal (cellOf d L cc0_scratch11) 0
          ∗ semVal (cellOf d L cc0_scratch12) 0 ∗ semVal (cellOf d L cc0_scratch13) 0 ∗ semVal (cellOf d L cc0_scratch14) 0
          ∗ semVal (cellOf d L cc0_scratch15) 0 ∗ semVal (cellOf d L cc0_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (ownRefs (τ := τ) (.scVector ((L 0).castLE hcore0) ((L 1).castLE hsub0)) \ myRefs L)
              fun b => iprop(∃ f, ((d, b) : Loc nD τ sig) ↦{fullShare} f)) := by
  unfold SparseCore.Cfg.ownBufs
  rw [show (thr d L).2 = Proc.scVector ((L 0).castLE hcore0) ((L 1).castLE hsub0) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc0_scratch6.sem, cc0_scratch7.sem, cc0_scratch8.sem, cc0_scratch9.sem, cc0_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid0.Coords) (q : PosShare TreeShare) (Tb : Buf (Elt F) (tblLoc d)) :
    (tblLoc d ↦{q} Tb : sProp 𝕄)
      = iprop(((tblW).view.loc (thr d L) ↦{tq q cc0_scratch6} Tb) ∗ ((tblW).view.loc (thr d L) ↦{tq q cc0_scratch7} Tb)
          ∗ ((tblW).view.loc (thr d L) ↦{tq q cc0_scratch8} Tb) ∗ ((tblW).view.loc (thr d L) ↦{tq q cc0_scratch9} Tb)
          ∗ ((tblW).view.loc (thr d L) ↦{tq q cc0_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid0.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid0.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid0.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid0.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid0.Coords) (sm : DmaSems sig S_) (bW : Memref sig .scVector .vmem S64x128 .f32)
    (t : Fin k0_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid0.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid0.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid0.Coords) (t : Fin k0_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid0.Coords) (fo : Buf (Elt F) (outLoc d)) (t : Fin k0_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid0.Coords) (t : Fin k0_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k0_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k0_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k0_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k0_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid0.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k0_t1_loop.trips × Fin 5 => chunkAt d L p.1 p.2 fo) :=
    pointsTo_biUnion Finset.univ _ (fun p _ p' _ h => chunk_disjoint L p p' h)
  rw [h1]
  exact bigSep25 (fun p : Fin k0_t1_loop.trips × Fin 5 => chunkAt d L p.1 p.2 fo)

/-- The chunks, each written and back at whatever contents, are the task's rows at some contents. -/
theorem out_join (d : Dev nD) (L : grid0.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k0_t1_loop.trips × Fin 5, Nonempty ((fun _ : Fin k0_t1_loop.trips × Fin 5 => Buf (Elt F) (outLoc d)) i) := fun _ => ⟨f₀⟩
  refine (Entails.of_eq (bigSep25 (fun p : Fin k0_t1_loop.trips × Fin 5 => (iprop(∃ f, chunkAt (F := F) d L p.1 p.2 f) : sProp 𝕄))).symm).trans ?_
  refine (@bigSep_exists_pi _ _ _ _ (fun _ : Fin k0_t1_loop.trips × Fin 5 => Buf (Elt F) (outLoc d)) hne Finset.univ
    (fun (p : Fin k0_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k0_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KI.Tile0
end
-- ==== Proof.Gather.lean ====
/-
  The array a SparseCore call leaves: row `r` of the result is the table's row named by the `r`-th id of the call's
  32 × 25 × 64 block of ids read row-major — worker `r / 1600`, chunk `r % 1600 / 64`, lane `r % 64` — the id read
  unsigned and clamped into the table, so that the definition needs no hypothesis on the ids.
-/
import proofs.«203556_g1357209665813_cont_week2b_798_48_alg».proof.Proof.Common
import Idealize.ShloMosaic.Lib.ValueIdx

noncomputable section

namespace Cert.Proof.KI

open Cert.KernelIdeal
open Idealize.ShloMosaic Idealize.ShloMosaic.ValueIdx

variable {F : FTy → Type}

/-- The id of flat position `r` of a call's block: worker `r / 1600`, chunk `r % 1600 / 64`, lane `r % 64`. -/
def idAt (I : S32x25x64.Idx → BitVec 32) (r : Nat) (hr : r < 51200) : BitVec 32 :=
  I (ix3 ⟨r / 1600, by omega⟩ ⟨r % 1600 / 64, by omega⟩ ⟨r % 64, by omega⟩)

/-- The gathered rows: row `r`, column `k` is the table at the row the `r`-th id names (unsigned, clamped) and column `k`. -/
def Gathered (Tb : S100000x128.Idx → Elt F .f32) (I : S32x25x64.Idx → BitVec 32) : S51200x128.Idx → Elt F .f32 :=
  fun i => Tb (ix2 ⟨min (idAt I (i 0).val (idx2_lt0 i)).toNat 99999, by omega⟩ ⟨(i 1).val, idx2_lt1 i⟩)

/-- The gathered rows at `(r, k)`. -/
theorem Gathered_apply (Tb : S100000x128.Idx → Elt F .f32) (I : S32x25x64.Idx → BitVec 32) (r : Nat) (hr : r < 51200)
    (k : Fin 128) :
    Gathered Tb I (ix2 ⟨r, hr⟩ k)
      = Tb (ix2 ⟨min (I (ix3 ⟨r / 1600, by omega⟩ ⟨r % 1600 / 64, by omega⟩ ⟨r % 64, by omega⟩)).toNat 99999, by omega⟩ k) := rfl

/-- With the id in the table's range the clamp is the id itself. -/
theorem Gathered_apply_of_lt (Tb : S100000x128.Idx → Elt F .f32) (I : S32x25x64.Idx → BitVec 32) (r : Nat) (hr : r < 51200)
    (k : Fin 128) (hI : (I (ix3 ⟨r / 1600, by omega⟩ ⟨r % 1600 / 64, by omega⟩ ⟨r % 64, by omega⟩)).toNat < 100000) :
    Gathered Tb I (ix2 ⟨r, hr⟩ k)
      = Tb (ix2 ⟨(I (ix3 ⟨r / 1600, by omega⟩ ⟨r % 1600 / 64, by omega⟩ ⟨r % 64, by omega⟩)).toNat, hI⟩ k) := by
  rw [Gathered_apply]
  exact congrArg (fun q => Tb (ix2 q k)) (Fin.ext (Nat.min_eq_left (by omega)))

end Cert.Proof.KI

end
-- ==== Proof.Tile0ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.Tile0Sets
import proofs.«203556_g1357209665813_cont_week2b_798_48_alg».proof.Proof.Gather
import Idealize.ShloMosaic.Lib.Pipeline.Value
import Idealize.ShloMosaic.Lib.ValueLayout

noncomputable section

namespace Cert.Proof.KI.Tile0

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.KernelIdeal.cc0_scratch0 : Memref Cert.KernelIdeal.sig Kind.scVector Space.vmem Cert.KernelIdeal.S25x64 EltTy.i32)
local notation "idxW" => (Memref.whole Cert.KernelIdeal.main_v3_scv : Memref Cert.KernelIdeal.sig Kind.scVector Space.hbm Cert.KernelIdeal.S32x25x64 EltTy.i32)

/-- The worker a task is: twice the subcore plus the core. -/
abbrev wid (L : grid0.Coords) : ℕ := 2 * (L 1).val + (L 0).val

theorem wid_lt (L : grid0.Coords) : wid L < 32 := by
  have h0 := (L 0).isLt; have h1 := (L 1).isLt
  have b0 : grid0.bound 0 = 2 := rfl
  have b1 : grid0.bound 1 = 16 := rfl
  unfold wid; omega

/-! ## (1) The task's block of ids -/

/-- The block of the id array the task copies, read through the program's slice, is row `wid` of the array. -/
theorem idxRow_read_apply (L : grid0.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k0_off1 L) S1x25x64.size (k0_off1_inb L)).toLoadRect I) hc from rfl]
  rw [shapeCast_1ab_ab_apply]
  show I ((Rect.unit (s := S32x25x64) (k0_off1 L) S1x25x64.size (k0_off1_inb L)).idx (ix3 0 k j)) = _
  refine congrArg I (funext fun a => Fin.ext ?_)
  have e := k0_off1_eq L
  match a with
  | ⟨0, _⟩ => show k0_off1 L 0 + 1 * (0 : ℕ) = wid L; rw [e]; simp
  | ⟨1, _⟩ => show k0_off1 L 1 + 1 * k.val = k.val; rw [e]; simp
  | ⟨2, _⟩ => show k0_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid0.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid0.Coords) (t : Fin k0_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid0.Coords) (t : Fin k0_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k0_off5_eq L t r
  have hr : base L t r + j.val < 51200 := by
    have h0 := (L 0).isLt; have h1 := (L 1).isLt
    have b0 : grid0.bound 0 = 2 := rfl
    have b1 : grid0.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k0_off5 L t (BitVec.ofNat 32 r.val) 0 + 1 * j.val; rw [e5]; simp
  | ⟨1, _⟩ => show h.val = k0_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid0.Coords) (t : Fin k0_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid0.bound 0 = 2 := rfl
  have b1 : grid0.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid0.Coords) (q : PosShare TreeShare) (g : Buf (Elt F) (outLoc d)) :
    (outLoc d ↦[outSet L]{q} g : sProp 𝕄)
      = bigSep (Finset.univ : Finset (Fin k0_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid0.Coords) (t : Fin k0_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid0.Coords) (q : PosShare TreeShare)
    (f : Fin k0_t1_loop.trips × Fin 5 → Buf (Elt F) (outLoc d)) (G : Buf (Elt F) (outLoc d))
    (h : ∀ p : Fin k0_t1_loop.trips × Fin 5, ∀ i ∈ ((outChunk L p.1 p.2).view.set : Finset S51200x128.Idx), f p i = G i) :
    (bigSep (Finset.univ : Finset (Fin k0_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KI.Tile0
end
-- ==== Proof.TileCoreBase.lean ====
/-
  The row gather's task on one vector subcore, for any call: the five trips of its ring, over the call's arguments as
  variables — the index array, the output, the index scratch, the five slot buffers (each a whole buffer) and the eleven
  semaphores. The four calls run one function on different arguments, so what is proved here is proved once. Nothing is said
  over an argument's underlying buffer beyond what its memref states: the task's index block and output chunks are the
  program's own slices, and the fact that every word of the index scratch names a table row enters as a hypothesis.
-/
import proofs.«203556_g1357209665813_cont_week2b_798_48_alg».proof.Proof.Common

noncomputable section

namespace Cert.Proof.KI.TileCore

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- One call's arguments besides the table: the index array, the output, the index scratch, the five slot buffers (each a
    whole buffer) and the eleven semaphores. -/
structure Args where
  idxW : Memref sig .scVector .hbm S32x25x64 .i32
  hidxW : idxW.IsWhole
  outW : Memref sig .scVector .hbm S51200x128 .f32
  houtW : outW.IsWhole
  ivW : Memref sig .scVector .vmem S25x64 .i32
  hivW : ivW.IsWhole
  b0W : Memref sig .scVector .vmem S64x128 .f32
  hb0W : b0W.IsWhole
  b1W : Memref sig .scVector .vmem S64x128 .f32
  hb1W : b1W.IsWhole
  b2W : Memref sig .scVector .vmem S64x128 .f32
  hb2W : b2W.IsWhole
  b3W : Memref sig .scVector .vmem S64x128 .f32
  hb3W : b3W.IsWhole
  b4W : Memref sig .scVector .vmem S64x128 .f32
  hb4W : b4W.IsWhole
  s0 : DmaSems sig S_
  s1 : DmaSems sig S_
  s2 : DmaSems sig S_
  s3 : DmaSems sig S_
  s4 : DmaSems sig S_
  s5 : DmaSems sig S_
  s6 : DmaSems sig S_
  s7 : DmaSems sig S_
  s8 : DmaSems sig S_
  s9 : DmaSems sig S_
  s10 : DmaSems sig S_

variable (A : Args)

local notation "𝕄" => MT nD τ sig (HIx 4) (Elt F) ℕ UU ℕ
local notation "tblW" => (Memref.whole Cert.KernelIdeal.main_arg2_scv : Memref Cert.KernelIdeal.sig Kind.scVector Space.hbm Cert.KernelIdeal.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

abbrev thr (d : Dev nD) (L : grid0.Coords) : Thread nD τ := V d ((L 0).castLE hcore0) ((L 1).castLE hsub0)
abbrev tblLoc (d : Dev nD) : Loc nD τ sig := (SparseCore.T d).loc main_arg2
abbrev idxLoc (d : Dev nD) (L : grid0.Coords) : Loc nD τ sig := (idxW).view.loc (thr d L)
abbrev outLoc (d : Dev nD) (L : grid0.Coords) : Loc nD τ sig := (outW).view.loc (thr d L)

/-- The block of the index array the task copies, as the program slices it. -/
abbrev idxRow (L : grid0.Coords) : Memref sig .scVector .hbm S25x64 .i32 :=
  ((idxW).slice (Rect.unit (s := S32x25x64) (k0_off1 L) S1x25x64.size (k0_off1_inb L)) (fun _ => rfl)).squeeze S25x64 squeezes_S1x25x64_S25x64

/-- Chunk r of trip t of the output, as the program slices it at the write. -/
abbrev outChunk (L : grid0.Coords) (t : Fin k0_t1_loop.trips) (r : Fin 5) : Memref sig .scVector .hbm S64x128 .f32 :=
  (outW).slice (Rect.unit (s := S51200x128) (k0_off5 L t (BitVec.ofNat 32 r.val)) S64x128.size (k0_off5_inb L t r)) (fun _ => rfl)

abbrev cellOf (d : Dev nD) (L : grid0.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

theorem trips_eq : k0_t1_loop.trips = 5 := by decide

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid0.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow A off h).view.set]{fullShare} fv))
      ∗ ((tblW).view.loc (thr d L) ↦[(tblS).view.set]{tq q sm} Tb))

/-- What an issue leaves behind of a buffer lent whole: nothing. -/
abbrev restOf (d : Dev nD) (L : grid0.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- The index scratch once the task's block has landed in it. -/
abbrev ivC (d : Dev nD) (L : grid0.Coords) (I : Buf (Elt F) (idxLoc A d L)) (fiv : Buf (Elt F) ((ivW).view.loc (thr d L))) :
    Buf (Elt F) ((ivW).view.loc (thr d L)) :=
  (ivW).view.write (Elt F) fiv (ReadAs.same.apply ((idxRow A L).view.read (Elt F) I)) Finset.univ

/-- A write-out in flight on semaphore sm: it hands back the chunk of the output at contents o and the slot buffer at contents c. -/
abbrev WF (d : Dev nD) (L : grid0.Coords) (sm : DmaSems sig S_) (bW : Memref sig .scVector .vmem S64x128 .f32)
    (t : Fin k0_t1_loop.trips) (r : Fin 5) (o : Buf (Elt F) (outLoc A d L)) (c : Buf (Elt F) (bW.view.loc (thr d L))) : sProp 𝕄 :=
  Transfers.Flight countersEmb (thr d L) (SemLoc.dma sm.sem) default 262144
    iprop(((outChunk A L t r).view.loc (thr d L) ↦[(outChunk A L t r).view.set]{fullShare} o)
      ∗ (bW.view.loc (thr d L) ↦[bW.view.set]{fullShare} c))

/-- The index scratch less the three list rows lent to the gathers in flight. -/
abbrev ivRest (d : Dev nD) (L : grid0.Coords) (I : Buf (Elt F) (idxLoc A d L)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow A o0 p0).view.set) \ (ivRow A o1 p1).view.set) \ (ivRow A o2 p2).view.set]{fullShare} ivC A d L I fiv

/-- The table's read token of semaphore sm, whole. -/
abbrev tok (d : Dev nD) (L : grid0.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid0.Coords) (t : Fin k0_t1_loop.trips) (r : Fin 5) (f : Buf (Elt F) (outLoc A d L)) : sProp 𝕄 :=
  (outChunk A L t r).view.loc (thr d L) ↦[(outChunk A L t r).view.set]{fullShare} f

/-- A trip's five chunks, not yet written. -/
abbrev tripTodo (d : Dev nD) (L : grid0.Coords) (fo : Buf (Elt F) (outLoc A d L)) (t : Fin k0_t1_loop.trips) : sProp 𝕄 :=
  iprop(chunkAt A d L t 0 fo ∗ chunkAt A d L t 1 fo ∗ chunkAt A d L t 2 fo ∗ chunkAt A d L t 3 fo ∗ chunkAt A d L t 4 fo)

/-- A trip's five chunks, written and back. -/
abbrev tripDone (d : Dev nD) (L : grid0.Coords) (t : Fin k0_t1_loop.trips) : sProp 𝕄 :=
  iprop((∃ f, chunkAt A (F := F) d L t 0 f) ∗ (∃ f, chunkAt A (F := F) d L t 1 f) ∗ (∃ f, chunkAt A (F := F) d L t 2 f)
    ∗ (∃ f, chunkAt A (F := F) d L t 3 f) ∗ (∃ f, chunkAt A (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-- What every trip boundary before the last holds: the three gathers in flight (list rows o0, o1, o2 into slots 0, 1, 2), the
    other two read tokens, the other two gather semaphores and the first three write semaphores at zero; and a tail. -/
def Bnd (d : Dev nD) (L : grid0.Coords) (q : PosShare TreeShare) (Tb : Buf (Elt F) (tblLoc d)) (I : Buf (Elt F) (idxLoc A d L))
    (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) (Tail : sProp 𝕄) : sProp 𝕄 :=
  iprop(∃ g0 g1 g2,
    GF A d L q Tb (ivC A d L I fiv) A.s0 b0W o0 p0 g0 ∗ GF A d L q Tb (ivC A d L I fiv) A.s1 b1W o1 p1 g1
    ∗ GF A d L q Tb (ivC A d L I fiv) A.s2 b2W o2 p2 g2
    ∗ restOf d L tblW (tblS).view.set (tq q A.s0) Tb ∗ restOf d L tblW (tblS).view.set (tq q A.s1) Tb
    ∗ restOf d L tblW (tblS).view.set (tq q A.s2) Tb
    ∗ tok d L q Tb A.s3 ∗ tok d L q Tb A.s4
    ∗ restOf d L b0W (b0W).view.set fullShare g0 ∗ restOf d L b1W (b1W).view.set fullShare g1 ∗ restOf d L b2W (b2W).view.set fullShare g2
    ∗ ivRest A d L I fiv o0 p0 o1 p1 o2 p2
    ∗ semVal (cellOf d L A.s3) 0 ∗ semVal (cellOf d L A.s4) 0
    ∗ semVal (cellOf d L A.s5) 0 ∗ semVal (cellOf d L A.s6) 0 ∗ semVal (cellOf d L A.s7) 0
    ∗ Tail)

/-- The tail before the first trip: slots 3 and 4 idle, nothing written. -/
def Tail0 (d : Dev nD) (L : grid0.Coords) (fo : Buf (Elt F) (outLoc A d L)) : sProp 𝕄 :=
  iprop((∃ f, (b3W).view.loc (thr d L) ↦{fullShare} f) ∗ (∃ f, (b4W).view.loc (thr d L) ↦{fullShare} f)
    ∗ semVal (cellOf d L A.s8) 0 ∗ semVal (cellOf d L A.s9) 0
    ∗ tripTodo A d L fo ⟨0, by decide⟩ ∗ tripTodo A d L fo ⟨1, by decide⟩ ∗ tripTodo A d L fo ⟨2, by decide⟩ ∗ tripTodo A d L fo ⟨3, by decide⟩
    ∗ tripTodo A d L fo ⟨4, by decide⟩)

/-- The part of a later tail that does not depend on which trips are done: trip tp's last two chunks being written out of slots
    3 and 4, its first three back. -/
def TailW (d : Dev nD) (L : grid0.Coords) (tp : Fin k0_t1_loop.trips) : sProp 𝕄 :=
  iprop((∃ c o, WF A (F := F) d L A.s8 b3W tp 3 o c ∗ restOf d L b3W (b3W).view.set fullShare c)
    ∗ (∃ c o, WF A (F := F) d L A.s9 b4W tp 4 o c ∗ restOf d L b4W (b4W).view.set fullShare c)
    ∗ (∃ f, chunkAt A (F := F) d L tp 0 f) ∗ (∃ f, chunkAt A (F := F) d L tp 1 f) ∗ (∃ f, chunkAt A (F := F) d L tp 2 f))

def Tail1 (d : Dev nD) (L : grid0.Coords) (fo : Buf (Elt F) (outLoc A d L)) : sProp 𝕄 :=
  iprop(TailW A (F := F) d L ⟨0, by decide⟩ ∗ tripTodo A d L fo ⟨1, by decide⟩ ∗ tripTodo A d L fo ⟨2, by decide⟩ ∗ tripTodo A d L fo ⟨3, by decide⟩ ∗ tripTodo A d L fo ⟨4, by decide⟩)

def Tail2 (d : Dev nD) (L : grid0.Coords) (fo : Buf (Elt F) (outLoc A d L)) : sProp 𝕄 :=
  iprop(TailW A (F := F) d L ⟨1, by decide⟩ ∗ tripDone A (F := F) d L ⟨0, by decide⟩ ∗ tripTodo A d L fo ⟨2, by decide⟩ ∗ tripTodo A d L fo ⟨3, by decide⟩ ∗ tripTodo A d L fo ⟨4, by decide⟩)

def Tail3 (d : Dev nD) (L : grid0.Coords) (fo : Buf (Elt F) (outLoc A d L)) : sProp 𝕄 :=
  iprop(TailW A (F := F) d L ⟨2, by decide⟩ ∗ tripDone A (F := F) d L ⟨0, by decide⟩ ∗ tripDone A (F := F) d L ⟨1, by decide⟩ ∗ tripTodo A d L fo ⟨3, by decide⟩ ∗ tripTodo A d L fo ⟨4, by decide⟩)

def Tail4 (d : Dev nD) (L : grid0.Coords) (fo : Buf (Elt F) (outLoc A d L)) : sProp 𝕄 :=
  iprop(TailW A (F := F) d L ⟨3, by decide⟩ ∗ tripDone A (F := F) d L ⟨0, by decide⟩ ∗ tripDone A (F := F) d L ⟨1, by decide⟩ ∗ tripDone A (F := F) d L ⟨2, by decide⟩ ∗ tripTodo A d L fo ⟨4, by decide⟩)

/-- After the last trip: no gather in flight; the last trip's five chunks being written out of the five slots. -/
def B5 (d : Dev nD) (L : grid0.Coords) (q : PosShare TreeShare) (Tb : Buf (Elt F) (tblLoc d)) (I : Buf (Elt F) (idxLoc A d L))
    (fiv : Buf (Elt F) ((ivW).view.loc (thr d L))) : sProp 𝕄 :=
  iprop(tok d L q Tb A.s0 ∗ tok d L q Tb A.s1 ∗ tok d L q Tb A.s2 ∗ tok d L q Tb A.s3 ∗ tok d L q Tb A.s4
    ∗ semVal (cellOf d L A.s0) 0 ∗ semVal (cellOf d L A.s1) 0 ∗ semVal (cellOf d L A.s2) 0
    ∗ semVal (cellOf d L A.s3) 0 ∗ semVal (cellOf d L A.s4) 0
    ∗ (∃ c o, WF A (F := F) d L A.s5 b0W ⟨4, by decide⟩ 0 o c ∗ restOf d L b0W (b0W).view.set fullShare c)
    ∗ (∃ c o, WF A (F := F) d L A.s6 b1W ⟨4, by decide⟩ 1 o c ∗ restOf d L b1W (b1W).view.set fullShare c)
    ∗ (∃ c o, WF A (F := F) d L A.s7 b2W ⟨4, by decide⟩ 2 o c ∗ restOf d L b2W (b2W).view.set fullShare c)
    ∗ (∃ c o, WF A (F := F) d L A.s8 b3W ⟨4, by decide⟩ 3 o c ∗ restOf d L b3W (b3W).view.set fullShare c)
    ∗ (∃ c o, WF A (F := F) d L A.s9 b4W ⟨4, by decide⟩ 4 o c ∗ restOf d L b4W (b4W).view.set fullShare c)
    ∗ ((ivW).view.loc (thr d L) ↦{fullShare} ivC A d L I fiv)
    ∗ tripDone A (F := F) d L ⟨0, by decide⟩ ∗ tripDone A (F := F) d L ⟨1, by decide⟩ ∗ tripDone A (F := F) d L ⟨2, by decide⟩
    ∗ tripDone A (F := F) d L ⟨3, by decide⟩)

variable [FloatOps F]

/-- What a trip boundary holds, by the number of trips done. -/
def invB (d : Dev nD) (L : grid0.Coords) (q : PosShare TreeShare) (Tb : Buf (Elt F) (tblLoc d)) (I : Buf (Elt F) (idxLoc A d L))
    (fiv : Buf (Elt F) ((ivW).view.loc (thr d L))) (fo : Buf (Elt F) (outLoc A d L)) : ℕ → sProp 𝕄
  | 0 => Bnd A d L q Tb I fiv ![0, 0] (by decide) ![1, 0] (by decide) ![2, 0] (by decide) (Tail0 A d L fo)
  | 1 => Bnd A d L q Tb I fiv ![5, 0] (by decide) ![6, 0] (by decide) ![7, 0] (by decide) (Tail1 A d L fo)
  | 2 => Bnd A d L q Tb I fiv ![10, 0] (by decide) ![11, 0] (by decide) ![12, 0] (by decide) (Tail2 A d L fo)
  | 3 => Bnd A d L q Tb I fiv ![15, 0] (by decide) ![16, 0] (by decide) ![17, 0] (by decide) (Tail3 A d L fo)
  | 4 => Bnd A d L q Tb I fiv ![20, 0] (by decide) ![21, 0] (by decide) ![22, 0] (by decide) (Tail4 A d L fo)
  | 5 => B5 A d L q Tb I fiv
  | _ + 6 => iprop(False)

/-- The loop's invariant: the waits admissible, what the task owes (its waits recorded), and the boundary's transfers in flight. -/
def inv (d : Dev nD) (L : grid0.Coords) (q : PosShare TreeShare) (Tb : Buf (Elt F) (tblLoc d)) (I : Buf (Elt F) (idxLoc A d L))
    (fiv : Buf (Elt F) ((ivW).view.loc (thr d L))) (fo : Buf (Elt F) (outLoc A d L))
    (O : CellTallies nD τ sig (HIx 4)) (W : Waits sig (HIx 4)) (k : ℕ) (_ : Unit) : sProp 𝕄 :=
  iprop(Transfers.MayWaits (thr d L) (none : HIx 4) O
    ∗ (∃ W', ⌜∀ p ∈ W', p ∈ W ∨ p.2 = none⌝ ∗ owes (thr d L) O W')
    ∗ invB A d L q Tb I fiv fo k)

set_option maxRecDepth 100000 in
set_option maxHeartbeats 8000000 in
/-- Trip 0 of the ring: from the boundary before it to the boundary after it. -/
theorem trip0 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 0 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 0 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨0, hk⟩ acc)
          (inv A d L q Tb I fiv fo O W 1) := by
  have hc1 : k0_cond1 ⟨0, hk⟩ = 1#1 := by decide +revert
  have hc2 : ¬ k0_cond2 ⟨0, hk⟩ = 1#1 := by decide +revert
  have hc3 : k0_cond3 ⟨0, hk⟩ = 1#1 := by decide +revert
  have hc4 : ¬ k0_cond4 ⟨0, hk⟩ = 1#1 := by decide +revert
  have hc5 : k0_cond5 ⟨0, hk⟩ = 1#1 := by decide +revert
  have hc6 : k0_cond6 ⟨0, hk⟩ = 1#1 := by decide +revert
  have hc7 : k0_cond7 ⟨0, hk⟩ = 1#1 := by decide +revert
  have hc8 : k0_cond8 ⟨0, hk⟩ = 1#1 := by decide +revert
  have hc9 : k0_cond9 ⟨0, hk⟩ = 1#1 := by decide +revert
  have hc10 : k0_cond10 ⟨0, hk⟩ = 1#1 := by decide +revert
  unfold inv invB Bnd Tail0 Tail1 TailW
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨%f3, Hb3⟩, ⟨%f4, Hb4⟩, Hw3, Hw4, ⟨Ho0, Ho1, Ho2, Ho3, Ho4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 1 of the ring: from the boundary before it to the boundary after it. -/
theorem trip1 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 1 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 1 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨1, hk⟩ acc)
          (inv A d L q Tb I fiv fo O W 2) := by
  have hc1 : k0_cond1 ⟨1, hk⟩ = 1#1 := by decide +revert
  have hc2 : k0_cond2 ⟨1, hk⟩ = 1#1 := by decide +revert
  have hc3 : k0_cond3 ⟨1, hk⟩ = 1#1 := by decide +revert
  have hc4 : k0_cond4 ⟨1, hk⟩ = 1#1 := by decide +revert
  have hc5 : k0_cond5 ⟨1, hk⟩ = 1#1 := by decide +revert
  have hc6 : k0_cond6 ⟨1, hk⟩ = 1#1 := by decide +revert
  have hc7 : k0_cond7 ⟨1, hk⟩ = 1#1 := by decide +revert
  have hc8 : k0_cond8 ⟨1, hk⟩ = 1#1 := by decide +revert
  have hc9 : k0_cond9 ⟨1, hk⟩ = 1#1 := by decide +revert
  have hc10 : k0_cond10 ⟨1, hk⟩ = 1#1 := by decide +revert
  unfold inv invB Bnd Tail1 TailW Tail2
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩, ⟨Ho0, Ho1, Ho2, Ho3, Ho4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 2 of the ring: from the boundary before it to the boundary after it. -/
theorem trip2 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 2 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 2 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨2, hk⟩ acc)
          (inv A d L q Tb I fiv fo O W 3) := by
  have hc1 : k0_cond1 ⟨2, hk⟩ = 1#1 := by decide +revert
  have hc2 : k0_cond2 ⟨2, hk⟩ = 1#1 := by decide +revert
  have hc3 : k0_cond3 ⟨2, hk⟩ = 1#1 := by decide +revert
  have hc4 : k0_cond4 ⟨2, hk⟩ = 1#1 := by decide +revert
  have hc5 : k0_cond5 ⟨2, hk⟩ = 1#1 := by decide +revert
  have hc6 : k0_cond6 ⟨2, hk⟩ = 1#1 := by decide +revert
  have hc7 : k0_cond7 ⟨2, hk⟩ = 1#1 := by decide +revert
  have hc8 : k0_cond8 ⟨2, hk⟩ = 1#1 := by decide +revert
  have hc9 : k0_cond9 ⟨2, hk⟩ = 1#1 := by decide +revert
  have hc10 : k0_cond10 ⟨2, hk⟩ = 1#1 := by decide +revert
  unfold inv invB Bnd Tail2 TailW Tail3
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩, ⟨Ho0, Ho1, Ho2, Ho3, Ho4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 3 of the ring: from the boundary before it to the boundary after it. -/
theorem trip3 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 3 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 3 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨3, hk⟩ acc)
          (inv A d L q Tb I fiv fo O W 4) := by
  have hc1 : k0_cond1 ⟨3, hk⟩ = 1#1 := by decide +revert
  have hc2 : k0_cond2 ⟨3, hk⟩ = 1#1 := by decide +revert
  have hc3 : k0_cond3 ⟨3, hk⟩ = 1#1 := by decide +revert
  have hc4 : k0_cond4 ⟨3, hk⟩ = 1#1 := by decide +revert
  have hc5 : k0_cond5 ⟨3, hk⟩ = 1#1 := by decide +revert
  have hc6 : k0_cond6 ⟨3, hk⟩ = 1#1 := by decide +revert
  have hc7 : k0_cond7 ⟨3, hk⟩ = 1#1 := by decide +revert
  have hc8 : k0_cond8 ⟨3, hk⟩ = 1#1 := by decide +revert
  have hc9 : k0_cond9 ⟨3, hk⟩ = 1#1 := by decide +revert
  have hc10 : k0_cond10 ⟨3, hk⟩ = 1#1 := by decide +revert
  unfold inv invB Bnd Tail3 TailW Tail4
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩,
    ⟨⟨%fd1_0, Hdn1_0⟩, ⟨%fd1_1, Hdn1_1⟩, ⟨%fd1_2, Hdn1_2⟩, ⟨%fd1_3, Hdn1_3⟩, ⟨%fd1_4, Hdn1_4⟩⟩, ⟨Ho0, Ho1, Ho2, Ho3, Ho4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 4 of the ring: from the boundary before it to the boundary after it. -/
theorem trip4 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 4 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 4 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨4, hk⟩ acc)
          (inv A d L q Tb I fiv fo O W 5) := by
  have hc1 : k0_cond1 ⟨4, hk⟩ = 1#1 := by decide +revert
  have hc2 : k0_cond2 ⟨4, hk⟩ = 1#1 := by decide +revert
  have hc3 : k0_cond3 ⟨4, hk⟩ = 1#1 := by decide +revert
  have hc4 : k0_cond4 ⟨4, hk⟩ = 1#1 := by decide +revert
  have hc5 : ¬ k0_cond5 ⟨4, hk⟩ = 1#1 := by decide +revert
  have hc6 : k0_cond6 ⟨4, hk⟩ = 1#1 := by decide +revert
  have hc7 : ¬ k0_cond7 ⟨4, hk⟩ = 1#1 := by decide +revert
  have hc8 : k0_cond8 ⟨4, hk⟩ = 1#1 := by decide +revert
  have hc9 : ¬ k0_cond9 ⟨4, hk⟩ = 1#1 := by decide +revert
  have hc10 : k0_cond10 ⟨4, hk⟩ = 1#1 := by decide +revert
  unfold inv invB Bnd Tail4 TailW B5
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩,
    ⟨⟨%fd1_0, Hdn1_0⟩, ⟨%fd1_1, Hdn1_1⟩, ⟨%fd1_2, Hdn1_2⟩, ⟨%fd1_3, Hdn1_3⟩, ⟨%fd1_4, Hdn1_4⟩⟩,
    ⟨⟨%fd2_0, Hdn2_0⟩, ⟨%fd2_1, Hdn2_1⟩, ⟨%fd2_2, Hdn2_2⟩, ⟨%fd2_3, Hdn2_3⟩, ⟨%fd2_4, Hdn2_4⟩⟩, ⟨Ho0, Ho1, Ho2, Ho3, Ho4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

end Cert.Proof.KI.TileCore
end
-- ==== Proof.TileCoreValBase.lean ====
/-
  The row gather's task on one vector subcore, for any call: the five trips of its ring with the values they move, over the
  call's arguments as variables. What a gather lands in a slot is the table's rows its list of the index scratch names; a
  chunk written out of a slot holds the target contents `G` of the output — a variable here, with the fact that a chunk
  written whole with what its own row of ids gathered holds `G` as a hypothesis: both are the per-call wrapper's to supply,
  being statements over the specific arrays. The id-range fact enters as a hypothesis at the memref level.
-/
import proofs.«203556_g1357209665813_cont_week2b_798_48_alg».proof.Proof.TileCoreBase
import Idealize.ShloMosaic.Lib.ValueIdx

noncomputable section

namespace Cert.Proof.KI.TileCore

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (A : Args)

local notation "𝕄" => MT nD τ sig (HIx 4) (Elt F) ℕ UU ℕ
local notation "tblW" => (Memref.whole Cert.KernelIdeal.main_arg2_scv : Memref Cert.KernelIdeal.sig Kind.scVector Space.hbm Cert.KernelIdeal.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

variable [FloatOps F]

/-! ## The contents the ring moves -/

/-- What the gather whose list is the row of the index scratch at off lands in a slot: row j is the table's row the list's word j names. -/
def gp (d : Dev nD) (L : grid0.Coords) (Tb : Buf (Elt F) (tblLoc d)) (I : Buf (Elt F) (idxLoc A d L)) (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow A off h).view.read (Elt F) (ivC A d L I fiv)) rfl (fun x => hin fiv off h x))

theorem hz2' : (![0, 0] : Fin 2 → ℕ) = fun _ => 0 := funext fun a => by fin_cases a <;> rfl

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- "The buffer holding `P`": `P` written whole over any contents — a term of the buffer's own contents type whatever the
    memref; for a whole memref the base does not matter (`writes_whole_eq`). -/
abbrev castP {sp : Space} {s : Shape} {e : EltTy} (m : Memref sig .scVector sp s e) (d : Dev nD) (L : grid0.Coords) (P : s.Idx → Elt F e) :
    Buf (Elt F) (m.view.loc (thr d L)) :=
  m.view.writes (Elt F) default [⟨Rect.whole s, P⟩]

/-- A whole buffer whose latest write is whole holds what that write wrote, whatever came before. -/
theorem writes_whole_eq {sp : Space} {s : Shape} {e : EltTy} (m : Memref sig .scVector sp s e) (hm : m.IsWhole) (d : Dev nD) (L : grid0.Coords)
    (g : Buf (Elt F) (m.view.loc (thr d L))) (P : s.Idx → Elt F e) (rest : List (View.Piece (Elt F) s e)) :
    m.view.writes (Elt F) g (⟨Rect.whole s, P⟩ :: rest) = castP m d L P := by
  obtain ⟨b, hsp, hs, he, h⟩ := hm
  subst hsp hs he
  obtain rfl := eq_of_heq h
  have key : ∀ (g' : Buf (Elt F) ((Memref.whole b).view.loc (thr d L))) (R : List (View.Piece (Elt F) _ _)),
      (Memref.whole b).view.writes (Elt F) g' (⟨Rect.whole _, P⟩ :: R) = P := fun g' R => by
    rw [← View.write_univ_eq_writes_whole _ _ R P]
    exact View.write_whole_univ _ _ _
  exact (key g rest).trans (key default []).symm

theorem slot0_landed (d : Dev nD) (L : grid0.Coords) (g : Buf (Elt F) ((b0W).view.loc (thr d L))) (P : S64x128.Idx → Elt F .f32)
    (rest : List (View.Piece (Elt F) S64x128 .f32)) :
    (b0W).view.writes (Elt F) g (⟨Rect.whole S64x128, P⟩ :: rest) = castP b0W d L P := writes_whole_eq (b0W) A.hb0W d L g P rest

theorem slot0_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b0W).view.loc (thr d L))) (P : S64x128.Idx → Elt F .f32) (rest : List (View.Piece (Elt F) S64x128 .f32))
    (hP : P = gp A d L Tb I hin G fiv off h) :
    (b0W).view.writes (Elt F) g (⟨Rect.whole S64x128, P⟩ :: rest) = castP b0W d L (gp A d L Tb I hin G fiv off h) := by
  subst hP; exact slot0_landed A d L g _ rest

theorem slot1_landed (d : Dev nD) (L : grid0.Coords) (g : Buf (Elt F) ((b1W).view.loc (thr d L))) (P : S64x128.Idx → Elt F .f32)
    (rest : List (View.Piece (Elt F) S64x128 .f32)) :
    (b1W).view.writes (Elt F) g (⟨Rect.whole S64x128, P⟩ :: rest) = castP b1W d L P := writes_whole_eq (b1W) A.hb1W d L g P rest

theorem slot1_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b1W).view.loc (thr d L))) (P : S64x128.Idx → Elt F .f32) (rest : List (View.Piece (Elt F) S64x128 .f32))
    (hP : P = gp A d L Tb I hin G fiv off h) :
    (b1W).view.writes (Elt F) g (⟨Rect.whole S64x128, P⟩ :: rest) = castP b1W d L (gp A d L Tb I hin G fiv off h) := by
  subst hP; exact slot1_landed A d L g _ rest

theorem slot2_landed (d : Dev nD) (L : grid0.Coords) (g : Buf (Elt F) ((b2W).view.loc (thr d L))) (P : S64x128.Idx → Elt F .f32)
    (rest : List (View.Piece (Elt F) S64x128 .f32)) :
    (b2W).view.writes (Elt F) g (⟨Rect.whole S64x128, P⟩ :: rest) = castP b2W d L P := writes_whole_eq (b2W) A.hb2W d L g P rest

theorem slot2_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b2W).view.loc (thr d L))) (P : S64x128.Idx → Elt F .f32) (rest : List (View.Piece (Elt F) S64x128 .f32))
    (hP : P = gp A d L Tb I hin G fiv off h) :
    (b2W).view.writes (Elt F) g (⟨Rect.whole S64x128, P⟩ :: rest) = castP b2W d L (gp A d L Tb I hin G fiv off h) := by
  subst hP; exact slot2_landed A d L g _ rest

theorem slot3_landed (d : Dev nD) (L : grid0.Coords) (g : Buf (Elt F) ((b3W).view.loc (thr d L))) (P : S64x128.Idx → Elt F .f32)
    (rest : List (View.Piece (Elt F) S64x128 .f32)) :
    (b3W).view.writes (Elt F) g (⟨Rect.whole S64x128, P⟩ :: rest) = castP b3W d L P := writes_whole_eq (b3W) A.hb3W d L g P rest

theorem slot3_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b3W).view.loc (thr d L))) (P : S64x128.Idx → Elt F .f32) (rest : List (View.Piece (Elt F) S64x128 .f32))
    (hP : P = gp A d L Tb I hin G fiv off h) :
    (b3W).view.writes (Elt F) g (⟨Rect.whole S64x128, P⟩ :: rest) = castP b3W d L (gp A d L Tb I hin G fiv off h) := by
  subst hP; exact slot3_landed A d L g _ rest

theorem slot4_landed (d : Dev nD) (L : grid0.Coords) (g : Buf (Elt F) ((b4W).view.loc (thr d L))) (P : S64x128.Idx → Elt F .f32)
    (rest : List (View.Piece (Elt F) S64x128 .f32)) :
    (b4W).view.writes (Elt F) g (⟨Rect.whole S64x128, P⟩ :: rest) = castP b4W d L P := writes_whole_eq (b4W) A.hb4W d L g P rest

theorem slot4_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b4W).view.loc (thr d L))) (P : S64x128.Idx → Elt F .f32) (rest : List (View.Piece (Elt F) S64x128 .f32))
    (hP : P = gp A d L Tb I hin G fiv off h) :
    (b4W).view.writes (Elt F) g (⟨Rect.whole S64x128, P⟩ :: rest) = castP b4W d L (gp A d L Tb I hin G fiv off h) := by
  subst hP; exact slot4_landed A d L g _ rest

/-- What every trip boundary before the last holds: the three gathers in flight (list rows o0, o1, o2 into slots 0, 1, 2, each
    landing the table's rows its list names), the other two read tokens, the other two gather semaphores and the first three write
    semaphores at zero; and a tail. -/
def BndV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) (Tail : sProp 𝕄) : sProp 𝕄 :=
  iprop(GF A d L q Tb (ivC A d L I fiv) A.s0 b0W o0 p0 (castP b0W d L (gp A d L Tb I hin G fiv o0 p0))
    ∗ GF A d L q Tb (ivC A d L I fiv) A.s1 b1W o1 p1 (castP b1W d L (gp A d L Tb I hin G fiv o1 p1))
    ∗ GF A d L q Tb (ivC A d L I fiv) A.s2 b2W o2 p2 (castP b2W d L (gp A d L Tb I hin G fiv o2 p2))
    ∗ restOf d L tblW (tblS).view.set (tq q A.s0) Tb ∗ restOf d L tblW (tblS).view.set (tq q A.s1) Tb
    ∗ restOf d L tblW (tblS).view.set (tq q A.s2) Tb
    ∗ tok d L q Tb A.s3 ∗ tok d L q Tb A.s4
    ∗ restOf d L b0W (b0W).view.set fullShare (castP b0W d L (gp A d L Tb I hin G fiv o0 p0)) ∗ restOf d L b1W (b1W).view.set fullShare (castP b1W d L (gp A d L Tb I hin G fiv o1 p1))
    ∗ restOf d L b2W (b2W).view.set fullShare (castP b2W d L (gp A d L Tb I hin G fiv o2 p2))
    ∗ ivRest A d L I fiv o0 p0 o1 p1 o2 p2
    ∗ semVal (cellOf d L A.s3) 0 ∗ semVal (cellOf d L A.s4) 0
    ∗ semVal (cellOf d L A.s5) 0 ∗ semVal (cellOf d L A.s6) 0 ∗ semVal (cellOf d L A.s7) 0
    ∗ Tail)

/-- The tail before the first trip: slots 3 and 4 idle, nothing written. -/
def TailV0 (d : Dev nD) (L : grid0.Coords) (fo : Buf (Elt F) (outLoc A d L)) : sProp 𝕄 :=
  iprop((∃ f, (b3W).view.loc (thr d L) ↦{fullShare} f) ∗ (∃ f, (b4W).view.loc (thr d L) ↦{fullShare} f)
    ∗ semVal (cellOf d L A.s8) 0 ∗ semVal (cellOf d L A.s9) 0
    ∗ tripTodo A d L fo ⟨0, by decide⟩ ∗ tripTodo A d L fo ⟨1, by decide⟩ ∗ tripTodo A d L fo ⟨2, by decide⟩ ∗ tripTodo A d L fo ⟨3, by decide⟩
    ∗ tripTodo A d L fo ⟨4, by decide⟩)

/-- The tail before trip 1: trip 0's last two chunks being written out of slots 3 and 4, its first three and every earlier
    trip's five back holding the gathered rows, the later trips' not yet written. -/
def TailV1 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨0, by decide⟩ 3 G (castP b3W d L (gp A d L Tb I hin G fiv ![3, 0] (by decide))) ∗ restOf d L b3W (b3W).view.set fullShare (castP b3W d L (gp A d L Tb I hin G fiv ![3, 0] (by decide)))
    ∗ WF A d L A.s9 b4W ⟨0, by decide⟩ 4 G (castP b4W d L (gp A d L Tb I hin G fiv ![4, 0] (by decide))) ∗ restOf d L b4W (b4W).view.set fullShare (castP b4W d L (gp A d L Tb I hin G fiv ![4, 0] (by decide)))
    ∗ chunkAt A d L ⟨0, by decide⟩ 0 G ∗ chunkAt A d L ⟨0, by decide⟩ 1 G ∗ chunkAt A d L ⟨0, by decide⟩ 2 G
    ∗ tripTodo A d L fo ⟨1, by decide⟩
    ∗ tripTodo A d L fo ⟨2, by decide⟩
    ∗ tripTodo A d L fo ⟨3, by decide⟩
    ∗ tripTodo A d L fo ⟨4, by decide⟩)

/-- The tail before trip 2: trip 1's last two chunks being written out of slots 3 and 4, its first three and every earlier
    trip's five back holding the gathered rows, the later trips' not yet written. -/
def TailV2 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨1, by decide⟩ 3 G (castP b3W d L (gp A d L Tb I hin G fiv ![8, 0] (by decide))) ∗ restOf d L b3W (b3W).view.set fullShare (castP b3W d L (gp A d L Tb I hin G fiv ![8, 0] (by decide)))
    ∗ WF A d L A.s9 b4W ⟨1, by decide⟩ 4 G (castP b4W d L (gp A d L Tb I hin G fiv ![9, 0] (by decide))) ∗ restOf d L b4W (b4W).view.set fullShare (castP b4W d L (gp A d L Tb I hin G fiv ![9, 0] (by decide)))
    ∗ chunkAt A d L ⟨1, by decide⟩ 0 G ∗ chunkAt A d L ⟨1, by decide⟩ 1 G ∗ chunkAt A d L ⟨1, by decide⟩ 2 G
    ∗ tripTodo A d L G ⟨0, by decide⟩
    ∗ tripTodo A d L fo ⟨2, by decide⟩
    ∗ tripTodo A d L fo ⟨3, by decide⟩
    ∗ tripTodo A d L fo ⟨4, by decide⟩)

/-- The tail before trip 3: trip 2's last two chunks being written out of slots 3 and 4, its first three and every earlier
    trip's five back holding the gathered rows, the later trips' not yet written. -/
def TailV3 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨2, by decide⟩ 3 G (castP b3W d L (gp A d L Tb I hin G fiv ![13, 0] (by decide))) ∗ restOf d L b3W (b3W).view.set fullShare (castP b3W d L (gp A d L Tb I hin G fiv ![13, 0] (by decide)))
    ∗ WF A d L A.s9 b4W ⟨2, by decide⟩ 4 G (castP b4W d L (gp A d L Tb I hin G fiv ![14, 0] (by decide))) ∗ restOf d L b4W (b4W).view.set fullShare (castP b4W d L (gp A d L Tb I hin G fiv ![14, 0] (by decide)))
    ∗ chunkAt A d L ⟨2, by decide⟩ 0 G ∗ chunkAt A d L ⟨2, by decide⟩ 1 G ∗ chunkAt A d L ⟨2, by decide⟩ 2 G
    ∗ tripTodo A d L G ⟨0, by decide⟩
    ∗ tripTodo A d L G ⟨1, by decide⟩
    ∗ tripTodo A d L fo ⟨3, by decide⟩
    ∗ tripTodo A d L fo ⟨4, by decide⟩)

/-- The tail before trip 4: trip 3's last two chunks being written out of slots 3 and 4, its first three and every earlier
    trip's five back holding the gathered rows, the later trips' not yet written. -/
def TailV4 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨3, by decide⟩ 3 G (castP b3W d L (gp A d L Tb I hin G fiv ![18, 0] (by decide))) ∗ restOf d L b3W (b3W).view.set fullShare (castP b3W d L (gp A d L Tb I hin G fiv ![18, 0] (by decide)))
    ∗ WF A d L A.s9 b4W ⟨3, by decide⟩ 4 G (castP b4W d L (gp A d L Tb I hin G fiv ![19, 0] (by decide))) ∗ restOf d L b4W (b4W).view.set fullShare (castP b4W d L (gp A d L Tb I hin G fiv ![19, 0] (by decide)))
    ∗ chunkAt A d L ⟨3, by decide⟩ 0 G ∗ chunkAt A d L ⟨3, by decide⟩ 1 G ∗ chunkAt A d L ⟨3, by decide⟩ 2 G
    ∗ tripTodo A d L G ⟨0, by decide⟩
    ∗ tripTodo A d L G ⟨1, by decide⟩
    ∗ tripTodo A d L G ⟨2, by decide⟩
    ∗ tripTodo A d L fo ⟨4, by decide⟩)

/-- After the last trip: no gather in flight; the last trip's five chunks being written out of the five slots. -/
def B5V (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) : sProp 𝕄 :=
  iprop(tok d L q Tb A.s0 ∗ tok d L q Tb A.s1 ∗ tok d L q Tb A.s2 ∗ tok d L q Tb A.s3 ∗ tok d L q Tb A.s4
    ∗ semVal (cellOf d L A.s0) 0 ∗ semVal (cellOf d L A.s1) 0 ∗ semVal (cellOf d L A.s2) 0
    ∗ semVal (cellOf d L A.s3) 0 ∗ semVal (cellOf d L A.s4) 0
    ∗ WF A d L A.s5 b0W ⟨4, by decide⟩ 0 G (castP b0W d L (gp A d L Tb I hin G fiv ![20, 0] (by decide))) ∗ restOf d L b0W (b0W).view.set fullShare (castP b0W d L (gp A d L Tb I hin G fiv ![20, 0] (by decide)))
    ∗ WF A d L A.s6 b1W ⟨4, by decide⟩ 1 G (castP b1W d L (gp A d L Tb I hin G fiv ![21, 0] (by decide))) ∗ restOf d L b1W (b1W).view.set fullShare (castP b1W d L (gp A d L Tb I hin G fiv ![21, 0] (by decide)))
    ∗ WF A d L A.s7 b2W ⟨4, by decide⟩ 2 G (castP b2W d L (gp A d L Tb I hin G fiv ![22, 0] (by decide))) ∗ restOf d L b2W (b2W).view.set fullShare (castP b2W d L (gp A d L Tb I hin G fiv ![22, 0] (by decide)))
    ∗ WF A d L A.s8 b3W ⟨4, by decide⟩ 3 G (castP b3W d L (gp A d L Tb I hin G fiv ![23, 0] (by decide))) ∗ restOf d L b3W (b3W).view.set fullShare (castP b3W d L (gp A d L Tb I hin G fiv ![23, 0] (by decide)))
    ∗ WF A d L A.s9 b4W ⟨4, by decide⟩ 4 G (castP b4W d L (gp A d L Tb I hin G fiv ![24, 0] (by decide))) ∗ restOf d L b4W (b4W).view.set fullShare (castP b4W d L (gp A d L Tb I hin G fiv ![24, 0] (by decide)))
    ∗ ((ivW).view.loc (thr d L) ↦{fullShare} ivC A d L I fiv)
    ∗ tripTodo A d L G ⟨0, by decide⟩ ∗ tripTodo A d L G ⟨1, by decide⟩ ∗ tripTodo A d L G ⟨2, by decide⟩
    ∗ tripTodo A d L G ⟨3, by decide⟩)

/-- What a trip boundary holds, by the number of trips done. -/
def invBV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : ℕ → sProp 𝕄
  | 0 => BndV A d L q Tb I hin G fiv ![0, 0] (by decide) ![1, 0] (by decide) ![2, 0] (by decide) (TailV0 A d L fo)
  | 1 => BndV A d L q Tb I hin G fiv ![5, 0] (by decide) ![6, 0] (by decide) ![7, 0] (by decide) (TailV1 A d L Tb I hin G fiv fo)
  | 2 => BndV A d L q Tb I hin G fiv ![10, 0] (by decide) ![11, 0] (by decide) ![12, 0] (by decide) (TailV2 A d L Tb I hin G fiv fo)
  | 3 => BndV A d L q Tb I hin G fiv ![15, 0] (by decide) ![16, 0] (by decide) ![17, 0] (by decide) (TailV3 A d L Tb I hin G fiv fo)
  | 4 => BndV A d L q Tb I hin G fiv ![20, 0] (by decide) ![21, 0] (by decide) ![22, 0] (by decide) (TailV4 A d L Tb I hin G fiv fo)
  | 5 => B5V A d L q Tb I hin G fiv
  | _ + 6 => iprop(False)

/-- The loop's invariant: the waits admissible, what the task owes (its waits recorded), and the boundary's transfers in flight. -/
def invV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L))
    (O : CellTallies nD τ sig (HIx 4)) (W : Waits sig (HIx 4)) (k : ℕ) (_ : Unit) : sProp 𝕄 :=
  iprop(Transfers.MayWaits (thr d L) (none : HIx 4) O
    ∗ (∃ W', ⌜∀ p ∈ W', p ∈ W ∨ p.2 = none⌝ ∗ owes (thr d L) O W')
    ∗ invBV A d L q Tb I hin G fiv fo k)

set_option maxRecDepth 100000 in
set_option maxHeartbeats 0 in
/-- Trip 0 of the ring: from the boundary before it to the boundary after it, each chunk it writes out holding the gathered rows. -/
theorem tripV0 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 0 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 0 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨0, hk⟩ acc)
          (invV A d L q Tb I hin G fiv fo O W 1) := by
  have hc1 : k0_cond1 ⟨0, hk⟩ = 1#1 := by decide +revert
  have hc2 : ¬ k0_cond2 ⟨0, hk⟩ = 1#1 := by decide +revert
  have hc3 : k0_cond3 ⟨0, hk⟩ = 1#1 := by decide +revert
  have hc4 : ¬ k0_cond4 ⟨0, hk⟩ = 1#1 := by decide +revert
  have hc5 : k0_cond5 ⟨0, hk⟩ = 1#1 := by decide +revert
  have hc6 : k0_cond6 ⟨0, hk⟩ = 1#1 := by decide +revert
  have hc7 : k0_cond7 ⟨0, hk⟩ = 1#1 := by decide +revert
  have hc8 : k0_cond8 ⟨0, hk⟩ = 1#1 := by decide +revert
  have hc9 : k0_cond9 ⟨0, hk⟩ = 1#1 := by decide +revert
  have hc10 : k0_cond10 ⟨0, hk⟩ = 1#1 := by decide +revert
  unfold invV invBV BndV TailV0 TailV1
  iintro ⟨#Hmw, ⟨%W', %hW', HO⟩, Hg0, Hg1, Hg2, Ht0, Ht1, Ht2, Ht3, Ht4, Hb0, Hb1, Hb2, Hiv, Hs3, Hs4, Hw0, Hw1, Hw2,
    ⟨%f3, Hb3⟩, ⟨%f4, Hb4⟩, Hw3, Hw4, ⟨Ho0, Ho1, Ho2, Ho3, Ho4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨0, hk⟩ 0 ![0, 0] (by decide) (by show 5 * 0 + 0 < 25; decide) rfl rfl fo _ ?hq0)) $$ Ho0
  case hq0 => first | exact fun x => rfl | exact fun x => congrFun (View.read_writes_whole _ _ _) x
  ihave Ho1' := (Entails.of_eq (hG ⟨0, hk⟩ 1 ![1, 0] (by decide) (by show 5 * 0 + 1 < 25; decide) rfl rfl fo _ ?hq1)) $$ Ho1
  case hq1 => first | exact fun x => rfl | exact fun x => congrFun (View.read_writes_whole _ _ _) x
  ihave Ho2' := (Entails.of_eq (hG ⟨0, hk⟩ 2 ![2, 0] (by decide) (by show 5 * 0 + 2 < 25; decide) rfl rfl fo _ ?hq2)) $$ Ho2
  case hq2 => first | exact fun x => rfl | exact fun x => congrFun (View.read_writes_whole _ _ _) x
  rw [hG ⟨0, hk⟩ 3 ![3, 0] (by decide) (by show 5 * 0 + 3 < 25; decide) rfl rfl fo (hP := ?hp3)]
  case hp3 => first | exact fun x => rfl | exact fun x => congrFun (View.read_writes_whole _ _ _) x
  rw [hG ⟨0, hk⟩ 4 ![4, 0] (by decide) (by show 5 * 0 + 4 < 25; decide) rfl rfl fo (hP := ?hp4)]
  case hp4 => first | exact fun x => rfl | exact fun x => congrFun (View.read_writes_whole _ _ _) x
  rw [slot0_gp A d L Tb I hin G fiv ![5, 0] (by decide) (hP := ?hs0)]
  case hs0 => rfl
  rw [slot1_gp A d L Tb I hin G fiv ![6, 0] (by decide) (hP := ?hs1)]
  case hs1 => rfl
  rw [slot2_gp A d L Tb I hin G fiv ![7, 0] (by decide) (hP := ?hs2)]
  case hs2 => rfl
  rw [slot3_gp A d L Tb I hin G fiv ![3, 0] (by decide) (hP := ?hs3)]
  case hs3 => rfl
  rw [slot4_gp A d L Tb I hin G fiv ![4, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 1 of the ring: from the boundary before it to the boundary after it, each chunk it writes out holding the gathered rows. -/
theorem tripV1 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 1 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 1 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨1, hk⟩ acc)
          (invV A d L q Tb I hin G fiv fo O W 2) := by
  have hc1 : k0_cond1 ⟨1, hk⟩ = 1#1 := by decide +revert
  have hc2 : k0_cond2 ⟨1, hk⟩ = 1#1 := by decide +revert
  have hc3 : k0_cond3 ⟨1, hk⟩ = 1#1 := by decide +revert
  have hc4 : k0_cond4 ⟨1, hk⟩ = 1#1 := by decide +revert
  have hc5 : k0_cond5 ⟨1, hk⟩ = 1#1 := by decide +revert
  have hc6 : k0_cond6 ⟨1, hk⟩ = 1#1 := by decide +revert
  have hc7 : k0_cond7 ⟨1, hk⟩ = 1#1 := by decide +revert
  have hc8 : k0_cond8 ⟨1, hk⟩ = 1#1 := by decide +revert
  have hc9 : k0_cond9 ⟨1, hk⟩ = 1#1 := by decide +revert
  have hc10 : k0_cond10 ⟨1, hk⟩ = 1#1 := by decide +revert
  unfold invV invBV BndV TailV1 TailV2
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2, ⟨Ho0, Ho1, Ho2, Ho3, Ho4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨1, hk⟩ 0 ![5, 0] (by decide) (by show 5 * 1 + 0 < 25; decide) rfl rfl fo _ ?hq0)) $$ Ho0
  case hq0 => first | exact fun x => rfl | exact fun x => congrFun (View.read_writes_whole _ _ _) x
  ihave Ho1' := (Entails.of_eq (hG ⟨1, hk⟩ 1 ![6, 0] (by decide) (by show 5 * 1 + 1 < 25; decide) rfl rfl fo _ ?hq1)) $$ Ho1
  case hq1 => first | exact fun x => rfl | exact fun x => congrFun (View.read_writes_whole _ _ _) x
  ihave Ho2' := (Entails.of_eq (hG ⟨1, hk⟩ 2 ![7, 0] (by decide) (by show 5 * 1 + 2 < 25; decide) rfl rfl fo _ ?hq2)) $$ Ho2
  case hq2 => first | exact fun x => rfl | exact fun x => congrFun (View.read_writes_whole _ _ _) x
  rw [hG ⟨1, hk⟩ 3 ![8, 0] (by decide) (by show 5 * 1 + 3 < 25; decide) rfl rfl fo (hP := ?hp3)]
  case hp3 => first | exact fun x => rfl | exact fun x => congrFun (View.read_writes_whole _ _ _) x
  rw [hG ⟨1, hk⟩ 4 ![9, 0] (by decide) (by show 5 * 1 + 4 < 25; decide) rfl rfl fo (hP := ?hp4)]
  case hp4 => first | exact fun x => rfl | exact fun x => congrFun (View.read_writes_whole _ _ _) x
  rw [slot0_gp A d L Tb I hin G fiv ![10, 0] (by decide) (hP := ?hs0)]
  case hs0 => rfl
  rw [slot1_gp A d L Tb I hin G fiv ![11, 0] (by decide) (hP := ?hs1)]
  case hs1 => rfl
  rw [slot2_gp A d L Tb I hin G fiv ![12, 0] (by decide) (hP := ?hs2)]
  case hs2 => rfl
  rw [slot3_gp A d L Tb I hin G fiv ![8, 0] (by decide) (hP := ?hs3)]
  case hs3 => rfl
  rw [slot4_gp A d L Tb I hin G fiv ![9, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 2 of the ring: from the boundary before it to the boundary after it, each chunk it writes out holding the gathered rows. -/
theorem tripV2 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 2 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 2 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨2, hk⟩ acc)
          (invV A d L q Tb I hin G fiv fo O W 3) := by
  have hc1 : k0_cond1 ⟨2, hk⟩ = 1#1 := by decide +revert
  have hc2 : k0_cond2 ⟨2, hk⟩ = 1#1 := by decide +revert
  have hc3 : k0_cond3 ⟨2, hk⟩ = 1#1 := by decide +revert
  have hc4 : k0_cond4 ⟨2, hk⟩ = 1#1 := by decide +revert
  have hc5 : k0_cond5 ⟨2, hk⟩ = 1#1 := by decide +revert
  have hc6 : k0_cond6 ⟨2, hk⟩ = 1#1 := by decide +revert
  have hc7 : k0_cond7 ⟨2, hk⟩ = 1#1 := by decide +revert
  have hc8 : k0_cond8 ⟨2, hk⟩ = 1#1 := by decide +revert
  have hc9 : k0_cond9 ⟨2, hk⟩ = 1#1 := by decide +revert
  have hc10 : k0_cond10 ⟨2, hk⟩ = 1#1 := by decide +revert
  unfold invV invBV BndV TailV2 TailV3
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩, ⟨Ho0, Ho1, Ho2, Ho3, Ho4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨2, hk⟩ 0 ![10, 0] (by decide) (by show 5 * 2 + 0 < 25; decide) rfl rfl fo _ ?hq0)) $$ Ho0
  case hq0 => first | exact fun x => rfl | exact fun x => congrFun (View.read_writes_whole _ _ _) x
  ihave Ho1' := (Entails.of_eq (hG ⟨2, hk⟩ 1 ![11, 0] (by decide) (by show 5 * 2 + 1 < 25; decide) rfl rfl fo _ ?hq1)) $$ Ho1
  case hq1 => first | exact fun x => rfl | exact fun x => congrFun (View.read_writes_whole _ _ _) x
  ihave Ho2' := (Entails.of_eq (hG ⟨2, hk⟩ 2 ![12, 0] (by decide) (by show 5 * 2 + 2 < 25; decide) rfl rfl fo _ ?hq2)) $$ Ho2
  case hq2 => first | exact fun x => rfl | exact fun x => congrFun (View.read_writes_whole _ _ _) x
  rw [hG ⟨2, hk⟩ 3 ![13, 0] (by decide) (by show 5 * 2 + 3 < 25; decide) rfl rfl fo (hP := ?hp3)]
  case hp3 => first | exact fun x => rfl | exact fun x => congrFun (View.read_writes_whole _ _ _) x
  rw [hG ⟨2, hk⟩ 4 ![14, 0] (by decide) (by show 5 * 2 + 4 < 25; decide) rfl rfl fo (hP := ?hp4)]
  case hp4 => first | exact fun x => rfl | exact fun x => congrFun (View.read_writes_whole _ _ _) x
  rw [slot0_gp A d L Tb I hin G fiv ![15, 0] (by decide) (hP := ?hs0)]
  case hs0 => rfl
  rw [slot1_gp A d L Tb I hin G fiv ![16, 0] (by decide) (hP := ?hs1)]
  case hs1 => rfl
  rw [slot2_gp A d L Tb I hin G fiv ![17, 0] (by decide) (hP := ?hs2)]
  case hs2 => rfl
  rw [slot3_gp A d L Tb I hin G fiv ![13, 0] (by decide) (hP := ?hs3)]
  case hs3 => rfl
  rw [slot4_gp A d L Tb I hin G fiv ![14, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 3 of the ring: from the boundary before it to the boundary after it, each chunk it writes out holding the gathered rows. -/
theorem tripV3 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 3 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 3 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨3, hk⟩ acc)
          (invV A d L q Tb I hin G fiv fo O W 4) := by
  have hc1 : k0_cond1 ⟨3, hk⟩ = 1#1 := by decide +revert
  have hc2 : k0_cond2 ⟨3, hk⟩ = 1#1 := by decide +revert
  have hc3 : k0_cond3 ⟨3, hk⟩ = 1#1 := by decide +revert
  have hc4 : k0_cond4 ⟨3, hk⟩ = 1#1 := by decide +revert
  have hc5 : k0_cond5 ⟨3, hk⟩ = 1#1 := by decide +revert
  have hc6 : k0_cond6 ⟨3, hk⟩ = 1#1 := by decide +revert
  have hc7 : k0_cond7 ⟨3, hk⟩ = 1#1 := by decide +revert
  have hc8 : k0_cond8 ⟨3, hk⟩ = 1#1 := by decide +revert
  have hc9 : k0_cond9 ⟨3, hk⟩ = 1#1 := by decide +revert
  have hc10 : k0_cond10 ⟨3, hk⟩ = 1#1 := by decide +revert
  unfold invV invBV BndV TailV3 TailV4
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩,
    ⟨Hdn1_0, Hdn1_1, Hdn1_2, Hdn1_3, Hdn1_4⟩, ⟨Ho0, Ho1, Ho2, Ho3, Ho4⟩, ⟨Hn4_0, Hn4_1, Hn4_2, Hn4_3, Hn4_4⟩⟩
  sl_unfold [k0_t1_body]
  sl_exec
  ihave Ho0' := (Entails.of_eq (hG ⟨3, hk⟩ 0 ![15, 0] (by decide) (by show 5 * 3 + 0 < 25; decide) rfl rfl fo _ ?hq0)) $$ Ho0
  case hq0 => first | exact fun x => rfl | exact fun x => congrFun (View.read_writes_whole _ _ _) x
  ihave Ho1' := (Entails.of_eq (hG ⟨3, hk⟩ 1 ![16, 0] (by decide) (by show 5 * 3 + 1 < 25; decide) rfl rfl fo _ ?hq1)) $$ Ho1
  case hq1 => first | exact fun x => rfl | exact fun x => congrFun (View.read_writes_whole _ _ _) x
  ihave Ho2' := (Entails.of_eq (hG ⟨3, hk⟩ 2 ![17, 0] (by decide) (by show 5 * 3 + 2 < 25; decide) rfl rfl fo _ ?hq2)) $$ Ho2
  case hq2 => first | exact fun x => rfl | exact fun x => congrFun (View.read_writes_whole _ _ _) x
  rw [hG ⟨3, hk⟩ 3 ![18, 0] (by decide) (by show 5 * 3 + 3 < 25; decide) rfl rfl fo (hP := ?hp3)]
  case hp3 => first | exact fun x => rfl | exact fun x => congrFun (View.read_writes_whole _ _ _) x
  rw [hG ⟨3, hk⟩ 4 ![19, 0] (by decide) (by show 5 * 3 + 4 < 25; decide) rfl rfl fo (hP := ?hp4)]
  case hp4 => first | exact fun x => rfl | exact fun x => congrFun (View.read_writes_whole _ _ _) x
  rw [slot0_gp A d L Tb I hin G fiv ![20, 0] (by decide) (hP := ?hs0)]
  case hs0 => rfl
  rw [slot1_gp A d L Tb I hin G fiv ![21, 0] (by decide) (hP := ?hs1)]
  case hs1 => rfl
  rw [slot2_gp A d L Tb I hin G fiv ![22, 0] (by decide) (hP := ?hs2)]
  case hs2 => rfl
  rw [slot3_gp A d L Tb I hin G fiv ![18, 0] (by decide) (hP := ?hs3)]
  case hs3 => rfl
  rw [slot4_gp A d L Tb I hin G fiv ![19, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 4 of the ring: from the boundary before it to the boundary after it, each chunk it writes out holding the gathered rows. -/
theorem tripV4 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 4 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 4 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨4, hk⟩ acc)
          (invV A d L q Tb I hin G fiv fo O W 5) := by
  have hc1 : k0_cond1 ⟨4, hk⟩ = 1#1 := by decide +revert
  have hc2 : k0_cond2 ⟨4, hk⟩ = 1#1 := by decide +revert
  have hc3 : k0_cond3 ⟨4, hk⟩ = 1#1 := by decide +revert
  have hc4 : k0_cond4 ⟨4, hk⟩ = 1#1 := by decide +revert
  have hc5 : ¬ k0_cond5 ⟨4, hk⟩ = 1#1 := by decide +revert
  have hc6 : k0_cond6 ⟨4, hk⟩ = 1#1 := by decide +revert
  have hc7 : ¬ k0_cond7 ⟨4, hk⟩ = 1#1 := by decide +revert
  have hc8 : k0_cond8 ⟨4, hk⟩ = 1#1 := by decide +revert
  have hc9 : ¬ k0_cond9 ⟨4, hk⟩ = 1#1 := by decide +revert
  have hc10 : k0_cond10 ⟨4, hk⟩ = 1#1 := by decide +revert
  unfold invV invBV BndV TailV4 B5V
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩,
    ⟨Hdn1_0, Hdn1_1, Hdn1_2, Hdn1_3, Hdn1_4⟩,
    ⟨Hdn2_0, Hdn2_1, Hdn2_2, Hdn2_3, Hdn2_4⟩, ⟨Ho0, Ho1, Ho2, Ho3, Ho4⟩⟩
  sl_unfold [k0_t1_body]
  sl_exec
  rw [hG ⟨4, hk⟩ 0 ![20, 0] (by decide) (by show 5 * 4 + 0 < 25; decide) rfl rfl fo (hP := ?hp0)]
  case hp0 => first | exact fun x => rfl | exact fun x => congrFun (View.read_writes_whole _ _ _) x
  rw [hG ⟨4, hk⟩ 1 ![21, 0] (by decide) (by show 5 * 4 + 1 < 25; decide) rfl rfl fo (hP := ?hp1)]
  case hp1 => first | exact fun x => rfl | exact fun x => congrFun (View.read_writes_whole _ _ _) x
  rw [hG ⟨4, hk⟩ 2 ![22, 0] (by decide) (by show 5 * 4 + 2 < 25; decide) rfl rfl fo (hP := ?hp2)]
  case hp2 => first | exact fun x => rfl | exact fun x => congrFun (View.read_writes_whole _ _ _) x
  rw [hG ⟨4, hk⟩ 3 ![23, 0] (by decide) (by show 5 * 4 + 3 < 25; decide) rfl rfl fo (hP := ?hp3)]
  case hp3 => first | exact fun x => rfl | exact fun x => congrFun (View.read_writes_whole _ _ _) x
  rw [hG ⟨4, hk⟩ 4 ![24, 0] (by decide) (by show 5 * 4 + 4 < 25; decide) rfl rfl fo (hP := ?hp4)]
  case hp4 => first | exact fun x => rfl | exact fun x => congrFun (View.read_writes_whole _ _ _) x
  rw [slot3_gp A d L Tb I hin G fiv ![23, 0] (by decide) (hP := ?hs3)]
  case hs3 => rfl
  rw [slot4_gp A d L Tb I hin G fiv ![24, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

end Cert.Proof.KI.TileCore
end
-- ==== Proof.TileCoreVal.lean ====
/-
  The row gather's task on one vector subcore, for any call: its run with the values it moves, over the call's arguments as
  variables. From the peeled resources — the waits admissible and what the task owes, the table's five read tokens, the
  eleven semaphores at zero, the six scratch buffers, the task's block of the index array and its twenty-five output chunks
  — the task runs to its end and hands them all back, every chunk holding the target contents `G`. That a chunk written
  whole with what its own row of ids gathered holds `G`, and that every word of the index scratch names a table row, are
  hypotheses: the per-call wrapper supplies them over the specific arrays, peels the resources out of the subcore's scoped
  buffers and semaphores, and splits and joins the output rows.
-/
import proofs.«203556_g1357209665813_cont_week2b_798_48_alg».proof.Proof.TileCoreValBase

noncomputable section

namespace Cert.Proof.KI.TileCore

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (A : Args)

local notation "𝕄" => MT nD τ sig (HIx 4) (Elt F) ℕ UU ℕ
local notation "tblW" => (Memref.whole Cert.KernelIdeal.main_arg2_scv : Memref Cert.KernelIdeal.sig Kind.scVector Space.hbm Cert.KernelIdeal.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

/-- The task's block of the index array, held by its own elements. -/
def idxBlockV (d : Dev nD) (L : grid0.Coords) (I : Buf (Elt F) (idxLoc A d L)) : sProp 𝕄 :=
  (idxRow A L).view.loc (thr d L) ↦[(idxRow A L).view.set]{fullShare} I

variable [FloatOps F]

set_option maxRecDepth 100000 in
set_option maxHeartbeats 0 in
/-- The task's run over the peeled resources, every chunk ending at `G`. -/
theorem coreV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (O : CellTallies nD τ sig (HIx 4)) (W : Waits sig (HIx 4))
    (fiv : Buf (Elt F) ((ivW).view.loc (thr d L))) (f0 : Buf (Elt F) ((b0W).view.loc (thr d L))) (f1 : Buf (Elt F) ((b1W).view.loc (thr d L)))
    (f2 : Buf (Elt F) ((b2W).view.loc (thr d L))) (f3 : Buf (Elt F) ((b3W).view.loc (thr d L))) (f4 : Buf (Elt F) ((b4W).view.loc (thr d L)))
    (fo : Buf (Elt F) (outLoc A d L))
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    iprop(Transfers.MayWaits (thr d L) (none : HIx 4) O
        ∗ owes (thr d L) O W
        ∗ (tok d L q Tb A.s0 ∗ tok d L q Tb A.s1 ∗ tok d L q Tb A.s2 ∗ tok d L q Tb A.s3 ∗ tok d L q Tb A.s4)
        ∗ (semVal (cellOf d L A.s0) 0 ∗ semVal (cellOf d L A.s1) 0 ∗ semVal (cellOf d L A.s2) 0 ∗ semVal (cellOf d L A.s3) 0 ∗ semVal (cellOf d L A.s4) 0 ∗ semVal (cellOf d L A.s5) 0 ∗ semVal (cellOf d L A.s6) 0 ∗ semVal (cellOf d L A.s7) 0 ∗ semVal (cellOf d L A.s8) 0 ∗ semVal (cellOf d L A.s9) 0 ∗ semVal (cellOf d L A.s10) 0)
        ∗ (((ivW).view.loc (thr d L) ↦{fullShare} fiv) ∗ ((b0W).view.loc (thr d L) ↦{fullShare} f0) ∗ ((b1W).view.loc (thr d L) ↦{fullShare} f1)
          ∗ ((b2W).view.loc (thr d L) ↦{fullShare} f2) ∗ ((b3W).view.loc (thr d L) ↦{fullShare} f3) ∗ ((b4W).view.loc (thr d L) ↦{fullShare} f4))
        ∗ idxBlockV A d L I
        ∗ (tripTodo A d L fo ⟨0, by decide⟩ ∗ tripTodo A d L fo ⟨1, by decide⟩ ∗ tripTodo A d L fo ⟨2, by decide⟩
          ∗ tripTodo A d L fo ⟨3, by decide⟩ ∗ tripTodo A d L fo ⟨4, by decide⟩))
      ⊢ wp frame (wpE (defs₀ (F := F)) 𝒱₀ (thr d L) none) Set.univ
          (cc0_gather_rows L tblW (Memref.isWhole_whole _) idxW A.hidxW outW A.houtW
            ivW A.hivW b0W A.hb0W b1W A.hb1W b2W A.hb2W b3W A.hb3W b4W A.hb4W
            A.s0 A.s1 A.s2 A.s3 A.s4 A.s5 A.s6 A.s7 A.s8 A.s9 A.s10)
          fun _ => iprop((tok d L q Tb A.s0 ∗ tok d L q Tb A.s1 ∗ tok d L q Tb A.s2 ∗ tok d L q Tb A.s3 ∗ tok d L q Tb A.s4)
            ∗ (semVal (cellOf d L A.s0) 0 ∗ semVal (cellOf d L A.s1) 0 ∗ semVal (cellOf d L A.s2) 0 ∗ semVal (cellOf d L A.s3) 0 ∗ semVal (cellOf d L A.s4) 0 ∗ semVal (cellOf d L A.s5) 0 ∗ semVal (cellOf d L A.s6) 0 ∗ semVal (cellOf d L A.s7) 0 ∗ semVal (cellOf d L A.s8) 0 ∗ semVal (cellOf d L A.s9) 0 ∗ semVal (cellOf d L A.s10) 0)
            ∗ ((∃ f, (ivW).view.loc (thr d L) ↦{fullShare} f) ∗ (∃ f, (b0W).view.loc (thr d L) ↦{fullShare} f) ∗ (∃ f, (b1W).view.loc (thr d L) ↦{fullShare} f)
              ∗ (∃ f, (b2W).view.loc (thr d L) ↦{fullShare} f) ∗ (∃ f, (b3W).view.loc (thr d L) ↦{fullShare} f) ∗ (∃ f, (b4W).view.loc (thr d L) ↦{fullShare} f))
            ∗ idxBlockV A d L I
            ∗ (tripTodo A d L G ⟨0, by decide⟩ ∗ tripTodo A d L G ⟨1, by decide⟩ ∗ tripTodo A d L G ⟨2, by decide⟩
              ∗ tripTodo A d L G ⟨3, by decide⟩ ∗ tripTodo A d L G ⟨4, by decide⟩)
            ∗ ∃ W', ⌜∀ p ∈ W', p ∈ W ∨ p.2 = none⌝ ∗ owes (thr d L) O W') := by
  simp only [cc0_gather_rows_eq_skeleton]; unfold cc0_gather_rows_skel
  simp only [k0_part3_eq_skeleton]; unfold k0_part3_skel
  simp only [bind_assoc, pure_bind]
  unfold idxBlockV
  iintro ⟨#Hmw, HO, ⟨Ht0, Ht1, Ht2, Ht3, Ht4⟩, ⟨Hg0, Hg1, Hg2, Hg3, Hg4, Hw0, Hw1, Hw2, Hw3, Hw4, Hsc⟩, ⟨Hiv', Hb0', Hb1', Hb2', Hb3', Hb4'⟩, Hi',
    ⟨Hn0_0, Hn0_1, Hn0_2, Hn0_3, Hn0_4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_exec
  rw [writes_whole_eq (b0W) A.hb0W, writes_whole_eq (b1W) A.hb1W, writes_whole_eq (b2W) A.hb2W]
  sl_for (invV A d L q Tb I hin G fiv fo O W) $$ [Hmw Ht0 Ht1 Ht2 Ht3 Ht4 Hg0 Hg1 Hg2 Hg3 Hg4 Hw0 Hw1 Hw2 Hw3 Hw4 Hb0' Hb1' Hb2' Hb3' Hb4' Hiv' HO Hn0_0 Hn0_1 Hn0_2 Hn0_3 Hn0_4 Hn1_0 Hn1_1 Hn1_2 Hn1_3 Hn1_4 Hn2_0 Hn2_1 Hn2_2 Hn2_3 Hn2_4 Hn3_0 Hn3_1 Hn3_2 Hn3_3 Hn3_4 Hn4_0 Hn4_1 Hn4_2 Hn4_3 Hn4_4]
  case region =>
    intro k acc
    obtain ⟨n, hn⟩ := k
    have hn5 : n < 5 := lt_of_lt_of_eq hn trips_eq
    interval_cases n
    · rw [show ((⟨0, hn⟩ : Fin (Scf.trips k0_t1_loop.lb k0_t1_loop.ub k0_t1_loop.st)) : ℕ) = 0 from rfl]
      unfold coreV.sl.prog.body_1
      have h := tripV0 A d L q Tb I hin G O W fiv fo (Scalar.muli (Scalar.addi (Scalar.muli (BitVec.ofNat 32 ↑(L 1)) 2#32) (BitVec.ofNat 32 ↑(L 0))) 1600#32) hn acc hG
      exact h
    · rw [show ((⟨1, hn⟩ : Fin (Scf.trips k0_t1_loop.lb k0_t1_loop.ub k0_t1_loop.st)) : ℕ) = 1 from rfl]
      unfold coreV.sl.prog.body_1
      have h := tripV1 A d L q Tb I hin G O W fiv fo (Scalar.muli (Scalar.addi (Scalar.muli (BitVec.ofNat 32 ↑(L 1)) 2#32) (BitVec.ofNat 32 ↑(L 0))) 1600#32) hn acc hG
      exact h
    · rw [show ((⟨2, hn⟩ : Fin (Scf.trips k0_t1_loop.lb k0_t1_loop.ub k0_t1_loop.st)) : ℕ) = 2 from rfl]
      unfold coreV.sl.prog.body_1
      have h := tripV2 A d L q Tb I hin G O W fiv fo (Scalar.muli (Scalar.addi (Scalar.muli (BitVec.ofNat 32 ↑(L 1)) 2#32) (BitVec.ofNat 32 ↑(L 0))) 1600#32) hn acc hG
      exact h
    · rw [show ((⟨3, hn⟩ : Fin (Scf.trips k0_t1_loop.lb k0_t1_loop.ub k0_t1_loop.st)) : ℕ) = 3 from rfl]
      unfold coreV.sl.prog.body_1
      have h := tripV3 A d L q Tb I hin G O W fiv fo (Scalar.muli (Scalar.addi (Scalar.muli (BitVec.ofNat 32 ↑(L 1)) 2#32) (BitVec.ofNat 32 ↑(L 0))) 1600#32) hn acc hG
      exact h
    · rw [show ((⟨4, hn⟩ : Fin (Scf.trips k0_t1_loop.lb k0_t1_loop.ub k0_t1_loop.st)) : ℕ) = 4 from rfl]
      unfold coreV.sl.prog.body_1
      have h := tripV4 A d L q Tb I hin G O W fiv fo (Scalar.muli (Scalar.addi (Scalar.muli (BitVec.ofNat 32 ↑(L 1)) 2#32) (BitVec.ofNat 32 ↑(L 0))) 1600#32) hn acc hG
      exact h
  · unfold invV invBV BndV TailV0
    isplitr; · iexact Hmw
    isplitl [HO]
    · iexists _; isplitr
      rotate_left
      · iexact HO
      · ipureintro; repeat (first | exact (fun p hp => Or.inl hp) | apply waits_ins)
    sl_close
  rw [show Scf.trips k0_t1_loop.lb k0_t1_loop.ub k0_t1_loop.st = 5 from trips_eq]
  iintro %_ HI
  unfold invV invBV B5V
  icases HI with ⟨-, ⟨%W', %hW', HO⟩, Ht0, Ht1, Ht2, Ht3, Ht4, Hg0, Hg1, Hg2, Hg3, Hg4, Hw0, Hb0, Hw1, Hb1, Hw2, Hb2, Hw3, Hb3, Hw4, Hb4,
    Hiv, Hdn0, Hdn1, Hdn2, Hdn3⟩
  sl_exec
  sl_step
  isplitl [Ht0 Ht1 Ht2 Ht3 Ht4]
  · isplitl [Ht0]; · iexact Ht0
    isplitl [Ht1]; · iexact Ht1
    isplitl [Ht2]; · iexact Ht2
    isplitl [Ht3]; · iexact Ht3
    iexact Ht4
  isplitl [Hg0 Hg1 Hg2 Hg3 Hg4 Hw0 Hw1 Hw2 Hw3 Hw4 Hsc]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hsc
  isplitl [Hiv Hb0 Hb1 Hb2 Hb3 Hb4]
  · isplitl [Hiv]; · iexists _; iexact Hiv
    isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hi']; · iexact Hi'
  isplitl [Hdn0 Hdn1 Hdn2 Hdn3 Hw0_dst Hw1_dst Hw2_dst Hw3_dst Hw4_dst]
  · isplitl [Hdn0]; · iexact Hdn0
    isplitl [Hdn1]; · iexact Hdn1
    isplitl [Hdn2]; · iexact Hdn2
    isplitl [Hdn3]; · iexact Hdn3
    isplitl [Hw0_dst]; · iexact Hw0_dst
    isplitl [Hw1_dst]; · iexact Hw1_dst
    isplitl [Hw2_dst]; · iexact Hw2_dst
    isplitl [Hw3_dst]; · iexact Hw3_dst
    iexact Hw4_dst
  iexists _; isplitr
  rotate_left
  · iexact HO
  · ipureintro; repeat (first | exact hW' | apply waits_ins)

end Cert.Proof.KI.TileCore
end
-- ==== Proof.Tile0ValWrap.lean ====
/-
  The row gather's task on one vector subcore, call 0: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.Tile0Base
import proofs.«203556_g1357209665813_cont_week2b_798_48_alg».proof.Proof.Tile0ValLemmas
import proofs.«203556_g1357209665813_cont_week2b_798_48_alg».proof.Proof.TileCoreVal

noncomputable section

namespace Cert.Proof.KI.Tile0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v3_scv : Memref Cert.KernelIdeal.sig Kind.scVector Space.hbm Cert.KernelIdeal.S32x25x64 EltTy.i32)
local notation "outW" => (Memref.whole Cert.KernelIdeal.main_v4_scv : Memref Cert.KernelIdeal.sig Kind.scVector Space.hbm Cert.KernelIdeal.S51200x128 EltTy.f32)
local notation "ivW" => (Memref.whole Cert.KernelIdeal.cc0_scratch0 : Memref Cert.KernelIdeal.sig Kind.scVector Space.vmem Cert.KernelIdeal.S25x64 EltTy.i32)
local notation "b0W" => (Memref.whole Cert.KernelIdeal.cc0_scratch1 : Memref Cert.KernelIdeal.sig Kind.scVector Space.vmem Cert.KernelIdeal.S64x128 EltTy.f32)
local notation "b1W" => (Memref.whole Cert.KernelIdeal.cc0_scratch2 : Memref Cert.KernelIdeal.sig Kind.scVector Space.vmem Cert.KernelIdeal.S64x128 EltTy.f32)
local notation "b2W" => (Memref.whole Cert.KernelIdeal.cc0_scratch3 : Memref Cert.KernelIdeal.sig Kind.scVector Space.vmem Cert.KernelIdeal.S64x128 EltTy.f32)
local notation "b3W" => (Memref.whole Cert.KernelIdeal.cc0_scratch4 : Memref Cert.KernelIdeal.sig Kind.scVector Space.vmem Cert.KernelIdeal.S64x128 EltTy.f32)
local notation "b4W" => (Memref.whole Cert.KernelIdeal.cc0_scratch5 : Memref Cert.KernelIdeal.sig Kind.scVector Space.vmem Cert.KernelIdeal.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc0_scratch6, cc0_scratch7, cc0_scratch8, cc0_scratch9, cc0_scratch10, cc0_scratch11, cc0_scratch12, cc0_scratch13,
    cc0_scratch14, cc0_scratch15, cc0_scoped0⟩

/-! ## The contents a gather lands, over call 0's arrays -/

/-- What the gather whose list is the row of the index scratch at off lands in a slot: row j is the table's row the list's word j names. -/
def gp (d : Dev nD) (L : grid0.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid0.Coords) (Tb : Buf (Elt F) (tblLoc d)) (I : Buf (Elt F) (idxLoc d)) (hI : ∀ j ∈ idxSet L, (I j).toNat < 100000)
    (fiv : Buf (Elt F) ((ivW).view.loc (thr d L))) (t : Fin k0_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 0. -/
theorem tile_body_val (hF : (K (F := F)).Facts) (d : Dev nD) (L : grid0.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc0_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KI.Tile0
end
-- ==== Proof.Tile0Frame.lean ====
/-
  The row gather's task on one vector subcore, call 0, as a frame: the valued statement with the output rows'
  contents forgotten.
-/
import proofs.«203556_g1357209665813_cont_week2b_798_48_alg».proof.Proof.Tile0ValWrap

noncomputable section

namespace Cert.Proof.KI.Tile0

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v3_scv : Memref Cert.KernelIdeal.sig Kind.scVector Space.hbm Cert.KernelIdeal.S32x25x64 EltTy.i32)
local notation "outW" => (Memref.whole Cert.KernelIdeal.main_v4_scv : Memref Cert.KernelIdeal.sig Kind.scVector Space.hbm Cert.KernelIdeal.S51200x128 EltTy.f32)
local notation "ivW" => (Memref.whole Cert.KernelIdeal.cc0_scratch0 : Memref Cert.KernelIdeal.sig Kind.scVector Space.vmem Cert.KernelIdeal.S25x64 EltTy.i32)
local notation "b0W" => (Memref.whole Cert.KernelIdeal.cc0_scratch1 : Memref Cert.KernelIdeal.sig Kind.scVector Space.vmem Cert.KernelIdeal.S64x128 EltTy.f32)
local notation "b1W" => (Memref.whole Cert.KernelIdeal.cc0_scratch2 : Memref Cert.KernelIdeal.sig Kind.scVector Space.vmem Cert.KernelIdeal.S64x128 EltTy.f32)
local notation "b2W" => (Memref.whole Cert.KernelIdeal.cc0_scratch3 : Memref Cert.KernelIdeal.sig Kind.scVector Space.vmem Cert.KernelIdeal.S64x128 EltTy.f32)
local notation "b3W" => (Memref.whole Cert.KernelIdeal.cc0_scratch4 : Memref Cert.KernelIdeal.sig Kind.scVector Space.vmem Cert.KernelIdeal.S64x128 EltTy.f32)
local notation "b4W" => (Memref.whole Cert.KernelIdeal.cc0_scratch5 : Memref Cert.KernelIdeal.sig Kind.scVector Space.vmem Cert.KernelIdeal.S64x128 EltTy.f32)

variable [FloatOps F]

/-- The task's frame: what the valued theorem says, the rows the task wrote at contents not named. -/
theorem tile_body (hF : (K (F := F)).Facts) (d : Dev nD) (L : grid0.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc0_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KI.Tile0

end
-- ==== Proof.TileOblBase0.lean ====
/-
  Shared by the two forms of SparseCore call 0's tile obligation: the call's number and label, the body table's row
  on a vector subcore as the gather kernel at its place, and the weakening of the recorded-waits bound the launch
  theorem's obligation allows.
-/
import proofs.«203556_g1357209665813_cont_week2b_798_48_alg».proof.Proof.Call0

noncomputable section

namespace Cert.Proof.KI.Tile0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 0
abbrev labC : Λ₀.Label := 0

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore0 hsub0 (fun c s => cc0_gather_rows (place (c, s))
          (Memref.whole main_arg2_scv) (Memref.isWhole_whole _) (Memref.whole main_v3_scv) (Memref.isWhole_whole _) (Memref.whole main_v4_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

end Cert.Proof.KI.Tile0

end
-- ==== Proof.TileObl0.lean ====
/-
  The launch theorem's obligation for SparseCore call 0: the task's frame, wrapped as the body table's row;
  the handshake's payloads are the task's holdings.
-/
import proofs.«203556_g1357209665813_cont_week2b_798_48_alg».proof.Proof.Tile0Frame
import proofs.«203556_g1357209665813_cont_week2b_798_48_alg».proof.Proof.TileOblBase0

noncomputable section

namespace Cert.Proof.KI.Tile0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid0.bound 0 ∧ ((K (F := F)).sub qC i).val < grid0.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile0

end
-- ==== Proof.Tile1Base.lean ====
/-
  The row gather's task on one vector subcore, call 1: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.Tile1Sets

noncomputable section

namespace Cert.Proof.KI.Tile1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v6_scv : Memref Cert.KernelIdeal.sig Kind.scVector Space.hbm Cert.KernelIdeal.S32x25x64 EltTy.i32)
local notation "outW" => (Memref.whole Cert.KernelIdeal.main_v7_scv : Memref Cert.KernelIdeal.sig Kind.scVector Space.hbm Cert.KernelIdeal.S51200x128 EltTy.f32)
local notation "ivW" => (Memref.whole Cert.KernelIdeal.cc1_scratch0 : Memref Cert.KernelIdeal.sig Kind.scVector Space.vmem Cert.KernelIdeal.S25x64 EltTy.i32)
local notation "b0W" => (Memref.whole Cert.KernelIdeal.cc1_scratch1 : Memref Cert.KernelIdeal.sig Kind.scVector Space.vmem Cert.KernelIdeal.S64x128 EltTy.f32)
local notation "b1W" => (Memref.whole Cert.KernelIdeal.cc1_scratch2 : Memref Cert.KernelIdeal.sig Kind.scVector Space.vmem Cert.KernelIdeal.S64x128 EltTy.f32)
local notation "b2W" => (Memref.whole Cert.KernelIdeal.cc1_scratch3 : Memref Cert.KernelIdeal.sig Kind.scVector Space.vmem Cert.KernelIdeal.S64x128 EltTy.f32)
local notation "b3W" => (Memref.whole Cert.KernelIdeal.cc1_scratch4 : Memref Cert.KernelIdeal.sig Kind.scVector Space.vmem Cert.KernelIdeal.S64x128 EltTy.f32)
local notation "b4W" => (Memref.whole Cert.KernelIdeal.cc1_scratch5 : Memref Cert.KernelIdeal.sig Kind.scVector Space.vmem Cert.KernelIdeal.S64x128 EltTy.f32)

theorem mySems_scoped : ∀ i ∈ mySems, (SemLoc.dma i : SemLoc sig).isScoped .scVector = true := by decide

theorem myCells_sub (d : Dev nD) (L : grid1.Coords) : myCells d L ⊆ ownCells (thr d L) := by
  intro g hg
  obtain ⟨i, hi, rfl⟩ := Finset.mem_image.mp hg
  exact mem_ownCells.mpr ⟨rfl, mySems_scoped i hi⟩

theorem myRefs_sub (L : grid1.Coords) : myRefs L ⊆ ownRefs (τ := τ) (.scVector ((L 0).castLE hcore1) ((L 1).castLE hsub1)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid1.Coords) :
    (ownSems0 (thr d L) : sProp 𝕄)
      = iprop(semVal (cellOf d L cc1_scratch6) 0 ∗ semVal (cellOf d L cc1_scratch7) 0 ∗ semVal (cellOf d L cc1_scratch8) 0
          ∗ semVal (cellOf d L cc1_scratch9) 0 ∗ semVal (cellOf d L cc1_scratch10) 0 ∗ semVal (cellOf d L cc1_scratch11) 0
          ∗ semVal (cellOf d L cc1_scratch12) 0 ∗ semVal (cellOf d L cc1_scratch13) 0 ∗ semVal (cellOf d L cc1_scratch14) 0
          ∗ semVal (cellOf d L cc1_scratch15) 0 ∗ semVal (cellOf d L cc1_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f)
          ∗ bigSep (ownRefs (τ := τ) (.scVector ((L 0).castLE hcore1) ((L 1).castLE hsub1)) \ myRefs L)
              fun b => iprop(∃ f, ((d, b) : Loc nD τ sig) ↦{fullShare} f)) := by
  unfold SparseCore.Cfg.ownBufs
  rw [show (thr d L).2 = Proc.scVector ((L 0).castLE hcore1) ((L 1).castLE hsub1) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc1_scratch6.sem, cc1_scratch7.sem, cc1_scratch8.sem, cc1_scratch9.sem, cc1_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid1.Coords) (q : PosShare TreeShare) (Tb : Buf (Elt F) (tblLoc d)) :
    (tblLoc d ↦{q} Tb : sProp 𝕄)
      = iprop(((tblW).view.loc (thr d L) ↦{tq q cc1_scratch6} Tb) ∗ ((tblW).view.loc (thr d L) ↦{tq q cc1_scratch7} Tb)
          ∗ ((tblW).view.loc (thr d L) ↦{tq q cc1_scratch8} Tb) ∗ ((tblW).view.loc (thr d L) ↦{tq q cc1_scratch9} Tb)
          ∗ ((tblW).view.loc (thr d L) ↦{tq q cc1_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid1.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid1.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid1.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid1.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid1.Coords) (sm : DmaSems sig S_) (bW : Memref sig .scVector .vmem S64x128 .f32)
    (t : Fin k1_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid1.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid1.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid1.Coords) (t : Fin k1_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid1.Coords) (fo : Buf (Elt F) (outLoc d)) (t : Fin k1_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid1.Coords) (t : Fin k1_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k1_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k1_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k1_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k1_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid1.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k1_t1_loop.trips × Fin 5 => chunkAt d L p.1 p.2 fo) :=
    pointsTo_biUnion Finset.univ _ (fun p _ p' _ h => chunk_disjoint L p p' h)
  rw [h1]
  exact bigSep25 (fun p : Fin k1_t1_loop.trips × Fin 5 => chunkAt d L p.1 p.2 fo)

/-- The chunks, each written and back at whatever contents, are the task's rows at some contents. -/
theorem out_join (d : Dev nD) (L : grid1.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k1_t1_loop.trips × Fin 5, Nonempty ((fun _ : Fin k1_t1_loop.trips × Fin 5 => Buf (Elt F) (outLoc d)) i) := fun _ => ⟨f₀⟩
  refine (Entails.of_eq (bigSep25 (fun p : Fin k1_t1_loop.trips × Fin 5 => (iprop(∃ f, chunkAt (F := F) d L p.1 p.2 f) : sProp 𝕄))).symm).trans ?_
  refine (@bigSep_exists_pi _ _ _ _ (fun _ : Fin k1_t1_loop.trips × Fin 5 => Buf (Elt F) (outLoc d)) hne Finset.univ
    (fun (p : Fin k1_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k1_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KI.Tile1
end
-- ==== Proof.Tile1ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.Tile1Sets
import proofs.«203556_g1357209665813_cont_week2b_798_48_alg».proof.Proof.Gather
import Idealize.ShloMosaic.Lib.Pipeline.Value
import Idealize.ShloMosaic.Lib.ValueLayout

noncomputable section

namespace Cert.Proof.KI.Tile1

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.KernelIdeal.cc1_scratch0 : Memref Cert.KernelIdeal.sig Kind.scVector Space.vmem Cert.KernelIdeal.S25x64 EltTy.i32)
local notation "idxW" => (Memref.whole Cert.KernelIdeal.main_v6_scv : Memref Cert.KernelIdeal.sig Kind.scVector Space.hbm Cert.KernelIdeal.S32x25x64 EltTy.i32)

/-- The worker a task is: twice the subcore plus the core. -/
abbrev wid (L : grid1.Coords) : ℕ := 2 * (L 1).val + (L 0).val

theorem wid_lt (L : grid1.Coords) : wid L < 32 := by
  have h0 := (L 0).isLt; have h1 := (L 1).isLt
  have b0 : grid1.bound 0 = 2 := rfl
  have b1 : grid1.bound 1 = 16 := rfl
  unfold wid; omega

/-! ## (1) The task's block of ids -/

/-- The block of the id array the task copies, read through the program's slice, is row `wid` of the array. -/
theorem idxRow_read_apply (L : grid1.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k1_off1 L) S1x25x64.size (k1_off1_inb L)).toLoadRect I) hc from rfl]
  rw [shapeCast_1ab_ab_apply]
  show I ((Rect.unit (s := S32x25x64) (k1_off1 L) S1x25x64.size (k1_off1_inb L)).idx (ix3 0 k j)) = _
  refine congrArg I (funext fun a => Fin.ext ?_)
  have e := k1_off1_eq L
  match a with
  | ⟨0, _⟩ => show k1_off1 L 0 + 1 * (0 : ℕ) = wid L; rw [e]; simp
  | ⟨1, _⟩ => show k1_off1 L 1 + 1 * k.val = k.val; rw [e]; simp
  | ⟨2, _⟩ => show k1_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid1.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid1.Coords) (t : Fin k1_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid1.Coords) (t : Fin k1_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k1_off5_eq L t r
  have hr : base L t r + j.val < 51200 := by
    have h0 := (L 0).isLt; have h1 := (L 1).isLt
    have b0 : grid1.bound 0 = 2 := rfl
    have b1 : grid1.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k1_off5 L t (BitVec.ofNat 32 r.val) 0 + 1 * j.val; rw [e5]; simp
  | ⟨1, _⟩ => show h.val = k1_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid1.Coords) (t : Fin k1_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid1.bound 0 = 2 := rfl
  have b1 : grid1.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid1.Coords) (q : PosShare TreeShare) (g : Buf (Elt F) (outLoc d)) :
    (outLoc d ↦[outSet L]{q} g : sProp 𝕄)
      = bigSep (Finset.univ : Finset (Fin k1_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid1.Coords) (t : Fin k1_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid1.Coords) (q : PosShare TreeShare)
    (f : Fin k1_t1_loop.trips × Fin 5 → Buf (Elt F) (outLoc d)) (G : Buf (Elt F) (outLoc d))
    (h : ∀ p : Fin k1_t1_loop.trips × Fin 5, ∀ i ∈ ((outChunk L p.1 p.2).view.set : Finset S51200x128.Idx), f p i = G i) :
    (bigSep (Finset.univ : Finset (Fin k1_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KI.Tile1
end
-- ==== Proof.Tile1ValWrap.lean ====
/-
  The row gather's task on one vector subcore, call 1: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.Tile1Base
import proofs.«203556_g1357209665813_cont_week2b_798_48_alg».proof.Proof.Tile1ValLemmas
import proofs.«203556_g1357209665813_cont_week2b_798_48_alg».proof.Proof.TileCoreVal

noncomputable section

namespace Cert.Proof.KI.Tile1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v6_scv : Memref Cert.KernelIdeal.sig Kind.scVector Space.hbm Cert.KernelIdeal.S32x25x64 EltTy.i32)
local notation "outW" => (Memref.whole Cert.KernelIdeal.main_v7_scv : Memref Cert.KernelIdeal.sig Kind.scVector Space.hbm Cert.KernelIdeal.S51200x128 EltTy.f32)
local notation "ivW" => (Memref.whole Cert.KernelIdeal.cc1_scratch0 : Memref Cert.KernelIdeal.sig Kind.scVector Space.vmem Cert.KernelIdeal.S25x64 EltTy.i32)
local notation "b0W" => (Memref.whole Cert.KernelIdeal.cc1_scratch1 : Memref Cert.KernelIdeal.sig Kind.scVector Space.vmem Cert.KernelIdeal.S64x128 EltTy.f32)
local notation "b1W" => (Memref.whole Cert.KernelIdeal.cc1_scratch2 : Memref Cert.KernelIdeal.sig Kind.scVector Space.vmem Cert.KernelIdeal.S64x128 EltTy.f32)
local notation "b2W" => (Memref.whole Cert.KernelIdeal.cc1_scratch3 : Memref Cert.KernelIdeal.sig Kind.scVector Space.vmem Cert.KernelIdeal.S64x128 EltTy.f32)
local notation "b3W" => (Memref.whole Cert.KernelIdeal.cc1_scratch4 : Memref Cert.KernelIdeal.sig Kind.scVector Space.vmem Cert.KernelIdeal.S64x128 EltTy.f32)
local notation "b4W" => (Memref.whole Cert.KernelIdeal.cc1_scratch5 : Memref Cert.KernelIdeal.sig Kind.scVector Space.vmem Cert.KernelIdeal.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc1_scratch6, cc1_scratch7, cc1_scratch8, cc1_scratch9, cc1_scratch10, cc1_scratch11, cc1_scratch12, cc1_scratch13,
    cc1_scratch14, cc1_scratch15, cc1_scoped0⟩

/-! ## The contents a gather lands, over call 1's arrays -/

/-- What the gather whose list is the row of the index scratch at off lands in a slot: row j is the table's row the list's word j names. -/
def gp (d : Dev nD) (L : grid1.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid1.Coords) (Tb : Buf (Elt F) (tblLoc d)) (I : Buf (Elt F) (idxLoc d)) (hI : ∀ j ∈ idxSet L, (I j).toNat < 100000)
    (fiv : Buf (Elt F) ((ivW).view.loc (thr d L))) (t : Fin k1_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 1. -/
theorem tile_body_val (hF : (K (F := F)).Facts) (d : Dev nD) (L : grid1.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc1_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore1) ((L 1).castLE hsub1),
    SparseCore.Cfg.scopedSems0_V (Val := Elt F) d ((L 0).castLE hcore1) ((L 1).castLE hsub1), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KI.Tile1
end
-- ==== Proof.Tile1Frame.lean ====
/-
  The row gather's task on one vector subcore, call 1, as a frame: the valued statement with the output rows'
  contents forgotten.
-/
import proofs.«203556_g1357209665813_cont_week2b_798_48_alg».proof.Proof.Tile1ValWrap

noncomputable section

namespace Cert.Proof.KI.Tile1

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v6_scv : Memref Cert.KernelIdeal.sig Kind.scVector Space.hbm Cert.KernelIdeal.S32x25x64 EltTy.i32)
local notation "outW" => (Memref.whole Cert.KernelIdeal.main_v7_scv : Memref Cert.KernelIdeal.sig Kind.scVector Space.hbm Cert.KernelIdeal.S51200x128 EltTy.f32)
local notation "ivW" => (Memref.whole Cert.KernelIdeal.cc1_scratch0 : Memref Cert.KernelIdeal.sig Kind.scVector Space.vmem Cert.KernelIdeal.S25x64 EltTy.i32)
local notation "b0W" => (Memref.whole Cert.KernelIdeal.cc1_scratch1 : Memref Cert.KernelIdeal.sig Kind.scVector Space.vmem Cert.KernelIdeal.S64x128 EltTy.f32)
local notation "b1W" => (Memref.whole Cert.KernelIdeal.cc1_scratch2 : Memref Cert.KernelIdeal.sig Kind.scVector Space.vmem Cert.KernelIdeal.S64x128 EltTy.f32)
local notation "b2W" => (Memref.whole Cert.KernelIdeal.cc1_scratch3 : Memref Cert.KernelIdeal.sig Kind.scVector Space.vmem Cert.KernelIdeal.S64x128 EltTy.f32)
local notation "b3W" => (Memref.whole Cert.KernelIdeal.cc1_scratch4 : Memref Cert.KernelIdeal.sig Kind.scVector Space.vmem Cert.KernelIdeal.S64x128 EltTy.f32)
local notation "b4W" => (Memref.whole Cert.KernelIdeal.cc1_scratch5 : Memref Cert.KernelIdeal.sig Kind.scVector Space.vmem Cert.KernelIdeal.S64x128 EltTy.f32)

variable [FloatOps F]

/-- The task's frame: what the valued theorem says, the rows the task wrote at contents not named. -/
theorem tile_body (hF : (K (F := F)).Facts) (d : Dev nD) (L : grid1.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc1_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KI.Tile1

end
-- ==== Proof.TileOblBase1.lean ====
/-
  Shared by the two forms of SparseCore call 1's tile obligation: the call's number and label, the body table's row
  on a vector subcore as the gather kernel at its place, and the weakening of the recorded-waits bound the launch
  theorem's obligation allows.
-/
import proofs.«203556_g1357209665813_cont_week2b_798_48_alg».proof.Proof.Call1

noncomputable section

namespace Cert.Proof.KI.Tile1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 1
abbrev labC : Λ₀.Label := 1

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore1 hsub1 (fun c s => cc1_gather_rows (place (c, s))
          (Memref.whole main_arg2_scv) (Memref.isWhole_whole _) (Memref.whole main_v6_scv) (Memref.isWhole_whole _) (Memref.whole main_v7_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

end Cert.Proof.KI.Tile1

end
-- ==== Proof.TileObl1.lean ====
/-
  The launch theorem's obligation for SparseCore call 1: the task's frame, wrapped as the body table's row;
  the handshake's payloads are the task's holdings.
-/
import proofs.«203556_g1357209665813_cont_week2b_798_48_alg».proof.Proof.Tile1Frame
import proofs.«203556_g1357209665813_cont_week2b_798_48_alg».proof.Proof.TileOblBase1

noncomputable section

namespace Cert.Proof.KI.Tile1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid1.bound 0 ∧ ((K (F := F)).sub qC i).val < grid1.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile1

end
-- ==== Proof.Tile2Base.lean ====
/-
  The row gather's task on one vector subcore, call 2: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.Tile2Sets

noncomputable section

namespace Cert.Proof.KI.Tile2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v9_scv : Memref Cert.KernelIdeal.sig Kind.scVector Space.hbm Cert.KernelIdeal.S32x25x64 EltTy.i32)
local notation "outW" => (Memref.whole Cert.KernelIdeal.main_v10_scv : Memref Cert.KernelIdeal.sig Kind.scVector Space.hbm Cert.KernelIdeal.S51200x128 EltTy.f32)
local notation "ivW" => (Memref.whole Cert.KernelIdeal.cc2_scratch0 : Memref Cert.KernelIdeal.sig Kind.scVector Space.vmem Cert.KernelIdeal.S25x64 EltTy.i32)
local notation "b0W" => (Memref.whole Cert.KernelIdeal.cc2_scratch1 : Memref Cert.KernelIdeal.sig Kind.scVector Space.vmem Cert.KernelIdeal.S64x128 EltTy.f32)
local notation "b1W" => (Memref.whole Cert.KernelIdeal.cc2_scratch2 : Memref Cert.KernelIdeal.sig Kind.scVector Space.vmem Cert.KernelIdeal.S64x128 EltTy.f32)
local notation "b2W" => (Memref.whole Cert.KernelIdeal.cc2_scratch3 : Memref Cert.KernelIdeal.sig Kind.scVector Space.vmem Cert.KernelIdeal.S64x128 EltTy.f32)
local notation "b3W" => (Memref.whole Cert.KernelIdeal.cc2_scratch4 : Memref Cert.KernelIdeal.sig Kind.scVector Space.vmem Cert.KernelIdeal.S64x128 EltTy.f32)
local notation "b4W" => (Memref.whole Cert.KernelIdeal.cc2_scratch5 : Memref Cert.KernelIdeal.sig Kind.scVector Space.vmem Cert.KernelIdeal.S64x128 EltTy.f32)

theorem mySems_scoped : ∀ i ∈ mySems, (SemLoc.dma i : SemLoc sig).isScoped .scVector = true := by decide

theorem myCells_sub (d : Dev nD) (L : grid2.Coords) : myCells d L ⊆ ownCells (thr d L) := by
  intro g hg
  obtain ⟨i, hi, rfl⟩ := Finset.mem_image.mp hg
  exact mem_ownCells.mpr ⟨rfl, mySems_scoped i hi⟩

theorem myRefs_sub (L : grid2.Coords) : myRefs L ⊆ ownRefs (τ := τ) (.scVector ((L 0).castLE hcore2) ((L 1).castLE hsub2)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid2.Coords) :
    (ownSems0 (thr d L) : sProp 𝕄)
      = iprop(semVal (cellOf d L cc2_scratch6) 0 ∗ semVal (cellOf d L cc2_scratch7) 0 ∗ semVal (cellOf d L cc2_scratch8) 0
          ∗ semVal (cellOf d L cc2_scratch9) 0 ∗ semVal (cellOf d L cc2_scratch10) 0 ∗ semVal (cellOf d L cc2_scratch11) 0
          ∗ semVal (cellOf d L cc2_scratch12) 0 ∗ semVal (cellOf d L cc2_scratch13) 0 ∗ semVal (cellOf d L cc2_scratch14) 0
          ∗ semVal (cellOf d L cc2_scratch15) 0 ∗ semVal (cellOf d L cc2_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid2.Coords) :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ (∃ f, (thr d L).loc cc2_scratch4 ↦{fullShare} f) ∗ (∃ f, (thr d L).loc cc2_scratch5 ↦{fullShare} f)
          ∗ bigSep (ownRefs (τ := τ) (.scVector ((L 0).castLE hcore2) ((L 1).castLE hsub2)) \ myRefs L)
              fun b => iprop(∃ f, ((d, b) : Loc nD τ sig) ↦{fullShare} f)) := by
  unfold SparseCore.Cfg.ownBufs
  rw [show (thr d L).2 = Proc.scVector ((L 0).castLE hcore2) ((L 1).castLE hsub2) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc2_scratch6.sem, cc2_scratch7.sem, cc2_scratch8.sem, cc2_scratch9.sem, cc2_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid2.Coords) (q : PosShare TreeShare) (Tb : Buf (Elt F) (tblLoc d)) :
    (tblLoc d ↦{q} Tb : sProp 𝕄)
      = iprop(((tblW).view.loc (thr d L) ↦{tq q cc2_scratch6} Tb) ∗ ((tblW).view.loc (thr d L) ↦{tq q cc2_scratch7} Tb)
          ∗ ((tblW).view.loc (thr d L) ↦{tq q cc2_scratch8} Tb) ∗ ((tblW).view.loc (thr d L) ↦{tq q cc2_scratch9} Tb)
          ∗ ((tblW).view.loc (thr d L) ↦{tq q cc2_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid2.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid2.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid2.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid2.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid2.Coords) (sm : DmaSems sig S_) (bW : Memref sig .scVector .vmem S64x128 .f32)
    (t : Fin k2_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid2.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid2.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid2.Coords) (t : Fin k2_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid2.Coords) (fo : Buf (Elt F) (outLoc d)) (t : Fin k2_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid2.Coords) (t : Fin k2_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k2_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k2_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k2_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k2_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid2.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k2_t1_loop.trips × Fin 5 => chunkAt d L p.1 p.2 fo) :=
    pointsTo_biUnion Finset.univ _ (fun p _ p' _ h => chunk_disjoint L p p' h)
  rw [h1]
  exact bigSep25 (fun p : Fin k2_t1_loop.trips × Fin 5 => chunkAt d L p.1 p.2 fo)

/-- The chunks, each written and back at whatever contents, are the task's rows at some contents. -/
theorem out_join (d : Dev nD) (L : grid2.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k2_t1_loop.trips × Fin 5, Nonempty ((fun _ : Fin k2_t1_loop.trips × Fin 5 => Buf (Elt F) (outLoc d)) i) := fun _ => ⟨f₀⟩
  refine (Entails.of_eq (bigSep25 (fun p : Fin k2_t1_loop.trips × Fin 5 => (iprop(∃ f, chunkAt (F := F) d L p.1 p.2 f) : sProp 𝕄))).symm).trans ?_
  refine (@bigSep_exists_pi _ _ _ _ (fun _ : Fin k2_t1_loop.trips × Fin 5 => Buf (Elt F) (outLoc d)) hne Finset.univ
    (fun (p : Fin k2_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k2_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KI.Tile2
end
-- ==== Proof.Tile2ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.Tile2Sets
import proofs.«203556_g1357209665813_cont_week2b_798_48_alg».proof.Proof.Gather
import Idealize.ShloMosaic.Lib.Pipeline.Value
import Idealize.ShloMosaic.Lib.ValueLayout

noncomputable section

namespace Cert.Proof.KI.Tile2

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.KernelIdeal.cc2_scratch0 : Memref Cert.KernelIdeal.sig Kind.scVector Space.vmem Cert.KernelIdeal.S25x64 EltTy.i32)
local notation "idxW" => (Memref.whole Cert.KernelIdeal.main_v9_scv : Memref Cert.KernelIdeal.sig Kind.scVector Space.hbm Cert.KernelIdeal.S32x25x64 EltTy.i32)

/-- The worker a task is: twice the subcore plus the core. -/
abbrev wid (L : grid2.Coords) : ℕ := 2 * (L 1).val + (L 0).val

theorem wid_lt (L : grid2.Coords) : wid L < 32 := by
  have h0 := (L 0).isLt; have h1 := (L 1).isLt
  have b0 : grid2.bound 0 = 2 := rfl
  have b1 : grid2.bound 1 = 16 := rfl
  unfold wid; omega

/-! ## (1) The task's block of ids -/

/-- The block of the id array the task copies, read through the program's slice, is row `wid` of the array. -/
theorem idxRow_read_apply (L : grid2.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k2_off1 L) S1x25x64.size (k2_off1_inb L)).toLoadRect I) hc from rfl]
  rw [shapeCast_1ab_ab_apply]
  show I ((Rect.unit (s := S32x25x64) (k2_off1 L) S1x25x64.size (k2_off1_inb L)).idx (ix3 0 k j)) = _
  refine congrArg I (funext fun a => Fin.ext ?_)
  have e := k2_off1_eq L
  match a with
  | ⟨0, _⟩ => show k2_off1 L 0 + 1 * (0 : ℕ) = wid L; rw [e]; simp
  | ⟨1, _⟩ => show k2_off1 L 1 + 1 * k.val = k.val; rw [e]; simp
  | ⟨2, _⟩ => show k2_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid2.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid2.Coords) (t : Fin k2_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid2.Coords) (t : Fin k2_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k2_off5_eq L t r
  have hr : base L t r + j.val < 51200 := by
    have h0 := (L 0).isLt; have h1 := (L 1).isLt
    have b0 : grid2.bound 0 = 2 := rfl
    have b1 : grid2.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k2_off5 L t (BitVec.ofNat 32 r.val) 0 + 1 * j.val; rw [e5]; simp
  | ⟨1, _⟩ => show h.val = k2_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid2.Coords) (t : Fin k2_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid2.bound 0 = 2 := rfl
  have b1 : grid2.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid2.Coords) (q : PosShare TreeShare) (g : Buf (Elt F) (outLoc d)) :
    (outLoc d ↦[outSet L]{q} g : sProp 𝕄)
      = bigSep (Finset.univ : Finset (Fin k2_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid2.Coords) (t : Fin k2_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid2.Coords) (q : PosShare TreeShare)
    (f : Fin k2_t1_loop.trips × Fin 5 → Buf (Elt F) (outLoc d)) (G : Buf (Elt F) (outLoc d))
    (h : ∀ p : Fin k2_t1_loop.trips × Fin 5, ∀ i ∈ ((outChunk L p.1 p.2).view.set : Finset S51200x128.Idx), f p i = G i) :
    (bigSep (Finset.univ : Finset (Fin k2_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KI.Tile2
end
-- ==== Proof.Tile2ValWrap.lean ====
/-
  The row gather's task on one vector subcore, call 2: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.Tile2Base
import proofs.«203556_g1357209665813_cont_week2b_798_48_alg».proof.Proof.Tile2ValLemmas
import proofs.«203556_g1357209665813_cont_week2b_798_48_alg».proof.Proof.TileCoreVal

noncomputable section

namespace Cert.Proof.KI.Tile2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v9_scv : Memref Cert.KernelIdeal.sig Kind.scVector Space.hbm Cert.KernelIdeal.S32x25x64 EltTy.i32)
local notation "outW" => (Memref.whole Cert.KernelIdeal.main_v10_scv : Memref Cert.KernelIdeal.sig Kind.scVector Space.hbm Cert.KernelIdeal.S51200x128 EltTy.f32)
local notation "ivW" => (Memref.whole Cert.KernelIdeal.cc2_scratch0 : Memref Cert.KernelIdeal.sig Kind.scVector Space.vmem Cert.KernelIdeal.S25x64 EltTy.i32)
local notation "b0W" => (Memref.whole Cert.KernelIdeal.cc2_scratch1 : Memref Cert.KernelIdeal.sig Kind.scVector Space.vmem Cert.KernelIdeal.S64x128 EltTy.f32)
local notation "b1W" => (Memref.whole Cert.KernelIdeal.cc2_scratch2 : Memref Cert.KernelIdeal.sig Kind.scVector Space.vmem Cert.KernelIdeal.S64x128 EltTy.f32)
local notation "b2W" => (Memref.whole Cert.KernelIdeal.cc2_scratch3 : Memref Cert.KernelIdeal.sig Kind.scVector Space.vmem Cert.KernelIdeal.S64x128 EltTy.f32)
local notation "b3W" => (Memref.whole Cert.KernelIdeal.cc2_scratch4 : Memref Cert.KernelIdeal.sig Kind.scVector Space.vmem Cert.KernelIdeal.S64x128 EltTy.f32)
local notation "b4W" => (Memref.whole Cert.KernelIdeal.cc2_scratch5 : Memref Cert.KernelIdeal.sig Kind.scVector Space.vmem Cert.KernelIdeal.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc2_scratch6, cc2_scratch7, cc2_scratch8, cc2_scratch9, cc2_scratch10, cc2_scratch11, cc2_scratch12, cc2_scratch13,
    cc2_scratch14, cc2_scratch15, cc2_scoped0⟩

/-! ## The contents a gather lands, over call 2's arrays -/

/-- What the gather whose list is the row of the index scratch at off lands in a slot: row j is the table's row the list's word j names. -/
def gp (d : Dev nD) (L : grid2.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid2.Coords) (Tb : Buf (Elt F) (tblLoc d)) (I : Buf (Elt F) (idxLoc d)) (hI : ∀ j ∈ idxSet L, (I j).toNat < 100000)
    (fiv : Buf (Elt F) ((ivW).view.loc (thr d L))) (t : Fin k2_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 2. -/
theorem tile_body_val (hF : (K (F := F)).Facts) (d : Dev nD) (L : grid2.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc2_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore2) ((L 1).castLE hsub2),
    SparseCore.Cfg.scopedSems0_V (Val := Elt F) d ((L 0).castLE hcore2) ((L 1).castLE hsub2), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KI.Tile2
end
-- ==== Proof.Tile2Frame.lean ====
/-
  The row gather's task on one vector subcore, call 2, as a frame: the valued statement with the output rows'
  contents forgotten.
-/
import proofs.«203556_g1357209665813_cont_week2b_798_48_alg».proof.Proof.Tile2ValWrap

noncomputable section

namespace Cert.Proof.KI.Tile2

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v9_scv : Memref Cert.KernelIdeal.sig Kind.scVector Space.hbm Cert.KernelIdeal.S32x25x64 EltTy.i32)
local notation "outW" => (Memref.whole Cert.KernelIdeal.main_v10_scv : Memref Cert.KernelIdeal.sig Kind.scVector Space.hbm Cert.KernelIdeal.S51200x128 EltTy.f32)
local notation "ivW" => (Memref.whole Cert.KernelIdeal.cc2_scratch0 : Memref Cert.KernelIdeal.sig Kind.scVector Space.vmem Cert.KernelIdeal.S25x64 EltTy.i32)
local notation "b0W" => (Memref.whole Cert.KernelIdeal.cc2_scratch1 : Memref Cert.KernelIdeal.sig Kind.scVector Space.vmem Cert.KernelIdeal.S64x128 EltTy.f32)
local notation "b1W" => (Memref.whole Cert.KernelIdeal.cc2_scratch2 : Memref Cert.KernelIdeal.sig Kind.scVector Space.vmem Cert.KernelIdeal.S64x128 EltTy.f32)
local notation "b2W" => (Memref.whole Cert.KernelIdeal.cc2_scratch3 : Memref Cert.KernelIdeal.sig Kind.scVector Space.vmem Cert.KernelIdeal.S64x128 EltTy.f32)
local notation "b3W" => (Memref.whole Cert.KernelIdeal.cc2_scratch4 : Memref Cert.KernelIdeal.sig Kind.scVector Space.vmem Cert.KernelIdeal.S64x128 EltTy.f32)
local notation "b4W" => (Memref.whole Cert.KernelIdeal.cc2_scratch5 : Memref Cert.KernelIdeal.sig Kind.scVector Space.vmem Cert.KernelIdeal.S64x128 EltTy.f32)

variable [FloatOps F]

/-- The task's frame: what the valued theorem says, the rows the task wrote at contents not named. -/
theorem tile_body (hF : (K (F := F)).Facts) (d : Dev nD) (L : grid2.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc2_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KI.Tile2

end
-- ==== Proof.TileOblBase2.lean ====
/-
  Shared by the two forms of SparseCore call 2's tile obligation: the call's number and label, the body table's row
  on a vector subcore as the gather kernel at its place, and the weakening of the recorded-waits bound the launch
  theorem's obligation allows.
-/
import proofs.«203556_g1357209665813_cont_week2b_798_48_alg».proof.Proof.Call2

noncomputable section

namespace Cert.Proof.KI.Tile2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 2
abbrev labC : Λ₀.Label := 2

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore2 hsub2 (fun c s => cc2_gather_rows (place (c, s))
          (Memref.whole main_arg2_scv) (Memref.isWhole_whole _) (Memref.whole main_v9_scv) (Memref.isWhole_whole _) (Memref.whole main_v10_scv) (Memref.isWhole_whole _)
          (Memref.whole cc2_scratch0) (Memref.isWhole_whole _) (Memref.whole cc2_scratch1) (Memref.isWhole_whole _) (Memref.whole cc2_scratch2) (Memref.isWhole_whole _)
          (Memref.whole cc2_scratch3) (Memref.isWhole_whole _) (Memref.whole cc2_scratch4) (Memref.isWhole_whole _) (Memref.whole cc2_scratch5) (Memref.isWhole_whole _)
          cc2_scratch6 cc2_scratch7 cc2_scratch8 cc2_scratch9 cc2_scratch10 cc2_scratch11 cc2_scratch12 cc2_scratch13 cc2_scratch14 cc2_scratch15 cc2_scoped0) ⟨⟩ c s := rfl

end Cert.Proof.KI.Tile2

end
-- ==== Proof.TileObl2.lean ====
/-
  The launch theorem's obligation for SparseCore call 2: the task's frame, wrapped as the body table's row;
  the handshake's payloads are the task's holdings.
-/
import proofs.«203556_g1357209665813_cont_week2b_798_48_alg».proof.Proof.Tile2Frame
import proofs.«203556_g1357209665813_cont_week2b_798_48_alg».proof.Proof.TileOblBase2

noncomputable section

namespace Cert.Proof.KI.Tile2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid2.bound 0 ∧ ((K (F := F)).sub qC i).val < grid2.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile2

end
-- ==== Proof.Tile3Base.lean ====
/-
  The row gather's task on one vector subcore, call 3: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.Tile3Sets

noncomputable section

namespace Cert.Proof.KI.Tile3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v12_scv : Memref Cert.KernelIdeal.sig Kind.scVector Space.hbm Cert.KernelIdeal.S32x25x64 EltTy.i32)
local notation "outW" => (Memref.whole Cert.KernelIdeal.main_v13_scv : Memref Cert.KernelIdeal.sig Kind.scVector Space.hbm Cert.KernelIdeal.S51200x128 EltTy.f32)
local notation "ivW" => (Memref.whole Cert.KernelIdeal.cc3_scratch0 : Memref Cert.KernelIdeal.sig Kind.scVector Space.vmem Cert.KernelIdeal.S25x64 EltTy.i32)
local notation "b0W" => (Memref.whole Cert.KernelIdeal.cc3_scratch1 : Memref Cert.KernelIdeal.sig Kind.scVector Space.vmem Cert.KernelIdeal.S64x128 EltTy.f32)
local notation "b1W" => (Memref.whole Cert.KernelIdeal.cc3_scratch2 : Memref Cert.KernelIdeal.sig Kind.scVector Space.vmem Cert.KernelIdeal.S64x128 EltTy.f32)
local notation "b2W" => (Memref.whole Cert.KernelIdeal.cc3_scratch3 : Memref Cert.KernelIdeal.sig Kind.scVector Space.vmem Cert.KernelIdeal.S64x128 EltTy.f32)
local notation "b3W" => (Memref.whole Cert.KernelIdeal.cc3_scratch4 : Memref Cert.KernelIdeal.sig Kind.scVector Space.vmem Cert.KernelIdeal.S64x128 EltTy.f32)
local notation "b4W" => (Memref.whole Cert.KernelIdeal.cc3_scratch5 : Memref Cert.KernelIdeal.sig Kind.scVector Space.vmem Cert.KernelIdeal.S64x128 EltTy.f32)

theorem mySems_scoped : ∀ i ∈ mySems, (SemLoc.dma i : SemLoc sig).isScoped .scVector = true := by decide

theorem myCells_sub (d : Dev nD) (L : grid3.Coords) : myCells d L ⊆ ownCells (thr d L) := by
  intro g hg
  obtain ⟨i, hi, rfl⟩ := Finset.mem_image.mp hg
  exact mem_ownCells.mpr ⟨rfl, mySems_scoped i hi⟩

theorem myRefs_sub (L : grid3.Coords) : myRefs L ⊆ ownRefs (τ := τ) (.scVector ((L 0).castLE hcore3) ((L 1).castLE hsub3)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid3.Coords) :
    (ownSems0 (thr d L) : sProp 𝕄)
      = iprop(semVal (cellOf d L cc3_scratch6) 0 ∗ semVal (cellOf d L cc3_scratch7) 0 ∗ semVal (cellOf d L cc3_scratch8) 0
          ∗ semVal (cellOf d L cc3_scratch9) 0 ∗ semVal (cellOf d L cc3_scratch10) 0 ∗ semVal (cellOf d L cc3_scratch11) 0
          ∗ semVal (cellOf d L cc3_scratch12) 0 ∗ semVal (cellOf d L cc3_scratch13) 0 ∗ semVal (cellOf d L cc3_scratch14) 0
          ∗ semVal (cellOf d L cc3_scratch15) 0 ∗ semVal (cellOf d L cc3_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid3.Coords) :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ (∃ f, (thr d L).loc cc3_scratch4 ↦{fullShare} f) ∗ (∃ f, (thr d L).loc cc3_scratch5 ↦{fullShare} f)
          ∗ bigSep (ownRefs (τ := τ) (.scVector ((L 0).castLE hcore3) ((L 1).castLE hsub3)) \ myRefs L)
              fun b => iprop(∃ f, ((d, b) : Loc nD τ sig) ↦{fullShare} f)) := by
  unfold SparseCore.Cfg.ownBufs
  rw [show (thr d L).2 = Proc.scVector ((L 0).castLE hcore3) ((L 1).castLE hsub3) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc3_scratch6.sem, cc3_scratch7.sem, cc3_scratch8.sem, cc3_scratch9.sem, cc3_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid3.Coords) (q : PosShare TreeShare) (Tb : Buf (Elt F) (tblLoc d)) :
    (tblLoc d ↦{q} Tb : sProp 𝕄)
      = iprop(((tblW).view.loc (thr d L) ↦{tq q cc3_scratch6} Tb) ∗ ((tblW).view.loc (thr d L) ↦{tq q cc3_scratch7} Tb)
          ∗ ((tblW).view.loc (thr d L) ↦{tq q cc3_scratch8} Tb) ∗ ((tblW).view.loc (thr d L) ↦{tq q cc3_scratch9} Tb)
          ∗ ((tblW).view.loc (thr d L) ↦{tq q cc3_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid3.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid3.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid3.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid3.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid3.Coords) (sm : DmaSems sig S_) (bW : Memref sig .scVector .vmem S64x128 .f32)
    (t : Fin k3_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid3.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid3.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid3.Coords) (t : Fin k3_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid3.Coords) (fo : Buf (Elt F) (outLoc d)) (t : Fin k3_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid3.Coords) (t : Fin k3_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k3_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k3_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k3_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k3_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid3.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k3_t1_loop.trips × Fin 5 => chunkAt d L p.1 p.2 fo) :=
    pointsTo_biUnion Finset.univ _ (fun p _ p' _ h => chunk_disjoint L p p' h)
  rw [h1]
  exact bigSep25 (fun p : Fin k3_t1_loop.trips × Fin 5 => chunkAt d L p.1 p.2 fo)

/-- The chunks, each written and back at whatever contents, are the task's rows at some contents. -/
theorem out_join (d : Dev nD) (L : grid3.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k3_t1_loop.trips × Fin 5, Nonempty ((fun _ : Fin k3_t1_loop.trips × Fin 5 => Buf (Elt F) (outLoc d)) i) := fun _ => ⟨f₀⟩
  refine (Entails.of_eq (bigSep25 (fun p : Fin k3_t1_loop.trips × Fin 5 => (iprop(∃ f, chunkAt (F := F) d L p.1 p.2 f) : sProp 𝕄))).symm).trans ?_
  refine (@bigSep_exists_pi _ _ _ _ (fun _ : Fin k3_t1_loop.trips × Fin 5 => Buf (Elt F) (outLoc d)) hne Finset.univ
    (fun (p : Fin k3_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k3_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KI.Tile3
end
-- ==== Proof.Tile3ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.Tile3Sets
import proofs.«203556_g1357209665813_cont_week2b_798_48_alg».proof.Proof.Gather
import Idealize.ShloMosaic.Lib.Pipeline.Value
import Idealize.ShloMosaic.Lib.ValueLayout

noncomputable section

namespace Cert.Proof.KI.Tile3

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.KernelIdeal.cc3_scratch0 : Memref Cert.KernelIdeal.sig Kind.scVector Space.vmem Cert.KernelIdeal.S25x64 EltTy.i32)
local notation "idxW" => (Memref.whole Cert.KernelIdeal.main_v12_scv : Memref Cert.KernelIdeal.sig Kind.scVector Space.hbm Cert.KernelIdeal.S32x25x64 EltTy.i32)

/-- The worker a task is: twice the subcore plus the core. -/
abbrev wid (L : grid3.Coords) : ℕ := 2 * (L 1).val + (L 0).val

theorem wid_lt (L : grid3.Coords) : wid L < 32 := by
  have h0 := (L 0).isLt; have h1 := (L 1).isLt
  have b0 : grid3.bound 0 = 2 := rfl
  have b1 : grid3.bound 1 = 16 := rfl
  unfold wid; omega

/-! ## (1) The task's block of ids -/

/-- The block of the id array the task copies, read through the program's slice, is row `wid` of the array. -/
theorem idxRow_read_apply (L : grid3.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k3_off1 L) S1x25x64.size (k3_off1_inb L)).toLoadRect I) hc from rfl]
  rw [shapeCast_1ab_ab_apply]
  show I ((Rect.unit (s := S32x25x64) (k3_off1 L) S1x25x64.size (k3_off1_inb L)).idx (ix3 0 k j)) = _
  refine congrArg I (funext fun a => Fin.ext ?_)
  have e := k3_off1_eq L
  match a with
  | ⟨0, _⟩ => show k3_off1 L 0 + 1 * (0 : ℕ) = wid L; rw [e]; simp
  | ⟨1, _⟩ => show k3_off1 L 1 + 1 * k.val = k.val; rw [e]; simp
  | ⟨2, _⟩ => show k3_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid3.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid3.Coords) (t : Fin k3_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid3.Coords) (t : Fin k3_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k3_off5_eq L t r
  have hr : base L t r + j.val < 51200 := by
    have h0 := (L 0).isLt; have h1 := (L 1).isLt
    have b0 : grid3.bound 0 = 2 := rfl
    have b1 : grid3.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k3_off5 L t (BitVec.ofNat 32 r.val) 0 + 1 * j.val; rw [e5]; simp
  | ⟨1, _⟩ => show h.val = k3_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid3.Coords) (t : Fin k3_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid3.bound 0 = 2 := rfl
  have b1 : grid3.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid3.Coords) (q : PosShare TreeShare) (g : Buf (Elt F) (outLoc d)) :
    (outLoc d ↦[outSet L]{q} g : sProp 𝕄)
      = bigSep (Finset.univ : Finset (Fin k3_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid3.Coords) (t : Fin k3_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid3.Coords) (q : PosShare TreeShare)
    (f : Fin k3_t1_loop.trips × Fin 5 → Buf (Elt F) (outLoc d)) (G : Buf (Elt F) (outLoc d))
    (h : ∀ p : Fin k3_t1_loop.trips × Fin 5, ∀ i ∈ ((outChunk L p.1 p.2).view.set : Finset S51200x128.Idx), f p i = G i) :
    (bigSep (Finset.univ : Finset (Fin k3_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KI.Tile3
end
-- ==== Proof.Tile3ValWrap.lean ====
/-
  The row gather's task on one vector subcore, call 3: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.Tile3Base
import proofs.«203556_g1357209665813_cont_week2b_798_48_alg».proof.Proof.Tile3ValLemmas
import proofs.«203556_g1357209665813_cont_week2b_798_48_alg».proof.Proof.TileCoreVal

noncomputable section

namespace Cert.Proof.KI.Tile3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v12_scv : Memref Cert.KernelIdeal.sig Kind.scVector Space.hbm Cert.KernelIdeal.S32x25x64 EltTy.i32)
local notation "outW" => (Memref.whole Cert.KernelIdeal.main_v13_scv : Memref Cert.KernelIdeal.sig Kind.scVector Space.hbm Cert.KernelIdeal.S51200x128 EltTy.f32)
local notation "ivW" => (Memref.whole Cert.KernelIdeal.cc3_scratch0 : Memref Cert.KernelIdeal.sig Kind.scVector Space.vmem Cert.KernelIdeal.S25x64 EltTy.i32)
local notation "b0W" => (Memref.whole Cert.KernelIdeal.cc3_scratch1 : Memref Cert.KernelIdeal.sig Kind.scVector Space.vmem Cert.KernelIdeal.S64x128 EltTy.f32)
local notation "b1W" => (Memref.whole Cert.KernelIdeal.cc3_scratch2 : Memref Cert.KernelIdeal.sig Kind.scVector Space.vmem Cert.KernelIdeal.S64x128 EltTy.f32)
local notation "b2W" => (Memref.whole Cert.KernelIdeal.cc3_scratch3 : Memref Cert.KernelIdeal.sig Kind.scVector Space.vmem Cert.KernelIdeal.S64x128 EltTy.f32)
local notation "b3W" => (Memref.whole Cert.KernelIdeal.cc3_scratch4 : Memref Cert.KernelIdeal.sig Kind.scVector Space.vmem Cert.KernelIdeal.S64x128 EltTy.f32)
local notation "b4W" => (Memref.whole Cert.KernelIdeal.cc3_scratch5 : Memref Cert.KernelIdeal.sig Kind.scVector Space.vmem Cert.KernelIdeal.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc3_scratch6, cc3_scratch7, cc3_scratch8, cc3_scratch9, cc3_scratch10, cc3_scratch11, cc3_scratch12, cc3_scratch13,
    cc3_scratch14, cc3_scratch15, cc3_scoped0⟩

/-! ## The contents a gather lands, over call 3's arrays -/

/-- What the gather whose list is the row of the index scratch at off lands in a slot: row j is the table's row the list's word j names. -/
def gp (d : Dev nD) (L : grid3.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid3.Coords) (Tb : Buf (Elt F) (tblLoc d)) (I : Buf (Elt F) (idxLoc d)) (hI : ∀ j ∈ idxSet L, (I j).toNat < 100000)
    (fiv : Buf (Elt F) ((ivW).view.loc (thr d L))) (t : Fin k3_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 3. -/
theorem tile_body_val (hF : (K (F := F)).Facts) (d : Dev nD) (L : grid3.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc3_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore3) ((L 1).castLE hsub3),
    SparseCore.Cfg.scopedSems0_V (Val := Elt F) d ((L 0).castLE hcore3) ((L 1).castLE hsub3), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KI.Tile3
end
-- ==== Proof.Tile3Frame.lean ====
/-
  The row gather's task on one vector subcore, call 3, as a frame: the valued statement with the output rows'
  contents forgotten.
-/
import proofs.«203556_g1357209665813_cont_week2b_798_48_alg».proof.Proof.Tile3ValWrap

noncomputable section

namespace Cert.Proof.KI.Tile3

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.KernelIdeal.main_arg2_scv : Memref Cert.KernelIdeal.sig Kind.scVector Space.hbm Cert.KernelIdeal.S100000x128 EltTy.f32)
local notation "idxW" => (Memref.whole Cert.KernelIdeal.main_v12_scv : Memref Cert.KernelIdeal.sig Kind.scVector Space.hbm Cert.KernelIdeal.S32x25x64 EltTy.i32)
local notation "outW" => (Memref.whole Cert.KernelIdeal.main_v13_scv : Memref Cert.KernelIdeal.sig Kind.scVector Space.hbm Cert.KernelIdeal.S51200x128 EltTy.f32)
local notation "ivW" => (Memref.whole Cert.KernelIdeal.cc3_scratch0 : Memref Cert.KernelIdeal.sig Kind.scVector Space.vmem Cert.KernelIdeal.S25x64 EltTy.i32)
local notation "b0W" => (Memref.whole Cert.KernelIdeal.cc3_scratch1 : Memref Cert.KernelIdeal.sig Kind.scVector Space.vmem Cert.KernelIdeal.S64x128 EltTy.f32)
local notation "b1W" => (Memref.whole Cert.KernelIdeal.cc3_scratch2 : Memref Cert.KernelIdeal.sig Kind.scVector Space.vmem Cert.KernelIdeal.S64x128 EltTy.f32)
local notation "b2W" => (Memref.whole Cert.KernelIdeal.cc3_scratch3 : Memref Cert.KernelIdeal.sig Kind.scVector Space.vmem Cert.KernelIdeal.S64x128 EltTy.f32)
local notation "b3W" => (Memref.whole Cert.KernelIdeal.cc3_scratch4 : Memref Cert.KernelIdeal.sig Kind.scVector Space.vmem Cert.KernelIdeal.S64x128 EltTy.f32)
local notation "b4W" => (Memref.whole Cert.KernelIdeal.cc3_scratch5 : Memref Cert.KernelIdeal.sig Kind.scVector Space.vmem Cert.KernelIdeal.S64x128 EltTy.f32)

variable [FloatOps F]

/-- The task's frame: what the valued theorem says, the rows the task wrote at contents not named. -/
theorem tile_body (hF : (K (F := F)).Facts) (d : Dev nD) (L : grid3.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc3_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KI.Tile3

end
-- ==== Proof.TileOblBase3.lean ====
/-
  Shared by the two forms of SparseCore call 3's tile obligation: the call's number and label, the body table's row
  on a vector subcore as the gather kernel at its place, and the weakening of the recorded-waits bound the launch
  theorem's obligation allows.
-/
import proofs.«203556_g1357209665813_cont_week2b_798_48_alg».proof.Proof.Call3

noncomputable section

namespace Cert.Proof.KI.Tile3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 3
abbrev labC : Λ₀.Label := 3

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore3 hsub3 (fun c s => cc3_gather_rows (place (c, s))
          (Memref.whole main_arg2_scv) (Memref.isWhole_whole _) (Memref.whole main_v12_scv) (Memref.isWhole_whole _) (Memref.whole main_v13_scv) (Memref.isWhole_whole _)
          (Memref.whole cc3_scratch0) (Memref.isWhole_whole _) (Memref.whole cc3_scratch1) (Memref.isWhole_whole _) (Memref.whole cc3_scratch2) (Memref.isWhole_whole _)
          (Memref.whole cc3_scratch3) (Memref.isWhole_whole _) (Memref.whole cc3_scratch4) (Memref.isWhole_whole _) (Memref.whole cc3_scratch5) (Memref.isWhole_whole _)
          cc3_scratch6 cc3_scratch7 cc3_scratch8 cc3_scratch9 cc3_scratch10 cc3_scratch11 cc3_scratch12 cc3_scratch13 cc3_scratch14 cc3_scratch15 cc3_scoped0) ⟨⟩ c s := rfl

end Cert.Proof.KI.Tile3

end
-- ==== Proof.TileObl3.lean ====
/-
  The launch theorem's obligation for SparseCore call 3: the task's frame, wrapped as the body table's row;
  the handshake's payloads are the task's holdings.
-/
import proofs.«203556_g1357209665813_cont_week2b_798_48_alg».proof.Proof.Tile3Frame
import proofs.«203556_g1357209665813_cont_week2b_798_48_alg».proof.Proof.TileOblBase3

noncomputable section

namespace Cert.Proof.KI.Tile3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid3.bound 0 ∧ ((K (F := F)).sub qC i).val < grid3.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile3

end
-- ==== Proof.Frames.lean ====
/-
  The kernel program's frame from the precondition: the ids are in range, so every task's gathers name rows of the
  table; the four tile obligations then give the run.
-/
import proofs.«203556_g1357209665813_cont_week2b_798_48_alg».proof.Proof.FrameKI
import proofs.«203556_g1357209665813_cont_week2b_798_48_alg».proof.Proof.TileObl0
import proofs.«203556_g1357209665813_cont_week2b_798_48_alg».proof.Proof.TileObl1
import proofs.«203556_g1357209665813_cont_week2b_798_48_alg».proof.Proof.TileObl2
import proofs.«203556_g1357209665813_cont_week2b_798_48_alg».proof.Proof.TileObl3

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL.Sem

variable {F : FTy → Type} [FloatOps F]

variable (m : (ℓ : Loc nD τ sig) → Buf (Elt F) ℓ) (ρ : Dev nD → PrngReg)

/-- The four tile obligations, from the ids' range. -/
theorem htiles [∀ e, Nonempty (Elt F e)]
    (h0 : ∀ d j, ((m ((SparseCore.T d).loc main_arg0) : S1024x200.Idx → BitVec 32) j).toNat < 100000) :
    ∀ q, (K (F := F)).TileObl (D (F := F)) 𝒱 (P (TPv m (Jv m))) v₀ q
  | 0 => Tile0.tileObl m (TPv m (Jv m)) (Ids0 m) (fun _ _ _ => rfl) (fun _ _ _ => rfl) (fun d _ j _ => Ids_range0 m d (h0 d) j)
  | 1 => Tile1.tileObl m (TPv m (Jv m)) (Ids1 m) (fun _ _ _ => rfl) (fun _ _ _ => rfl) (fun d _ j _ => Ids_range1 m d (h0 d) j)
  | 2 => Tile2.tileObl m (TPv m (Jv m)) (Ids2 m) (fun _ _ _ => rfl) (fun _ _ _ => rfl) (fun d _ j _ => Ids_range2 m d (h0 d) j)
  | 3 => Tile3.tileObl m (TPv m (Jv m)) (Ids3 m) (fun _ _ _ => rfl) (fun _ _ _ => rfl) (fun d _ j _ => Ids_range3 m d (h0 d) j)

/-- The program's run: it terminates, nothing faults, the arguments end as launched. -/
theorem run_frame [∀ e, Nonempty (Elt F e)]
    (h0 : ∀ d j, ((m ((SparseCore.T d).loc main_arg0) : S1024x200.Idx → BitVec 32) j).toNat < 100000) :
    θ_run (Cert.KernelIdeal.defs (F := F)) (Cert.KernelIdeal.threads (F := F)) ⟨m, fun _ => 0, ρ⟩ (QC m) :=
  run_of_tiles m ρ (htiles m h0)

end Cert.Proof.KI

end
-- ==== Proof.BCommon.lean ====
/-
  The word-level kernel program as the SparseCore launch theorem sees it: the four vector-subcore calls (each the same
  row gather over its own quarter of the token ids), the four TensorCore layer-norm regions as pipelines of the inner
  signature, and the resource algebra the proofs share — the launch handshakes' rounds, the pipelines' staging cells'
  rounds, and the counters of the tiles' own local copies.
-/
import proofs.«203556_g1357209665813_cont_week2b_798_48_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«203556_g1357209665813_cont_week2b_798_48_alg».proof.Proof.Gen.Kernel
import proofs.«203556_g1357209665813_cont_week2b_798_48_alg».proof.Proof.Gen.Kernel.Skeleton
import proofs.«203556_g1357209665813_cont_week2b_798_48_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 4) : (K (F := F)).nSub q = 16 := by
  match q with
  | 0 => rfl
  | 1 => rfl
  | 2 => rfl
  | 3 => rfl
theorem nCore_eq (q : Fin 4) : (K (F := F)).nCore q = 2 := by
  match q with
  | 0 => rfl
  | 1 => rfl
  | 2 => rfl
  | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UP : Type := URounds (GSem nD τ sig) Unit
abbrev UU : Type := UH × (UP × Counters)

/-- The handshakes' rounds sit in the left factor; -/
abbrev EH : Emb UH (MT nD τ sig (HIx 4) (Elt F) ℕ UU ℕ) := embL
/-- the staging cells' rounds in the middle one; the counters are found by instance in the last. -/
def EP : Emb UP (MT nD τ sig (HIx 4) (Elt F) ℕ UU ℕ) :=
  (Emb.inl : Emb UP (UP × Counters)).trans (embR (A := UH) (B := UP × Counters))

instance EP_landsIn : (EP : Emb UP (MT nD τ sig (HIx 4) (Elt F) ℕ UU ℕ)).LandsIn (upEmb : UEmb _ (MT nD τ sig (HIx 4) (Elt F) ℕ UU ℕ)) := by
  unfold EP; infer_instance

end Cert.Proof.KB

end
-- ==== Proof.BRegion4.lean ====
/-
  Region 4 of the program's TensorCore half (pipeline 0 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.

  Stated at a parameter `V`, the TensorCore's buffer contents when the region is entered, and a parameter `Bd`, a
  bound on the wait pairs the core has recorded:
  * `iblk4`: a window's block at a point, read off its array in `V`;
  * `before4_W_of`: an input window's current staging buffer holds that block at every point, fetched there or not;
  * `out4_6`: what the body leaves in the output window's buffer, as a function of the six input blocks;
  * `sound_kernel4`: the body's triple on whole staging memrefs;
  * `dat4`, `A_eq4`, `after4_W`, `before4_W`, `Φ_eq4`, `owed_eq4`: the pipeline's proof data and its projections;
  * `body_obligation4`: the library's body obligation, at every point.
-/
import proofs.«203556_g1357209665813_cont_week2b_798_48_alg».proof.Proof.BCommon
import proofs.«203556_g1357209665813_cont_week2b_798_48_alg».proof.Proof.Gen.Kernel.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KB.Reg

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region4
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether or not the pipeline fetched
    it there (an unfetched point has the block index of the point before, and the body leaves the block in place), for
    any proof data whose array is `V`'s and whose body leaves the block as found. -/
theorem before4_0_of {c : Dev nD} (dat : Dat τ (Elt F) (HIx 4) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether or not the pipeline fetched
    it there (an unfetched point has the block index of the point before, and the body leaves the block in place), for
    any proof data whose array is `V`'s and whose body leaves the block as found. -/
theorem before4_1_of {c : Dev nD} (dat : Dat τ (Elt F) (HIx 4) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether or not the pipeline fetched
    it there (an unfetched point has the block index of the point before, and the body leaves the block in place), for
    any proof data whose array is `V`'s and whose body leaves the block as found. -/
theorem before4_2_of {c : Dev nD} (dat : Dat τ (Elt F) (HIx 4) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether or not the pipeline fetched
    it there (an unfetched point has the block index of the point before, and the body leaves the block in place), for
    any proof data whose array is `V`'s and whose body leaves the block as found. -/
theorem before4_3_of {c : Dev nD} (dat : Dat τ (Elt F) (HIx 4) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether or not the pipeline fetched
    it there (an unfetched point has the block index of the point before, and the body leaves the block in place), for
    any proof data whose array is `V`'s and whose body leaves the block as found. -/
theorem before4_4_of {c : Dev nD} (dat : Dat τ (Elt F) (HIx 4) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether or not the pipeline fetched
    it there (an unfetched point has the block index of the point before, and the body leaves the block in place), for
    any proof data whose array is `V`'s and whose body leaves the block as found. -/
theorem before4_5_of {c : Dev nD} (dat : Dat τ (Elt F) (HIx 4) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole of a staging buffer -/

abbrev r4_0 : Rect S64x200x128 := Rect.unit (s := S64x200x128) ![0, 0, 0] S64x200x128.size inb_S64x200x128_S64x200x128_0_0_0
abbrev r4_1 : Rect S64x200 := Rect.unit (s := S64x200) ![0, 0] S64x200.size inb_S64x200_S64x200_0_0
abbrev r4_2 : Rect S200x128 := Rect.unit (s := S200x128) ![0, 0] S200x128.size inb_S200x128_S200x128_0_0
abbrev r4_3 : Rect S1x128 := Rect.unit (s := S1x128) ![0, 0] S1x128.size inb_S1x128_S1x128_0_0
abbrev r4_4 : Rect S1x128 := Rect.unit (s := S1x128) ![0, 0] S1x128.size inb_S1x128_S1x128_0_0
abbrev r4_5 : Rect S1x128 := Rect.unit (s := S1x128) ![0, 0] S1x128.size inb_S1x128_S1x128_0_0
abbrev r4_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out4_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r4_6, k4_pay1 (k4_pay2 (View.ld x0 r4_0) (View.ld x1 r4_1) (View.ld x2 r4_2) (View.ld x3 r4_3) (View.ld x4 r4_4)) (View.ld x5 r4_5)⟩]

/-- The one store's rectangle is the whole buffer, so it covers it (a tiling by one tile, checked by evaluation). -/
theorem cover4_6 (p0 : Vec F S64x200x128 .f32) (y : S64x200x128.Idx) :
    ∃ pc ∈ ([⟨r4_6, p0⟩] : List (View.Piece (Elt F) S64x200x128 .f32)), y ∈ pc.1.set :=
  View.cover_of_tiled [⟨r4_6, p0⟩] S64x200x128.size (by rfl) y

/-! ## The body's triple -/

set_option maxHeartbeats 1000000 in
/-- The body on whole staging memrefs — the six inputs' at read contents `x0 … x5`, the output's at anything — runs to
    the continuation holding the inputs' as they were and the output's at `out4_6` of them: the six loads read the
    inputs whole, the output buffer's load is of contents nothing uses, and the one store overwrites all of it. -/
theorem sound_kernel4 (c : Dev nD) (E : Set ℕ) (i : grid4.Coords) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ K ⟨⟩))
      ⊢ wp frame (wpE (defs₀ (F := F)) Variants.none c none) E (cc4__ln_body i a0 ha0 a1 ha1 a2 ha2 a3 ha3 a4 ha4 a5 ha5 a6 ha6) K := by
  simp only [cc4__ln_body_eq_skeleton]; unfold cc4__ln_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The region's invariant on core `c`: the core's scoped buffers that are no staging buffer of this pipeline, each at
    some contents, and its generator register at some state — what the body neither reads nor describes. -/
def Φ4 (c : Dev nD) : sProp 𝕄 :=
  iprop(Pipeline.scopedRest (Ix := HIx 4) (Name := ℕ) (U := UU) (Lvl := ℕ) (Val := Elt F) spec4 c ∗ ∃ r, prngReg c r)

/-- The proof data of pipeline 0 on core `c`: the arrays as the region finds them (`V`); after the body at point `t`
    each input's buffer still at its block and the output's at `out4_6` of the six input blocks; the invariant
    `Φ4` at every point; full shares; nothing owed; the recorded waits within `Bd` throughout. -/
def dat4 (c : Dev nD) : Dat τ (Elt F) (HIx 4) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Φ4 c
  q _ := fullShare
  owed _ := 0
  recorded _ := Bd

/-- The proof data's arrays are the region-entry contents. -/
theorem A_eq4 (c : Dev nD) (w : Fin cfg4.W) : (dat4 V Bd c).A w = V c (Pipeline.arrRef spec4 w) := by
  dsimp only [dat4]

/-- The invariant is the same at every point, -/
theorem Φ_eq4 (c : Dev nD) (t : Fin (cfg4.N + 1)) : (dat4 V Bd c).Φ t = Φ4 c := by
  dsimp only [dat4]
/-- nothing is ever owed, -/
theorem owed_eq4 (c : Dev nD) (t : Fin (cfg4.N + 1)) : (dat4 V Bd c).owed t = 0 := by
  dsimp only [dat4]
/-- and the bound on the recorded waits does not move. -/
theorem recorded_eq4 (c : Dev nD) (t : Fin (cfg4.N + 1)) : (dat4 V Bd c).recorded t = Bd := by
  dsimp only [dat4]

/-- What the body leaves, window by window. -/
theorem after4_0 (c : Dev nD) (t : Fin cfg4.N) : (dat4 V Bd c).after 0 t = iblk4 V c 0 t := by dsimp only [dat4]
theorem after4_1 (c : Dev nD) (t : Fin cfg4.N) : (dat4 V Bd c).after 1 t = iblk4 V c 1 t := by dsimp only [dat4]
theorem after4_2 (c : Dev nD) (t : Fin cfg4.N) : (dat4 V Bd c).after 2 t = iblk4 V c 2 t := by dsimp only [dat4]
theorem after4_3 (c : Dev nD) (t : Fin cfg4.N) : (dat4 V Bd c).after 3 t = iblk4 V c 3 t := by dsimp only [dat4]
theorem after4_4 (c : Dev nD) (t : Fin cfg4.N) : (dat4 V Bd c).after 4 t = iblk4 V c 4 t := by dsimp only [dat4]
theorem after4_5 (c : Dev nD) (t : Fin cfg4.N) : (dat4 V Bd c).after 5 t = iblk4 V c 5 t := by dsimp only [dat4]
theorem after4_6 (c : Dev nD) (t : Fin cfg4.N) : (dat4 V Bd c).after 6 t = out4_6 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V Bd c).before 0 t d = iblk4 V c 0 t :=
  before4_0_of V (dat4 V Bd c) (A_eq4 V Bd c 0) (after4_0 V Bd c) t d
theorem before4_1 (c : Dev nD) (t : Fin cfg4.N) (d) : (dat4 V Bd c).before 1 t d = iblk4 V c 1 t :=
  before4_1_of V (dat4 V Bd c) (A_eq4 V Bd c 1) (after4_1 V Bd c) t d
theorem before4_2 (c : Dev nD) (t : Fin cfg4.N) (d) : (dat4 V Bd c).before 2 t d = iblk4 V c 2 t :=
  before4_2_of V (dat4 V Bd c) (A_eq4 V Bd c 2) (after4_2 V Bd c) t d
theorem before4_3 (c : Dev nD) (t : Fin cfg4.N) (d) : (dat4 V Bd c).before 3 t d = iblk4 V c 3 t :=
  before4_3_of V (dat4 V Bd c) (A_eq4 V Bd c 3) (after4_3 V Bd c) t d
theorem before4_4 (c : Dev nD) (t : Fin cfg4.N) (d) : (dat4 V Bd c).before 4 t d = iblk4 V c 4 t :=
  before4_4_of V (dat4 V Bd c) (A_eq4 V Bd c 4) (after4_4 V Bd c) t d
theorem before4_5 (c : Dev nD) (t : Fin cfg4.N) (d) : (dat4 V Bd c).before 5 t d = iblk4 V c 5 t :=
  before4_5_of V (dat4 V Bd c) (A_eq4 V Bd c 5) (after4_5 V Bd c) t d

/-! ## The body obligation, at a generic point -/

/-- What the body is called with at point `t`: the invariant, the core's dues, and each window's current staging
    buffer at what it then holds, -/
def bodyPre4 (c : Dev nD) (t : Fin cfg4.N) : sProp 𝕄 :=
  iprop((dat4 V Bd c).Φ t.castSucc ∗ (dat4 V Bd c).owesAt none t.castSucc
    ∗ (∃ d, owns (c : Thread nD τ) (st4_0 t) fullShare ((dat4 V Bd c).before 0 t d))
    ∗ (∃ d, owns (c : Thread nD τ) (st4_1 t) fullShare ((dat4 V Bd c).before 1 t d))
    ∗ (∃ d, owns (c : Thread nD τ) (st4_2 t) fullShare ((dat4 V Bd c).before 2 t d))
    ∗ (∃ d, owns (c : Thread nD τ) (st4_3 t) fullShare ((dat4 V Bd c).before 3 t d))
    ∗ (∃ d, owns (c : Thread nD τ) (st4_4 t) fullShare ((dat4 V Bd c).before 4 t d))
    ∗ (∃ d, owns (c : Thread nD τ) (st4_5 t) fullShare ((dat4 V Bd c).before 5 t d))
    ∗ (∃ d, owns (c : Thread nD τ) (st4_6 t) fullShare ((dat4 V Bd c).before 6 t d)))

/-- and what it returns: the same, each buffer at what the body leaves. -/
def bodyPost4 (c : Dev nD) (t : Fin cfg4.N) : sProp 𝕄 :=
  iprop((dat4 V Bd c).Φ t.succ ∗ (dat4 V Bd c).owesAt none t.succ
    ∗ owns (c : Thread nD τ) (st4_0 t) fullShare ((dat4 V Bd c).after 0 t)
    ∗ owns (c : Thread nD τ) (st4_1 t) fullShare ((dat4 V Bd c).after 1 t)
    ∗ owns (c : Thread nD τ) (st4_2 t) fullShare ((dat4 V Bd c).after 2 t)
    ∗ owns (c : Thread nD τ) (st4_3 t) fullShare ((dat4 V Bd c).after 3 t)
    ∗ owns (c : Thread nD τ) (st4_4 t) fullShare ((dat4 V Bd c).after 4 t)
    ∗ owns (c : Thread nD τ) (st4_5 t) fullShare ((dat4 V Bd c).after 5 t)
    ∗ owns (c : Thread nD τ) (st4_6 t) fullShare ((dat4 V Bd c).after 6 t))

/-- The body at any point: the inputs' buffers hold their blocks (`before4_W`), so `sound_kernel4` applies; the
    invariant and the core's dues pass through unread. -/
theorem sound_body4 (c : Dev nD) (t : Fin cfg4.N) :
    bodyPre4 V Bd c t ⊢ wp frame (wpE (defs₀ (F := F)) Variants.none c none) Set.univ (bodyAt4 t) (fun _ => bodyPost4 V Bd c t) := by
  unfold bodyPre4 bodyPost4 bodyAt4
  simp only [before4_0, before4_1, before4_2, before4_3, before4_4, before4_5]
  rw [show (dat4 V Bd c).Φ t.succ = (dat4 V Bd c).Φ t.castSucc from rfl,
    show (dat4 V Bd c).owesAt none t.succ = (dat4 V Bd c).owesAt none t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V Bd c) (defs₀ (F := F)) Variants.none (none : HIx 4) Set.univ := fun t => by
  rw [bigSep_W4, bigSep_W4]
  exact sound_body4 V Bd c t

end Region4

end Cert.Proof.KB.Reg

end
-- ==== Proof.BRegion5.lean ====
/-
  Region 5 of the program's TensorCore half (pipeline 1 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk5`: a window's block at a point, read off its array in `V`;
  * `before5_W_of`: an input window's current staging buffer holds that block at every point, fetched there or not;
  * `out5_6`: what the body leaves in the output window's buffer, as a function of the six input blocks;
  * `sound_kernel5`: the body's triple on whole staging memrefs;
  * `dat5`, `A_eq5`, `after5_W`, `before5_W`, `Φ_eq5`, `owed_eq5`: the pipeline's proof data and its projections;
  * `body_obligation5`: the library's body obligation, at every point.
-/
import proofs.«203556_g1357209665813_cont_week2b_798_48_alg».proof.Proof.BCommon
import proofs.«203556_g1357209665813_cont_week2b_798_48_alg».proof.Proof.Gen.Kernel.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KB.Reg

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region5
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether or not the pipeline fetched
    it there (an unfetched point has the block index of the point before, and the body leaves the block in place), for
    any proof data whose array is `V`'s and whose body leaves the block as found. -/
theorem before5_0_of {c : Dev nD} (dat : Dat τ (Elt F) (HIx 4) ℕ UU ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether or not the pipeline fetched
    it there (an unfetched point has the block index of the point before, and the body leaves the block in place), for
    any proof data whose array is `V`'s and whose body leaves the block as found. -/
theorem before5_1_of {c : Dev nD} (dat : Dat τ (Elt F) (HIx 4) ℕ UU ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether or not the pipeline fetched
    it there (an unfetched point has the block index of the point before, and the body leaves the block in place), for
    any proof data whose array is `V`'s and whose body leaves the block as found. -/
theorem before5_2_of {c : Dev nD} (dat : Dat τ (Elt F) (HIx 4) ℕ UU ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether or not the pipeline fetched
    it there (an unfetched point has the block index of the point before, and the body leaves the block in place), for
    any proof data whose array is `V`'s and whose body leaves the block as found. -/
theorem before5_3_of {c : Dev nD} (dat : Dat τ (Elt F) (HIx 4) ℕ UU ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether or not the pipeline fetched
    it there (an unfetched point has the block index of the point before, and the body leaves the block in place), for
    any proof data whose array is `V`'s and whose body leaves the block as found. -/
theorem before5_4_of {c : Dev nD} (dat : Dat τ (Elt F) (HIx 4) ℕ UU ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, whether or not the pipeline fetched
    it there (an unfetched point has the block index of the point before, and the body leaves the block in place), for
    any proof data whose array is `V`'s and whose body leaves the block as found. -/
theorem before5_5_of {c : Dev nD} (dat : Dat τ (Elt F) (HIx 4) ℕ UU ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store go through the whole of a staging buffer -/

abbrev r5_0 : Rect S64x200x128 := Rect.unit (s := S64x200x128) ![0, 0, 0] S64x200x128.size inb_S64x200x128_S64x200x128_0_0_0
abbrev r5_1 : Rect S64x200 := Rect.unit (s := S64x200) ![0, 0] S64x200.size inb_S64x200_S64x200_0_0
abbrev r5_2 : Rect S200x128 := Rect.unit (s := S200x128) ![0, 0] S200x128.size inb_S200x128_S200x128_0_0
abbrev r5_3 : Rect S1x128 := Rect.unit (s := S1x128) ![0, 0] S1x128.size inb_S1x128_S1x128_0_0
abbrev r5_4 : Rect S1x128 := Rect.unit (s := S1x128) ![0, 0] S1x128.size inb_S1x128_S1x128_0_0
abbrev r5_5 : Rect S1x128 := Rect.unit (s := S1x128) ![0, 0] S1x128.size inb_S1x128_S1x128_0_0
abbrev r5_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out5_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r5_6, k5_pay1 (k5_pay2 (View.ld x0 r5_0) (View.ld x1 r5_1) (View.ld x2 r5_2) (View.ld x3 r5_3) (View.ld x4 r5_4)) (View.ld x5 r5_5)⟩]

/-- The one store's rectangle is the whole buffer, so it covers it (a tiling by one tile, checked by evaluation). -/
theorem cover5_6 (p0 : Vec F S64x200x128 .f32) (y : S64x200x128.Idx) :
    ∃ pc ∈ ([⟨r5_6, p0⟩] : List (View.Piece (Elt F) S64x200x128 .f32)), y ∈ pc.1.set :=
  View.cover_of_tiled [⟨r5_6, p0⟩] S64x200x128.size (by rfl) y

/-! ## The body's triple -/

set_option maxHeartbeats 1000000 in
/-- The body on whole staging memrefs — the six inputs' at read contents `x0 … x5`, the output's at anything — runs to
    the continuation holding the inputs' as they were and the output's at `out5_6` of them: the six loads read the
    inputs whole, the output buffer's load is of contents nothing uses, and the one store overwrites all of it.
    The leading HBM array is passed along and never accessed. -/
theorem sound_kernel5 (c : Dev nD) (E : Set ℕ) (i : grid5.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ K ⟨⟩))
      ⊢ wp frame (wpE (defs₀ (F := F)) Variants.none c none) E (cc5__ln_body_aliased i hb hhb a0 ha0 a1 ha1 a2 ha2 a3 ha3 a4 ha4 a5 ha5 a6 ha6) K := by
  simp only [cc5__ln_body_aliased_eq_skeleton]; unfold cc5__ln_body_aliased_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The pipeline's proof data -/

/-- The region's invariant on core `c`: the core's scoped buffers that are no staging buffer of this pipeline, each at
    some contents, and its generator register at some state — what the body neither reads nor describes. -/
def Φ5 (c : Dev nD) : sProp 𝕄 :=
  iprop(Pipeline.scopedRest (Ix := HIx 4) (Name := ℕ) (U := UU) (Lvl := ℕ) (Val := Elt F) spec5 c ∗ ∃ r, prngReg c r)

/-- The proof data of pipeline 1 on core `c`: the arrays as the region finds them (`V`); after the body at point `t`
    each input's buffer still at its block and the output's at `out5_6` of the six input blocks; the invariant
    `Φ5` at every point; full shares; nothing owed; the recorded waits within `Bd` throughout. -/
def dat5 (c : Dev nD) : Dat τ (Elt F) (HIx 4) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Φ5 c
  q _ := fullShare
  owed _ := 0
  recorded _ := Bd

/-- The proof data's arrays are the region-entry contents. -/
theorem A_eq5 (c : Dev nD) (w : Fin cfg5.W) : (dat5 V Bd c).A w = V c (Pipeline.arrRef spec5 w) := by
  dsimp only [dat5]

/-- The invariant is the same at every point, -/
theorem Φ_eq5 (c : Dev nD) (t : Fin (cfg5.N + 1)) : (dat5 V Bd c).Φ t = Φ5 c := by
  dsimp only [dat5]
/-- nothing is ever owed, -/
theorem owed_eq5 (c : Dev nD) (t : Fin (cfg5.N + 1)) : (dat5 V Bd c).owed t = 0 := by
  dsimp only [dat5]
/-- and the bound on the recorded waits does not move. -/
theorem recorded_eq5 (c : Dev nD) (t : Fin (cfg5.N + 1)) : (dat5 V Bd c).recorded t = Bd := by
  dsimp only [dat5]

/-- What the body leaves, window by window. -/
theorem after5_0 (c : Dev nD) (t : Fin cfg5.N) : (dat5 V Bd c).after 0 t = iblk5 V c 0 t := by dsimp only [dat5]
theorem after5_1 (c : Dev nD) (t : Fin cfg5.N) : (dat5 V Bd c).after 1 t = iblk5 V c 1 t := by dsimp only [dat5]
theorem after5_2 (c : Dev nD) (t : Fin cfg5.N) : (dat5 V Bd c).after 2 t = iblk5 V c 2 t := by dsimp only [dat5]
theorem after5_3 (c : Dev nD) (t : Fin cfg5.N) : (dat5 V Bd c).after 3 t = iblk5 V c 3 t := by dsimp only [dat5]
theorem after5_4 (c : Dev nD) (t : Fin cfg5.N) : (dat5 V Bd c).after 4 t = iblk5 V c 4 t := by dsimp only [dat5]
theorem after5_5 (c : Dev nD) (t : Fin cfg5.N) : (dat5 V Bd c).after 5 t = iblk5 V c 5 t := by dsimp only [dat5]
theorem after5_6 (c : Dev nD) (t : Fin cfg5.N) : (dat5 V Bd c).after 6 t = out5_6 (iblk5 V c 0 t) (iblk5 V c 1 t) (iblk5 V c 2 t) (iblk5 V c 3 t) (iblk5 V c 4 t) (iblk5 V c 5 t) := by dsimp only [dat5]

/-- Each input's current staging buffer holds its block at every point, fetched there or not. -/
theorem before5_0 (c : Dev nD) (t : Fin cfg5.N) (d) : (dat5 V Bd c).before 0 t d = iblk5 V c 0 t :=
  before5_0_of V (dat5 V Bd c) (A_eq5 V Bd c 0) (after5_0 V Bd c) t d
theorem before5_1 (c : Dev nD) (t : Fin cfg5.N) (d) : (dat5 V Bd c).before 1 t d = iblk5 V c 1 t :=
  before5_1_of V (dat5 V Bd c) (A_eq5 V Bd c 1) (after5_1 V Bd c) t d
theorem before5_2 (c : Dev nD) (t : Fin cfg5.N) (d) : (dat5 V Bd c).before 2 t d = iblk5 V c 2 t :=
  before5_2_of V (dat5 V Bd c) (A_eq5 V Bd c 2) (after5_2 V Bd c) t d
theorem before5_3 (c : Dev nD) (t : Fin cfg5.N) (d) : (dat5 V Bd c).before 3 t d = iblk5 V c 3 t :=
  before5_3_of V (dat5 V Bd c) (A_eq5 V Bd c 3) (after5_3 V Bd c) t d
theorem before5_4 (c : Dev nD) (t : Fin cfg5.N) (d) : (dat5 V Bd c).before 4 t d = iblk5 V c 4 t :=
  before5_4_of V (dat5 V Bd c) (A_eq5 V Bd c 4) (after5_4 V Bd c) t d
theorem before5_5 (c : Dev nD) (t : Fin cfg5.N) (d) : (dat5 V Bd c).before 5 t d = iblk5 V c 5 t :=
  before5_5_of V (dat5 V Bd c) (A_eq5 V Bd c 5) (after5_5 V Bd c) t d

/-! ## The body obligation, at a generic point -/

/-- What the body is called with at point `t`: the invariant, the core's dues, and each window's current staging
    buffer at what it then holds, -/
def bodyPre5 (c : Dev nD) (t : Fin cfg5.N) : sProp 𝕄 :=
  iprop((dat5 V Bd c).Φ t.castSucc ∗ (dat5 V Bd c).owesAt none t.castSucc
    ∗ (∃ d, owns (c : Thread nD τ) (st5_0 t) fullShare ((dat5 V Bd c).before 0 t d))
    ∗ (∃ d, owns (c : Thread nD τ) (st5_1 t) fullShare ((dat5 V Bd c).before 1 t d))
    ∗ (∃ d, owns (c : Thread nD τ) (st5_2 t) fullShare ((dat5 V Bd c).before 2 t d))
    ∗ (∃ d, owns (c : Thread nD τ) (st5_3 t) fullShare ((dat5 V Bd c).before 3 t d))
    ∗ (∃ d, owns (c : Thread nD τ) (st5_4 t) fullShare ((dat5 V Bd c).before 4 t d))
    ∗ (∃ d, owns (c : Thread nD τ) (st5_5 t) fullShare ((dat5 V Bd c).before 5 t d))
    ∗ (∃ d, owns (c : Thread nD τ) (st5_6 t) fullShare ((dat5 V Bd c).before 6 t d)))

/-- and what it returns: the same, each buffer at what the body leaves. -/
def bodyPost5 (c : Dev nD) (t : Fin cfg5.N) : sProp 𝕄 :=
  iprop((dat5 V Bd c).Φ t.succ ∗ (dat5 V Bd c).owesAt none t.succ
    ∗ owns (c : Thread nD τ) (st5_0 t) fullShare ((dat5 V Bd c).after 0 t)
    ∗ owns (c : Thread nD τ) (st5_1 t) fullShare ((dat5 V Bd c).after 1 t)
    ∗ owns (c : Thread nD τ) (st5_2 t) fullShare ((dat5 V Bd c).after 2 t)
    ∗ owns (c : Thread nD τ) (st5_3 t) fullShare ((dat5 V Bd c).after 3 t)
    ∗ owns (c : Thread nD τ) (st5_4 t) fullShare ((dat5 V Bd c).after 4 t)
    ∗ owns (c : Thread nD τ) (st5_5 t) fullShare ((dat5 V Bd c).after 5 t)
    ∗ owns (c : Thread nD τ) (st5_6 t) fullShare ((dat5 V Bd c).after 6 t))

/-- The body at any point: the inputs' buffers hold their blocks (`before5_W`), so `sound_kernel5` applies; the
    invariant and the core's dues pass through unread. -/
theorem sound_body5 (c : Dev nD) (t : Fin cfg5.N) :
    bodyPre5 V Bd c t ⊢ wp frame (wpE (defs₀ (F := F)) Variants.none c none) Set.univ (bodyAt5 t) (fun _ => bodyPost5 V Bd c t) := by
  unfold bodyPre5 bodyPost5 bodyAt5
  simp only [before5_0, before5_1, before5_2, before5_3, before5_4, before5_5]
  rw [show (dat5 V Bd c).Φ t.succ = (dat5 V Bd c).Φ t.castSucc from rfl,
    show (dat5 V Bd c).owesAt none t.succ = (dat5 V Bd c).owesAt none t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation5 (c : Dev nD) : BodyObligation (dat5 (F := F) V Bd c) (defs₀ (F := F)) Variants.none (none : HIx 4) Set.univ := fun t => by
  rw [bigSep_W5, bigSep_W5]
  exact sound_body5 V Bd c t

end Region5

end Cert.Proof.KB.Reg

end
-- ==== Proof.BRegion6.lean ====
/-
  Region 6 of the program's TensorCore half (pipeline 2 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk6`: a window's block at a point, read off its array in `V`;
  * `before6_W_of`: an input window's current staging buffer holds that block at every point, fetched there or not;
  * `out6_6`: what the body leaves in the output window's buffer, as a function of the six input blocks;
  * `sound_kernel6`: the body's triple on whole staging memrefs;
  * `dat6`, `A_eq6`, `after6_W`, `before6_W`, `Φ_eq6`, `owed_eq6`: the pipeline's proof data and its projections;
  * `body_obligation6`: the library's body obligation, at every point.
-/
import proofs.«203556_g1357209665813_cont_week2b_798_48_alg».proof.Proof.BCommon
import proofs.«203556_g1357209665813_cont_week2b_798_48_alg».proof.Proof.Gen.Kernel.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KB.Reg

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region6
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether or not the pipeline fetched
    it there (an unfetched point has the block index of the point before, and the body leaves the block in place), for
    any proof data whose array is `V`'s and whose body leaves the block as found. -/
theorem before6_0_of {c : Dev nD} (dat : Dat τ (Elt F) (HIx 4) ℕ UU ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether or not the pipeline fetched
    it there (an unfetched point has the block index of the point before, and the body leaves the block in place), for
    any proof data whose array is `V`'s and whose body leaves the block as found. -/
theorem before6_1_of {c : Dev nD} (dat : Dat τ (Elt F) (HIx 4) ℕ UU ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether or not the pipeline fetched
    it there (an unfetched point has the block index of the point before, and the body leaves the block in place), for
    any proof data whose array is `V`'s and whose body leaves the block as found. -/
theorem before6_2_of {c : Dev nD} (dat : Dat τ (Elt F) (HIx 4) ℕ UU ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether or not the pipeline fetched
    it there (an unfetched point has the block index of the point before, and the body leaves the block in place), for
    any proof data whose array is `V`'s and whose body leaves the block as found. -/
theorem before6_3_of {c : Dev nD} (dat : Dat τ (Elt F) (HIx 4) ℕ UU ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether or not the pipeline fetched
    it there (an unfetched point has the block index of the point before, and the body leaves the block in place), for
    any proof data whose array is `V`'s and whose body leaves the block as found. -/
theorem before6_4_of {c : Dev nD} (dat : Dat τ (Elt F) (HIx 4) ℕ UU ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether or not the pipeline fetched
    it there (an unfetched point has the block index of the point before, and the body leaves the block in place), for
    any proof data whose array is `V`'s and whose body leaves the block as found. -/
theorem before6_5_of {c : Dev nD} (dat : Dat τ (Elt F) (HIx 4) ℕ UU ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store go through the whole of a staging buffer -/

abbrev r6_0 : Rect S64x200x128 := Rect.unit (s := S64x200x128) ![0, 0, 0] S64x200x128.size inb_S64x200x128_S64x200x128_0_0_0
abbrev r6_1 : Rect S64x200 := Rect.unit (s := S64x200) ![0, 0] S64x200.size inb_S64x200_S64x200_0_0
abbrev r6_2 : Rect S200x128 := Rect.unit (s := S200x128) ![0, 0] S200x128.size inb_S200x128_S200x128_0_0
abbrev r6_3 : Rect S1x128 := Rect.unit (s := S1x128) ![0, 0] S1x128.size inb_S1x128_S1x128_0_0
abbrev r6_4 : Rect S1x128 := Rect.unit (s := S1x128) ![0, 0] S1x128.size inb_S1x128_S1x128_0_0
abbrev r6_5 : Rect S1x128 := Rect.unit (s := S1x128) ![0, 0] S1x128.size inb_S1x128_S1x128_0_0
abbrev r6_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out6_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r6_6, k6_pay1 (k6_pay2 (View.ld x0 r6_0) (View.ld x1 r6_1) (View.ld x2 r6_2) (View.ld x3 r6_3) (View.ld x4 r6_4)) (View.ld x5 r6_5)⟩]

/-- The one store's rectangle is the whole buffer, so it covers it (a tiling by one tile, checked by evaluation). -/
theorem cover6_6 (p0 : Vec F S64x200x128 .f32) (y : S64x200x128.Idx) :
    ∃ pc ∈ ([⟨r6_6, p0⟩] : List (View.Piece (Elt F) S64x200x128 .f32)), y ∈ pc.1.set :=
  View.cover_of_tiled [⟨r6_6, p0⟩] S64x200x128.size (by rfl) y

/-! ## The body's triple -/

set_option maxHeartbeats 1000000 in
/-- The body on whole staging memrefs — the six inputs' at read contents `x0 … x5`, the output's at anything — runs to
    the continuation holding the inputs' as they were and the output's at `out6_6` of them: the six loads read the
    inputs whole, the output buffer's load is of contents nothing uses, and the one store overwrites all of it.
    The leading HBM array is passed along and never accessed. -/
theorem sound_kernel6 (c : Dev nD) (E : Set ℕ) (i : grid6.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ K ⟨⟩))
      ⊢ wp frame (wpE (defs₀ (F := F)) Variants.none c none) E (cc6__ln_body_aliased i hb hhb a0 ha0 a1 ha1 a2 ha2 a3 ha3 a4 ha4 a5 ha5 a6 ha6) K := by
  simp only [cc6__ln_body_aliased_eq_skeleton]; unfold cc6__ln_body_aliased_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The region's invariant on core `c`: the core's scoped buffers that are no staging buffer of this pipeline, each at
    some contents, and its generator register at some state — what the body neither reads nor describes. -/
def Φ6 (c : Dev nD) : sProp 𝕄 :=
  iprop(Pipeline.scopedRest (Ix := HIx 4) (Name := ℕ) (U := UU) (Lvl := ℕ) (Val := Elt F) spec6 c ∗ ∃ r, prngReg c r)

/-- The proof data of pipeline 2 on core `c`: the arrays as the region finds them (`V`); after the body at point `t`
    each input's buffer still at its block and the output's at `out6_6` of the six input blocks; the invariant
    `Φ6` at every point; full shares; nothing owed; the recorded waits within `Bd` throughout. -/
def dat6 (c : Dev nD) : Dat τ (Elt F) (HIx 4) ℕ UU ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Φ6 c
  q _ := fullShare
  owed _ := 0
  recorded _ := Bd

/-- The proof data's arrays are the region-entry contents. -/
theorem A_eq6 (c : Dev nD) (w : Fin cfg6.W) : (dat6 V Bd c).A w = V c (Pipeline.arrRef spec6 w) := by
  dsimp only [dat6]

/-- The invariant is the same at every point, -/
theorem Φ_eq6 (c : Dev nD) (t : Fin (cfg6.N + 1)) : (dat6 V Bd c).Φ t = Φ6 c := by
  dsimp only [dat6]
/-- nothing is ever owed, -/
theorem owed_eq6 (c : Dev nD) (t : Fin (cfg6.N + 1)) : (dat6 V Bd c).owed t = 0 := by
  dsimp only [dat6]
/-- and the bound on the recorded waits does not move. -/
theorem recorded_eq6 (c : Dev nD) (t : Fin (cfg6.N + 1)) : (dat6 V Bd c).recorded t = Bd := by
  dsimp only [dat6]

/-- What the body leaves, window by window. -/
theorem after6_0 (c : Dev nD) (t : Fin cfg6.N) : (dat6 V Bd c).after 0 t = iblk6 V c 0 t := by dsimp only [dat6]
theorem after6_1 (c : Dev nD) (t : Fin cfg6.N) : (dat6 V Bd c).after 1 t = iblk6 V c 1 t := by dsimp only [dat6]
theorem after6_2 (c : Dev nD) (t : Fin cfg6.N) : (dat6 V Bd c).after 2 t = iblk6 V c 2 t := by dsimp only [dat6]
theorem after6_3 (c : Dev nD) (t : Fin cfg6.N) : (dat6 V Bd c).after 3 t = iblk6 V c 3 t := by dsimp only [dat6]
theorem after6_4 (c : Dev nD) (t : Fin cfg6.N) : (dat6 V Bd c).after 4 t = iblk6 V c 4 t := by dsimp only [dat6]
theorem after6_5 (c : Dev nD) (t : Fin cfg6.N) : (dat6 V Bd c).after 5 t = iblk6 V c 5 t := by dsimp only [dat6]
theorem after6_6 (c : Dev nD) (t : Fin cfg6.N) : (dat6 V Bd c).after 6 t = out6_6 (iblk6 V c 0 t) (iblk6 V c 1 t) (iblk6 V c 2 t) (iblk6 V c 3 t) (iblk6 V c 4 t) (iblk6 V c 5 t) := by dsimp only [dat6]

/-- Each input's current staging buffer holds its block at every point, fetched there or not. -/
theorem before6_0 (c : Dev nD) (t : Fin cfg6.N) (d) : (dat6 V Bd c).before 0 t d = iblk6 V c 0 t :=
  before6_0_of V (dat6 V Bd c) (A_eq6 V Bd c 0) (after6_0 V Bd c) t d
theorem before6_1 (c : Dev nD) (t : Fin cfg6.N) (d) : (dat6 V Bd c).before 1 t d = iblk6 V c 1 t :=
  before6_1_of V (dat6 V Bd c) (A_eq6 V Bd c 1) (after6_1 V Bd c) t d
theorem before6_2 (c : Dev nD) (t : Fin cfg6.N) (d) : (dat6 V Bd c).before 2 t d = iblk6 V c 2 t :=
  before6_2_of V (dat6 V Bd c) (A_eq6 V Bd c 2) (after6_2 V Bd c) t d
theorem before6_3 (c : Dev nD) (t : Fin cfg6.N) (d) : (dat6 V Bd c).before 3 t d = iblk6 V c 3 t :=
  before6_3_of V (dat6 V Bd c) (A_eq6 V Bd c 3) (after6_3 V Bd c) t d
theorem before6_4 (c : Dev nD) (t : Fin cfg6.N) (d) : (dat6 V Bd c).before 4 t d = iblk6 V c 4 t :=
  before6_4_of V (dat6 V Bd c) (A_eq6 V Bd c 4) (after6_4 V Bd c) t d
theorem before6_5 (c : Dev nD) (t : Fin cfg6.N) (d) : (dat6 V Bd c).before 5 t d = iblk6 V c 5 t :=
  before6_5_of V (dat6 V Bd c) (A_eq6 V Bd c 5) (after6_5 V Bd c) t d

/-! ## The body obligation, at a generic point -/

/-- What the body is called with at point `t`: the invariant, the core's dues, and each window's current staging
    buffer at what it then holds, -/
def bodyPre6 (c : Dev nD) (t : Fin cfg6.N) : sProp 𝕄 :=
  iprop((dat6 V Bd c).Φ t.castSucc ∗ (dat6 V Bd c).owesAt none t.castSucc
    ∗ (∃ d, owns (c : Thread nD τ) (st6_0 t) fullShare ((dat6 V Bd c).before 0 t d))
    ∗ (∃ d, owns (c : Thread nD τ) (st6_1 t) fullShare ((dat6 V Bd c).before 1 t d))
    ∗ (∃ d, owns (c : Thread nD τ) (st6_2 t) fullShare ((dat6 V Bd c).before 2 t d))
    ∗ (∃ d, owns (c : Thread nD τ) (st6_3 t) fullShare ((dat6 V Bd c).before 3 t d))
    ∗ (∃ d, owns (c : Thread nD τ) (st6_4 t) fullShare ((dat6 V Bd c).before 4 t d))
    ∗ (∃ d, owns (c : Thread nD τ) (st6_5 t) fullShare ((dat6 V Bd c).before 5 t d))
    ∗ (∃ d, owns (c : Thread nD τ) (st6_6 t) fullShare ((dat6 V Bd c).before 6 t d)))

/-- and what it returns: the same, each buffer at what the body leaves. -/
def bodyPost6 (c : Dev nD) (t : Fin cfg6.N) : sProp 𝕄 :=
  iprop((dat6 V Bd c).Φ t.succ ∗ (dat6 V Bd c).owesAt none t.succ
    ∗ owns (c : Thread nD τ) (st6_0 t) fullShare ((dat6 V Bd c).after 0 t)
    ∗ owns (c : Thread nD τ) (st6_1 t) fullShare ((dat6 V Bd c).after 1 t)
    ∗ owns (c : Thread nD τ) (st6_2 t) fullShare ((dat6 V Bd c).after 2 t)
    ∗ owns (c : Thread nD τ) (st6_3 t) fullShare ((dat6 V Bd c).after 3 t)
    ∗ owns (c : Thread nD τ) (st6_4 t) fullShare ((dat6 V Bd c).after 4 t)
    ∗ owns (c : Thread nD τ) (st6_5 t) fullShare ((dat6 V Bd c).after 5 t)
    ∗ owns (c : Thread nD τ) (st6_6 t) fullShare ((dat6 V Bd c).after 6 t))

/-- The body at any point: the inputs' buffers hold their blocks (`before6_W`), so `sound_kernel6` applies; the
    invariant and the core's dues pass through unread. -/
theorem sound_body6 (c : Dev nD) (t : Fin cfg6.N) :
    bodyPre6 V Bd c t ⊢ wp frame (wpE (defs₀ (F := F)) Variants.none c none) Set.univ (bodyAt6 t) (fun _ => bodyPost6 V Bd c t) := by
  unfold bodyPre6 bodyPost6 bodyAt6
  simp only [before6_0, before6_1, before6_2, before6_3, before6_4, before6_5]
  rw [show (dat6 V Bd c).Φ t.succ = (dat6 V Bd c).Φ t.castSucc from rfl,
    show (dat6 V Bd c).owesAt none t.succ = (dat6 V Bd c).owesAt none t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V Bd c) (defs₀ (F := F)) Variants.none (none : HIx 4) Set.univ := fun t => by
  rw [bigSep_W6, bigSep_W6]
  exact sound_body6 V Bd c t

end Region6

end Cert.Proof.KB.Reg

end
-- ==== Proof.BRegion7.lean ====
/-
  Region 7 of the program's TensorCore half (pipeline 3 of @main): one layer-norm call over a grid of four
  points. At each point the body reads six input windows whole — a 64×200×128 block of gathered embedding rows, the
  matching 64×200 block of token-type ids, the 200×128 position table, the token-type difference row, and the scale
  and shift rows —, computes the normalized block, and stores it over the whole 64×200×128 output window.
  The body is also handed the previous call's result array in HBM, which it never touches.

  Stated at a parameter `V`, the TensorCore's buffer contents when the region is entered, and a parameter `Bd`, a
  bound on the wait pairs the core has recorded:
  * `iblk7`: a window's block at a point, read off its array in `V`;
  * `before7_W_of`: an input window's current staging buffer holds that block at every point, fetched there or not;
  * `out7_6`: what the body leaves in the output window's buffer, as a function of the six input blocks;
  * `sound_kernel7`: the body's triple on whole staging memrefs;
  * `dat7`, `A_eq7`, `after7_W`, `before7_W`, `Φ_eq7`, `owed_eq7`: the pipeline's proof data and its projections;
  * `body_obligation7`: the library's body obligation, at every point.
-/
import proofs.«203556_g1357209665813_cont_week2b_798_48_alg».proof.Proof.BCommon
import proofs.«203556_g1357209665813_cont_week2b_798_48_alg».proof.Proof.Gen.Kernel.Points
import Idealize.ShloMosaic.Lib.Pipeline.FrameBody
import Idealize.ShloMosaic.Lib.Ring
import Idealize.ShloMosaic.Lib.Tactic

-- a block has 64·200·128 elements: membership in a rectangle of that extent is looked at structurally, once per
-- coordinate of the long axes
set_option maxRecDepth 16384

noncomputable section

namespace Cert.Proof.KB.Reg

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Region7
-- the TensorCore's buffer contents when the region is entered
variable (V : (c : Dev nD) → (b : Ref sig .tc) → Buf (Elt F) ((c : Thread nD τ).loc b))
-- a bound on the (cell, index) pairs the core's waits have recorded so far
variable (Bd : Set (SemLoc sig × HIx 4))

/-! ## The windows' blocks -/

/-- Window `w`'s block at point `t`: the part of its array, as the region finds it, that the index map selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether or not the pipeline fetched
    it there (an unfetched point has the block index of the point before, and the body leaves the block in place), for
    any proof data whose array is `V`'s and whose body leaves the block as found. -/
theorem before7_0_of {c : Dev nD} (dat : Dat τ (Elt F) (HIx 4) ℕ UU ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether or not the pipeline fetched
    it there (an unfetched point has the block index of the point before, and the body leaves the block in place), for
    any proof data whose array is `V`'s and whose body leaves the block as found. -/
theorem before7_1_of {c : Dev nD} (dat : Dat τ (Elt F) (HIx 4) ℕ UU ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether or not the pipeline fetched
    it there (an unfetched point has the block index of the point before, and the body leaves the block in place), for
    any proof data whose array is `V`'s and whose body leaves the block as found. -/
theorem before7_2_of {c : Dev nD} (dat : Dat τ (Elt F) (HIx 4) ℕ UU ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether or not the pipeline fetched
    it there (an unfetched point has the block index of the point before, and the body leaves the block in place), for
    any proof data whose array is `V`'s and whose body leaves the block as found. -/
theorem before7_3_of {c : Dev nD} (dat : Dat τ (Elt F) (HIx 4) ℕ UU ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether or not the pipeline fetched
    it there (an unfetched point has the block index of the point before, and the body leaves the block in place), for
    any proof data whose array is `V`'s and whose body leaves the block as found. -/
theorem before7_4_of {c : Dev nD} (dat : Dat τ (Elt F) (HIx 4) ℕ UU ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether or not the pipeline fetched
    it there (an unfetched point has the block index of the point before, and the body leaves the block in place), for
    any proof data whose array is `V`'s and whose body leaves the block as found. -/
theorem before7_5_of {c : Dev nD} (dat : Dat τ (Elt F) (HIx 4) ℕ UU ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the store go through the whole of a staging buffer -/

abbrev r7_0 : Rect S64x200x128 := Rect.unit (s := S64x200x128) ![0, 0, 0] S64x200x128.size inb_S64x200x128_S64x200x128_0_0_0
abbrev r7_1 : Rect S64x200 := Rect.unit (s := S64x200) ![0, 0] S64x200.size inb_S64x200_S64x200_0_0
abbrev r7_2 : Rect S200x128 := Rect.unit (s := S200x128) ![0, 0] S200x128.size inb_S200x128_S200x128_0_0
abbrev r7_3 : Rect S1x128 := Rect.unit (s := S1x128) ![0, 0] S1x128.size inb_S1x128_S1x128_0_0
abbrev r7_4 : Rect S1x128 := Rect.unit (s := S1x128) ![0, 0] S1x128.size inb_S1x128_S1x128_0_0
abbrev r7_5 : Rect S1x128 := Rect.unit (s := S1x128) ![0, 0] S1x128.size inb_S1x128_S1x128_0_0
abbrev r7_6 : Rect S64x200x128 := Rect.unit (s := S64x200x128) ![0, 0, 0] S64x200x128.size inb_S64x200x128_S64x200x128_0_0_0

/-! ## What the body leaves in the output window's buffer -/

/-- The output buffer after the body, from the six input blocks: the one store's payload — the shift row added to
    the scaled, normalized sum of the embedding block, the position table and the token-type term — laid over the
    whole buffer. -/
def out7_6 (x0 : Vec F S64x200x128 .f32) (x1 : Vec F S64x200 .i32) (x2 : Vec F S200x128 .f32) (x3 : Vec F S1x128 .f32) (x4 : Vec F S1x128 .f32) (x5 : Vec F S1x128 .f32) : Vec F S64x200x128 .f32 :=
  View.canon [⟨r7_6, k7_pay1 (k7_pay2 (View.ld x0 r7_0) (View.ld x1 r7_1) (View.ld x2 r7_2) (View.ld x3 r7_3) (View.ld x4 r7_4)) (View.ld x5 r7_5)⟩]

/-- The one store's rectangle is the whole buffer, so it covers it (a tiling by one tile, checked by evaluation). -/
theorem cover7_6 (p0 : Vec F S64x200x128 .f32) (y : S64x200x128.Idx) :
    ∃ pc ∈ ([⟨r7_6, p0⟩] : List (View.Piece (Elt F) S64x200x128 .f32)), y ∈ pc.1.set :=
  View.cover_of_tiled [⟨r7_6, p0⟩] S64x200x128.size (by rfl) y

/-! ## The body's triple -/

set_option maxHeartbeats 1000000 in
/-- The body on whole staging memrefs — the six inputs' at read contents `x0 … x5`, the output's at anything — runs to
    the continuation holding the inputs' as they were and the output's at `out7_6` of them: the six loads read the
    inputs whole, the output buffer's load is of contents nothing uses, and the one store overwrites all of it.
    The leading HBM array is passed along and never accessed. -/
theorem sound_kernel7 (c : Dev nD) (E : Set ℕ) (i : grid7.Coords) (hb : Memref sig .tc .hbm S1024x200x128 .f32) (hhb : hb.IsWhole) (a0 : Memref sig .tc .vmem S64x200x128 .f32) (ha0 : a0.IsWhole) (a1 : Memref sig .tc .vmem S64x200 .i32) (ha1 : a1.IsWhole) (a2 : Memref sig .tc .vmem S200x128 .f32) (ha2 : a2.IsWhole) (a3 : Memref sig .tc .vmem S1x128 .f32) (ha3 : a3.IsWhole) (a4 : Memref sig .tc .vmem S1x128 .f32) (ha4 : a4.IsWhole) (a5 : Memref sig .tc .vmem S1x128 .f32) (ha5 : a5.IsWhole) (a6 : Memref sig .tc .vmem S64x200x128 .f32) (ha6 : a6.IsWhole)
    (x0 : Vec F S64x200x128 .f32) (x1 : Vec F S64x200 .i32) (x2 : Vec F S200x128 .f32) (x3 : Vec F S1x128 .f32) (x4 : Vec F S1x128 .f32) (x5 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out7_6 x0 x1 x2 x3 x4 x5)) -∗ K ⟨⟩))
      ⊢ wp frame (wpE (defs₀ (F := F)) Variants.none c none) E (cc7__ln_body_aliased i hb hhb a0 ha0 a1 ha1 a2 ha2 a3 ha3 a4 ha4 a5 ha5 a6 ha6) K := by
  simp only [cc7__ln_body_aliased_eq_skeleton]; unfold cc7__ln_body_aliased_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-! ## The pipeline's proof data -/

/-- The region's invariant on core `c`: the core's scoped buffers that are no staging buffer of this pipeline, each at
    some contents, and its generator register at some state — what the body neither reads nor describes. -/
def Φ7 (c : Dev nD) : sProp 𝕄 :=
  iprop(Pipeline.scopedRest (Ix := HIx 4) (Name := ℕ) (U := UU) (Lvl := ℕ) (Val := Elt F) spec7 c ∗ ∃ r, prngReg c r)

/-- The proof data of pipeline 3 on core `c`: the arrays as the region finds them (`V`); after the body at point `t`
    each input's buffer still at its block and the output's at `out7_6` of the six input blocks; the invariant
    `Φ7` at every point; full shares; nothing owed; the recorded waits within `Bd` throughout. -/
def dat7 (c : Dev nD) : Dat τ (Elt F) (HIx 4) ℕ UU ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Φ7 c
  q _ := fullShare
  owed _ := 0
  recorded _ := Bd

/-- The proof data's arrays are the region-entry contents. -/
theorem A_eq7 (c : Dev nD) (w : Fin cfg7.W) : (dat7 V Bd c).A w = V c (Pipeline.arrRef spec7 w) := by
  dsimp only [dat7]

/-- The invariant is the same at every point, -/
theorem Φ_eq7 (c : Dev nD) (t : Fin (cfg7.N + 1)) : (dat7 V Bd c).Φ t = Φ7 c := by
  dsimp only [dat7]
/-- nothing is ever owed, -/
theorem owed_eq7 (c : Dev nD) (t : Fin (cfg7.N + 1)) : (dat7 V Bd c).owed t = 0 := by
  dsimp only [dat7]
/-- and the bound on the recorded waits does not move. -/
theorem recorded_eq7 (c : Dev nD) (t : Fin (cfg7.N + 1)) : (dat7 V Bd c).recorded t = Bd := by
  dsimp only [dat7]

/-- What the body leaves, window by window. -/
theorem after7_0 (c : Dev nD) (t : Fin cfg7.N) : (dat7 V Bd c).after 0 t = iblk7 V c 0 t := by dsimp only [dat7]
theorem after7_1 (c : Dev nD) (t : Fin cfg7.N) : (dat7 V Bd c).after 1 t = iblk7 V c 1 t := by dsimp only [dat7]
theorem after7_2 (c : Dev nD) (t : Fin cfg7.N) : (dat7 V Bd c).after 2 t = iblk7 V c 2 t := by dsimp only [dat7]
theorem after7_3 (c : Dev nD) (t : Fin cfg7.N) : (dat7 V Bd c).after 3 t = iblk7 V c 3 t := by dsimp only [dat7]
theorem after7_4 (c : Dev nD) (t : Fin cfg7.N) : (dat7 V Bd c).after 4 t = iblk7 V c 4 t := by dsimp only [dat7]
theorem after7_5 (c : Dev nD) (t : Fin cfg7.N) : (dat7 V Bd c).after 5 t = iblk7 V c 5 t := by dsimp only [dat7]
theorem after7_6 (c : Dev nD) (t : Fin cfg7.N) : (dat7 V Bd c).after 6 t = out7_6 (iblk7 V c 0 t) (iblk7 V c 1 t) (iblk7 V c 2 t) (iblk7 V c 3 t) (iblk7 V c 4 t) (iblk7 V c 5 t) := by dsimp only [dat7]

/-- Each input's current staging buffer holds its block at every point, fetched there or not. -/
theorem before7_0 (c : Dev nD) (t : Fin cfg7.N) (d) : (dat7 V Bd c).before 0 t d = iblk7 V c 0 t :=
  before7_0_of V (dat7 V Bd c) (A_eq7 V Bd c 0) (after7_0 V Bd c) t d
theorem before7_1 (c : Dev nD) (t : Fin cfg7.N) (d) : (dat7 V Bd c).before 1 t d = iblk7 V c 1 t :=
  before7_1_of V (dat7 V Bd c) (A_eq7 V Bd c 1) (after7_1 V Bd c) t d
theorem before7_2 (c : Dev nD) (t : Fin cfg7.N) (d) : (dat7 V Bd c).before 2 t d = iblk7 V c 2 t :=
  before7_2_of V (dat7 V Bd c) (A_eq7 V Bd c 2) (after7_2 V Bd c) t d
theorem before7_3 (c : Dev nD) (t : Fin cfg7.N) (d) : (dat7 V Bd c).before 3 t d = iblk7 V c 3 t :=
  before7_3_of V (dat7 V Bd c) (A_eq7 V Bd c 3) (after7_3 V Bd c) t d
theorem before7_4 (c : Dev nD) (t : Fin cfg7.N) (d) : (dat7 V Bd c).before 4 t d = iblk7 V c 4 t :=
  before7_4_of V (dat7 V Bd c) (A_eq7 V Bd c 4) (after7_4 V Bd c) t d
theorem before7_5 (c : Dev nD) (t : Fin cfg7.N) (d) : (dat7 V Bd c).before 5 t d = iblk7 V c 5 t :=
  before7_5_of V (dat7 V Bd c) (A_eq7 V Bd c 5) (after7_5 V Bd c) t d

/-! ## The body obligation, at a generic point -/

/-- What the body is called with at point `t`: the invariant, the core's dues, and each window's current staging
    buffer at what it then holds, -/
def bodyPre7 (c : Dev nD) (t : Fin cfg7.N) : sProp 𝕄 :=
  iprop((dat7 V Bd c).Φ t.castSucc ∗ (dat7 V Bd c).owesAt none t.castSucc
    ∗ (∃ d, owns (c : Thread nD τ) (st7_0 t) fullShare ((dat7 V Bd c).before 0 t d))
    ∗ (∃ d, owns (c : Thread nD τ) (st7_1 t) fullShare ((dat7 V Bd c).before 1 t d))
    ∗ (∃ d, owns (c : Thread nD τ) (st7_2 t) fullShare ((dat7 V Bd c).before 2 t d))
    ∗ (∃ d, owns (c : Thread nD τ) (st7_3 t) fullShare ((dat7 V Bd c).before 3 t d))
    ∗ (∃ d, owns (c : Thread nD τ) (st7_4 t) fullShare ((dat7 V Bd c).before 4 t d))
    ∗ (∃ d, owns (c : Thread nD τ) (st7_5 t) fullShare ((dat7 V Bd c).before 5 t d))
    ∗ (∃ d, owns (c : Thread nD τ) (st7_6 t) fullShare ((dat7 V Bd c).before 6 t d)))

/-- and what it returns: the same, each buffer at what the body leaves. -/
def bodyPost7 (c : Dev nD) (t : Fin cfg7.N) : sProp 𝕄 :=
  iprop((dat7 V Bd c).Φ t.succ ∗ (dat7 V Bd c).owesAt none t.succ
    ∗ owns (c : Thread nD τ) (st7_0 t) fullShare ((dat7 V Bd c).after 0 t)
    ∗ owns (c : Thread nD τ) (st7_1 t) fullShare ((dat7 V Bd c).after 1 t)
    ∗ owns (c : Thread nD τ) (st7_2 t) fullShare ((dat7 V Bd c).after 2 t)
    ∗ owns (c : Thread nD τ) (st7_3 t) fullShare ((dat7 V Bd c).after 3 t)
    ∗ owns (c : Thread nD τ) (st7_4 t) fullShare ((dat7 V Bd c).after 4 t)
    ∗ owns (c : Thread nD τ) (st7_5 t) fullShare ((dat7 V Bd c).after 5 t)
    ∗ owns (c : Thread nD τ) (st7_6 t) fullShare ((dat7 V Bd c).after 6 t))

/-- The body at any point: the inputs' buffers hold their blocks (`before7_W`), so `sound_kernel7` applies; the
    invariant and the core's dues pass through unread. -/
theorem sound_body7 (c : Dev nD) (t : Fin cfg7.N) :
    bodyPre7 V Bd c t ⊢ wp frame (wpE (defs₀ (F := F)) Variants.none c none) Set.univ (bodyAt7 t) (fun _ => bodyPost7 V Bd c t) := by
  unfold bodyPre7 bodyPost7 bodyAt7
  simp only [before7_0, before7_1, before7_2, before7_3, before7_4, before7_5]
  rw [show (dat7 V Bd c).Φ t.succ = (dat7 V Bd c).Φ t.castSucc from rfl,
    show (dat7 V Bd c).owesAt none t.succ = (dat7 V Bd c).owesAt none t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation7 (c : Dev nD) : BodyObligation (dat7 (F := F) V Bd c) (defs₀ (F := F)) Variants.none (none : HIx 4) Set.univ := fun t => by
  rw [bigSep_W7, bigSep_W7]
  exact sound_body7 V Bd c t

end Region7

end Cert.Proof.KB.Reg

end
-- ==== Proof.BMain.lean ====
/-
  @main of the word-level kernel program as eight stretches of host operations with the calls between them: the token
  ids re-laid and cut into four quarters, each quarter's rows gathered on the SparseCores; then the position and type
  tables combined on the host, and four TensorCore layer-norm regions, each writing its quarter of the result into the
  array the previous one left (the result's buffer first a copy of the previous result's).
-/
import proofs.«203556_g1357209665813_cont_week2b_798_48_alg».proof.Proof.BCommon

noncomputable section

namespace Cert.Proof.KB

open Cert.Kernel Cert.Kernel.Gen
open Idealize.ShloMosaic Idealize.SL.Sem

variable {F : FTy → Type} [FloatOps F]

/-- Host stretch 0 of @main. -/
abbrev hops0 : List (HloOp τ sig (Elt F)) :=
  [ (StableHlo.reshape main_arg0 main_v0 rfl shapeCasts_S1024x200_S204800),
    (StableHlo.reshape main_v0 main_v1 rfl shapeCasts_S204800_S1024x200),
    (StableHlo.nullary main_c (constantI S_ 32 0#32)),
    (StableHlo.nullary main_c_0 (constantI S_ 32 0#32)),
    (StableHlo.unaryIndexed main_v1 ![main_c, main_c_0] ⟨S_, .i32⟩ main_v2 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v2 main_v3 rfl shapeCasts_S256x200_S32x25x64) ]

/-- Host stretch 1 of @main. -/
abbrev hops1 : List (HloOp τ sig (Elt F)) :=
  [ (StableHlo.nullary main_c_1 (constantI S_ 32 256#32)),
    (StableHlo.nullary main_c_2 (constantI S_ 32 0#32)),
    (StableHlo.unaryIndexed main_v1 ![main_c_1, main_c_2] ⟨S_, .i32⟩ main_v5 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v5 main_v6 rfl shapeCasts_S256x200_S32x25x64) ]

/-- Host stretch 2 of @main. -/
abbrev hops2 : List (HloOp τ sig (Elt F)) :=
  [ (StableHlo.nullary main_c_3 (constantI S_ 32 512#32)),
    (StableHlo.nullary main_c_4 (constantI S_ 32 0#32)),
    (StableHlo.unaryIndexed main_v1 ![main_c_3, main_c_4] ⟨S_, .i32⟩ main_v8 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v8 main_v9 rfl shapeCasts_S256x200_S32x25x64) ]

/-- Host stretch 3 of @main. -/
abbrev hops3 : List (HloOp τ sig (Elt F)) :=
  [ (StableHlo.nullary main_c_5 (constantI S_ 32 768#32)),
    (StableHlo.nullary main_c_6 (constantI S_ 32 0#32)),
    (StableHlo.unaryIndexed main_v1 ![main_c_5, main_c_6] ⟨S_, .i32⟩ main_v11 ((fun x i => Host.dynamicSlice S256x200 x (fun k => (i k (Shape.Idx.first h_S_)).toInt) sliceFits_S1024x200_S256x200) : (⟨S1024x200, .i32⟩ : BufTy).Contents (Elt F) → (Fin 2 → (⟨S_, .i32⟩ : BufTy).Contents (Elt F)) → (⟨S256x200, .i32⟩ : BufTy).Contents (Elt F))),
    (StableHlo.reshape main_v11 main_v12 rfl shapeCasts_S256x200_S32x25x64) ]

/-- Host stretch 4 of @main. -/
abbrev hops4 : List (HloOp τ sig (Elt F)) :=
  [ (StableHlo.unary main_arg3 main_v14 ((extractStridedSlice S200x128 ![0, 0] · slices_S512x128_S200x128_0_0) : (⟨S512x128, .f32⟩ : BufTy).Contents (Elt F) → (⟨S200x128, .f32⟩ : BufTy).Contents (Elt F))),
    (StableHlo.unary main_arg4 main_v15 ((extractStridedSlice S1x128 ![0, 0] · slices_S2x128_S1x128_0_0) : (⟨S2x128, .f32⟩ : BufTy).Contents (Elt F) → (⟨S1x128, .f32⟩ : BufTy).Contents (Elt F))),
    (StableHlo.reshape main_v15 main_v16 rfl shapeCasts_S1x128_S128),
    (StableHlo.unary main_v16 main_v17 (broadcastInDim S1x128 ![1] bcast_S128_S1x128_1 : (⟨S128, .f32⟩ : BufTy).Contents (Elt F) → (⟨S1x128, .f32⟩ : BufTy).Contents (Elt F))),
    (StableHlo.unary main_v17 main_v18 (broadcastInDim S200x128 ![0, 1] bcast_S1x128_S200x128_0_1 : (⟨S1x128, .f32⟩ : BufTy).Contents (Elt F) → (⟨S200x128, .f32⟩ : BufTy).Contents (Elt F))),
    (StableHlo.binary main_v14 main_v18 main_v19 (addf : (⟨S200x128, .f32⟩ : BufTy).Contents (Elt F) → (⟨S200x128, .f32⟩ : BufTy).Contents (Elt F) → (⟨S200x128, .f32⟩ : BufTy).Contents (Elt F))),
    (StableHlo.unary main_arg4 main_v20 ((extractStridedSlice S1x128 ![1, 0] · slices_S2x128_S1x128_1_0) : (⟨S2x128, .f32⟩ : BufTy).Contents (Elt F) → (⟨S1x128, .f32⟩ : BufTy).Contents (Elt F))),
    (StableHlo.reshape main_v20 main_v21 rfl shapeCasts_S1x128_S128),
    (StableHlo.unary main_arg4 main_v22 ((extractStridedSlice S1x128 ![0, 0] · slices_S2x128_S1x128_0_0) : (⟨S2x128, .f32⟩ : BufTy).Contents (Elt F) → (⟨S1x128, .f32⟩ : BufTy).Contents (Elt F))),
    (StableHlo.reshape main_v22 main_v23 rfl shapeCasts_S1x128_S128),
    (StableHlo.binary main_v21 main_v23 main_v24 (subf : (⟨S128, .f32⟩ : BufTy).Contents (Elt F) → (⟨S128, .f32⟩ : BufTy).Contents (Elt F) → (⟨S128, .f32⟩ : BufTy).Contents (Elt F))),
    (StableHlo.reshape main_v24 main_v25 rfl shapeCasts_S128_S1x128),
    (StableHlo.reshape main_arg5 main_v26 rfl shapeCasts_S128_S1x128),
    (StableHlo.reshape main_arg6 main_v27 rfl shapeCasts_S128_S1x128),
    (StableHlo.reshape main_v4 main_v28 rfl shapeCasts_S51200x128_S256x200x128) ]

/-- Host stretch 5 of @main. -/
abbrev hops5 : List (HloOp τ sig (Elt F)) :=
  [ (StableHlo.reshape main_v7 main_v30 rfl shapeCasts_S51200x128_S256x200x128),
    (StableHlo.unary main_v29 main_v31 id) ]

/-- Host stretch 6 of @main. -/
abbrev hops6 : List (HloOp τ sig (Elt F)) :=
  [ (StableHlo.reshape main_v10 main_v32 rfl shapeCasts_S51200x128_S256x200x128),
    (StableHlo.unary main_v31 main_v33 id) ]

/-- Host stretch 7 of @main. -/
abbrev hops7 : List (HloOp τ sig (Elt F)) :=
  [ (StableHlo.reshape main_v13 main_v34 rfl shapeCasts_S51200x128_S256x200x128),
    (StableHlo.unary main_v33 main_v35 id) ]

/-- @main, stretch by stretch. -/
theorem main_eq (d : Dev nD) : main (F := F) d =
    (StableHlo.seq (hops0 (F := F)) >>= fun _ => sc.run d 0 >>= fun _ =>
     StableHlo.seq (hops1 (F := F)) >>= fun _ => sc.run d 1 >>= fun _ =>
     StableHlo.seq (hops2 (F := F)) >>= fun _ => sc.run d 2 >>= fun _ =>
     StableHlo.seq (hops3 (F := F)) >>= fun _ => sc.run d 3 >>= fun _ =>
     StableHlo.seq (hops4 (F := F)) >>= fun _ => Prog.lift (.customCall (SparseCore.inner (Pipeline.entry 0)) ()) >>= fun _ =>
     StableHlo.seq (hops5 (F := F)) >>= fun _ => Prog.lift (.customCall (SparseCore.inner (Pipeline.entry 1)) ()) >>= fun _ =>
     StableHlo.seq (hops6 (F := F)) >>= fun _ => Prog.lift (.customCall (SparseCore.inner (Pipeline.entry 2)) ()) >>= fun _ =>
     StableHlo.seq (hops7 (F := F)) >>= fun _ => Prog.lift (.customCall (SparseCore.inner (Pipeline.entry 3)) ()) >>= fun _ =>
     pure ⟨⟩) := by
  simp only [main, StableHlo.seq, bind_assoc, pure_bind]

end Cert.Proof.KB

end
-- ==== Proof.BTail.lean ====
/-
  The TensorCore half of @main after the fourth SparseCore call: four host stretches, each followed by one layer-norm
  region. This module follows the unscoped buffers' contents through that tail and packages each region for the
  segment-wise launch theorem.

  Everything is stated over three parameters: `Wt`, each core's unscoped buffer contents when the tail begins;
  `Bd`, per core a bound on the wait pairs the core has recorded; and (for the regions) `hBd`, that every pipeline's own
  wait pairs lie within that bound.
  * `E0 … E3`: the contents at each region's entry (the host stretch before it applied to the previous boundary);
    `X0 … X3`: the contents at each region's exit (the region's arrays at what the pipeline's write-backs leave, every
    other buffer as entered).
  * `pdats`: every pipeline's proof data, each at its region's entry contents.
  * `R`: what rides beside the buffers through every segment — the generator register and the core's dues (nothing
    owed, recorded waits within the bound).
  * `reg4 … reg7`: each region as a segment from `E_j` to `X_j`.
  * `X3_arg0 … X3_arg6`: at the end every argument array still holds what it held when the tail began.
-/
import proofs.«203556_g1357209665813_cont_week2b_798_48_alg».proof.Proof.BRegion4
import proofs.«203556_g1357209665813_cont_week2b_798_48_alg».proof.Proof.BRegion5
import proofs.«203556_g1357209665813_cont_week2b_798_48_alg».proof.Proof.BRegion6
import proofs.«203556_g1357209665813_cont_week2b_798_48_alg».proof.Proof.BRegion7
import proofs.«203556_g1357209665813_cont_week2b_798_48_alg».proof.Proof.BMain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB.Reg

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 4) (Elt F) ℕ UU ℕ

section Tail
-- each core's unscoped buffer contents when the tail begins
variable (Wt : Dev nD → Valuation τ sig (Elt F))
-- per core, a bound on the (cell, index) pairs its waits have recorded
variable (Bd : Dev nD → Set (SemLoc sig × HIx 4))

/-! ## The buffer contents at each boundary: a fold through the tail -/

/-- At region 4's entry: host stretch 4 applied to the contents the tail begins with. -/
abbrev E0 : Dev nD → Valuation τ sig (Elt F) := fun c => StableHlo.after hops4 (Wt c)
/-- The same read at the TensorCore's references (what region 4's proof data take). -/
abbrev VE0 : (c : Dev nD) → (b : Ref sig .tc) → Buf (Elt F) ((c : Thread nD τ).loc b) := fun c b => E0 Wt c b
/-- At region 4's exit: its arrays at what the pipeline leaves (the inputs as entered, the output with every point's
    write-back folded in), every other buffer as entered. -/
def X0 (c : Dev nD) : Valuation τ sig (Elt F) :=
  Pipeline.withArrays spec4 c (E0 Wt c) fun w => (dat4 (VE0 Wt) (Bd c) c).arrAt w cfg4.N
theorem X0_arr (c : Dev nD) (w : Fin cfg4.W) :
    X0 Wt Bd c (Proc.devRef .tc (Pipeline.arrRef spec4 w)) = (dat4 (VE0 Wt) (Bd c) c).arrAt w cfg4.N := by
  unfold X0; exact Pipeline.withArrays_arr spec4 launch4.win.arr_inj c _ _ w
theorem X0_of_ne (c : Dev nD) (b : Ref sig .tc) (hb : ∀ w, Pipeline.arrRef spec4 w ≠ b) :
    X0 Wt Bd c (Proc.devRef .tc b) = E0 Wt c (Proc.devRef .tc b) := by
  unfold X0; exact Pipeline.withArrays_of_ne spec4 c _ _ b hb
/-- The same read at the TensorCore's references. -/
abbrev VX0 : (c : Dev nD) → (b : Ref sig .tc) → Buf (Elt F) ((c : Thread nD τ).loc b) := fun c b => X0 Wt Bd c b
/-- At region 4's exit each of its arrays holds what the pipeline leaves, and every other buffer what it held at entry. -/
theorem hF4 (c : Dev nD) (w : Fin cfg4.W) : (dat4 (VE0 Wt) (Bd c) c).arrAt w cfg4.N = VX0 Wt Bd c (Pipeline.arrRef spec4 w) :=
  (X0_arr Wt Bd c w).symm
theorem hrest4 (c : Dev nD) : ∀ b, b ∉ Finset.univ.image (Pipeline.arrRef spec4) → VX0 Wt Bd c b = VE0 Wt c b :=
  fun b hb => X0_of_ne Wt Bd c b fun w e => hb (Finset.mem_image.mpr ⟨w, Finset.mem_univ _, e⟩)

/-- At region 5's entry: host stretch 5 applied to the contents region 4 leaves. -/
abbrev E1 : Dev nD → Valuation τ sig (Elt F) := fun c => StableHlo.after hops5 (X0 Wt Bd c)
/-- The same read at the TensorCore's references (what region 5's proof data take). -/
abbrev VE1 : (c : Dev nD) → (b : Ref sig .tc) → Buf (Elt F) ((c : Thread nD τ).loc b) := fun c b => E1 Wt Bd c b
/-- At region 5's exit: its arrays at what the pipeline leaves (the inputs as entered, the output with every point's
    write-back folded in), every other buffer as entered. -/
def X1 (c : Dev nD) : Valuation τ sig (Elt F) :=
  Pipeline.withArrays spec5 c (E1 Wt Bd c) fun w => (dat5 (VE1 Wt Bd) (Bd c) c).arrAt w cfg5.N
theorem X1_arr (c : Dev nD) (w : Fin cfg5.W) :
    X1 Wt Bd c (Proc.devRef .tc (Pipeline.arrRef spec5 w)) = (dat5 (VE1 Wt Bd) (Bd c) c).arrAt w cfg5.N := by
  unfold X1; exact Pipeline.withArrays_arr spec5 launch5.win.arr_inj c _ _ w
theorem X1_of_ne (c : Dev nD) (b : Ref sig .tc) (hb : ∀ w, Pipeline.arrRef spec5 w ≠ b) :
    X1 Wt Bd c (Proc.devRef .tc b) = E1 Wt Bd c (Proc.devRef .tc b) := by
  unfold X1; exact Pipeline.withArrays_of_ne spec5 c _ _ b hb
/-- The same read at the TensorCore's references. -/
abbrev VX1 : (c : Dev nD) → (b : Ref sig .tc) → Buf (Elt F) ((c : Thread nD τ).loc b) := fun c b => X1 Wt Bd c b
/-- At region 5's exit each of its arrays holds what the pipeline leaves, and every other buffer what it held at entry. -/
theorem hF5 (c : Dev nD) (w : Fin cfg5.W) : (dat5 (VE1 Wt Bd) (Bd c) c).arrAt w cfg5.N = VX1 Wt Bd c (Pipeline.arrRef spec5 w) :=
  (X1_arr Wt Bd c w).symm
theorem hrest5 (c : Dev nD) : ∀ b, b ∉ Finset.univ.image (Pipeline.arrRef spec5) → VX1 Wt Bd c b = VE1 Wt Bd c b :=
  fun b hb => X1_of_ne Wt Bd c b fun w e => hb (Finset.mem_image.mpr ⟨w, Finset.mem_univ _, e⟩)

/-- At region 6's entry: host stretch 6 applied to the contents region 5 leaves. -/
abbrev E2 : Dev nD → Valuation τ sig (Elt F) := fun c => StableHlo.after hops6 (X1 Wt Bd c)
/-- The same read at the TensorCore's references (what region 6's proof data take). -/
abbrev VE2 : (c : Dev nD) → (b : Ref sig .tc) → Buf (Elt F) ((c : Thread nD τ).loc b) := fun c b => E2 Wt Bd c b
/-- At region 6's exit: its arrays at what the pipeline leaves (the inputs as entered, the output with every point's
    write-back folded in), every other buffer as entered. -/
def X2 (c : Dev nD) : Valuation τ sig (Elt F) :=
  Pipeline.withArrays spec6 c (E2 Wt Bd c) fun w => (dat6 (VE2 Wt Bd) (Bd c) c).arrAt w cfg6.N
theorem X2_arr (c : Dev nD) (w : Fin cfg6.W) :
    X2 Wt Bd c (Proc.devRef .tc (Pipeline.arrRef spec6 w)) = (dat6 (VE2 Wt Bd) (Bd c) c).arrAt w cfg6.N := by
  unfold X2; exact Pipeline.withArrays_arr spec6 launch6.win.arr_inj c _ _ w
theorem X2_of_ne (c : Dev nD) (b : Ref sig .tc) (hb : ∀ w, Pipeline.arrRef spec6 w ≠ b) :
    X2 Wt Bd c (Proc.devRef .tc b) = E2 Wt Bd c (Proc.devRef .tc b) := by
  unfold X2; exact Pipeline.withArrays_of_ne spec6 c _ _ b hb
/-- The same read at the TensorCore's references. -/
abbrev VX2 : (c : Dev nD) → (b : Ref sig .tc) → Buf (Elt F) ((c : Thread nD τ).loc b) := fun c b => X2 Wt Bd c b
/-- At region 6's exit each of its arrays holds what the pipeline leaves, and every other buffer what it held at entry. -/
theorem hF6 (c : Dev nD) (w : Fin cfg6.W) : (dat6 (VE2 Wt Bd) (Bd c) c).arrAt w cfg6.N = VX2 Wt Bd c (Pipeline.arrRef spec6 w) :=
  (X2_arr Wt Bd c w).symm
theorem hrest6 (c : Dev nD) : ∀ b, b ∉ Finset.univ.image (Pipeline.arrRef spec6) → VX2 Wt Bd c b = VE2 Wt Bd c b :=
  fun b hb => X2_of_ne Wt Bd c b fun w e => hb (Finset.mem_image.mpr ⟨w, Finset.mem_univ _, e⟩)

/-- At region 7's entry: host stretch 7 applied to the contents region 6 leaves. -/
abbrev E3 : Dev nD → Valuation τ sig (Elt F) := fun c => StableHlo.after hops7 (X2 Wt Bd c)
/-- The same read at the TensorCore's references (what region 7's proof data take). -/
abbrev VE3 : (c : Dev nD) → (b : Ref sig .tc) → Buf (Elt F) ((c : Thread nD τ).loc b) := fun c b => E3 Wt Bd c b
/-- At region 7's exit: its arrays at what the pipeline leaves (the inputs as entered, the output with every point's
    write-back folded in), every other buffer as entered. -/
def X3 (c : Dev nD) : Valuation τ sig (Elt F) :=
  Pipeline.withArrays spec7 c (E3 Wt Bd c) fun w => (dat7 (VE3 Wt Bd) (Bd c) c).arrAt w cfg7.N
theorem X3_arr (c : Dev nD) (w : Fin cfg7.W) :
    X3 Wt Bd c (Proc.devRef .tc (Pipeline.arrRef spec7 w)) = (dat7 (VE3 Wt Bd) (Bd c) c).arrAt w cfg7.N := by
  unfold X3; exact Pipeline.withArrays_arr spec7 launch7.win.arr_inj c _ _ w
theorem X3_of_ne (c : Dev nD) (b : Ref sig .tc) (hb : ∀ w, Pipeline.arrRef spec7 w ≠ b) :
    X3 Wt Bd c (Proc.devRef .tc b) = E3 Wt Bd c (Proc.devRef .tc b) := by
  unfold X3; exact Pipeline.withArrays_of_ne spec7 c _ _ b hb
/-- The same read at the TensorCore's references. -/
abbrev VX3 : (c : Dev nD) → (b : Ref sig .tc) → Buf (Elt F) ((c : Thread nD τ).loc b) := fun c b => X3 Wt Bd c b
/-- At region 7's exit each of its arrays holds what the pipeline leaves, and every other buffer what it held at entry. -/
theorem hF7 (c : Dev nD) (w : Fin cfg7.W) : (dat7 (VE3 Wt Bd) (Bd c) c).arrAt w cfg7.N = VX3 Wt Bd c (Pipeline.arrRef spec7 w) :=
  (X3_arr Wt Bd c w).symm
theorem hrest7 (c : Dev nD) : ∀ b, b ∉ Finset.univ.image (Pipeline.arrRef spec7) → VX3 Wt Bd c b = VE3 Wt Bd c b :=
  fun b hb => X3_of_ne Wt Bd c b fun w e => hb (Finset.mem_image.mpr ⟨w, Finset.mem_univ _, e⟩)

/-! ## The arguments end as the tail found them

No host operation of the tail writes an argument array, and no region does: a region reads the token-type ids through an
input window and bypasses every other argument. So the fold at an argument's buffer walks back to `Wt`. -/

theorem X3_arg0 (c : Dev nD) : X3 Wt Bd c (Proc.devRef .tc main_arg0) = Wt c (Proc.devRef .tc main_arg0) :=
  calc X3 Wt Bd c (Proc.devRef .tc main_arg0)
    _ = E3 Wt Bd c (Proc.devRef .tc main_arg0) := X3_of_ne Wt Bd c main_arg0 (by decide)
    _ = X2 Wt Bd c (Proc.devRef .tc main_arg0) := StableHlo.after_of_forall_not_mem (b := Proc.devRef .tc main_arg0) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg0) := X2_of_ne Wt Bd c main_arg0 (by decide)
    _ = X1 Wt Bd c (Proc.devRef .tc main_arg0) := StableHlo.after_of_forall_not_mem (b := Proc.devRef .tc main_arg0) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg0) := X1_of_ne Wt Bd c main_arg0 (by decide)
    _ = X0 Wt Bd c (Proc.devRef .tc main_arg0) := StableHlo.after_of_forall_not_mem (b := Proc.devRef .tc main_arg0) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg0) := X0_of_ne Wt Bd c main_arg0 (by decide)
    _ = Wt c (Proc.devRef .tc main_arg0) := StableHlo.after_of_forall_not_mem (b := Proc.devRef .tc main_arg0) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg1 (c : Dev nD) : X3 Wt Bd c (Proc.devRef .tc main_arg1) = Wt c (Proc.devRef .tc main_arg1) :=
  calc X3 Wt Bd c (Proc.devRef .tc main_arg1)
    _ = E3 Wt Bd c (Proc.devRef .tc main_arg1) := (X3_arr Wt Bd c 1).trans (((dat7 (VE3 Wt Bd) (Bd c) c).arrAt_in 1 rfl _).trans (A_eq7 (VE3 Wt Bd) (Bd c) c 1))
    _ = X2 Wt Bd c (Proc.devRef .tc main_arg1) := StableHlo.after_of_forall_not_mem (b := Proc.devRef .tc main_arg1) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg1) := (X2_arr Wt Bd c 1).trans (((dat6 (VE2 Wt Bd) (Bd c) c).arrAt_in 1 rfl _).trans (A_eq6 (VE2 Wt Bd) (Bd c) c 1))
    _ = X1 Wt Bd c (Proc.devRef .tc main_arg1) := StableHlo.after_of_forall_not_mem (b := Proc.devRef .tc main_arg1) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg1) := (X1_arr Wt Bd c 1).trans (((dat5 (VE1 Wt Bd) (Bd c) c).arrAt_in 1 rfl _).trans (A_eq5 (VE1 Wt Bd) (Bd c) c 1))
    _ = X0 Wt Bd c (Proc.devRef .tc main_arg1) := StableHlo.after_of_forall_not_mem (b := Proc.devRef .tc main_arg1) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg1) := (X0_arr Wt Bd c 1).trans (((dat4 (VE0 Wt) (Bd c) c).arrAt_in 1 rfl _).trans (A_eq4 (VE0 Wt) (Bd c) c 1))
    _ = Wt c (Proc.devRef .tc main_arg1) := StableHlo.after_of_forall_not_mem (b := Proc.devRef .tc main_arg1) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg2 (c : Dev nD) : X3 Wt Bd c (Proc.devRef .tc main_arg2) = Wt c (Proc.devRef .tc main_arg2) :=
  calc X3 Wt Bd c (Proc.devRef .tc main_arg2)
    _ = E3 Wt Bd c (Proc.devRef .tc main_arg2) := X3_of_ne Wt Bd c main_arg2 (by decide)
    _ = X2 Wt Bd c (Proc.devRef .tc main_arg2) := StableHlo.after_of_forall_not_mem (b := Proc.devRef .tc main_arg2) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg2) := X2_of_ne Wt Bd c main_arg2 (by decide)
    _ = X1 Wt Bd c (Proc.devRef .tc main_arg2) := StableHlo.after_of_forall_not_mem (b := Proc.devRef .tc main_arg2) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg2) := X1_of_ne Wt Bd c main_arg2 (by decide)
    _ = X0 Wt Bd c (Proc.devRef .tc main_arg2) := StableHlo.after_of_forall_not_mem (b := Proc.devRef .tc main_arg2) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg2) := X0_of_ne Wt Bd c main_arg2 (by decide)
    _ = Wt c (Proc.devRef .tc main_arg2) := StableHlo.after_of_forall_not_mem (b := Proc.devRef .tc main_arg2) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg3 (c : Dev nD) : X3 Wt Bd c (Proc.devRef .tc main_arg3) = Wt c (Proc.devRef .tc main_arg3) :=
  calc X3 Wt Bd c (Proc.devRef .tc main_arg3)
    _ = E3 Wt Bd c (Proc.devRef .tc main_arg3) := X3_of_ne Wt Bd c main_arg3 (by decide)
    _ = X2 Wt Bd c (Proc.devRef .tc main_arg3) := StableHlo.after_of_forall_not_mem (b := Proc.devRef .tc main_arg3) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg3) := X2_of_ne Wt Bd c main_arg3 (by decide)
    _ = X1 Wt Bd c (Proc.devRef .tc main_arg3) := StableHlo.after_of_forall_not_mem (b := Proc.devRef .tc main_arg3) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg3) := X1_of_ne Wt Bd c main_arg3 (by decide)
    _ = X0 Wt Bd c (Proc.devRef .tc main_arg3) := StableHlo.after_of_forall_not_mem (b := Proc.devRef .tc main_arg3) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg3) := X0_of_ne Wt Bd c main_arg3 (by decide)
    _ = Wt c (Proc.devRef .tc main_arg3) := StableHlo.after_of_forall_not_mem (b := Proc.devRef .tc main_arg3) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg4 (c : Dev nD) : X3 Wt Bd c (Proc.devRef .tc main_arg4) = Wt c (Proc.devRef .tc main_arg4) :=
  calc X3 Wt Bd c (Proc.devRef .tc main_arg4)
    _ = E3 Wt Bd c (Proc.devRef .tc main_arg4) := X3_of_ne Wt Bd c main_arg4 (by decide)
    _ = X2 Wt Bd c (Proc.devRef .tc main_arg4) := StableHlo.after_of_forall_not_mem (b := Proc.devRef .tc main_arg4) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg4) := X2_of_ne Wt Bd c main_arg4 (by decide)
    _ = X1 Wt Bd c (Proc.devRef .tc main_arg4) := StableHlo.after_of_forall_not_mem (b := Proc.devRef .tc main_arg4) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg4) := X1_of_ne Wt Bd c main_arg4 (by decide)
    _ = X0 Wt Bd c (Proc.devRef .tc main_arg4) := StableHlo.after_of_forall_not_mem (b := Proc.devRef .tc main_arg4) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg4) := X0_of_ne Wt Bd c main_arg4 (by decide)
    _ = Wt c (Proc.devRef .tc main_arg4) := StableHlo.after_of_forall_not_mem (b := Proc.devRef .tc main_arg4) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg5 (c : Dev nD) : X3 Wt Bd c (Proc.devRef .tc main_arg5) = Wt c (Proc.devRef .tc main_arg5) :=
  calc X3 Wt Bd c (Proc.devRef .tc main_arg5)
    _ = E3 Wt Bd c (Proc.devRef .tc main_arg5) := X3_of_ne Wt Bd c main_arg5 (by decide)
    _ = X2 Wt Bd c (Proc.devRef .tc main_arg5) := StableHlo.after_of_forall_not_mem (b := Proc.devRef .tc main_arg5) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg5) := X2_of_ne Wt Bd c main_arg5 (by decide)
    _ = X1 Wt Bd c (Proc.devRef .tc main_arg5) := StableHlo.after_of_forall_not_mem (b := Proc.devRef .tc main_arg5) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg5) := X1_of_ne Wt Bd c main_arg5 (by decide)
    _ = X0 Wt Bd c (Proc.devRef .tc main_arg5) := StableHlo.after_of_forall_not_mem (b := Proc.devRef .tc main_arg5) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg5) := X0_of_ne Wt Bd c main_arg5 (by decide)
    _ = Wt c (Proc.devRef .tc main_arg5) := StableHlo.after_of_forall_not_mem (b := Proc.devRef .tc main_arg5) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

theorem X3_arg6 (c : Dev nD) : X3 Wt Bd c (Proc.devRef .tc main_arg6) = Wt c (Proc.devRef .tc main_arg6) :=
  calc X3 Wt Bd c (Proc.devRef .tc main_arg6)
    _ = E3 Wt Bd c (Proc.devRef .tc main_arg6) := X3_of_ne Wt Bd c main_arg6 (by decide)
    _ = X2 Wt Bd c (Proc.devRef .tc main_arg6) := StableHlo.after_of_forall_not_mem (b := Proc.devRef .tc main_arg6) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg6) := X2_of_ne Wt Bd c main_arg6 (by decide)
    _ = X1 Wt Bd c (Proc.devRef .tc main_arg6) := StableHlo.after_of_forall_not_mem (b := Proc.devRef .tc main_arg6) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg6) := X1_of_ne Wt Bd c main_arg6 (by decide)
    _ = X0 Wt Bd c (Proc.devRef .tc main_arg6) := StableHlo.after_of_forall_not_mem (b := Proc.devRef .tc main_arg6) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg6) := X0_of_ne Wt Bd c main_arg6 (by decide)
    _ = Wt c (Proc.devRef .tc main_arg6) := StableHlo.after_of_forall_not_mem (b := Proc.devRef .tc main_arg6) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) (HIx 4) ℕ UU ℕ (Pipeline.pin (pcfgs (F := F)) adm p) c
  | ⟨0, _⟩ => fun c => dat4 (VE0 Wt) (Bd c) c
  | ⟨1, _⟩ => fun c => dat5 (VE1 Wt Bd) (Bd c) c
  | ⟨2, _⟩ => fun c => dat6 (VE2 Wt Bd) (Bd c) c
  | ⟨3, _⟩ => fun c => dat7 (VE3 Wt Bd) (Bd c) c
/-- What rides beside the buffers through every segment: the core's generator register at some state (a region's
    invariant takes it in and gives it back) and its dues — nothing owed, the recorded waits within the bound. -/
abbrev R (c : Dev nD) : sProp 𝕄 := iprop((∃ r, prngReg c r) ∗ Pipeline.owesWithin c (0 : CellTallies nD τ sig (HIx 4)) (Bd c))

/-! ## The regions as segments -/

-- a library lemma stated over the pinned configuration unifies with the printed one only when unification may
-- unfold plain definitions in a metavariable's type
set_option backward.isDefEq.respectTransparency.types false in
/-- Region 4 over the thread state: entered from every unscoped buffer at `E0`, left at `X0`. Its arrays are split
    out of the unscoped buffers at entry and put back at the exit contents; the generator register goes into the
    region's invariant and comes out; nothing is owed, and the recorded waits stay within the bound because the
    pipeline's own wait pairs lie within it (`hBd`); the kernel has no semaphore of its own. -/
def reg4 (hBd : ∀ c p, (cfgs p).waitPairs (none : HIx 4) ⊆ Bd c) :
    Pipeline.RegionSeg (pcfgs (F := F)) adm (pdats Wt Bd) (none : HIx 4) defs₀ Variants.none (Cert.Proof.KB.K (F := F)).L (Cert.Proof.KB.K (F := F)).lev 0 where
  win := launch4.win.to₀
  block_pos := launch4.block_pos
  stage_whole := launch4.stage_whole
  K := PEmpty
  osem k := k.elim
  ho := Pipeline.OwnSemFacts.none _
  hbody c := (body_obligation4 (VE0 Wt) (Bd c) c).loose
  hwaits := Pipeline.hwaits_of_owed_zero _ _ _ _ (Cert.Proof.KB.K (F := F)).L (Cert.Proof.KB.K (F := F)).lev 0 fun _ _ => rfl
  pre c := iprop(StableHlo.held (c : Thread nD τ) (Pipeline.ucRefs τ sig) (E0 Wt c) ∗ R Bd c)
  post c := iprop(StableHlo.held (c : Thread nD τ) (Pipeline.ucRefs τ sig) (X0 Wt Bd c) ∗ R Bd c)
  X c := iprop(∃ r, prngReg c r)
  Y c := iprop(∃ r, prngReg c r)
  Z c := Pipeline.unscopedRest (Ix := HIx 4) (Name := ℕ) (U := UU) (Lvl := ℕ) spec4 c (VE0 Wt c)
  hentry c := by
    rw [Pipeline.ownSems0_none]
    have hsplit := Pipeline.arrays_of_unscopedBufs (p := 0) (pcfgs (F := F)) adm (pdats Wt Bd) launch4.win launch4.arr_whole c
      ((pdats Wt Bd 0 c).share_full fun _ => rfl) (VE0 Wt c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 0 c).Φ 0 = Φ4 c from rfl]; unfold Φ4
    iintro ⟨Hp, -, Hr⟩
    isplitl [Hr]; · iexact Hr
    iexact Hp
  hout c := by
    rw [Pipeline.ownSems0_none, show (pdats Wt Bd 0 c).Φ (Fin.last _) = Φ4 c from rfl]; unfold Φ4
    iintro ⟨Hr, Hp⟩
    isplitl [Hp]; · iexact Hp
    isplitr; · iempintro
    iexact Hr
  hexit c := by
    have hjoin := Pipeline.unscopedBufs_of_arrays (p := 0) (pcfgs (F := F)) adm (Ix := HIx 4) (Name := ℕ) (U := UU) (Lvl := ℕ)
      launch4.win launch4.arr_whole c (pdats Wt Bd) ((pdats Wt Bd 0 c).share_full fun _ => rfl)
      (VE0 Wt c) (VX0 Wt Bd c) ((pdats Wt Bd 0 c).arrAt · cfg4.N) (hF4 Wt Bd c) (hrest4 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 0 h)
    iexact HO

-- a library lemma stated over the pinned configuration unifies with the printed one only when unification may
-- unfold plain definitions in a metavariable's type
set_option backward.isDefEq.respectTransparency.types false in
/-- Region 5 over the thread state: entered from every unscoped buffer at `E1`, left at `X1`. Its arrays are split
    out of the unscoped buffers at entry and put back at the exit contents; the generator register goes into the
    region's invariant and comes out; nothing is owed, and the recorded waits stay within the bound because the
    pipeline's own wait pairs lie within it (`hBd`); the kernel has no semaphore of its own. -/
def reg5 (hBd : ∀ c p, (cfgs p).waitPairs (none : HIx 4) ⊆ Bd c) :
    Pipeline.RegionSeg (pcfgs (F := F)) adm (pdats Wt Bd) (none : HIx 4) defs₀ Variants.none (Cert.Proof.KB.K (F := F)).L (Cert.Proof.KB.K (F := F)).lev 1 where
  win := launch5.win.to₀
  block_pos := launch5.block_pos
  stage_whole := launch5.stage_whole
  K := PEmpty
  osem k := k.elim
  ho := Pipeline.OwnSemFacts.none _
  hbody c := (body_obligation5 (VE1 Wt Bd) (Bd c) c).loose
  hwaits := Pipeline.hwaits_of_owed_zero _ _ _ _ (Cert.Proof.KB.K (F := F)).L (Cert.Proof.KB.K (F := F)).lev 1 fun _ _ => rfl
  pre c := iprop(StableHlo.held (c : Thread nD τ) (Pipeline.ucRefs τ sig) (E1 Wt Bd c) ∗ R Bd c)
  post c := iprop(StableHlo.held (c : Thread nD τ) (Pipeline.ucRefs τ sig) (X1 Wt Bd c) ∗ R Bd c)
  X c := iprop(∃ r, prngReg c r)
  Y c := iprop(∃ r, prngReg c r)
  Z c := Pipeline.unscopedRest (Ix := HIx 4) (Name := ℕ) (U := UU) (Lvl := ℕ) spec5 c (VE1 Wt Bd c)
  hentry c := by
    rw [Pipeline.ownSems0_none]
    have hsplit := Pipeline.arrays_of_unscopedBufs (p := 1) (pcfgs (F := F)) adm (pdats Wt Bd) launch5.win launch5.arr_whole c
      ((pdats Wt Bd 1 c).share_full fun _ => rfl) (VE1 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 1 c).Φ 0 = Φ5 c from rfl]; unfold Φ5
    iintro ⟨Hp, -, Hr⟩
    isplitl [Hr]; · iexact Hr
    iexact Hp
  hout c := by
    rw [Pipeline.ownSems0_none, show (pdats Wt Bd 1 c).Φ (Fin.last _) = Φ5 c from rfl]; unfold Φ5
    iintro ⟨Hr, Hp⟩
    isplitl [Hp]; · iexact Hp
    isplitr; · iempintro
    iexact Hr
  hexit c := by
    have hjoin := Pipeline.unscopedBufs_of_arrays (p := 1) (pcfgs (F := F)) adm (Ix := HIx 4) (Name := ℕ) (U := UU) (Lvl := ℕ)
      launch5.win launch5.arr_whole c (pdats Wt Bd) ((pdats Wt Bd 1 c).share_full fun _ => rfl)
      (VE1 Wt Bd c) (VX1 Wt Bd c) ((pdats Wt Bd 1 c).arrAt · cfg5.N) (hF5 Wt Bd c) (hrest5 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 1 h)
    iexact HO

-- a library lemma stated over the pinned configuration unifies with the printed one only when unification may
-- unfold plain definitions in a metavariable's type
set_option backward.isDefEq.respectTransparency.types false in
/-- Region 6 over the thread state: entered from every unscoped buffer at `E2`, left at `X2`. Its arrays are split
    out of the unscoped buffers at entry and put back at the exit contents; the generator register goes into the
    region's invariant and comes out; nothing is owed, and the recorded waits stay within the bound because the
    pipeline's own wait pairs lie within it (`hBd`); the kernel has no semaphore of its own. -/
def reg6 (hBd : ∀ c p, (cfgs p).waitPairs (none : HIx 4) ⊆ Bd c) :
    Pipeline.RegionSeg (pcfgs (F := F)) adm (pdats Wt Bd) (none : HIx 4) defs₀ Variants.none (Cert.Proof.KB.K (F := F)).L (Cert.Proof.KB.K (F := F)).lev 2 where
  win := launch6.win.to₀
  block_pos := launch6.block_pos
  stage_whole := launch6.stage_whole
  K := PEmpty
  osem k := k.elim
  ho := Pipeline.OwnSemFacts.none _
  hbody c := (body_obligation6 (VE2 Wt Bd) (Bd c) c).loose
  hwaits := Pipeline.hwaits_of_owed_zero _ _ _ _ (Cert.Proof.KB.K (F := F)).L (Cert.Proof.KB.K (F := F)).lev 2 fun _ _ => rfl
  pre c := iprop(StableHlo.held (c : Thread nD τ) (Pipeline.ucRefs τ sig) (E2 Wt Bd c) ∗ R Bd c)
  post c := iprop(StableHlo.held (c : Thread nD τ) (Pipeline.ucRefs τ sig) (X2 Wt Bd c) ∗ R Bd c)
  X c := iprop(∃ r, prngReg c r)
  Y c := iprop(∃ r, prngReg c r)
  Z c := Pipeline.unscopedRest (Ix := HIx 4) (Name := ℕ) (U := UU) (Lvl := ℕ) spec6 c (VE2 Wt Bd c)
  hentry c := by
    rw [Pipeline.ownSems0_none]
    have hsplit := Pipeline.arrays_of_unscopedBufs (p := 2) (pcfgs (F := F)) adm (pdats Wt Bd) launch6.win launch6.arr_whole c
      ((pdats Wt Bd 2 c).share_full fun _ => rfl) (VE2 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 2 c).Φ 0 = Φ6 c from rfl]; unfold Φ6
    iintro ⟨Hp, -, Hr⟩
    isplitl [Hr]; · iexact Hr
    iexact Hp
  hout c := by
    rw [Pipeline.ownSems0_none, show (pdats Wt Bd 2 c).Φ (Fin.last _) = Φ6 c from rfl]; unfold Φ6
    iintro ⟨Hr, Hp⟩
    isplitl [Hp]; · iexact Hp
    isplitr; · iempintro
    iexact Hr
  hexit c := by
    have hjoin := Pipeline.unscopedBufs_of_arrays (p := 2) (pcfgs (F := F)) adm (Ix := HIx 4) (Name := ℕ) (U := UU) (Lvl := ℕ)
      launch6.win launch6.arr_whole c (pdats Wt Bd) ((pdats Wt Bd 2 c).share_full fun _ => rfl)
      (VE2 Wt Bd c) (VX2 Wt Bd c) ((pdats Wt Bd 2 c).arrAt · cfg6.N) (hF6 Wt Bd c) (hrest6 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 2 h)
    iexact HO

-- a library lemma stated over the pinned configuration unifies with the printed one only when unification may
-- unfold plain definitions in a metavariable's type
set_option backward.isDefEq.respectTransparency.types false in
/-- Region 7 over the thread state: entered from every unscoped buffer at `E3`, left at `X3`. Its arrays are split
    out of the unscoped buffers at entry and put back at the exit contents; the generator register goes into the
    region's invariant and comes out; nothing is owed, and the recorded waits stay within the bound because the
    pipeline's own wait pairs lie within it (`hBd`); the kernel has no semaphore of its own. -/
def reg7 (hBd : ∀ c p, (cfgs p).waitPairs (none : HIx 4) ⊆ Bd c) :
    Pipeline.RegionSeg (pcfgs (F := F)) adm (pdats Wt Bd) (none : HIx 4) defs₀ Variants.none (Cert.Proof.KB.K (F := F)).L (Cert.Proof.KB.K (F := F)).lev 3 where
  win := launch7.win.to₀
  block_pos := launch7.block_pos
  stage_whole := launch7.stage_whole
  K := PEmpty
  osem k := k.elim
  ho := Pipeline.OwnSemFacts.none _
  hbody c := (body_obligation7 (VE3 Wt Bd) (Bd c) c).loose
  hwaits := Pipeline.hwaits_of_owed_zero _ _ _ _ (Cert.Proof.KB.K (F := F)).L (Cert.Proof.KB.K (F := F)).lev 3 fun _ _ => rfl
  pre c := iprop(StableHlo.held (c : Thread nD τ) (Pipeline.ucRefs τ sig) (E3 Wt Bd c) ∗ R Bd c)
  post c := iprop(StableHlo.held (c : Thread nD τ) (Pipeline.ucRefs τ sig) (X3 Wt Bd c) ∗ R Bd c)
  X c := iprop(∃ r, prngReg c r)
  Y c := iprop(∃ r, prngReg c r)
  Z c := Pipeline.unscopedRest (Ix := HIx 4) (Name := ℕ) (U := UU) (Lvl := ℕ) spec7 c (VE3 Wt Bd c)
  hentry c := by
    rw [Pipeline.ownSems0_none]
    have hsplit := Pipeline.arrays_of_unscopedBufs (p := 3) (pcfgs (F := F)) adm (pdats Wt Bd) launch7.win launch7.arr_whole c
      ((pdats Wt Bd 3 c).share_full fun _ => rfl) (VE3 Wt Bd c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := by
    rw [show (pdats Wt Bd 3 c).Φ 0 = Φ7 c from rfl]; unfold Φ7
    iintro ⟨Hp, -, Hr⟩
    isplitl [Hr]; · iexact Hr
    iexact Hp
  hout c := by
    rw [Pipeline.ownSems0_none, show (pdats Wt Bd 3 c).Φ (Fin.last _) = Φ7 c from rfl]; unfold Φ7
    iintro ⟨Hr, Hp⟩
    isplitl [Hp]; · iexact Hp
    isplitr; · iempintro
    iexact Hr
  hexit c := by
    have hjoin := Pipeline.unscopedBufs_of_arrays (p := 3) (pcfgs (F := F)) adm (Ix := HIx 4) (Name := ℕ) (U := UU) (Lvl := ℕ)
      launch7.win launch7.arr_whole c (pdats Wt Bd) ((pdats Wt Bd 3 c).share_full fun _ => rfl)
      (VE3 Wt Bd c) (VX3 Wt Bd c) ((pdats Wt Bd 3 c).arrAt · cfg7.N) (hF7 Wt Bd c) (hrest7 Wt Bd c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun x hx => (hW hx).elim id (fun h => hBd c 3 h)
    iexact HO

end Tail

end Cert.Proof.KB.Reg

end
-- ==== Proof.BLaunchA.lean ====
/-
  The launch of the word-level kernel program, first half: what the four SparseCore calls' handshakes carry (each call
  hands every task its share of the table, its block of the ids and its rows of the output, and takes them back), how
  a SparseCore's operands are its tasks' put side by side, and the launch element of the ghost state — the handshakes'
  rounds, the four layer-norm pipelines' staging cells, the tiles' copy counters.
-/
import proofs.«203556_g1357209665813_cont_week2b_798_48_alg».proof.Proof.BTail

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- What a task of call `q` is handed (`go`) and hands back (`td`): families the tile's proof fixes. -/
structure TilePay (F : FTy → Type) where
  go : (q : Fin 4) → Dev nD → Fin ((K (F := F)).nCore q) → Fin ((K (F := F)).nSub q) → sProp (MT nD τ sig (HIx 4) (Elt F) ℕ UU ℕ)
  td : (q : Fin 4) → Dev nD → Fin ((K (F := F)).nCore q) → Fin ((K (F := F)).nSub q) → sProp (MT nD τ sig (HIx 4) (Elt F) ℕ UU ℕ)
  go_st : ∀ q d c i, BI.Storable (upEmb : UEmb _ (MT nD τ sig (HIx 4) (Elt F) ℕ UU ℕ)) (go q d c i)
  td_st : ∀ q d c i, BI.Storable (upEmb : UEmb _ (MT nD τ sig (HIx 4) (Elt F) ℕ UU ℕ)) (td q d c i)

variable (TP : TilePay F)

/-- A call hands SparseCore `c` its sixteen tasks' payloads side by side and takes the sixteen results back; the
    tiles' proofs consume nothing of the launch's. -/
def P : (K (F := F)).Pay (nD := nD) (Val := Elt F) (Name := ℕ) (U := UU) where
  st := fun q d c => bigSep Finset.univ fun i => TP.go q d c i
  dn := fun q d c => bigSep Finset.univ fun i => TP.td q d c i
  go := TP.go
  td := TP.td
  x := fun _ _ => iprop(emp)

instance P_storable : (P (F := F) TP).IsStorable where
  st q d c := by
    unfold P; dsimp only
    haveI := TP.go_st q d c
    infer_instance
  dn q d c := by
    unfold P; dsimp only
    haveI := TP.td_st q d c
    infer_instance
  go q d c i := TP.go_st q d c i
  td q d c i := TP.td_st q d c i

/-- A SparseCore's operands ARE its tasks' operands side by side. -/
theorem vecSplit (q : Fin 4) : (K (F := F)).VecSplit' (P TP) q := by
  intro d c
  show (bigSep Finset.univ fun i => TP.go q d c i) ⊢ |={Set.univ}=> iprop((bigSep Finset.univ fun i => TP.go q d c i)
      ∗ ((bigSep Finset.univ fun i => TP.td q d c i) -∗ bigSep Finset.univ fun i => TP.td q d c i))
  iintro H; imodintro
  isplitl [H]; · iexact H
  iintro H; iexact H

/-! ## The launch element -/

open Cert.Proof.KB.Reg (adm)

set_option backward.isDefEq.respectTransparency.types false in
/-- The launch element: the handshake cells' rounds, the staging cells' rounds, the counters at their unit. -/
def u₀ : UU :=
  (initOf (K (F := F)).hsCells (K (F := F)).hsToks, (initOf (Pipeline.cells (Pipeline.pin (pcfgs (F := F)) adm) cellOf_inj) (Pipeline.launchToks (Pipeline.pin (pcfgs (F := F)) adm) cellOf_inj), 1))

/-- What @main's proof starts from on device `d`, beyond what the launch theorem deals it: every pipeline's staging
    cells' ghost state and duty tokens. -/
def G (d : Dev nD) : sProp 𝕄 :=
  bigSep Finset.univ fun p : Fin 4 => iprop(Pipeline.cellsGhost (Pipeline.pin (pcfgs (F := F)) adm) (EP (F := F)) p d ∗ Pipeline.toksInit (Pipeline.pin (pcfgs (F := F)) adm) (EP (F := F)) p d)

theorem bigSep_emp' {I : Type} (s : Finset I) : (bigSep s fun _ => iprop(emp)) = (iprop(emp) : sProp 𝕄) := bigSep_emp_const s

set_option backward.isDefEq.respectTransparency.types false in
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P TP).x q thr) := by
  unfold u₀
  iintro Hu
  ihave H := (ownU_pair _ _) $$ Hu
  icases H with ⟨HH, Hrt⟩
  ihave Hrt' := (own_pair_emb (embR (A := UH) (B := UP × Counters)) _ _) $$ Hrt
  icases Hrt' with ⟨Hpl, -⟩
  ihave Hpl2 := (show (BI.own (((Emb.inl : Emb UP (UP × Counters)).trans (embR (A := UH) (B := UP × Counters))) (initOf (Pipeline.cells (Pipeline.pin (pcfgs (F := F)) adm) cellOf_inj) (Pipeline.launchToks (Pipeline.pin (pcfgs (F := F)) adm) cellOf_inj))) : sProp 𝕄)
      ⊢ BI.own ((EP (F := F)) (initOf (Pipeline.cells (Pipeline.pin (pcfgs (F := F)) adm) cellOf_inj) (Pipeline.launchToks (Pipeline.pin (pcfgs (F := F)) adm) cellOf_inj))) from .rfl) $$ Hpl
  imod (Pipeline.fund_ghost (Pipeline.pin (pcfgs (F := F)) adm) (EP (F := F)) cellOf_inj) $$ Hpl2 with ⟨Hg, Ht⟩
  imodintro
  isplitl [HH]; · iexact HH
  isplitl [Hg Ht]
  · unfold G
    simp only [bigSep_sep']
    isplitl [Hg]; · iexact Hg
    iexact Ht
  unfold P; dsimp only
  rw [show (bigSep Finset.univ fun _ : Thread nD τ => bigSep Finset.univ fun _ : Fin 4 => (iprop(emp) : sProp 𝕄)) = iprop(emp) from by
    rw [bigSep_congr fun _ _ => bigSep_emp' _, bigSep_emp']]
  iempintro

end Cert.Proof.KB

end
-- ==== Proof.BHostFacts.lean ====
/-
  Routine facts about @main's eight host stretches: each operation touches TensorCore references only, none allocates
  a buffer, and the list of references each stretch writes — so that a buffer outside that list keeps its contents.
-/
import proofs.«203556_g1357209665813_cont_week2b_798_48_alg».proof.Proof.BMain
import Idealize.ShloMosaic.Lib.Pipeline.Frame

noncomputable section

namespace Cert.Proof.KB

open Cert.Kernel Cert.Kernel.Gen
open Idealize.ShloMosaic Idealize.SL.Sem

variable {F : FTy → Type} [FloatOps F]

theorem hops0_sub : (hops0 : List (HloOp τ sig (Elt F))).Forall fun op => op.bufs ⊆ StableHlo.tcRefs τ sig :=
  ⟨StableHlo.reshape_bufs_sub .., StableHlo.reshape_bufs_sub .., StableHlo.nullary_bufs_sub .., StableHlo.nullary_bufs_sub .., StableHlo.unaryIndexed_bufs_sub .., StableHlo.reshape_bufs_sub ..⟩
theorem hops0_fresh : (hops0 : List (HloOp τ sig (Elt F))).Forall fun op => op.fresh = ∅ := by
  simp only [List.Forall]; repeat' constructor
/-- The references stretch 0 writes. -/
abbrev hops0_W : List (Ref sig .tc) := [main_v0, main_v1, main_c, main_c_0, main_v2, main_v3]
theorem hops0_writes : (hops0 : List (HloOp τ sig (Elt F))).Forall fun op => op.writes ⊆ (hops0_W.map (Proc.devRef (τ := τ) .tc)).toFinset := by
  simp only [List.Forall]
  refine ⟨?_, ?_, ?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 0 does not write keeps its contents. -/
theorem hops0_keeps (W : Valuation τ sig (Elt F)) (r : Ref sig .tc) (h : r ∉ hops0_W) :
    StableHlo.after (hops0 (F := F)) W (Proc.devRef .tc r) = W (Proc.devRef .tc r) :=
  StableHlo.after_of_writes_sub hops0 _ hops0_writes h
theorem hops0_S : ∀ op ∈ (hops0 : List (HloOp τ sig (Elt F))), op.bufs ⊆ Pipeline.ucRefs τ sig :=
  fun op h => Pipeline.sub_ucRefs op ((List.forall_iff_forall_mem.mp hops0_sub) op h)
theorem hops0_f : ∀ op ∈ (hops0 : List (HloOp τ sig (Elt F))), op.fresh = ∅ :=
  fun op h => (List.forall_iff_forall_mem.mp hops0_fresh) op h

theorem hops1_sub : (hops1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops1_fresh : (hops1 : List (HloOp τ sig (Elt F))).Forall fun op => op.fresh = ∅ := by
  simp only [List.Forall]; repeat' constructor
/-- The references stretch 1 writes. -/
abbrev hops1_W : List (Ref sig .tc) := [main_c_1, main_c_2, main_v5, main_v6]
theorem hops1_writes : (hops1 : List (HloOp τ sig (Elt F))).Forall fun op => op.writes ⊆ (hops1_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 1 does not write keeps its contents. -/
theorem hops1_keeps (W : Valuation τ sig (Elt F)) (r : Ref sig .tc) (h : r ∉ hops1_W) :
    StableHlo.after (hops1 (F := F)) W (Proc.devRef .tc r) = W (Proc.devRef .tc r) :=
  StableHlo.after_of_writes_sub hops1 _ hops1_writes h
theorem hops1_S : ∀ op ∈ (hops1 : List (HloOp τ sig (Elt F))), op.bufs ⊆ Pipeline.ucRefs τ sig :=
  fun op h => Pipeline.sub_ucRefs op ((List.forall_iff_forall_mem.mp hops1_sub) op h)
theorem hops1_f : ∀ op ∈ (hops1 : List (HloOp τ sig (Elt F))), op.fresh = ∅ :=
  fun op h => (List.forall_iff_forall_mem.mp hops1_fresh) op h

theorem hops2_sub : (hops2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops2_fresh : (hops2 : List (HloOp τ sig (Elt F))).Forall fun op => op.fresh = ∅ := by
  simp only [List.Forall]; repeat' constructor
/-- The references stretch 2 writes. -/
abbrev hops2_W : List (Ref sig .tc) := [main_c_3, main_c_4, main_v8, main_v9]
theorem hops2_writes : (hops2 : List (HloOp τ sig (Elt F))).Forall fun op => op.writes ⊆ (hops2_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 2 does not write keeps its contents. -/
theorem hops2_keeps (W : Valuation τ sig (Elt F)) (r : Ref sig .tc) (h : r ∉ hops2_W) :
    StableHlo.after (hops2 (F := F)) W (Proc.devRef .tc r) = W (Proc.devRef .tc r) :=
  StableHlo.after_of_writes_sub hops2 _ hops2_writes h
theorem hops2_S : ∀ op ∈ (hops2 : List (HloOp τ sig (Elt F))), op.bufs ⊆ Pipeline.ucRefs τ sig :=
  fun op h => Pipeline.sub_ucRefs op ((List.forall_iff_forall_mem.mp hops2_sub) op h)
theorem hops2_f : ∀ op ∈ (hops2 : List (HloOp τ sig (Elt F))), op.fresh = ∅ :=
  fun op h => (List.forall_iff_forall_mem.mp hops2_fresh) op h

theorem hops3_sub : (hops3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem hops3_fresh : (hops3 : List (HloOp τ sig (Elt F))).Forall fun op => op.fresh = ∅ := by
  simp only [List.Forall]; repeat' constructor
/-- The references stretch 3 writes. -/
abbrev hops3_W : List (Ref sig .tc) := [main_c_5, main_c_6, main_v11, main_v12]
theorem hops3_writes : (hops3 : List (HloOp τ sig (Elt F))).Forall fun op => op.writes ⊆ (hops3_W.map (Proc.devRef (τ := τ) .tc)).toFinset := by
  simp only [List.Forall]
  refine ⟨?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 3 does not write keeps its contents. -/
theorem hops3_keeps (W : Valuation τ sig (Elt F)) (r : Ref sig .tc) (h : r ∉ hops3_W) :
    StableHlo.after (hops3 (F := F)) W (Proc.devRef .tc r) = W (Proc.devRef .tc r) :=
  StableHlo.after_of_writes_sub hops3 _ hops3_writes h
theorem hops3_S : ∀ op ∈ (hops3 : List (HloOp τ sig (Elt F))), op.bufs ⊆ Pipeline.ucRefs τ sig :=
  fun op h => Pipeline.sub_ucRefs op ((List.forall_iff_forall_mem.mp hops3_sub) op h)
theorem hops3_f : ∀ op ∈ (hops3 : List (HloOp τ sig (Elt F))), op.fresh = ∅ :=
  fun op h => (List.forall_iff_forall_mem.mp hops3_fresh) op h

theorem hops4_sub : (hops4 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.reshape_bufs_sub .., StableHlo.reshape_bufs_sub .., StableHlo.reshape_bufs_sub .., StableHlo.reshape_bufs_sub ..⟩
theorem hops4_fresh : (hops4 : List (HloOp τ sig (Elt F))).Forall fun op => op.fresh = ∅ := by
  simp only [List.Forall]; repeat' constructor
/-- The references stretch 4 writes. -/
abbrev hops4_W : List (Ref sig .tc) := [main_v14, main_v15, main_v16, main_v17, main_v18, main_v19, main_v20, main_v21, main_v22, main_v23, main_v24, main_v25, main_v26, main_v27, main_v28]
theorem hops4_writes : (hops4 : List (HloOp τ sig (Elt F))).Forall fun op => op.writes ⊆ (hops4_W.map (Proc.devRef (τ := τ) .tc)).toFinset := by
  simp only [List.Forall]
  refine ⟨?_, ?_, ?_, ?_, ?_, ?_, ?_, ?_, ?_, ?_, ?_, ?_, ?_, ?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 4 does not write keeps its contents. -/
theorem hops4_keeps (W : Valuation τ sig (Elt F)) (r : Ref sig .tc) (h : r ∉ hops4_W) :
    StableHlo.after (hops4 (F := F)) W (Proc.devRef .tc r) = W (Proc.devRef .tc r) :=
  StableHlo.after_of_writes_sub hops4 _ hops4_writes h
theorem hops4_S : ∀ op ∈ (hops4 : List (HloOp τ sig (Elt F))), op.bufs ⊆ Pipeline.ucRefs τ sig :=
  fun op h => Pipeline.sub_ucRefs op ((List.forall_iff_forall_mem.mp hops4_sub) op h)
theorem hops4_f : ∀ op ∈ (hops4 : List (HloOp τ sig (Elt F))), op.fresh = ∅ :=
  fun op h => (List.forall_iff_forall_mem.mp hops4_fresh) op h

theorem hops5_sub : (hops5 : List (HloOp τ sig (Elt F))).Forall fun op => op.bufs ⊆ StableHlo.tcRefs τ sig :=
  ⟨StableHlo.reshape_bufs_sub .., StableHlo.unary_bufs_sub ..⟩
theorem hops5_fresh : (hops5 : List (HloOp τ sig (Elt F))).Forall fun op => op.fresh = ∅ := by
  simp only [List.Forall]; repeat' constructor
/-- The references stretch 5 writes. -/
abbrev hops5_W : List (Ref sig .tc) := [main_v30, main_v31]
theorem hops5_writes : (hops5 : List (HloOp τ sig (Elt F))).Forall fun op => op.writes ⊆ (hops5_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 5 does not write keeps its contents. -/
theorem hops5_keeps (W : Valuation τ sig (Elt F)) (r : Ref sig .tc) (h : r ∉ hops5_W) :
    StableHlo.after (hops5 (F := F)) W (Proc.devRef .tc r) = W (Proc.devRef .tc r) :=
  StableHlo.after_of_writes_sub hops5 _ hops5_writes h
theorem hops5_S : ∀ op ∈ (hops5 : List (HloOp τ sig (Elt F))), op.bufs ⊆ Pipeline.ucRefs τ sig :=
  fun op h => Pipeline.sub_ucRefs op ((List.forall_iff_forall_mem.mp hops5_sub) op h)
theorem hops5_f : ∀ op ∈ (hops5 : List (HloOp τ sig (Elt F))), op.fresh = ∅ :=
  fun op h => (List.forall_iff_forall_mem.mp hops5_fresh) op h

theorem hops6_sub : (hops6 : List (HloOp τ sig (Elt F))).Forall fun op => op.bufs ⊆ StableHlo.tcRefs τ sig :=
  ⟨StableHlo.reshape_bufs_sub .., StableHlo.unary_bufs_sub ..⟩
theorem hops6_fresh : (hops6 : List (HloOp τ sig (Elt F))).Forall fun op => op.fresh = ∅ := by
  simp only [List.Forall]; repeat' constructor
/-- The references stretch 6 writes. -/
abbrev hops6_W : List (Ref sig .tc) := [main_v32, main_v33]
theorem hops6_writes : (hops6 : List (HloOp τ sig (Elt F))).Forall fun op => op.writes ⊆ (hops6_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 6 does not write keeps its contents. -/
theorem hops6_keeps (W : Valuation τ sig (Elt F)) (r : Ref sig .tc) (h : r ∉ hops6_W) :
    StableHlo.after (hops6 (F := F)) W (Proc.devRef .tc r) = W (Proc.devRef .tc r) :=
  StableHlo.after_of_writes_sub hops6 _ hops6_writes h
theorem hops6_S : ∀ op ∈ (hops6 : List (HloOp τ sig (Elt F))), op.bufs ⊆ Pipeline.ucRefs τ sig :=
  fun op h => Pipeline.sub_ucRefs op ((List.forall_iff_forall_mem.mp hops6_sub) op h)
theorem hops6_f : ∀ op ∈ (hops6 : List (HloOp τ sig (Elt F))), op.fresh = ∅ :=
  fun op h => (List.forall_iff_forall_mem.mp hops6_fresh) op h

theorem hops7_sub : (hops7 : List (HloOp τ sig (Elt F))).Forall fun op => op.bufs ⊆ StableHlo.tcRefs τ sig :=
  ⟨StableHlo.reshape_bufs_sub .., StableHlo.unary_bufs_sub ..⟩
theorem hops7_fresh : (hops7 : List (HloOp τ sig (Elt F))).Forall fun op => op.fresh = ∅ := by
  simp only [List.Forall]; repeat' constructor
/-- The references stretch 7 writes. -/
abbrev hops7_W : List (Ref sig .tc) := [main_v34, main_v35]
theorem hops7_writes : (hops7 : List (HloOp τ sig (Elt F))).Forall fun op => op.writes ⊆ (hops7_W.map (Proc.devRef (τ := τ) .tc)).toFinset := by
  simp only [List.Forall]
  refine ⟨?_, ?_⟩ <;>
    (simp only [StableHlo.nullary_writes, StableHlo.unary_writes, StableHlo.binary_writes, StableHlo.reshape_writes, StableHlo.unaryIndexed_writes, Finset.singleton_subset_iff, List.mem_toFinset]; exact List.mem_map_of_mem (by decide))
/-- A buffer stretch 7 does not write keeps its contents. -/
theorem hops7_keeps (W : Valuation τ sig (Elt F)) (r : Ref sig .tc) (h : r ∉ hops7_W) :
    StableHlo.after (hops7 (F := F)) W (Proc.devRef .tc r) = W (Proc.devRef .tc r) :=
  StableHlo.after_of_writes_sub hops7 _ hops7_writes h
theorem hops7_S : ∀ op ∈ (hops7 : List (HloOp τ sig (Elt F))), op.bufs ⊆ Pipeline.ucRefs τ sig :=
  fun op h => Pipeline.sub_ucRefs op ((List.forall_iff_forall_mem.mp hops7_sub) op h)
theorem hops7_f : ∀ op ∈ (hops7 : List (HloOp τ sig (Elt F))), op.fresh = ∅ :=
  fun op h => (List.forall_iff_forall_mem.mp hops7_fresh) op h

end Cert.Proof.KB

end
-- ==== Proof.BLaunchB.lean ====
/-
  The four layer-norm regions inside the SparseCore program: one region call at the outer level is the pipeline
  library's region rule run under the inner body table and lifted; the tail of @main is then four host stretches and
  four such calls in turn, from the TensorCore's buffers when the last SparseCore call has returned.
-/
import proofs.«203556_g1357209665813_cont_week2b_798_48_alg».proof.Proof.BLaunchA
import proofs.«203556_g1357209665813_cont_week2b_798_48_alg».proof.Proof.BHostFacts

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KB.Reg (adm)

variable {F : FTy → Type} [FloatOps F]

local notation "𝕄" => MT nD τ sig (HIx 4) (Elt F) ℕ UU ℕ

/-- The unscoped TensorCore buffers. -/
abbrev UC : Finset (DevRef τ sig) := Pipeline.ucRefs τ sig

/-- The inner program of a region call. -/
abbrev callIn (p : Fin 4) : Prog (TpuEff nD τ sig (Elt F) (ΛP (F := F)) .tc) PUnit := .op (.customCall (Pipeline.entry p) ()) fun _ => .ret ⟨⟩
/-- The same call as @main spells it. -/
abbrev callOut (p : Fin 4) : Prog (TpuEff nD τ sig (Elt F) (SparseCore.Sig (ΛP (F := F)) 4) .tc) PUnit :=
  Prog.lift (.customCall (SparseCore.inner (Pipeline.entry p)) ())

/-- The call of a pipeline's entry label at the SparseCore program's level is the inner call, lifted. -/
theorem entry_lift (p : Fin 4) : callOut (F := F) p = SparseCore.liftProg (Q := 4) (callIn (F := F) p) := rfl

/-- A proof about the inner call is one about the outer. -/
theorem region_lift (p : Fin 4) (d : Dev nD) (Φ : PUnit → sProp 𝕄) :
    wp frame (wpE (D (F := F)) 𝒱 (T d) none) Set.univ (callIn (F := F) p) Φ
      ⊢ wp frame (wpE ((K (F := F)).defs (D (F := F))) 𝒱 (T d) none) Set.univ (callOut (F := F) p) Φ := by
  rw [entry_lift]
  exact (K (F := F)).wp_liftProg (D (F := F)) 𝒱 (T d) Set.univ none (callIn (F := F) p) Φ

set_option maxHeartbeats 1600000 in
/-- The region rule at pipeline `p`, at the inner level, with the return as continuation. -/
theorem region_in [∀ e, Nonempty (Elt F e)]
    (pdats : (p : Fin 4) → (c : Dev nD) → Pipeline.Dat τ (Elt F) (HIx 4) ℕ UU ℕ (Pipeline.pin (pcfgs (F := F)) adm p) c)
    {p : Fin 4} (R : Pipeline.RegionSeg (pcfgs (F := F)) adm pdats (none : HIx 4) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE (D (F := F)) 𝒱 (T d) none) Set.univ (callIn (F := F) p) Φ := by
  have h := Pipeline.RegionSeg.wp (pcfgs (F := F)) adm pdats (none : HIx 4) cellOf_inj (EP (F := F)) defs₀ 𝒱₀ (K (F := F)).L (K (F := F)).lev R d none
    (fun _ hu => nomatch hu) (fun _ => .ret ⟨⟩) Φ
  iintro ⟨Hk, Hrest⟩
  iapply h
  isplitl [Hk]
  · iintro Hp
    rw [wp_ret]; imodintro
    iapply Hk; iexact Hp
  · iexact Hrest

/-- One region call of @main: from the boundary, the region's entry state, the level facts and the pipeline's ghost
    state, to the boundary and the region's exit state for the continuation. -/
theorem region_step [∀ e, Nonempty (Elt F e)]
    (pdats : (p : Fin 4) → (c : Dev nD) → Pipeline.Dat τ (Elt F) (HIx 4) ℕ UU ℕ (Pipeline.pin (pcfgs (F := F)) adm p) c)
    {p : Fin 4} (R : Pipeline.RegionSeg (pcfgs (F := F)) adm pdats (none : HIx 4) defs₀ 𝒱₀ (K (F := F)).L (K (F := F)).lev p)
    (d : Dev nD) (Φ : PUnit → sProp 𝕄) :
    iprop((iprop(boundary (T d) ∗ R.post d) -∗ Φ ⟨⟩) ∗ boundary (T d) ∗ R.pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE ((K (F := F)).defs (D (F := F))) 𝒱 (T d) none) Set.univ (callOut (F := F) p) Φ :=
  (region_in pdats R d Φ).trans (region_lift p d Φ)

/-- The ghost state @main starts from, pipeline by pipeline. -/
theorem G_eq (d : Dev nD) : G (F := F) d = iprop(
    (Pipeline.cellsGhost (Pipeline.pin (pcfgs (F := F)) adm) (EP (F := F)) 0 d ∗ Pipeline.toksInit (Pipeline.pin (pcfgs (F := F)) adm) (EP (F := F)) 0 d)
    ∗ (Pipeline.cellsGhost (Pipeline.pin (pcfgs (F := F)) adm) (EP (F := F)) 1 d ∗ Pipeline.toksInit (Pipeline.pin (pcfgs (F := F)) adm) (EP (F := F)) 1 d)
    ∗ (Pipeline.cellsGhost (Pipeline.pin (pcfgs (F := F)) adm) (EP (F := F)) 2 d ∗ Pipeline.toksInit (Pipeline.pin (pcfgs (F := F)) adm) (EP (F := F)) 2 d)
    ∗ (Pipeline.cellsGhost (Pipeline.pin (pcfgs (F := F)) adm) (EP (F := F)) 3 d ∗ Pipeline.toksInit (Pipeline.pin (pcfgs (F := F)) adm) (EP (F := F)) 3 d)) := by
  unfold G
  rw [show (Finset.univ : Finset (Fin 4)) = insert 0 (insert 1 (insert 2 {3})) by decide,
    SparseCore.bigSep_insert' (by decide), SparseCore.bigSep_insert' (by decide), SparseCore.bigSep_insert' (by decide), bigSep_singleton]

/-- The tail of @main. -/
abbrev tailProg : Prog (TpuEff nD τ sig (Elt F) (SparseCore.Sig (ΛP (F := F)) 4) .tc) PUnit :=
  StableHlo.seq (hops4 (F := F)) >>= fun _ => callOut (F := F) 0 >>= fun _ =>
  StableHlo.seq (hops5 (F := F)) >>= fun _ => callOut (F := F) 1 >>= fun _ =>
  StableHlo.seq (hops6 (F := F)) >>= fun _ => callOut (F := F) 2 >>= fun _ =>
  StableHlo.seq (hops7 (F := F)) >>= fun _ => callOut (F := F) 3 >>= fun _ => pure ⟨⟩

set_option maxHeartbeats 1600000 in
/-- The tail's run on device `d`: from the buffers at `Wt d`, the generator register and the core owing nothing with
    its recorded waits within `Bd d`, through the four stretches and regions, to the buffers at the last region's exit
    contents. -/
theorem tail_run [∀ e, Nonempty (Elt F e)] (d : Dev nD) (Wt : Dev nD → Valuation τ sig (Elt F)) (Bd : Dev nD → Set (SemLoc sig × HIx 4))
    (hBd : ∀ c p, (cfgs p).waitPairs (none : HIx 4) ⊆ Bd c) (Φ : PUnit → sProp 𝕄) :
    iprop(boundary (T d) ∗ (held (T d) UC (Wt d) : sProp 𝕄) ∗ Reg.R (F := F) Bd d ∗ levAts (K (F := F)).L (K (F := F)).lev ∗ G (F := F) d
        ∗ (iprop(boundary (T d) ∗ (held (T d) UC (Reg.X3 Wt Bd d) : sProp 𝕄) ∗ Reg.R (F := F) Bd d) -∗ Φ ⟨⟩))
      ⊢ wp frame (wpE ((K (F := F)).defs (D (F := F))) 𝒱 (T d) none) Set.univ (tailProg (F := F)) Φ := by
  rw [G_eq]
  iintro ⟨Hb, Hh, HR, #Hlv, ⟨⟨Hg0, Ht0⟩, ⟨Hg1, Ht1⟩, ⟨Hg2, Ht2⟩, ⟨Hg3, Ht3⟩⟩, Hk⟩
  -- stretch 4 and region 0
  iapply (StableHlo.wp_seq (defs := (K (F := F)).defs (D (F := F))) 𝒱 none Set.univ d UC _ hops4 hops4_S hops4_f (Wt d)) $$ [Hb Hh]
  · isplitl [Hb] <;> iassumption
  iintro ⟨Hb, Hh⟩
  rw [wp_bind]
  iapply (region_step (Reg.pdats Wt Bd) (Reg.reg4 Wt Bd hBd) d _)
  rw [show (Reg.reg4 (F := F) Wt Bd hBd).pre d = iprop((held (T d) UC (Reg.E0 Wt d) : sProp 𝕄) ∗ Reg.R (F := F) Bd d) from rfl,
    show (Reg.reg4 (F := F) Wt Bd hBd).post d = iprop((held (T d) UC (Reg.X0 Wt Bd d) : sProp 𝕄) ∗ Reg.R (F := F) Bd d) from rfl]
  isplitr [Hb Hh HR Hg0 Ht0]
  swap
  · isplitl [Hb]; · iexact Hb
    isplitl [Hh HR]
    · isplitl [Hh]; · iexact Hh
      iexact HR
    isplitr; · iexact Hlv
    isplitl [Hg0]; · iexact Hg0
    iexact Ht0
  iintro ⟨Hb, Hh, HR⟩
  -- stretch 5 and region 1
  iapply (StableHlo.wp_seq (defs := (K (F := F)).defs (D (F := F))) 𝒱 none Set.univ d UC _ hops5 hops5_S hops5_f (Reg.X0 Wt Bd d)) $$ [Hb Hh]
  · isplitl [Hb] <;> iassumption
  iintro ⟨Hb, Hh⟩
  rw [wp_bind]
  iapply (region_step (Reg.pdats Wt Bd) (Reg.reg5 Wt Bd hBd) d _)
  rw [show (Reg.reg5 (F := F) Wt Bd hBd).pre d = iprop((held (T d) UC (Reg.E1 Wt Bd d) : sProp 𝕄) ∗ Reg.R (F := F) Bd d) from rfl,
    show (Reg.reg5 (F := F) Wt Bd hBd).post d = iprop((held (T d) UC (Reg.X1 Wt Bd d) : sProp 𝕄) ∗ Reg.R (F := F) Bd d) from rfl]
  isplitr [Hb Hh HR Hg1 Ht1]
  swap
  · isplitl [Hb]; · iexact Hb
    isplitl [Hh HR]
    · isplitl [Hh]; · iexact Hh
      iexact HR
    isplitr; · iexact Hlv
    isplitl [Hg1]; · iexact Hg1
    iexact Ht1
  iintro ⟨Hb, Hh, HR⟩
  -- stretch 6 and region 2
  iapply (StableHlo.wp_seq (defs := (K (F := F)).defs (D (F := F))) 𝒱 none Set.univ d UC _ hops6 hops6_S hops6_f (Reg.X1 Wt Bd d)) $$ [Hb Hh]
  · isplitl [Hb] <;> iassumption
  iintro ⟨Hb, Hh⟩
  rw [wp_bind]
  iapply (region_step (Reg.pdats Wt Bd) (Reg.reg6 Wt Bd hBd) d _)
  rw [show (Reg.reg6 (F := F) Wt Bd hBd).pre d = iprop((held (T d) UC (Reg.E2 Wt Bd d) : sProp 𝕄) ∗ Reg.R (F := F) Bd d) from rfl,
    show (Reg.reg6 (F := F) Wt Bd hBd).post d = iprop((held (T d) UC (Reg.X2 Wt Bd d) : sProp 𝕄) ∗ Reg.R (F := F) Bd d) from rfl]
  isplitr [Hb Hh HR Hg2 Ht2]
  swap
  · isplitl [Hb]; · iexact Hb
    isplitl [Hh HR]
    · isplitl [Hh]; · iexact Hh
      iexact HR
    isplitr; · iexact Hlv
    isplitl [Hg2]; · iexact Hg2
    iexact Ht2
  iintro ⟨Hb, Hh, HR⟩
  -- stretch 7 and region 3
  iapply (StableHlo.wp_seq (defs := (K (F := F)).defs (D (F := F))) 𝒱 none Set.univ d UC _ hops7 hops7_S hops7_f (Reg.X2 Wt Bd d)) $$ [Hb Hh]
  · isplitl [Hb] <;> iassumption
  iintro ⟨Hb, Hh⟩
  rw [wp_bind]
  iapply (region_step (Reg.pdats Wt Bd) (Reg.reg7 Wt Bd hBd) d _)
  rw [show (Reg.reg7 (F := F) Wt Bd hBd).pre d = iprop((held (T d) UC (Reg.E3 Wt Bd d) : sProp 𝕄) ∗ Reg.R (F := F) Bd d) from rfl,
    show (Reg.reg7 (F := F) Wt Bd hBd).post d = iprop((held (T d) UC (Reg.X3 Wt Bd d) : sProp 𝕄) ∗ Reg.R (F := F) Bd d) from rfl]
  isplitr [Hb Hh HR Hg3 Ht3]
  swap
  · isplitl [Hb]; · iexact Hb
    isplitl [Hh HR]
    · isplitl [Hh]; · iexact Hh
      iexact HR
    isplitr; · iexact Hlv
    isplitl [Hg3]; · iexact Hg3
    iexact Ht3
  iintro ⟨Hb, Hh, HR⟩
  rw [wp_pure]; imodintro
  iapply Hk
  isplitl [Hb]; · iexact Hb
  isplitl [Hh]; · iexact Hh
  iexact HR

end Cert.Proof.KB

end
-- ==== Proof.BLaunchC.lean ====
/-
  @main on the TensorCore inside the SparseCore launch: four times a host stretch and a SparseCore call — the call's
  operands cut out of the TensorCore's buffers for the thirty-two tasks and its output put back at what they left —,
  then the tail of four stretches and layer-norm regions; the arguments keep their launch contents throughout.
-/
import proofs.«203556_g1357209665813_cont_week2b_798_48_alg».proof.Proof.BLaunchB

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.KB.Reg (adm)

variable {F : FTy → Type}

local notation "𝕄" => MT nD τ sig (HIx 4) (Elt F) ℕ UU ℕ

variable (TP : TilePay F)

/-- @main's arguments. -/
abbrev argL : List (Ref sig .tc) := [main_arg0, main_arg1, main_arg2, main_arg3, main_arg4, main_arg5, main_arg6]
/-- The output array of SparseCore call `q`. -/
abbrev outR : Fin 4 → Ref sig .tc
  | 0 => main_v4 | 1 => main_v7 | 2 => main_v10 | 3 => main_v13
abbrev outD (q : Fin 4) : DevRef τ sig := Proc.devRef .tc (outR q)

/-- How a call's operands come out of the TensorCore's buffers and its results go back: what the tile's proof and the
    partition of the arrays among the thirty-two tasks supply. `IdxOK q d W`: the ids call `q` gathers by, as the
    buffers `W` hold them, name rows of the table. -/
structure CallIface where
  IdxOK : Fin 4 → Dev nD → Valuation τ sig (Elt F) → Prop
  /-- What is known of the output a call leaves (nothing, for the frame; the gathered rows, for the value). -/
  OutOK : (q : Fin 4) → Dev nD → Valuation τ sig (Elt F) → (outD q).ty.Contents (Elt F) → Prop
  split : ∀ q d (W : Valuation τ sig (Elt F)), IdxOK q d W →
    (held (T d) UC W : sProp 𝕄) ⊢ |={Set.univ}=> iprop((bigSep Finset.univ fun c => (P TP).st q d c)
      ∗ ((bigSep Finset.univ fun c => (P TP).dn q d c) -∗ ∃ f, ⌜OutOK q d W f⌝ ∗ held (T d) UC (Function.update W (outD q) f)))

variable (m : (ℓ : Loc nD τ sig) → Buf (Elt F) ℓ) (ρ : Dev nD → PrngReg)

/-- The launch contents. -/
def W0 (d : Dev nD) : Valuation τ sig (Elt F) := fun b => m (d, b)

/-- The bound on the TensorCore's recorded waits once the four calls are over. -/
def Bd (d : Dev nD) : Set (SemLoc sig × HIx 4) := {p | (K (F := F)).lev (T d, p.1) p.2 ≤ 8 * 4}

theorem hBd : ∀ (c : Dev nD) (p : Fin 4), (cfgs p).waitPairs (none : HIx 4) ⊆ Bd (F := F) c := by
  rintro c p _ ⟨w, s, rfl⟩
  show (K (F := F)).lev _ none ≤ 8 * 4
  rw [SparseCore.Cfg.lev_none]; exact Nat.zero_le _

/-- A valuation has the arguments as launched. -/
def ArgsOf (d : Dev nD) (W : Valuation τ sig (Elt F)) : Prop := ∀ r ∈ argL, W (Proc.devRef .tc r) = m ((SparseCore.T d).loc r)

/-- What @main leaves the claim: the unscoped buffers at a valuation that has the arguments as launched. -/
def FIN (Res : Dev nD → Valuation τ sig (Elt F) → Prop) (d : Dev nD) : sProp 𝕄 :=
  iprop(∃ Wf : Valuation τ sig (Elt F), ⌜ArgsOf m d Wf ∧ Res d Wf⌝ ∗ held (T d) UC Wf)

theorem argsOf_W0 (d : Dev nD) : ArgsOf m d (W0 m d) := fun _ _ => rfl

theorem argsOf_update (d : Dev nD) (q : Fin 4) {W : Valuation τ sig (Elt F)} (f) (h : ArgsOf m d W) : ArgsOf m d (Function.update W (outD q) f) :=
  fun r hr => (Function.update_of_ne (StableHlo.devRef_ne_of_ne (by
    revert r; match q with
    | 0 => decide
    | 1 => decide
    | 2 => decide
    | 3 => decide)) _ _).trans (h r hr)

variable [FloatOps F]

theorem argsOf_hops0 (d : Dev nD) {W : Valuation τ sig (Elt F)} (h : ArgsOf m d W) : ArgsOf m d (StableHlo.after (hops0 (F := F)) W) :=
  fun r hr => (hops0_keeps W r ((by decide : ∀ r ∈ argL, r ∉ hops0_W) r hr)).trans (h r hr)
theorem argsOf_hops1 (d : Dev nD) {W : Valuation τ sig (Elt F)} (h : ArgsOf m d W) : ArgsOf m d (StableHlo.after (hops1 (F := F)) W) :=
  fun r hr => (hops1_keeps W r ((by decide : ∀ r ∈ argL, r ∉ hops1_W) r hr)).trans (h r hr)
theorem argsOf_hops2 (d : Dev nD) {W : Valuation τ sig (Elt F)} (h : ArgsOf m d W) : ArgsOf m d (StableHlo.after (hops2 (F := F)) W) :=
  fun r hr => (hops2_keeps W r ((by decide : ∀ r ∈ argL, r ∉ hops2_W) r hr)).trans (h r hr)
theorem argsOf_hops3 (d : Dev nD) {W : Valuation τ sig (Elt F)} (h : ArgsOf m d W) : ArgsOf m d (StableHlo.after (hops3 (F := F)) W) :=
  fun r hr => (hops3_keeps W r ((by decide : ∀ r ∈ argL, r ∉ hops3_W) r hr)).trans (h r hr)
theorem argsOf_hops4 (d : Dev nD) {W : Valuation τ sig (Elt F)} (h : ArgsOf m d W) : ArgsOf m d (StableHlo.after (hops4 (F := F)) W) :=
  fun r hr => (hops4_keeps W r ((by decide : ∀ r ∈ argL, r ∉ hops4_W) r hr)).trans (h r hr)
theorem argsOf_hops5 (d : Dev nD) {W : Valuation τ sig (Elt F)} (h : ArgsOf m d W) : ArgsOf m d (StableHlo.after (hops5 (F := F)) W) :=
  fun r hr => (hops5_keeps W r ((by decide : ∀ r ∈ argL, r ∉ hops5_W) r hr)).trans (h r hr)
theorem argsOf_hops6 (d : Dev nD) {W : Valuation τ sig (Elt F)} (h : ArgsOf m d W) : ArgsOf m d (StableHlo.after (hops6 (F := F)) W) :=
  fun r hr => (hops6_keeps W r ((by decide : ∀ r ∈ argL, r ∉ hops6_W) r hr)).trans (h r hr)
theorem argsOf_hops7 (d : Dev nD) {W : Valuation τ sig (Elt F)} (h : ArgsOf m d W) : ArgsOf m d (StableHlo.after (hops7 (F := F)) W) :=
  fun r hr => (hops7_keeps W r ((by decide : ∀ r ∈ argL, r ∉ hops7_W) r hr)).trans (h r hr)

theorem argsOf_X3 (d : Dev nD) (Wt : Dev nD → Valuation τ sig (Elt F)) (Bd' : Dev nD → Set (SemLoc sig × HIx 4)) (h : ArgsOf m d (Wt d)) :
    ArgsOf m d (Reg.X3 Wt Bd' d) := by
  intro r hr
  simp only [argL, List.mem_cons, List.mem_nil_iff, or_false] at hr
  rcases hr with rfl | rfl | rfl | rfl | rfl | rfl | rfl
  · exact (Reg.X3_arg0 Wt Bd' d).trans (h _ (by simp [argL]))
  · exact (Reg.X3_arg1 Wt Bd' d).trans (h _ (by simp [argL]))
  · exact (Reg.X3_arg2 Wt Bd' d).trans (h _ (by simp [argL]))
  · exact (Reg.X3_arg3 Wt Bd' d).trans (h _ (by simp [argL]))
  · exact (Reg.X3_arg4 Wt Bd' d).trans (h _ (by simp [argL]))
  · exact (Reg.X3_arg5 Wt Bd' d).trans (h _ (by simp [argL]))
  · exact (Reg.X3_arg6 Wt Bd' d).trans (h _ (by simp [argL]))

/-- The rest of the TensorCore's handshake state after the last call. -/
def tcTail (d : Dev nD) : sProp 𝕄 :=
  iprop(atPos EH ((K (F := F)).doneCell d) 4 ∅ 0 ∗ reached EH ((K (F := F)).doneCell d) 4
    ∗ (bigSep Finset.univ fun c : Fin τ.nSC => reached EH ((K (F := F)).startCell d c) ((K (F := F)).sRank c 4))
    ∗ bigSep (SparseCore.Cfg.callsFrom (Q := 4) 4) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

theorem tcSt_end (d : Dev nD) :
    (K (F := F)).tcSt EH d 4 = iprop((∃ W, ⌜(K (F := F)).WBelow (T d) W (8 * 4)⌝ ∗ owes (T d) (0 : CellTallies nD τ sig (HIx 4)) W) ∗ tcTail (F := F) d) := by
  unfold SparseCore.Cfg.tcSt tcTail
  rw [(K (F := F)).Otc_end d (le_refl 4)]

set_option maxHeartbeats 1600000 in
/-- A host stretch and the SparseCore call after it, for any continuation: the stretch's operations over the held
    buffers, the call's operands cut out of them, the call (the launch library's rule), the output put back. -/
theorem call_step [∀ e, Nonempty (Elt F e)] (CI : CallIface (F := F) TP) (q : Fin 4) (d : Dev nD) (κ : GSem nD τ sig → ℕ)
    (hops : List (HloOp τ sig (Elt F))) (hS : ∀ op ∈ hops, op.bufs ⊆ UC) (hf : ∀ op ∈ hops, op.fresh = ∅)
    (W : Valuation τ sig (Elt F)) (hidx : CI.IdxOK q d (StableHlo.after hops W))
    {α : Type} (k : PUnit → Prog (TpuEff nD τ sig (Elt F) (SparseCore.Sig (ΛP (F := F)) 4) .tc) α) (Φ : α → sProp 𝕄) :
    iprop((K (F := F)).ctx EH (P TP) κ ∗ (K (F := F)).tcSt EH d q.val ∗ boundary (T d) ∗ (held (T d) UC W : sProp 𝕄)
        ∗ (∀ f, ⌜CI.OutOK q d (StableHlo.after hops W) f⌝ -∗
            iprop((K (F := F)).tcSt EH d (q.val + 1) ∗ boundary (T d) ∗ (held (T d) UC (Function.update (StableHlo.after hops W) (outD q) f) : sProp 𝕄))
              -∗ wp frame (wpE ((K (F := F)).defs (D (F := F))) 𝒱 (T d) none) Set.univ (k ⟨⟩) Φ))
      ⊢ wp frame (wpE ((K (F := F)).defs (D (F := F))) 𝒱 (T d) none) Set.univ
          (StableHlo.seq hops >>= fun _ => (sc (F := F)).run d q >>= k) Φ := by
  iintro ⟨#Hctx, Hst, Hb, Hh, Hk⟩
  iapply (StableHlo.wp_seq (defs := (K (F := F)).defs (D (F := F))) 𝒱 none Set.univ d UC _ hops hS hf W) $$ [Hb Hh]
  · isplitl [Hb] <;> iassumption
  iintro ⟨Hb, Hh⟩
  rw [wp_bind]
  imod (CI.split q d _ hidx) $$ Hh with ⟨Hsts, Hback⟩
  iapply ((K (F := F)).wp_run (D (F := F)) 𝒱 (EH := EH) (P := P TP) κ d q) $$ [Hst Hsts Hback Hb Hk]
  isplitr; · iexact Hctx
  isplitl [Hst]; · iexact Hst
  isplitl [Hsts]; · iexact Hsts
  iintro ⟨Hst, Hdn⟩
  ihave Hh' := Hback $$ Hdn
  icases Hh' with ⟨%f, %hf', Hh⟩
  ispecialize Hk $$ %f
  ispecialize Hk $$ %hf'
  iapply Hk
  isplitl [Hst]; · iexact Hst
  isplitl [Hb]; · iexact Hb
  iexact Hh

set_option maxHeartbeats 1600000 in
/-- @main on device `d`'s TensorCore. -/
theorem hmain [∀ e, Nonempty (Elt F e)] (CI : CallIface (F := F) TP) (d : Dev nD)
    (hidx0 : CI.IdxOK 0 d (StableHlo.after hops0 (W0 m d)))
    (hidx1 : ∀ f0, CI.IdxOK 1 d (StableHlo.after hops1 (Function.update (StableHlo.after hops0 (W0 m d)) (outD 0) f0)))
    (hidx2 : ∀ f0 f1, CI.IdxOK 2 d (StableHlo.after hops2 (Function.update (StableHlo.after hops1 (Function.update (StableHlo.after hops0 (W0 m d)) (outD 0) f0)) (outD 1) f1)))
    (hidx3 : ∀ f0 f1 f2, CI.IdxOK 3 d (StableHlo.after hops3 (Function.update (StableHlo.after hops2 (Function.update (StableHlo.after hops1 (Function.update (StableHlo.after hops0 (W0 m d)) (outD 0) f0)) (outD 1) f1)) (outD 2) f2)))
    (Res : Dev nD → Valuation τ sig (Elt F) → Prop)
    (hres : ∀ f0 f1 f2 f3, CI.OutOK 0 d (StableHlo.after hops0 (W0 m d)) f0 → CI.OutOK 1 d (StableHlo.after hops1 (Function.update (StableHlo.after hops0 (W0 m d)) (outD 0) f0)) f1
      → CI.OutOK 2 d (StableHlo.after hops2 (Function.update (StableHlo.after hops1 (Function.update (StableHlo.after hops0 (W0 m d)) (outD 0) f0)) (outD 1) f1)) f2 → CI.OutOK 3 d (StableHlo.after hops3 (Function.update (StableHlo.after hops2 (Function.update (StableHlo.after hops1 (Function.update (StableHlo.after hops0 (W0 m d)) (outD 0) f0)) (outD 1) f1)) (outD 2) f2)) f3
      → Res d (Reg.X3 (fun _ => (Function.update (StableHlo.after hops3 (Function.update (StableHlo.after hops2 (Function.update (StableHlo.after hops1 (Function.update (StableHlo.after hops0 (W0 m d)) (outD 0) f0)) (outD 1) f1)) (outD 2) f2)) (outD 3) f3)) (Bd (F := F)) d))
    (κ : GSem nD τ sig → ℕ) :
    iprop((K (F := F)).ctx EH (P TP) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 4 ∗ FIN m Res d) := by
  unfold SparseCore.Cfg.tcRes
  rw [show unscopedBufs d (fun b => m ((SparseCore.T d).loc b)) = (held (T d) UC (W0 m d) : sProp 𝕄) from Pipeline.unscopedBufs_held d (W0 m d)]
  rw [main_eq]
  iintro ⟨#Hctx, Hst, ⟨Hb, Hh, -, Hprng⟩, HG⟩
  iapply (call_step TP CI 0 d κ hops0 hops0_S hops0_f (W0 m d) hidx0 _ _) $$ [Hst Hb Hh Hprng HG]
  isplitr; · iexact Hctx
  isplitl [Hst]; · iexact Hst
  isplitl [Hb]; · iexact Hb
  isplitl [Hh]; · iexact Hh
  iintro %f0 %hf0 ⟨Hst, Hb, Hh⟩
  iapply (call_step TP CI 1 d κ hops1 hops1_S hops1_f (Function.update (StableHlo.after hops0 (W0 m d)) (outD 0) f0) (hidx1 f0) _ _) $$ [Hst Hb Hh Hprng HG]
  isplitr; · iexact Hctx
  isplitl [Hst]; · iexact Hst
  isplitl [Hb]; · iexact Hb
  isplitl [Hh]; · iexact Hh
  iintro %f1 %hf1 ⟨Hst, Hb, Hh⟩
  iapply (call_step TP CI 2 d κ hops2 hops2_S hops2_f (Function.update (StableHlo.after hops1 (Function.update (StableHlo.after hops0 (W0 m d)) (outD 0) f0)) (outD 1) f1) (hidx2 f0 f1) _ _) $$ [Hst Hb Hh Hprng HG]
  isplitr; · iexact Hctx
  isplitl [Hst]; · iexact Hst
  isplitl [Hb]; · iexact Hb
  isplitl [Hh]; · iexact Hh
  iintro %f2 %hf2 ⟨Hst, Hb, Hh⟩
  iapply (call_step TP CI 3 d κ hops3 hops3_S hops3_f (Function.update (StableHlo.after hops2 (Function.update (StableHlo.after hops1 (Function.update (StableHlo.after hops0 (W0 m d)) (outD 0) f0)) (outD 1) f1)) (outD 2) f2) (hidx3 f0 f1 f2) _ _) $$ [Hst Hb Hh Hprng HG]
  isplitr; · iexact Hctx
  isplitl [Hst]; · iexact Hst
  isplitl [Hb]; · iexact Hb
  isplitl [Hh]; · iexact Hh
  iintro %f3 %hf3 ⟨Hst, Hb, Hh⟩
  -- the tail
  ihave Hlv := (SparseCore.Cfg.ctx_levAts κ) $$ Hctx
  ihave Hst4 := (show ((K (F := F)).tcSt EH d ((3 : Fin 4).val + 1) : sProp 𝕄) ⊢ (K (F := F)).tcSt EH d 4 from .rfl) $$ Hst
  ihave Hst' := (Entails.of_eq (tcSt_end (F := F) d)) $$ Hst4
  icases Hst' with ⟨⟨%Wr, %hWr, HO⟩, Htl⟩
  iapply (tail_run d (fun _ => (Function.update (StableHlo.after hops3 (Function.update (StableHlo.after hops2 (Function.update (StableHlo.after hops1 (Function.update (StableHlo.after hops0 (W0 m d)) (outD 0) f0)) (outD 1) f1)) (outD 2) f2)) (outD 3) f3)) (Bd (F := F)) hBd _) $$ [Hb Hh Hprng HO Hlv HG Htl]
  isplitl [Hb]; · iexact Hb
  isplitl [Hh]; · iexact Hh
  isplitl [Hprng HO]
  · isplitl [Hprng]; · iexists _; iexact Hprng
    iexists Wr; isplitr
    · ipureintro; exact fun p hp => hWr p (Finset.mem_coe.mp hp)
    · iexact HO
  isplitl [Hlv]; · iexact Hlv
  isplitl [HG]; · iexact HG
  iintro ⟨Hb, Hh, ⟨Hp, %W', %hW', HO⟩⟩
  isplitl [HO Htl]
  · iapply (Entails.of_eq (tcSt_end (F := F) d).symm)
    isplitl [HO]
    · iexists W'; isplitr
      · ipureintro; exact fun p hp => hW' (Finset.mem_coe.mpr hp)
      · iexact HO
    · iexact Htl
  unfold FIN
  iexists _; isplitr
  swap; · iexact Hh
  ipureintro
  refine ⟨?_, hres f0 f1 f2 f3 hf0 hf1 hf2 hf3⟩
  exact argsOf_X3 m d _ _ (argsOf_update m d 3 _ (argsOf_hops3 m d (argsOf_update m d 2 _ (argsOf_hops2 m d (argsOf_update m d 1 _ (argsOf_hops1 m d
    (argsOf_update m d 0 _ (argsOf_hops0 m d (argsOf_W0 m d)))))))))

end Cert.Proof.KB

end
-- ==== Proof.BLaunchD.lean ====
/-
  The word-level kernel program's run: the SparseCore launch theorem applied to the four tile obligations, the split of
  each call's operands, the launch element and @main's proof; every final state has the seven arguments as launched.
-/
import proofs.«203556_g1357209665813_cont_week2b_798_48_alg».proof.Proof.BLaunchC

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (TP : TilePay F) (m : (ℓ : Loc nD τ sig) → Buf (Elt F) ℓ) (ρ : Dev nD → PrngReg)

/-- What the claim reads off a final state on device `d`: the arguments as launched. -/
def fq (d : Dev nD) (s' : Phys nD τ sig (Elt F)) : Prop := ∀ r ∈ argL, s'.mem.mem ((SparseCore.T d).loc r) = m ((SparseCore.T d).loc r)

theorem arg_mem_UC : ∀ r ∈ argL, (Proc.devRef .tc r : DevRef τ sig) ∈ UC := by decide

theorem hfin (Res : Dev nD → Valuation τ sig (Elt F) → Prop) (d : Dev nD) (s' : Phys nD τ sig (Elt F)) : iprop(FIN m Res d ∗ SI s') ⊢ (⌜fq m d s'⌝ : sProp 𝕄) := by
  unfold FIN
  iintro ⟨⟨%Wf, %hWf, Hh⟩, HSI⟩
  unfold StableHlo.held
  ihave H := (pointsTo_read_all UC (fun b => ((SparseCore.T d).1, b)) Wf s') $$ [Hh HSI]
  · isplitl [Hh] <;> iassumption
  icases H with ⟨%h, -⟩
  ipureintro
  exact fun r hr => (h _ (arg_mem_UC r hr)).trans (hWf.1 r hr)

/-- The claim's post: on every device the seven arguments as launched. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem hQ (s' : Phys nD τ sig (Elt F)) (h : ∀ d, fq m d s') : QC m (⟨⟩, s'.mem) := fun c =>
  ⟨h c _ (by simp [argL]), h c _ (by simp [argL]), h c _ (by simp [argL]), h c _ (by simp [argL]), h c _ (by simp [argL]), h c _ (by simp [argL]), h c _ (by simp [argL])⟩

variable [FloatOps F]

/-- The program's run, from the tiles' obligations and the calls' splits. -/
theorem run_main [∀ e, Nonempty (Elt F e)] (CI : CallIface (F := F) TP)
    (htile : ∀ q, (K (F := F)).TileObl (D (F := F)) 𝒱 (P TP) v₀ q)
    (hidx0 : ∀ d, CI.IdxOK 0 d (StableHlo.after hops0 (W0 m d)))
    (hidx1 : ∀ d f0, CI.IdxOK 1 d (StableHlo.after hops1 (Function.update (StableHlo.after hops0 (W0 m d)) (outD 0) f0)))
    (hidx2 : ∀ d f0 f1, CI.IdxOK 2 d (StableHlo.after hops2 (Function.update (StableHlo.after hops1 (Function.update (StableHlo.after hops0 (W0 m d)) (outD 0) f0)) (outD 1) f1)))
    (hidx3 : ∀ d f0 f1 f2, CI.IdxOK 3 d (StableHlo.after hops3 (Function.update (StableHlo.after hops2 (Function.update (StableHlo.after hops1 (Function.update (StableHlo.after hops0 (W0 m d)) (outD 0) f0)) (outD 1) f1)) (outD 2) f2))) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P TP) facts v₀
    (fun q hq => match q with | 0 => nomatch hq | 1 => nomatch hq | 2 => nomatch hq | 3 => nomatch hq)
    (fun q _ => htile q)
    (fun q _ => SparseCore.Cfg.VecSplit.of_plain (vecSplit TP q))
    m ρ main (G (F := F)) (FIN m fun _ _ => True) (u₀ (F := F)) (sep_elim_left.trans (hu₀ TP))
    (fun κ d => hmain TP m ρ CI d (hidx0 d) (hidx1 d) (hidx2 d) (hidx3 d) (fun _ _ => True) (fun _ _ _ _ _ _ _ _ => trivial) κ) (fq m) (hfin m _) (QC m) (hQ m)

end Cert.Proof.KB

end
-- ==== Proof.BTile0Sets.lean ====
/-
  The row gather's task on one vector subcore, call 0: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.BCommon

noncomputable section

namespace Cert.Proof.KB.Tile0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid0.Coords) : Thread nD τ := V d ((L 0).castLE hcore0) ((L 1).castLE hsub0)
abbrev tblLoc (d : Dev nD) : Loc nD τ sig := (SparseCore.T d).loc main_arg2
abbrev idxLoc (d : Dev nD) : Loc nD τ sig := (SparseCore.T d).loc main_v3
abbrev outLoc (d : Dev nD) : Loc nD τ sig := (SparseCore.T d).loc main_v4

local notation "tblW" => (Memref.whole Cert.Kernel.main_arg2_scv : Memref Cert.Kernel.sig Kind.scVector Space.hbm Cert.Kernel.S100000x128 EltTy.f32)
local notation "idxW" => (Memref.whole Cert.Kernel.main_v3_scv : Memref Cert.Kernel.sig Kind.scVector Space.hbm Cert.Kernel.S32x25x64 EltTy.i32)
local notation "outW" => (Memref.whole Cert.Kernel.main_v4_scv : Memref Cert.Kernel.sig Kind.scVector Space.hbm Cert.Kernel.S51200x128 EltTy.f32)
local notation "ivW" => (Memref.whole Cert.Kernel.cc0_scratch0 : Memref Cert.Kernel.sig Kind.scVector Space.vmem Cert.Kernel.S25x64 EltTy.i32)
local notation "b0W" => (Memref.whole Cert.Kernel.cc0_scratch1 : Memref Cert.Kernel.sig Kind.scVector Space.vmem Cert.Kernel.S64x128 EltTy.f32)
local notation "b1W" => (Memref.whole Cert.Kernel.cc0_scratch2 : Memref Cert.Kernel.sig Kind.scVector Space.vmem Cert.Kernel.S64x128 EltTy.f32)
local notation "b2W" => (Memref.whole Cert.Kernel.cc0_scratch3 : Memref Cert.Kernel.sig Kind.scVector Space.vmem Cert.Kernel.S64x128 EltTy.f32)
local notation "b3W" => (Memref.whole Cert.Kernel.cc0_scratch4 : Memref Cert.Kernel.sig Kind.scVector Space.vmem Cert.Kernel.S64x128 EltTy.f32)
local notation "b4W" => (Memref.whole Cert.Kernel.cc0_scratch5 : Memref Cert.Kernel.sig Kind.scVector Space.vmem Cert.Kernel.S64x128 EltTy.f32)

/-- The block of the index array the task copies, as the program slices it. -/
abbrev idxRow (L : grid0.Coords) : Memref sig .scVector .hbm S25x64 .i32 :=
  ((idxW).slice (Rect.unit (s := S32x25x64) (k0_off1 L) S1x25x64.size (k0_off1_inb L)) (fun _ => rfl)).squeeze S25x64 squeezes_S1x25x64_S25x64

/-- Chunk r of trip t of the output, as the program slices it at the write. -/
abbrev outChunk (L : grid0.Coords) (t : Fin k0_t1_loop.trips) (r : Fin 5) : Memref sig .scVector .hbm S64x128 .f32 :=
  (outW).slice (Rect.unit (s := S51200x128) (k0_off5 L t (BitVec.ofNat 32 r.val)) S64x128.size (k0_off5_inb L t r)) (fun _ => rfl)

def idxSet (L : grid0.Coords) : Finset S32x25x64.Idx := (idxRow L).view.set
def outSet (L : grid0.Coords) : Finset S51200x128.Idx :=
  (Finset.univ : Finset (Fin k0_t1_loop.trips × Fin 5)).biUnion fun p => (outChunk L p.1 p.2).view.set

abbrev cellOf (d : Dev nD) (L : grid0.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc0_scratch6.sem, cc0_scratch7.sem, cc0_scratch8.sem, cc0_scratch9.sem, cc0_scratch10.sem, cc0_scratch11.sem, cc0_scratch12.sem,
    cc0_scratch13.sem, cc0_scratch14.sem, cc0_scratch15.sem, cc0_scoped0.sem}
def myCells (d : Dev nD) (L : grid0.Coords) : Finset (GSem nD τ sig) := mySems.image fun i => (thr d L, SemLoc.dma i)
def myRefs (L : grid0.Coords) : Finset (DevRef τ sig) :=
  ({cc0_scratch0, cc0_scratch1, cc0_scratch2, cc0_scratch3, cc0_scratch4, cc0_scratch5} : Finset (Ref sig .scVector)).image
    fun b => (Proc.scVector ((L 0).castLE hcore0) ((L 1).castLE hsub0)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k0_t1_loop.trips = 5 := by decide

theorem idxSet_eq (L : grid0.Coords) : idxSet L = (Rect.unit (s := S32x25x64) (k0_off1 L) S1x25x64.size (k0_off1_inb L)).set := by
  unfold idxSet
  simp only [Memref.view_squeeze, View.set_reshape, Memref.view_slice, View.set_slice, Memref.view_whole, View.emb_whole]
  exact Finset.map_refl

theorem chunkSet_eq (L : grid0.Coords) (t : Fin k0_t1_loop.trips) (r : Fin 5) :
    ((outChunk L t r).view.set : Finset S51200x128.Idx)
      = (Rect.unit (s := S51200x128) (k0_off5 L t (BitVec.ofNat 32 r.val)) S64x128.size (k0_off5_inb L t r)).set := by
  simp only [Memref.view_slice, View.set_slice, Memref.view_whole, View.emb_whole]
  exact Finset.map_refl

theorem mem_idxSet (L : grid0.Coords) (i : S32x25x64.Idx) : i ∈ idxSet L ↔ (i 0 : ℕ) = 2 * (L 1).val + (L 0).val := by
  rw [idxSet_eq, mem_unit]
  constructor
  · intro H; have := H 0; rw [k0_off1_eq] at this; simp at this; omega
  · intro H a
    rw [k0_off1_eq]
    fin_cases a
    · simp; omega
    · have := (i 1).isLt; simp [S32x25x64, S1x25x64] at this ⊢; omega
    · have := (i 2).isLt; simp [S32x25x64, S1x25x64] at this ⊢; omega

theorem mem_chunk (L : grid0.Coords) (t : Fin k0_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k0_off5_eq] at this; simpa using this
  · intro H a
    rw [k0_off5_eq]
    fin_cases a
    · simpa using H
    · have := (i 1).isLt; simp [S51200x128, S64x128] at this ⊢; omega

theorem idxSet_disjoint (L L' : grid0.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid0.bound 0 = 2 := rfl
  funext a
  fin_cases a
  · apply Fin.ext; show (L 0).val = (L' 0).val; omega
  · apply Fin.ext; show (L 1).val = (L' 1).val; omega

theorem idxSet_cover : (Finset.univ : Finset grid0.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid0.Coords) (p p' : Fin k0_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid0.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k0_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid0.Coords) (h : L ≠ L') : Disjoint (outSet L) (outSet L') := by
  rw [Finset.disjoint_left]
  intro i hi hi'
  rw [mem_outSet] at hi hi'
  apply h
  have h0 := (L 0).isLt; have h0' := (L' 0).isLt
  have b0 : grid0.bound 0 = 2 := rfl
  funext a
  fin_cases a
  · apply Fin.ext; show (L 0).val = (L' 0).val; omega
  · apply Fin.ext; show (L 1).val = (L' 1).val; omega

theorem outSet_cover : (Finset.univ : Finset grid0.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KB.Tile0
end
-- ==== Proof.BCall0.lean ====
/-
  SparseCore call 0's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.BTile0Sets
import proofs.«203556_g1357209665813_cont_week2b_798_48_alg».proof.Proof.BLaunchC

noncomputable section

namespace Cert.Proof.KB.Tile0

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid0.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid0.Coords => (L 0 : ℕ)) e
  have h1 := congrArg (fun L : grid0.Coords => (L 1 : ℕ)) e
  exact Prod.ext (Fin.ext h0) (Fin.ext h1)

theorem place_surj (L : grid0.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 0 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v3
/-- The three arrays of the call. -/
abbrev T3 : Finset (DevRef τ sig) := {tblD, idxD, outD 0}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 0))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 0) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 0) f), held_T3,
    Function.update_of_ne (show tblD ≠ outD 0 by decide), Function.update_of_ne (show idxD ≠ outD 0 by decide), Function.update_self, hT, hI]
  have hrest : (held (T d) (UC \ T3) (Function.update W (outD 0) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KB.Tile0

end
-- ==== Proof.BTile1Sets.lean ====
/-
  The row gather's task on one vector subcore, call 1: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.BCommon

noncomputable section

namespace Cert.Proof.KB.Tile1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid1.Coords) : Thread nD τ := V d ((L 0).castLE hcore1) ((L 1).castLE hsub1)
abbrev tblLoc (d : Dev nD) : Loc nD τ sig := (SparseCore.T d).loc main_arg2
abbrev idxLoc (d : Dev nD) : Loc nD τ sig := (SparseCore.T d).loc main_v6
abbrev outLoc (d : Dev nD) : Loc nD τ sig := (SparseCore.T d).loc main_v7

local notation "tblW" => (Memref.whole Cert.Kernel.main_arg2_scv : Memref Cert.Kernel.sig Kind.scVector Space.hbm Cert.Kernel.S100000x128 EltTy.f32)
local notation "idxW" => (Memref.whole Cert.Kernel.main_v6_scv : Memref Cert.Kernel.sig Kind.scVector Space.hbm Cert.Kernel.S32x25x64 EltTy.i32)
local notation "outW" => (Memref.whole Cert.Kernel.main_v7_scv : Memref Cert.Kernel.sig Kind.scVector Space.hbm Cert.Kernel.S51200x128 EltTy.f32)
local notation "ivW" => (Memref.whole Cert.Kernel.cc1_scratch0 : Memref Cert.Kernel.sig Kind.scVector Space.vmem Cert.Kernel.S25x64 EltTy.i32)
local notation "b0W" => (Memref.whole Cert.Kernel.cc1_scratch1 : Memref Cert.Kernel.sig Kind.scVector Space.vmem Cert.Kernel.S64x128 EltTy.f32)
local notation "b1W" => (Memref.whole Cert.Kernel.cc1_scratch2 : Memref Cert.Kernel.sig Kind.scVector Space.vmem Cert.Kernel.S64x128 EltTy.f32)
local notation "b2W" => (Memref.whole Cert.Kernel.cc1_scratch3 : Memref Cert.Kernel.sig Kind.scVector Space.vmem Cert.Kernel.S64x128 EltTy.f32)
local notation "b3W" => (Memref.whole Cert.Kernel.cc1_scratch4 : Memref Cert.Kernel.sig Kind.scVector Space.vmem Cert.Kernel.S64x128 EltTy.f32)
local notation "b4W" => (Memref.whole Cert.Kernel.cc1_scratch5 : Memref Cert.Kernel.sig Kind.scVector Space.vmem Cert.Kernel.S64x128 EltTy.f32)

/-- The block of the index array the task copies, as the program slices it. -/
abbrev idxRow (L : grid1.Coords) : Memref sig .scVector .hbm S25x64 .i32 :=
  ((idxW).slice (Rect.unit (s := S32x25x64) (k1_off1 L) S1x25x64.size (k1_off1_inb L)) (fun _ => rfl)).squeeze S25x64 squeezes_S1x25x64_S25x64

/-- Chunk r of trip t of the output, as the program slices it at the write. -/
abbrev outChunk (L : grid1.Coords) (t : Fin k1_t1_loop.trips) (r : Fin 5) : Memref sig .scVector .hbm S64x128 .f32 :=
  (outW).slice (Rect.unit (s := S51200x128) (k1_off5 L t (BitVec.ofNat 32 r.val)) S64x128.size (k1_off5_inb L t r)) (fun _ => rfl)

def idxSet (L : grid1.Coords) : Finset S32x25x64.Idx := (idxRow L).view.set
def outSet (L : grid1.Coords) : Finset S51200x128.Idx :=
  (Finset.univ : Finset (Fin k1_t1_loop.trips × Fin 5)).biUnion fun p => (outChunk L p.1 p.2).view.set

abbrev cellOf (d : Dev nD) (L : grid1.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc1_scratch6.sem, cc1_scratch7.sem, cc1_scratch8.sem, cc1_scratch9.sem, cc1_scratch10.sem, cc1_scratch11.sem, cc1_scratch12.sem,
    cc1_scratch13.sem, cc1_scratch14.sem, cc1_scratch15.sem, cc1_scoped0.sem}
def myCells (d : Dev nD) (L : grid1.Coords) : Finset (GSem nD τ sig) := mySems.image fun i => (thr d L, SemLoc.dma i)
def myRefs (L : grid1.Coords) : Finset (DevRef τ sig) :=
  ({cc1_scratch0, cc1_scratch1, cc1_scratch2, cc1_scratch3, cc1_scratch4, cc1_scratch5} : Finset (Ref sig .scVector)).image
    fun b => (Proc.scVector ((L 0).castLE hcore1) ((L 1).castLE hsub1)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k1_t1_loop.trips = 5 := by decide

theorem idxSet_eq (L : grid1.Coords) : idxSet L = (Rect.unit (s := S32x25x64) (k1_off1 L) S1x25x64.size (k1_off1_inb L)).set := by
  unfold idxSet
  simp only [Memref.view_squeeze, View.set_reshape, Memref.view_slice, View.set_slice, Memref.view_whole, View.emb_whole]
  exact Finset.map_refl

theorem chunkSet_eq (L : grid1.Coords) (t : Fin k1_t1_loop.trips) (r : Fin 5) :
    ((outChunk L t r).view.set : Finset S51200x128.Idx)
      = (Rect.unit (s := S51200x128) (k1_off5 L t (BitVec.ofNat 32 r.val)) S64x128.size (k1_off5_inb L t r)).set := by
  simp only [Memref.view_slice, View.set_slice, Memref.view_whole, View.emb_whole]
  exact Finset.map_refl

theorem mem_idxSet (L : grid1.Coords) (i : S32x25x64.Idx) : i ∈ idxSet L ↔ (i 0 : ℕ) = 2 * (L 1).val + (L 0).val := by
  rw [idxSet_eq, mem_unit]
  constructor
  · intro H; have := H 0; rw [k1_off1_eq] at this; simp at this; omega
  · intro H a
    rw [k1_off1_eq]
    fin_cases a
    · simp; omega
    · have := (i 1).isLt; simp [S32x25x64, S1x25x64] at this ⊢; omega
    · have := (i 2).isLt; simp [S32x25x64, S1x25x64] at this ⊢; omega

theorem mem_chunk (L : grid1.Coords) (t : Fin k1_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k1_off5_eq] at this; simpa using this
  · intro H a
    rw [k1_off5_eq]
    fin_cases a
    · simpa using H
    · have := (i 1).isLt; simp [S51200x128, S64x128] at this ⊢; omega

theorem idxSet_disjoint (L L' : grid1.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid1.bound 0 = 2 := rfl
  funext a
  fin_cases a
  · apply Fin.ext; show (L 0).val = (L' 0).val; omega
  · apply Fin.ext; show (L 1).val = (L' 1).val; omega

theorem idxSet_cover : (Finset.univ : Finset grid1.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid1.Coords) (p p' : Fin k1_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid1.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k1_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid1.Coords) (h : L ≠ L') : Disjoint (outSet L) (outSet L') := by
  rw [Finset.disjoint_left]
  intro i hi hi'
  rw [mem_outSet] at hi hi'
  apply h
  have h0 := (L 0).isLt; have h0' := (L' 0).isLt
  have b0 : grid1.bound 0 = 2 := rfl
  funext a
  fin_cases a
  · apply Fin.ext; show (L 0).val = (L' 0).val; omega
  · apply Fin.ext; show (L 1).val = (L' 1).val; omega

theorem outSet_cover : (Finset.univ : Finset grid1.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KB.Tile1
end
-- ==== Proof.BCall1.lean ====
/-
  SparseCore call 1's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.BTile1Sets
import proofs.«203556_g1357209665813_cont_week2b_798_48_alg».proof.Proof.BLaunchC

noncomputable section

namespace Cert.Proof.KB.Tile1

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid1.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid1.Coords => (L 0 : ℕ)) e
  have h1 := congrArg (fun L : grid1.Coords => (L 1 : ℕ)) e
  exact Prod.ext (Fin.ext h0) (Fin.ext h1)

theorem place_surj (L : grid1.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 1 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v6
/-- The three arrays of the call. -/
abbrev T3 : Finset (DevRef τ sig) := {tblD, idxD, outD 1}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 1))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 1) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 1) f), held_T3,
    Function.update_of_ne (show tblD ≠ outD 1 by decide), Function.update_of_ne (show idxD ≠ outD 1 by decide), Function.update_self, hT, hI]
  have hrest : (held (T d) (UC \ T3) (Function.update W (outD 1) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KB.Tile1

end
-- ==== Proof.BTile2Sets.lean ====
/-
  The row gather's task on one vector subcore, call 2: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.BCommon

noncomputable section

namespace Cert.Proof.KB.Tile2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid2.Coords) : Thread nD τ := V d ((L 0).castLE hcore2) ((L 1).castLE hsub2)
abbrev tblLoc (d : Dev nD) : Loc nD τ sig := (SparseCore.T d).loc main_arg2
abbrev idxLoc (d : Dev nD) : Loc nD τ sig := (SparseCore.T d).loc main_v9
abbrev outLoc (d : Dev nD) : Loc nD τ sig := (SparseCore.T d).loc main_v10

local notation "tblW" => (Memref.whole Cert.Kernel.main_arg2_scv : Memref Cert.Kernel.sig Kind.scVector Space.hbm Cert.Kernel.S100000x128 EltTy.f32)
local notation "idxW" => (Memref.whole Cert.Kernel.main_v9_scv : Memref Cert.Kernel.sig Kind.scVector Space.hbm Cert.Kernel.S32x25x64 EltTy.i32)
local notation "outW" => (Memref.whole Cert.Kernel.main_v10_scv : Memref Cert.Kernel.sig Kind.scVector Space.hbm Cert.Kernel.S51200x128 EltTy.f32)
local notation "ivW" => (Memref.whole Cert.Kernel.cc2_scratch0 : Memref Cert.Kernel.sig Kind.scVector Space.vmem Cert.Kernel.S25x64 EltTy.i32)
local notation "b0W" => (Memref.whole Cert.Kernel.cc2_scratch1 : Memref Cert.Kernel.sig Kind.scVector Space.vmem Cert.Kernel.S64x128 EltTy.f32)
local notation "b1W" => (Memref.whole Cert.Kernel.cc2_scratch2 : Memref Cert.Kernel.sig Kind.scVector Space.vmem Cert.Kernel.S64x128 EltTy.f32)
local notation "b2W" => (Memref.whole Cert.Kernel.cc2_scratch3 : Memref Cert.Kernel.sig Kind.scVector Space.vmem Cert.Kernel.S64x128 EltTy.f32)
local notation "b3W" => (Memref.whole Cert.Kernel.cc2_scratch4 : Memref Cert.Kernel.sig Kind.scVector Space.vmem Cert.Kernel.S64x128 EltTy.f32)
local notation "b4W" => (Memref.whole Cert.Kernel.cc2_scratch5 : Memref Cert.Kernel.sig Kind.scVector Space.vmem Cert.Kernel.S64x128 EltTy.f32)

/-- The block of the index array the task copies, as the program slices it. -/
abbrev idxRow (L : grid2.Coords) : Memref sig .scVector .hbm S25x64 .i32 :=
  ((idxW).slice (Rect.unit (s := S32x25x64) (k2_off1 L) S1x25x64.size (k2_off1_inb L)) (fun _ => rfl)).squeeze S25x64 squeezes_S1x25x64_S25x64

/-- Chunk r of trip t of the output, as the program slices it at the write. -/
abbrev outChunk (L : grid2.Coords) (t : Fin k2_t1_loop.trips) (r : Fin 5) : Memref sig .scVector .hbm S64x128 .f32 :=
  (outW).slice (Rect.unit (s := S51200x128) (k2_off5 L t (BitVec.ofNat 32 r.val)) S64x128.size (k2_off5_inb L t r)) (fun _ => rfl)

def idxSet (L : grid2.Coords) : Finset S32x25x64.Idx := (idxRow L).view.set
def outSet (L : grid2.Coords) : Finset S51200x128.Idx :=
  (Finset.univ : Finset (Fin k2_t1_loop.trips × Fin 5)).biUnion fun p => (outChunk L p.1 p.2).view.set

abbrev cellOf (d : Dev nD) (L : grid2.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc2_scratch6.sem, cc2_scratch7.sem, cc2_scratch8.sem, cc2_scratch9.sem, cc2_scratch10.sem, cc2_scratch11.sem, cc2_scratch12.sem,
    cc2_scratch13.sem, cc2_scratch14.sem, cc2_scratch15.sem, cc2_scoped0.sem}
def myCells (d : Dev nD) (L : grid2.Coords) : Finset (GSem nD τ sig) := mySems.image fun i => (thr d L, SemLoc.dma i)
def myRefs (L : grid2.Coords) : Finset (DevRef τ sig) :=
  ({cc2_scratch0, cc2_scratch1, cc2_scratch2, cc2_scratch3, cc2_scratch4, cc2_scratch5} : Finset (Ref sig .scVector)).image
    fun b => (Proc.scVector ((L 0).castLE hcore2) ((L 1).castLE hsub2)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k2_t1_loop.trips = 5 := by decide

theorem idxSet_eq (L : grid2.Coords) : idxSet L = (Rect.unit (s := S32x25x64) (k2_off1 L) S1x25x64.size (k2_off1_inb L)).set := by
  unfold idxSet
  simp only [Memref.view_squeeze, View.set_reshape, Memref.view_slice, View.set_slice, Memref.view_whole, View.emb_whole]
  exact Finset.map_refl

theorem chunkSet_eq (L : grid2.Coords) (t : Fin k2_t1_loop.trips) (r : Fin 5) :
    ((outChunk L t r).view.set : Finset S51200x128.Idx)
      = (Rect.unit (s := S51200x128) (k2_off5 L t (BitVec.ofNat 32 r.val)) S64x128.size (k2_off5_inb L t r)).set := by
  simp only [Memref.view_slice, View.set_slice, Memref.view_whole, View.emb_whole]
  exact Finset.map_refl

theorem mem_idxSet (L : grid2.Coords) (i : S32x25x64.Idx) : i ∈ idxSet L ↔ (i 0 : ℕ) = 2 * (L 1).val + (L 0).val := by
  rw [idxSet_eq, mem_unit]
  constructor
  · intro H; have := H 0; rw [k2_off1_eq] at this; simp at this; omega
  · intro H a
    rw [k2_off1_eq]
    fin_cases a
    · simp; omega
    · have := (i 1).isLt; simp [S32x25x64, S1x25x64] at this ⊢; omega
    · have := (i 2).isLt; simp [S32x25x64, S1x25x64] at this ⊢; omega

theorem mem_chunk (L : grid2.Coords) (t : Fin k2_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k2_off5_eq] at this; simpa using this
  · intro H a
    rw [k2_off5_eq]
    fin_cases a
    · simpa using H
    · have := (i 1).isLt; simp [S51200x128, S64x128] at this ⊢; omega

theorem idxSet_disjoint (L L' : grid2.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid2.bound 0 = 2 := rfl
  funext a
  fin_cases a
  · apply Fin.ext; show (L 0).val = (L' 0).val; omega
  · apply Fin.ext; show (L 1).val = (L' 1).val; omega

theorem idxSet_cover : (Finset.univ : Finset grid2.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid2.Coords) (p p' : Fin k2_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid2.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k2_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid2.Coords) (h : L ≠ L') : Disjoint (outSet L) (outSet L') := by
  rw [Finset.disjoint_left]
  intro i hi hi'
  rw [mem_outSet] at hi hi'
  apply h
  have h0 := (L 0).isLt; have h0' := (L' 0).isLt
  have b0 : grid2.bound 0 = 2 := rfl
  funext a
  fin_cases a
  · apply Fin.ext; show (L 0).val = (L' 0).val; omega
  · apply Fin.ext; show (L 1).val = (L' 1).val; omega

theorem outSet_cover : (Finset.univ : Finset grid2.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KB.Tile2
end
-- ==== Proof.BCall2.lean ====
/-
  SparseCore call 2's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.BTile2Sets
import proofs.«203556_g1357209665813_cont_week2b_798_48_alg».proof.Proof.BLaunchC

noncomputable section

namespace Cert.Proof.KB.Tile2

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid2.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid2.Coords => (L 0 : ℕ)) e
  have h1 := congrArg (fun L : grid2.Coords => (L 1 : ℕ)) e
  exact Prod.ext (Fin.ext h0) (Fin.ext h1)

theorem place_surj (L : grid2.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 2 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v9
/-- The three arrays of the call. -/
abbrev T3 : Finset (DevRef τ sig) := {tblD, idxD, outD 2}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 2))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 2) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 2) f), held_T3,
    Function.update_of_ne (show tblD ≠ outD 2 by decide), Function.update_of_ne (show idxD ≠ outD 2 by decide), Function.update_self, hT, hI]
  have hrest : (held (T d) (UC \ T3) (Function.update W (outD 2) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KB.Tile2

end
-- ==== Proof.BTile3Sets.lean ====
/-
  The row gather's task on one vector subcore, call 3: the thread, the three arrays as the TensorCore names them, the block of
  the index array a task copies and the rows of the output it writes (as the program slices them), and the arithmetic of those
  sets over the 2 × 16 tasks: pairwise disjoint, together everything.
-/
import proofs.«203556_g1357209665813_cont_week2b_798_48_alg».proof.Proof.BCommon

noncomputable section

namespace Cert.Proof.KB.Tile3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev thr (d : Dev nD) (L : grid3.Coords) : Thread nD τ := V d ((L 0).castLE hcore3) ((L 1).castLE hsub3)
abbrev tblLoc (d : Dev nD) : Loc nD τ sig := (SparseCore.T d).loc main_arg2
abbrev idxLoc (d : Dev nD) : Loc nD τ sig := (SparseCore.T d).loc main_v12
abbrev outLoc (d : Dev nD) : Loc nD τ sig := (SparseCore.T d).loc main_v13

local notation "tblW" => (Memref.whole Cert.Kernel.main_arg2_scv : Memref Cert.Kernel.sig Kind.scVector Space.hbm Cert.Kernel.S100000x128 EltTy.f32)
local notation "idxW" => (Memref.whole Cert.Kernel.main_v12_scv : Memref Cert.Kernel.sig Kind.scVector Space.hbm Cert.Kernel.S32x25x64 EltTy.i32)
local notation "outW" => (Memref.whole Cert.Kernel.main_v13_scv : Memref Cert.Kernel.sig Kind.scVector Space.hbm Cert.Kernel.S51200x128 EltTy.f32)
local notation "ivW" => (Memref.whole Cert.Kernel.cc3_scratch0 : Memref Cert.Kernel.sig Kind.scVector Space.vmem Cert.Kernel.S25x64 EltTy.i32)
local notation "b0W" => (Memref.whole Cert.Kernel.cc3_scratch1 : Memref Cert.Kernel.sig Kind.scVector Space.vmem Cert.Kernel.S64x128 EltTy.f32)
local notation "b1W" => (Memref.whole Cert.Kernel.cc3_scratch2 : Memref Cert.Kernel.sig Kind.scVector Space.vmem Cert.Kernel.S64x128 EltTy.f32)
local notation "b2W" => (Memref.whole Cert.Kernel.cc3_scratch3 : Memref Cert.Kernel.sig Kind.scVector Space.vmem Cert.Kernel.S64x128 EltTy.f32)
local notation "b3W" => (Memref.whole Cert.Kernel.cc3_scratch4 : Memref Cert.Kernel.sig Kind.scVector Space.vmem Cert.Kernel.S64x128 EltTy.f32)
local notation "b4W" => (Memref.whole Cert.Kernel.cc3_scratch5 : Memref Cert.Kernel.sig Kind.scVector Space.vmem Cert.Kernel.S64x128 EltTy.f32)

/-- The block of the index array the task copies, as the program slices it. -/
abbrev idxRow (L : grid3.Coords) : Memref sig .scVector .hbm S25x64 .i32 :=
  ((idxW).slice (Rect.unit (s := S32x25x64) (k3_off1 L) S1x25x64.size (k3_off1_inb L)) (fun _ => rfl)).squeeze S25x64 squeezes_S1x25x64_S25x64

/-- Chunk r of trip t of the output, as the program slices it at the write. -/
abbrev outChunk (L : grid3.Coords) (t : Fin k3_t1_loop.trips) (r : Fin 5) : Memref sig .scVector .hbm S64x128 .f32 :=
  (outW).slice (Rect.unit (s := S51200x128) (k3_off5 L t (BitVec.ofNat 32 r.val)) S64x128.size (k3_off5_inb L t r)) (fun _ => rfl)

def idxSet (L : grid3.Coords) : Finset S32x25x64.Idx := (idxRow L).view.set
def outSet (L : grid3.Coords) : Finset S51200x128.Idx :=
  (Finset.univ : Finset (Fin k3_t1_loop.trips × Fin 5)).biUnion fun p => (outChunk L p.1 p.2).view.set

abbrev cellOf (d : Dev nD) (L : grid3.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

def mySems : Finset (DmaSem sig) :=
  {cc3_scratch6.sem, cc3_scratch7.sem, cc3_scratch8.sem, cc3_scratch9.sem, cc3_scratch10.sem, cc3_scratch11.sem, cc3_scratch12.sem,
    cc3_scratch13.sem, cc3_scratch14.sem, cc3_scratch15.sem, cc3_scoped0.sem}
def myCells (d : Dev nD) (L : grid3.Coords) : Finset (GSem nD τ sig) := mySems.image fun i => (thr d L, SemLoc.dma i)
def myRefs (L : grid3.Coords) : Finset (DevRef τ sig) :=
  ({cc3_scratch0, cc3_scratch1, cc3_scratch2, cc3_scratch3, cc3_scratch4, cc3_scratch5} : Finset (Ref sig .scVector)).image
    fun b => (Proc.scVector ((L 0).castLE hcore3) ((L 1).castLE hsub3)).devRef b

/-! ## The sets as rectangles of rows -/

theorem mem_unit {s : Shape} (off size : Fin s.rank → ℕ) (h : ∀ a, off a + size a ≤ s.size a) (i : s.Idx) :
    i ∈ (Rect.unit (s := s) off size h).set ↔ ∀ a, off a ≤ (i a : ℕ) ∧ (i a : ℕ) < off a + size a := Rect.mem_set_unit

theorem trips_eq : k3_t1_loop.trips = 5 := by decide

theorem idxSet_eq (L : grid3.Coords) : idxSet L = (Rect.unit (s := S32x25x64) (k3_off1 L) S1x25x64.size (k3_off1_inb L)).set := by
  unfold idxSet
  simp only [Memref.view_squeeze, View.set_reshape, Memref.view_slice, View.set_slice, Memref.view_whole, View.emb_whole]
  exact Finset.map_refl

theorem chunkSet_eq (L : grid3.Coords) (t : Fin k3_t1_loop.trips) (r : Fin 5) :
    ((outChunk L t r).view.set : Finset S51200x128.Idx)
      = (Rect.unit (s := S51200x128) (k3_off5 L t (BitVec.ofNat 32 r.val)) S64x128.size (k3_off5_inb L t r)).set := by
  simp only [Memref.view_slice, View.set_slice, Memref.view_whole, View.emb_whole]
  exact Finset.map_refl

theorem mem_idxSet (L : grid3.Coords) (i : S32x25x64.Idx) : i ∈ idxSet L ↔ (i 0 : ℕ) = 2 * (L 1).val + (L 0).val := by
  rw [idxSet_eq, mem_unit]
  constructor
  · intro H; have := H 0; rw [k3_off1_eq] at this; simp at this; omega
  · intro H a
    rw [k3_off1_eq]
    fin_cases a
    · simp; omega
    · have := (i 1).isLt; simp [S32x25x64, S1x25x64] at this ⊢; omega
    · have := (i 2).isLt; simp [S32x25x64, S1x25x64] at this ⊢; omega

theorem mem_chunk (L : grid3.Coords) (t : Fin k3_t1_loop.trips) (r : Fin 5) (i : S51200x128.Idx) :
    i ∈ ((outChunk L t r).view.set : Finset S51200x128.Idx)
      ↔ 3200 * (L 1).val + 1600 * (L 0).val + 320 * t.val + 64 * r.val ≤ (i 0 : ℕ)
        ∧ (i 0 : ℕ) < 3200 * (L 1).val + 1600 * (L 0).val + 320 * t.val + 64 * r.val + 64 := by
  rw [chunkSet_eq, mem_unit]
  constructor
  · intro H; have := H 0; rw [k3_off5_eq] at this; simpa using this
  · intro H a
    rw [k3_off5_eq]
    fin_cases a
    · simpa using H
    · have := (i 1).isLt; simp [S51200x128, S64x128] at this ⊢; omega

theorem idxSet_disjoint (L L' : grid3.Coords) (h : L ≠ L') : Disjoint (idxSet L) (idxSet L') := by
  rw [Finset.disjoint_left]
  intro i hi hi'
  rw [mem_idxSet] at hi hi'
  apply h
  have h0 := (L 0).isLt; have h0' := (L' 0).isLt
  have b0 : grid3.bound 0 = 2 := rfl
  funext a
  fin_cases a
  · apply Fin.ext; show (L 0).val = (L' 0).val; omega
  · apply Fin.ext; show (L 1).val = (L' 1).val; omega

theorem idxSet_cover : (Finset.univ : Finset grid3.Coords).biUnion idxSet = Finset.univ := by
  apply Finset.eq_univ_of_forall
  intro i
  have hi := (i 0).isLt
  have hi' : (i 0 : ℕ) < 32 := hi
  rw [Finset.mem_biUnion]
  refine ⟨fun | 0 => ⟨(i 0 : ℕ) % 2, Nat.mod_lt _ (by decide)⟩ | 1 => ⟨(i 0 : ℕ) / 2, by show _ < 16; omega⟩ | ⟨_ + 2, h⟩ => absurd h (Nat.not_lt.2 (Nat.le_add_left _ _)), Finset.mem_univ _, ?_⟩
  rw [mem_idxSet]
  show (i 0 : ℕ) = 2 * ((i 0 : ℕ) / 2) + (i 0 : ℕ) % 2
  omega

theorem chunk_disjoint (L : grid3.Coords) (p p' : Fin k3_t1_loop.trips × Fin 5) (h : p ≠ p') :
    Disjoint ((outChunk L p.1 p.2).view.set : Finset S51200x128.Idx) (outChunk L p'.1 p'.2).view.set := by
  rw [Finset.disjoint_left]
  intro i hi hi'
  rw [mem_chunk] at hi hi'
  apply h
  have h2 := p.2.isLt; have h2' := p'.2.isLt
  refine Prod.ext (Fin.ext ?_) (Fin.ext ?_) <;> omega

theorem mem_outSet (L : grid3.Coords) (i : S51200x128.Idx) :
    i ∈ outSet L ↔ 3200 * (L 1).val + 1600 * (L 0).val ≤ (i 0 : ℕ) ∧ (i 0 : ℕ) < 3200 * (L 1).val + 1600 * (L 0).val + 1600 := by
  unfold outSet
  rw [Finset.mem_biUnion]
  constructor
  · rintro ⟨p, -, hp⟩
    rw [mem_chunk] at hp
    have h1 : (p.1 : ℕ) < 5 := lt_of_lt_of_eq p.1.isLt trips_eq
    have h2 := p.2.isLt
    omega
  · intro H
    have ht : ((i 0 : ℕ) - (3200 * (L 1).val + 1600 * (L 0).val)) / 320 < k3_t1_loop.trips := by rw [trips_eq]; omega
    refine ⟨(⟨((i 0 : ℕ) - (3200 * (L 1).val + 1600 * (L 0).val)) / 320, ht⟩,
      ⟨(((i 0 : ℕ) - (3200 * (L 1).val + 1600 * (L 0).val)) % 320) / 64, by omega⟩), Finset.mem_univ _, ?_⟩
    rw [mem_chunk]
    show _ ≤ _ ∧ _ < _
    simp only
    omega

theorem outSet_disjoint (L L' : grid3.Coords) (h : L ≠ L') : Disjoint (outSet L) (outSet L') := by
  rw [Finset.disjoint_left]
  intro i hi hi'
  rw [mem_outSet] at hi hi'
  apply h
  have h0 := (L 0).isLt; have h0' := (L' 0).isLt
  have b0 : grid3.bound 0 = 2 := rfl
  funext a
  fin_cases a
  · apply Fin.ext; show (L 0).val = (L' 0).val; omega
  · apply Fin.ext; show (L 1).val = (L' 1).val; omega

theorem outSet_cover : (Finset.univ : Finset grid3.Coords).biUnion outSet = Finset.univ := by
  apply Finset.eq_univ_of_forall
  intro i
  have hi : (i 0 : ℕ) < 51200 := (i 0).isLt
  rw [Finset.mem_biUnion]
  refine ⟨fun | 0 => ⟨((i 0 : ℕ) / 1600) % 2, Nat.mod_lt _ (by decide)⟩ | 1 => ⟨((i 0 : ℕ) / 1600) / 2, by show _ < 16; omega⟩ | ⟨_ + 2, h⟩ => absurd h (Nat.not_lt.2 (Nat.le_add_left _ _)), Finset.mem_univ _, ?_⟩
  rw [mem_outSet]
  show 3200 * (((i 0 : ℕ) / 1600) / 2) + 1600 * (((i 0 : ℕ) / 1600) % 2) ≤ _ ∧ _ < 3200 * (((i 0 : ℕ) / 1600) / 2) + 1600 * (((i 0 : ℕ) / 1600) % 2) + 1600
  omega

end Cert.Proof.KB.Tile3
end
-- ==== Proof.BCall3.lean ====
/-
  SparseCore call 3's operands among its thirty-two tasks: every task holds the table read-only under a read token of
  its own, the 25×64 block of the ids that its worker number selects, and the 1600 rows of the output it writes; the
  three arrays come out of the TensorCore's buffers whole and go back whole, the output at whatever the tasks left.
-/
import proofs.«203556_g1357209665813_cont_week2b_798_48_alg».proof.Proof.BTile3Sets
import proofs.«203556_g1357209665813_cont_week2b_798_48_alg».proof.Proof.BLaunchC

noncomputable section

namespace Cert.Proof.KB.Tile3

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

/-- The place of the task on SparseCore `c`, vector subcore `s`. -/
def place (cs : Fin 2 × Fin 16) : grid3.Coords :=
  fun | 0 => cs.1 | 1 => cs.2 | ⟨_ + 2, h⟩ => absurd h (Nat.not_lt.2 (Nat.le_add_left _ _))

theorem place_zero (cs : Fin 2 × Fin 16) : (place cs 0 : ℕ) = cs.1.val := rfl
theorem place_one (cs : Fin 2 × Fin 16) : (place cs 1 : ℕ) = cs.2.val := rfl

theorem place_inj : Function.Injective place := by
  intro a b e
  have h0 := congrArg (fun L : grid3.Coords => (L 0 : ℕ)) e
  have h1 := congrArg (fun L : grid3.Coords => (L 1 : ℕ)) e
  exact Prod.ext (Fin.ext h0) (Fin.ext h1)

theorem place_surj (L : grid3.Coords) : ∃ cs, place cs = L := by
  refine ⟨(⟨(L 0).val, (L 0).isLt⟩, ⟨(L 1).val, (L 1).isLt⟩), ?_⟩
  funext a
  match a with
  | ⟨0, _⟩ => rfl
  | ⟨1, _⟩ => rfl

/-- The task's worker number, its read token's index. -/
def tokIx (cs : Fin 2 × Fin 16) : Fin 32 := ⟨2 * cs.2.val + cs.1.val, by have := cs.1.isLt; have := cs.2.isLt; omega⟩

theorem tokIx_inj : Function.Injective tokIx := by
  intro a b e
  have h := congrArg Fin.val e
  simp only [tokIx] at h
  have := a.1.isLt; have := b.1.isLt
  exact Prod.ext (Fin.ext (by omega)) (Fin.ext (by omega))

theorem tokIx_univ : (Finset.univ : Finset (Fin 32)) = Finset.univ.image tokIx := by
  refine (Finset.eq_univ_of_card _ ?_).symm
  rw [Finset.card_image_of_injective _ tokIx_inj]; rfl

variable (m : (ℓ : Loc nD τ sig) → Buf (Elt F) ℓ)

/-- What a task of call 3 holds: the table under its read token, its block of the ids, its rows of the output. -/
def GO (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ ∃ f, outLoc d ↦[outSet (place cs)]{fullShare} f)

theorem idx_disj : ∀ a ∈ (Finset.univ : Finset (Fin 2 × Fin 16)), ∀ b ∈ (Finset.univ : Finset (Fin 2 × Fin 16)), a ≠ b →
    Disjoint (idxSet (place a)) (idxSet (place b)) :=
  fun a _ b _ h => idxSet_disjoint _ _ fun e => h (place_inj e)
theorem out_disj : ∀ a ∈ (Finset.univ : Finset (Fin 2 × Fin 16)), ∀ b ∈ (Finset.univ : Finset (Fin 2 × Fin 16)), a ≠ b →
    Disjoint (outSet (place a)) (outSet (place b)) :=
  fun a _ b _ h => outSet_disjoint _ _ fun e => h (place_inj e)
theorem idx_cover : (Finset.univ : Finset (Fin 2 × Fin 16)).biUnion (fun cs => idxSet (place cs)) = Finset.univ := by
  rw [← idxSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩
theorem out_cover : (Finset.univ : Finset (Fin 2 × Fin 16)).biUnion (fun cs => outSet (place cs)) = Finset.univ := by
  rw [← outSet_cover]
  ext i; simp only [Finset.mem_biUnion, Finset.mem_univ, true_and]
  exact ⟨fun ⟨cs, h⟩ => ⟨place cs, h⟩, fun ⟨L, h⟩ => by obtain ⟨cs, rfl⟩ := place_surj L; exact ⟨cs, h⟩⟩

/-- The table whole is its thirty-two read tokens and a remainder. -/
theorem tbl_toks32 (d : Dev nD) (Tb : Buf (Elt F) (tblLoc d)) :
    (tblLoc d ↦{fullShare} Tb : sProp 𝕄) ⊣⊢ iprop((tblLoc d ↦{Transfers.shareDrop fullShare 32} Tb)
      ∗ bigSep Finset.univ fun cs : Fin 2 × Fin 16 => tblLoc d ↦{Transfers.shareTok fullShare 32 (tokIx cs)} Tb) := by
  have h : (tblLoc d ↦{fullShare} Tb : sProp 𝕄) ⊣⊢ iprop((tblLoc d ↦{Transfers.shareDrop fullShare 32} Tb)
      ∗ BI.bigSep Finset.univ (fun i : Fin 32 => tblLoc d ↦{Transfers.shareTok fullShare 32 i} Tb)) :=
    Transfers.pointsTo_toks fullShare 32
  rw [tokIx_univ, SparseCore.bigSep_image_of_injOn (tokIx_inj.injOn)] at h
  exact h

/-- The ids whole are the tasks' blocks; -/
theorem idx_blocks (d : Dev nD) (I : Buf (Elt F) (idxLoc d)) :
    (idxLoc d ↦{fullShare} I : sProp 𝕄) = bigSep Finset.univ fun cs : Fin 2 × Fin 16 => idxLoc d ↦[idxSet (place cs)]{fullShare} I := by
  rw [← pointsTo_biUnion Finset.univ (ℓ := idxLoc d) (fun cs => idxSet (place cs)) idx_disj, idx_cover]; try rfl
/-- the output whole the tasks' rows. -/
theorem out_rows (d : Dev nD) (f : Buf (Elt F) (outLoc d)) :
    (outLoc d ↦{fullShare} f : sProp 𝕄) = bigSep Finset.univ fun cs : Fin 2 × Fin 16 => outLoc d ↦[outSet (place cs)]{fullShare} f := by
  rw [← pointsTo_biUnion Finset.univ (ℓ := outLoc d) (fun cs => outSet (place cs)) out_disj, out_cover]; try rfl

/-- The tasks' rows of the output, each at contents of its own, are the output whole at some contents. -/
theorem rows_join (d : Dev nD) [∀ e, Nonempty (Elt F e)] :
    (bigSep Finset.univ fun cs : Fin 2 × Fin 16 => iprop(∃ f, outLoc d ↦[outSet (place cs)]{fullShare} f)) ⊢ (iprop(∃ f, outLoc d ↦{fullShare} f) : sProp 𝕄) := by
  refine (bigSep_exists_pi Finset.univ (fun cs (f : Buf (Elt F) (outLoc d)) => outLoc d ↦[outSet (place cs)]{fullShare} f)).trans ?_
  iintro ⟨%fs, H⟩
  ihave H' := (pointsTo_biUnion_join Finset.univ (fun cs => outSet (place cs)) fs (fs (0, 0)) out_disj) $$ H
  icases H' with ⟨%g, -, Hg⟩
  rw [out_cover]
  iexists g; iexact Hg

/-- The three arrays whole are the thirty-two tasks' holdings and the table's remainder; and back, the output at some
    contents. -/
theorem arrays_split (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => GO m Id d cs)
            -∗ iprop((tblLoc d ↦{fullShare} m (tblLoc d)) ∗ (idxLoc d ↦{fullShare} Id d) ∗ ∃ f, outLoc d ↦{fullShare} f))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO
  simp only [bigSep_sep']
  rw [idx_blocks, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iapply (rows_join (F := F) d); iexact Ho

/-! ## Out of the TensorCore's buffers and back -/

abbrev tblD : DevRef τ sig := Proc.devRef .tc main_arg2
abbrev idxD : DevRef τ sig := Proc.devRef .tc main_v12
/-- The three arrays of the call. -/
abbrev T3 : Finset (DevRef τ sig) := {tblD, idxD, outD 3}
theorem T3_sub : T3 ⊆ UC := by decide

theorem held_T3 (d : Dev nD) (W : Valuation τ sig (Elt F)) :
    (held (T d) T3 W : sProp 𝕄) = iprop((tblLoc d ↦{fullShare} W tblD) ∗ (idxLoc d ↦{fullShare} W idxD) ∗ (outLoc d ↦{fullShare} W (outD 3))) := by
  unfold StableHlo.held T3
  rw [SparseCore.bigSep_insert' (by decide), SparseCore.bigSep_insert' (by decide), bigSep_singleton]

/-- The call's operands out of the TensorCore's buffers, and its results back: the output at what the tasks left. -/
theorem split [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => GO m Id d cs) -∗ ∃ f, ⌜True⌝ ∗ held (T d) UC (Function.update W (outD 3) f))) := by
  rw [StableHlo.held_sub_split (T d) T3_sub W, held_T3, hT, hI]
  iintro ⟨H3, Hrest⟩
  ihave H := (arrays_split m Id d _) $$ H3
  icases H with ⟨Hgo, Hback⟩
  imodintro
  isplitl [Hgo]; · iexact Hgo
  iintro Htd
  ihave H3' := Hback $$ Htd
  icases H3' with ⟨Ht, Hi, %f, Ho⟩
  iexists f; isplitr; · ipureintro; trivial
  rw [StableHlo.held_sub_split (T d) T3_sub (Function.update W (outD 3) f), held_T3,
    Function.update_of_ne (show tblD ≠ outD 3 by decide), Function.update_of_ne (show idxD ≠ outD 3 by decide), Function.update_self, hT, hI]
  have hrest : (held (T d) (UC \ T3) (Function.update W (outD 3) f) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KB.Tile3

end
-- ==== Proof.BCalls.lean ====
/-
  The four SparseCore calls together: what each task of each call holds, and the calls' operands out of the
  TensorCore's buffers and back, as the launch's proof of @main consumes them.
-/
import proofs.«203556_g1357209665813_cont_week2b_798_48_alg».proof.Proof.BLaunchD
import proofs.«203556_g1357209665813_cont_week2b_798_48_alg».proof.Proof.BCall0
import proofs.«203556_g1357209665813_cont_week2b_798_48_alg».proof.Proof.BCall1
import proofs.«203556_g1357209665813_cont_week2b_798_48_alg».proof.Proof.BCall2
import proofs.«203556_g1357209665813_cont_week2b_798_48_alg».proof.Proof.BCall3

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The ids each call gathers by, per device. -/
structure IdsOf (F : FTy → Type) where
  i0 : (d : Dev nD) → Buf (Elt F) (Tile0.idxLoc d)
  i1 : (d : Dev nD) → Buf (Elt F) (Tile1.idxLoc d)
  i2 : (d : Dev nD) → Buf (Elt F) (Tile2.idxLoc d)
  i3 : (d : Dev nD) → Buf (Elt F) (Tile3.idxLoc d)

variable (J : IdsOf F)

/-- What the tasks hold, call by call. -/
def TPv : TilePay F where
  go := fun q => match q with
    | 0 => fun d c i => Tile0.GO m J.i0 d (c, i)
    | 1 => fun d c i => Tile1.GO m J.i1 d (c, i)
    | 2 => fun d c i => Tile2.GO m J.i2 d (c, i)
    | 3 => fun d c i => Tile3.GO m J.i3 d (c, i)
  td := fun q => match q with
    | 0 => fun d c i => Tile0.GO m J.i0 d (c, i)
    | 1 => fun d c i => Tile1.GO m J.i1 d (c, i)
    | 2 => fun d c i => Tile2.GO m J.i2 d (c, i)
    | 3 => fun d c i => Tile3.GO m J.i3 d (c, i)
  go_st := fun q => match q with
    | 0 => fun d c i => by unfold Tile0.GO; infer_instance
    | 1 => fun d c i => by unfold Tile1.GO; infer_instance
    | 2 => fun d c i => by unfold Tile2.GO; infer_instance
    | 3 => fun d c i => by unfold Tile3.GO; infer_instance
  td_st := fun q => match q with
    | 0 => fun d c i => by unfold Tile0.GO; infer_instance
    | 1 => fun d c i => by unfold Tile1.GO; infer_instance
    | 2 => fun d c i => by unfold Tile2.GO; infer_instance
    | 3 => fun d c i => by unfold Tile3.GO; infer_instance

/-- The calls' operands and results. `IdxOK q d W`: the buffers `W` hold the table as launched and the call's ids. -/
def CIv [∀ e, Nonempty (Elt F e)] : CallIface (F := F) (TPv m J) where
  IdxOK := fun q d W => match q with
    | 0 => W Tile0.tblD = m (Tile0.tblLoc d) ∧ W Tile0.idxD = J.i0 d
    | 1 => W Tile1.tblD = m (Tile1.tblLoc d) ∧ W Tile1.idxD = J.i1 d
    | 2 => W Tile2.tblD = m (Tile2.tblLoc d) ∧ W Tile2.idxD = J.i2 d
    | 3 => W Tile3.tblD = m (Tile3.tblLoc d) ∧ W Tile3.idxD = J.i3 d
  OutOK := fun _ _ _ _ => True
  split := fun q => match q with
    | 0 => fun d W h => by
        have hs := Tile0.split m J.i0 d W h.1 h.2
        rw [bigSep_univ_prod] at hs
        exact hs
    | 1 => fun d W h => by
        have hs := Tile1.split m J.i1 d W h.1 h.2
        rw [bigSep_univ_prod] at hs
        exact hs
    | 2 => fun d W h => by
        have hs := Tile2.split m J.i2 d W h.1 h.2
        rw [bigSep_univ_prod] at hs
        exact hs
    | 3 => fun d W h => by
        have hs := Tile3.split m J.i3 d W h.1 h.2
        rw [bigSep_univ_prod] at hs
        exact hs

end Cert.Proof.KB

end
-- ==== Proof.BIdxRange.lean ====
/-
  The ranges of the token ids, from the precondition, and through the host stretches that re-lay them.

  The precondition is one conjunction, read at its single index: five "every entry is finite" tests of the float
  arguments, then "every input id lies in [0, 99999]" and "every token-type id lies in [0, 1]", each a reduction by
  `and` over all entries of a pointwise conjunction of two signed comparisons. A reduction by `and` that came out 1 met
  only 1s, so each comparison holds at every entry; and a 32-bit word whose signed value lies in [0, n], n < 2^31, has
  unsigned value at most n.

  The host stretches before each gather only reshape the id array and cut a quarter out of it: every entry of a reshaped
  array, and every entry of a slice, IS an entry of the operand. So a bound that holds at every entry of the ids holds
  at every entry of each quarter's index array.
-/
import proofs.«203556_g1357209665813_cont_week2b_798_48_alg».proof.Proof.BMain
import proofs.«203556_g1357209665813_cont_week2b_798_48_alg».proof.Proof.Gen.Pre_input_domain
import Idealize.ShloMosaic.Lib.ReduceAll
import Idealize.ShloMosaic.Lib.ValueIdx

noncomputable section

namespace Cert.Proof.KB

open Cert.Kernel Cert.Kernel.Gen
open Idealize.ShloMosaic Idealize.SL.Sem

variable {F : FTy → Type} [FloatOps F]

/-! ## The precondition decoded -/

/-- The shape of a scalar has one index. -/
instance subsingleton_scalar_idx : Subsingleton Cert.Pre_input_domain.S_.Idx := ⟨fun a b => funext fun d => d.elim0⟩

/-- A 32-bit word whose signed value lies in [0, n], with n below 2^31, has unsigned value at most n: its top bit is
    clear, so the two readings agree. -/
theorem toNat_le_of_signed (w : BitVec 32) (n : Nat) (hn : n < 2 ^ 31) (h0 : (0#32 : BitVec 32).toInt ≤ w.toInt)
    (h1 : w.toInt ≤ (BitVec.ofNat 32 n).toInt) : w.toNat ≤ n := by
  have h32 := w.isLt
  have e0 : (0#32 : BitVec 32).toInt = 0 := by decide
  have en : (BitVec.ofNat 32 n).toInt = n := by
    rw [BitVec.toInt_eq_toNat_of_lt (by rw [BitVec.toNat_ofNat]; omega), BitVec.toNat_ofNat]; omega
  rw [e0] at h0; rw [en] at h1
  rw [BitVec.toInt_eq_toNat_cond] at h0 h1
  split at h0 <;> omega

section Pre

variable {x0 x1 : IVec Cert.Pre_input_domain.S1024x200 32} {x2 : FVec F Cert.Pre_input_domain.S100000x128 .f32}
  {x3 : FVec F Cert.Pre_input_domain.S512x128 .f32} {x4 : FVec F Cert.Pre_input_domain.S2x128 .f32}
  {x5 x6 : FVec F Cert.Pre_input_domain.S128 .f32}

/-- The two integer conjuncts of the precondition, entry by entry, as signed inequalities: every input id between 0 and
    99999, every token-type id between 0 and 1. -/
theorem pre_signed (h : Cert.Pre_input_domain.fn (F := F) x0 x1 x2 x3 x4 x5 x6 = fun _ => 1#1) (j : Cert.Pre_input_domain.S1024x200.Idx) :
    ((0#32 : BitVec 32).toInt ≤ (x0 j).toInt ∧ (x0 j).toInt ≤ (99999#32 : BitVec 32).toInt)
      ∧ ((0#32 : BitVec 32).toInt ≤ (x1 j).toInt ∧ (x1 j).toInt ≤ (1#32 : BitVec 32).toInt) := by
  have e := congrFun h ValueIdx.ix0
  dsimp only [Cert.Pre_input_domain.fn, Cert.Pre_input_domain.fn_part1, Cert.Pre_input_domain.fn_part2] at e
  simp only [andi, IntOp.andi_eq_one] at e
  obtain ⟨⟨-, h0⟩, h1⟩ := e
  have hj0 := Host.reduce_andi_all _ _ _ _ ValueIdx.ix0 h0 j
  have hj1 := Host.reduce_andi_all _ _ _ _ ValueIdx.ix0 h1 j
  simp only [andi, cmpi, broadcastInDim, constantI, IntOp.andi_eq_one, IntOp.cmpi_sge, IntOp.cmpi_sle] at hj0 hj1
  exact ⟨hj0, hj1⟩

/-- Every input id names a row of the 100000-row embedding table. -/
theorem ids_range (h : Cert.Pre_input_domain.fn (F := F) x0 x1 x2 x3 x4 x5 x6 = fun _ => 1#1) :
    ∀ j : Cert.Pre_input_domain.S1024x200.Idx, (x0 j).toNat < 100000 := fun j => by
  have hj := (pre_signed h j).1
  have := toNat_le_of_signed (x0 j) 99999 (by decide) hj.1 hj.2
  omega

/-- Every token-type id is 0 or 1. -/
theorem tt_range (h : Cert.Pre_input_domain.fn (F := F) x0 x1 x2 x3 x4 x5 x6 = fun _ => 1#1) :
    ∀ j : Cert.Pre_input_domain.S1024x200.Idx, x1 j = 0#32 ∨ x1 j = 1#32 := fun j => by
  have hj := (pre_signed h j).2
  have hle := toNat_le_of_signed (x1 j) 1 (by decide) hj.1 hj.2
  rcases Nat.le_one_iff_eq_zero_or_eq_one.mp hle with e | e
  · exact Or.inl (BitVec.eq_of_toNat_eq (by rw [e]; rfl))
  · exact Or.inr (BitVec.eq_of_toNat_eq (by rw [e]; rfl))

end Pre

/-! ## The range carried through the host stretches

Each entry of a reshape's result and of a slice's result is the operand at some index, so a bound on every entry of
the operand bounds every entry of the result. -/

/-- After host stretch 0, the re-laid id array (reshaped to one axis and back) is within the range the ids are. -/
theorem v1_range (W : Valuation τ sig (Elt F))
    (hW : ∀ j, ((W (Proc.devRef .tc main_arg0) : S1024x200.Idx → BitVec 32) j).toNat < 100000) :
    ∀ j, ((StableHlo.after (hops0 (F := F)) W (Proc.devRef .tc main_v1) : S1024x200.Idx → BitVec 32) j).toNat < 100000 := by
  dsimp only [hops0]
  after_results
  intro j
  exact hW _

/-- After host stretch 0, the first quarter's index array (rows 0–255 of the ids, reshaped to 32×25×64) is within range. -/
theorem idx0_range (W : Valuation τ sig (Elt F))
    (hW : ∀ j, ((W (Proc.devRef .tc main_arg0) : S1024x200.Idx → BitVec 32) j).toNat < 100000) :
    ∀ j, ((StableHlo.after (hops0 (F := F)) W (Proc.devRef .tc main_v3) : S32x25x64.Idx → BitVec 32) j).toNat < 100000 := by
  dsimp only [hops0]
  after_results
  intro j
  exact hW _

/-- After host stretch 1, the second quarter's index array is within the range the re-laid ids are. -/
theorem idx1_range (W : Valuation τ sig (Elt F))
    (hW : ∀ j, ((W (Proc.devRef .tc main_v1) : S1024x200.Idx → BitVec 32) j).toNat < 100000) :
    ∀ j, ((StableHlo.after (hops1 (F := F)) W (Proc.devRef .tc main_v6) : S32x25x64.Idx → BitVec 32) j).toNat < 100000 := by
  dsimp only [hops1]
  after_results
  intro j
  exact hW _

/-- After host stretch 2, the third quarter's. -/
theorem idx2_range (W : Valuation τ sig (Elt F))
    (hW : ∀ j, ((W (Proc.devRef .tc main_v1) : S1024x200.Idx → BitVec 32) j).toNat < 100000) :
    ∀ j, ((StableHlo.after (hops2 (F := F)) W (Proc.devRef .tc main_v9) : S32x25x64.Idx → BitVec 32) j).toNat < 100000 := by
  dsimp only [hops2]
  after_results
  intro j
  exact hW _

/-- After host stretch 3, the fourth quarter's. -/
theorem idx3_range (W : Valuation τ sig (Elt F))
    (hW : ∀ j, ((W (Proc.devRef .tc main_v1) : S1024x200.Idx → BitVec 32) j).toNat < 100000) :
    ∀ j, ((StableHlo.after (hops3 (F := F)) W (Proc.devRef .tc main_v12) : S32x25x64.Idx → BitVec 32) j).toNat < 100000 := by
  dsimp only [hops3]
  after_results
  intro j
  exact hW _

/-! ## The float arguments are finite (read at the extended reals)

Each of the five float conjuncts tests `|x| < +∞` at every entry. Over the extended reals `|x| = max x (−x)`, which
is `+∞` at both infinities: so the test passing says the entry is a real number. -/

section Finite

/-- The bit pattern the tests compare against denotes `+∞`. -/
theorem ofBits_inf : Ideal.ofBits .f32 0x7F800000#32 = (⊤ : EReal) := by simp [Ideal.ofBits, Ideal.ieee]

/-- An extended real whose absolute value is below `+∞` is a real. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- One finiteness test read at an entry: the entry is a real. -/
theorem real_of_test {s : Shape} (x : FVec Ideal s .f32) (b : Cert.Pre_input_domain.S_.BroadcastsInDim s (![] : Fin 0 → Fin s.rank)) (i : s.Idx)
    (h : cmpf .olt (Host.absf x) (broadcastInDim s ![] b (constant Cert.Pre_input_domain.S_ .f32 0x7F800000#32)) i = 1#1) :
    ∃ r : ℝ, x i = (r : EReal) := by
  refine real_of_abs_lt_top (x i) ?_
  rw [← ofBits_inf]
  exact h

variable {x0 x1 : IVec Cert.Pre_input_domain.S1024x200 32} {x2 : FVec Ideal Cert.Pre_input_domain.S100000x128 .f32}
  {x3 : FVec Ideal Cert.Pre_input_domain.S512x128 .f32} {x4 : FVec Ideal Cert.Pre_input_domain.S2x128 .f32}
  {x5 x6 : FVec Ideal Cert.Pre_input_domain.S128 .f32}

/-- Under the precondition every entry of each of the five float arguments is a real number. -/
theorem floats_real (h : Cert.Pre_input_domain.fn (F := Ideal) x0 x1 x2 x3 x4 x5 x6 = fun _ => 1#1) :
    (∀ i, ∃ r : ℝ, x2 i = (r : EReal)) ∧ (∀ i, ∃ r : ℝ, x3 i = (r : EReal)) ∧ (∀ i, ∃ r : ℝ, x4 i = (r : EReal))
      ∧ (∀ i, ∃ r : ℝ, x5 i = (r : EReal)) ∧ (∀ i, ∃ r : ℝ, x6 i = (r : EReal)) := by
  have e := congrFun h ValueIdx.ix0
  dsimp only [Cert.Pre_input_domain.fn, Cert.Pre_input_domain.fn_part1, Cert.Pre_input_domain.fn_part2] at e
  simp only [andi, IntOp.andi_eq_one] at e
  obtain ⟨⟨⟨⟨⟨⟨h2, h3⟩, h4⟩, h5⟩, h6⟩, -⟩, -⟩ := e
  exact ⟨fun i => real_of_test x2 _ i (Host.reduce_andi_all _ _ _ _ ValueIdx.ix0 h2 i),
    fun i => real_of_test x3 _ i (Host.reduce_andi_all _ _ _ _ ValueIdx.ix0 h3 i),
    fun i => real_of_test x4 _ i (Host.reduce_andi_all _ _ _ _ ValueIdx.ix0 h4 i),
    fun i => real_of_test x5 _ i (Host.reduce_andi_all _ _ _ _ ValueIdx.ix0 h5 i),
    fun i => real_of_test x6 _ i (Host.reduce_andi_all _ _ _ _ ValueIdx.ix0 h6 i)⟩

theorem arg2_real (h : Cert.Pre_input_domain.fn (F := Ideal) x0 x1 x2 x3 x4 x5 x6 = fun _ => 1#1) : ∀ i, ∃ r : ℝ, x2 i = (r : EReal) := (floats_real h).1
theorem arg3_real (h : Cert.Pre_input_domain.fn (F := Ideal) x0 x1 x2 x3 x4 x5 x6 = fun _ => 1#1) : ∀ i, ∃ r : ℝ, x3 i = (r : EReal) := (floats_real h).2.1
theorem arg4_real (h : Cert.Pre_input_domain.fn (F := Ideal) x0 x1 x2 x3 x4 x5 x6 = fun _ => 1#1) : ∀ i, ∃ r : ℝ, x4 i = (r : EReal) := (floats_real h).2.2.1
theorem arg5_real (h : Cert.Pre_input_domain.fn (F := Ideal) x0 x1 x2 x3 x4 x5 x6 = fun _ => 1#1) : ∀ i, ∃ r : ℝ, x5 i = (r : EReal) := (floats_real h).2.2.2.1
theorem arg6_real (h : Cert.Pre_input_domain.fn (F := Ideal) x0 x1 x2 x3 x4 x5 x6 = fun _ => 1#1) : ∀ i, ∃ r : ℝ, x6 i = (r : EReal) := (floats_real h).2.2.2.2

end Finite

end Cert.Proof.KB

end
-- ==== Proof.BIdxChain.lean ====
/-
  The ids each SparseCore call gathers by do not depend on what the earlier calls left. Stretch 0 re-lays the id array
  (`main_v1`) and cuts its first quarter; stretches 1, 2, 3 each cut a quarter of `main_v1` through two constants of their
  own. A stretch's fold, read at a buffer among those it touches, depends on the contents before it only at the buffers it
  touches; the calls' result buffers and the other stretches' buffers are not among them.
-/
import proofs.«203556_g1357209665813_cont_week2b_798_48_alg».proof.Proof.BLaunchC
import proofs.«203556_g1357209665813_cont_week2b_798_48_alg».proof.Proof.BIdxRange
import proofs.«203556_g1357209665813_cont_week2b_798_48_alg».proof.Proof.BHostFacts

noncomputable section

namespace Cert.Proof.KB

open Cert.Kernel Cert.Kernel.Gen
open Idealize.ShloMosaic Idealize.SL.Sem

variable {F : FTy → Type} [FloatOps F]

/-! ## A fold depends on the contents only at the buffers its operations touch -/

/-- Two valuations that agree on a set containing every buffer a line of operations touches still agree on it after the line. -/
theorem after_congr_on (S : Finset (DevRef τ sig)) :
    ∀ (ops : List (HloOp τ sig (Elt F))) (_ : ∀ op ∈ ops, op.bufs ⊆ S) (A B : Valuation τ sig (Elt F))
      (_ : ∀ b ∈ S, A b = B b), ∀ b ∈ S, StableHlo.after ops A b = StableHlo.after ops B b
  | [], _, _, _, hAB => hAB
  | op :: ops, hS, A, B, hAB => by
    intro b hb
    rw [StableHlo.after_cons, StableHlo.after_cons]
    refine after_congr_on S ops (fun o ho => hS o (List.mem_cons_of_mem _ ho)) _ _ (fun b' hb' => ?_) b hb
    by_cases hm : b' ∈ op.bufs
    · exact op.result_congr (fun x hx => hAB x (hS op List.mem_cons_self hx)) b' hm
    · rw [op.result_of_not_mem A (fun hw => hm (op.writes_sub hw)), op.result_of_not_mem B (fun hw => hm (op.writes_sub hw))]
      exact hAB b' hb'

/-- A list of references as a set of device buffers. -/
abbrev bufSet (L : List (Ref sig .tc)) : Finset (DevRef τ sig) := (L.map (Proc.devRef (τ := τ) .tc)).toFinset

theorem mem_bufSet {L : List (Ref sig .tc)} {r : Ref sig .tc} (h : r ∈ L) : Proc.devRef (τ := τ) .tc r ∈ bufSet L :=
  List.mem_toFinset.mpr (List.mem_map_of_mem h)

/-- A member of the set is a listed reference. -/
theorem of_mem_bufSet {L : List (Ref sig .tc)} {b : DevRef τ sig} (h : b ∈ bufSet L) : ∃ r ∈ L, b = Proc.devRef .tc r := by
  obtain ⟨r, hr, e⟩ := List.mem_map.mp (List.mem_toFinset.mp h)
  exact ⟨r, hr, e.symm⟩

/-- The buffers stretch `q` (1, 2, 3) touches: the re-laid ids, its two constants, the slice and its reshape. -/
abbrev hops1_B : List (Ref sig .tc) := [main_v1, main_c_1, main_c_2, main_v5, main_v6]
abbrev hops2_B : List (Ref sig .tc) := [main_v1, main_c_3, main_c_4, main_v8, main_v9]
abbrev hops3_B : List (Ref sig .tc) := [main_v1, main_c_5, main_c_6, main_v11, main_v12]

theorem hops1_bufs : ∀ op ∈ (hops1 : List (HloOp τ sig (Elt F))), op.bufs ⊆ bufSet hops1_B := by
  intro op h
  simp only [hops1, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

theorem hops2_bufs : ∀ op ∈ (hops2 : List (HloOp τ sig (Elt F))), op.bufs ⊆ bufSet hops2_B := by
  intro op h
  simp only [hops2, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

theorem hops3_bufs : ∀ op ∈ (hops3 : List (HloOp τ sig (Elt F))), op.bufs ⊆ bufSet hops3_B := by
  intro op h
  simp only [hops3, List.mem_cons, List.mem_nil_iff, or_false] at h
  rcases h with rfl | rfl | rfl | rfl
  · exact Finset.singleton_subset_iff.mpr (mem_bufSet (by decide))
  · exact Finset.singleton_subset_iff.mpr (mem_bufSet (by decide))
  · exact Finset.insert_subset (mem_bufSet (by decide)) (Finset.insert_subset (mem_bufSet (by decide))
      (Finset.image_subset_iff.mpr fun k _ => mem_bufSet (by fin_cases k <;> decide)))
  · exact Finset.insert_subset (mem_bufSet (by decide)) (Finset.singleton_subset_iff.mpr (mem_bufSet (by decide)))

/-! ## The ids each call gathers by -/

variable (m : (ℓ : Loc nD τ sig) → Buf (Elt F) ℓ)

/-- The re-laid ids and the first quarter come out of stretch 0 from the launch contents; quarter `q` (1, 2, 3) out of
    stretch `q` run on what stretch 0 left. -/
def Ids0 (d : Dev nD) : S32x25x64.Idx → BitVec 32 := StableHlo.after (hops0 (F := F)) (W0 m d) (Proc.devRef .tc main_v3)
def Ids1 (d : Dev nD) : S32x25x64.Idx → BitVec 32 :=
  StableHlo.after (hops1 (F := F)) (StableHlo.after (hops0 (F := F)) (W0 m d)) (Proc.devRef .tc main_v6)
def Ids2 (d : Dev nD) : S32x25x64.Idx → BitVec 32 :=
  StableHlo.after (hops2 (F := F)) (StableHlo.after (hops0 (F := F)) (W0 m d)) (Proc.devRef .tc main_v9)
def Ids3 (d : Dev nD) : S32x25x64.Idx → BitVec 32 :=
  StableHlo.after (hops3 (F := F)) (StableHlo.after (hops0 (F := F)) (W0 m d)) (Proc.devRef .tc main_v12)

/-- The four together. -/
def Ids (q : Fin 4) (d : Dev nD) : S32x25x64.Idx → BitVec 32 :=
  match q with
  | 0 => Ids0 m d
  | 1 => Ids1 m d
  | 2 => Ids2 m d
  | 3 => Ids3 m d

/-- What a valuation must share with stretch 0's result for stretch `q` to cut the same quarter: the buffers stretch `q` touches. -/
theorem ids1_of_agree (d : Dev nD) (A : Valuation τ sig (Elt F))
    (h : ∀ r ∈ hops1_B, A (Proc.devRef .tc r) = StableHlo.after (hops0 (F := F)) (W0 m d) (Proc.devRef .tc r)) :
    StableHlo.after (hops1 (F := F)) A (Proc.devRef .tc main_v6) = Ids1 m d :=
  after_congr_on (bufSet hops1_B) hops1 hops1_bufs A _
    (fun b hb => by obtain ⟨r, hr, rfl⟩ := of_mem_bufSet hb; exact h r hr) _ (mem_bufSet (by decide))

theorem ids2_of_agree (d : Dev nD) (A : Valuation τ sig (Elt F))
    (h : ∀ r ∈ hops2_B, A (Proc.devRef .tc r) = StableHlo.after (hops0 (F := F)) (W0 m d) (Proc.devRef .tc r)) :
    StableHlo.after (hops2 (F := F)) A (Proc.devRef .tc main_v9) = Ids2 m d :=
  after_congr_on (bufSet hops2_B) hops2 hops2_bufs A _
    (fun b hb => by obtain ⟨r, hr, rfl⟩ := of_mem_bufSet hb; exact h r hr) _ (mem_bufSet (by decide))

theorem ids3_of_agree (d : Dev nD) (A : Valuation τ sig (Elt F))
    (h : ∀ r ∈ hops3_B, A (Proc.devRef .tc r) = StableHlo.after (hops0 (F := F)) (W0 m d) (Proc.devRef .tc r)) :
    StableHlo.after (hops3 (F := F)) A (Proc.devRef .tc main_v12) = Ids3 m d :=
  after_congr_on (bufSet hops3_B) hops3 hops3_bufs A _
    (fun b hb => by obtain ⟨r, hr, rfl⟩ := of_mem_bufSet hb; exact h r hr) _ (mem_bufSet (by decide))

/-- Call 0's result does not reach call 1's ids. -/
theorem chain_idx1 (d : Dev nD) (f0 : (outD 0).ty.Contents (Elt F)) :
    StableHlo.after (hops1 (F := F)) (Function.update (StableHlo.after (hops0 (F := F)) (W0 m d)) (outD 0) f0)
        (Proc.devRef .tc main_v6) = Ids1 m d :=
  ids1_of_agree m d _ fun r hr => by
    rw [Function.update_of_ne (StableHlo.devRef_ne_of_ne (ne_of_mem_of_not_mem hr (by decide)))]

/-- Calls 0 and 1's results, and stretch 1, do not reach call 2's ids. -/
theorem chain_idx2 (d : Dev nD) (f0 : (outD 0).ty.Contents (Elt F)) (f1 : (outD 1).ty.Contents (Elt F)) :
    StableHlo.after (hops2 (F := F))
        (Function.update (StableHlo.after (hops1 (F := F))
          (Function.update (StableHlo.after (hops0 (F := F)) (W0 m d)) (outD 0) f0)) (outD 1) f1)
        (Proc.devRef .tc main_v9) = Ids2 m d :=
  ids2_of_agree m d _ fun r hr => by
    rw [Function.update_of_ne (StableHlo.devRef_ne_of_ne (ne_of_mem_of_not_mem hr (by decide))),
      hops1_keeps _ r (fun h1 => absurd hr (by revert h1; revert r; decide)),
      Function.update_of_ne (StableHlo.devRef_ne_of_ne (ne_of_mem_of_not_mem hr (by decide)))]

/-- Calls 0, 1 and 2's results, and stretches 1 and 2, do not reach call 3's ids. -/
theorem chain_idx3 (d : Dev nD) (f0 : (outD 0).ty.Contents (Elt F)) (f1 : (outD 1).ty.Contents (Elt F))
    (f2 : (outD 2).ty.Contents (Elt F)) :
    StableHlo.after (hops3 (F := F))
        (Function.update (StableHlo.after (hops2 (F := F))
          (Function.update (StableHlo.after (hops1 (F := F))
            (Function.update (StableHlo.after (hops0 (F := F)) (W0 m d)) (outD 0) f0)) (outD 1) f1)) (outD 2) f2)
        (Proc.devRef .tc main_v12) = Ids3 m d :=
  ids3_of_agree m d _ fun r hr => by
    rw [Function.update_of_ne (StableHlo.devRef_ne_of_ne (ne_of_mem_of_not_mem hr (by decide))),
      hops2_keeps _ r (fun h1 => absurd hr (by revert h1; revert r; decide)),
      Function.update_of_ne (StableHlo.devRef_ne_of_ne (ne_of_mem_of_not_mem hr (by decide))),
      hops1_keeps _ r (fun h1 => absurd hr (by revert h1; revert r; decide)),
      Function.update_of_ne (StableHlo.devRef_ne_of_ne (ne_of_mem_of_not_mem hr (by decide)))]

/-- Without any call between: the stretches run one after the other cut the same quarters. -/
theorem ids2_nested (d : Dev nD) :
    StableHlo.after (hops2 (F := F)) (StableHlo.after (hops1 (F := F)) (StableHlo.after (hops0 (F := F)) (W0 m d)))
        (Proc.devRef .tc main_v9) = Ids2 m d :=
  ids2_of_agree m d _ fun r hr => hops1_keeps _ r (fun h1 => absurd hr (by revert h1; revert r; decide))

theorem ids3_nested (d : Dev nD) :
    StableHlo.after (hops3 (F := F)) (StableHlo.after (hops2 (F := F)) (StableHlo.after (hops1 (F := F))
        (StableHlo.after (hops0 (F := F)) (W0 m d)))) (Proc.devRef .tc main_v12) = Ids3 m d :=
  ids3_of_agree m d _ fun r hr => by
    rw [hops2_keeps _ r (fun h1 => absurd hr (by revert h1; revert r; decide)),
      hops1_keeps _ r (fun h1 => absurd hr (by revert h1; revert r; decide))]

/-! ## Their range -/

section Range

variable (d : Dev nD)
  (h0 : ∀ j, ((m ((SparseCore.T d).loc main_arg0) : S1024x200.Idx → BitVec 32) j).toNat < 100000)
include h0

theorem Ids_range0 : ∀ j, (Ids0 m d j).toNat < 100000 := idx0_range (W0 m d) h0
theorem Ids_range1 : ∀ j, (Ids1 m d j).toNat < 100000 := idx1_range _ (v1_range (W0 m d) h0)
theorem Ids_range2 : ∀ j, (Ids2 m d j).toNat < 100000 := idx2_range _ (v1_range (W0 m d) h0)
theorem Ids_range3 : ∀ j, (Ids3 m d j).toNat < 100000 := idx3_range _ (v1_range (W0 m d) h0)

theorem Ids_range (q : Fin 4) : ∀ j, (Ids m q d j).toNat < 100000 := by
  match q with
  | 0 => exact Ids_range0 m d h0
  | 1 => exact Ids_range1 m d h0
  | 2 => exact Ids_range2 m d h0
  | 3 => exact Ids_range3 m d h0

end Range

end Cert.Proof.KB

end
-- ==== Proof.BFrameKI.lean ====
/-
  The word-level kernel program's run from the four tile obligations: the ids each call gathers by are the first
  stretch's, whatever the earlier calls left; the table is never written.
-/
import proofs.«203556_g1357209665813_cont_week2b_798_48_alg».proof.Proof.BCalls
import proofs.«203556_g1357209665813_cont_week2b_798_48_alg».proof.Proof.BIdxChain

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

variable (m : (ℓ : Loc nD τ sig) → Buf (Elt F) ℓ) (ρ : Dev nD → PrngReg)

/-- The ids the four calls gather by. -/
def Jv : IdsOf F := ⟨Ids0 m, Ids1 m, Ids2 m, Ids3 m⟩

theorem tbl_of_args (d : Dev nD) {W : Valuation τ sig (Elt F)} (h : ArgsOf m d W) : W Tile0.tblD = m (Tile0.tblLoc d) :=
  h main_arg2 (by simp [argL])

theorem hidx0 [∀ e, Nonempty (Elt F e)] (d : Dev nD) : (CIv m (Jv m)).IdxOK 0 d (StableHlo.after hops0 (W0 m d)) :=
  ⟨tbl_of_args m d (argsOf_hops0 m d (argsOf_W0 m d)), rfl⟩
theorem hidx1 [∀ e, Nonempty (Elt F e)] (d : Dev nD) (f0) :
    (CIv m (Jv m)).IdxOK 1 d (StableHlo.after hops1 (Function.update (StableHlo.after hops0 (W0 m d)) (outD 0) f0)) :=
  ⟨tbl_of_args m d (argsOf_hops1 m d (argsOf_update m d 0 f0 (argsOf_hops0 m d (argsOf_W0 m d)))), chain_idx1 m d f0⟩
theorem hidx2 [∀ e, Nonempty (Elt F e)] (d : Dev nD) (f0 f1) :
    (CIv m (Jv m)).IdxOK 2 d (StableHlo.after hops2 (Function.update (StableHlo.after hops1 (Function.update (StableHlo.after hops0 (W0 m d)) (outD 0) f0)) (outD 1) f1)) :=
  ⟨tbl_of_args m d (argsOf_hops2 m d (argsOf_update m d 1 f1 (argsOf_hops1 m d (argsOf_update m d 0 f0 (argsOf_hops0 m d (argsOf_W0 m d)))))), chain_idx2 m d f0 f1⟩
theorem hidx3 [∀ e, Nonempty (Elt F e)] (d : Dev nD) (f0 f1 f2) :
    (CIv m (Jv m)).IdxOK 3 d (StableHlo.after hops3 (Function.update (StableHlo.after hops2 (Function.update (StableHlo.after hops1 (Function.update (StableHlo.after hops0 (W0 m d)) (outD 0) f0)) (outD 1) f1)) (outD 2) f2)) :=
  ⟨tbl_of_args m d (argsOf_hops3 m d (argsOf_update m d 2 f2 (argsOf_hops2 m d (argsOf_update m d 1 f1 (argsOf_hops1 m d (argsOf_update m d 0 f0 (argsOf_hops0 m d (argsOf_W0 m d)))))))),
    chain_idx3 m d f0 f1 f2⟩

/-- The program's run, from the four tile obligations. -/
theorem run_of_tiles [∀ e, Nonempty (Elt F e)]
    (htile : ∀ q, (K (F := F)).TileObl (D (F := F)) 𝒱 (P (TPv m (Jv m))) v₀ q) :
    θ_run (Cert.Kernel.defs (F := F)) (Cert.Kernel.threads (F := F)) ⟨m, fun _ => 0, ρ⟩ (QC m) :=
  run_main (TPv m (Jv m)) m ρ (CIv m (Jv m)) htile (hidx0 m) (hidx1 m) (hidx2 m) (hidx3 m)

end Cert.Proof.KB

end
-- ==== Proof.BTile0Base.lean ====
/-
  The row gather's task on one vector subcore, call 0: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.BTile0Sets

noncomputable section

namespace Cert.Proof.KB.Tile0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v3_scv : Memref Cert.Kernel.sig Kind.scVector Space.hbm Cert.Kernel.S32x25x64 EltTy.i32)
local notation "outW" => (Memref.whole Cert.Kernel.main_v4_scv : Memref Cert.Kernel.sig Kind.scVector Space.hbm Cert.Kernel.S51200x128 EltTy.f32)
local notation "ivW" => (Memref.whole Cert.Kernel.cc0_scratch0 : Memref Cert.Kernel.sig Kind.scVector Space.vmem Cert.Kernel.S25x64 EltTy.i32)
local notation "b0W" => (Memref.whole Cert.Kernel.cc0_scratch1 : Memref Cert.Kernel.sig Kind.scVector Space.vmem Cert.Kernel.S64x128 EltTy.f32)
local notation "b1W" => (Memref.whole Cert.Kernel.cc0_scratch2 : Memref Cert.Kernel.sig Kind.scVector Space.vmem Cert.Kernel.S64x128 EltTy.f32)
local notation "b2W" => (Memref.whole Cert.Kernel.cc0_scratch3 : Memref Cert.Kernel.sig Kind.scVector Space.vmem Cert.Kernel.S64x128 EltTy.f32)
local notation "b3W" => (Memref.whole Cert.Kernel.cc0_scratch4 : Memref Cert.Kernel.sig Kind.scVector Space.vmem Cert.Kernel.S64x128 EltTy.f32)
local notation "b4W" => (Memref.whole Cert.Kernel.cc0_scratch5 : Memref Cert.Kernel.sig Kind.scVector Space.vmem Cert.Kernel.S64x128 EltTy.f32)

theorem mySems_scoped : ∀ i ∈ mySems, (SemLoc.dma i : SemLoc sig).isScoped .scVector = true := by decide

theorem myCells_sub (d : Dev nD) (L : grid0.Coords) : myCells d L ⊆ ownCells (thr d L) := by
  intro g hg
  obtain ⟨i, hi, rfl⟩ := Finset.mem_image.mp hg
  exact mem_ownCells.mpr ⟨rfl, mySems_scoped i hi⟩

theorem myRefs_sub (L : grid0.Coords) : myRefs L ⊆ ownRefs (τ := τ) (.scVector ((L 0).castLE hcore0) ((L 1).castLE hsub0)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid0.Coords) :
    (ownSems0 (thr d L) : sProp 𝕄)
      = iprop(semVal (cellOf d L cc0_scratch6) 0 ∗ semVal (cellOf d L cc0_scratch7) 0 ∗ semVal (cellOf d L cc0_scratch8) 0
          ∗ semVal (cellOf d L cc0_scratch9) 0 ∗ semVal (cellOf d L cc0_scratch10) 0 ∗ semVal (cellOf d L cc0_scratch11) 0
          ∗ semVal (cellOf d L cc0_scratch12) 0 ∗ semVal (cellOf d L cc0_scratch13) 0 ∗ semVal (cellOf d L cc0_scratch14) 0
          ∗ semVal (cellOf d L cc0_scratch15) 0 ∗ semVal (cellOf d L cc0_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (ownRefs (τ := τ) (.scVector ((L 0).castLE hcore0) ((L 1).castLE hsub0)) \ myRefs L)
              fun b => iprop(∃ f, ((d, b) : Loc nD τ sig) ↦{fullShare} f)) := by
  unfold SparseCore.Cfg.ownBufs
  rw [show (thr d L).2 = Proc.scVector ((L 0).castLE hcore0) ((L 1).castLE hsub0) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc0_scratch6.sem, cc0_scratch7.sem, cc0_scratch8.sem, cc0_scratch9.sem, cc0_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid0.Coords) (q : PosShare TreeShare) (Tb : Buf (Elt F) (tblLoc d)) :
    (tblLoc d ↦{q} Tb : sProp 𝕄)
      = iprop(((tblW).view.loc (thr d L) ↦{tq q cc0_scratch6} Tb) ∗ ((tblW).view.loc (thr d L) ↦{tq q cc0_scratch7} Tb)
          ∗ ((tblW).view.loc (thr d L) ↦{tq q cc0_scratch8} Tb) ∗ ((tblW).view.loc (thr d L) ↦{tq q cc0_scratch9} Tb)
          ∗ ((tblW).view.loc (thr d L) ↦{tq q cc0_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid0.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid0.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid0.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid0.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid0.Coords) (sm : DmaSems sig S_) (bW : Memref sig .scVector .vmem S64x128 .f32)
    (t : Fin k0_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid0.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid0.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid0.Coords) (t : Fin k0_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid0.Coords) (fo : Buf (Elt F) (outLoc d)) (t : Fin k0_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid0.Coords) (t : Fin k0_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k0_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k0_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k0_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k0_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid0.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k0_t1_loop.trips × Fin 5 => chunkAt d L p.1 p.2 fo) :=
    pointsTo_biUnion Finset.univ _ (fun p _ p' _ h => chunk_disjoint L p p' h)
  rw [h1]
  exact bigSep25 (fun p : Fin k0_t1_loop.trips × Fin 5 => chunkAt d L p.1 p.2 fo)

/-- The chunks, each written and back at whatever contents, are the task's rows at some contents. -/
theorem out_join (d : Dev nD) (L : grid0.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k0_t1_loop.trips × Fin 5, Nonempty ((fun _ : Fin k0_t1_loop.trips × Fin 5 => Buf (Elt F) (outLoc d)) i) := fun _ => ⟨f₀⟩
  refine (Entails.of_eq (bigSep25 (fun p : Fin k0_t1_loop.trips × Fin 5 => (iprop(∃ f, chunkAt (F := F) d L p.1 p.2 f) : sProp 𝕄))).symm).trans ?_
  refine (@bigSep_exists_pi _ _ _ _ (fun _ : Fin k0_t1_loop.trips × Fin 5 => Buf (Elt F) (outLoc d)) hne Finset.univ
    (fun (p : Fin k0_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k0_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KB.Tile0
end
-- ==== Proof.BGather.lean ====
/-
  The array a SparseCore call leaves: row `r` of the result is the table's row named by the `r`-th id of the call's
  32 × 25 × 64 block of ids read row-major — worker `r / 1600`, chunk `r % 1600 / 64`, lane `r % 64` — the id read
  unsigned and clamped into the table, so that the definition needs no hypothesis on the ids.
-/
import proofs.«203556_g1357209665813_cont_week2b_798_48_alg».proof.Proof.BCommon
import Idealize.ShloMosaic.Lib.ValueIdx

noncomputable section

namespace Cert.Proof.KB

open Cert.Kernel
open Idealize.ShloMosaic Idealize.ShloMosaic.ValueIdx

variable {F : FTy → Type}

/-- The id of flat position `r` of a call's block: worker `r / 1600`, chunk `r % 1600 / 64`, lane `r % 64`. -/
def idAt (I : S32x25x64.Idx → BitVec 32) (r : Nat) (hr : r < 51200) : BitVec 32 :=
  I (ix3 ⟨r / 1600, by omega⟩ ⟨r % 1600 / 64, by omega⟩ ⟨r % 64, by omega⟩)

/-- The gathered rows: row `r`, column `k` is the table at the row the `r`-th id names (unsigned, clamped) and column `k`. -/
def Gathered (Tb : S100000x128.Idx → Elt F .f32) (I : S32x25x64.Idx → BitVec 32) : S51200x128.Idx → Elt F .f32 :=
  fun i => Tb (ix2 ⟨min (idAt I (i 0).val (idx2_lt0 i)).toNat 99999, by omega⟩ ⟨(i 1).val, idx2_lt1 i⟩)

/-- The gathered rows at `(r, k)`. -/
theorem Gathered_apply (Tb : S100000x128.Idx → Elt F .f32) (I : S32x25x64.Idx → BitVec 32) (r : Nat) (hr : r < 51200)
    (k : Fin 128) :
    Gathered Tb I (ix2 ⟨r, hr⟩ k)
      = Tb (ix2 ⟨min (I (ix3 ⟨r / 1600, by omega⟩ ⟨r % 1600 / 64, by omega⟩ ⟨r % 64, by omega⟩)).toNat 99999, by omega⟩ k) := rfl

/-- With the id in the table's range the clamp is the id itself. -/
theorem Gathered_apply_of_lt (Tb : S100000x128.Idx → Elt F .f32) (I : S32x25x64.Idx → BitVec 32) (r : Nat) (hr : r < 51200)
    (k : Fin 128) (hI : (I (ix3 ⟨r / 1600, by omega⟩ ⟨r % 1600 / 64, by omega⟩ ⟨r % 64, by omega⟩)).toNat < 100000) :
    Gathered Tb I (ix2 ⟨r, hr⟩ k)
      = Tb (ix2 ⟨(I (ix3 ⟨r / 1600, by omega⟩ ⟨r % 1600 / 64, by omega⟩ ⟨r % 64, by omega⟩)).toNat, hI⟩ k) := by
  rw [Gathered_apply]
  exact congrArg (fun q => Tb (ix2 q k)) (Fin.ext (Nat.min_eq_left (by omega)))

end Cert.Proof.KB

end
-- ==== Proof.BTile0ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.BTile0Sets
import proofs.«203556_g1357209665813_cont_week2b_798_48_alg».proof.Proof.BGather
import Idealize.ShloMosaic.Lib.Pipeline.Value
import Idealize.ShloMosaic.Lib.ValueLayout

noncomputable section

namespace Cert.Proof.KB.Tile0

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.Kernel.cc0_scratch0 : Memref Cert.Kernel.sig Kind.scVector Space.vmem Cert.Kernel.S25x64 EltTy.i32)
local notation "idxW" => (Memref.whole Cert.Kernel.main_v3_scv : Memref Cert.Kernel.sig Kind.scVector Space.hbm Cert.Kernel.S32x25x64 EltTy.i32)

/-- The worker a task is: twice the subcore plus the core. -/
abbrev wid (L : grid0.Coords) : ℕ := 2 * (L 1).val + (L 0).val

theorem wid_lt (L : grid0.Coords) : wid L < 32 := by
  have h0 := (L 0).isLt; have h1 := (L 1).isLt
  have b0 : grid0.bound 0 = 2 := rfl
  have b1 : grid0.bound 1 = 16 := rfl
  unfold wid; omega

/-! ## (1) The task's block of ids -/

/-- The block of the id array the task copies, read through the program's slice, is row `wid` of the array. -/
theorem idxRow_read_apply (L : grid0.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k0_off1 L) S1x25x64.size (k0_off1_inb L)).toLoadRect I) hc from rfl]
  rw [shapeCast_1ab_ab_apply]
  show I ((Rect.unit (s := S32x25x64) (k0_off1 L) S1x25x64.size (k0_off1_inb L)).idx (ix3 0 k j)) = _
  refine congrArg I (funext fun a => Fin.ext ?_)
  have e := k0_off1_eq L
  match a with
  | ⟨0, _⟩ => show k0_off1 L 0 + 1 * (0 : ℕ) = wid L; rw [e]; simp
  | ⟨1, _⟩ => show k0_off1 L 1 + 1 * k.val = k.val; rw [e]; simp
  | ⟨2, _⟩ => show k0_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid0.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid0.Coords) (t : Fin k0_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid0.Coords) (t : Fin k0_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k0_off5_eq L t r
  have hr : base L t r + j.val < 51200 := by
    have h0 := (L 0).isLt; have h1 := (L 1).isLt
    have b0 : grid0.bound 0 = 2 := rfl
    have b1 : grid0.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k0_off5 L t (BitVec.ofNat 32 r.val) 0 + 1 * j.val; rw [e5]; simp
  | ⟨1, _⟩ => show h.val = k0_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid0.Coords) (t : Fin k0_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid0.bound 0 = 2 := rfl
  have b1 : grid0.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid0.Coords) (q : PosShare TreeShare) (g : Buf (Elt F) (outLoc d)) :
    (outLoc d ↦[outSet L]{q} g : sProp 𝕄)
      = bigSep (Finset.univ : Finset (Fin k0_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid0.Coords) (t : Fin k0_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid0.Coords) (q : PosShare TreeShare)
    (f : Fin k0_t1_loop.trips × Fin 5 → Buf (Elt F) (outLoc d)) (G : Buf (Elt F) (outLoc d))
    (h : ∀ p : Fin k0_t1_loop.trips × Fin 5, ∀ i ∈ ((outChunk L p.1 p.2).view.set : Finset S51200x128.Idx), f p i = G i) :
    (bigSep (Finset.univ : Finset (Fin k0_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KB.Tile0
end
-- ==== Proof.BTileCoreBase.lean ====
/-
  The row gather's task on one vector subcore, for any call: the five trips of its ring, over the call's arguments as
  variables — the index array, the output, the index scratch, the five slot buffers (each a whole buffer) and the eleven
  semaphores. The four calls run one function on different arguments, so what is proved here is proved once. Nothing is said
  over an argument's underlying buffer beyond what its memref states: the task's index block and output chunks are the
  program's own slices, and the fact that every word of the index scratch names a table row enters as a hypothesis.
-/
import proofs.«203556_g1357209665813_cont_week2b_798_48_alg».proof.Proof.BCommon

noncomputable section

namespace Cert.Proof.KB.TileCore

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- One call's arguments besides the table: the index array, the output, the index scratch, the five slot buffers (each a
    whole buffer) and the eleven semaphores. -/
structure Args where
  idxW : Memref sig .scVector .hbm S32x25x64 .i32
  hidxW : idxW.IsWhole
  outW : Memref sig .scVector .hbm S51200x128 .f32
  houtW : outW.IsWhole
  ivW : Memref sig .scVector .vmem S25x64 .i32
  hivW : ivW.IsWhole
  b0W : Memref sig .scVector .vmem S64x128 .f32
  hb0W : b0W.IsWhole
  b1W : Memref sig .scVector .vmem S64x128 .f32
  hb1W : b1W.IsWhole
  b2W : Memref sig .scVector .vmem S64x128 .f32
  hb2W : b2W.IsWhole
  b3W : Memref sig .scVector .vmem S64x128 .f32
  hb3W : b3W.IsWhole
  b4W : Memref sig .scVector .vmem S64x128 .f32
  hb4W : b4W.IsWhole
  s0 : DmaSems sig S_
  s1 : DmaSems sig S_
  s2 : DmaSems sig S_
  s3 : DmaSems sig S_
  s4 : DmaSems sig S_
  s5 : DmaSems sig S_
  s6 : DmaSems sig S_
  s7 : DmaSems sig S_
  s8 : DmaSems sig S_
  s9 : DmaSems sig S_
  s10 : DmaSems sig S_

variable (A : Args)

local notation "𝕄" => MT nD τ sig (HIx 4) (Elt F) ℕ UU ℕ
local notation "tblW" => (Memref.whole Cert.Kernel.main_arg2_scv : Memref Cert.Kernel.sig Kind.scVector Space.hbm Cert.Kernel.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

abbrev thr (d : Dev nD) (L : grid0.Coords) : Thread nD τ := V d ((L 0).castLE hcore0) ((L 1).castLE hsub0)
abbrev tblLoc (d : Dev nD) : Loc nD τ sig := (SparseCore.T d).loc main_arg2
abbrev idxLoc (d : Dev nD) (L : grid0.Coords) : Loc nD τ sig := (idxW).view.loc (thr d L)
abbrev outLoc (d : Dev nD) (L : grid0.Coords) : Loc nD τ sig := (outW).view.loc (thr d L)

/-- The block of the index array the task copies, as the program slices it. -/
abbrev idxRow (L : grid0.Coords) : Memref sig .scVector .hbm S25x64 .i32 :=
  ((idxW).slice (Rect.unit (s := S32x25x64) (k0_off1 L) S1x25x64.size (k0_off1_inb L)) (fun _ => rfl)).squeeze S25x64 squeezes_S1x25x64_S25x64

/-- Chunk r of trip t of the output, as the program slices it at the write. -/
abbrev outChunk (L : grid0.Coords) (t : Fin k0_t1_loop.trips) (r : Fin 5) : Memref sig .scVector .hbm S64x128 .f32 :=
  (outW).slice (Rect.unit (s := S51200x128) (k0_off5 L t (BitVec.ofNat 32 r.val)) S64x128.size (k0_off5_inb L t r)) (fun _ => rfl)

abbrev cellOf (d : Dev nD) (L : grid0.Coords) (x : DmaSems sig S_) : GSem nD τ sig := (thr d L, SemLoc.dma x.sem)

/-- The read token of the table's share that transfers completing on semaphore x borrow. -/
abbrev tq (q : PosShare TreeShare) (x : DmaSems sig S_) : PosShare TreeShare := Transfers.shareTok q sig.nDmaSem x.sem

theorem trips_eq : k0_t1_loop.trips = 5 := by decide

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid0.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow A off h).view.set]{fullShare} fv))
      ∗ ((tblW).view.loc (thr d L) ↦[(tblS).view.set]{tq q sm} Tb))

/-- What an issue leaves behind of a buffer lent whole: nothing. -/
abbrev restOf (d : Dev nD) (L : grid0.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- The index scratch once the task's block has landed in it. -/
abbrev ivC (d : Dev nD) (L : grid0.Coords) (I : Buf (Elt F) (idxLoc A d L)) (fiv : Buf (Elt F) ((ivW).view.loc (thr d L))) :
    Buf (Elt F) ((ivW).view.loc (thr d L)) :=
  (ivW).view.write (Elt F) fiv (ReadAs.same.apply ((idxRow A L).view.read (Elt F) I)) Finset.univ

/-- A write-out in flight on semaphore sm: it hands back the chunk of the output at contents o and the slot buffer at contents c. -/
abbrev WF (d : Dev nD) (L : grid0.Coords) (sm : DmaSems sig S_) (bW : Memref sig .scVector .vmem S64x128 .f32)
    (t : Fin k0_t1_loop.trips) (r : Fin 5) (o : Buf (Elt F) (outLoc A d L)) (c : Buf (Elt F) (bW.view.loc (thr d L))) : sProp 𝕄 :=
  Transfers.Flight countersEmb (thr d L) (SemLoc.dma sm.sem) default 262144
    iprop(((outChunk A L t r).view.loc (thr d L) ↦[(outChunk A L t r).view.set]{fullShare} o)
      ∗ (bW.view.loc (thr d L) ↦[bW.view.set]{fullShare} c))

/-- The index scratch less the three list rows lent to the gathers in flight. -/
abbrev ivRest (d : Dev nD) (L : grid0.Coords) (I : Buf (Elt F) (idxLoc A d L)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow A o0 p0).view.set) \ (ivRow A o1 p1).view.set) \ (ivRow A o2 p2).view.set]{fullShare} ivC A d L I fiv

/-- The table's read token of semaphore sm, whole. -/
abbrev tok (d : Dev nD) (L : grid0.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid0.Coords) (t : Fin k0_t1_loop.trips) (r : Fin 5) (f : Buf (Elt F) (outLoc A d L)) : sProp 𝕄 :=
  (outChunk A L t r).view.loc (thr d L) ↦[(outChunk A L t r).view.set]{fullShare} f

/-- A trip's five chunks, not yet written. -/
abbrev tripTodo (d : Dev nD) (L : grid0.Coords) (fo : Buf (Elt F) (outLoc A d L)) (t : Fin k0_t1_loop.trips) : sProp 𝕄 :=
  iprop(chunkAt A d L t 0 fo ∗ chunkAt A d L t 1 fo ∗ chunkAt A d L t 2 fo ∗ chunkAt A d L t 3 fo ∗ chunkAt A d L t 4 fo)

/-- A trip's five chunks, written and back. -/
abbrev tripDone (d : Dev nD) (L : grid0.Coords) (t : Fin k0_t1_loop.trips) : sProp 𝕄 :=
  iprop((∃ f, chunkAt A (F := F) d L t 0 f) ∗ (∃ f, chunkAt A (F := F) d L t 1 f) ∗ (∃ f, chunkAt A (F := F) d L t 2 f)
    ∗ (∃ f, chunkAt A (F := F) d L t 3 f) ∗ (∃ f, chunkAt A (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-- What every trip boundary before the last holds: the three gathers in flight (list rows o0, o1, o2 into slots 0, 1, 2), the
    other two read tokens, the other two gather semaphores and the first three write semaphores at zero; and a tail. -/
def Bnd (d : Dev nD) (L : grid0.Coords) (q : PosShare TreeShare) (Tb : Buf (Elt F) (tblLoc d)) (I : Buf (Elt F) (idxLoc A d L))
    (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) (Tail : sProp 𝕄) : sProp 𝕄 :=
  iprop(∃ g0 g1 g2,
    GF A d L q Tb (ivC A d L I fiv) A.s0 b0W o0 p0 g0 ∗ GF A d L q Tb (ivC A d L I fiv) A.s1 b1W o1 p1 g1
    ∗ GF A d L q Tb (ivC A d L I fiv) A.s2 b2W o2 p2 g2
    ∗ restOf d L tblW (tblS).view.set (tq q A.s0) Tb ∗ restOf d L tblW (tblS).view.set (tq q A.s1) Tb
    ∗ restOf d L tblW (tblS).view.set (tq q A.s2) Tb
    ∗ tok d L q Tb A.s3 ∗ tok d L q Tb A.s4
    ∗ restOf d L b0W (b0W).view.set fullShare g0 ∗ restOf d L b1W (b1W).view.set fullShare g1 ∗ restOf d L b2W (b2W).view.set fullShare g2
    ∗ ivRest A d L I fiv o0 p0 o1 p1 o2 p2
    ∗ semVal (cellOf d L A.s3) 0 ∗ semVal (cellOf d L A.s4) 0
    ∗ semVal (cellOf d L A.s5) 0 ∗ semVal (cellOf d L A.s6) 0 ∗ semVal (cellOf d L A.s7) 0
    ∗ Tail)

/-- The tail before the first trip: slots 3 and 4 idle, nothing written. -/
def Tail0 (d : Dev nD) (L : grid0.Coords) (fo : Buf (Elt F) (outLoc A d L)) : sProp 𝕄 :=
  iprop((∃ f, (b3W).view.loc (thr d L) ↦{fullShare} f) ∗ (∃ f, (b4W).view.loc (thr d L) ↦{fullShare} f)
    ∗ semVal (cellOf d L A.s8) 0 ∗ semVal (cellOf d L A.s9) 0
    ∗ tripTodo A d L fo ⟨0, by decide⟩ ∗ tripTodo A d L fo ⟨1, by decide⟩ ∗ tripTodo A d L fo ⟨2, by decide⟩ ∗ tripTodo A d L fo ⟨3, by decide⟩
    ∗ tripTodo A d L fo ⟨4, by decide⟩)

/-- The part of a later tail that does not depend on which trips are done: trip tp's last two chunks being written out of slots
    3 and 4, its first three back. -/
def TailW (d : Dev nD) (L : grid0.Coords) (tp : Fin k0_t1_loop.trips) : sProp 𝕄 :=
  iprop((∃ c o, WF A (F := F) d L A.s8 b3W tp 3 o c ∗ restOf d L b3W (b3W).view.set fullShare c)
    ∗ (∃ c o, WF A (F := F) d L A.s9 b4W tp 4 o c ∗ restOf d L b4W (b4W).view.set fullShare c)
    ∗ (∃ f, chunkAt A (F := F) d L tp 0 f) ∗ (∃ f, chunkAt A (F := F) d L tp 1 f) ∗ (∃ f, chunkAt A (F := F) d L tp 2 f))

def Tail1 (d : Dev nD) (L : grid0.Coords) (fo : Buf (Elt F) (outLoc A d L)) : sProp 𝕄 :=
  iprop(TailW A (F := F) d L ⟨0, by decide⟩ ∗ tripTodo A d L fo ⟨1, by decide⟩ ∗ tripTodo A d L fo ⟨2, by decide⟩ ∗ tripTodo A d L fo ⟨3, by decide⟩ ∗ tripTodo A d L fo ⟨4, by decide⟩)

def Tail2 (d : Dev nD) (L : grid0.Coords) (fo : Buf (Elt F) (outLoc A d L)) : sProp 𝕄 :=
  iprop(TailW A (F := F) d L ⟨1, by decide⟩ ∗ tripDone A (F := F) d L ⟨0, by decide⟩ ∗ tripTodo A d L fo ⟨2, by decide⟩ ∗ tripTodo A d L fo ⟨3, by decide⟩ ∗ tripTodo A d L fo ⟨4, by decide⟩)

def Tail3 (d : Dev nD) (L : grid0.Coords) (fo : Buf (Elt F) (outLoc A d L)) : sProp 𝕄 :=
  iprop(TailW A (F := F) d L ⟨2, by decide⟩ ∗ tripDone A (F := F) d L ⟨0, by decide⟩ ∗ tripDone A (F := F) d L ⟨1, by decide⟩ ∗ tripTodo A d L fo ⟨3, by decide⟩ ∗ tripTodo A d L fo ⟨4, by decide⟩)

def Tail4 (d : Dev nD) (L : grid0.Coords) (fo : Buf (Elt F) (outLoc A d L)) : sProp 𝕄 :=
  iprop(TailW A (F := F) d L ⟨3, by decide⟩ ∗ tripDone A (F := F) d L ⟨0, by decide⟩ ∗ tripDone A (F := F) d L ⟨1, by decide⟩ ∗ tripDone A (F := F) d L ⟨2, by decide⟩ ∗ tripTodo A d L fo ⟨4, by decide⟩)

/-- After the last trip: no gather in flight; the last trip's five chunks being written out of the five slots. -/
def B5 (d : Dev nD) (L : grid0.Coords) (q : PosShare TreeShare) (Tb : Buf (Elt F) (tblLoc d)) (I : Buf (Elt F) (idxLoc A d L))
    (fiv : Buf (Elt F) ((ivW).view.loc (thr d L))) : sProp 𝕄 :=
  iprop(tok d L q Tb A.s0 ∗ tok d L q Tb A.s1 ∗ tok d L q Tb A.s2 ∗ tok d L q Tb A.s3 ∗ tok d L q Tb A.s4
    ∗ semVal (cellOf d L A.s0) 0 ∗ semVal (cellOf d L A.s1) 0 ∗ semVal (cellOf d L A.s2) 0
    ∗ semVal (cellOf d L A.s3) 0 ∗ semVal (cellOf d L A.s4) 0
    ∗ (∃ c o, WF A (F := F) d L A.s5 b0W ⟨4, by decide⟩ 0 o c ∗ restOf d L b0W (b0W).view.set fullShare c)
    ∗ (∃ c o, WF A (F := F) d L A.s6 b1W ⟨4, by decide⟩ 1 o c ∗ restOf d L b1W (b1W).view.set fullShare c)
    ∗ (∃ c o, WF A (F := F) d L A.s7 b2W ⟨4, by decide⟩ 2 o c ∗ restOf d L b2W (b2W).view.set fullShare c)
    ∗ (∃ c o, WF A (F := F) d L A.s8 b3W ⟨4, by decide⟩ 3 o c ∗ restOf d L b3W (b3W).view.set fullShare c)
    ∗ (∃ c o, WF A (F := F) d L A.s9 b4W ⟨4, by decide⟩ 4 o c ∗ restOf d L b4W (b4W).view.set fullShare c)
    ∗ ((ivW).view.loc (thr d L) ↦{fullShare} ivC A d L I fiv)
    ∗ tripDone A (F := F) d L ⟨0, by decide⟩ ∗ tripDone A (F := F) d L ⟨1, by decide⟩ ∗ tripDone A (F := F) d L ⟨2, by decide⟩
    ∗ tripDone A (F := F) d L ⟨3, by decide⟩)

variable [FloatOps F]

/-- What a trip boundary holds, by the number of trips done. -/
def invB (d : Dev nD) (L : grid0.Coords) (q : PosShare TreeShare) (Tb : Buf (Elt F) (tblLoc d)) (I : Buf (Elt F) (idxLoc A d L))
    (fiv : Buf (Elt F) ((ivW).view.loc (thr d L))) (fo : Buf (Elt F) (outLoc A d L)) : ℕ → sProp 𝕄
  | 0 => Bnd A d L q Tb I fiv ![0, 0] (by decide) ![1, 0] (by decide) ![2, 0] (by decide) (Tail0 A d L fo)
  | 1 => Bnd A d L q Tb I fiv ![5, 0] (by decide) ![6, 0] (by decide) ![7, 0] (by decide) (Tail1 A d L fo)
  | 2 => Bnd A d L q Tb I fiv ![10, 0] (by decide) ![11, 0] (by decide) ![12, 0] (by decide) (Tail2 A d L fo)
  | 3 => Bnd A d L q Tb I fiv ![15, 0] (by decide) ![16, 0] (by decide) ![17, 0] (by decide) (Tail3 A d L fo)
  | 4 => Bnd A d L q Tb I fiv ![20, 0] (by decide) ![21, 0] (by decide) ![22, 0] (by decide) (Tail4 A d L fo)
  | 5 => B5 A d L q Tb I fiv
  | _ + 6 => iprop(False)

/-- The loop's invariant: the waits admissible, what the task owes (its waits recorded), and the boundary's transfers in flight. -/
def inv (d : Dev nD) (L : grid0.Coords) (q : PosShare TreeShare) (Tb : Buf (Elt F) (tblLoc d)) (I : Buf (Elt F) (idxLoc A d L))
    (fiv : Buf (Elt F) ((ivW).view.loc (thr d L))) (fo : Buf (Elt F) (outLoc A d L))
    (O : CellTallies nD τ sig (HIx 4)) (W : Waits sig (HIx 4)) (k : ℕ) (_ : Unit) : sProp 𝕄 :=
  iprop(Transfers.MayWaits (thr d L) (none : HIx 4) O
    ∗ (∃ W', ⌜∀ p ∈ W', p ∈ W ∨ p.2 = none⌝ ∗ owes (thr d L) O W')
    ∗ invB A d L q Tb I fiv fo k)

set_option maxRecDepth 100000 in
set_option maxHeartbeats 8000000 in
/-- Trip 0 of the ring: from the boundary before it to the boundary after it. -/
theorem trip0 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 0 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 0 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨0, hk⟩ acc)
          (inv A d L q Tb I fiv fo O W 1) := by
  have hc1 : k0_cond1 ⟨0, hk⟩ = 1#1 := by decide +revert
  have hc2 : ¬ k0_cond2 ⟨0, hk⟩ = 1#1 := by decide +revert
  have hc3 : k0_cond3 ⟨0, hk⟩ = 1#1 := by decide +revert
  have hc4 : ¬ k0_cond4 ⟨0, hk⟩ = 1#1 := by decide +revert
  have hc5 : k0_cond5 ⟨0, hk⟩ = 1#1 := by decide +revert
  have hc6 : k0_cond6 ⟨0, hk⟩ = 1#1 := by decide +revert
  have hc7 : k0_cond7 ⟨0, hk⟩ = 1#1 := by decide +revert
  have hc8 : k0_cond8 ⟨0, hk⟩ = 1#1 := by decide +revert
  have hc9 : k0_cond9 ⟨0, hk⟩ = 1#1 := by decide +revert
  have hc10 : k0_cond10 ⟨0, hk⟩ = 1#1 := by decide +revert
  unfold inv invB Bnd Tail0 Tail1 TailW
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨%f3, Hb3⟩, ⟨%f4, Hb4⟩, Hw3, Hw4, ⟨Ho0, Ho1, Ho2, Ho3, Ho4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 1 of the ring: from the boundary before it to the boundary after it. -/
theorem trip1 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 1 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 1 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨1, hk⟩ acc)
          (inv A d L q Tb I fiv fo O W 2) := by
  have hc1 : k0_cond1 ⟨1, hk⟩ = 1#1 := by decide +revert
  have hc2 : k0_cond2 ⟨1, hk⟩ = 1#1 := by decide +revert
  have hc3 : k0_cond3 ⟨1, hk⟩ = 1#1 := by decide +revert
  have hc4 : k0_cond4 ⟨1, hk⟩ = 1#1 := by decide +revert
  have hc5 : k0_cond5 ⟨1, hk⟩ = 1#1 := by decide +revert
  have hc6 : k0_cond6 ⟨1, hk⟩ = 1#1 := by decide +revert
  have hc7 : k0_cond7 ⟨1, hk⟩ = 1#1 := by decide +revert
  have hc8 : k0_cond8 ⟨1, hk⟩ = 1#1 := by decide +revert
  have hc9 : k0_cond9 ⟨1, hk⟩ = 1#1 := by decide +revert
  have hc10 : k0_cond10 ⟨1, hk⟩ = 1#1 := by decide +revert
  unfold inv invB Bnd Tail1 TailW Tail2
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩, ⟨Ho0, Ho1, Ho2, Ho3, Ho4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 2 of the ring: from the boundary before it to the boundary after it. -/
theorem trip2 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 2 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 2 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨2, hk⟩ acc)
          (inv A d L q Tb I fiv fo O W 3) := by
  have hc1 : k0_cond1 ⟨2, hk⟩ = 1#1 := by decide +revert
  have hc2 : k0_cond2 ⟨2, hk⟩ = 1#1 := by decide +revert
  have hc3 : k0_cond3 ⟨2, hk⟩ = 1#1 := by decide +revert
  have hc4 : k0_cond4 ⟨2, hk⟩ = 1#1 := by decide +revert
  have hc5 : k0_cond5 ⟨2, hk⟩ = 1#1 := by decide +revert
  have hc6 : k0_cond6 ⟨2, hk⟩ = 1#1 := by decide +revert
  have hc7 : k0_cond7 ⟨2, hk⟩ = 1#1 := by decide +revert
  have hc8 : k0_cond8 ⟨2, hk⟩ = 1#1 := by decide +revert
  have hc9 : k0_cond9 ⟨2, hk⟩ = 1#1 := by decide +revert
  have hc10 : k0_cond10 ⟨2, hk⟩ = 1#1 := by decide +revert
  unfold inv invB Bnd Tail2 TailW Tail3
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩, ⟨Ho0, Ho1, Ho2, Ho3, Ho4⟩, ⟨Hn3_0, Hn3_1, Hn3_2, Hn3_3, Hn3_4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 3 of the ring: from the boundary before it to the boundary after it. -/
theorem trip3 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 3 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 3 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨3, hk⟩ acc)
          (inv A d L q Tb I fiv fo O W 4) := by
  have hc1 : k0_cond1 ⟨3, hk⟩ = 1#1 := by decide +revert
  have hc2 : k0_cond2 ⟨3, hk⟩ = 1#1 := by decide +revert
  have hc3 : k0_cond3 ⟨3, hk⟩ = 1#1 := by decide +revert
  have hc4 : k0_cond4 ⟨3, hk⟩ = 1#1 := by decide +revert
  have hc5 : k0_cond5 ⟨3, hk⟩ = 1#1 := by decide +revert
  have hc6 : k0_cond6 ⟨3, hk⟩ = 1#1 := by decide +revert
  have hc7 : k0_cond7 ⟨3, hk⟩ = 1#1 := by decide +revert
  have hc8 : k0_cond8 ⟨3, hk⟩ = 1#1 := by decide +revert
  have hc9 : k0_cond9 ⟨3, hk⟩ = 1#1 := by decide +revert
  have hc10 : k0_cond10 ⟨3, hk⟩ = 1#1 := by decide +revert
  unfold inv invB Bnd Tail3 TailW Tail4
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩,
    ⟨⟨%fd1_0, Hdn1_0⟩, ⟨%fd1_1, Hdn1_1⟩, ⟨%fd1_2, Hdn1_2⟩, ⟨%fd1_3, Hdn1_3⟩, ⟨%fd1_4, Hdn1_4⟩⟩, ⟨Ho0, Ho1, Ho2, Ho3, Ho4⟩, ⟨Hn4_0, Hn4_1, Hn4_2, Hn4_3, Hn4_4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

set_option maxRecDepth 100000 in
set_option maxHeartbeats 8000000 in
/-- Trip 4 of the ring: from the boundary before it to the boundary after it. -/
theorem trip4 (d : Dev nD) (L : grid0.Coords) (q : PosShare TreeShare) (Tb : Buf (Elt F) (tblLoc d)) (I : Buf (Elt F) (idxLoc A d L))
    (O : CellTallies nD τ sig (HIx 4)) (W : Waits sig (HIx 4))
    (fiv : Buf (Elt F) ((ivW).view.loc (thr d L))) (fo : Buf (Elt F) (outLoc A d L)) (v2 : BitVec 32) (hk : 4 < k0_t1_loop.trips) (acc : Unit)
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) :
    inv A d L q Tb I fiv fo O W 4 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨4, hk⟩ acc)
          (inv A d L q Tb I fiv fo O W 5) := by
  have hc1 : k0_cond1 ⟨4, hk⟩ = 1#1 := by decide +revert
  have hc2 : k0_cond2 ⟨4, hk⟩ = 1#1 := by decide +revert
  have hc3 : k0_cond3 ⟨4, hk⟩ = 1#1 := by decide +revert
  have hc4 : k0_cond4 ⟨4, hk⟩ = 1#1 := by decide +revert
  have hc5 : ¬ k0_cond5 ⟨4, hk⟩ = 1#1 := by decide +revert
  have hc6 : k0_cond6 ⟨4, hk⟩ = 1#1 := by decide +revert
  have hc7 : ¬ k0_cond7 ⟨4, hk⟩ = 1#1 := by decide +revert
  have hc8 : k0_cond8 ⟨4, hk⟩ = 1#1 := by decide +revert
  have hc9 : ¬ k0_cond9 ⟨4, hk⟩ = 1#1 := by decide +revert
  have hc10 : k0_cond10 ⟨4, hk⟩ = 1#1 := by decide +revert
  unfold inv invB Bnd Tail4 TailW B5
  iintro ⟨#Hmw, ⟨%W', %hW', HO⟩, %g0, %g1, %g2, Hg0, Hg1, Hg2, Ht0, Ht1, Ht2, Ht3, Ht4, Hb0, Hb1, Hb2, Hiv, Hs3, Hs4, Hw0, Hw1, Hw2,
    ⟨⟨%c3, %o3, Hw3, Hb3⟩, ⟨%c4, %o4, Hw4, Hb4⟩, ⟨%fa, Hd0⟩, ⟨%fb, Hd1⟩, ⟨%fc, Hd2⟩⟩,
    ⟨⟨%fd0_0, Hdn0_0⟩, ⟨%fd0_1, Hdn0_1⟩, ⟨%fd0_2, Hdn0_2⟩, ⟨%fd0_3, Hdn0_3⟩, ⟨%fd0_4, Hdn0_4⟩⟩,
    ⟨⟨%fd1_0, Hdn1_0⟩, ⟨%fd1_1, Hdn1_1⟩, ⟨%fd1_2, Hdn1_2⟩, ⟨%fd1_3, Hdn1_3⟩, ⟨%fd1_4, Hdn1_4⟩⟩,
    ⟨⟨%fd2_0, Hdn2_0⟩, ⟨%fd2_1, Hdn2_1⟩, ⟨%fd2_2, Hdn2_2⟩, ⟨%fd2_3, Hdn2_3⟩, ⟨%fd2_4, Hdn2_4⟩⟩, ⟨Ho0, Ho1, Ho2, Ho3, Ho4⟩⟩
  sl_unfold [k0_t1_body]
  sl_exec
  sl_step
  isplitr; · iexact Hmw
  isplitl [HO]
  · iexists _; isplitr
    rotate_left
    · iexact HO
    · ipureintro; repeat (first | exact hW' | apply waits_ins)
  sl_close

end Cert.Proof.KB.TileCore
end
-- ==== Proof.BTileCoreValBase.lean ====
/-
  The row gather's task on one vector subcore, for any call: the five trips of its ring with the values they move, over the
  call's arguments as variables. What a gather lands in a slot is the table's rows its list of the index scratch names; a
  chunk written out of a slot holds the target contents `G` of the output — a variable here, with the fact that a chunk
  written whole with what its own row of ids gathered holds `G` as a hypothesis: both are the per-call wrapper's to supply,
  being statements over the specific arrays. The id-range fact enters as a hypothesis at the memref level.
-/
import proofs.«203556_g1357209665813_cont_week2b_798_48_alg».proof.Proof.BTileCoreBase
import Idealize.ShloMosaic.Lib.ValueIdx

noncomputable section

namespace Cert.Proof.KB.TileCore

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (A : Args)

local notation "𝕄" => MT nD τ sig (HIx 4) (Elt F) ℕ UU ℕ
local notation "tblW" => (Memref.whole Cert.Kernel.main_arg2_scv : Memref Cert.Kernel.sig Kind.scVector Space.hbm Cert.Kernel.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

variable [FloatOps F]

/-! ## The contents the ring moves -/

/-- What the gather whose list is the row of the index scratch at off lands in a slot: row j is the table's row the list's word j names. -/
def gp (d : Dev nD) (L : grid0.Coords) (Tb : Buf (Elt F) (tblLoc d)) (I : Buf (Elt F) (idxLoc A d L)) (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow A off h).view.read (Elt F) (ivC A d L I fiv)) rfl (fun x => hin fiv off h x))

theorem hz2' : (![0, 0] : Fin 2 → ℕ) = fun _ => 0 := funext fun a => by fin_cases a <;> rfl

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- "The buffer holding `P`": `P` written whole over any contents — a term of the buffer's own contents type whatever the
    memref; for a whole memref the base does not matter (`writes_whole_eq`). -/
abbrev castP {sp : Space} {s : Shape} {e : EltTy} (m : Memref sig .scVector sp s e) (d : Dev nD) (L : grid0.Coords) (P : s.Idx → Elt F e) :
    Buf (Elt F) (m.view.loc (thr d L)) :=
  m.view.writes (Elt F) default [⟨Rect.whole s, P⟩]

/-- A whole buffer whose latest write is whole holds what that write wrote, whatever came before. -/
theorem writes_whole_eq {sp : Space} {s : Shape} {e : EltTy} (m : Memref sig .scVector sp s e) (hm : m.IsWhole) (d : Dev nD) (L : grid0.Coords)
    (g : Buf (Elt F) (m.view.loc (thr d L))) (P : s.Idx → Elt F e) (rest : List (View.Piece (Elt F) s e)) :
    m.view.writes (Elt F) g (⟨Rect.whole s, P⟩ :: rest) = castP m d L P := by
  obtain ⟨b, hsp, hs, he, h⟩ := hm
  subst hsp hs he
  obtain rfl := eq_of_heq h
  have key : ∀ (g' : Buf (Elt F) ((Memref.whole b).view.loc (thr d L))) (R : List (View.Piece (Elt F) _ _)),
      (Memref.whole b).view.writes (Elt F) g' (⟨Rect.whole _, P⟩ :: R) = P := fun g' R => by
    rw [← View.write_univ_eq_writes_whole _ _ R P]
    exact View.write_whole_univ _ _ _
  exact (key g rest).trans (key default []).symm

theorem slot0_landed (d : Dev nD) (L : grid0.Coords) (g : Buf (Elt F) ((b0W).view.loc (thr d L))) (P : S64x128.Idx → Elt F .f32)
    (rest : List (View.Piece (Elt F) S64x128 .f32)) :
    (b0W).view.writes (Elt F) g (⟨Rect.whole S64x128, P⟩ :: rest) = castP b0W d L P := writes_whole_eq (b0W) A.hb0W d L g P rest

theorem slot0_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b0W).view.loc (thr d L))) (P : S64x128.Idx → Elt F .f32) (rest : List (View.Piece (Elt F) S64x128 .f32))
    (hP : P = gp A d L Tb I hin G fiv off h) :
    (b0W).view.writes (Elt F) g (⟨Rect.whole S64x128, P⟩ :: rest) = castP b0W d L (gp A d L Tb I hin G fiv off h) := by
  subst hP; exact slot0_landed A d L g _ rest

theorem slot1_landed (d : Dev nD) (L : grid0.Coords) (g : Buf (Elt F) ((b1W).view.loc (thr d L))) (P : S64x128.Idx → Elt F .f32)
    (rest : List (View.Piece (Elt F) S64x128 .f32)) :
    (b1W).view.writes (Elt F) g (⟨Rect.whole S64x128, P⟩ :: rest) = castP b1W d L P := writes_whole_eq (b1W) A.hb1W d L g P rest

theorem slot1_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b1W).view.loc (thr d L))) (P : S64x128.Idx → Elt F .f32) (rest : List (View.Piece (Elt F) S64x128 .f32))
    (hP : P = gp A d L Tb I hin G fiv off h) :
    (b1W).view.writes (Elt F) g (⟨Rect.whole S64x128, P⟩ :: rest) = castP b1W d L (gp A d L Tb I hin G fiv off h) := by
  subst hP; exact slot1_landed A d L g _ rest

theorem slot2_landed (d : Dev nD) (L : grid0.Coords) (g : Buf (Elt F) ((b2W).view.loc (thr d L))) (P : S64x128.Idx → Elt F .f32)
    (rest : List (View.Piece (Elt F) S64x128 .f32)) :
    (b2W).view.writes (Elt F) g (⟨Rect.whole S64x128, P⟩ :: rest) = castP b2W d L P := writes_whole_eq (b2W) A.hb2W d L g P rest

theorem slot2_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b2W).view.loc (thr d L))) (P : S64x128.Idx → Elt F .f32) (rest : List (View.Piece (Elt F) S64x128 .f32))
    (hP : P = gp A d L Tb I hin G fiv off h) :
    (b2W).view.writes (Elt F) g (⟨Rect.whole S64x128, P⟩ :: rest) = castP b2W d L (gp A d L Tb I hin G fiv off h) := by
  subst hP; exact slot2_landed A d L g _ rest

theorem slot3_landed (d : Dev nD) (L : grid0.Coords) (g : Buf (Elt F) ((b3W).view.loc (thr d L))) (P : S64x128.Idx → Elt F .f32)
    (rest : List (View.Piece (Elt F) S64x128 .f32)) :
    (b3W).view.writes (Elt F) g (⟨Rect.whole S64x128, P⟩ :: rest) = castP b3W d L P := writes_whole_eq (b3W) A.hb3W d L g P rest

theorem slot3_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b3W).view.loc (thr d L))) (P : S64x128.Idx → Elt F .f32) (rest : List (View.Piece (Elt F) S64x128 .f32))
    (hP : P = gp A d L Tb I hin G fiv off h) :
    (b3W).view.writes (Elt F) g (⟨Rect.whole S64x128, P⟩ :: rest) = castP b3W d L (gp A d L Tb I hin G fiv off h) := by
  subst hP; exact slot3_landed A d L g _ rest

theorem slot4_landed (d : Dev nD) (L : grid0.Coords) (g : Buf (Elt F) ((b4W).view.loc (thr d L))) (P : S64x128.Idx → Elt F .f32)
    (rest : List (View.Piece (Elt F) S64x128 .f32)) :
    (b4W).view.writes (Elt F) g (⟨Rect.whole S64x128, P⟩ :: rest) = castP b4W d L P := writes_whole_eq (b4W) A.hb4W d L g P rest

theorem slot4_gp (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (fiv : Buf (Elt F) ((ivW).view.loc (thr d L))) (off : Fin 2 → ℕ) (h : ∀ a, off a + S1x64.size a ≤ S25x64.size a)
    (g : Buf (Elt F) ((b4W).view.loc (thr d L))) (P : S64x128.Idx → Elt F .f32) (rest : List (View.Piece (Elt F) S64x128 .f32))
    (hP : P = gp A d L Tb I hin G fiv off h) :
    (b4W).view.writes (Elt F) g (⟨Rect.whole S64x128, P⟩ :: rest) = castP b4W d L (gp A d L Tb I hin G fiv off h) := by
  subst hP; exact slot4_landed A d L g _ rest

/-- What every trip boundary before the last holds: the three gathers in flight (list rows o0, o1, o2 into slots 0, 1, 2, each
    landing the table's rows its list names), the other two read tokens, the other two gather semaphores and the first three write
    semaphores at zero; and a tail. -/
def BndV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) (Tail : sProp 𝕄) : sProp 𝕄 :=
  iprop(GF A d L q Tb (ivC A d L I fiv) A.s0 b0W o0 p0 (castP b0W d L (gp A d L Tb I hin G fiv o0 p0))
    ∗ GF A d L q Tb (ivC A d L I fiv) A.s1 b1W o1 p1 (castP b1W d L (gp A d L Tb I hin G fiv o1 p1))
    ∗ GF A d L q Tb (ivC A d L I fiv) A.s2 b2W o2 p2 (castP b2W d L (gp A d L Tb I hin G fiv o2 p2))
    ∗ restOf d L tblW (tblS).view.set (tq q A.s0) Tb ∗ restOf d L tblW (tblS).view.set (tq q A.s1) Tb
    ∗ restOf d L tblW (tblS).view.set (tq q A.s2) Tb
    ∗ tok d L q Tb A.s3 ∗ tok d L q Tb A.s4
    ∗ restOf d L b0W (b0W).view.set fullShare (castP b0W d L (gp A d L Tb I hin G fiv o0 p0)) ∗ restOf d L b1W (b1W).view.set fullShare (castP b1W d L (gp A d L Tb I hin G fiv o1 p1))
    ∗ restOf d L b2W (b2W).view.set fullShare (castP b2W d L (gp A d L Tb I hin G fiv o2 p2))
    ∗ ivRest A d L I fiv o0 p0 o1 p1 o2 p2
    ∗ semVal (cellOf d L A.s3) 0 ∗ semVal (cellOf d L A.s4) 0
    ∗ semVal (cellOf d L A.s5) 0 ∗ semVal (cellOf d L A.s6) 0 ∗ semVal (cellOf d L A.s7) 0
    ∗ Tail)

/-- The tail before the first trip: slots 3 and 4 idle, nothing written. -/
def TailV0 (d : Dev nD) (L : grid0.Coords) (fo : Buf (Elt F) (outLoc A d L)) : sProp 𝕄 :=
  iprop((∃ f, (b3W).view.loc (thr d L) ↦{fullShare} f) ∗ (∃ f, (b4W).view.loc (thr d L) ↦{fullShare} f)
    ∗ semVal (cellOf d L A.s8) 0 ∗ semVal (cellOf d L A.s9) 0
    ∗ tripTodo A d L fo ⟨0, by decide⟩ ∗ tripTodo A d L fo ⟨1, by decide⟩ ∗ tripTodo A d L fo ⟨2, by decide⟩ ∗ tripTodo A d L fo ⟨3, by decide⟩
    ∗ tripTodo A d L fo ⟨4, by decide⟩)

/-- The tail before trip 1: trip 0's last two chunks being written out of slots 3 and 4, its first three and every earlier
    trip's five back holding the gathered rows, the later trips' not yet written. -/
def TailV1 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨0, by decide⟩ 3 G (castP b3W d L (gp A d L Tb I hin G fiv ![3, 0] (by decide))) ∗ restOf d L b3W (b3W).view.set fullShare (castP b3W d L (gp A d L Tb I hin G fiv ![3, 0] (by decide)))
    ∗ WF A d L A.s9 b4W ⟨0, by decide⟩ 4 G (castP b4W d L (gp A d L Tb I hin G fiv ![4, 0] (by decide))) ∗ restOf d L b4W (b4W).view.set fullShare (castP b4W d L (gp A d L Tb I hin G fiv ![4, 0] (by decide)))
    ∗ chunkAt A d L ⟨0, by decide⟩ 0 G ∗ chunkAt A d L ⟨0, by decide⟩ 1 G ∗ chunkAt A d L ⟨0, by decide⟩ 2 G
    ∗ tripTodo A d L fo ⟨1, by decide⟩
    ∗ tripTodo A d L fo ⟨2, by decide⟩
    ∗ tripTodo A d L fo ⟨3, by decide⟩
    ∗ tripTodo A d L fo ⟨4, by decide⟩)

/-- The tail before trip 2: trip 1's last two chunks being written out of slots 3 and 4, its first three and every earlier
    trip's five back holding the gathered rows, the later trips' not yet written. -/
def TailV2 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨1, by decide⟩ 3 G (castP b3W d L (gp A d L Tb I hin G fiv ![8, 0] (by decide))) ∗ restOf d L b3W (b3W).view.set fullShare (castP b3W d L (gp A d L Tb I hin G fiv ![8, 0] (by decide)))
    ∗ WF A d L A.s9 b4W ⟨1, by decide⟩ 4 G (castP b4W d L (gp A d L Tb I hin G fiv ![9, 0] (by decide))) ∗ restOf d L b4W (b4W).view.set fullShare (castP b4W d L (gp A d L Tb I hin G fiv ![9, 0] (by decide)))
    ∗ chunkAt A d L ⟨1, by decide⟩ 0 G ∗ chunkAt A d L ⟨1, by decide⟩ 1 G ∗ chunkAt A d L ⟨1, by decide⟩ 2 G
    ∗ tripTodo A d L G ⟨0, by decide⟩
    ∗ tripTodo A d L fo ⟨2, by decide⟩
    ∗ tripTodo A d L fo ⟨3, by decide⟩
    ∗ tripTodo A d L fo ⟨4, by decide⟩)

/-- The tail before trip 3: trip 2's last two chunks being written out of slots 3 and 4, its first three and every earlier
    trip's five back holding the gathered rows, the later trips' not yet written. -/
def TailV3 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨2, by decide⟩ 3 G (castP b3W d L (gp A d L Tb I hin G fiv ![13, 0] (by decide))) ∗ restOf d L b3W (b3W).view.set fullShare (castP b3W d L (gp A d L Tb I hin G fiv ![13, 0] (by decide)))
    ∗ WF A d L A.s9 b4W ⟨2, by decide⟩ 4 G (castP b4W d L (gp A d L Tb I hin G fiv ![14, 0] (by decide))) ∗ restOf d L b4W (b4W).view.set fullShare (castP b4W d L (gp A d L Tb I hin G fiv ![14, 0] (by decide)))
    ∗ chunkAt A d L ⟨2, by decide⟩ 0 G ∗ chunkAt A d L ⟨2, by decide⟩ 1 G ∗ chunkAt A d L ⟨2, by decide⟩ 2 G
    ∗ tripTodo A d L G ⟨0, by decide⟩
    ∗ tripTodo A d L G ⟨1, by decide⟩
    ∗ tripTodo A d L fo ⟨3, by decide⟩
    ∗ tripTodo A d L fo ⟨4, by decide⟩)

/-- The tail before trip 4: trip 3's last two chunks being written out of slots 3 and 4, its first three and every earlier
    trip's five back holding the gathered rows, the later trips' not yet written. -/
def TailV4 (d : Dev nD) (L : grid0.Coords) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : sProp 𝕄 :=
  iprop(WF A d L A.s8 b3W ⟨3, by decide⟩ 3 G (castP b3W d L (gp A d L Tb I hin G fiv ![18, 0] (by decide))) ∗ restOf d L b3W (b3W).view.set fullShare (castP b3W d L (gp A d L Tb I hin G fiv ![18, 0] (by decide)))
    ∗ WF A d L A.s9 b4W ⟨3, by decide⟩ 4 G (castP b4W d L (gp A d L Tb I hin G fiv ![19, 0] (by decide))) ∗ restOf d L b4W (b4W).view.set fullShare (castP b4W d L (gp A d L Tb I hin G fiv ![19, 0] (by decide)))
    ∗ chunkAt A d L ⟨3, by decide⟩ 0 G ∗ chunkAt A d L ⟨3, by decide⟩ 1 G ∗ chunkAt A d L ⟨3, by decide⟩ 2 G
    ∗ tripTodo A d L G ⟨0, by decide⟩
    ∗ tripTodo A d L G ⟨1, by decide⟩
    ∗ tripTodo A d L G ⟨2, by decide⟩
    ∗ tripTodo A d L fo ⟨4, by decide⟩)

/-- After the last trip: no gather in flight; the last trip's five chunks being written out of the five slots. -/
def B5V (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) : sProp 𝕄 :=
  iprop(tok d L q Tb A.s0 ∗ tok d L q Tb A.s1 ∗ tok d L q Tb A.s2 ∗ tok d L q Tb A.s3 ∗ tok d L q Tb A.s4
    ∗ semVal (cellOf d L A.s0) 0 ∗ semVal (cellOf d L A.s1) 0 ∗ semVal (cellOf d L A.s2) 0
    ∗ semVal (cellOf d L A.s3) 0 ∗ semVal (cellOf d L A.s4) 0
    ∗ WF A d L A.s5 b0W ⟨4, by decide⟩ 0 G (castP b0W d L (gp A d L Tb I hin G fiv ![20, 0] (by decide))) ∗ restOf d L b0W (b0W).view.set fullShare (castP b0W d L (gp A d L Tb I hin G fiv ![20, 0] (by decide)))
    ∗ WF A d L A.s6 b1W ⟨4, by decide⟩ 1 G (castP b1W d L (gp A d L Tb I hin G fiv ![21, 0] (by decide))) ∗ restOf d L b1W (b1W).view.set fullShare (castP b1W d L (gp A d L Tb I hin G fiv ![21, 0] (by decide)))
    ∗ WF A d L A.s7 b2W ⟨4, by decide⟩ 2 G (castP b2W d L (gp A d L Tb I hin G fiv ![22, 0] (by decide))) ∗ restOf d L b2W (b2W).view.set fullShare (castP b2W d L (gp A d L Tb I hin G fiv ![22, 0] (by decide)))
    ∗ WF A d L A.s8 b3W ⟨4, by decide⟩ 3 G (castP b3W d L (gp A d L Tb I hin G fiv ![23, 0] (by decide))) ∗ restOf d L b3W (b3W).view.set fullShare (castP b3W d L (gp A d L Tb I hin G fiv ![23, 0] (by decide)))
    ∗ WF A d L A.s9 b4W ⟨4, by decide⟩ 4 G (castP b4W d L (gp A d L Tb I hin G fiv ![24, 0] (by decide))) ∗ restOf d L b4W (b4W).view.set fullShare (castP b4W d L (gp A d L Tb I hin G fiv ![24, 0] (by decide)))
    ∗ ((ivW).view.loc (thr d L) ↦{fullShare} ivC A d L I fiv)
    ∗ tripTodo A d L G ⟨0, by decide⟩ ∗ tripTodo A d L G ⟨1, by decide⟩ ∗ tripTodo A d L G ⟨2, by decide⟩
    ∗ tripTodo A d L G ⟨3, by decide⟩)

/-- What a trip boundary holds, by the number of trips done. -/
def invBV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L)) : ℕ → sProp 𝕄
  | 0 => BndV A d L q Tb I hin G fiv ![0, 0] (by decide) ![1, 0] (by decide) ![2, 0] (by decide) (TailV0 A d L fo)
  | 1 => BndV A d L q Tb I hin G fiv ![5, 0] (by decide) ![6, 0] (by decide) ![7, 0] (by decide) (TailV1 A d L Tb I hin G fiv fo)
  | 2 => BndV A d L q Tb I hin G fiv ![10, 0] (by decide) ![11, 0] (by decide) ![12, 0] (by decide) (TailV2 A d L Tb I hin G fiv fo)
  | 3 => BndV A d L q Tb I hin G fiv ![15, 0] (by decide) ![16, 0] (by decide) ![17, 0] (by decide) (TailV3 A d L Tb I hin G fiv fo)
  | 4 => BndV A d L q Tb I hin G fiv ![20, 0] (by decide) ![21, 0] (by decide) ![22, 0] (by decide) (TailV4 A d L Tb I hin G fiv fo)
  | 5 => B5V A d L q Tb I hin G fiv
  | _ + 6 => iprop(False)

/-- The loop's invariant: the waits admissible, what the task owes (its waits recorded), and the boundary's transfers in flight. -/
def invV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (fiv : Buf (Elt F) ((ivW).view.loc (thr d L))) (fo : Buf (Elt F) (outLoc A d L))
    (O : CellTallies nD τ sig (HIx 4)) (W : Waits sig (HIx 4)) (k : ℕ) (_ : Unit) : sProp 𝕄 :=
  iprop(Transfers.MayWaits (thr d L) (none : HIx 4) O
    ∗ (∃ W', ⌜∀ p ∈ W', p ∈ W ∨ p.2 = none⌝ ∗ owes (thr d L) O W')
    ∗ invBV A d L q Tb I hin G fiv fo k)

set_option maxRecDepth 100000 in
set_option maxHeartbeats 0 in
/-- Trip 0 of the ring: from the boundary before it to the boundary after it, each chunk it writes out holding the gathered rows. -/
theorem tripV0 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 0 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 0 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨0, hk⟩ acc)
          (invV A d L q Tb I hin G fiv fo O W 1) := by
  have hc1 : k0_cond1 ⟨0, hk⟩ = 1#1 := by decide +revert
  have hc2 : ¬ k0_cond2 ⟨0, hk⟩ = 1#1 := by decide +revert
  have hc3 : k0_cond3 ⟨0, hk⟩ = 1#1 := by decide +revert
  have hc4 : ¬ k0_cond4 ⟨0, hk⟩ = 1#1 := by decide +revert
  have hc5 : k0_cond5 ⟨0, hk⟩ = 1#1 := by decide +revert
  have hc6 : k0_cond6 ⟨0, hk⟩ = 1#1 := by decide +revert
  have hc7 : k0_cond7 ⟨0, hk⟩ = 1#1 := by decide +revert
  have hc8 : k0_cond8 ⟨0, hk⟩ = 1#1 := by decide +revert
  have hc9 : k0_cond9 ⟨0, hk⟩ = 1#1 := by decide +revert
  have hc10 : k0_cond10 ⟨0, hk⟩ = 1#1 := by decide +revert
  unfold invV invBV BndV TailV0 TailV1
  iintro ⟨#Hmw, ⟨%W', %hW', HO⟩, Hg0, Hg1, Hg2, Ht0, Ht1, Ht2, Ht3, Ht4, Hb0, Hb1, Hb2, Hiv, Hs3, Hs4, Hw0, Hw1, Hw2,
    ⟨%f3, Hb3⟩, ⟨%f4, Hb4⟩, Hw3, Hw4, ⟨Ho0, Ho1, Ho2, Ho3, Ho4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨0, hk⟩ 0 ![0, 0] (by decide) (by show 5 * 0 + 0 < 25; decide) rfl rfl fo _ ?hq0)) $$ Ho0
  case hq0 => first | exact fun x => rfl | exact fun x => congrFun (View.read_writes_whole _ _ _) x
  ihave Ho1' := (Entails.of_eq (hG ⟨0, hk⟩ 1 ![1, 0] (by decide) (by show 5 * 0 + 1 < 25; decide) rfl rfl fo _ ?hq1)) $$ Ho1
  case hq1 => first | exact fun x => rfl | exact fun x => congrFun (View.read_writes_whole _ _ _) x
  ihave Ho2' := (Entails.of_eq (hG ⟨0, hk⟩ 2 ![2, 0] (by decide) (by show 5 * 0 + 2 < 25; decide) rfl rfl fo _ ?hq2)) $$ Ho2
  case hq2 => first | exact fun x => rfl | exact fun x => congrFun (View.read_writes_whole _ _ _) x
  rw [hG ⟨0, hk⟩ 3 ![3, 0] (by decide) (by show 5 * 0 + 3 < 25; decide) rfl rfl fo (hP := ?hp3)]
  case hp3 => first | exact fun x => rfl | exact fun x => congrFun (View.read_writes_whole _ _ _) x
  rw [hG ⟨0, hk⟩ 4 ![4, 0] (by decide) (by show 5 * 0 + 4 < 25; decide) rfl rfl fo (hP := ?hp4)]
  case hp4 => first | exact fun x => rfl | exact fun x => congrFun (View.read_writes_whole _ _ _) x
  rw [slot0_gp A d L Tb I hin G fiv ![5, 0] (by decide) (hP := ?hs0)]
  case hs0 => rfl
  rw [slot1_gp A d L Tb I hin G fiv ![6, 0] (by decide) (hP := ?hs1)]
  case hs1 => rfl
  rw [slot2_gp A d L Tb I hin G fiv ![7, 0] (by decide) (hP := ?hs2)]
  case hs2 => rfl
  rw [slot3_gp A d L Tb I hin G fiv ![3, 0] (by decide) (hP := ?hs3)]
  case hs3 => rfl
  rw [slot4_gp A d L Tb I hin G fiv ![4, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 1 of the ring: from the boundary before it to the boundary after it, each chunk it writes out holding the gathered rows. -/
theorem tripV1 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 1 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 1 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨1, hk⟩ acc)
          (invV A d L q Tb I hin G fiv fo O W 2) := by
  have hc1 : k0_cond1 ⟨1, hk⟩ = 1#1 := by decide +revert
  have hc2 : k0_cond2 ⟨1, hk⟩ = 1#1 := by decide +revert
  have hc3 : k0_cond3 ⟨1, hk⟩ = 1#1 := by decide +revert
  have hc4 : k0_cond4 ⟨1, hk⟩ = 1#1 := by decide +revert
  have hc5 : k0_cond5 ⟨1, hk⟩ = 1#1 := by decide +revert
  have hc6 : k0_cond6 ⟨1, hk⟩ = 1#1 := by decide +revert
  have hc7 : k0_cond7 ⟨1, hk⟩ = 1#1 := by decide +revert
  have hc8 : k0_cond8 ⟨1, hk⟩ = 1#1 := by decide +revert
  have hc9 : k0_cond9 ⟨1, hk⟩ = 1#1 := by decide +revert
  have hc10 : k0_cond10 ⟨1, hk⟩ = 1#1 := by decide +revert
  unfold invV invBV BndV TailV1 TailV2
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2, ⟨Ho0, Ho1, Ho2, Ho3, Ho4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨1, hk⟩ 0 ![5, 0] (by decide) (by show 5 * 1 + 0 < 25; decide) rfl rfl fo _ ?hq0)) $$ Ho0
  case hq0 => first | exact fun x => rfl | exact fun x => congrFun (View.read_writes_whole _ _ _) x
  ihave Ho1' := (Entails.of_eq (hG ⟨1, hk⟩ 1 ![6, 0] (by decide) (by show 5 * 1 + 1 < 25; decide) rfl rfl fo _ ?hq1)) $$ Ho1
  case hq1 => first | exact fun x => rfl | exact fun x => congrFun (View.read_writes_whole _ _ _) x
  ihave Ho2' := (Entails.of_eq (hG ⟨1, hk⟩ 2 ![7, 0] (by decide) (by show 5 * 1 + 2 < 25; decide) rfl rfl fo _ ?hq2)) $$ Ho2
  case hq2 => first | exact fun x => rfl | exact fun x => congrFun (View.read_writes_whole _ _ _) x
  rw [hG ⟨1, hk⟩ 3 ![8, 0] (by decide) (by show 5 * 1 + 3 < 25; decide) rfl rfl fo (hP := ?hp3)]
  case hp3 => first | exact fun x => rfl | exact fun x => congrFun (View.read_writes_whole _ _ _) x
  rw [hG ⟨1, hk⟩ 4 ![9, 0] (by decide) (by show 5 * 1 + 4 < 25; decide) rfl rfl fo (hP := ?hp4)]
  case hp4 => first | exact fun x => rfl | exact fun x => congrFun (View.read_writes_whole _ _ _) x
  rw [slot0_gp A d L Tb I hin G fiv ![10, 0] (by decide) (hP := ?hs0)]
  case hs0 => rfl
  rw [slot1_gp A d L Tb I hin G fiv ![11, 0] (by decide) (hP := ?hs1)]
  case hs1 => rfl
  rw [slot2_gp A d L Tb I hin G fiv ![12, 0] (by decide) (hP := ?hs2)]
  case hs2 => rfl
  rw [slot3_gp A d L Tb I hin G fiv ![8, 0] (by decide) (hP := ?hs3)]
  case hs3 => rfl
  rw [slot4_gp A d L Tb I hin G fiv ![9, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 2 of the ring: from the boundary before it to the boundary after it, each chunk it writes out holding the gathered rows. -/
theorem tripV2 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 2 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 2 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨2, hk⟩ acc)
          (invV A d L q Tb I hin G fiv fo O W 3) := by
  have hc1 : k0_cond1 ⟨2, hk⟩ = 1#1 := by decide +revert
  have hc2 : k0_cond2 ⟨2, hk⟩ = 1#1 := by decide +revert
  have hc3 : k0_cond3 ⟨2, hk⟩ = 1#1 := by decide +revert
  have hc4 : k0_cond4 ⟨2, hk⟩ = 1#1 := by decide +revert
  have hc5 : k0_cond5 ⟨2, hk⟩ = 1#1 := by decide +revert
  have hc6 : k0_cond6 ⟨2, hk⟩ = 1#1 := by decide +revert
  have hc7 : k0_cond7 ⟨2, hk⟩ = 1#1 := by decide +revert
  have hc8 : k0_cond8 ⟨2, hk⟩ = 1#1 := by decide +revert
  have hc9 : k0_cond9 ⟨2, hk⟩ = 1#1 := by decide +revert
  have hc10 : k0_cond10 ⟨2, hk⟩ = 1#1 := by decide +revert
  unfold invV invBV BndV TailV2 TailV3
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩, ⟨Ho0, Ho1, Ho2, Ho3, Ho4⟩, ⟨Hn3_0, Hn3_1, Hn3_2, Hn3_3, Hn3_4⟩, ⟨Hn4_0, Hn4_1, Hn4_2, Hn4_3, Hn4_4⟩⟩
  sl_unfold [k0_t1_body]
  sl_exec
  ihave Ho0' := (Entails.of_eq (hG ⟨2, hk⟩ 0 ![10, 0] (by decide) (by show 5 * 2 + 0 < 25; decide) rfl rfl fo _ ?hq0)) $$ Ho0
  case hq0 => first | exact fun x => rfl | exact fun x => congrFun (View.read_writes_whole _ _ _) x
  ihave Ho1' := (Entails.of_eq (hG ⟨2, hk⟩ 1 ![11, 0] (by decide) (by show 5 * 2 + 1 < 25; decide) rfl rfl fo _ ?hq1)) $$ Ho1
  case hq1 => first | exact fun x => rfl | exact fun x => congrFun (View.read_writes_whole _ _ _) x
  ihave Ho2' := (Entails.of_eq (hG ⟨2, hk⟩ 2 ![12, 0] (by decide) (by show 5 * 2 + 2 < 25; decide) rfl rfl fo _ ?hq2)) $$ Ho2
  case hq2 => first | exact fun x => rfl | exact fun x => congrFun (View.read_writes_whole _ _ _) x
  rw [hG ⟨2, hk⟩ 3 ![13, 0] (by decide) (by show 5 * 2 + 3 < 25; decide) rfl rfl fo (hP := ?hp3)]
  case hp3 => first | exact fun x => rfl | exact fun x => congrFun (View.read_writes_whole _ _ _) x
  rw [hG ⟨2, hk⟩ 4 ![14, 0] (by decide) (by show 5 * 2 + 4 < 25; decide) rfl rfl fo (hP := ?hp4)]
  case hp4 => first | exact fun x => rfl | exact fun x => congrFun (View.read_writes_whole _ _ _) x
  rw [slot0_gp A d L Tb I hin G fiv ![15, 0] (by decide) (hP := ?hs0)]
  case hs0 => rfl
  rw [slot1_gp A d L Tb I hin G fiv ![16, 0] (by decide) (hP := ?hs1)]
  case hs1 => rfl
  rw [slot2_gp A d L Tb I hin G fiv ![17, 0] (by decide) (hP := ?hs2)]
  case hs2 => rfl
  rw [slot3_gp A d L Tb I hin G fiv ![13, 0] (by decide) (hP := ?hs3)]
  case hs3 => rfl
  rw [slot4_gp A d L Tb I hin G fiv ![14, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 3 of the ring: from the boundary before it to the boundary after it, each chunk it writes out holding the gathered rows. -/
theorem tripV3 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 3 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 3 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨3, hk⟩ acc)
          (invV A d L q Tb I hin G fiv fo O W 4) := by
  have hc1 : k0_cond1 ⟨3, hk⟩ = 1#1 := by decide +revert
  have hc2 : k0_cond2 ⟨3, hk⟩ = 1#1 := by decide +revert
  have hc3 : k0_cond3 ⟨3, hk⟩ = 1#1 := by decide +revert
  have hc4 : k0_cond4 ⟨3, hk⟩ = 1#1 := by decide +revert
  have hc5 : k0_cond5 ⟨3, hk⟩ = 1#1 := by decide +revert
  have hc6 : k0_cond6 ⟨3, hk⟩ = 1#1 := by decide +revert
  have hc7 : k0_cond7 ⟨3, hk⟩ = 1#1 := by decide +revert
  have hc8 : k0_cond8 ⟨3, hk⟩ = 1#1 := by decide +revert
  have hc9 : k0_cond9 ⟨3, hk⟩ = 1#1 := by decide +revert
  have hc10 : k0_cond10 ⟨3, hk⟩ = 1#1 := by decide +revert
  unfold invV invBV BndV TailV3 TailV4
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩,
    ⟨Hdn1_0, Hdn1_1, Hdn1_2, Hdn1_3, Hdn1_4⟩, ⟨Ho0, Ho1, Ho2, Ho3, Ho4⟩, ⟨Hn4_0, Hn4_1, Hn4_2, Hn4_3, Hn4_4⟩⟩
  sl_unfold [k0_t1_body]
  sl_exec
  ihave Ho0' := (Entails.of_eq (hG ⟨3, hk⟩ 0 ![15, 0] (by decide) (by show 5 * 3 + 0 < 25; decide) rfl rfl fo _ ?hq0)) $$ Ho0
  case hq0 => first | exact fun x => rfl | exact fun x => congrFun (View.read_writes_whole _ _ _) x
  ihave Ho1' := (Entails.of_eq (hG ⟨3, hk⟩ 1 ![16, 0] (by decide) (by show 5 * 3 + 1 < 25; decide) rfl rfl fo _ ?hq1)) $$ Ho1
  case hq1 => first | exact fun x => rfl | exact fun x => congrFun (View.read_writes_whole _ _ _) x
  ihave Ho2' := (Entails.of_eq (hG ⟨3, hk⟩ 2 ![17, 0] (by decide) (by show 5 * 3 + 2 < 25; decide) rfl rfl fo _ ?hq2)) $$ Ho2
  case hq2 => first | exact fun x => rfl | exact fun x => congrFun (View.read_writes_whole _ _ _) x
  rw [hG ⟨3, hk⟩ 3 ![18, 0] (by decide) (by show 5 * 3 + 3 < 25; decide) rfl rfl fo (hP := ?hp3)]
  case hp3 => first | exact fun x => rfl | exact fun x => congrFun (View.read_writes_whole _ _ _) x
  rw [hG ⟨3, hk⟩ 4 ![19, 0] (by decide) (by show 5 * 3 + 4 < 25; decide) rfl rfl fo (hP := ?hp4)]
  case hp4 => first | exact fun x => rfl | exact fun x => congrFun (View.read_writes_whole _ _ _) x
  rw [slot0_gp A d L Tb I hin G fiv ![20, 0] (by decide) (hP := ?hs0)]
  case hs0 => rfl
  rw [slot1_gp A d L Tb I hin G fiv ![21, 0] (by decide) (hP := ?hs1)]
  case hs1 => rfl
  rw [slot2_gp A d L Tb I hin G fiv ![22, 0] (by decide) (hP := ?hs2)]
  case hs2 => rfl
  rw [slot3_gp A d L Tb I hin G fiv ![18, 0] (by decide) (hP := ?hs3)]
  case hs3 => rfl
  rw [slot4_gp A d L Tb I hin G fiv ![19, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

set_option maxRecDepth 100000 in
set_option maxHeartbeats 0 in
/-- Trip 4 of the ring: from the boundary before it to the boundary after it, each chunk it writes out holding the gathered rows. -/
theorem tripV4 (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L)) (O : CellTallies nD τ sig (HIx 4)) (W : Waits sig (HIx 4))
    (fiv : Buf (Elt F) ((ivW).view.loc (thr d L))) (fo : Buf (Elt F) (outLoc A d L)) (v2 : BitVec 32) (hk : 4 < k0_t1_loop.trips) (acc : Unit)
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    invV A d L q Tb I hin G fiv fo O W 4 acc
      ⊢ wp frame (wpE (defs₀ (F := F)) 𝒱₀ (thr d L) none) Set.univ
          (k0_t1_body L tblW (Memref.isWhole_whole _) idxW A.hidxW outW A.houtW
            ivW A.hivW b0W A.hb0W b1W A.hb1W b2W A.hb2W
            b3W A.hb3W b4W A.hb4W
            A.s0 A.s1 A.s2 A.s3 A.s4 A.s5 A.s6 A.s7 A.s8 A.s9 A.s10 v2
            ⟨4, hk⟩ acc)
          (invV A d L q Tb I hin G fiv fo O W 5) := by
  have hc1 : k0_cond1 ⟨4, hk⟩ = 1#1 := by decide +revert
  have hc2 : k0_cond2 ⟨4, hk⟩ = 1#1 := by decide +revert
  have hc3 : k0_cond3 ⟨4, hk⟩ = 1#1 := by decide +revert
  have hc4 : k0_cond4 ⟨4, hk⟩ = 1#1 := by decide +revert
  have hc5 : ¬ k0_cond5 ⟨4, hk⟩ = 1#1 := by decide +revert
  have hc6 : k0_cond6 ⟨4, hk⟩ = 1#1 := by decide +revert
  have hc7 : ¬ k0_cond7 ⟨4, hk⟩ = 1#1 := by decide +revert
  have hc8 : k0_cond8 ⟨4, hk⟩ = 1#1 := by decide +revert
  have hc9 : ¬ k0_cond9 ⟨4, hk⟩ = 1#1 := by decide +revert
  have hc10 : k0_cond10 ⟨4, hk⟩ = 1#1 := by decide +revert
  unfold invV invBV BndV TailV4 B5V
  iintro ⟨#Hmw, ⟨%W', %hW', HO⟩, Hg0, Hg1, Hg2, Ht0, Ht1, Ht2, Ht3, Ht4, Hb0, Hb1, Hb2, Hiv, Hs3, Hs4, Hw0, Hw1, Hw2,
    Hw3, Hb3, Hw4, Hb4, Hd0, Hd1, Hd2,
    ⟨Hdn0_0, Hdn0_1, Hdn0_2, Hdn0_3, Hdn0_4⟩,
    ⟨Hdn1_0, Hdn1_1, Hdn1_2, Hdn1_3, Hdn1_4⟩,
    ⟨Hdn2_0, Hdn2_1, Hdn2_2, Hdn2_3, Hdn2_4⟩, ⟨Ho0, Ho1, Ho2, Ho3, Ho4⟩⟩
  sl_unfold [k0_t1_body]
  sl_exec
  rw [hG ⟨4, hk⟩ 0 ![20, 0] (by decide) (by show 5 * 4 + 0 < 25; decide) rfl rfl fo (hP := ?hp0)]
  case hp0 => first | exact fun x => rfl | exact fun x => congrFun (View.read_writes_whole _ _ _) x
  rw [hG ⟨4, hk⟩ 1 ![21, 0] (by decide) (by show 5 * 4 + 1 < 25; decide) rfl rfl fo (hP := ?hp1)]
  case hp1 => first | exact fun x => rfl | exact fun x => congrFun (View.read_writes_whole _ _ _) x
  rw [hG ⟨4, hk⟩ 2 ![22, 0] (by decide) (by show 5 * 4 + 2 < 25; decide) rfl rfl fo (hP := ?hp2)]
  case hp2 => first | exact fun x => rfl | exact fun x => congrFun (View.read_writes_whole _ _ _) x
  rw [hG ⟨4, hk⟩ 3 ![23, 0] (by decide) (by show 5 * 4 + 3 < 25; decide) rfl rfl fo (hP := ?hp3)]
  case hp3 => first | exact fun x => rfl | exact fun x => congrFun (View.read_writes_whole _ _ _) x
  rw [hG ⟨4, hk⟩ 4 ![24, 0] (by decide) (by show 5 * 4 + 4 < 25; decide) rfl rfl fo (hP := ?hp4)]
  case hp4 => first | exact fun x => rfl | exact fun x => congrFun (View.read_writes_whole _ _ _) x
  rw [slot3_gp A d L Tb I hin G fiv ![23, 0] (by decide) (hP := ?hs3)]
  case hs3 => rfl
  rw [slot4_gp A d L Tb I hin G fiv ![24, 0] (by decide) (hP := ?hs4)]
  case hs4 => rfl
  sl_step
  isplitr; · iexact Hmw
  isplitl [HO]
  · iexists _; isplitr
    rotate_left
    · iexact HO
    · ipureintro; repeat (first | exact hW' | apply waits_ins)
  set_option sl_exec.matchHeartbeats 400000 in
  sl_close

end Cert.Proof.KB.TileCore
end
-- ==== Proof.BTileCoreVal.lean ====
/-
  The row gather's task on one vector subcore, for any call: its run with the values it moves, over the call's arguments as
  variables. From the peeled resources — the waits admissible and what the task owes, the table's five read tokens, the
  eleven semaphores at zero, the six scratch buffers, the task's block of the index array and its twenty-five output chunks
  — the task runs to its end and hands them all back, every chunk holding the target contents `G`. That a chunk written
  whole with what its own row of ids gathered holds `G`, and that every word of the index scratch names a table row, are
  hypotheses: the per-call wrapper supplies them over the specific arrays, peels the resources out of the subcore's scoped
  buffers and semaphores, and splits and joins the output rows.
-/
import proofs.«203556_g1357209665813_cont_week2b_798_48_alg».proof.Proof.BTileCoreValBase

noncomputable section

namespace Cert.Proof.KB.TileCore

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (A : Args)

local notation "𝕄" => MT nD τ sig (HIx 4) (Elt F) ℕ UU ℕ
local notation "tblW" => (Memref.whole Cert.Kernel.main_arg2_scv : Memref Cert.Kernel.sig Kind.scVector Space.hbm Cert.Kernel.S100000x128 EltTy.f32)
local notation "idxW" => (Args.idxW A)
local notation "outW" => (Args.outW A)
local notation "ivW" => (Args.ivW A)
local notation "b0W" => (Args.b0W A)
local notation "b1W" => (Args.b1W A)
local notation "b2W" => (Args.b2W A)
local notation "b3W" => (Args.b3W A)
local notation "b4W" => (Args.b4W A)

/-- The task's block of the index array, held by its own elements. -/
def idxBlockV (d : Dev nD) (L : grid0.Coords) (I : Buf (Elt F) (idxLoc A d L)) : sProp 𝕄 :=
  (idxRow A L).view.loc (thr d L) ↦[(idxRow A L).view.set]{fullShare} I

variable [FloatOps F]

set_option maxRecDepth 100000 in
set_option maxHeartbeats 0 in
/-- The task's run over the peeled resources, every chunk ending at `G`. -/
theorem coreV (d : Dev nD) (L : grid0.Coords) (q : PosShare TreeShare) (Tb : Buf (Elt F) (tblLoc d)) (I : Buf (Elt F) (idxLoc A d L))
    (hin : ∀ (g : Buf (Elt F) ((ivW).view.loc (thr d L))) (off : Fin 2 → ℕ) (h : ∀ a, off a + S1x64.size a ≤ S25x64.size a) (x : S64.Idx),
      ((((ivW).slice (Rect.unit (s := S25x64) off S1x64.size h) (fun _ => rfl)).squeeze S64 squeezes_S1x64_S64).view.read (Elt F)
        ((ivW).view.write (Elt F) g (ReadAs.same.apply ((idxRow A L).view.read (Elt F) I)) Finset.univ) x).toNat < 100000) (G : Buf (Elt F) (outLoc A d L))
    (O : CellTallies nD τ sig (HIx 4)) (W : Waits sig (HIx 4))
    (fiv : Buf (Elt F) ((ivW).view.loc (thr d L))) (f0 : Buf (Elt F) ((b0W).view.loc (thr d L))) (f1 : Buf (Elt F) ((b1W).view.loc (thr d L)))
    (f2 : Buf (Elt F) ((b2W).view.loc (thr d L))) (f3 : Buf (Elt F) ((b3W).view.loc (thr d L))) (f4 : Buf (Elt F) ((b4W).view.loc (thr d L)))
    (fo : Buf (Elt F) (outLoc A d L))
    (hG : ∀ (t : Fin k0_t1_loop.trips) (r : Fin 5) (off : Fin 2 → ℕ) (h : ∀ a, off a + S1x64.size a ≤ S25x64.size a) (hk : 5 * t.val + r.val < 25)
      (h0 : off 0 = 5 * t.val + r.val) (h1 : off 1 = 0) (fo : Buf (Elt F) (outLoc A d L)) (P : S64x128.Idx → Elt F .f32)
      (hP : ∀ x, P x = gp A d L Tb I hin G fiv off h x),
      ((outChunk A L t r).view.loc (thr d L) ↦[(outChunk A L t r).view.set]{fullShare}
          (outChunk A L t r).view.writes (Elt F) fo [⟨Rect.whole S64x128, P⟩] : sProp 𝕄)
        = ((outChunk A L t r).view.loc (thr d L) ↦[(outChunk A L t r).view.set]{fullShare} G)) :
    iprop(Transfers.MayWaits (thr d L) (none : HIx 4) O
        ∗ owes (thr d L) O W
        ∗ (tok d L q Tb A.s0 ∗ tok d L q Tb A.s1 ∗ tok d L q Tb A.s2 ∗ tok d L q Tb A.s3 ∗ tok d L q Tb A.s4)
        ∗ (semVal (cellOf d L A.s0) 0 ∗ semVal (cellOf d L A.s1) 0 ∗ semVal (cellOf d L A.s2) 0 ∗ semVal (cellOf d L A.s3) 0 ∗ semVal (cellOf d L A.s4) 0 ∗ semVal (cellOf d L A.s5) 0 ∗ semVal (cellOf d L A.s6) 0 ∗ semVal (cellOf d L A.s7) 0 ∗ semVal (cellOf d L A.s8) 0 ∗ semVal (cellOf d L A.s9) 0 ∗ semVal (cellOf d L A.s10) 0)
        ∗ (((ivW).view.loc (thr d L) ↦{fullShare} fiv) ∗ ((b0W).view.loc (thr d L) ↦{fullShare} f0) ∗ ((b1W).view.loc (thr d L) ↦{fullShare} f1)
          ∗ ((b2W).view.loc (thr d L) ↦{fullShare} f2) ∗ ((b3W).view.loc (thr d L) ↦{fullShare} f3) ∗ ((b4W).view.loc (thr d L) ↦{fullShare} f4))
        ∗ idxBlockV A d L I
        ∗ (tripTodo A d L fo ⟨0, by decide⟩ ∗ tripTodo A d L fo ⟨1, by decide⟩ ∗ tripTodo A d L fo ⟨2, by decide⟩
          ∗ tripTodo A d L fo ⟨3, by decide⟩ ∗ tripTodo A d L fo ⟨4, by decide⟩))
      ⊢ wp frame (wpE (defs₀ (F := F)) 𝒱₀ (thr d L) none) Set.univ
          (cc0_gather_rows L tblW (Memref.isWhole_whole _) idxW A.hidxW outW A.houtW
            ivW A.hivW b0W A.hb0W b1W A.hb1W b2W A.hb2W b3W A.hb3W b4W A.hb4W
            A.s0 A.s1 A.s2 A.s3 A.s4 A.s5 A.s6 A.s7 A.s8 A.s9 A.s10)
          fun _ => iprop((tok d L q Tb A.s0 ∗ tok d L q Tb A.s1 ∗ tok d L q Tb A.s2 ∗ tok d L q Tb A.s3 ∗ tok d L q Tb A.s4)
            ∗ (semVal (cellOf d L A.s0) 0 ∗ semVal (cellOf d L A.s1) 0 ∗ semVal (cellOf d L A.s2) 0 ∗ semVal (cellOf d L A.s3) 0 ∗ semVal (cellOf d L A.s4) 0 ∗ semVal (cellOf d L A.s5) 0 ∗ semVal (cellOf d L A.s6) 0 ∗ semVal (cellOf d L A.s7) 0 ∗ semVal (cellOf d L A.s8) 0 ∗ semVal (cellOf d L A.s9) 0 ∗ semVal (cellOf d L A.s10) 0)
            ∗ ((∃ f, (ivW).view.loc (thr d L) ↦{fullShare} f) ∗ (∃ f, (b0W).view.loc (thr d L) ↦{fullShare} f) ∗ (∃ f, (b1W).view.loc (thr d L) ↦{fullShare} f)
              ∗ (∃ f, (b2W).view.loc (thr d L) ↦{fullShare} f) ∗ (∃ f, (b3W).view.loc (thr d L) ↦{fullShare} f) ∗ (∃ f, (b4W).view.loc (thr d L) ↦{fullShare} f))
            ∗ idxBlockV A d L I
            ∗ (tripTodo A d L G ⟨0, by decide⟩ ∗ tripTodo A d L G ⟨1, by decide⟩ ∗ tripTodo A d L G ⟨2, by decide⟩
              ∗ tripTodo A d L G ⟨3, by decide⟩ ∗ tripTodo A d L G ⟨4, by decide⟩)
            ∗ ∃ W', ⌜∀ p ∈ W', p ∈ W ∨ p.2 = none⌝ ∗ owes (thr d L) O W') := by
  simp only [cc0_gather_rows_eq_skeleton]; unfold cc0_gather_rows_skel
  simp only [k0_part3_eq_skeleton]; unfold k0_part3_skel
  simp only [bind_assoc, pure_bind]
  unfold idxBlockV
  iintro ⟨#Hmw, HO, ⟨Ht0, Ht1, Ht2, Ht3, Ht4⟩, ⟨Hg0, Hg1, Hg2, Hg3, Hg4, Hw0, Hw1, Hw2, Hw3, Hw4, Hsc⟩, ⟨Hiv', Hb0', Hb1', Hb2', Hb3', Hb4'⟩, Hi',
    ⟨Hn0_0, Hn0_1, Hn0_2, Hn0_3, Hn0_4⟩, ⟨Hn1_0, Hn1_1, Hn1_2, Hn1_3, Hn1_4⟩, ⟨Hn2_0, Hn2_1, Hn2_2, Hn2_3, Hn2_4⟩, ⟨Hn3_0, Hn3_1, Hn3_2, Hn3_3, Hn3_4⟩, ⟨Hn4_0, Hn4_1, Hn4_2, Hn4_3, Hn4_4⟩⟩
  sl_exec
  rw [writes_whole_eq (b0W) A.hb0W, writes_whole_eq (b1W) A.hb1W, writes_whole_eq (b2W) A.hb2W]
  sl_for (invV A d L q Tb I hin G fiv fo O W) $$ [Hmw Ht0 Ht1 Ht2 Ht3 Ht4 Hg0 Hg1 Hg2 Hg3 Hg4 Hw0 Hw1 Hw2 Hw3 Hw4 Hb0' Hb1' Hb2' Hb3' Hb4' Hiv' HO Hn0_0 Hn0_1 Hn0_2 Hn0_3 Hn0_4 Hn1_0 Hn1_1 Hn1_2 Hn1_3 Hn1_4 Hn2_0 Hn2_1 Hn2_2 Hn2_3 Hn2_4 Hn3_0 Hn3_1 Hn3_2 Hn3_3 Hn3_4 Hn4_0 Hn4_1 Hn4_2 Hn4_3 Hn4_4]
  case region =>
    intro k acc
    obtain ⟨n, hn⟩ := k
    have hn5 : n < 5 := lt_of_lt_of_eq hn trips_eq
    interval_cases n
    · rw [show ((⟨0, hn⟩ : Fin (Scf.trips k0_t1_loop.lb k0_t1_loop.ub k0_t1_loop.st)) : ℕ) = 0 from rfl]
      unfold coreV.sl.prog.body_1
      have h := tripV0 A d L q Tb I hin G O W fiv fo (Scalar.muli (Scalar.addi (Scalar.muli (BitVec.ofNat 32 ↑(L 1)) 2#32) (BitVec.ofNat 32 ↑(L 0))) 1600#32) hn acc hG
      exact h
    · rw [show ((⟨1, hn⟩ : Fin (Scf.trips k0_t1_loop.lb k0_t1_loop.ub k0_t1_loop.st)) : ℕ) = 1 from rfl]
      unfold coreV.sl.prog.body_1
      have h := tripV1 A d L q Tb I hin G O W fiv fo (Scalar.muli (Scalar.addi (Scalar.muli (BitVec.ofNat 32 ↑(L 1)) 2#32) (BitVec.ofNat 32 ↑(L 0))) 1600#32) hn acc hG
      exact h
    · rw [show ((⟨2, hn⟩ : Fin (Scf.trips k0_t1_loop.lb k0_t1_loop.ub k0_t1_loop.st)) : ℕ) = 2 from rfl]
      unfold coreV.sl.prog.body_1
      have h := tripV2 A d L q Tb I hin G O W fiv fo (Scalar.muli (Scalar.addi (Scalar.muli (BitVec.ofNat 32 ↑(L 1)) 2#32) (BitVec.ofNat 32 ↑(L 0))) 1600#32) hn acc hG
      exact h
    · rw [show ((⟨3, hn⟩ : Fin (Scf.trips k0_t1_loop.lb k0_t1_loop.ub k0_t1_loop.st)) : ℕ) = 3 from rfl]
      unfold coreV.sl.prog.body_1
      have h := tripV3 A d L q Tb I hin G O W fiv fo (Scalar.muli (Scalar.addi (Scalar.muli (BitVec.ofNat 32 ↑(L 1)) 2#32) (BitVec.ofNat 32 ↑(L 0))) 1600#32) hn acc hG
      exact h
    · rw [show ((⟨4, hn⟩ : Fin (Scf.trips k0_t1_loop.lb k0_t1_loop.ub k0_t1_loop.st)) : ℕ) = 4 from rfl]
      unfold coreV.sl.prog.body_1
      have h := tripV4 A d L q Tb I hin G O W fiv fo (Scalar.muli (Scalar.addi (Scalar.muli (BitVec.ofNat 32 ↑(L 1)) 2#32) (BitVec.ofNat 32 ↑(L 0))) 1600#32) hn acc hG
      exact h
  · unfold invV invBV BndV TailV0
    isplitr; · iexact Hmw
    isplitl [HO]
    · iexists _; isplitr
      rotate_left
      · iexact HO
      · ipureintro; repeat (first | exact (fun p hp => Or.inl hp) | apply waits_ins)
    sl_close
  rw [show Scf.trips k0_t1_loop.lb k0_t1_loop.ub k0_t1_loop.st = 5 from trips_eq]
  iintro %_ HI
  unfold invV invBV B5V
  icases HI with ⟨-, ⟨%W', %hW', HO⟩, Ht0, Ht1, Ht2, Ht3, Ht4, Hg0, Hg1, Hg2, Hg3, Hg4, Hw0, Hb0, Hw1, Hb1, Hw2, Hb2, Hw3, Hb3, Hw4, Hb4,
    Hiv, Hdn0, Hdn1, Hdn2, Hdn3⟩
  sl_exec
  sl_step
  isplitl [Ht0 Ht1 Ht2 Ht3 Ht4]
  · isplitl [Ht0]; · iexact Ht0
    isplitl [Ht1]; · iexact Ht1
    isplitl [Ht2]; · iexact Ht2
    isplitl [Ht3]; · iexact Ht3
    iexact Ht4
  isplitl [Hg0 Hg1 Hg2 Hg3 Hg4 Hw0 Hw1 Hw2 Hw3 Hw4 Hsc]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    iexact Hsc
  isplitl [Hiv Hb0 Hb1 Hb2 Hb3 Hb4]
  · isplitl [Hiv]; · iexists _; iexact Hiv
    isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hi']; · iexact Hi'
  isplitl [Hdn0 Hdn1 Hdn2 Hdn3 Hw0_dst Hw1_dst Hw2_dst Hw3_dst Hw4_dst]
  · isplitl [Hdn0]; · iexact Hdn0
    isplitl [Hdn1]; · iexact Hdn1
    isplitl [Hdn2]; · iexact Hdn2
    isplitl [Hdn3]; · iexact Hdn3
    isplitl [Hw0_dst]; · iexact Hw0_dst
    isplitl [Hw1_dst]; · iexact Hw1_dst
    isplitl [Hw2_dst]; · iexact Hw2_dst
    isplitl [Hw3_dst]; · iexact Hw3_dst
    iexact Hw4_dst
  iexists _; isplitr
  rotate_left
  · iexact HO
  · ipureintro; repeat (first | exact hW' | apply waits_ins)

end Cert.Proof.KB.TileCore
end
-- ==== Proof.BTile0ValWrap.lean ====
/-
  The row gather's task on one vector subcore, call 0: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.BTile0Base
import proofs.«203556_g1357209665813_cont_week2b_798_48_alg».proof.Proof.BTile0ValLemmas
import proofs.«203556_g1357209665813_cont_week2b_798_48_alg».proof.Proof.BTileCoreVal

noncomputable section

namespace Cert.Proof.KB.Tile0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v3_scv : Memref Cert.Kernel.sig Kind.scVector Space.hbm Cert.Kernel.S32x25x64 EltTy.i32)
local notation "outW" => (Memref.whole Cert.Kernel.main_v4_scv : Memref Cert.Kernel.sig Kind.scVector Space.hbm Cert.Kernel.S51200x128 EltTy.f32)
local notation "ivW" => (Memref.whole Cert.Kernel.cc0_scratch0 : Memref Cert.Kernel.sig Kind.scVector Space.vmem Cert.Kernel.S25x64 EltTy.i32)
local notation "b0W" => (Memref.whole Cert.Kernel.cc0_scratch1 : Memref Cert.Kernel.sig Kind.scVector Space.vmem Cert.Kernel.S64x128 EltTy.f32)
local notation "b1W" => (Memref.whole Cert.Kernel.cc0_scratch2 : Memref Cert.Kernel.sig Kind.scVector Space.vmem Cert.Kernel.S64x128 EltTy.f32)
local notation "b2W" => (Memref.whole Cert.Kernel.cc0_scratch3 : Memref Cert.Kernel.sig Kind.scVector Space.vmem Cert.Kernel.S64x128 EltTy.f32)
local notation "b3W" => (Memref.whole Cert.Kernel.cc0_scratch4 : Memref Cert.Kernel.sig Kind.scVector Space.vmem Cert.Kernel.S64x128 EltTy.f32)
local notation "b4W" => (Memref.whole Cert.Kernel.cc0_scratch5 : Memref Cert.Kernel.sig Kind.scVector Space.vmem Cert.Kernel.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc0_scratch6, cc0_scratch7, cc0_scratch8, cc0_scratch9, cc0_scratch10, cc0_scratch11, cc0_scratch12, cc0_scratch13,
    cc0_scratch14, cc0_scratch15, cc0_scoped0⟩

/-! ## The contents a gather lands, over call 0's arrays -/

/-- What the gather whose list is the row of the index scratch at off lands in a slot: row j is the table's row the list's word j names. -/
def gp (d : Dev nD) (L : grid0.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid0.Coords) (Tb : Buf (Elt F) (tblLoc d)) (I : Buf (Elt F) (idxLoc d)) (hI : ∀ j ∈ idxSet L, (I j).toNat < 100000)
    (fiv : Buf (Elt F) ((ivW).view.loc (thr d L))) (t : Fin k0_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 0. -/
theorem tile_body_val (hF : (K (F := F)).Facts) (d : Dev nD) (L : grid0.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc0_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore0) ((L 1).castLE hsub0),
    SparseCore.Cfg.scopedSems0_V (Val := Elt F) d ((L 0).castLE hcore0) ((L 1).castLE hsub0), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KB.Tile0
end
-- ==== Proof.BTile0Frame.lean ====
/-
  The row gather's task on one vector subcore, call 0, as a frame: the valued statement with the output rows'
  contents forgotten.
-/
import proofs.«203556_g1357209665813_cont_week2b_798_48_alg».proof.Proof.BTile0ValWrap

noncomputable section

namespace Cert.Proof.KB.Tile0

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v3_scv : Memref Cert.Kernel.sig Kind.scVector Space.hbm Cert.Kernel.S32x25x64 EltTy.i32)
local notation "outW" => (Memref.whole Cert.Kernel.main_v4_scv : Memref Cert.Kernel.sig Kind.scVector Space.hbm Cert.Kernel.S51200x128 EltTy.f32)
local notation "ivW" => (Memref.whole Cert.Kernel.cc0_scratch0 : Memref Cert.Kernel.sig Kind.scVector Space.vmem Cert.Kernel.S25x64 EltTy.i32)
local notation "b0W" => (Memref.whole Cert.Kernel.cc0_scratch1 : Memref Cert.Kernel.sig Kind.scVector Space.vmem Cert.Kernel.S64x128 EltTy.f32)
local notation "b1W" => (Memref.whole Cert.Kernel.cc0_scratch2 : Memref Cert.Kernel.sig Kind.scVector Space.vmem Cert.Kernel.S64x128 EltTy.f32)
local notation "b2W" => (Memref.whole Cert.Kernel.cc0_scratch3 : Memref Cert.Kernel.sig Kind.scVector Space.vmem Cert.Kernel.S64x128 EltTy.f32)
local notation "b3W" => (Memref.whole Cert.Kernel.cc0_scratch4 : Memref Cert.Kernel.sig Kind.scVector Space.vmem Cert.Kernel.S64x128 EltTy.f32)
local notation "b4W" => (Memref.whole Cert.Kernel.cc0_scratch5 : Memref Cert.Kernel.sig Kind.scVector Space.vmem Cert.Kernel.S64x128 EltTy.f32)

variable [FloatOps F]

/-- The task's frame: what the valued theorem says, the rows the task wrote at contents not named. -/
theorem tile_body (hF : (K (F := F)).Facts) (d : Dev nD) (L : grid0.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc0_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc0_scratch6 cc0_scratch7 cc0_scratch8 cc0_scratch9 cc0_scratch10 cc0_scratch11 cc0_scratch12 cc0_scratch13 cc0_scratch14 cc0_scratch15 cc0_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KB.Tile0

end
-- ==== Proof.BTileOblBase0.lean ====
/-
  Shared by the two forms of SparseCore call 0's tile obligation: the call's number and label, the body table's row
  on a vector subcore as the gather kernel at its place, and the weakening of the recorded-waits bound the launch
  theorem's obligation allows.
-/
import proofs.«203556_g1357209665813_cont_week2b_798_48_alg».proof.Proof.BCall0

noncomputable section

namespace Cert.Proof.KB.Tile0

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 0
abbrev labC : Λ₀.Label := 0

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore0 hsub0 (fun c s => cc0_gather_rows (place (c, s))
          (Memref.whole main_arg2_scv) (Memref.isWhole_whole _) (Memref.whole main_v3_scv) (Memref.isWhole_whole _) (Memref.whole main_v4_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _)
          cc0_scratch6 cc0_scratch7 cc0_scratch8 cc0_scratch9 cc0_scratch10 cc0_scratch11 cc0_scratch12 cc0_scratch13 cc0_scratch14 cc0_scratch15 cc0_scoped0) ⟨⟩ c s := rfl

end Cert.Proof.KB.Tile0

end
-- ==== Proof.BTileObl0.lean ====
/-
  The launch theorem's obligation for SparseCore call 0: the task's frame, wrapped as the body table's row;
  the handshake's payloads are the task's holdings.
-/
import proofs.«203556_g1357209665813_cont_week2b_798_48_alg».proof.Proof.BTile0Frame
import proofs.«203556_g1357209665813_cont_week2b_798_48_alg».proof.Proof.BTileOblBase0

noncomputable section

namespace Cert.Proof.KB.Tile0

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid0.bound 0 ∧ ((K (F := F)).sub qC i).val < grid0.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KB.Tile0

end
-- ==== Proof.BTile1Base.lean ====
/-
  The row gather's task on one vector subcore, call 1: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.BTile1Sets

noncomputable section

namespace Cert.Proof.KB.Tile1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v6_scv : Memref Cert.Kernel.sig Kind.scVector Space.hbm Cert.Kernel.S32x25x64 EltTy.i32)
local notation "outW" => (Memref.whole Cert.Kernel.main_v7_scv : Memref Cert.Kernel.sig Kind.scVector Space.hbm Cert.Kernel.S51200x128 EltTy.f32)
local notation "ivW" => (Memref.whole Cert.Kernel.cc1_scratch0 : Memref Cert.Kernel.sig Kind.scVector Space.vmem Cert.Kernel.S25x64 EltTy.i32)
local notation "b0W" => (Memref.whole Cert.Kernel.cc1_scratch1 : Memref Cert.Kernel.sig Kind.scVector Space.vmem Cert.Kernel.S64x128 EltTy.f32)
local notation "b1W" => (Memref.whole Cert.Kernel.cc1_scratch2 : Memref Cert.Kernel.sig Kind.scVector Space.vmem Cert.Kernel.S64x128 EltTy.f32)
local notation "b2W" => (Memref.whole Cert.Kernel.cc1_scratch3 : Memref Cert.Kernel.sig Kind.scVector Space.vmem Cert.Kernel.S64x128 EltTy.f32)
local notation "b3W" => (Memref.whole Cert.Kernel.cc1_scratch4 : Memref Cert.Kernel.sig Kind.scVector Space.vmem Cert.Kernel.S64x128 EltTy.f32)
local notation "b4W" => (Memref.whole Cert.Kernel.cc1_scratch5 : Memref Cert.Kernel.sig Kind.scVector Space.vmem Cert.Kernel.S64x128 EltTy.f32)

theorem mySems_scoped : ∀ i ∈ mySems, (SemLoc.dma i : SemLoc sig).isScoped .scVector = true := by decide

theorem myCells_sub (d : Dev nD) (L : grid1.Coords) : myCells d L ⊆ ownCells (thr d L) := by
  intro g hg
  obtain ⟨i, hi, rfl⟩ := Finset.mem_image.mp hg
  exact mem_ownCells.mpr ⟨rfl, mySems_scoped i hi⟩

theorem myRefs_sub (L : grid1.Coords) : myRefs L ⊆ ownRefs (τ := τ) (.scVector ((L 0).castLE hcore1) ((L 1).castLE hsub1)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid1.Coords) :
    (ownSems0 (thr d L) : sProp 𝕄)
      = iprop(semVal (cellOf d L cc1_scratch6) 0 ∗ semVal (cellOf d L cc1_scratch7) 0 ∗ semVal (cellOf d L cc1_scratch8) 0
          ∗ semVal (cellOf d L cc1_scratch9) 0 ∗ semVal (cellOf d L cc1_scratch10) 0 ∗ semVal (cellOf d L cc1_scratch11) 0
          ∗ semVal (cellOf d L cc1_scratch12) 0 ∗ semVal (cellOf d L cc1_scratch13) 0 ∗ semVal (cellOf d L cc1_scratch14) 0
          ∗ semVal (cellOf d L cc1_scratch15) 0 ∗ semVal (cellOf d L cc1_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f)
          ∗ bigSep (ownRefs (τ := τ) (.scVector ((L 0).castLE hcore1) ((L 1).castLE hsub1)) \ myRefs L)
              fun b => iprop(∃ f, ((d, b) : Loc nD τ sig) ↦{fullShare} f)) := by
  unfold SparseCore.Cfg.ownBufs
  rw [show (thr d L).2 = Proc.scVector ((L 0).castLE hcore1) ((L 1).castLE hsub1) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc1_scratch6.sem, cc1_scratch7.sem, cc1_scratch8.sem, cc1_scratch9.sem, cc1_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid1.Coords) (q : PosShare TreeShare) (Tb : Buf (Elt F) (tblLoc d)) :
    (tblLoc d ↦{q} Tb : sProp 𝕄)
      = iprop(((tblW).view.loc (thr d L) ↦{tq q cc1_scratch6} Tb) ∗ ((tblW).view.loc (thr d L) ↦{tq q cc1_scratch7} Tb)
          ∗ ((tblW).view.loc (thr d L) ↦{tq q cc1_scratch8} Tb) ∗ ((tblW).view.loc (thr d L) ↦{tq q cc1_scratch9} Tb)
          ∗ ((tblW).view.loc (thr d L) ↦{tq q cc1_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid1.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid1.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid1.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid1.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid1.Coords) (sm : DmaSems sig S_) (bW : Memref sig .scVector .vmem S64x128 .f32)
    (t : Fin k1_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid1.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid1.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid1.Coords) (t : Fin k1_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid1.Coords) (fo : Buf (Elt F) (outLoc d)) (t : Fin k1_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid1.Coords) (t : Fin k1_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k1_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k1_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k1_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k1_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid1.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k1_t1_loop.trips × Fin 5 => chunkAt d L p.1 p.2 fo) :=
    pointsTo_biUnion Finset.univ _ (fun p _ p' _ h => chunk_disjoint L p p' h)
  rw [h1]
  exact bigSep25 (fun p : Fin k1_t1_loop.trips × Fin 5 => chunkAt d L p.1 p.2 fo)

/-- The chunks, each written and back at whatever contents, are the task's rows at some contents. -/
theorem out_join (d : Dev nD) (L : grid1.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k1_t1_loop.trips × Fin 5, Nonempty ((fun _ : Fin k1_t1_loop.trips × Fin 5 => Buf (Elt F) (outLoc d)) i) := fun _ => ⟨f₀⟩
  refine (Entails.of_eq (bigSep25 (fun p : Fin k1_t1_loop.trips × Fin 5 => (iprop(∃ f, chunkAt (F := F) d L p.1 p.2 f) : sProp 𝕄))).symm).trans ?_
  refine (@bigSep_exists_pi _ _ _ _ (fun _ : Fin k1_t1_loop.trips × Fin 5 => Buf (Elt F) (outLoc d)) hne Finset.univ
    (fun (p : Fin k1_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k1_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KB.Tile1
end
-- ==== Proof.BTile1ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.BTile1Sets
import proofs.«203556_g1357209665813_cont_week2b_798_48_alg».proof.Proof.BGather
import Idealize.ShloMosaic.Lib.Pipeline.Value
import Idealize.ShloMosaic.Lib.ValueLayout

noncomputable section

namespace Cert.Proof.KB.Tile1

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.Kernel.cc1_scratch0 : Memref Cert.Kernel.sig Kind.scVector Space.vmem Cert.Kernel.S25x64 EltTy.i32)
local notation "idxW" => (Memref.whole Cert.Kernel.main_v6_scv : Memref Cert.Kernel.sig Kind.scVector Space.hbm Cert.Kernel.S32x25x64 EltTy.i32)

/-- The worker a task is: twice the subcore plus the core. -/
abbrev wid (L : grid1.Coords) : ℕ := 2 * (L 1).val + (L 0).val

theorem wid_lt (L : grid1.Coords) : wid L < 32 := by
  have h0 := (L 0).isLt; have h1 := (L 1).isLt
  have b0 : grid1.bound 0 = 2 := rfl
  have b1 : grid1.bound 1 = 16 := rfl
  unfold wid; omega

/-! ## (1) The task's block of ids -/

/-- The block of the id array the task copies, read through the program's slice, is row `wid` of the array. -/
theorem idxRow_read_apply (L : grid1.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k1_off1 L) S1x25x64.size (k1_off1_inb L)).toLoadRect I) hc from rfl]
  rw [shapeCast_1ab_ab_apply]
  show I ((Rect.unit (s := S32x25x64) (k1_off1 L) S1x25x64.size (k1_off1_inb L)).idx (ix3 0 k j)) = _
  refine congrArg I (funext fun a => Fin.ext ?_)
  have e := k1_off1_eq L
  match a with
  | ⟨0, _⟩ => show k1_off1 L 0 + 1 * (0 : ℕ) = wid L; rw [e]; simp
  | ⟨1, _⟩ => show k1_off1 L 1 + 1 * k.val = k.val; rw [e]; simp
  | ⟨2, _⟩ => show k1_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid1.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid1.Coords) (t : Fin k1_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid1.Coords) (t : Fin k1_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k1_off5_eq L t r
  have hr : base L t r + j.val < 51200 := by
    have h0 := (L 0).isLt; have h1 := (L 1).isLt
    have b0 : grid1.bound 0 = 2 := rfl
    have b1 : grid1.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k1_off5 L t (BitVec.ofNat 32 r.val) 0 + 1 * j.val; rw [e5]; simp
  | ⟨1, _⟩ => show h.val = k1_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid1.Coords) (t : Fin k1_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid1.bound 0 = 2 := rfl
  have b1 : grid1.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid1.Coords) (q : PosShare TreeShare) (g : Buf (Elt F) (outLoc d)) :
    (outLoc d ↦[outSet L]{q} g : sProp 𝕄)
      = bigSep (Finset.univ : Finset (Fin k1_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid1.Coords) (t : Fin k1_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid1.Coords) (q : PosShare TreeShare)
    (f : Fin k1_t1_loop.trips × Fin 5 → Buf (Elt F) (outLoc d)) (G : Buf (Elt F) (outLoc d))
    (h : ∀ p : Fin k1_t1_loop.trips × Fin 5, ∀ i ∈ ((outChunk L p.1 p.2).view.set : Finset S51200x128.Idx), f p i = G i) :
    (bigSep (Finset.univ : Finset (Fin k1_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KB.Tile1
end
-- ==== Proof.BTile1ValWrap.lean ====
/-
  The row gather's task on one vector subcore, call 1: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.BTile1Base
import proofs.«203556_g1357209665813_cont_week2b_798_48_alg».proof.Proof.BTile1ValLemmas
import proofs.«203556_g1357209665813_cont_week2b_798_48_alg».proof.Proof.BTileCoreVal

noncomputable section

namespace Cert.Proof.KB.Tile1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v6_scv : Memref Cert.Kernel.sig Kind.scVector Space.hbm Cert.Kernel.S32x25x64 EltTy.i32)
local notation "outW" => (Memref.whole Cert.Kernel.main_v7_scv : Memref Cert.Kernel.sig Kind.scVector Space.hbm Cert.Kernel.S51200x128 EltTy.f32)
local notation "ivW" => (Memref.whole Cert.Kernel.cc1_scratch0 : Memref Cert.Kernel.sig Kind.scVector Space.vmem Cert.Kernel.S25x64 EltTy.i32)
local notation "b0W" => (Memref.whole Cert.Kernel.cc1_scratch1 : Memref Cert.Kernel.sig Kind.scVector Space.vmem Cert.Kernel.S64x128 EltTy.f32)
local notation "b1W" => (Memref.whole Cert.Kernel.cc1_scratch2 : Memref Cert.Kernel.sig Kind.scVector Space.vmem Cert.Kernel.S64x128 EltTy.f32)
local notation "b2W" => (Memref.whole Cert.Kernel.cc1_scratch3 : Memref Cert.Kernel.sig Kind.scVector Space.vmem Cert.Kernel.S64x128 EltTy.f32)
local notation "b3W" => (Memref.whole Cert.Kernel.cc1_scratch4 : Memref Cert.Kernel.sig Kind.scVector Space.vmem Cert.Kernel.S64x128 EltTy.f32)
local notation "b4W" => (Memref.whole Cert.Kernel.cc1_scratch5 : Memref Cert.Kernel.sig Kind.scVector Space.vmem Cert.Kernel.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc1_scratch6, cc1_scratch7, cc1_scratch8, cc1_scratch9, cc1_scratch10, cc1_scratch11, cc1_scratch12, cc1_scratch13,
    cc1_scratch14, cc1_scratch15, cc1_scoped0⟩

/-! ## The contents a gather lands, over call 1's arrays -/

/-- What the gather whose list is the row of the index scratch at off lands in a slot: row j is the table's row the list's word j names. -/
def gp (d : Dev nD) (L : grid1.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid1.Coords) (Tb : Buf (Elt F) (tblLoc d)) (I : Buf (Elt F) (idxLoc d)) (hI : ∀ j ∈ idxSet L, (I j).toNat < 100000)
    (fiv : Buf (Elt F) ((ivW).view.loc (thr d L))) (t : Fin k1_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 1. -/
theorem tile_body_val (hF : (K (F := F)).Facts) (d : Dev nD) (L : grid1.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc1_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore1) ((L 1).castLE hsub1),
    SparseCore.Cfg.scopedSems0_V (Val := Elt F) d ((L 0).castLE hcore1) ((L 1).castLE hsub1), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KB.Tile1
end
-- ==== Proof.BTile1Frame.lean ====
/-
  The row gather's task on one vector subcore, call 1, as a frame: the valued statement with the output rows'
  contents forgotten.
-/
import proofs.«203556_g1357209665813_cont_week2b_798_48_alg».proof.Proof.BTile1ValWrap

noncomputable section

namespace Cert.Proof.KB.Tile1

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v6_scv : Memref Cert.Kernel.sig Kind.scVector Space.hbm Cert.Kernel.S32x25x64 EltTy.i32)
local notation "outW" => (Memref.whole Cert.Kernel.main_v7_scv : Memref Cert.Kernel.sig Kind.scVector Space.hbm Cert.Kernel.S51200x128 EltTy.f32)
local notation "ivW" => (Memref.whole Cert.Kernel.cc1_scratch0 : Memref Cert.Kernel.sig Kind.scVector Space.vmem Cert.Kernel.S25x64 EltTy.i32)
local notation "b0W" => (Memref.whole Cert.Kernel.cc1_scratch1 : Memref Cert.Kernel.sig Kind.scVector Space.vmem Cert.Kernel.S64x128 EltTy.f32)
local notation "b1W" => (Memref.whole Cert.Kernel.cc1_scratch2 : Memref Cert.Kernel.sig Kind.scVector Space.vmem Cert.Kernel.S64x128 EltTy.f32)
local notation "b2W" => (Memref.whole Cert.Kernel.cc1_scratch3 : Memref Cert.Kernel.sig Kind.scVector Space.vmem Cert.Kernel.S64x128 EltTy.f32)
local notation "b3W" => (Memref.whole Cert.Kernel.cc1_scratch4 : Memref Cert.Kernel.sig Kind.scVector Space.vmem Cert.Kernel.S64x128 EltTy.f32)
local notation "b4W" => (Memref.whole Cert.Kernel.cc1_scratch5 : Memref Cert.Kernel.sig Kind.scVector Space.vmem Cert.Kernel.S64x128 EltTy.f32)

variable [FloatOps F]

/-- The task's frame: what the valued theorem says, the rows the task wrote at contents not named. -/
theorem tile_body (hF : (K (F := F)).Facts) (d : Dev nD) (L : grid1.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc1_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc1_scratch6 cc1_scratch7 cc1_scratch8 cc1_scratch9 cc1_scratch10 cc1_scratch11 cc1_scratch12 cc1_scratch13 cc1_scratch14 cc1_scratch15 cc1_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KB.Tile1

end
-- ==== Proof.BTileOblBase1.lean ====
/-
  Shared by the two forms of SparseCore call 1's tile obligation: the call's number and label, the body table's row
  on a vector subcore as the gather kernel at its place, and the weakening of the recorded-waits bound the launch
  theorem's obligation allows.
-/
import proofs.«203556_g1357209665813_cont_week2b_798_48_alg».proof.Proof.BCall1

noncomputable section

namespace Cert.Proof.KB.Tile1

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 1
abbrev labC : Λ₀.Label := 1

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore1 hsub1 (fun c s => cc1_gather_rows (place (c, s))
          (Memref.whole main_arg2_scv) (Memref.isWhole_whole _) (Memref.whole main_v6_scv) (Memref.isWhole_whole _) (Memref.whole main_v7_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scratch10 cc1_scratch11 cc1_scratch12 cc1_scratch13 cc1_scratch14 cc1_scratch15 cc1_scoped0) ⟨⟩ c s := rfl

end Cert.Proof.KB.Tile1

end
-- ==== Proof.BTileObl1.lean ====
/-
  The launch theorem's obligation for SparseCore call 1: the task's frame, wrapped as the body table's row;
  the handshake's payloads are the task's holdings.
-/
import proofs.«203556_g1357209665813_cont_week2b_798_48_alg».proof.Proof.BTile1Frame
import proofs.«203556_g1357209665813_cont_week2b_798_48_alg».proof.Proof.BTileOblBase1

noncomputable section

namespace Cert.Proof.KB.Tile1

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid1.bound 0 ∧ ((K (F := F)).sub qC i).val < grid1.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KB.Tile1

end
-- ==== Proof.BTile2Base.lean ====
/-
  The row gather's task on one vector subcore, call 2: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.BTile2Sets

noncomputable section

namespace Cert.Proof.KB.Tile2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v9_scv : Memref Cert.Kernel.sig Kind.scVector Space.hbm Cert.Kernel.S32x25x64 EltTy.i32)
local notation "outW" => (Memref.whole Cert.Kernel.main_v10_scv : Memref Cert.Kernel.sig Kind.scVector Space.hbm Cert.Kernel.S51200x128 EltTy.f32)
local notation "ivW" => (Memref.whole Cert.Kernel.cc2_scratch0 : Memref Cert.Kernel.sig Kind.scVector Space.vmem Cert.Kernel.S25x64 EltTy.i32)
local notation "b0W" => (Memref.whole Cert.Kernel.cc2_scratch1 : Memref Cert.Kernel.sig Kind.scVector Space.vmem Cert.Kernel.S64x128 EltTy.f32)
local notation "b1W" => (Memref.whole Cert.Kernel.cc2_scratch2 : Memref Cert.Kernel.sig Kind.scVector Space.vmem Cert.Kernel.S64x128 EltTy.f32)
local notation "b2W" => (Memref.whole Cert.Kernel.cc2_scratch3 : Memref Cert.Kernel.sig Kind.scVector Space.vmem Cert.Kernel.S64x128 EltTy.f32)
local notation "b3W" => (Memref.whole Cert.Kernel.cc2_scratch4 : Memref Cert.Kernel.sig Kind.scVector Space.vmem Cert.Kernel.S64x128 EltTy.f32)
local notation "b4W" => (Memref.whole Cert.Kernel.cc2_scratch5 : Memref Cert.Kernel.sig Kind.scVector Space.vmem Cert.Kernel.S64x128 EltTy.f32)

theorem mySems_scoped : ∀ i ∈ mySems, (SemLoc.dma i : SemLoc sig).isScoped .scVector = true := by decide

theorem myCells_sub (d : Dev nD) (L : grid2.Coords) : myCells d L ⊆ ownCells (thr d L) := by
  intro g hg
  obtain ⟨i, hi, rfl⟩ := Finset.mem_image.mp hg
  exact mem_ownCells.mpr ⟨rfl, mySems_scoped i hi⟩

theorem myRefs_sub (L : grid2.Coords) : myRefs L ⊆ ownRefs (τ := τ) (.scVector ((L 0).castLE hcore2) ((L 1).castLE hsub2)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid2.Coords) :
    (ownSems0 (thr d L) : sProp 𝕄)
      = iprop(semVal (cellOf d L cc2_scratch6) 0 ∗ semVal (cellOf d L cc2_scratch7) 0 ∗ semVal (cellOf d L cc2_scratch8) 0
          ∗ semVal (cellOf d L cc2_scratch9) 0 ∗ semVal (cellOf d L cc2_scratch10) 0 ∗ semVal (cellOf d L cc2_scratch11) 0
          ∗ semVal (cellOf d L cc2_scratch12) 0 ∗ semVal (cellOf d L cc2_scratch13) 0 ∗ semVal (cellOf d L cc2_scratch14) 0
          ∗ semVal (cellOf d L cc2_scratch15) 0 ∗ semVal (cellOf d L cc2_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid2.Coords) :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ (∃ f, (thr d L).loc cc2_scratch4 ↦{fullShare} f) ∗ (∃ f, (thr d L).loc cc2_scratch5 ↦{fullShare} f)
          ∗ bigSep (ownRefs (τ := τ) (.scVector ((L 0).castLE hcore2) ((L 1).castLE hsub2)) \ myRefs L)
              fun b => iprop(∃ f, ((d, b) : Loc nD τ sig) ↦{fullShare} f)) := by
  unfold SparseCore.Cfg.ownBufs
  rw [show (thr d L).2 = Proc.scVector ((L 0).castLE hcore2) ((L 1).castLE hsub2) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc2_scratch6.sem, cc2_scratch7.sem, cc2_scratch8.sem, cc2_scratch9.sem, cc2_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid2.Coords) (q : PosShare TreeShare) (Tb : Buf (Elt F) (tblLoc d)) :
    (tblLoc d ↦{q} Tb : sProp 𝕄)
      = iprop(((tblW).view.loc (thr d L) ↦{tq q cc2_scratch6} Tb) ∗ ((tblW).view.loc (thr d L) ↦{tq q cc2_scratch7} Tb)
          ∗ ((tblW).view.loc (thr d L) ↦{tq q cc2_scratch8} Tb) ∗ ((tblW).view.loc (thr d L) ↦{tq q cc2_scratch9} Tb)
          ∗ ((tblW).view.loc (thr d L) ↦{tq q cc2_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid2.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid2.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid2.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid2.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid2.Coords) (sm : DmaSems sig S_) (bW : Memref sig .scVector .vmem S64x128 .f32)
    (t : Fin k2_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid2.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid2.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid2.Coords) (t : Fin k2_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid2.Coords) (fo : Buf (Elt F) (outLoc d)) (t : Fin k2_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid2.Coords) (t : Fin k2_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k2_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k2_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k2_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k2_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid2.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k2_t1_loop.trips × Fin 5 => chunkAt d L p.1 p.2 fo) :=
    pointsTo_biUnion Finset.univ _ (fun p _ p' _ h => chunk_disjoint L p p' h)
  rw [h1]
  exact bigSep25 (fun p : Fin k2_t1_loop.trips × Fin 5 => chunkAt d L p.1 p.2 fo)

/-- The chunks, each written and back at whatever contents, are the task's rows at some contents. -/
theorem out_join (d : Dev nD) (L : grid2.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k2_t1_loop.trips × Fin 5, Nonempty ((fun _ : Fin k2_t1_loop.trips × Fin 5 => Buf (Elt F) (outLoc d)) i) := fun _ => ⟨f₀⟩
  refine (Entails.of_eq (bigSep25 (fun p : Fin k2_t1_loop.trips × Fin 5 => (iprop(∃ f, chunkAt (F := F) d L p.1 p.2 f) : sProp 𝕄))).symm).trans ?_
  refine (@bigSep_exists_pi _ _ _ _ (fun _ : Fin k2_t1_loop.trips × Fin 5 => Buf (Elt F) (outLoc d)) hne Finset.univ
    (fun (p : Fin k2_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k2_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KB.Tile2
end
-- ==== Proof.BTile2ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.BTile2Sets
import proofs.«203556_g1357209665813_cont_week2b_798_48_alg».proof.Proof.BGather
import Idealize.ShloMosaic.Lib.Pipeline.Value
import Idealize.ShloMosaic.Lib.ValueLayout

noncomputable section

namespace Cert.Proof.KB.Tile2

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.Kernel.cc2_scratch0 : Memref Cert.Kernel.sig Kind.scVector Space.vmem Cert.Kernel.S25x64 EltTy.i32)
local notation "idxW" => (Memref.whole Cert.Kernel.main_v9_scv : Memref Cert.Kernel.sig Kind.scVector Space.hbm Cert.Kernel.S32x25x64 EltTy.i32)

/-- The worker a task is: twice the subcore plus the core. -/
abbrev wid (L : grid2.Coords) : ℕ := 2 * (L 1).val + (L 0).val

theorem wid_lt (L : grid2.Coords) : wid L < 32 := by
  have h0 := (L 0).isLt; have h1 := (L 1).isLt
  have b0 : grid2.bound 0 = 2 := rfl
  have b1 : grid2.bound 1 = 16 := rfl
  unfold wid; omega

/-! ## (1) The task's block of ids -/

/-- The block of the id array the task copies, read through the program's slice, is row `wid` of the array. -/
theorem idxRow_read_apply (L : grid2.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k2_off1 L) S1x25x64.size (k2_off1_inb L)).toLoadRect I) hc from rfl]
  rw [shapeCast_1ab_ab_apply]
  show I ((Rect.unit (s := S32x25x64) (k2_off1 L) S1x25x64.size (k2_off1_inb L)).idx (ix3 0 k j)) = _
  refine congrArg I (funext fun a => Fin.ext ?_)
  have e := k2_off1_eq L
  match a with
  | ⟨0, _⟩ => show k2_off1 L 0 + 1 * (0 : ℕ) = wid L; rw [e]; simp
  | ⟨1, _⟩ => show k2_off1 L 1 + 1 * k.val = k.val; rw [e]; simp
  | ⟨2, _⟩ => show k2_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid2.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid2.Coords) (t : Fin k2_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid2.Coords) (t : Fin k2_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k2_off5_eq L t r
  have hr : base L t r + j.val < 51200 := by
    have h0 := (L 0).isLt; have h1 := (L 1).isLt
    have b0 : grid2.bound 0 = 2 := rfl
    have b1 : grid2.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k2_off5 L t (BitVec.ofNat 32 r.val) 0 + 1 * j.val; rw [e5]; simp
  | ⟨1, _⟩ => show h.val = k2_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid2.Coords) (t : Fin k2_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid2.bound 0 = 2 := rfl
  have b1 : grid2.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid2.Coords) (q : PosShare TreeShare) (g : Buf (Elt F) (outLoc d)) :
    (outLoc d ↦[outSet L]{q} g : sProp 𝕄)
      = bigSep (Finset.univ : Finset (Fin k2_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid2.Coords) (t : Fin k2_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid2.Coords) (q : PosShare TreeShare)
    (f : Fin k2_t1_loop.trips × Fin 5 → Buf (Elt F) (outLoc d)) (G : Buf (Elt F) (outLoc d))
    (h : ∀ p : Fin k2_t1_loop.trips × Fin 5, ∀ i ∈ ((outChunk L p.1 p.2).view.set : Finset S51200x128.Idx), f p i = G i) :
    (bigSep (Finset.univ : Finset (Fin k2_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KB.Tile2
end
-- ==== Proof.BTile2ValWrap.lean ====
/-
  The row gather's task on one vector subcore, call 2: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.BTile2Base
import proofs.«203556_g1357209665813_cont_week2b_798_48_alg».proof.Proof.BTile2ValLemmas
import proofs.«203556_g1357209665813_cont_week2b_798_48_alg».proof.Proof.BTileCoreVal

noncomputable section

namespace Cert.Proof.KB.Tile2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v9_scv : Memref Cert.Kernel.sig Kind.scVector Space.hbm Cert.Kernel.S32x25x64 EltTy.i32)
local notation "outW" => (Memref.whole Cert.Kernel.main_v10_scv : Memref Cert.Kernel.sig Kind.scVector Space.hbm Cert.Kernel.S51200x128 EltTy.f32)
local notation "ivW" => (Memref.whole Cert.Kernel.cc2_scratch0 : Memref Cert.Kernel.sig Kind.scVector Space.vmem Cert.Kernel.S25x64 EltTy.i32)
local notation "b0W" => (Memref.whole Cert.Kernel.cc2_scratch1 : Memref Cert.Kernel.sig Kind.scVector Space.vmem Cert.Kernel.S64x128 EltTy.f32)
local notation "b1W" => (Memref.whole Cert.Kernel.cc2_scratch2 : Memref Cert.Kernel.sig Kind.scVector Space.vmem Cert.Kernel.S64x128 EltTy.f32)
local notation "b2W" => (Memref.whole Cert.Kernel.cc2_scratch3 : Memref Cert.Kernel.sig Kind.scVector Space.vmem Cert.Kernel.S64x128 EltTy.f32)
local notation "b3W" => (Memref.whole Cert.Kernel.cc2_scratch4 : Memref Cert.Kernel.sig Kind.scVector Space.vmem Cert.Kernel.S64x128 EltTy.f32)
local notation "b4W" => (Memref.whole Cert.Kernel.cc2_scratch5 : Memref Cert.Kernel.sig Kind.scVector Space.vmem Cert.Kernel.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc2_scratch6, cc2_scratch7, cc2_scratch8, cc2_scratch9, cc2_scratch10, cc2_scratch11, cc2_scratch12, cc2_scratch13,
    cc2_scratch14, cc2_scratch15, cc2_scoped0⟩

/-! ## The contents a gather lands, over call 2's arrays -/

/-- What the gather whose list is the row of the index scratch at off lands in a slot: row j is the table's row the list's word j names. -/
def gp (d : Dev nD) (L : grid2.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid2.Coords) (Tb : Buf (Elt F) (tblLoc d)) (I : Buf (Elt F) (idxLoc d)) (hI : ∀ j ∈ idxSet L, (I j).toNat < 100000)
    (fiv : Buf (Elt F) ((ivW).view.loc (thr d L))) (t : Fin k2_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 2. -/
theorem tile_body_val (hF : (K (F := F)).Facts) (d : Dev nD) (L : grid2.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc2_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore2) ((L 1).castLE hsub2),
    SparseCore.Cfg.scopedSems0_V (Val := Elt F) d ((L 0).castLE hcore2) ((L 1).castLE hsub2), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KB.Tile2
end
-- ==== Proof.BTile2Frame.lean ====
/-
  The row gather's task on one vector subcore, call 2, as a frame: the valued statement with the output rows'
  contents forgotten.
-/
import proofs.«203556_g1357209665813_cont_week2b_798_48_alg».proof.Proof.BTile2ValWrap

noncomputable section

namespace Cert.Proof.KB.Tile2

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v9_scv : Memref Cert.Kernel.sig Kind.scVector Space.hbm Cert.Kernel.S32x25x64 EltTy.i32)
local notation "outW" => (Memref.whole Cert.Kernel.main_v10_scv : Memref Cert.Kernel.sig Kind.scVector Space.hbm Cert.Kernel.S51200x128 EltTy.f32)
local notation "ivW" => (Memref.whole Cert.Kernel.cc2_scratch0 : Memref Cert.Kernel.sig Kind.scVector Space.vmem Cert.Kernel.S25x64 EltTy.i32)
local notation "b0W" => (Memref.whole Cert.Kernel.cc2_scratch1 : Memref Cert.Kernel.sig Kind.scVector Space.vmem Cert.Kernel.S64x128 EltTy.f32)
local notation "b1W" => (Memref.whole Cert.Kernel.cc2_scratch2 : Memref Cert.Kernel.sig Kind.scVector Space.vmem Cert.Kernel.S64x128 EltTy.f32)
local notation "b2W" => (Memref.whole Cert.Kernel.cc2_scratch3 : Memref Cert.Kernel.sig Kind.scVector Space.vmem Cert.Kernel.S64x128 EltTy.f32)
local notation "b3W" => (Memref.whole Cert.Kernel.cc2_scratch4 : Memref Cert.Kernel.sig Kind.scVector Space.vmem Cert.Kernel.S64x128 EltTy.f32)
local notation "b4W" => (Memref.whole Cert.Kernel.cc2_scratch5 : Memref Cert.Kernel.sig Kind.scVector Space.vmem Cert.Kernel.S64x128 EltTy.f32)

variable [FloatOps F]

/-- The task's frame: what the valued theorem says, the rows the task wrote at contents not named. -/
theorem tile_body (hF : (K (F := F)).Facts) (d : Dev nD) (L : grid2.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc2_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc2_scratch6 cc2_scratch7 cc2_scratch8 cc2_scratch9 cc2_scratch10 cc2_scratch11 cc2_scratch12 cc2_scratch13 cc2_scratch14 cc2_scratch15 cc2_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KB.Tile2

end
-- ==== Proof.BTileOblBase2.lean ====
/-
  Shared by the two forms of SparseCore call 2's tile obligation: the call's number and label, the body table's row
  on a vector subcore as the gather kernel at its place, and the weakening of the recorded-waits bound the launch
  theorem's obligation allows.
-/
import proofs.«203556_g1357209665813_cont_week2b_798_48_alg».proof.Proof.BCall2

noncomputable section

namespace Cert.Proof.KB.Tile2

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 2
abbrev labC : Λ₀.Label := 2

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore2 hsub2 (fun c s => cc2_gather_rows (place (c, s))
          (Memref.whole main_arg2_scv) (Memref.isWhole_whole _) (Memref.whole main_v9_scv) (Memref.isWhole_whole _) (Memref.whole main_v10_scv) (Memref.isWhole_whole _)
          (Memref.whole cc2_scratch0) (Memref.isWhole_whole _) (Memref.whole cc2_scratch1) (Memref.isWhole_whole _) (Memref.whole cc2_scratch2) (Memref.isWhole_whole _)
          (Memref.whole cc2_scratch3) (Memref.isWhole_whole _) (Memref.whole cc2_scratch4) (Memref.isWhole_whole _) (Memref.whole cc2_scratch5) (Memref.isWhole_whole _)
          cc2_scratch6 cc2_scratch7 cc2_scratch8 cc2_scratch9 cc2_scratch10 cc2_scratch11 cc2_scratch12 cc2_scratch13 cc2_scratch14 cc2_scratch15 cc2_scoped0) ⟨⟩ c s := rfl

end Cert.Proof.KB.Tile2

end
-- ==== Proof.BTileObl2.lean ====
/-
  The launch theorem's obligation for SparseCore call 2: the task's frame, wrapped as the body table's row;
  the handshake's payloads are the task's holdings.
-/
import proofs.«203556_g1357209665813_cont_week2b_798_48_alg».proof.Proof.BTile2Frame
import proofs.«203556_g1357209665813_cont_week2b_798_48_alg».proof.Proof.BTileOblBase2

noncomputable section

namespace Cert.Proof.KB.Tile2

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid2.bound 0 ∧ ((K (F := F)).sub qC i).val < grid2.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KB.Tile2

end
-- ==== Proof.BTile3Base.lean ====
/-
  The row gather's task on one vector subcore, call 3: what the frame proof and the value proof of its body share. The subcore's
  own scratch buffers and semaphores named one by one; the table's share as one read token per gather semaphore; the fact that
  every word of the index scratch names a table row once the task's block has landed; a gather and a write-out in flight, as what
  their waits hand back; the task's output rows as its twenty-five chunks, split and joined.
-/
import proofs.«203556_g1357209665813_cont_week2b_798_48_alg».proof.Proof.BTile3Sets

noncomputable section

namespace Cert.Proof.KB.Tile3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v12_scv : Memref Cert.Kernel.sig Kind.scVector Space.hbm Cert.Kernel.S32x25x64 EltTy.i32)
local notation "outW" => (Memref.whole Cert.Kernel.main_v13_scv : Memref Cert.Kernel.sig Kind.scVector Space.hbm Cert.Kernel.S51200x128 EltTy.f32)
local notation "ivW" => (Memref.whole Cert.Kernel.cc3_scratch0 : Memref Cert.Kernel.sig Kind.scVector Space.vmem Cert.Kernel.S25x64 EltTy.i32)
local notation "b0W" => (Memref.whole Cert.Kernel.cc3_scratch1 : Memref Cert.Kernel.sig Kind.scVector Space.vmem Cert.Kernel.S64x128 EltTy.f32)
local notation "b1W" => (Memref.whole Cert.Kernel.cc3_scratch2 : Memref Cert.Kernel.sig Kind.scVector Space.vmem Cert.Kernel.S64x128 EltTy.f32)
local notation "b2W" => (Memref.whole Cert.Kernel.cc3_scratch3 : Memref Cert.Kernel.sig Kind.scVector Space.vmem Cert.Kernel.S64x128 EltTy.f32)
local notation "b3W" => (Memref.whole Cert.Kernel.cc3_scratch4 : Memref Cert.Kernel.sig Kind.scVector Space.vmem Cert.Kernel.S64x128 EltTy.f32)
local notation "b4W" => (Memref.whole Cert.Kernel.cc3_scratch5 : Memref Cert.Kernel.sig Kind.scVector Space.vmem Cert.Kernel.S64x128 EltTy.f32)

theorem mySems_scoped : ∀ i ∈ mySems, (SemLoc.dma i : SemLoc sig).isScoped .scVector = true := by decide

theorem myCells_sub (d : Dev nD) (L : grid3.Coords) : myCells d L ⊆ ownCells (thr d L) := by
  intro g hg
  obtain ⟨i, hi, rfl⟩ := Finset.mem_image.mp hg
  exact mem_ownCells.mpr ⟨rfl, mySems_scoped i hi⟩

theorem myRefs_sub (L : grid3.Coords) : myRefs L ⊆ ownRefs (τ := τ) (.scVector ((L 0).castLE hcore3) ((L 1).castLE hsub3)) := by
  intro b hb
  obtain ⟨r, hr, rfl⟩ := Finset.mem_image.mp hb
  simp only [Finset.mem_insert, Finset.mem_singleton] at hr
  rcases hr with rfl | rfl | rfl | rfl | rfl | rfl <;> exact SparseCore.Cfg.mem_ownRefs_of_owner rfl

theorem sepA {P Q R : sProp 𝕄} : iprop((P ∗ Q) ∗ R) = iprop(P ∗ Q ∗ R) := equiv_iff.mp ⟨BI.sep_assoc, BI.sep_assoc'⟩

theorem ownSems0_V (d : Dev nD) (L : grid3.Coords) :
    (ownSems0 (thr d L) : sProp 𝕄)
      = iprop(semVal (cellOf d L cc3_scratch6) 0 ∗ semVal (cellOf d L cc3_scratch7) 0 ∗ semVal (cellOf d L cc3_scratch8) 0
          ∗ semVal (cellOf d L cc3_scratch9) 0 ∗ semVal (cellOf d L cc3_scratch10) 0 ∗ semVal (cellOf d L cc3_scratch11) 0
          ∗ semVal (cellOf d L cc3_scratch12) 0 ∗ semVal (cellOf d L cc3_scratch13) 0 ∗ semVal (cellOf d L cc3_scratch14) 0
          ∗ semVal (cellOf d L cc3_scratch15) 0 ∗ semVal (cellOf d L cc3_scoped0) 0
          ∗ bigSep (ownCells (thr d L) \ myCells d L) fun g => semVal g 0) := by
  unfold SparseCore.Cfg.ownSems0
  rw [SparseCore.bigSep_sdiff_split' (myCells_sub d L)]
  unfold myCells
  rw [SparseCore.bigSep_image_of_injOn (fun a _ b _ h => by cases h; rfl)]
  unfold mySems
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [sepA]

theorem ownBufs_V (d : Dev nD) (L : grid3.Coords) :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ (∃ f, (thr d L).loc cc3_scratch4 ↦{fullShare} f) ∗ (∃ f, (thr d L).loc cc3_scratch5 ↦{fullShare} f)
          ∗ bigSep (ownRefs (τ := τ) (.scVector ((L 0).castLE hcore3) ((L 1).castLE hsub3)) \ myRefs L)
              fun b => iprop(∃ f, ((d, b) : Loc nD τ sig) ↦{fullShare} f)) := by
  unfold SparseCore.Cfg.ownBufs
  rw [show (thr d L).2 = Proc.scVector ((L 0).castLE hcore3) ((L 1).castLE hsub3) from rfl, SparseCore.bigSep_sdiff_split' (myRefs_sub L)]
  unfold myRefs
  rw [SparseCore.bigSep_image_of_injOn (fun a _ b _ h => Proc.devRef_injective _ h)]
  rw [SparseCore.bigSep_insert' (by decide +revert), SparseCore.bigSep_insert' (by decide +revert), SparseCore.bigSep_insert' (by decide +revert),
    SparseCore.bigSep_insert' (by decide +revert), SparseCore.bigSep_insert' (by decide +revert), bigSep_singleton]
  simp only [sepA]

def gSems : Finset (DmaSem sig) := {cc3_scratch6.sem, cc3_scratch7.sem, cc3_scratch8.sem, cc3_scratch9.sem, cc3_scratch10.sem}

theorem sepC {P Q : sProp 𝕄} : iprop(P ∗ Q) = iprop(Q ∗ P) := equiv_iff.mp ⟨BI.sep_comm, BI.sep_comm⟩

/-- The table at share q is five read tokens, one per gather semaphore, and what is left of the share. -/
theorem tbl_toks (d : Dev nD) (L : grid3.Coords) (q : PosShare TreeShare) (Tb : Buf (Elt F) (tblLoc d)) :
    (tblLoc d ↦{q} Tb : sProp 𝕄)
      = iprop(((tblW).view.loc (thr d L) ↦{tq q cc3_scratch6} Tb) ∗ ((tblW).view.loc (thr d L) ↦{tq q cc3_scratch7} Tb)
          ∗ ((tblW).view.loc (thr d L) ↦{tq q cc3_scratch8} Tb) ∗ ((tblW).view.loc (thr d L) ↦{tq q cc3_scratch9} Tb)
          ∗ ((tblW).view.loc (thr d L) ↦{tq q cc3_scratch10} Tb)
          ∗ (bigSep (Finset.univ \ gSems) fun i : DmaSem sig => (tblLoc d ↦{Transfers.shareTok q sig.nDmaSem i} Tb : sProp 𝕄))
          ∗ (tblLoc d ↦{Transfers.shareDrop q sig.nDmaSem} Tb)) := by
  have h := Transfers.pointsTo_toks (nD := nD) (τ := τ) (sig := sig) (Ix := HIx 4) (Val := Elt F) (Name := ℕ) (U := UU) (Lvl := ℕ)
    (ℓ := tblLoc d) (S := Finset.univ) (f := Tb) q sig.nDmaSem
  rw [equiv_iff.mp ⟨h.1, h.2⟩, sepC]
  rw [SparseCore.bigSep_sdiff_split' (Finset.subset_univ gSems)]
  unfold gSems
  rw [SparseCore.bigSep_insert' (by decide), SparseCore.bigSep_insert' (by decide), SparseCore.bigSep_insert' (by decide),
    SparseCore.bigSep_insert' (by decide), bigSep_singleton]
  simp only [sepA]

/-- The table as every gather reads it: the whole array through the program's slice of everything. -/
abbrev tblS : Memref sig .scVector .hbm S100000x128 .f32 :=
  (tblW).slice (Rect.unit (s := S100000x128) ![0, 0] S100000x128.size inb_S100000x128_S100000x128_0_0) (fun _ => rfl)

/-- A row of the index scratch as a gather's offset list. -/
abbrev ivRow (off : Fin 2 → ℕ) (h : ∀ a, off a + S1x64.size a ≤ S25x64.size a) : Memref sig .scVector .vmem S64 .i32 :=
  ((ivW).slice (Rect.unit (s := S25x64) off S1x64.size h) (fun _ => rfl)).squeeze S64 squeezes_S1x64_S64

/-- A gather in flight on semaphore sm: it hands back the slot buffer at contents g, the list row it reads and the table's read token. -/
abbrev GF (d : Dev nD) (L : grid3.Coords) (q : PosShare TreeShare) (Tb : Buf (Elt F) (tblLoc d))
    (fv : Buf (Elt F) ((ivW).view.loc (thr d L))) (sm : DmaSems sig S_) (bW : Memref sig .scVector .vmem S64x128 .f32)
    (off : Fin 2 → ℕ) (h : ∀ a, off a + S1x64.size a ≤ S25x64.size a) (g : Buf (Elt F) (bW.view.loc (thr d L))) : sProp 𝕄 :=
  Transfers.Flight countersEmb (thr d L) (SemLoc.dma sm.sem) default 262144
    iprop(((bW.view.loc (thr d L) ↦[bW.view.set]{fullShare} g) ∗ ((ivW).view.loc (thr d L) ↦[(ivRow off h).view.set]{fullShare} fv))
      ∗ ((tblW).view.loc (thr d L) ↦[(tblS).view.set]{tq q sm} Tb))

/-- What an issue leaves behind of a buffer lent whole: nothing. -/
abbrev restOf (d : Dev nD) (L : grid3.Coords) {sp : Space} {s : Shape} {e : EltTy} (m : Memref sig .scVector sp s e) (S : Finset (Idx (m.view.loc (thr d L))))
    (qq : PosShare TreeShare) (f : Buf (Elt F) (m.view.loc (thr d L))) : sProp 𝕄 :=
  m.view.loc (thr d L) ↦[Finset.univ \ S]{qq} f

/-- Every word of the index scratch, once the task's block has landed in it, names a row of the table. -/
theorem idx_inb (d : Dev nD) (L : grid3.Coords) (I : Buf (Elt F) (idxLoc d)) (hI : ∀ j ∈ idxSet L, (I j).toNat < 100000)
    (g : Buf (Elt F) ((ivW).view.loc (thr d L))) (off : Fin 2 → ℕ) (h : ∀ a, off a + S1x64.size a ≤ S25x64.size a) (x : S64.Idx) :
    ((((ivW).slice (Rect.unit (s := S25x64) off S1x64.size h) (fun _ => rfl)).squeeze S64 squeezes_S1x64_S64).view.read (Elt F)
      ((ivW).view.write (Elt F) g (ReadAs.same.apply ((idxRow L).view.read (Elt F) I)) Finset.univ) x).toNat < 100000 := by
  have key : ∀ j, ((ivW).view.write (Elt F) g (ReadAs.same.apply ((idxRow L).view.read (Elt F) I)) Finset.univ j).toNat < 100000 := by
    intro j
    rw [show (ivW).view.write (Elt F) g (ReadAs.same.apply ((idxRow L).view.read (Elt F) I)) Finset.univ
        = ReadAs.same.apply ((idxRow L).view.read (Elt F) I) from View.write_whole_univ _ _ _]
    show ((idxRow L).view.read (Elt F) I j).toNat < 100000
    rw [View.read_apply, cast_eq]
    exact hI _ (View.emb_mem_set _ _)
  rw [View.read_apply, cast_eq]
  exact key _

/-- The index scratch once the task's block has landed in it. -/
abbrev ivC (d : Dev nD) (L : grid3.Coords) (I : Buf (Elt F) (idxLoc d)) (fiv : Buf (Elt F) ((ivW).view.loc (thr d L))) :
    Buf (Elt F) ((ivW).view.loc (thr d L)) :=
  (ivW).view.write (Elt F) fiv (ReadAs.same.apply ((idxRow L).view.read (Elt F) I)) Finset.univ

/-- A write-out in flight on semaphore sm: it hands back the chunk of the output at contents o and the slot buffer at contents c. -/
abbrev WF (d : Dev nD) (L : grid3.Coords) (sm : DmaSems sig S_) (bW : Memref sig .scVector .vmem S64x128 .f32)
    (t : Fin k3_t1_loop.trips) (r : Fin 5) (o : Buf (Elt F) (outLoc d)) (c : Buf (Elt F) (bW.view.loc (thr d L))) : sProp 𝕄 :=
  Transfers.Flight countersEmb (thr d L) (SemLoc.dma sm.sem) default 262144
    iprop(((outChunk L t r).view.loc (thr d L) ↦[(outChunk L t r).view.set]{fullShare} o)
      ∗ (bW.view.loc (thr d L) ↦[bW.view.set]{fullShare} c))

/-- The index scratch less the three list rows lent to the gathers in flight. -/
abbrev ivRest (d : Dev nD) (L : grid3.Coords) (I : Buf (Elt F) (idxLoc d)) (fiv : Buf (Elt F) ((ivW).view.loc (thr d L)))
    (o0 : Fin 2 → ℕ) (p0 : ∀ a, o0 a + S1x64.size a ≤ S25x64.size a) (o1 : Fin 2 → ℕ) (p1 : ∀ a, o1 a + S1x64.size a ≤ S25x64.size a)
    (o2 : Fin 2 → ℕ) (p2 : ∀ a, o2 a + S1x64.size a ≤ S25x64.size a) : sProp 𝕄 :=
  (ivW).view.loc (thr d L) ↦[((Finset.univ \ (ivRow o0 p0).view.set) \ (ivRow o1 p1).view.set) \ (ivRow o2 p2).view.set]{fullShare} ivC d L I fiv

/-- The table's read token of semaphore sm, whole. -/
abbrev tok (d : Dev nD) (L : grid3.Coords) (q : PosShare TreeShare) (Tb : Buf (Elt F) (tblLoc d)) (sm : DmaSems sig S_) : sProp 𝕄 :=
  (tblW).view.loc (thr d L) ↦{tq q sm} Tb

/-- Chunk r of trip t of the output, held by its own elements at contents f. -/
abbrev chunkAt (d : Dev nD) (L : grid3.Coords) (t : Fin k3_t1_loop.trips) (r : Fin 5) (f : Buf (Elt F) (outLoc d)) : sProp 𝕄 :=
  (outChunk L t r).view.loc (thr d L) ↦[(outChunk L t r).view.set]{fullShare} f

/-- A trip's five chunks, not yet written. -/
abbrev tripTodo (d : Dev nD) (L : grid3.Coords) (fo : Buf (Elt F) (outLoc d)) (t : Fin k3_t1_loop.trips) : sProp 𝕄 :=
  iprop(chunkAt d L t 0 fo ∗ chunkAt d L t 1 fo ∗ chunkAt d L t 2 fo ∗ chunkAt d L t 3 fo ∗ chunkAt d L t 4 fo)

/-- A trip's five chunks, written and back. -/
abbrev tripDone (d : Dev nD) (L : grid3.Coords) (t : Fin k3_t1_loop.trips) : sProp 𝕄 :=
  iprop((∃ f, chunkAt (F := F) d L t 0 f) ∗ (∃ f, chunkAt (F := F) d L t 1 f) ∗ (∃ f, chunkAt (F := F) d L t 2 f)
    ∗ (∃ f, chunkAt (F := F) d L t 3 f) ∗ (∃ f, chunkAt (F := F) d L t 4 f))

theorem waits_ins {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with rfl | hp
  · exact .inr rfl
  · exact h p hp

/-! ## The task's rows of the output as its twenty-five chunks -/

theorem trips_univ : (Finset.univ : Finset (Fin k3_t1_loop.trips)) = {⟨0, by decide⟩, ⟨1, by decide⟩, ⟨2, by decide⟩, ⟨3, by decide⟩, ⟨4, by decide⟩} := by decide
theorem fin5_univ : (Finset.univ : Finset (Fin 5)) = {0, 1, 2, 3, 4} := by decide

theorem bigSep_fin5 (Φ : Fin 5 → sProp 𝕄) : bigSep Finset.univ Φ = iprop(Φ 0 ∗ Φ 1 ∗ Φ 2 ∗ Φ 3 ∗ Φ 4) := by
  rw [fin5_univ, SparseCore.bigSep_insert' (by decide), SparseCore.bigSep_insert' (by decide), SparseCore.bigSep_insert' (by decide),
    SparseCore.bigSep_insert' (by decide), bigSep_singleton]

theorem bigSep_trips (Φ : Fin k3_t1_loop.trips → sProp 𝕄) :
    bigSep Finset.univ Φ = iprop(Φ ⟨0, by decide⟩ ∗ Φ ⟨1, by decide⟩ ∗ Φ ⟨2, by decide⟩ ∗ Φ ⟨3, by decide⟩ ∗ Φ ⟨4, by decide⟩) := by
  rw [trips_univ, SparseCore.bigSep_insert' (by decide), SparseCore.bigSep_insert' (by decide), SparseCore.bigSep_insert' (by decide),
    SparseCore.bigSep_insert' (by decide), bigSep_singleton]

theorem bigSep_chunks (Φ : Fin k3_t1_loop.trips × Fin 5 → sProp 𝕄) :
    bigSep Finset.univ Φ = bigSep Finset.univ fun t => bigSep Finset.univ fun r => Φ (t, r) := by
  rw [← Finset.univ_product_univ, SparseCore.bigSep_product]

theorem bigSep25 (Φ : Fin k3_t1_loop.trips × Fin 5 → sProp 𝕄) :
    bigSep Finset.univ Φ
      = iprop((Φ (⟨0, by decide⟩, 0) ∗ Φ (⟨0, by decide⟩, 1) ∗ Φ (⟨0, by decide⟩, 2) ∗ Φ (⟨0, by decide⟩, 3) ∗ Φ (⟨0, by decide⟩, 4))
        ∗ (Φ (⟨1, by decide⟩, 0) ∗ Φ (⟨1, by decide⟩, 1) ∗ Φ (⟨1, by decide⟩, 2) ∗ Φ (⟨1, by decide⟩, 3) ∗ Φ (⟨1, by decide⟩, 4))
        ∗ (Φ (⟨2, by decide⟩, 0) ∗ Φ (⟨2, by decide⟩, 1) ∗ Φ (⟨2, by decide⟩, 2) ∗ Φ (⟨2, by decide⟩, 3) ∗ Φ (⟨2, by decide⟩, 4))
        ∗ (Φ (⟨3, by decide⟩, 0) ∗ Φ (⟨3, by decide⟩, 1) ∗ Φ (⟨3, by decide⟩, 2) ∗ Φ (⟨3, by decide⟩, 3) ∗ Φ (⟨3, by decide⟩, 4))
        ∗ (Φ (⟨4, by decide⟩, 0) ∗ Φ (⟨4, by decide⟩, 1) ∗ Φ (⟨4, by decide⟩, 2) ∗ Φ (⟨4, by decide⟩, 3) ∗ Φ (⟨4, by decide⟩, 4))) := by
  rw [bigSep_chunks, bigSep_trips, bigSep_fin5, bigSep_fin5, bigSep_fin5, bigSep_fin5, bigSep_fin5]

/-- The task's rows, not yet written, are its chunks trip by trip. -/
theorem out_split (d : Dev nD) (L : grid3.Coords) (fo : Buf (Elt F) (outLoc d)) :
    (outLoc d ↦[outSet L]{fullShare} fo : sProp 𝕄)
      = iprop(tripTodo d L fo ⟨0, by decide⟩ ∗ tripTodo d L fo ⟨1, by decide⟩ ∗ tripTodo d L fo ⟨2, by decide⟩
          ∗ tripTodo d L fo ⟨3, by decide⟩ ∗ tripTodo d L fo ⟨4, by decide⟩) := by
  have h1 : (outLoc d ↦[outSet L]{fullShare} fo : sProp 𝕄)
      = bigSep Finset.univ (fun p : Fin k3_t1_loop.trips × Fin 5 => chunkAt d L p.1 p.2 fo) :=
    pointsTo_biUnion Finset.univ _ (fun p _ p' _ h => chunk_disjoint L p p' h)
  rw [h1]
  exact bigSep25 (fun p : Fin k3_t1_loop.trips × Fin 5 => chunkAt d L p.1 p.2 fo)

/-- The chunks, each written and back at whatever contents, are the task's rows at some contents. -/
theorem out_join (d : Dev nD) (L : grid3.Coords) (f₀ : Buf (Elt F) (outLoc d)) :
    iprop(tripDone (F := F) d L ⟨0, by decide⟩ ∗ tripDone (F := F) d L ⟨1, by decide⟩ ∗ tripDone (F := F) d L ⟨2, by decide⟩
        ∗ tripDone (F := F) d L ⟨3, by decide⟩ ∗ tripDone (F := F) d L ⟨4, by decide⟩)
      ⊢ (iprop(∃ f, outLoc d ↦[outSet L]{fullShare} f) : sProp 𝕄) := by
  haveI hne : ∀ i : Fin k3_t1_loop.trips × Fin 5, Nonempty ((fun _ : Fin k3_t1_loop.trips × Fin 5 => Buf (Elt F) (outLoc d)) i) := fun _ => ⟨f₀⟩
  refine (Entails.of_eq (bigSep25 (fun p : Fin k3_t1_loop.trips × Fin 5 => (iprop(∃ f, chunkAt (F := F) d L p.1 p.2 f) : sProp 𝕄))).symm).trans ?_
  refine (@bigSep_exists_pi _ _ _ _ (fun _ : Fin k3_t1_loop.trips × Fin 5 => Buf (Elt F) (outLoc d)) hne Finset.univ
    (fun (p : Fin k3_t1_loop.trips × Fin 5) (f : Buf (Elt F) (outLoc d)) => chunkAt d L p.1 p.2 f)).trans ?_
  iintro ⟨%fs, H⟩
  ihave H' := (pointsTo_biUnion_join (ℓ := outLoc d) (q := fullShare) Finset.univ
    (fun p : Fin k3_t1_loop.trips × Fin 5 => ((outChunk L p.1 p.2).view.set : Finset S51200x128.Idx)) fs f₀
    (fun p _ p' _ h => chunk_disjoint L p p' h)) $$ H
  icases H' with ⟨%g, -, Hg⟩
  iexists g
  iexact Hg

end Cert.Proof.KB.Tile3
end
-- ==== Proof.BTile3ValLemmas.lean ====
/-
  Pure facts about the values one gather task moves: the task's block of ids read through the program's slice is row
  `wid` of the id array; an indirect gather's payload at `(j, h)` is the table at the row the list's `j`-th word names; a
  64-row buffer holding the rows the list of chunk `k` names, written over chunk `k` of the output, puts there exactly the
  function `Gathered` (row `1600·wid + 64·k + j` of the result is the table's row named by id `(wid, k, j)`); and the 25
  chunks of a task, each holding `Gathered` on its own rows, are the task's 1600 rows holding it.
-/
import proofs.«203556_g1357209665813_cont_week2b_798_48_alg».proof.Proof.BTile3Sets
import proofs.«203556_g1357209665813_cont_week2b_798_48_alg».proof.Proof.BGather
import Idealize.ShloMosaic.Lib.Pipeline.Value
import Idealize.ShloMosaic.Lib.ValueLayout

noncomputable section

namespace Cert.Proof.KB.Tile3

open Cert.Kernel Cert.Kernel.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ
local notation "ivW" => (Memref.whole Cert.Kernel.cc3_scratch0 : Memref Cert.Kernel.sig Kind.scVector Space.vmem Cert.Kernel.S25x64 EltTy.i32)
local notation "idxW" => (Memref.whole Cert.Kernel.main_v12_scv : Memref Cert.Kernel.sig Kind.scVector Space.hbm Cert.Kernel.S32x25x64 EltTy.i32)

/-- The worker a task is: twice the subcore plus the core. -/
abbrev wid (L : grid3.Coords) : ℕ := 2 * (L 1).val + (L 0).val

theorem wid_lt (L : grid3.Coords) : wid L < 32 := by
  have h0 := (L 0).isLt; have h1 := (L 1).isLt
  have b0 : grid3.bound 0 = 2 := rfl
  have b1 : grid3.bound 1 = 16 := rfl
  unfold wid; omega

/-! ## (1) The task's block of ids -/

/-- The block of the id array the task copies, read through the program's slice, is row `wid` of the array. -/
theorem idxRow_read_apply (L : grid3.Coords) (I : S32x25x64.Idx → BitVec 32) (k : Fin 25) (j : Fin 64) :
    (idxRow L).view.read (Elt F) I (ix2 k j) = I (ix3 (⟨wid L, wid_lt L⟩ : Fin 32) k j) := by
  have hc : S1x25x64.ShapeCasts S25x64 := by decide
  rw [show (idxRow L).view.read (Elt F) I
      = shapeCast S25x64 ((idxW).view.readAt (Elt F) (Rect.unit (s := S32x25x64) (k3_off1 L) S1x25x64.size (k3_off1_inb L)).toLoadRect I) hc from rfl]
  rw [shapeCast_1ab_ab_apply]
  show I ((Rect.unit (s := S32x25x64) (k3_off1 L) S1x25x64.size (k3_off1_inb L)).idx (ix3 0 k j)) = _
  refine congrArg I (funext fun a => Fin.ext ?_)
  have e := k3_off1_eq L
  match a with
  | ⟨0, _⟩ => show k3_off1 L 0 + 1 * (0 : ℕ) = wid L; rw [e]; simp
  | ⟨1, _⟩ => show k3_off1 L 1 + 1 * k.val = k.val; rw [e]; simp
  | ⟨2, _⟩ => show k3_off1 L 2 + 1 * j.val = j.val; rw [e]; simp

/-- Row `k` of the index scratch, once the task's block has landed in it (the scratch written whole with the block read
    through the program's slice), read as a gather's 64-word list: word `j` is id `(wid, k, j)`. -/
theorem ivRow_read_apply (d : Dev nD) (L : grid3.Coords) (I : S32x25x64.Idx → BitVec 32)
    (fiv : Buf (Elt F) ((ivW).view.loc (thr d L))) (off : Fin 2 → ℕ) (h : ∀ a, off a + S1x64.size a ≤ S25x64.size a)
    (k : Fin 25) (h0 : off 0 = k.val) (h1 : off 1 = 0) (j : Fin 64) :
    (((ivW).slice (Rect.unit (s := S25x64) off S1x64.size h) (fun _ => rfl)).squeeze S64 squeezes_S1x64_S64).view.read (Elt F)
        ((ivW).view.write (Elt F) fiv (ReadAs.same.apply ((idxRow L).view.read (Elt F) I)) Finset.univ) (ix1 j)
      = I (ix3 (⟨wid L, wid_lt L⟩ : Fin 32) k j) := by
  rw [show (ivW).view.write (Elt F) fiv (ReadAs.same.apply ((idxRow L).view.read (Elt F) I)) Finset.univ
      = ReadAs.same.apply ((idxRow L).view.read (Elt F) I) from View.write_whole_univ _ _ _]
  have hc : S1x64.ShapeCasts S64 := by decide
  rw [show (((ivW).slice (Rect.unit (s := S25x64) off S1x64.size h) (fun _ => rfl)).squeeze S64 squeezes_S1x64_S64).view.read (Elt F)
        (ReadAs.same.apply ((idxRow L).view.read (Elt F) I))
      = shapeCast S64 ((ivW).view.readAt (Elt F) (Rect.unit (s := S25x64) off S1x64.size h).toLoadRect (ReadAs.same.apply ((idxRow L).view.read (Elt F) I))) hc from rfl]
  rw [shapeCast_1a_a_apply]
  show (idxRow L).view.read (Elt F) I ((Rect.unit (s := S25x64) off S1x64.size h).idx (ix2 0 j)) = _
  rw [← idxRow_read_apply (F := F) L I k j]
  refine congrArg _ (funext fun a => Fin.ext ?_)
  match a with
  | ⟨0, _⟩ => show off 0 + 1 * (0 : ℕ) = k.val; omega
  | ⟨1, _⟩ => show off 1 + 1 * j.val = j.val; omega

/-! ## (2) What an indirect gather lands -/

/-- The rows a 64-word list names: entry `j` is the list's word at `j`, unsigned. -/
theorem rows_apply (iv : S64.Idx → Elt F .i32) (hn : S64.numel = S64x128.size gathers_S100000x128_S64x128.axis')
    (hin : ∀ x, (iv x).toNat < S100000x128.size gathers_S100000x128_S64x128.axis) (j : Fin 64) :
    (SparseCore.rows iv hn hin j).val = (iv (ix1 j)).toNat := by
  unfold SparseCore.rows
  show (iv (S64.rowMajor.symm (Fin.cast hn.symm j))).toNat = _
  refine congrArg (fun x => (iv x).toNat) ?_
  rw [Equiv.symm_apply_eq]
  apply Fin.ext
  rw [Shape.rowMajor_val_one]
  rfl

/-- THE GATHER'S PAYLOAD at `(j, h)`: the table at the row the list's word `j` names, column `h`. (The contents a gather
    lands in its whole 64×128 destination are this payload.) -/
theorem gatherPayload_apply (Tb : S100000x128.Idx → Elt F .f32) (iv : S64.Idx → Elt F .i32)
    (hn : S64.numel = S64x128.size gathers_S100000x128_S64x128.axis')
    (hin : ∀ x, (iv x).toNat < S100000x128.size gathers_S100000x128_S64x128.axis) (j : Fin 64) (h : Fin 128) :
    SparseCore.gatherPayload gathers_S100000x128_S64x128 Tb (SparseCore.rows iv hn hin) (ix2 j h)
      = Tb (ix2 (⟨(iv (ix1 j)).toNat, hin (ix1 j)⟩ : Fin 100000) h) := by
  unfold SparseCore.gatherPayload
  refine congrArg Tb (funext fun b => Fin.ext ?_)
  match b with
  | ⟨0, _⟩ =>
    show (gathers_S100000x128_S64x128.idx (SparseCore.rows iv hn hin) (ix2 j h) gathers_S100000x128_S64x128.axis).val = _
    rw [Shape.Gathers.idx_axis]
    exact rows_apply iv hn hin j
  | ⟨1, hb⟩ =>
    rw [Shape.Gathers.idx_of_ne _ _ _ ⟨1, hb⟩ (show (1 : ℕ) ≠ 0 from by decide)]
    rfl

/-! ## (3) The write-out -/

theorem hz2' : (![0, 0] : Fin 2 → ℕ) = fun _ => 0 := funext fun a => by fin_cases a <;> rfl

/-- The first row of chunk `r` of trip `t` of the task's output: `1600·wid + 64·(5t + r)`. -/
abbrev base (L : grid3.Coords) (t : Fin k3_t1_loop.trips) (r : Fin 5) : ℕ :=
  3200 * (L 1).val + 1600 * (L 0).val + 320 * t.val + 64 * r.val

/-- A 64×128 payload written over a chunk of the output puts, on the chunk's own elements, any function the payload is the
    chunk's block of. -/
theorem chunk_write_eq (L : grid3.Coords) (t : Fin k3_t1_loop.trips) (r : Fin 5) (o : S51200x128.Idx → Elt F .f32)
    (P : S64x128.Idx → Elt F .f32) (G : S51200x128.Idx → Elt F .f32)
    (hP : ∀ (j : Fin 64) (h : Fin 128) (hr : base L t r + j.val < 51200), P (ix2 j h) = G (ix2 (⟨base L t r + j.val, hr⟩ : Fin 51200) h)) :
    ∀ i ∈ ((outChunk L t r).view.set : Finset S51200x128.Idx), (outChunk L t r).view.write (Elt F) o P Finset.univ i = G i := by
  intro i hi
  obtain ⟨x, rfl⟩ := View.exists_emb_of_mem_set _ hi
  rw [View.write_emb_of_mem _ _ (Finset.mem_univ x), cast_eq]
  obtain ⟨j, h, rfl⟩ : ∃ (j : Fin 64) (h : Fin 128), x = ix2 j h := ⟨x 0, x 1, eq_ix2 x⟩
  have e5 := k3_off5_eq L t r
  have hr : base L t r + j.val < 51200 := by
    have h0 := (L 0).isLt; have h1 := (L 1).isLt
    have b0 : grid3.bound 0 = 2 := rfl
    have b1 : grid3.bound 1 = 16 := rfl
    have ht : t.val < 5 := lt_of_lt_of_eq t.isLt trips_eq
    have := r.isLt; have := j.isLt
    unfold base; omega
  rw [hP j h hr]
  refine congrArg G (funext fun a => Fin.ext ?_)
  match a with
  | ⟨0, _⟩ => show base L t r + j.val = k3_off5 L t (BitVec.ofNat 32 r.val) 0 + 1 * j.val; rw [e5]; simp
  | ⟨1, _⟩ => show h.val = k3_off5 L t (BitVec.ofNat 32 r.val) 1 + 1 * h.val; rw [e5]; simp

/-- THE WRITE-OUT OF A GATHERED CHUNK: the payload of the gather whose list is row `5t + r` of the task's block of ids
    (`hiv`), every id of it naming a row of the table (`hin`), written over chunk `r` of trip `t`, is `Gathered` on the
    chunk's elements: result row `1600·wid + 64·(5t + r) + j` is the table's row named by id `(wid, 5t + r, j)`. -/
theorem chunk_gathered (L : grid3.Coords) (t : Fin k3_t1_loop.trips) (r : Fin 5) (o : S51200x128.Idx → Elt F .f32)
    (Tb : S100000x128.Idx → Elt F .f32) (I : S32x25x64.Idx → BitVec 32) (iv : S64.Idx → Elt F .i32)
    (hn : S64.numel = S64x128.size gathers_S100000x128_S64x128.axis')
    (hin : ∀ x, (iv x).toNat < S100000x128.size gathers_S100000x128_S64x128.axis)
    (hk : 5 * t.val + r.val < 25)
    (hiv : ∀ j : Fin 64, iv (ix1 j) = I (ix3 (⟨wid L, wid_lt L⟩ : Fin 32) (⟨5 * t.val + r.val, hk⟩ : Fin 25) j)) :
    ∀ i ∈ ((outChunk L t r).view.set : Finset S51200x128.Idx),
      (outChunk L t r).view.write (Elt F) o (SparseCore.gatherPayload gathers_S100000x128_S64x128 Tb (SparseCore.rows iv hn hin)) Finset.univ i
        = Gathered Tb I i := by
  refine chunk_write_eq L t r o _ _ fun j h hr => ?_
  rw [gatherPayload_apply, Gathered_apply]
  have h0 := (L 0).isLt; have h1 := (L 1).isLt
  have b0 : grid3.bound 0 = 2 := rfl
  have b1 : grid3.bound 1 = 16 := rfl
  have ht : t.val < 5 := lt_of_lt_of_eq t.isLt trips_eq
  have hr5 := r.isLt; have hj := j.isLt
  have eI : (ix3 (⟨(base L t r + j.val) / 1600, by omega⟩ : Fin 32) (⟨(base L t r + j.val) % 1600 / 64, by omega⟩ : Fin 25)
        (⟨(base L t r + j.val) % 64, by omega⟩ : Fin 64) : S32x25x64.Idx)
      = ix3 (⟨wid L, wid_lt L⟩ : Fin 32) (⟨5 * t.val + r.val, hk⟩ : Fin 25) j := by
    funext d
    match d with
    | ⟨0, _⟩ => exact Fin.ext (by show (base L t r + j.val) / 1600 = wid L; unfold base wid; omega)
    | ⟨1, _⟩ => exact Fin.ext (by show (base L t r + j.val) % 1600 / 64 = 5 * t.val + r.val; unfold base; omega)
    | ⟨2, _⟩ => exact Fin.ext (by show (base L t r + j.val) % 64 = j.val; unfold base; omega)
  refine congrArg (fun q => Tb (ix2 q h)) (Fin.ext ?_)
  show (iv (ix1 j)).toNat = min (I (ix3 (⟨(base L t r + j.val) / 1600, by omega⟩ : Fin 32) (⟨(base L t r + j.val) % 1600 / 64, by omega⟩ : Fin 25)
        (⟨(base L t r + j.val) % 64, by omega⟩ : Fin 64))).toNat 99999
  rw [eI, ← hiv j]
  have := hin (ix1 j)
  have e : S100000x128.size gathers_S100000x128_S64x128.axis = 100000 := rfl
  rw [e] at this
  omega

/-! ## (4) The 25 chunks are the task's rows -/

/-- The task's 1600 rows of the output, held at `g`, are its 25 chunks each held at `g`. -/
theorem outSet_chunks (d : Dev nD) (L : grid3.Coords) (q : PosShare TreeShare) (g : Buf (Elt F) (outLoc d)) :
    (outLoc d ↦[outSet L]{q} g : sProp 𝕄)
      = bigSep (Finset.univ : Finset (Fin k3_t1_loop.trips × Fin 5)) fun p => outLoc d ↦[(outChunk L p.1 p.2).view.set]{q} g := by
  unfold outSet
  exact pointsTo_biUnion _ _ fun p _ p' _ h => chunk_disjoint L p p' h

/-- If every chunk is held at contents that are `G` on the chunk's own elements, the chunks are held at `G`: so the 25
    chunks, each written with its gathered rows, are the task's rows holding `G`. -/
theorem chunk_congr (d : Dev nD) (L : grid3.Coords) (t : Fin k3_t1_loop.trips) (r : Fin 5) (q : PosShare TreeShare)
    (f G : Buf (Elt F) (outLoc d)) (h : ∀ i ∈ ((outChunk L t r).view.set : Finset S51200x128.Idx), f i = G i) :
    (outLoc d ↦[(outChunk L t r).view.set]{q} f : sProp 𝕄) = outLoc d ↦[(outChunk L t r).view.set]{q} G :=
  pointsTo_congr h

/-- THE JOIN: the 25 chunks, chunk `p` held at contents that agree with `G` on the chunk's own elements, are the task's
    1600 rows held at `G`. -/
theorem chunks_join (d : Dev nD) (L : grid3.Coords) (q : PosShare TreeShare)
    (f : Fin k3_t1_loop.trips × Fin 5 → Buf (Elt F) (outLoc d)) (G : Buf (Elt F) (outLoc d))
    (h : ∀ p : Fin k3_t1_loop.trips × Fin 5, ∀ i ∈ ((outChunk L p.1 p.2).view.set : Finset S51200x128.Idx), f p i = G i) :
    (bigSep (Finset.univ : Finset (Fin k3_t1_loop.trips × Fin 5)) fun p => outLoc d ↦[(outChunk L p.1 p.2).view.set]{q} f p : sProp 𝕄)
      = outLoc d ↦[outSet L]{q} G := by
  rw [outSet_chunks]
  exact bigSep_congr fun p _ => pointsTo_congr (h p)

end Cert.Proof.KB.Tile3
end
-- ==== Proof.BTile3ValWrap.lean ====
/-
  The row gather's task on one vector subcore, call 3: its run with the values it moves, from the run proved once over any
  call's arguments. The subcore's scoped buffers and semaphores are peeled down to the six scratch buffers and eleven
  semaphores the task names, the table's share to its five read tokens, the task's output rows to its twenty-five chunks;
  the argument-generic run is instantiated at the gathered rows as the target, with the fact that a chunk written whole
  with what its own row of ids gathered holds the gathered rows; the chunks, all at the gathered rows, are joined back.
-/
import proofs.«203556_g1357209665813_cont_week2b_798_48_alg».proof.Proof.BTile3Base
import proofs.«203556_g1357209665813_cont_week2b_798_48_alg».proof.Proof.BTile3ValLemmas
import proofs.«203556_g1357209665813_cont_week2b_798_48_alg».proof.Proof.BTileCoreVal

noncomputable section

namespace Cert.Proof.KB.Tile3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v12_scv : Memref Cert.Kernel.sig Kind.scVector Space.hbm Cert.Kernel.S32x25x64 EltTy.i32)
local notation "outW" => (Memref.whole Cert.Kernel.main_v13_scv : Memref Cert.Kernel.sig Kind.scVector Space.hbm Cert.Kernel.S51200x128 EltTy.f32)
local notation "ivW" => (Memref.whole Cert.Kernel.cc3_scratch0 : Memref Cert.Kernel.sig Kind.scVector Space.vmem Cert.Kernel.S25x64 EltTy.i32)
local notation "b0W" => (Memref.whole Cert.Kernel.cc3_scratch1 : Memref Cert.Kernel.sig Kind.scVector Space.vmem Cert.Kernel.S64x128 EltTy.f32)
local notation "b1W" => (Memref.whole Cert.Kernel.cc3_scratch2 : Memref Cert.Kernel.sig Kind.scVector Space.vmem Cert.Kernel.S64x128 EltTy.f32)
local notation "b2W" => (Memref.whole Cert.Kernel.cc3_scratch3 : Memref Cert.Kernel.sig Kind.scVector Space.vmem Cert.Kernel.S64x128 EltTy.f32)
local notation "b3W" => (Memref.whole Cert.Kernel.cc3_scratch4 : Memref Cert.Kernel.sig Kind.scVector Space.vmem Cert.Kernel.S64x128 EltTy.f32)
local notation "b4W" => (Memref.whole Cert.Kernel.cc3_scratch5 : Memref Cert.Kernel.sig Kind.scVector Space.vmem Cert.Kernel.S64x128 EltTy.f32)

/-- Call 0's arguments. -/
abbrev A0 : TileCore.Args :=
  ⟨idxW, Memref.isWhole_whole _, outW, Memref.isWhole_whole _, ivW, Memref.isWhole_whole _, b0W, Memref.isWhole_whole _,
    b1W, Memref.isWhole_whole _, b2W, Memref.isWhole_whole _, b3W, Memref.isWhole_whole _, b4W, Memref.isWhole_whole _,
    cc3_scratch6, cc3_scratch7, cc3_scratch8, cc3_scratch9, cc3_scratch10, cc3_scratch11, cc3_scratch12, cc3_scratch13,
    cc3_scratch14, cc3_scratch15, cc3_scoped0⟩

/-! ## The contents a gather lands, over call 3's arrays -/

/-- What the gather whose list is the row of the index scratch at off lands in a slot: row j is the table's row the list's word j names. -/
def gp (d : Dev nD) (L : grid3.Coords) (Tb : Buf (Elt F) (tblLoc d)) (I : Buf (Elt F) (idxLoc d)) (hI : ∀ j ∈ idxSet L, (I j).toNat < 100000)
    (fiv : Buf (Elt F) ((ivW).view.loc (thr d L))) (off : Fin 2 → ℕ) (h : ∀ a, off a + S1x64.size a ≤ S25x64.size a) :
    S64x128.Idx → Elt F .f32 :=
  SparseCore.gatherPayload gathers_S100000x128_S64x128 ((tblS).view.read (Elt F) Tb)
    (SparseCore.rows ((ivRow off h).view.read (Elt F) (ivC d L I fiv)) rfl (fun x => idx_inb d L I hI fiv off h x))

/-- The table read through the program's slice of everything is the table. -/
theorem tblS_read (d : Dev nD) (Tb : Buf (Elt F) (tblLoc d)) : (tblS).view.read (Elt F) Tb = Tb := by
  funext x
  rw [View.read_apply, cast_eq]
  refine congrArg Tb (funext fun a => Fin.ext ?_)
  show (![0, 0] : Fin 2 → ℕ) a + 1 * (x a).val = (x a).val
  rw [hz2']
  show 0 + 1 * (x a).val = (x a).val
  omega

/-- A chunk of the output written whole with what the gather of its own row of ids landed holds the gathered rows. -/
theorem chunk_at_G (d : Dev nD) (L : grid3.Coords) (Tb : Buf (Elt F) (tblLoc d)) (I : Buf (Elt F) (idxLoc d)) (hI : ∀ j ∈ idxSet L, (I j).toNat < 100000)
    (fiv : Buf (Elt F) ((ivW).view.loc (thr d L))) (t : Fin k3_t1_loop.trips) (r : Fin 5)
    (off : Fin 2 → ℕ) (h : ∀ a, off a + S1x64.size a ≤ S25x64.size a) (hk : 5 * t.val + r.val < 25)
    (h0 : off 0 = 5 * t.val + r.val) (h1 : off 1 = 0) (fo : Buf (Elt F) (outLoc d))
    (P : S64x128.Idx → Elt F .f32) (hP : ∀ x, P x = gp d L Tb I hI fiv off h x) :
    ((outChunk L t r).view.loc (thr d L) ↦[(outChunk L t r).view.set]{fullShare}
        (outChunk L t r).view.writes (Elt F) fo [⟨Rect.whole S64x128, P⟩] : sProp 𝕄)
      = ((outChunk L t r).view.loc (thr d L) ↦[(outChunk L t r).view.set]{fullShare} Gathered Tb I) := by
  apply pointsTo_congr
  intro i hi
  have hPe : P = gp d L Tb I hI fiv off h := funext hP
  subst hPe
  rw [← View.write_univ_eq_writes_whole _ _ [] _, View.writes_nil]
  unfold gp
  rw [tblS_read]
  exact chunk_gathered L t r fo Tb I _ rfl _ hk (fun j => ivRow_read_apply d L I fiv off h ⟨5 * t.val + r.val, hk⟩ h0 h1 j) i hi

variable [FloatOps F]

set_option maxRecDepth 100000 in
set_option maxHeartbeats 0 in
/-- The task's run with its values, call 3. -/
theorem tile_body_val (hF : (K (F := F)).Facts) (d : Dev nD) (L : grid3.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc3_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((tblLoc d ↦{q} Tb) ∗ (idxLoc d ↦[idxSet L]{fullShare} I) ∗ (outLoc d ↦[outSet L]{fullShare} Gathered Tb I))
            ∗ scopedBufs (thr d L) ∗ scopedSems0 (thr d L) ∗ ∃ W', ⌜∀ p ∈ W', p ∈ W ∨ p.2 = none⌝ ∗ owes (thr d L) O W') := by
  rw [tbl_toks d L q Tb]
  rw [(K (F := F)).scopedBufs_V hF d ((L 0).castLE hcore3) ((L 1).castLE hsub3),
    SparseCore.Cfg.scopedSems0_V (Val := Elt F) d ((L 0).castLE hcore3) ((L 1).castLE hsub3), ownSems0_V, ownBufs_V]
  iintro ⟨#Hlv, ⟨⟨Ht0, Ht1, Ht2, Ht3, Ht4, Htr, Htd⟩, Hi, %fo, Ho⟩, ⟨⟨%fiv, Hiv⟩, ⟨%f0, Hb0⟩, ⟨%f1, Hb1⟩, ⟨%f2, Hb2⟩, ⟨%f3, Hb3⟩, ⟨%f4, Hb4⟩, Hbufs⟩,
    ⟨Hg0, Hg1, Hg2, Hg3, Hg4, Hw0, Hw1, Hw2, Hw3, Hw4, Hsc, Hsems⟩, HO⟩
  ihave Hmw := ((K (F := F)).mayWaits_none (thr := thr d L) hO) $$ Hlv
  ihave Hch := (Entails.of_eq (out_split (F := F) d L fo)) $$ Ho
  icases Hch with ⟨T0, T1, T2, T3, T4⟩
  ihave Hi' := (Entails.of_eq (show (TileCore.idxBlockV (F := F) A0 d L I : sProp 𝕄) = (idxLoc d ↦[idxSet L]{fullShare} I) from rfl).symm) $$ Hi
  ihave Hc := (TileCore.coreV (F := F) A0 d L q Tb I (idx_inb d L I hI) (Gathered Tb I) O W fiv f0 f1 f2 f3 f4 fo
      (fun t r off h hk h0 h1 fo' P hP => chunk_at_G d L Tb I hI fiv t r off h hk h0 h1 fo' P hP))
    $$ [Hmw HO Ht0 Ht1 Ht2 Ht3 Ht4 Hg0 Hg1 Hg2 Hg3 Hg4 Hw0 Hw1 Hw2 Hw3 Hw4 Hsc Hiv Hb0 Hb1 Hb2 Hb3 Hb4 Hi' T0 T1 T2 T3 T4]
  · isplitr; · iexact Hmw
    isplitl [HO]; · iexact HO
    isplitl [Ht0 Ht1 Ht2 Ht3 Ht4]
    · isplitl [Ht0]; · iexact Ht0
      isplitl [Ht1]; · iexact Ht1
      isplitl [Ht2]; · iexact Ht2
      isplitl [Ht3]; · iexact Ht3
      iexact Ht4
    isplitl [Hg0 Hg1 Hg2 Hg3 Hg4 Hw0 Hw1 Hw2 Hw3 Hw4 Hsc]
    · isplitl [Hg0]; · iexact Hg0
      isplitl [Hg1]; · iexact Hg1
      isplitl [Hg2]; · iexact Hg2
      isplitl [Hg3]; · iexact Hg3
      isplitl [Hg4]; · iexact Hg4
      isplitl [Hw0]; · iexact Hw0
      isplitl [Hw1]; · iexact Hw1
      isplitl [Hw2]; · iexact Hw2
      isplitl [Hw3]; · iexact Hw3
      isplitl [Hw4]; · iexact Hw4
      iexact Hsc
    isplitl [Hiv Hb0 Hb1 Hb2 Hb3 Hb4]
    · isplitl [Hiv]; · iexact Hiv
      isplitl [Hb0]; · iexact Hb0
      isplitl [Hb1]; · iexact Hb1
      isplitl [Hb2]; · iexact Hb2
      isplitl [Hb3]; · iexact Hb3
      iexact Hb4
    isplitl [Hi']; · iexact Hi'
    isplitl [T0]; · iexact T0
    isplitl [T1]; · iexact T1
    isplitl [T2]; · iexact T2
    isplitl [T3]; · iexact T3
    iexact T4
  iapply (wp_wand frame (wpE (defs₀ (F := F)) 𝒱₀ (thr d L) none) Set.univ) $$ Hc
  iintro %_ ⟨⟨Ht0, Ht1, Ht2, Ht3, Ht4⟩, ⟨Hg0, Hg1, Hg2, Hg3, Hg4, Hw0, Hw1, Hw2, Hw3, Hw4, Hsc⟩, ⟨Hiv, Hb0, Hb1, Hb2, Hb3, Hb4⟩, Hj, ⟨D0, D1, D2, D3, D4⟩, HW⟩
  ihave Hi := (Entails.of_eq (show (TileCore.idxBlockV (F := F) A0 d L I : sProp 𝕄) = (idxLoc d ↦[idxSet L]{fullShare} I) from rfl)) $$ Hj
  ihave Hout := (Entails.of_eq (out_split (F := F) d L (Gathered Tb I)).symm) $$ [D0 D1 D2 D3 D4]
  · isplitl [D0]; · iexact D0
    isplitl [D1]; · iexact D1
    isplitl [D2]; · iexact D2
    isplitl [D3]; · iexact D3
    iexact D4
  isplitl [Ht0 Ht1 Ht2 Ht3 Ht4 Htr Htd Hi Hout]
  · isplitl [Ht0 Ht1 Ht2 Ht3 Ht4 Htr Htd]
    · isplitl [Ht0]; · iexact Ht0
      isplitl [Ht1]; · iexact Ht1
      isplitl [Ht2]; · iexact Ht2
      isplitl [Ht3]; · iexact Ht3
      isplitl [Ht4]; · iexact Ht4
      isplitl [Htr]; · iexact Htr
      iexact Htd
    isplitl [Hi]; · iexact Hi
    iexact Hout
  isplitl [Hiv Hb0 Hb1 Hb2 Hb3 Hb4 Hbufs]
  · isplitl [Hiv]; · iexact Hiv
    isplitl [Hb0]; · iexact Hb0
    isplitl [Hb1]; · iexact Hb1
    isplitl [Hb2]; · iexact Hb2
    isplitl [Hb3]; · iexact Hb3
    isplitl [Hb4]; · iexact Hb4
    iexact Hbufs
  isplitl [Hg0 Hg1 Hg2 Hg3 Hg4 Hw0 Hw1 Hw2 Hw3 Hw4 Hsc Hsems]
  · isplitl [Hg0]; · iexact Hg0
    isplitl [Hg1]; · iexact Hg1
    isplitl [Hg2]; · iexact Hg2
    isplitl [Hg3]; · iexact Hg3
    isplitl [Hg4]; · iexact Hg4
    isplitl [Hw0]; · iexact Hw0
    isplitl [Hw1]; · iexact Hw1
    isplitl [Hw2]; · iexact Hw2
    isplitl [Hw3]; · iexact Hw3
    isplitl [Hw4]; · iexact Hw4
    isplitl [Hsc]; · iexact Hsc
    iexact Hsems
  iexact HW

end Cert.Proof.KB.Tile3
end
-- ==== Proof.BTile3Frame.lean ====
/-
  The row gather's task on one vector subcore, call 3, as a frame: the valued statement with the output rows'
  contents forgotten.
-/
import proofs.«203556_g1357209665813_cont_week2b_798_48_alg».proof.Proof.BTile3ValWrap

noncomputable section

namespace Cert.Proof.KB.Tile3

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

local notation "tblW" => (Memref.whole Cert.Kernel.main_arg2_scv : Memref Cert.Kernel.sig Kind.scVector Space.hbm Cert.Kernel.S100000x128 EltTy.f32)
local notation "idxW" => (Memref.whole Cert.Kernel.main_v12_scv : Memref Cert.Kernel.sig Kind.scVector Space.hbm Cert.Kernel.S32x25x64 EltTy.i32)
local notation "outW" => (Memref.whole Cert.Kernel.main_v13_scv : Memref Cert.Kernel.sig Kind.scVector Space.hbm Cert.Kernel.S51200x128 EltTy.f32)
local notation "ivW" => (Memref.whole Cert.Kernel.cc3_scratch0 : Memref Cert.Kernel.sig Kind.scVector Space.vmem Cert.Kernel.S25x64 EltTy.i32)
local notation "b0W" => (Memref.whole Cert.Kernel.cc3_scratch1 : Memref Cert.Kernel.sig Kind.scVector Space.vmem Cert.Kernel.S64x128 EltTy.f32)
local notation "b1W" => (Memref.whole Cert.Kernel.cc3_scratch2 : Memref Cert.Kernel.sig Kind.scVector Space.vmem Cert.Kernel.S64x128 EltTy.f32)
local notation "b2W" => (Memref.whole Cert.Kernel.cc3_scratch3 : Memref Cert.Kernel.sig Kind.scVector Space.vmem Cert.Kernel.S64x128 EltTy.f32)
local notation "b3W" => (Memref.whole Cert.Kernel.cc3_scratch4 : Memref Cert.Kernel.sig Kind.scVector Space.vmem Cert.Kernel.S64x128 EltTy.f32)
local notation "b4W" => (Memref.whole Cert.Kernel.cc3_scratch5 : Memref Cert.Kernel.sig Kind.scVector Space.vmem Cert.Kernel.S64x128 EltTy.f32)

variable [FloatOps F]

/-- The task's frame: what the valued theorem says, the rows the task wrote at contents not named. -/
theorem tile_body (hF : (K (F := F)).Facts) (d : Dev nD) (L : grid3.Coords) (q : PosShare TreeShare) (Tb : Buf (Elt F) (tblLoc d)) (I : Buf (Elt F) (idxLoc d))
    (hI : ∀ j ∈ idxSet L, (I j).toNat < 100000)
    (O : CellTallies nD τ sig (HIx 4)) (W : Waits sig (HIx 4)) (hO : ∀ g, O g none = 0) :
    iprop(levAts (K (F := F)).L (K (F := F)).lev
        ∗ ((tblLoc d ↦{q} Tb : sProp 𝕄) ∗ (idxLoc d ↦[idxSet L]{fullShare} I) ∗ ∃ f, outLoc d ↦[outSet L]{fullShare} f)
        ∗ scopedBufs (thr d L) ∗ scopedSems0 (thr d L) ∗ owes (thr d L) O W)
      ⊢ wp frame (wpE (defs₀ (F := F)) 𝒱₀ (thr d L) none) Set.univ
          (cc3_gather_rows L tblW (Memref.isWhole_whole _) idxW (Memref.isWhole_whole _) outW (Memref.isWhole_whole _)
            ivW (Memref.isWhole_whole _) b0W (Memref.isWhole_whole _) b1W (Memref.isWhole_whole _) b2W (Memref.isWhole_whole _)
            b3W (Memref.isWhole_whole _) b4W (Memref.isWhole_whole _)
            cc3_scratch6 cc3_scratch7 cc3_scratch8 cc3_scratch9 cc3_scratch10 cc3_scratch11 cc3_scratch12 cc3_scratch13 cc3_scratch14 cc3_scratch15 cc3_scoped0)
          fun _ => iprop(((tblLoc d ↦{q} Tb) ∗ (idxLoc d ↦[idxSet L]{fullShare} I) ∗ ∃ f, outLoc d ↦[outSet L]{fullShare} f)
            ∗ scopedBufs (thr d L) ∗ scopedSems0 (thr d L) ∗ ∃ W', ⌜∀ p ∈ W', p ∈ W ∨ p.2 = none⌝ ∗ owes (thr d L) O W') :=
  (tile_body_val hF d L q Tb I hI O W hO).trans (wp_mono frame _ _ fun _ => by
    iintro ⟨⟨Ht, Hi, Ho⟩, Hrest⟩
    isplitl [Ht Hi Ho]
    · isplitl [Ht]; · iexact Ht
      isplitl [Hi]; · iexact Hi
      iexists _; iexact Ho
    iexact Hrest)

end Cert.Proof.KB.Tile3

end
-- ==== Proof.BTileOblBase3.lean ====
/-
  Shared by the two forms of SparseCore call 3's tile obligation: the call's number and label, the body table's row
  on a vector subcore as the gather kernel at its place, and the weakening of the recorded-waits bound the launch
  theorem's obligation allows.
-/
import proofs.«203556_g1357209665813_cont_week2b_798_48_alg».proof.Proof.BCall3

noncomputable section

namespace Cert.Proof.KB.Tile3

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The call's number among the SparseCore calls, and its kernel's label. -/
abbrev qC : Fin 4 := 3
abbrev labC : Λ₀.Label := 3

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

/-- The body table's row of the call's kernel on a vector subcore: the gather kernel at that place when the grid holds it. -/
theorem defs₀_vector (c : Fin τ.nSC) (s : Fin τ.nSub) :
    defs₀ (F := F) (.scVector c s) labC ()
      = SparseCore.onTile hcore3 hsub3 (fun c s => cc3_gather_rows (place (c, s))
          (Memref.whole main_arg2_scv) (Memref.isWhole_whole _) (Memref.whole main_v12_scv) (Memref.isWhole_whole _) (Memref.whole main_v13_scv) (Memref.isWhole_whole _)
          (Memref.whole cc3_scratch0) (Memref.isWhole_whole _) (Memref.whole cc3_scratch1) (Memref.isWhole_whole _) (Memref.whole cc3_scratch2) (Memref.isWhole_whole _)
          (Memref.whole cc3_scratch3) (Memref.isWhole_whole _) (Memref.whole cc3_scratch4) (Memref.isWhole_whole _) (Memref.whole cc3_scratch5) (Memref.isWhole_whole _)
          cc3_scratch6 cc3_scratch7 cc3_scratch8 cc3_scratch9 cc3_scratch10 cc3_scratch11 cc3_scratch12 cc3_scratch13 cc3_scratch14 cc3_scratch15 cc3_scoped0) ⟨⟩ c s := rfl

end Cert.Proof.KB.Tile3

end
-- ==== Proof.BTileObl3.lean ====
/-
  The launch theorem's obligation for SparseCore call 3: the task's frame, wrapped as the body table's row;
  the handshake's payloads are the task's holdings.
-/
import proofs.«203556_g1357209665813_cont_week2b_798_48_alg».proof.Proof.BTile3Frame
import proofs.«203556_g1357209665813_cont_week2b_798_48_alg».proof.Proof.BTileOblBase3

noncomputable section

namespace Cert.Proof.KB.Tile3

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads that are the tasks' holdings `GO`. -/
theorem tileObl (TP : TilePay F) (Id : (d : Dev nD) → Buf (Elt F) (idxLoc d))
    (hgo : ∀ d c i, TP.go qC d c i = GO m Id d (c, i)) (htd : ∀ d c i, TP.td qC d c i = GO m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid3.bound 0 ∧ ((K (F := F)).sub qC i).val < grid3.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KB.Tile3

end
-- ==== Proof.BFrames.lean ====
/-
  The kernel program's frame from the precondition: the ids are in range, so every task's gathers name rows of the
  table; the four tile obligations then give the run.
-/
import proofs.«203556_g1357209665813_cont_week2b_798_48_alg».proof.Proof.BFrameKI
import proofs.«203556_g1357209665813_cont_week2b_798_48_alg».proof.Proof.BTileObl0
import proofs.«203556_g1357209665813_cont_week2b_798_48_alg».proof.Proof.BTileObl1
import proofs.«203556_g1357209665813_cont_week2b_798_48_alg».proof.Proof.BTileObl2
import proofs.«203556_g1357209665813_cont_week2b_798_48_alg».proof.Proof.BTileObl3

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL.Sem

variable {F : FTy → Type} [FloatOps F]

variable (m : (ℓ : Loc nD τ sig) → Buf (Elt F) ℓ) (ρ : Dev nD → PrngReg)

/-- The four tile obligations, from the ids' range. -/
theorem htiles [∀ e, Nonempty (Elt F e)]
    (h0 : ∀ d j, ((m ((SparseCore.T d).loc main_arg0) : S1024x200.Idx → BitVec 32) j).toNat < 100000) :
    ∀ q, (K (F := F)).TileObl (D (F := F)) 𝒱 (P (TPv m (Jv m))) v₀ q
  | 0 => Tile0.tileObl m (TPv m (Jv m)) (Ids0 m) (fun _ _ _ => rfl) (fun _ _ _ => rfl) (fun d _ j _ => Ids_range0 m d (h0 d) j)
  | 1 => Tile1.tileObl m (TPv m (Jv m)) (Ids1 m) (fun _ _ _ => rfl) (fun _ _ _ => rfl) (fun d _ j _ => Ids_range1 m d (h0 d) j)
  | 2 => Tile2.tileObl m (TPv m (Jv m)) (Ids2 m) (fun _ _ _ => rfl) (fun _ _ _ => rfl) (fun d _ j _ => Ids_range2 m d (h0 d) j)
  | 3 => Tile3.tileObl m (TPv m (Jv m)) (Ids3 m) (fun _ _ _ => rfl) (fun _ _ _ => rfl) (fun d _ j _ => Ids_range3 m d (h0 d) j)

/-- The program's run: it terminates, nothing faults, the arguments end as launched. -/
theorem run_frame [∀ e, Nonempty (Elt F e)]
    (h0 : ∀ d j, ((m ((SparseCore.T d).loc main_arg0) : S1024x200.Idx → BitVec 32) j).toNat < 100000) :
    θ_run (Cert.Kernel.defs (F := F)) (Cert.Kernel.threads (F := F)) ⟨m, fun _ => 0, ρ⟩ (QC m) :=
  run_of_tiles m ρ (htiles m h0)

end Cert.Proof.KB

end
-- ==== Proof.RefRun.lean ====
/-
  The reference program's @main as the list of its 103 host operations — each outlined `jnp.take` (and the `jnp.where`
  inside it) standing at its call site as the callee's own operations over that call's buffers — and its run read
  back: every weakly fair execution terminates with the result buffer at the operations' composed pure term `res` of
  the seven argument arrays, and the argument arrays unchanged.

  `res` is stated in stages: the three row gathers (`takeW`, `takeP`, `takeT`: word, position and token-type tables),
  their sum `emb`, the row mean, the centered rows, the row variance and the normalized, scaled and shifted rows.
-/
import proofs.«203556_g1357209665813_cont_week2b_798_48_alg».proof.Defs
import proofs.«203556_g1357209665813_cont_week2b_798_48_alg».proof.Proof.Gen.ReferenceIdeal
import proofs.«203556_g1357209665813_cont_week2b_798_48_alg».proof.Proof.Gen.Pre_input_domain
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The index operand of the word gather: an index below zero moved up by the table's height 100000, any other kept,
    then given a trailing unit axis. -/
def idxW (i : IVec S1024x200 32) : IVec S1024x200x1 32 :=
  broadcastInDim S1024x200x1 ![0, 1] bcast_S1024x200_S1024x200x1_0_1
    (select (cmpi .slt i (broadcastInDim S1024x200 ![] bcast_S_S1024x200 (constantI S_ 32 0#32)))
      (addi i (broadcastInDim S1024x200 ![] bcast_S_S1024x200 (constantI S_ 32 100000#32))) i)

/-- Which index vectors of the word gather lie inside the table: each component at least zero and at most
    99999, the conjunction over the (unit) component axis. -/
def inRangeW (i : IVec S1024x200 32) : IVec S1024x200 1 :=
  Host.reduce IntOp.andi
    (andi (cmpi .sge (idxW i) (broadcastInDim S1024x200x1 ![] bcast_S_S1024x200x1 (constantI S_ 32 0#32)))
      (cmpi .sle (idxW i) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- `jnp.take(table, i, axis = 0)` of the word table: the rows gathered at the wrapped index, a row whose index
    lies outside the table replaced by the fill word. -/
def takeW (x : FVec F S100000x128 .f32) (i : IVec S1024x200 32) : FVec F S1024x200x128 .f32 :=
  select (broadcastInDim S1024x200x128 ![0, 1] bcast_S1024x200_S1024x200x128_0_1 (inRangeW i))
    (Host.gather gather_S100000x128_S1024x200x1_S1024x200x128_2_0_n_n_0_2_1128 x (idxW i))
    (broadcastInDim S1024x200x128 ![] bcast_S_S1024x200x128 (constant (F := F) S_ .f32 0x7FC00000#32))

/-- The index operand of the position gather: an index below zero moved up by the table's height 512, any other kept,
    then given a trailing unit axis. -/
def idxP (i : IVec S200 32) : IVec S200x1 32 :=
  broadcastInDim S200x1 ![0] bcast_S200_S200x1_0
    (select (cmpi .slt i (broadcastInDim S200 ![] bcast_S_S200 (constantI S_ 32 0#32)))
      (addi i (broadcastInDim S200 ![] bcast_S_S200 (constantI S_ 32 512#32))) i)

/-- Which index vectors of the position gather lie inside the table: each component at least zero and at most
    511, the conjunction over the (unit) component axis. -/
def inRangeP (i : IVec S200 32) : IVec S200 1 :=
  Host.reduce IntOp.andi
    (andi (cmpi .sge (idxP i) (broadcastInDim S200x1 ![] bcast_S_S200x1 (constantI S_ 32 0#32)))
      (cmpi .sle (idxP i) (broadcastInDim S200x1 ![0, 1] bcast_S1x1_S200x1_0_1
        (broadcastInDim S1x1 ![1] bcast_S1_S1x1_1 (constantI S1 32 511#32)))))
    (constantI S_ 1 1#1) reducesTo_S200x1_S200_d1 h_S_

/-- `jnp.take(table, i, axis = 0)` of the position table: the rows gathered at the wrapped index, a row whose index
    lies outside the table replaced by the fill word. -/
def takeP (x : FVec F S512x128 .f32) (i : IVec S200 32) : FVec F S200x128 .f32 :=
  select (broadcastInDim S200x128 ![0] bcast_S200_S200x128_0 (inRangeP i))
    (Host.gather gather_S512x128_S200x1_S200x128_1_0_n_n_0_1_1128 x (idxP i))
    (broadcastInDim S200x128 ![] bcast_S_S200x128 (constant (F := F) S_ .f32 0x7FC00000#32))

/-- The index operand of the token-type gather: an index below zero moved up by the table's height 2, any other kept,
    then given a trailing unit axis. -/
def idxT (i : IVec S1024x200 32) : IVec S1024x200x1 32 :=
  broadcastInDim S1024x200x1 ![0, 1] bcast_S1024x200_S1024x200x1_0_1
    (select (cmpi .slt i (broadcastInDim S1024x200 ![] bcast_S_S1024x200 (constantI S_ 32 0#32)))
      (addi i (broadcastInDim S1024x200 ![] bcast_S_S1024x200 (constantI S_ 32 2#32))) i)

/-- Which index vectors of the token-type gather lie inside the table: each component at least zero and at most
    1, the conjunction over the (unit) component axis. -/
def inRangeT (i : IVec S1024x200 32) : IVec S1024x200 1 :=
  Host.reduce IntOp.andi
    (andi (cmpi .sge (idxT i) (broadcastInDim S1024x200x1 ![] bcast_S_S1024x200x1 (constantI S_ 32 0#32)))
      (cmpi .sle (idxT i) (broadcastInDim S1024x200x1 ![0, 1, 2] bcast_S1x1x1_S1024x200x1_0_1_2
        (broadcastInDim S1x1x1 ![2] bcast_S1_S1x1x1_2 (constantI S1 32 1#32)))))
    (constantI S_ 1 1#1) reducesTo_S1024x200x1_S1024x200_d2 h_S_

/-- `jnp.take(table, i, axis = 0)` of the token-type table: the rows gathered at the wrapped index, a row whose index
    lies outside the table replaced by the fill word. -/
def takeT (x : FVec F S2x128 .f32) (i : IVec S1024x200 32) : FVec F S1024x200x128 .f32 :=
  select (broadcastInDim S1024x200x128 ![0, 1] bcast_S1024x200_S1024x200x128_0_1 (inRangeT i))
    (Host.gather gather_S2x128_S1024x200x1_S1024x200x128_2_0_n_n_0_2_1128 x (idxT i))
    (broadcastInDim S1024x200x128 ![] bcast_S_S1024x200x128 (constant (F := F) S_ .f32 0x7FC00000#32))

/-- The embedding sum: word rows at the token ids, plus position rows at `0 … 199` repeated over the batch, plus
    token-type rows at the type ids — added in that order. -/
def emb (ids tts : IVec S1024x200 32) (w : FVec F S100000x128 .f32) (p : FVec F S512x128 .f32) (t : FVec F S2x128 .f32) :
    FVec F S1024x200x128 .f32 :=
  addf
    (addf (takeW w ids)
      (broadcastInDim S1024x200x128 ![0, 1, 2] bcast_S1x200x128_S1024x200x128_0_1_2
        (broadcastInDim S1x200x128 ![1, 2] bcast_S200x128_S1x200x128_1_2 (takeP p (iotaInDim S200 32 0)))))
    (takeT t tts)

/-- The mean over the last axis, kept as a unit axis: the host sum from the zero word, divided by 128. -/
def mean (x : FVec F S1024x200x128 .f32) : FVec F S1024x200x1 .f32 :=
  Host.divf
    (broadcastInDim S1024x200x1 ![0, 1] bcast_S1024x200_S1024x200x1_0_1
      (Host.reduceAdd x (constant (F := F) S_ .f32 0x00000000#32) reducesTo_S1024x200x128_S1024x200_d2 h_S_))
    (broadcastInDim S1024x200x1 ![] bcast_S_S1024x200x1 (constant (F := F) S_ .f32 0x43000000#32))

/-- The rows with their mean subtracted. -/
def centered (x : FVec F S1024x200x128 .f32) : FVec F S1024x200x128 .f32 :=
  subf x (broadcastInDim S1024x200x128 ![0, 1, 2] bcast_S1024x200x1_S1024x200x128_0_1_2 (mean x))

/-- The mean over the last axis of the squared centered rows, kept as a unit axis. -/
def variance (x : FVec F S1024x200x128 .f32) : FVec F S1024x200x1 .f32 :=
  Host.divf
    (broadcastInDim S1024x200x1 ![0, 1] bcast_S1024x200_S1024x200x1_0_1
      (Host.reduceAdd (mulf (centered x) (centered x)) (constant (F := F) S_ .f32 0x00000000#32)
        reducesTo_S1024x200x128_S1024x200_d2 h_S_))
    (broadcastInDim S1024x200x1 ![] bcast_S_S1024x200x1 (constant (F := F) S_ .f32 0x43000000#32))

/-- Layer normalization over the last axis: the centered rows divided by the square root of the variance plus the
    word `0x3727C5AC`, times `g`, plus `b` (both repeated over the batch and sequence axes). -/
def layerNorm (x : FVec F S1024x200x128 .f32) (g b : FVec F S128 .f32) : FVec F S1024x200x128 .f32 :=
  addf
    (mulf
      (Host.divf (centered x)
        (broadcastInDim S1024x200x128 ![0, 1, 2] bcast_S1024x200x1_S1024x200x128_0_1_2
          (Host.sqrt (addf (variance x)
            (broadcastInDim S1024x200x1 ![] bcast_S_S1024x200x1 (constant (F := F) S_ .f32 0x3727C5AC#32))))))
      (broadcastInDim S1024x200x128 ![0, 1, 2] bcast_S1x1x128_S1024x200x128_0_1_2
        (broadcastInDim S1x1x128 ![2] bcast_S128_S1x1x128_2 g)))
    (broadcastInDim S1024x200x128 ![0, 1, 2] bcast_S1x1x128_S1024x200x128_0_1_2
      (broadcastInDim S1x1x128 ![2] bcast_S128_S1x1x128_2 b))

/-- @main's result as one pure function of its seven argument arrays, in the operations' own order and association. -/
def res (a0 a1 : IVec S1024x200 32) (a2 : FVec F S100000x128 .f32) (a3 : FVec F S512x128 .f32) (a4 : FVec F S2x128 .f32)
    (a5 a6 : FVec F S128 .f32) : FVec F S1024x200x128 .f32 :=
  layerNorm (emb a0 a1 a2 a3 a4) a5 a6

/-! ## The operations -/

/-- @main's 103 operations, in order: the position iota; the 23 of the word-table take (six that wrap a negative index, the
    select of the inner `where`, sixteen for the index's unit axis, the range mask, the gather and the fill); the 23 of the
    position-table take; the position rows' unit batch axis; the 23 of the token-type take; then @main's own thirty-two. -/
abbrev ops : List (HloOp τ sig (Elt F)) :=
  [
    nullary main_v0 (iotaInDim S200 32 0),
    TRef.nullary (TRef.of (T := ⟨S_, .i32⟩) main_call0_c) (constantI S_ 32 0#32),
    TRef.unary (TRef.of (T := ⟨S_, .i32⟩) main_call0_c) (TRef.of (T := ⟨S1024x200, .i32⟩) main_call0_v0) (broadcastInDim S1024x200 ![] bcast_S_S1024x200),
    TRef.binary (TRef.of (T := ⟨S1024x200, .i32⟩) main_arg0) (TRef.of (T := ⟨S1024x200, .i32⟩) main_call0_v0) (TRef.of (T := ⟨S1024x200, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S1024x200, .i32⟩) main_call0_v2) (broadcastInDim S1024x200 ![] bcast_S_S1024x200),
    TRef.binary (TRef.of (T := ⟨S1024x200, .i32⟩) main_arg0) (TRef.of (T := ⟨S1024x200, .i32⟩) main_call0_v2) (TRef.of (T := ⟨S1024x200, .i32⟩) main_call0_v3) addi,
    TRef.ternary (TRef.of (T := ⟨S1024x200, .i1⟩) main_call0_v1) (TRef.of (T := ⟨S1024x200, .i32⟩) main_call0_v3) (TRef.of (T := ⟨S1024x200, .i32⟩) main_arg0) (TRef.of (T := ⟨S1024x200, .i32⟩) main_call0_v4) select,
    TRef.unary (TRef.of (T := ⟨S1024x200, .i32⟩) main_call0_v4) (TRef.of (T := ⟨S1024x200x1, .i32⟩) main_call0_v5) (broadcastInDim S1024x200x1 ![0, 1] bcast_S1024x200_S1024x200x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S1024x200x1, .i32⟩) main_call0_v6) (broadcastInDim S1024x200x1 ![] bcast_S_S1024x200x1),
    TRef.binary (TRef.of (T := ⟨S1024x200x1, .i32⟩) main_call0_v5) (TRef.of (T := ⟨S1024x200x1, .i32⟩) main_call0_v6) (TRef.of (T := ⟨S1024x200x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x200x1, .i32⟩) main_call0_v9) (broadcastInDim S1024x200x1 ![0, 1, 2] bcast_S1x1x1_S1024x200x1_0_1_2),
    TRef.binary (TRef.of (T := ⟨S1024x200x1, .i32⟩) main_call0_v5) (TRef.of (T := ⟨S1024x200x1, .i32⟩) main_call0_v9) (TRef.of (T := ⟨S1024x200x1, .i1⟩) main_call0_v10) (cmpi .sle),
    TRef.binary (TRef.of (T := ⟨S1024x200x1, .i1⟩) main_call0_v7) (TRef.of (T := ⟨S1024x200x1, .i1⟩) main_call0_v10) (TRef.of (T := ⟨S1024x200x1, .i1⟩) main_call0_v11) andi,
    TRef.nullary (TRef.of (T := ⟨S_, .i1⟩) main_call0_c_3) (constantI S_ 1 1#1),
    TRef.binary (TRef.of (T := ⟨S1024x200x1, .i1⟩) main_call0_v11) (TRef.of (T := ⟨S_, .i1⟩) main_call0_c_3) (TRef.of (T := ⟨S1024x200, .i1⟩) main_call0_v12) (fun x v => Host.reduce IntOp.andi x v reducesTo_S1024x200x1_S1024x200_d2 h_S_),
    TRef.binary (TRef.of (T := ⟨S100000x128, .f32⟩) main_arg2) (TRef.of (T := ⟨S1024x200x1, .i32⟩) main_call0_v5) (TRef.of (T := ⟨S1024x200x128, .f32⟩) main_call0_v13) (fun x i => Host.gather gather_S100000x128_S1024x200x1_S1024x200x128_2_0_n_n_0_2_1128 x i),
    TRef.unary (TRef.of (T := ⟨S1024x200, .i1⟩) main_call0_v12) (TRef.of (T := ⟨S1024x200x128, .i1⟩) main_call0_v14) (broadcastInDim S1024x200x128 ![0, 1] bcast_S1024x200_S1024x200x128_0_1),
    TRef.nullary (TRef.of (T := ⟨S_, .f32⟩) main_call0_cst) (constant S_ .f32 0x7FC00000#32),
    TRef.unary (TRef.of (T := ⟨S_, .f32⟩) main_call0_cst) (TRef.of (T := ⟨S1024x200x128, .f32⟩) main_call0_v15) (broadcastInDim S1024x200x128 ![] bcast_S_S1024x200x128),
    TRef.ternary (TRef.of (T := ⟨S1024x200x128, .i1⟩) main_call0_v14) (TRef.of (T := ⟨S1024x200x128, .f32⟩) main_call0_v13) (TRef.of (T := ⟨S1024x200x128, .f32⟩) main_call0_v15) (TRef.of (T := ⟨S1024x200x128, .f32⟩) main_v1) select,
    TRef.nullary (TRef.of (T := ⟨S_, .i32⟩) main_call1_c) (constantI S_ 32 0#32),
    TRef.unary (TRef.of (T := ⟨S_, .i32⟩) main_call1_c) (TRef.of (T := ⟨S200, .i32⟩) main_call1_v0) (broadcastInDim S200 ![] bcast_S_S200),
    TRef.binary (TRef.of (T := ⟨S200, .i32⟩) main_v0) (TRef.of (T := ⟨S200, .i32⟩) main_call1_v0) (TRef.of (T := ⟨S200, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S200, .i32⟩) main_call1_v2) (broadcastInDim S200 ![] bcast_S_S200),
    TRef.binary (TRef.of (T := ⟨S200, .i32⟩) main_v0) (TRef.of (T := ⟨S200, .i32⟩) main_call1_v2) (TRef.of (T := ⟨S200, .i32⟩) main_call1_v3) addi,
    TRef.ternary (TRef.of (T := ⟨S200, .i1⟩) main_call1_v1) (TRef.of (T := ⟨S200, .i32⟩) main_call1_v3) (TRef.of (T := ⟨S200, .i32⟩) main_v0) (TRef.of (T := ⟨S200, .i32⟩) main_call1_v4) select,
    TRef.unary (TRef.of (T := ⟨S200, .i32⟩) main_call1_v4) (TRef.of (T := ⟨S200x1, .i32⟩) main_call1_v5) (broadcastInDim S200x1 ![0] bcast_S200_S200x1_0),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S200x1, .i32⟩) main_call1_v6) (broadcastInDim S200x1 ![] bcast_S_S200x1),
    TRef.binary (TRef.of (T := ⟨S200x1, .i32⟩) main_call1_v5) (TRef.of (T := ⟨S200x1, .i32⟩) main_call1_v6) (TRef.of (T := ⟨S200x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S200x1, .i32⟩) main_call1_v9) (broadcastInDim S200x1 ![0, 1] bcast_S1x1_S200x1_0_1),
    TRef.binary (TRef.of (T := ⟨S200x1, .i32⟩) main_call1_v5) (TRef.of (T := ⟨S200x1, .i32⟩) main_call1_v9) (TRef.of (T := ⟨S200x1, .i1⟩) main_call1_v10) (cmpi .sle),
    TRef.binary (TRef.of (T := ⟨S200x1, .i1⟩) main_call1_v7) (TRef.of (T := ⟨S200x1, .i1⟩) main_call1_v10) (TRef.of (T := ⟨S200x1, .i1⟩) main_call1_v11) andi,
    TRef.nullary (TRef.of (T := ⟨S_, .i1⟩) main_call1_c_3) (constantI S_ 1 1#1),
    TRef.binary (TRef.of (T := ⟨S200x1, .i1⟩) main_call1_v11) (TRef.of (T := ⟨S_, .i1⟩) main_call1_c_3) (TRef.of (T := ⟨S200, .i1⟩) main_call1_v12) (fun x v => Host.reduce IntOp.andi x v reducesTo_S200x1_S200_d1 h_S_),
    TRef.binary (TRef.of (T := ⟨S512x128, .f32⟩) main_arg3) (TRef.of (T := ⟨S200x1, .i32⟩) main_call1_v5) (TRef.of (T := ⟨S200x128, .f32⟩) main_call1_v13) (fun x i => Host.gather gather_S512x128_S200x1_S200x128_1_0_n_n_0_1_1128 x i),
    TRef.unary (TRef.of (T := ⟨S200, .i1⟩) main_call1_v12) (TRef.of (T := ⟨S200x128, .i1⟩) main_call1_v14) (broadcastInDim S200x128 ![0] bcast_S200_S200x128_0),
    TRef.nullary (TRef.of (T := ⟨S_, .f32⟩) main_call1_cst) (constant S_ .f32 0x7FC00000#32),
    TRef.unary (TRef.of (T := ⟨S_, .f32⟩) main_call1_cst) (TRef.of (T := ⟨S200x128, .f32⟩) main_call1_v15) (broadcastInDim S200x128 ![] bcast_S_S200x128),
    TRef.ternary (TRef.of (T := ⟨S200x128, .i1⟩) main_call1_v14) (TRef.of (T := ⟨S200x128, .f32⟩) main_call1_v13) (TRef.of (T := ⟨S200x128, .f32⟩) main_call1_v15) (TRef.of (T := ⟨S200x128, .f32⟩) main_v2) select,
    unary main_v2 main_v3 (broadcastInDim S1x200x128 ![1, 2] bcast_S200x128_S1x200x128_1_2 : (⟨S200x128, .f32⟩ : BufTy).Contents (Elt F) → (⟨S1x200x128, .f32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S1024x200, .i32⟩) main_call2_v0) (broadcastInDim S1024x200 ![] bcast_S_S1024x200),
    TRef.binary (TRef.of (T := ⟨S1024x200, .i32⟩) main_arg1) (TRef.of (T := ⟨S1024x200, .i32⟩) main_call2_v0) (TRef.of (T := ⟨S1024x200, .i1⟩) main_call2_v1) (cmpi .slt),
    TRef.nullary (TRef.of (T := ⟨S_, .i32⟩) main_call2_c_0) (constantI S_ 32 2#32),
    TRef.unary (TRef.of (T := ⟨S_, .i32⟩) main_call2_c_0) (TRef.of (T := ⟨S1024x200, .i32⟩) main_call2_v2) (broadcastInDim S1024x200 ![] bcast_S_S1024x200),
    TRef.binary (TRef.of (T := ⟨S1024x200, .i32⟩) main_arg1) (TRef.of (T := ⟨S1024x200, .i32⟩) main_call2_v2) (TRef.of (T := ⟨S1024x200, .i32⟩) main_call2_v3) addi,
    TRef.ternary (TRef.of (T := ⟨S1024x200, .i1⟩) main_call2_v1) (TRef.of (T := ⟨S1024x200, .i32⟩) main_call2_v3) (TRef.of (T := ⟨S1024x200, .i32⟩) main_arg1) (TRef.of (T := ⟨S1024x200, .i32⟩) main_call2_v4) select,
    TRef.unary (TRef.of (T := ⟨S1024x200, .i32⟩) main_call2_v4) (TRef.of (T := ⟨S1024x200x1, .i32⟩) main_call2_v5) (broadcastInDim S1024x200x1 ![0, 1] bcast_S1024x200_S1024x200x1_0_1),
    TRef.nullary (TRef.of (T := ⟨S1, .i32⟩) main_call2_c_1) (constantI S1 32 1#32),
    TRef.nullary (TRef.of (T := ⟨S_, .i32⟩) main_call2_c_2) (constantI S_ 32 0#32),
    TRef.unary (TRef.of (T := ⟨S_, .i32⟩) main_call2_c_2) (TRef.of (T := ⟨S1024x200x1, .i32⟩) main_call2_v6) (broadcastInDim S1024x200x1 ![] bcast_S_S1024x200x1),
    TRef.binary (TRef.of (T := ⟨S1024x200x1, .i32⟩) main_call2_v5) (TRef.of (T := ⟨S1024x200x1, .i32⟩) main_call2_v6) (TRef.of (T := ⟨S1024x200x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S1024x200x1, .i32⟩) main_call2_v9) (broadcastInDim S1024x200x1 ![0, 1, 2] bcast_S1x1x1_S1024x200x1_0_1_2),
    TRef.binary (TRef.of (T := ⟨S1024x200x1, .i32⟩) main_call2_v5) (TRef.of (T := ⟨S1024x200x1, .i32⟩) main_call2_v9) (TRef.of (T := ⟨S1024x200x1, .i1⟩) main_call2_v10) (cmpi .sle),
    TRef.binary (TRef.of (T := ⟨S1024x200x1, .i1⟩) main_call2_v7) (TRef.of (T := ⟨S1024x200x1, .i1⟩) main_call2_v10) (TRef.of (T := ⟨S1024x200x1, .i1⟩) main_call2_v11) andi,
    TRef.nullary (TRef.of (T := ⟨S_, .i1⟩) main_call2_c_3) (constantI S_ 1 1#1),
    TRef.binary (TRef.of (T := ⟨S1024x200x1, .i1⟩) main_call2_v11) (TRef.of (T := ⟨S_, .i1⟩) main_call2_c_3) (TRef.of (T := ⟨S1024x200, .i1⟩) main_call2_v12) (fun x v => Host.reduce IntOp.andi x v reducesTo_S1024x200x1_S1024x200_d2 h_S_),
    TRef.binary (TRef.of (T := ⟨S2x128, .f32⟩) main_arg4) (TRef.of (T := ⟨S1024x200x1, .i32⟩) main_call2_v5) (TRef.of (T := ⟨S1024x200x128, .f32⟩) main_call2_v13) (fun x i => Host.gather gather_S2x128_S1024x200x1_S1024x200x128_2_0_n_n_0_2_1128 x i),
    TRef.unary (TRef.of (T := ⟨S1024x200, .i1⟩) main_call2_v12) (TRef.of (T := ⟨S1024x200x128, .i1⟩) main_call2_v14) (broadcastInDim S1024x200x128 ![0, 1] bcast_S1024x200_S1024x200x128_0_1),
    TRef.nullary (TRef.of (T := ⟨S_, .f32⟩) main_call2_cst) (constant S_ .f32 0x7FC00000#32),
    TRef.unary (TRef.of (T := ⟨S_, .f32⟩) main_call2_cst) (TRef.of (T := ⟨S1024x200x128, .f32⟩) main_call2_v15) (broadcastInDim S1024x200x128 ![] bcast_S_S1024x200x128),
    TRef.ternary (TRef.of (T := ⟨S1024x200x128, .i1⟩) main_call2_v14) (TRef.of (T := ⟨S1024x200x128, .f32⟩) main_call2_v13) (TRef.of (T := ⟨S1024x200x128, .f32⟩) main_call2_v15) (TRef.of (T := ⟨S1024x200x128, .f32⟩) main_v4) select,
    unary main_v3 main_v5 (broadcastInDim S1024x200x128 ![0, 1, 2] bcast_S1x200x128_S1024x200x128_0_1_2 : (⟨S1x200x128, .f32⟩ : BufTy).Contents (Elt F) → (⟨S1024x200x128, .f32⟩ : BufTy).Contents (Elt F)),
    binary main_v1 main_v5 main_v6 (addf : (⟨S1024x200x128, .f32⟩ : BufTy).Contents (Elt F) → (⟨S1024x200x128, .f32⟩ : BufTy).Contents (Elt F) → (⟨S1024x200x128, .f32⟩ : BufTy).Contents (Elt F)),
    binary main_v6 main_v4 main_v7 (addf : (⟨S1024x200x128, .f32⟩ : BufTy).Contents (Elt F) → (⟨S1024x200x128, .f32⟩ : BufTy).Contents (Elt F) → (⟨S1024x200x128, .f32⟩ : BufTy).Contents (Elt F)),
    nullary main_cst (constant S_ .f32 0x00000000#32),
    binary main_v7 main_cst main_v8 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v8 main_v9 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_0 (constant S_ .f32 0x43000000#32),
    unary main_cst_0 main_v10 (broadcastInDim S1024x200x1 ![] bcast_S_S1024x200x1 : (⟨S_, .f32⟩ : BufTy).Contents (Elt F) → (⟨S1024x200x1, .f32⟩ : BufTy).Contents (Elt F)),
    binary main_v9 main_v10 main_v11 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v12 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v12 main_v13 (subf : (⟨S1024x200x128, .f32⟩ : BufTy).Contents (Elt F) → (⟨S1024x200x128, .f32⟩ : BufTy).Contents (Elt F) → (⟨S1024x200x128, .f32⟩ : BufTy).Contents (Elt F)),
    binary main_v13 main_v13 main_v14 (mulf : (⟨S1024x200x128, .f32⟩ : BufTy).Contents (Elt F) → (⟨S1024x200x128, .f32⟩ : BufTy).Contents (Elt F) → (⟨S1024x200x128, .f32⟩ : BufTy).Contents (Elt F)),
    nullary main_cst_1 (constant S_ .f32 0x00000000#32),
    binary main_v14 main_cst_1 main_v15 ((fun x v => Host.reduceAdd x v reducesTo_S1024x200x128_S1024x200_d2 h_S_) : (⟨S1024x200x128, .f32⟩ : BufTy).Contents (Elt F) → (⟨S_, .f32⟩ : BufTy).Contents (Elt F) → (⟨S1024x200, .f32⟩ : BufTy).Contents (Elt F)),
    unary main_v15 main_v16 (broadcastInDim S1024x200x1 ![0, 1] bcast_S1024x200_S1024x200x1_0_1 : (⟨S1024x200, .f32⟩ : BufTy).Contents (Elt F) → (⟨S1024x200x1, .f32⟩ : BufTy).Contents (Elt F)),
    nullary main_cst_2 (constant S_ .f32 0x43000000#32),
    unary main_cst_2 main_v17 (broadcastInDim S1024x200x1 ![] bcast_S_S1024x200x1 : (⟨S_, .f32⟩ : BufTy).Contents (Elt F) → (⟨S1024x200x1, .f32⟩ : BufTy).Contents (Elt F)),
    binary main_v16 main_v17 main_v18 (Host.divf : (⟨S1024x200x1, .f32⟩ : BufTy).Contents (Elt F) → (⟨S1024x200x1, .f32⟩ : BufTy).Contents (Elt F) → (⟨S1024x200x1, .f32⟩ : BufTy).Contents (Elt F)),
    unary main_v11 main_v19 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v7 main_v19 main_v20 (subf : (⟨S1024x200x128, .f32⟩ : BufTy).Contents (Elt F) → (⟨S1024x200x128, .f32⟩ : BufTy).Contents (Elt F) → (⟨S1024x200x128, .f32⟩ : BufTy).Contents (Elt F)),
    nullary main_cst_3 (constant S_ .f32 0x3727C5AC#32),
    unary main_cst_3 main_v21 (broadcastInDim S1024x200x1 ![] bcast_S_S1024x200x1 : (⟨S_, .f32⟩ : BufTy).Contents (Elt F) → (⟨S1024x200x1, .f32⟩ : BufTy).Contents (Elt F)),
    binary main_v18 main_v21 main_v22 (addf : (⟨S1024x200x1, .f32⟩ : BufTy).Contents (Elt F) → (⟨S1024x200x1, .f32⟩ : BufTy).Contents (Elt F) → (⟨S1024x200x1, .f32⟩ : BufTy).Contents (Elt F)),
    unary main_v22 main_v23 (Host.sqrt : (⟨S1024x200x1, .f32⟩ : BufTy).Contents (Elt F) → (⟨S1024x200x1, .f32⟩ : BufTy).Contents (Elt F)),
    unary main_v23 main_v24 (broadcastInDim S1024x200x128 ![0, 1, 2] bcast_S1024x200x1_S1024x200x128_0_1_2 : (⟨S1024x200x1, .f32⟩ : BufTy).Contents (Elt F) → (⟨S1024x200x128, .f32⟩ : BufTy).Contents (Elt F)),
    binary main_v20 main_v24 main_v25 (Host.divf : (⟨S1024x200x128, .f32⟩ : BufTy).Contents (Elt F) → (⟨S1024x200x128, .f32⟩ : BufTy).Contents (Elt F) → (⟨S1024x200x128, .f32⟩ : BufTy).Contents (Elt F)),
    unary main_arg5 main_v26 (broadcastInDim S1x1x128 ![2] bcast_S128_S1x1x128_2 : (⟨S128, .f32⟩ : BufTy).Contents (Elt F) → (⟨S1x1x128, .f32⟩ : BufTy).Contents (Elt F)),
    unary main_v26 main_v27 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v25 main_v27 main_v28 (mulf : (⟨S1024x200x128, .f32⟩ : BufTy).Contents (Elt F) → (⟨S1024x200x128, .f32⟩ : BufTy).Contents (Elt F) → (⟨S1024x200x128, .f32⟩ : BufTy).Contents (Elt F)),
    unary main_arg6 main_v29 (broadcastInDim S1x1x128 ![2] bcast_S128_S1x1x128_2 : (⟨S128, .f32⟩ : BufTy).Contents (Elt F) → (⟨S1x1x128, .f32⟩ : BufTy).Contents (Elt F)),
    unary main_v29 main_v30 (broadcastInDim S1024x200x128 ![0, 1, 2] bcast_S1x1x128_S1024x200x128_0_1_2 : (⟨S1x1x128, .f32⟩ : BufTy).Contents (Elt F) → (⟨S1024x200x128, .f32⟩ : BufTy).Contents (Elt F)),
    binary main_v28 main_v30 main_v31 (addf : (⟨S1024x200x128, .f32⟩ : BufTy).Contents (Elt F) → (⟨S1024x200x128, .f32⟩ : BufTy).Contents (Elt F) → (⟨S1024x200x128, .f32⟩ : BufTy).Contents (Elt F)) ]

-- one hundred and three binds: the unifier walks the chain one statement deep per operation
set_option maxRecDepth 8192 in
set_option maxHeartbeats 4000000 in
/-- @main is that straight line: each call unfolds to its callee's body at the call's buffers, and sequencing
    re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., binary_bufs_sub .., nullary_bufs_sub .., binary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., nullary_bufs_sub .., unary_bufs_sub .., binary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-! ## The fold at the result and at the arguments -/

-- the fold nests once per operation and the one simp pass discharges one inequality of references per
-- (operation, later buffer) pair: depth and a budget sized to the program
-- the reductions' and gathers' bodies are folds and searches over the operand's elements: kept folded, the equation never looks inside them
attribute [local irreducible] Host.reduce Host.gather Host.reduceAdd in
set_option maxRecDepth 100000 in
set_option maxHeartbeats 40000000 in
/-- What the result buffer holds after the operations: `res` of the argument buffers' contents. Each operation's
    result is rewritten at its own buffer to its function's value and at any other to what was there; what is left
    differs from `res` by the stages' unfolding and the typed references' casts, the identity at literal references. -/
theorem out_eq (V : Valuation τ sig (Elt F)) :
    after ops V (Proc.devRef .tc main_v31)
      = res (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  after_results_simp <;> rfl

set_option maxRecDepth 8192 in
set_option maxHeartbeats 40000000 in
/-- No operation writes argument 0. -/
theorem arg0_eq (V : Valuation τ sig (Elt F)) :
    after ops V (Proc.devRef .tc main_arg0) = V (Proc.devRef .tc main_arg0) := by
  after_results_simp

set_option maxRecDepth 8192 in
set_option maxHeartbeats 40000000 in
/-- No operation writes argument 1. -/
theorem arg1_eq (V : Valuation τ sig (Elt F)) :
    after ops V (Proc.devRef .tc main_arg1) = V (Proc.devRef .tc main_arg1) := by
  after_results_simp

set_option maxRecDepth 8192 in
set_option maxHeartbeats 40000000 in
/-- No operation writes argument 2. -/
theorem arg2_eq (V : Valuation τ sig (Elt F)) :
    after ops V (Proc.devRef .tc main_arg2) = V (Proc.devRef .tc main_arg2) := by
  after_results_simp

set_option maxRecDepth 8192 in
set_option maxHeartbeats 40000000 in
/-- No operation writes argument 3. -/
theorem arg3_eq (V : Valuation τ sig (Elt F)) :
    after ops V (Proc.devRef .tc main_arg3) = V (Proc.devRef .tc main_arg3) := by
  after_results_simp

set_option maxRecDepth 8192 in
set_option maxHeartbeats 40000000 in
/-- No operation writes argument 4. -/
theorem arg4_eq (V : Valuation τ sig (Elt F)) :
    after ops V (Proc.devRef .tc main_arg4) = V (Proc.devRef .tc main_arg4) := by
  after_results_simp

set_option maxRecDepth 8192 in
set_option maxHeartbeats 40000000 in
/-- No operation writes argument 5. -/
theorem arg5_eq (V : Valuation τ sig (Elt F)) :
    after ops V (Proc.devRef .tc main_arg5) = V (Proc.devRef .tc main_arg5) := by
  after_results_simp

set_option maxRecDepth 8192 in
set_option maxHeartbeats 40000000 in
/-- No operation writes argument 6. -/
theorem arg6_eq (V : Valuation τ sig (Elt F)) :
    after ops V (Proc.devRef .tc main_arg6) = V (Proc.devRef .tc main_arg6) := by
  after_results_simp

/-! ## The run -/

/-- On the device, for any float values, from any memory with zero counters: every weakly fair execution of @main
    terminates with the result buffer at `res` of the argument arrays' launch contents and the argument arrays unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v31)
        = res (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

namespace Cert.Proof

open Idealize.ShloMosaic Idealize.SL.Sem

/-- The reference's frame: it terminates without a fault from any memory (no precondition is used: host operations
    never fault) and leaves its seven argument arrays as they were. -/
theorem frame_ri : Cert.frame_ReferenceIdeal (hReferenceIdeal := Cert.ReferenceIdeal.Gen.facts)
    (hPre_input_domain := Cert.Pre_input_domain.Gen.facts) :=
  fun m ρ _ => (θ_run Cert.ReferenceIdeal.defs _ _).mono (fun _ h c => (h c).2) (Cert.ReferenceIdeal.RefRun.run m ρ)

end Cert.Proof

end
-- ==== Proof.CallV0.lean ====
/-
  SparseCore call 0 with its value: each task hands back its rows of the output at the gathered contents, so the
  output comes back whole at the one function `Gathered` of the table and the call's ids.
-/
import proofs.«203556_g1357209665813_cont_week2b_798_48_alg».proof.Proof.Call0
import proofs.«203556_g1357209665813_cont_week2b_798_48_alg».proof.Proof.Gather

noncomputable section

namespace Cert.Proof.KI.Tile0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The output the call leaves, from the table as launched and the call's ids. -/
def outVal (Id : (d : Dev nD) → Buf (Elt F) (idxLoc d)) (d : Dev nD) : Buf (Elt F) (outLoc d) :=
  Gathered (F := F) (m (tblLoc d)) (Id d)

/-- What a task of the call hands back: the table under its read token, its block of the ids, its rows of the output
    at the gathered contents. -/
def TD (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ (outLoc d ↦[outSet (place cs)]{fullShare} outVal m Id d))

/-- The three arrays whole are the tasks' holdings; and the tasks' returns are the three arrays whole, the output at
    the gathered contents. -/
theorem arrays_split_val (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => TD m Id d cs)
            -∗ iprop((tblLoc d ↦{fullShare} m (tblLoc d)) ∗ (idxLoc d ↦{fullShare} Id d) ∗ (outLoc d ↦{fullShare} outVal m Id d)))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO TD
  simp only [bigSep_sep']
  rw [idx_blocks, out_rows, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iexact Ho

/-- The call's operands out of the TensorCore's buffers, and its results back: the output at the gathered contents. -/
theorem split_val [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => TD m Id d cs) -∗ ∃ f, ⌜f = outVal m Id d⌝ ∗ held (T d) UC (Function.update W (outD 0) f))) := by
  rw [StableHlo.held_sub_split (T d) T3_sub W, held_T3, hT, hI]
  iintro ⟨H3, Hrest⟩
  ihave H := (arrays_split_val m Id d _) $$ H3
  icases H with ⟨Hgo, Hback⟩
  imodintro
  isplitl [Hgo]; · iexact Hgo
  iintro Htd
  ihave H3' := Hback $$ Htd
  icases H3' with ⟨Ht, Hi, Ho⟩
  iexists (outVal m Id d); isplitr; · ipureintro; rfl
  rw [StableHlo.held_sub_split (T d) T3_sub (Function.update W (outD 0) (outVal m Id d)), held_T3,
    Function.update_of_ne (show tblD ≠ outD 0 by decide), Function.update_of_ne (show idxD ≠ outD 0 by decide), Function.update_self, hT, hI]
  have hrest : (held (T d) (UC \ T3) (Function.update W (outD 0) (outVal m Id d)) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile0

end
-- ==== Proof.CallV1.lean ====
/-
  SparseCore call 1 with its value: each task hands back its rows of the output at the gathered contents, so the
  output comes back whole at the one function `Gathered` of the table and the call's ids.
-/
import proofs.«203556_g1357209665813_cont_week2b_798_48_alg».proof.Proof.Call1
import proofs.«203556_g1357209665813_cont_week2b_798_48_alg».proof.Proof.Gather

noncomputable section

namespace Cert.Proof.KI.Tile1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The output the call leaves, from the table as launched and the call's ids. -/
def outVal (Id : (d : Dev nD) → Buf (Elt F) (idxLoc d)) (d : Dev nD) : Buf (Elt F) (outLoc d) :=
  Gathered (F := F) (m (tblLoc d)) (Id d)

/-- What a task of the call hands back: the table under its read token, its block of the ids, its rows of the output
    at the gathered contents. -/
def TD (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ (outLoc d ↦[outSet (place cs)]{fullShare} outVal m Id d))

/-- The three arrays whole are the tasks' holdings; and the tasks' returns are the three arrays whole, the output at
    the gathered contents. -/
theorem arrays_split_val (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => TD m Id d cs)
            -∗ iprop((tblLoc d ↦{fullShare} m (tblLoc d)) ∗ (idxLoc d ↦{fullShare} Id d) ∗ (outLoc d ↦{fullShare} outVal m Id d)))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO TD
  simp only [bigSep_sep']
  rw [idx_blocks, out_rows, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iexact Ho

/-- The call's operands out of the TensorCore's buffers, and its results back: the output at the gathered contents. -/
theorem split_val [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => TD m Id d cs) -∗ ∃ f, ⌜f = outVal m Id d⌝ ∗ held (T d) UC (Function.update W (outD 1) f))) := by
  rw [StableHlo.held_sub_split (T d) T3_sub W, held_T3, hT, hI]
  iintro ⟨H3, Hrest⟩
  ihave H := (arrays_split_val m Id d _) $$ H3
  icases H with ⟨Hgo, Hback⟩
  imodintro
  isplitl [Hgo]; · iexact Hgo
  iintro Htd
  ihave H3' := Hback $$ Htd
  icases H3' with ⟨Ht, Hi, Ho⟩
  iexists (outVal m Id d); isplitr; · ipureintro; rfl
  rw [StableHlo.held_sub_split (T d) T3_sub (Function.update W (outD 1) (outVal m Id d)), held_T3,
    Function.update_of_ne (show tblD ≠ outD 1 by decide), Function.update_of_ne (show idxD ≠ outD 1 by decide), Function.update_self, hT, hI]
  have hrest : (held (T d) (UC \ T3) (Function.update W (outD 1) (outVal m Id d)) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile1

end
-- ==== Proof.CallV2.lean ====
/-
  SparseCore call 2 with its value: each task hands back its rows of the output at the gathered contents, so the
  output comes back whole at the one function `Gathered` of the table and the call's ids.
-/
import proofs.«203556_g1357209665813_cont_week2b_798_48_alg».proof.Proof.Call2
import proofs.«203556_g1357209665813_cont_week2b_798_48_alg».proof.Proof.Gather

noncomputable section

namespace Cert.Proof.KI.Tile2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The output the call leaves, from the table as launched and the call's ids. -/
def outVal (Id : (d : Dev nD) → Buf (Elt F) (idxLoc d)) (d : Dev nD) : Buf (Elt F) (outLoc d) :=
  Gathered (F := F) (m (tblLoc d)) (Id d)

/-- What a task of the call hands back: the table under its read token, its block of the ids, its rows of the output
    at the gathered contents. -/
def TD (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ (outLoc d ↦[outSet (place cs)]{fullShare} outVal m Id d))

/-- The three arrays whole are the tasks' holdings; and the tasks' returns are the three arrays whole, the output at
    the gathered contents. -/
theorem arrays_split_val (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => TD m Id d cs)
            -∗ iprop((tblLoc d ↦{fullShare} m (tblLoc d)) ∗ (idxLoc d ↦{fullShare} Id d) ∗ (outLoc d ↦{fullShare} outVal m Id d)))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO TD
  simp only [bigSep_sep']
  rw [idx_blocks, out_rows, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iexact Ho

/-- The call's operands out of the TensorCore's buffers, and its results back: the output at the gathered contents. -/
theorem split_val [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => TD m Id d cs) -∗ ∃ f, ⌜f = outVal m Id d⌝ ∗ held (T d) UC (Function.update W (outD 2) f))) := by
  rw [StableHlo.held_sub_split (T d) T3_sub W, held_T3, hT, hI]
  iintro ⟨H3, Hrest⟩
  ihave H := (arrays_split_val m Id d _) $$ H3
  icases H with ⟨Hgo, Hback⟩
  imodintro
  isplitl [Hgo]; · iexact Hgo
  iintro Htd
  ihave H3' := Hback $$ Htd
  icases H3' with ⟨Ht, Hi, Ho⟩
  iexists (outVal m Id d); isplitr; · ipureintro; rfl
  rw [StableHlo.held_sub_split (T d) T3_sub (Function.update W (outD 2) (outVal m Id d)), held_T3,
    Function.update_of_ne (show tblD ≠ outD 2 by decide), Function.update_of_ne (show idxD ≠ outD 2 by decide), Function.update_self, hT, hI]
  have hrest : (held (T d) (UC \ T3) (Function.update W (outD 2) (outVal m Id d)) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile2

end
-- ==== Proof.CallV3.lean ====
/-
  SparseCore call 3 with its value: each task hands back its rows of the output at the gathered contents, so the
  output comes back whole at the one function `Gathered` of the table and the call's ids.
-/
import proofs.«203556_g1357209665813_cont_week2b_798_48_alg».proof.Proof.Call3
import proofs.«203556_g1357209665813_cont_week2b_798_48_alg».proof.Proof.Gather

noncomputable section

namespace Cert.Proof.KI.Tile3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

/-- The output the call leaves, from the table as launched and the call's ids. -/
def outVal (Id : (d : Dev nD) → Buf (Elt F) (idxLoc d)) (d : Dev nD) : Buf (Elt F) (outLoc d) :=
  Gathered (F := F) (m (tblLoc d)) (Id d)

/-- What a task of the call hands back: the table under its read token, its block of the ids, its rows of the output
    at the gathered contents. -/
def TD (Id : (d : Dev nD) → Buf (Elt F) (idxLoc d)) (d : Dev nD) (cs : Fin 2 × Fin 16) : sProp 𝕄 :=
  iprop((tblLoc d ↦{Transfers.shareTok fullShare 32 (tokIx cs)} m (tblLoc d)) ∗ (idxLoc d ↦[idxSet (place cs)]{fullShare} Id d)
    ∗ (outLoc d ↦[outSet (place cs)]{fullShare} outVal m Id d))

/-- The three arrays whole are the tasks' holdings; and the tasks' returns are the three arrays whole, the output at
    the gathered contents. -/
theorem arrays_split_val (Id : (d : Dev nD) → Buf (Elt F) (idxLoc d)) (d : Dev nD) (fo : Buf (Elt F) (outLoc d)) [∀ e, Nonempty (Elt F e)] :
    iprop((tblLoc d ↦{fullShare} m (tblLoc d)) ∗ (idxLoc d ↦{fullShare} Id d) ∗ (outLoc d ↦{fullShare} fo) : sProp 𝕄)
      ⊢ iprop((bigSep Finset.univ fun cs : Fin 2 × Fin 16 => GO m Id d cs)
        ∗ ((bigSep Finset.univ fun cs : Fin 2 × Fin 16 => TD m Id d cs)
            -∗ iprop((tblLoc d ↦{fullShare} m (tblLoc d)) ∗ (idxLoc d ↦{fullShare} Id d) ∗ (outLoc d ↦{fullShare} outVal m Id d)))) := by
  have hmono : (bigSep Finset.univ fun cs : Fin 2 × Fin 16 => (outLoc d ↦[outSet (place cs)]{fullShare} fo : sProp 𝕄))
      ⊢ bigSep Finset.univ fun cs : Fin 2 × Fin 16 => iprop(∃ f, outLoc d ↦[outSet (place cs)]{fullShare} f) :=
    bigSep_mono fun cs _ => (show (outLoc d ↦[outSet (place cs)]{fullShare} fo : sProp 𝕄) ⊢ iprop(∃ f, outLoc d ↦[outSet (place cs)]{fullShare} f) from by
      iintro H; iexists _; iexact H)
  unfold GO TD
  simp only [bigSep_sep']
  rw [idx_blocks, out_rows, out_rows]
  iintro ⟨Ht, Hi, Ho⟩
  ihave Ht' := (tbl_toks32 (F := F) d (m (tblLoc d))).1 $$ Ht
  icases Ht' with ⟨Hdrop, Htoks⟩
  isplitl [Htoks Hi Ho]
  · isplitl [Htoks]; · iexact Htoks
    isplitl [Hi]; · iexact Hi
    iapply hmono; iexact Ho
  iintro ⟨Htoks, Hi, Ho⟩
  isplitl [Hdrop Htoks]
  · iapply (tbl_toks32 (F := F) d (m (tblLoc d))).2
    isplitl [Hdrop] <;> iassumption
  isplitl [Hi]; · iexact Hi
  iexact Ho

/-- The call's operands out of the TensorCore's buffers, and its results back: the output at the gathered contents. -/
theorem split_val [∀ e, Nonempty (Elt F e)] (Id : (d : Dev nD) → Buf (Elt F) (idxLoc d)) (d : Dev nD) (W : Valuation τ sig (Elt F))
    (hT : W tblD = m (tblLoc d)) (hI : W idxD = Id d) :
    (held (T d) UC W : sProp 𝕄) ⊢ |={Set.univ}=> iprop((bigSep Finset.univ fun cs : Fin 2 × Fin 16 => GO m Id d cs)
      ∗ ((bigSep Finset.univ fun cs : Fin 2 × Fin 16 => TD m Id d cs) -∗ ∃ f, ⌜f = outVal m Id d⌝ ∗ held (T d) UC (Function.update W (outD 3) f))) := by
  rw [StableHlo.held_sub_split (T d) T3_sub W, held_T3, hT, hI]
  iintro ⟨H3, Hrest⟩
  ihave H := (arrays_split_val m Id d _) $$ H3
  icases H with ⟨Hgo, Hback⟩
  imodintro
  isplitl [Hgo]; · iexact Hgo
  iintro Htd
  ihave H3' := Hback $$ Htd
  icases H3' with ⟨Ht, Hi, Ho⟩
  iexists (outVal m Id d); isplitr; · ipureintro; rfl
  rw [StableHlo.held_sub_split (T d) T3_sub (Function.update W (outD 3) (outVal m Id d)), held_T3,
    Function.update_of_ne (show tblD ≠ outD 3 by decide), Function.update_of_ne (show idxD ≠ outD 3 by decide), Function.update_self, hT, hI]
  have hrest : (held (T d) (UC \ T3) (Function.update W (outD 3) (outVal m Id d)) : sProp 𝕄) = held (T d) (UC \ T3) W :=
    StableHlo.held_congr (T d) (fun b hb => Function.update_of_ne (fun e => (Finset.mem_sdiff.mp hb).2 (by rw [e]; decide)) _ _)
  rw [hrest]
  isplitl [Ht Hi Ho]
  · isplitl [Ht]; · iexact Ht
    isplitl [Hi]; · iexact Hi
    iexact Ho
  iexact Hrest

end Cert.Proof.KI.Tile3

end
-- ==== Proof.CallsV.lean ====
/-
  The four SparseCore calls together, with their values: what each task holds and hands back (its rows of the output
  at the gathered contents), and the calls' operands out of the TensorCore's buffers and back, the output at the one
  function `Gathered` of the table and the call's ids.
-/
import proofs.«203556_g1357209665813_cont_week2b_798_48_alg».proof.Proof.LaunchD
import proofs.«203556_g1357209665813_cont_week2b_798_48_alg».proof.Proof.Call0
import proofs.«203556_g1357209665813_cont_week2b_798_48_alg».proof.Proof.Call1
import proofs.«203556_g1357209665813_cont_week2b_798_48_alg».proof.Proof.Call2
import proofs.«203556_g1357209665813_cont_week2b_798_48_alg».proof.Proof.Call3
import proofs.«203556_g1357209665813_cont_week2b_798_48_alg».proof.Proof.Calls
import proofs.«203556_g1357209665813_cont_week2b_798_48_alg».proof.Proof.CallV0
import proofs.«203556_g1357209665813_cont_week2b_798_48_alg».proof.Proof.CallV1
import proofs.«203556_g1357209665813_cont_week2b_798_48_alg».proof.Proof.CallV2
import proofs.«203556_g1357209665813_cont_week2b_798_48_alg».proof.Proof.CallV3

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (m : (ℓ : Loc nD τ sig) → Buf (Elt F) ℓ)

variable (J : IdsOf F)

/-- What the tasks hold, call by call. -/
def TPvV : TilePay F where
  go := fun q => match q with
    | 0 => fun d c i => Tile0.GO m J.i0 d (c, i)
    | 1 => fun d c i => Tile1.GO m J.i1 d (c, i)
    | 2 => fun d c i => Tile2.GO m J.i2 d (c, i)
    | 3 => fun d c i => Tile3.GO m J.i3 d (c, i)
  td := fun q => match q with
    | 0 => fun d c i => Tile0.TD m J.i0 d (c, i)
    | 1 => fun d c i => Tile1.TD m J.i1 d (c, i)
    | 2 => fun d c i => Tile2.TD m J.i2 d (c, i)
    | 3 => fun d c i => Tile3.TD m J.i3 d (c, i)
  go_st := fun q => match q with
    | 0 => fun d c i => by unfold Tile0.GO; infer_instance
    | 1 => fun d c i => by unfold Tile1.GO; infer_instance
    | 2 => fun d c i => by unfold Tile2.GO; infer_instance
    | 3 => fun d c i => by unfold Tile3.GO; infer_instance
  td_st := fun q => match q with
    | 0 => fun d c i => by unfold Tile0.TD; infer_instance
    | 1 => fun d c i => by unfold Tile1.TD; infer_instance
    | 2 => fun d c i => by unfold Tile2.TD; infer_instance
    | 3 => fun d c i => by unfold Tile3.TD; infer_instance

/-- The calls' operands and results. `IdxOK q d W`: the buffers `W` hold the table as launched and the call's ids. -/
def CIvV [∀ e, Nonempty (Elt F e)] : CallIface (F := F) (TPvV m J) where
  IdxOK := fun q d W => match q with
    | 0 => W Tile0.tblD = m (Tile0.tblLoc d) ∧ W Tile0.idxD = J.i0 d
    | 1 => W Tile1.tblD = m (Tile1.tblLoc d) ∧ W Tile1.idxD = J.i1 d
    | 2 => W Tile2.tblD = m (Tile2.tblLoc d) ∧ W Tile2.idxD = J.i2 d
    | 3 => W Tile3.tblD = m (Tile3.tblLoc d) ∧ W Tile3.idxD = J.i3 d
  OutOK := fun q d _ f => match q with
    | 0 => f = Tile0.outVal m J.i0 d
    | 1 => f = Tile1.outVal m J.i1 d
    | 2 => f = Tile2.outVal m J.i2 d
    | 3 => f = Tile3.outVal m J.i3 d
  split := fun q => match q with
    | 0 => fun d W h => by
        have hs := Tile0.split_val m J.i0 d W h.1 h.2
        rw [bigSep_univ_prod, bigSep_univ_prod] at hs
        exact hs
    | 1 => fun d W h => by
        have hs := Tile1.split_val m J.i1 d W h.1 h.2
        rw [bigSep_univ_prod, bigSep_univ_prod] at hs
        exact hs
    | 2 => fun d W h => by
        have hs := Tile2.split_val m J.i2 d W h.1 h.2
        rw [bigSep_univ_prod, bigSep_univ_prod] at hs
        exact hs
    | 3 => fun d W h => by
        have hs := Tile3.split_val m J.i3 d W h.1 h.2
        rw [bigSep_univ_prod, bigSep_univ_prod] at hs
        exact hs

end Cert.Proof.KI

end
-- ==== Proof.LaunchE.lean ====
/-
  The idealized kernel program's run with its value: every final state has the seven arguments as launched and the
  result array at a stated contents, from the tile obligations, the calls' splits, and what the calls' outputs and
  the layer-norm regions make of them.
-/
import proofs.«203556_g1357209665813_cont_week2b_798_48_alg».proof.Proof.LaunchD

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 4) (Elt F) ℕ UU ℕ

variable (TP : TilePay F) (m : (ℓ : Loc nD τ sig) → Buf (Elt F) ℓ) (ρ : Dev nD → PrngReg)
variable (v0 : (c : Dev nD) → Buf (Elt F) ((c.tc : Thread nD τ).loc main_v35))

/-- The final valuation has the result array at `v0`. -/
def ResV (d : Dev nD) (W : Valuation τ sig (Elt F)) : Prop := W (Proc.devRef .tc main_v35) = v0 d

/-- What the value claim reads off a final state on device `d`. -/
def fqV (d : Dev nD) (s' : Phys nD τ sig (Elt F)) : Prop :=
  (∀ r ∈ argL, s'.mem.mem ((SparseCore.T d).loc r) = m ((SparseCore.T d).loc r)) ∧ s'.mem.mem ((SparseCore.T d).loc main_v35) = v0 d

theorem res_mem_UC : (Proc.devRef .tc main_v35 : DevRef τ sig) ∈ UC := by decide

theorem hfinV (d : Dev nD) (s' : Phys nD τ sig (Elt F)) : iprop(FIN m (ResV v0) d ∗ SI s') ⊢ (⌜fqV m v0 d s'⌝ : sProp 𝕄) := by
  unfold FIN
  iintro ⟨⟨%Wf, %hWf, Hh⟩, HSI⟩
  unfold StableHlo.held
  ihave H := (pointsTo_read_all UC (fun b => ((SparseCore.T d).1, b)) Wf s') $$ [Hh HSI]
  · isplitl [Hh] <;> iassumption
  icases H with ⟨%h, -⟩
  ipureintro
  exact ⟨fun r hr => (h _ (arg_mem_UC r hr)).trans (hWf.1 r hr), (h _ res_mem_UC).trans hWf.2⟩

/-- The value claim's post: on every device the result at `v0` and the seven arguments as launched. -/
def QCV : PUnit × MemSt nD τ sig (Elt F) → Prop := fun r => ∀ c : Dev nD,
  r.2.mem ((c.tc : Thread nD τ).loc main_v35) = v0 c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem hQV (s' : Phys nD τ sig (Elt F)) (h : ∀ d, fqV m v0 d s') : QCV m v0 (⟨⟩, s'.mem) := fun c =>
  ⟨(h c).2, (h c).1 _ (by simp [argL]), (h c).1 _ (by simp [argL]), (h c).1 _ (by simp [argL]), (h c).1 _ (by simp [argL]),
    (h c).1 _ (by simp [argL]), (h c).1 _ (by simp [argL]), (h c).1 _ (by simp [argL])⟩

variable [FloatOps F]

/-- The program's run with its value. -/
theorem run_val [∀ e, Nonempty (Elt F e)] (CI : CallIface (F := F) TP)
    (htile : ∀ q, (K (F := F)).TileObl (D (F := F)) 𝒱 (P TP) v₀ q)
    (hidx0 : ∀ d, CI.IdxOK 0 d (StableHlo.after hops0 (W0 m d)))
    (hidx1 : ∀ d f0, CI.IdxOK 1 d (StableHlo.after hops1 (Function.update (StableHlo.after hops0 (W0 m d)) (outD 0) f0)))
    (hidx2 : ∀ d f0 f1, CI.IdxOK 2 d (StableHlo.after hops2 (Function.update (StableHlo.after hops1 (Function.update (StableHlo.after hops0 (W0 m d)) (outD 0) f0)) (outD 1) f1)))
    (hidx3 : ∀ d f0 f1 f2, CI.IdxOK 3 d (StableHlo.after hops3 (Function.update (StableHlo.after hops2 (Function.update (StableHlo.after hops1 (Function.update (StableHlo.after hops0 (W0 m d)) (outD 0) f0)) (outD 1) f1)) (outD 2) f2)))
    (hres : ∀ d f0 f1 f2 f3, CI.OutOK 0 d (StableHlo.after hops0 (W0 m d)) f0
      → CI.OutOK 1 d (StableHlo.after hops1 (Function.update (StableHlo.after hops0 (W0 m d)) (outD 0) f0)) f1
      → CI.OutOK 2 d (StableHlo.after hops2 (Function.update (StableHlo.after hops1 (Function.update (StableHlo.after hops0 (W0 m d)) (outD 0) f0)) (outD 1) f1)) f2
      → CI.OutOK 3 d (StableHlo.after hops3 (Function.update (StableHlo.after hops2 (Function.update (StableHlo.after hops1 (Function.update (StableHlo.after hops0 (W0 m d)) (outD 0) f0)) (outD 1) f1)) (outD 2) f2)) f3
      → ResV v0 d (Reg.X3 (fun _ => (Function.update (StableHlo.after hops3 (Function.update (StableHlo.after hops2 (Function.update (StableHlo.after hops1 (Function.update (StableHlo.after hops0 (W0 m d)) (outD 0) f0)) (outD 1) f1)) (outD 2) f2)) (outD 3) f3)) (Bd (F := F)) d)) :
    θ_run (Cert.KernelIdeal.defs (F := F)) (Cert.KernelIdeal.threads (F := F)) ⟨m, fun _ => 0, ρ⟩ (QCV m v0) :=
  SparseCore.Cfg.θ_run_sc (K := K (F := F)) (D := D (F := F)) (𝒱 := 𝒱) (EH := EH) (P := P TP) facts v₀
    (fun q hq => match q with | 0 => nomatch hq | 1 => nomatch hq | 2 => nomatch hq | 3 => nomatch hq)
    (fun q _ => htile q)
    (fun q _ => SparseCore.Cfg.VecSplit.of_plain (vecSplit TP q))
    m ρ main (G (F := F)) (FIN m (ResV v0)) (u₀ (F := F)) (sep_elim_left.trans (hu₀ TP))
    (fun κ d => hmain TP m ρ CI d (hidx0 d) (hidx1 d) (hidx2 d) (hidx3 d) (ResV v0) (hres d) κ) (fqV m v0) (hfinV m v0) (QCV m v0) (hQV m v0)

end Cert.Proof.KI

end
-- ==== Proof.ValueKI.lean ====
/-
  The valuation the tail of @main starts from holds the four gathered arrays: each call's output is rewritten by no
  later stretch and no later call.
-/
import proofs.«203556_g1357209665813_cont_week2b_798_48_alg».proof.Proof.CallsV
import proofs.«203556_g1357209665813_cont_week2b_798_48_alg».proof.Proof.LaunchE
import proofs.«203556_g1357209665813_cont_week2b_798_48_alg».proof.Proof.IdxChain

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL.Sem

variable {F : FTy → Type} [FloatOps F]

variable (m : (ℓ : Loc nD τ sig) → Buf (Elt F) ℓ)

/-- The ids the four calls gather by. -/
def JvV : IdsOf F := ⟨Ids0 m, Ids1 m, Ids2 m, Ids3 m⟩

theorem hidx0V [∀ e, Nonempty (Elt F e)] (d : Dev nD) : (CIvV m (JvV m)).IdxOK 0 d (StableHlo.after hops0 (W0 m d)) :=
  ⟨(argsOf_hops0 m d (argsOf_W0 m d)) main_arg2 (by simp [argL]), rfl⟩
theorem hidx1V [∀ e, Nonempty (Elt F e)] (d : Dev nD) (f0) :
    (CIvV m (JvV m)).IdxOK 1 d (StableHlo.after hops1 (Function.update (StableHlo.after hops0 (W0 m d)) (outD 0) f0)) :=
  ⟨(argsOf_hops1 m d (argsOf_update m d 0 f0 (argsOf_hops0 m d (argsOf_W0 m d)))) main_arg2 (by simp [argL]), chain_idx1 m d f0⟩
theorem hidx2V [∀ e, Nonempty (Elt F e)] (d : Dev nD) (f0 f1) :
    (CIvV m (JvV m)).IdxOK 2 d (StableHlo.after hops2 (Function.update (StableHlo.after hops1 (Function.update (StableHlo.after hops0 (W0 m d)) (outD 0) f0)) (outD 1) f1)) :=
  ⟨(argsOf_hops2 m d (argsOf_update m d 1 f1 (argsOf_hops1 m d (argsOf_update m d 0 f0 (argsOf_hops0 m d (argsOf_W0 m d)))))) main_arg2 (by simp [argL]), chain_idx2 m d f0 f1⟩
theorem hidx3V [∀ e, Nonempty (Elt F e)] (d : Dev nD) (f0 f1 f2) :
    (CIvV m (JvV m)).IdxOK 3 d (StableHlo.after hops3 (Function.update (StableHlo.after hops2 (Function.update (StableHlo.after hops1 (Function.update (StableHlo.after hops0 (W0 m d)) (outD 0) f0)) (outD 1) f1)) (outD 2) f2)) :=
  ⟨(argsOf_hops3 m d (argsOf_update m d 2 f2 (argsOf_hops2 m d (argsOf_update m d 1 f1 (argsOf_hops1 m d (argsOf_update m d 0 f0 (argsOf_hops0 m d (argsOf_W0 m d)))))))) main_arg2 (by simp [argL]),
    chain_idx3 m d f0 f1 f2⟩

variable (d : Dev nD) (f0 : (outD 0).ty.Contents (Elt F)) (f1 : (outD 1).ty.Contents (Elt F)) (f2 : (outD 2).ty.Contents (Elt F)) (f3 : (outD 3).ty.Contents (Elt F))

/-- The buffers when the tail of @main begins. -/
abbrev WtOf : Valuation τ sig (Elt F) := (Function.update (StableHlo.after hops3 (Function.update (StableHlo.after hops2 (Function.update (StableHlo.after hops1 (Function.update (StableHlo.after hops0 (W0 m d)) (outD 0) f0)) (outD 1) f1)) (outD 2) f2)) (outD 3) f3)

theorem WtOf_args : ArgsOf m d (WtOf m d f0 f1 f2 f3) :=
  argsOf_update m d 3 _ (argsOf_hops3 m d (argsOf_update m d 2 _ (argsOf_hops2 m d (argsOf_update m d 1 _ (argsOf_hops1 m d
    (argsOf_update m d 0 _ (argsOf_hops0 m d (argsOf_W0 m d))))))))

theorem WtOf_out3 : WtOf m d f0 f1 f2 f3 (outD 3) = f3 := Function.update_self _ _ _
theorem WtOf_out2 : WtOf m d f0 f1 f2 f3 (outD 2) = f2 :=
  (Function.update_of_ne (show outD 2 ≠ outD 3 by decide) _ _).trans
    ((hops3_keeps _ main_v10 (by decide)).trans (Function.update_self _ _ _))
theorem WtOf_out1 : WtOf m d f0 f1 f2 f3 (outD 1) = f1 :=
  (Function.update_of_ne (show outD 1 ≠ outD 3 by decide) _ _).trans
    ((hops3_keeps _ main_v7 (by decide)).trans ((Function.update_of_ne (show outD 1 ≠ outD 2 by decide) _ _).trans
      ((hops2_keeps _ main_v7 (by decide)).trans (Function.update_self _ _ _))))
theorem WtOf_out0 : WtOf m d f0 f1 f2 f3 (outD 0) = f0 :=
  (Function.update_of_ne (show outD 0 ≠ outD 3 by decide) _ _).trans
    ((hops3_keeps _ main_v4 (by decide)).trans ((Function.update_of_ne (show outD 0 ≠ outD 2 by decide) _ _).trans
      ((hops2_keeps _ main_v4 (by decide)).trans ((Function.update_of_ne (show outD 0 ≠ outD 1 by decide) _ _).trans
        ((hops1_keeps _ main_v4 (by decide)).trans (Function.update_self _ _ _))))))

end Cert.Proof.KI

end
-- ==== Proof.IdxAt.lean ====
/-
  The ids each call gathers by, read at an index. Stretch 0 re-lays the id array through one axis and back (the identity on
  row-major positions) and stretch `q` cuts rows `[256 q, 256 q + 256)` of it and re-lays the 256 × 200 block as
  32 × 25 × 64, which keeps the row-major position: entry `(w, c, j)` is the id at row `256 q + r / 200`, column
  `r % 200`, with `r = 1600 w + 64 c + j`.
-/
import proofs.«203556_g1357209665813_cont_week2b_798_48_alg».proof.Proof.IdxChain
import Idealize.ShloMosaic.Lib.DynamicIndex
import Idealize.ShloMosaic.Lib.Pipeline.Value

noncomputable section

namespace Cert.Proof.KI

open Cert.KernelIdeal Cert.KernelIdeal.Gen
open Idealize.ShloMosaic Idealize.SL.Sem Idealize.ShloMosaic.ValueIdx

variable {F : FTy → Type} [FloatOps F]

/-! ## A quarter's block at a flat position -/

/-- The 256 × 200 block of a 1024 × 200 array at rows `[o, o + 256)`, re-laid as 32 × 25 × 64, at `(w, c, j)`: the array
    at row `o + r / 200`, column `r % 200`, `r = 1600 w + 64 c + j`. -/
theorem quarter_apply {α : Type} (x : S1024x200.Idx → α) (start : Fin S1024x200.rank → Int) (o : Nat) (ho : o + 256 ≤ 1024)
    (h0 : start 0 = (o : Int)) (h1 : start 1 = 0) (w : Fin 32) (c : Fin 25) (j : Fin 64) :
    shapeCast S32x25x64 (Host.dynamicSlice S256x200 x start sliceFits_S1024x200_S256x200) shapeCasts_S256x200_S32x25x64
        (ix3 w c j)
      = x (ix2 ⟨o + (1600 * w.val + 64 * c.val + j.val) / 200, by omega⟩
            ⟨(1600 * w.val + 64 * c.val + j.val) % 200, Nat.mod_lt _ (by norm_num)⟩) := by
  have hw := w.isLt; have hc := c.isLt; have hj := j.isLt
  have hoff : S1024x200.Slices ![o, 0] S256x200 := ⟨rfl, fun a => by
    match a with
    | ⟨0, _⟩ => exact ho
    | ⟨1, _⟩ => exact Nat.le_refl 200⟩
  rw [shapeCast_apply _ shapeCasts_S256x200_S32x25x64 (ix3 w c j)
      (ix2 ⟨(1600 * w.val + 64 * c.val + j.val) / 200, by omega⟩ ⟨(1600 * w.val + 64 * c.val + j.val) % 200, Nat.mod_lt _ (by norm_num)⟩)
      (by rw [Shape.rowMajor_val_two, Shape.rowMajor_val_three]
          show (1600 * w.val + 64 * c.val + j.val) / 200 * 200 + (1600 * w.val + 64 * c.val + j.val) % 200
            = (w.val * 25 + c.val) * 64 + j.val
          omega),
    Host.dynamicSlice_eq_extractStridedSlice S256x200 x start ![o, 0] sliceFits_S1024x200_S256x200 hoff
      (fun a => by
        match a with
        | ⟨0, _⟩ => exact h0
        | ⟨1, _⟩ => exact h1)]
  unfold extractStridedSlice
  refine congrArg x (funext fun a => Fin.ext ?_)
  match a with
  | ⟨0, _⟩ => rfl
  | ⟨1, _⟩ => exact Nat.zero_add _

/-- Re-laying through one axis and back is the identity. -/
theorem relay_apply {α : Type} (x : S1024x200.Idx → α) (i : S1024x200.Idx) :
    shapeCast S1024x200 (shapeCast S204800 x shapeCasts_S1024x200_S204800) shapeCasts_S204800_S1024x200 i = x i := by
  unfold shapeCast
  rw [Shape.reshapeEquiv_reshapeEquiv, Shape.reshapeEquiv_self]

/-! ## The stretches' results -/

/-- Stretch 0 leaves the id array itself in the re-laid buffer. -/
theorem hops0_v1 (W : Valuation τ sig (Elt F)) :
    (StableHlo.after (hops0 (F := F)) W (Proc.devRef .tc main_v1) : S1024x200.Idx → BitVec 32)
      = (W (Proc.devRef .tc main_arg0) : S1024x200.Idx → BitVec 32) := by
  dsimp only [hops0]
  after_results
  funext i
  exact relay_apply (W (Proc.devRef .tc main_arg0) : S1024x200.Idx → BitVec 32) i

/-- Stretch 0's quarter at `(w, c, j)`, from the id array: the two start constants are
    the stretch's own, read off the fold by computation. -/
theorem hops0_main_v3_apply (W : Valuation τ sig (Elt F)) (w : Fin 32) (c : Fin 25) (j : Fin 64) :
    (StableHlo.after (hops0 (F := F)) W (Proc.devRef .tc main_v3) : S32x25x64.Idx → BitVec 32) (ix3 w c j)
      = (W (Proc.devRef .tc main_arg0) : S1024x200.Idx → BitVec 32)
          (ix2 ⟨0 + (1600 * w.val + 64 * c.val + j.val) / 200, by have := w.isLt; have := c.isLt; have := j.isLt; omega⟩
            ⟨(1600 * w.val + 64 * c.val + j.val) % 200, Nat.mod_lt _ (by norm_num)⟩) := by
  dsimp only [hops0]
  after_results
  refine (quarter_apply _ _ 0 (by norm_num) ?_ ?_ w c j).trans ?_
  · rfl
  · rfl
  · exact relay_apply (W (Proc.devRef .tc main_arg0) : S1024x200.Idx → BitVec 32) _

/-- Stretch 1's quarter at `(w, c, j)`, from the re-laid ids: the two start constants are
    the stretch's own, read off the fold by computation. -/
theorem hops1_main_v6_apply (W : Valuation τ sig (Elt F)) (w : Fin 32) (c : Fin 25) (j : Fin 64) :
    (StableHlo.after (hops1 (F := F)) W (Proc.devRef .tc main_v6) : S32x25x64.Idx → BitVec 32) (ix3 w c j)
      = (W (Proc.devRef .tc main_v1) : S1024x200.Idx → BitVec 32)
          (ix2 ⟨256 + (1600 * w.val + 64 * c.val + j.val) / 200, by have := w.isLt; have := c.isLt; have := j.isLt; omega⟩
            ⟨(1600 * w.val + 64 * c.val + j.val) % 200, Nat.mod_lt _ (by norm_num)⟩) := by
  dsimp only [hops1]
  after_results
  refine (quarter_apply _ _ 256 (by norm_num) ?_ ?_ w c j).trans ?_
  · rfl
  · rfl
  · rfl

/-- Stretch 2's quarter at `(w, c, j)`, from the re-laid ids: the two start constants are
    the stretch's own, read off the fold by computation. -/
theorem hops2_main_v9_apply (W : Valuation τ sig (Elt F)) (w : Fin 32) (c : Fin 25) (j : Fin 64) :
    (StableHlo.after (hops2 (F := F)) W (Proc.devRef .tc main_v9) : S32x25x64.Idx → BitVec 32) (ix3 w c j)
      = (W (Proc.devRef .tc main_v1) : S1024x200.Idx → BitVec 32)
          (ix2 ⟨512 + (1600 * w.val + 64 * c.val + j.val) / 200, by have := w.isLt; have := c.isLt; have := j.isLt; omega⟩
            ⟨(1600 * w.val + 64 * c.val + j.val) % 200, Nat.mod_lt _ (by norm_num)⟩) := by
  dsimp only [hops2]
  after_results
  refine (quarter_apply _ _ 512 (by norm_num) ?_ ?_ w c j).trans ?_
  · rfl
  · rfl
  · rfl

/-- Stretch 3's quarter at `(w, c, j)`, from the re-laid ids: the two start constants are
    the stretch's own, read off the fold by computation. -/
theorem hops3_main_v12_apply (W : Valuation τ sig (Elt F)) (w : Fin 32) (c : Fin 25) (j : Fin 64) :
    (StableHlo.after (hops3 (F := F)) W (Proc.devRef .tc main_v12) : S32x25x64.Idx → BitVec 32) (ix3 w c j)
      = (W (Proc.devRef .tc main_v1) : S1024x200.Idx → BitVec 32)
          (ix2 ⟨768 + (1600 * w.val + 64 * c.val + j.val) / 200, by have := w.isLt; have := c.isLt; have := j.isLt; omega⟩
            ⟨(1600 * w.val + 64 * c.val + j.val) % 200, Nat.mod_lt _ (by norm_num)⟩) := by
  dsimp only [hops3]
  after_results
  refine (quarter_apply _ _ 768 (by norm_num) ?_ ?_ w c j).trans ?_
  · rfl
  · rfl
  · rfl

/-! ## The calls' ids at an index -/

variable (m : (ℓ : Loc nD τ sig) → Buf (Elt F) ℓ)

/-- The launch's id array on device `d`. -/
abbrev idsOf (d : Dev nD) : S1024x200.Idx → BitVec 32 := m ((SparseCore.T d).loc main_arg0)

theorem Ids0_apply (d : Dev nD) (w : Fin 32) (c : Fin 25) (j : Fin 64) :
    Ids0 m d (ix3 w c j)
      = idsOf m d (ix2 ⟨0 + (1600 * w.val + 64 * c.val + j.val) / 200, by have := w.isLt; have := c.isLt; have := j.isLt; omega⟩
          ⟨(1600 * w.val + 64 * c.val + j.val) % 200, Nat.mod_lt _ (by norm_num)⟩) :=
  hops0_main_v3_apply (W0 m d) w c j

theorem Ids1_apply (d : Dev nD) (w : Fin 32) (c : Fin 25) (j : Fin 64) :
    Ids1 m d (ix3 w c j)
      = idsOf m d (ix2 ⟨256 + (1600 * w.val + 64 * c.val + j.val) / 200, by have := w.isLt; have := c.isLt; have := j.isLt; omega⟩
          ⟨(1600 * w.val + 64 * c.val + j.val) % 200, Nat.mod_lt _ (by norm_num)⟩) := by
  unfold Ids1
  rw [hops1_main_v6_apply, hops0_v1]
  rfl

theorem Ids2_apply (d : Dev nD) (w : Fin 32) (c : Fin 25) (j : Fin 64) :
    Ids2 m d (ix3 w c j)
      = idsOf m d (ix2 ⟨512 + (1600 * w.val + 64 * c.val + j.val) / 200, by have := w.isLt; have := c.isLt; have := j.isLt; omega⟩
          ⟨(1600 * w.val + 64 * c.val + j.val) % 200, Nat.mod_lt _ (by norm_num)⟩) := by
  unfold Ids2
  rw [hops2_main_v9_apply, hops0_v1]
  rfl

theorem Ids3_apply (d : Dev nD) (w : Fin 32) (c : Fin 25) (j : Fin 64) :
    Ids3 m d (ix3 w c j)
      = idsOf m d (ix2 ⟨768 + (1600 * w.val + 64 * c.val + j.val) / 200, by have := w.isLt; have := c.isLt; have := j.isLt; omega⟩
          ⟨(1600 * w.val + 64 * c.val + j.val) % 200, Nat.mod_lt _ (by norm_num)⟩) := by
  unfold Ids3
  rw [hops3_main_v12_apply, hops0_v1]
  rfl

/-- All four: entry `(w, c, j)` of call `q`'s ids is the id at row `256 q + r / 200`, column `r % 200`,
    `r = 1600 w + 64 c + j`. -/
theorem Ids_apply (q : Fin 4) (d : Dev nD) (w : Fin 32) (c : Fin 25) (j : Fin 64) :
    Ids m q d (ix3 w c j)
      = idsOf m d (ix2 ⟨256 * q.val + (1600 * w.val + 64 * c.val + j.val) / 200,
            by have := q.isLt; have := w.isLt; have := c.isLt; have := j.isLt; omega⟩
          ⟨(1600 * w.val + 64 * c.val + j.val) % 200, Nat.mod_lt _ (by norm_num)⟩) := by
  match q with
  | 0 => exact (Ids0_apply m d w c j).trans (congrArg (fun r => idsOf m d (ix2 r _)) (Fin.ext (by show 0 + _ = 256 * 0 + _; omega)))
  | 1 => exact (Ids1_apply m d w c j).trans (congrArg (fun r => idsOf m d (ix2 r _)) (Fin.ext (by show 256 + _ = 256 * 1 + _; omega)))
  | 2 => exact (Ids2_apply m d w c j).trans (congrArg (fun r => idsOf m d (ix2 r _)) (Fin.ext (by show 512 + _ = 256 * 2 + _; omega)))
  | 3 => exact (Ids3_apply m d w c j).trans (congrArg (fun r => idsOf m d (ix2 r _)) (Fin.ext (by show 768 + _ = 256 * 3 + _; omega)))

/-- The same at a flat position `r` of the call's block (the form the gathered rows are stated in): the id at row
    `256 q + r / 200`, column `r % 200`. -/
theorem Ids_flat (q : Fin 4) (d : Dev nD) (r : Nat) (hr : r < 51200) :
    Ids m q d (ix3 ⟨r / 1600, by omega⟩ ⟨r % 1600 / 64, by omega⟩ ⟨r % 64, by omega⟩)
      = idsOf m d (ix2 ⟨256 * q.val + r / 200, by have := q.isLt; omega⟩ ⟨r % 200, Nat.mod_lt _ (by norm_num)⟩) := by
  rw [Ids_apply]
  have e : 1600 * (r / 1600) + 64 * (r % 1600 / 64) + r % 64 = r := by omega
  refine congrArg (idsOf m d) (funext fun a => Fin.ext ?_)
  match a with
  | ⟨0, _⟩ => show 256 * q.val + (1600 * (r / 1600) + 64 * (r % 1600 / 64) + r % 64) / 200 = 256 * q.val + r / 200; rw [e]
  | ⟨1, _⟩ => show (1600 * (r / 1600) + 64 * (r % 1600 / 64) + r % 64) % 200 = r % 200; rw [e]

end Cert.Proof.KI

end
-- ==== Proof.RefValue.lean ====
/-
  The reference's result read at an index. `RefRun.res` at `(b, l, h)` is, when every token id lies in `[0, 99999]`
  and every token-type id in `[0, 1]`, the layer norm over the last axis of the row
  `x(b, l, ·) = (W(ids(b, l), ·) + P(l, ·)) + T(tts(b, l), ·)`, written over the extended reals with the ideal
  instance's operations.

  Each `jnp.take` is the gather at the index (a non-negative index is not wrapped) selected by a range mask that is all
  ones under the hypotheses; the gather reads the table at the row the start index names — signed, clamped into the
  table — and the result's last coordinate; a host sum over the last axis is the initial word plus the sum over the axis.
-/
import proofs.«203556_g1357209665813_cont_week2b_798_48_alg».proof.Proof.RefRun
import Idealize.ShloMosaic.Lib.ValueIdx
import Idealize.ShloMosaic.Lib.IdealHost
import Idealize.ShloMosaic.Lib.Pipeline.Value
import Idealize.ShloMosaic.Lib.ReduceAll
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## General facts: words, an `and`-reduction of ones, a row gather read at an index -/

/-! ## Words and folds -/

/-- A left fold by `and` from 1 over `i1` words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have h11 : IntOp.andi (1#1) (1#1) = 1#1 := by decide
    rw [List.foldl_cons, h a List.mem_cons_self, h11]
    exact foldl_andi_one f l fun n hn => h n (List.mem_cons_of_mem _ hn)

/-- A `stablehlo.reduce` by `and` from the constant 1 of an array of 1s is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- A word that is not below zero fails the signed `<` against zero. -/
theorem cmpi_slt_zero {v : BitVec 32} (hv : 0 ≤ v.toInt) : IntOp.cmpi .slt v 0#32 = 0#1 :=
  eq_zero_of_ne_one fun e => by
    have := IntOp.cmpi_slt.1 e
    have h0 : (0#32 : BitVec 32).toInt = 0 := by decide
    omega

/-- A word that is not below zero passes the signed `≥` against zero. -/
theorem cmpi_sge_zero {v : BitVec 32} (hv : 0 ≤ v.toInt) : IntOp.cmpi .sge v 0#32 = 1#1 :=
  IntOp.cmpi_sge.2 (by have h0 : (0#32 : BitVec 32).toInt = 0 := by decide
                       omega)

/-- A word at most `n` passes the signed `≤` against the word of `n`. -/
theorem cmpi_sle_of_le {v c : BitVec 32} {n : Int} (hc : c.toInt = n) (hv : v.toInt ≤ n) : IntOp.cmpi .sle v c = 1#1 :=
  IntOp.cmpi_sle.2 (by omega)

/-! ## A row gather read at an index

What `jnp.take(x, idx, axis = 0)` of a table `x : [N, D]` at an integer array `idx : [R, C]` lowers to: a gather with
offset axis 2, collapsed operand axis 0, start index map `[0]`, slice sizes `[1, D]` and the index vector on axis 2 of the
indices as `[R, C, 1]`. Result element `(b, l, h)` is `x` at row `idx[b, l, 0]` — read signed and clamped into
`[0, N − 1]` — and column `h`. -/

section Rows
variable {α : Type}

/-- Those dimension numbers. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (l : Fin C) (h : Fin D) :
    Host.gather (rowsDims N D R C wf) x idx (ix3 b l h)
      = x (ix2 ⟨min (idx (ix3 b l ⟨0, Nat.one_pos⟩)).toInt.toNat (N - 1), by omega⟩ h) := by
  unfold Host.gather
  congr 1
  funext a
  refine Fin.ext ?_
  match a with
  | ⟨0, _⟩ =>
    show (rowsDims N D R C wf).start (ix3 b l h) idx 0 + (rowsDims N D R C wf).batchCoord (ix3 b l h) 0
        + (rowsDims N D R C wf).offCoord (ix3 b l h) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 b l h) ⟨List.idxOf (0 : Fin 2) (rowsDims N D R C wf).startIndexMap,
        List.idxOf_lt_length_iff.2 (List.mem_singleton.mpr rfl)⟩ = ix3 b l ⟨0, Nat.one_pos⟩ := by
      funext c; refine Fin.ext ?_
      match c with
      | ⟨0, _⟩ => rfl
      | ⟨1, _⟩ => rfl
      | ⟨2, _⟩ => rfl
    rw [hsi]
    rfl
  | ⟨1, _⟩ =>
    show (rowsDims N D R C wf).start (ix3 b l h) idx 1 + (rowsDims N D R C wf).batchCoord (ix3 b l h) 1
        + (rowsDims N D R C wf).offCoord (ix3 b l h) 1 = h.val
    rw [GatherDims.batchCoord_eq_zero _ _ _ List.not_mem_nil]
    unfold GatherDims.start
    rw [dif_neg (show (1 : Fin 2) ∉ (rowsDims N D R C wf).startIndexMap from (by decide : (1 : Fin 2) ∉ ([0] : List (Fin 2))))]
    unfold GatherDims.offCoord
    rw [dif_pos (show (1 : Fin 2) ∈ (rowsDims N D R C wf).sKept from
      (GatherDims.mem_sKept _ _).mpr ⟨(by decide : (1 : Fin 2) ∉ ([0] : List (Fin 2))), List.not_mem_nil⟩)]
    have hk : (rowsDims N D R C wf).sKept = [(1 : Fin 2)] := by
      show ((List.finRange 2).filter fun a : Fin 2 => a ∉ (([0] : List (Fin 2)) ++ [])) = [1]
      decide
    simp only [hk, List.idxOf_cons_self, List.getElem_cons_zero, Nat.zero_add]
    rfl

end Rows

/-- The same with the row named: any `r` whose value is the clamped start index. -/
theorem gather_rows_eq {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (l : Fin C) (h : Fin D) (r : Fin N)
    (hr : r.val = min (idx (ix3 b l ⟨0, Nat.one_pos⟩)).toInt.toNat (N - 1)) :
    Host.gather (rowsDims N D R C wf) x idx (ix3 b l h) = x (ix2 r h) := by
  rw [gather_rows_apply hN wf]
  exact congrArg (fun q => x (ix2 q h)) (Fin.ext hr.symm)

/-! The same gather at a rank-1 array of indices `idx : [R]`, as `[R, 1]`: offset axis 1, the index vector on axis 1. -/

section Rows1
variable {α : Type}

/-- Those dimension numbers. -/
abbrev rows1Dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

theorem gather_rows1_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (l : Fin R) (h : Fin D) :
    Host.gather (rows1Dims N D R wf) x idx (ix2 l h)
      = x (ix2 ⟨min (idx (ix2 l ⟨0, Nat.one_pos⟩)).toInt.toNat (N - 1), by omega⟩ h) := by
  unfold Host.gather
  congr 1
  funext a
  refine Fin.ext ?_
  match a with
  | ⟨0, _⟩ =>
    show (rows1Dims N D R wf).start (ix2 l h) idx 0 + (rows1Dims N D R wf).batchCoord (ix2 l h) 0
        + (rows1Dims N D R wf).offCoord (ix2 l h) 0 = _
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 2) ∈ (rows1Dims N D R wf).startIndexMap from List.mem_singleton.mpr rfl)]
    have hsi : (rows1Dims N D R wf).siIdx (ix2 l h) ⟨List.idxOf (0 : Fin 2) (rows1Dims N D R wf).startIndexMap,
        List.idxOf_lt_length_iff.2 (List.mem_singleton.mpr rfl)⟩ = ix2 l ⟨0, Nat.one_pos⟩ := by
      funext c; refine Fin.ext ?_
      match c with
      | ⟨0, _⟩ => rfl
      | ⟨1, _⟩ => rfl
    rw [hsi]
    rfl
  | ⟨1, _⟩ =>
    show (rows1Dims N D R wf).start (ix2 l h) idx 1 + (rows1Dims N D R wf).batchCoord (ix2 l h) 1
        + (rows1Dims N D R wf).offCoord (ix2 l h) 1 = h.val
    rw [GatherDims.batchCoord_eq_zero _ _ _ List.not_mem_nil]
    unfold GatherDims.start
    rw [dif_neg (show (1 : Fin 2) ∉ (rows1Dims N D R wf).startIndexMap from (by decide : (1 : Fin 2) ∉ ([0] : List (Fin 2))))]
    unfold GatherDims.offCoord
    rw [dif_pos (show (1 : Fin 2) ∈ (rows1Dims N D R wf).sKept from
      (GatherDims.mem_sKept _ _).mpr ⟨(by decide : (1 : Fin 2) ∉ ([0] : List (Fin 2))), List.not_mem_nil⟩)]
    have hk : (rows1Dims N D R wf).sKept = [(1 : Fin 2)] := by
      show ((List.finRange 2).filter fun a : Fin 2 => a ∉ (([0] : List (Fin 2)) ++ [])) = [1]
      decide
    simp only [hk, List.idxOf_cons_self, List.getElem_cons_zero, Nat.zero_add]
    rfl

theorem gather_rows1_eq {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (l : Fin R) (h : Fin D) (r : Fin N)
    (hr : r.val = min (idx (ix2 l ⟨0, Nat.one_pos⟩)).toInt.toNat (N - 1)) :
    Host.gather (rows1Dims N D R wf) x idx (ix2 l h) = x (ix2 r h) := by
  rw [gather_rows1_apply hN wf]
  exact congrArg (fun q => x (ix2 q h)) (Fin.ext hr.symm)

end Rows1

/-- A small natural number as a 32-bit word reads back signed as itself. -/
theorem toInt_ofNat_small {n : Nat} (h : n < 2 ^ 31) : (BitVec.ofNat 32 n).toInt = n := by
  rw [BitVec.toInt_eq_toNat_cond, BitVec.toNat_ofNat]
  have : n % 2 ^ 32 = n := Nat.mod_eq_of_lt (by omega)
  rw [this]
  split <;> omega

/-! ## The three takes read at an index -/

/-! ### The word table's take -/

/-- A non-negative index is not wrapped: the index operand at `(b, l, 0)` is the index at `(b, l)`. -/
theorem idxW_apply (i : IVec S1024x200 32) (b : Fin 1024) (l : Fin 200) (z : Fin 1) (hi : 0 ≤ (i (ix2 b l)).toInt) :
    idxW i (ix3 b l z) = i (ix2 b l) := by
  unfold idxW
  rw [broadcastInDim_apply ![0, 1] bcast_S1024x200_S1024x200x1_0_1 _ (ix3 b l z) (ix2 b l) (fun a => by fin_cases a <;> rfl)]
  show Scalar.select (IntOp.cmpi .slt (i (ix2 b l)) 0#32) (IntOp.addi (i (ix2 b l)) 100000#32) (i (ix2 b l)) = _
  rw [cmpi_slt_zero hi, select_zero]

/-- Under the range hypothesis the mask is all ones. -/
theorem inRangeW_eq_one (i : IVec S1024x200 32) (hi : ∀ k, 0 ≤ (i k).toInt ∧ (i k).toInt ≤ 99999) (j : S1024x200.Idx) :
    inRangeW i j = 1#1 := by
  unfold inRangeW
  refine reduce_andi_one _ _ _ _ rfl (fun k => ?_) j
  obtain ⟨b, l, z, rfl⟩ : ∃ b l z, k = ix3 b l z := ⟨k 0, k 1, k 2, eq_ix3 k⟩
  show IntOp.andi (IntOp.cmpi .sge (idxW i (ix3 b l z)) 0#32) (IntOp.cmpi .sle (idxW i (ix3 b l z)) 99999#32) = 1#1
  rw [idxW_apply i b l z (hi _).1, cmpi_sge_zero (hi _).1,
    cmpi_sle_of_le (c := 99999#32) (n := 99999) (by decide) (hi _).2]
  decide

/-- The take at `(b, l, h)`: the table at the row the index names and column `h`. -/
theorem takeW_apply {F : FTy → Type} [FloatOps F] (x : FVec F S100000x128 .f32) (i : IVec S1024x200 32)
    (hi : ∀ k, 0 ≤ (i k).toInt ∧ (i k).toInt ≤ 99999) (b : Fin 1024) (l : Fin 200) (h : Fin 128) :
    takeW x i (ix3 b l h) = x (ix2 ⟨min (i (ix2 b l)).toInt.toNat 99999, by omega⟩ h) := by
  unfold takeW
  show Scalar.select (broadcastInDim S1024x200x128 ![0, 1] bcast_S1024x200_S1024x200x128_0_1 (inRangeW i) (ix3 b l h))
      (Host.gather gather_S100000x128_S1024x200x1_S1024x200x128_2_0_n_n_0_2_1128 x (idxW i) (ix3 b l h)) _ = _
  rw [broadcastInDim_apply ![0, 1] bcast_S1024x200_S1024x200x128_0_1 (inRangeW i) (ix3 b l h) (ix2 b l) (fun a => by fin_cases a <;> rfl),
    inRangeW_eq_one i hi, select_one]
  exact gather_rows_eq (N := 100000) (by decide) gather_S100000x128_S1024x200x1_S1024x200x128_2_0_n_n_0_2_1128_wf x (idxW i) b l h _
    (by show _ = min (idxW i (ix3 b l ⟨0, Nat.one_pos⟩)).toInt.toNat (100000 - 1)
        rw [idxW_apply i b l _ (hi _).1])

/-! ### The token-type table's take -/

/-- A non-negative index is not wrapped: the index operand at `(b, l, 0)` is the index at `(b, l)`. -/
theorem idxT_apply (i : IVec S1024x200 32) (b : Fin 1024) (l : Fin 200) (z : Fin 1) (hi : 0 ≤ (i (ix2 b l)).toInt) :
    idxT i (ix3 b l z) = i (ix2 b l) := by
  unfold idxT
  rw [broadcastInDim_apply ![0, 1] bcast_S1024x200_S1024x200x1_0_1 _ (ix3 b l z) (ix2 b l) (fun a => by fin_cases a <;> rfl)]
  show Scalar.select (IntOp.cmpi .slt (i (ix2 b l)) 0#32) (IntOp.addi (i (ix2 b l)) 2#32) (i (ix2 b l)) = _
  rw [cmpi_slt_zero hi, select_zero]

/-- Under the range hypothesis the mask is all ones. -/
theorem inRangeT_eq_one (i : IVec S1024x200 32) (hi : ∀ k, 0 ≤ (i k).toInt ∧ (i k).toInt ≤ 1) (j : S1024x200.Idx) :
    inRangeT i j = 1#1 := by
  unfold inRangeT
  refine reduce_andi_one _ _ _ _ rfl (fun k => ?_) j
  obtain ⟨b, l, z, rfl⟩ : ∃ b l z, k = ix3 b l z := ⟨k 0, k 1, k 2, eq_ix3 k⟩
  show IntOp.andi (IntOp.cmpi .sge (idxT i (ix3 b l z)) 0#32) (IntOp.cmpi .sle (idxT i (ix3 b l z)) 1#32) = 1#1
  rw [idxT_apply i b l z (hi _).1, cmpi_sge_zero (hi _).1,
    cmpi_sle_of_le (c := 1#32) (n := 1) (by decide) (hi _).2]
  decide

/-- The take at `(b, l, h)`: the table at the row the index names and column `h`. -/
theorem takeT_apply {F : FTy → Type} [FloatOps F] (x : FVec F S2x128 .f32) (i : IVec S1024x200 32)
    (hi : ∀ k, 0 ≤ (i k).toInt ∧ (i k).toInt ≤ 1) (b : Fin 1024) (l : Fin 200) (h : Fin 128) :
    takeT x i (ix3 b l h) = x (ix2 ⟨min (i (ix2 b l)).toInt.toNat 1, by omega⟩ h) := by
  unfold takeT
  show Scalar.select (broadcastInDim S1024x200x128 ![0, 1] bcast_S1024x200_S1024x200x128_0_1 (inRangeT i) (ix3 b l h))
      (Host.gather gather_S2x128_S1024x200x1_S1024x200x128_2_0_n_n_0_2_1128 x (idxT i) (ix3 b l h)) _ = _
  rw [broadcastInDim_apply ![0, 1] bcast_S1024x200_S1024x200x128_0_1 (inRangeT i) (ix3 b l h) (ix2 b l) (fun a => by fin_cases a <;> rfl),
    inRangeT_eq_one i hi, select_one]
  exact gather_rows_eq (N := 2) (by decide) gather_S2x128_S1024x200x1_S1024x200x128_2_0_n_n_0_2_1128_wf x (idxT i) b l h _
    (by show _ = min (idxT i (ix3 b l ⟨0, Nat.one_pos⟩)).toInt.toNat (2 - 1)
        rw [idxT_apply i b l _ (hi _).1])

/-! ### The position table's take -/

/-- A non-negative index is not wrapped. -/
theorem idxP_apply (i : IVec S200 32) (l : Fin 200) (z : Fin 1) (hi : 0 ≤ (i (ix1 l)).toInt) :
    idxP i (ix2 l z) = i (ix1 l) := by
  unfold idxP
  rw [broadcastInDim_apply ![0] bcast_S200_S200x1_0 _ (ix2 l z) (ix1 l) (fun a => by fin_cases a; rfl)]
  show Scalar.select (IntOp.cmpi .slt (i (ix1 l)) 0#32) (IntOp.addi (i (ix1 l)) 512#32) (i (ix1 l)) = _
  rw [cmpi_slt_zero hi, select_zero]

/-- Under the range hypothesis the mask is all ones. -/
theorem inRangeP_eq_one (i : IVec S200 32) (hi : ∀ k, 0 ≤ (i k).toInt ∧ (i k).toInt ≤ 511) (j : S200.Idx) :
    inRangeP i j = 1#1 := by
  unfold inRangeP
  refine reduce_andi_one _ _ _ _ rfl (fun k => ?_) j
  obtain ⟨l, z, rfl⟩ : ∃ l z, k = ix2 l z := ⟨k 0, k 1, eq_ix2 k⟩
  show IntOp.andi (IntOp.cmpi .sge (idxP i (ix2 l z)) 0#32) (IntOp.cmpi .sle (idxP i (ix2 l z)) 511#32) = 1#1
  rw [idxP_apply i l z (hi _).1, cmpi_sge_zero (hi _).1, cmpi_sle_of_le (c := 511#32) (n := 511) (by decide) (hi _).2]
  decide

/-- The take at `(l, h)`. -/
theorem takeP_apply {F : FTy → Type} [FloatOps F] (x : FVec F S512x128 .f32) (i : IVec S200 32)
    (hi : ∀ k, 0 ≤ (i k).toInt ∧ (i k).toInt ≤ 511) (l : Fin 200) (h : Fin 128) :
    takeP x i (ix2 l h) = x (ix2 ⟨min (i (ix1 l)).toInt.toNat 511, by omega⟩ h) := by
  unfold takeP
  show Scalar.select (broadcastInDim S200x128 ![0] bcast_S200_S200x128_0 (inRangeP i) (ix2 l h))
      (Host.gather gather_S512x128_S200x1_S200x128_1_0_n_n_0_1_1128 x (idxP i) (ix2 l h)) _ = _
  rw [broadcastInDim_apply ![0] bcast_S200_S200x128_0 (inRangeP i) (ix2 l h) (ix1 l) (fun a => by fin_cases a; rfl),
    inRangeP_eq_one i hi, select_one]
  exact gather_rows1_eq (N := 512) (by decide) gather_S512x128_S200x1_S200x128_1_0_n_n_0_1_1128_wf x (idxP i) l h _
    (by show _ = min (idxP i (ix2 l ⟨0, Nat.one_pos⟩)).toInt.toNat (512 - 1)
        rw [idxP_apply i l _ (hi _).1])

/-- The positions `0 … 199` as words are in the table's range. -/
theorem iota_range (k : S200.Idx) :
    0 ≤ (iotaInDim S200 32 0 k).toInt ∧ (iotaInDim S200 32 0 k).toInt ≤ 511 := by
  have hk : (k 0).val < 200 := (k 0).isLt
  rw [iotaInDim_apply, toInt_ofNat_small (by omega)]
  omega

/-- The position rows: the table at row `l`. -/
theorem takeP_iota_apply {F : FTy → Type} [FloatOps F] (x : FVec F S512x128 .f32) (l : Fin 200) (h : Fin 128) :
    takeP x (iotaInDim S200 32 0) (ix2 l h) = x (ix2 ⟨l.val, by omega⟩ h) := by
  rw [takeP_apply x _ iota_range l h]
  refine congrArg (fun q => x (ix2 q h)) (Fin.ext ?_)
  show min (iotaInDim S200 32 0 (ix1 l)).toInt.toNat 511 = l.val
  have hl : l.val < 200 := l.isLt
  rw [iotaInDim_apply, toInt_ofNat_small (by show (ix1 l (0 : Fin 1)).val < 2 ^ 31; show l.val < 2 ^ 31; omega)]
  show min (Int.toNat (l.val : Int)) 511 = l.val
  omega

/-! ## The embedding row -/

/-- The row element `x(b, l, h)`: the word table at the token id, plus the position table at `l`, plus the token-type
    table at the type id (each id read signed and clamped into its table, which leaves an id in range as it is). -/
def xAt (ids tts : IVec S1024x200 32) (w : FVec Ideal S100000x128 .f32) (p : FVec Ideal S512x128 .f32)
    (t : FVec Ideal S2x128 .f32) (b : Fin 1024) (l : Fin 200) (h : Fin 128) : EReal :=
  (w (ix2 ⟨min (ids (ix2 b l)).toInt.toNat 99999, by omega⟩ h) + p (ix2 ⟨l.val, by omega⟩ h))
    + t (ix2 ⟨min (tts (ix2 b l)).toInt.toNat 1, by omega⟩ h)

/-- The embedding sum at `(b, l, h)`. -/
theorem emb_apply (ids tts : IVec S1024x200 32) (w : FVec Ideal S100000x128 .f32) (p : FVec Ideal S512x128 .f32)
    (t : FVec Ideal S2x128 .f32) (hids : ∀ k, 0 ≤ (ids k).toInt ∧ (ids k).toInt ≤ 99999)
    (htts : ∀ k, 0 ≤ (tts k).toInt ∧ (tts k).toInt ≤ 1) (b : Fin 1024) (l : Fin 200) (h : Fin 128) :
    emb ids tts w p t (ix3 b l h) = xAt ids tts w p t b l h := by
  unfold emb xAt
  show (takeW w ids (ix3 b l h)
      + broadcastInDim S1024x200x128 ![0, 1, 2] bcast_S1x200x128_S1024x200x128_0_1_2
          (broadcastInDim S1x200x128 ![1, 2] bcast_S200x128_S1x200x128_1_2 (takeP p (iotaInDim S200 32 0))) (ix3 b l h))
      + takeT t tts (ix3 b l h) = _
  rw [takeW_apply w ids hids, takeT_apply t tts htts,
    broadcastInDim_apply ![0, 1, 2] bcast_S1x200x128_S1024x200x128_0_1_2 _ (ix3 b l h) (ix3 (0 : Fin 1) l h)
      (fun a => by fin_cases a <;> rfl),
    broadcastInDim_apply ![1, 2] bcast_S200x128_S1x200x128_1_2 _ (ix3 (0 : Fin 1) l h) (ix2 l h)
      (fun a => by fin_cases a <;> rfl),
    takeP_iota_apply]

/-! ## Layer normalization of a row -/

/-- The mean of a row of 128: the sum divided by the word `0x43000000` (128). -/
def rowMean (r : Fin 128 → EReal) : EReal := Ideal.div (∑ k, r k) (Ideal.ofBits .f32 0x43000000#32)

/-- The variance of a row: the mean of the squared deviations from the mean. -/
def rowVar (r : Fin 128 → EReal) : EReal :=
  Ideal.div (∑ k, (r k - rowMean r) * (r k - rowMean r)) (Ideal.ofBits .f32 0x43000000#32)

/-- The normalized, scaled and shifted element `h` of a row: the deviation from the mean divided by the square root of
    the variance plus the word `0x3727C5AC`, times `g h`, plus `c h`. -/
def rowNorm (r g c : Fin 128 → EReal) (h : Fin 128) : EReal :=
  Ideal.div (r h - rowMean r) (Ideal.sqrt (rowVar r + Ideal.ofBits .f32 0x3727C5AC#32)) * g h + c h

/-- The witness naming the inserted coordinate of the sum over the last axis. -/
theorem reduces_last : S1024x200x128.Reduces [2] S1024x200 := by decide

/-- The host sum over the last axis from the zero word, at `(b, l)`: the sum of the row. -/
theorem rowSum_apply (x : FVec Ideal S1024x200x128 .f32) (b : Fin 1024) (l : Fin 200) :
    Host.reduceAdd x (constant (F := Ideal) S_ .f32 0x00000000#32) reducesTo_S1024x200x128_S1024x200_d2 h_S_ (ix2 b l)
      = ∑ k : Fin 128, x (ix3 b l k) := by
  rw [hostReduceAdd_apply, Ideal.hostReduceAdd_single reducesTo_S1024x200x128_S1024x200_d2 reduces_last]
  show Ideal.ofBits .f32 0x00000000#32 + ∑ k : Fin 128, x (reduces_last.lift (ix2 b l) k) = _
  rw [Ideal.ofBits_zero_f32, zero_add]
  refine Finset.sum_congr rfl fun k _ => congrArg x ?_
  funext a
  refine Fin.ext ?_
  match a with
  | ⟨0, _⟩ => rfl
  | ⟨1, _⟩ => rfl
  | ⟨2, _⟩ => rfl

/-- The mean at `(b, l, 0)`. -/
theorem mean_apply (x : FVec Ideal S1024x200x128 .f32) (b : Fin 1024) (l : Fin 200) (z : Fin 1) :
    mean x (ix3 b l z) = rowMean fun k => x (ix3 b l k) := by
  unfold mean rowMean
  show Ideal.div (broadcastInDim S1024x200x1 ![0, 1] bcast_S1024x200_S1024x200x1_0_1
        (Host.reduceAdd x (constant (F := Ideal) S_ .f32 0x00000000#32) reducesTo_S1024x200x128_S1024x200_d2 h_S_) (ix3 b l z))
      (Ideal.ofBits .f32 0x43000000#32) = _
  rw [broadcastInDim_apply ![0, 1] bcast_S1024x200_S1024x200x1_0_1 _ (ix3 b l z) (ix2 b l) (fun a => by fin_cases a <;> rfl),
    rowSum_apply]

/-- The centered rows at `(b, l, h)`. -/
theorem centered_apply (x : FVec Ideal S1024x200x128 .f32) (b : Fin 1024) (l : Fin 200) (h : Fin 128) :
    centered x (ix3 b l h) = x (ix3 b l h) - rowMean fun k => x (ix3 b l k) := by
  unfold centered
  show x (ix3 b l h) - broadcastInDim S1024x200x128 ![0, 1, 2] bcast_S1024x200x1_S1024x200x128_0_1_2 (mean x) (ix3 b l h) = _
  rw [broadcastInDim_apply ![0, 1, 2] bcast_S1024x200x1_S1024x200x128_0_1_2 (mean x) (ix3 b l h) (ix3 b l (0 : Fin 1))
      (fun a => by fin_cases a <;> rfl), mean_apply]

/-- The variance at `(b, l, 0)`. -/
theorem variance_apply (x : FVec Ideal S1024x200x128 .f32) (b : Fin 1024) (l : Fin 200) (z : Fin 1) :
    variance x (ix3 b l z) = rowVar fun k => x (ix3 b l k) := by
  unfold variance rowVar
  show Ideal.div (broadcastInDim S1024x200x1 ![0, 1] bcast_S1024x200_S1024x200x1_0_1
        (Host.reduceAdd (mulf (centered x) (centered x)) (constant (F := Ideal) S_ .f32 0x00000000#32)
          reducesTo_S1024x200x128_S1024x200_d2 h_S_) (ix3 b l z))
      (Ideal.ofBits .f32 0x43000000#32) = _
  rw [broadcastInDim_apply ![0, 1] bcast_S1024x200_S1024x200x1_0_1 _ (ix3 b l z) (ix2 b l) (fun a => by fin_cases a <;> rfl),
    rowSum_apply]
  refine congrArg (fun s => Ideal.div s _) (Finset.sum_congr rfl fun k _ => ?_)
  show centered x (ix3 b l k) * centered x (ix3 b l k) = _
  rw [centered_apply]

/-- Layer normalization at `(b, l, h)`: the row's `rowNorm`. -/
theorem layerNorm_apply (x : FVec Ideal S1024x200x128 .f32) (g c : FVec Ideal S128 .f32) (b : Fin 1024) (l : Fin 200)
    (h : Fin 128) :
    layerNorm x g c (ix3 b l h) = rowNorm (fun k => x (ix3 b l k)) (fun k => g (ix1 k)) (fun k => c (ix1 k)) h := by
  unfold layerNorm rowNorm
  show Ideal.div (centered x (ix3 b l h))
        (broadcastInDim S1024x200x128 ![0, 1, 2] bcast_S1024x200x1_S1024x200x128_0_1_2
          (Host.sqrt (addf (variance x)
            (broadcastInDim S1024x200x1 ![] bcast_S_S1024x200x1 (constant (F := Ideal) S_ .f32 0x3727C5AC#32)))) (ix3 b l h))
      * broadcastInDim S1024x200x128 ![0, 1, 2] bcast_S1x1x128_S1024x200x128_0_1_2
          (broadcastInDim S1x1x128 ![2] bcast_S128_S1x1x128_2 g) (ix3 b l h)
      + broadcastInDim S1024x200x128 ![0, 1, 2] bcast_S1x1x128_S1024x200x128_0_1_2
          (broadcastInDim S1x1x128 ![2] bcast_S128_S1x1x128_2 c) (ix3 b l h) = _
  rw [broadcastInDim_apply ![0, 1, 2] bcast_S1024x200x1_S1024x200x128_0_1_2 _ (ix3 b l h) (ix3 b l (0 : Fin 1))
      (fun a => by fin_cases a <;> rfl),
    broadcastInDim_apply ![0, 1, 2] bcast_S1x1x128_S1024x200x128_0_1_2 (broadcastInDim S1x1x128 ![2] bcast_S128_S1x1x128_2 g)
      (ix3 b l h) (ix3 (0 : Fin 1) (0 : Fin 1) h) (fun a => by fin_cases a <;> rfl),
    broadcastInDim_apply ![0, 1, 2] bcast_S1x1x128_S1024x200x128_0_1_2 (broadcastInDim S1x1x128 ![2] bcast_S128_S1x1x128_2 c)
      (ix3 b l h) (ix3 (0 : Fin 1) (0 : Fin 1) h) (fun a => by fin_cases a <;> rfl),
    broadcastInDim_apply ![2] bcast_S128_S1x1x128_2 g (ix3 (0 : Fin 1) (0 : Fin 1) h) (ix1 h) (fun a => by fin_cases a; rfl),
    broadcastInDim_apply ![2] bcast_S128_S1x1x128_2 c (ix3 (0 : Fin 1) (0 : Fin 1) h) (ix1 h) (fun a => by fin_cases a; rfl),
    centered_apply]
  show Ideal.div _ (Ideal.sqrt (variance x (ix3 b l (0 : Fin 1)) + Ideal.ofBits .f32 0x3727C5AC#32)) * _ + _ = _
  rw [variance_apply]

/-! ## The result at an index -/

/-- THE REFERENCE'S RESULT AT `(b, l, h)`: when every token id lies in `[0, 99999]` and every token-type id in `[0, 1]`
    (read signed), it is the layer norm `rowNorm` of the row `x(b, l, ·) = xAt … b l ·` with scale `a5` and shift `a6`. -/
theorem res_apply (a0 a1 : IVec S1024x200 32) (a2 : FVec Ideal S100000x128 .f32) (a3 : FVec Ideal S512x128 .f32)
    (a4 : FVec Ideal S2x128 .f32) (a5 a6 : FVec Ideal S128 .f32)
    (hids : ∀ k, 0 ≤ (a0 k).toInt ∧ (a0 k).toInt ≤ 99999) (htts : ∀ k, 0 ≤ (a1 k).toInt ∧ (a1 k).toInt ≤ 1)
    (b : Fin 1024) (l : Fin 200) (h : Fin 128) :
    res a0 a1 a2 a3 a4 a5 a6 (ix3 b l h)
      = rowNorm (fun k => xAt a0 a1 a2 a3 a4 b l k) (fun k => a5 (ix1 k)) (fun k => a6 (ix1 k)) h := by
  unfold res
  rw [layerNorm_apply]
  exact congrArg (fun r => rowNorm r _ _ h) (funext fun k => emb_apply a0 a1 a2 a3 a4 hids htts b l k)

/-- A word that is 0 or 1 reads signed within `[0, 1]`. -/
theorem range_of_bit {v : BitVec 32} (hv : v = 0#32 ∨ v = 1#32) : 0 ≤ v.toInt ∧ v.toInt ≤ 1 := by
  rcases hv with rfl | rfl <;> decide

/-- The same with the token-type hypothesis stated word by word: every token-type id is the word 0 or the word 1. -/
theorem res_apply_bits (a0 a1 : IVec S1024x200 32) (a2 : FVec Ideal S100000x128 .f32) (a3 : FVec Ideal S512x128 .f32)
    (a4 : FVec Ideal S2x128 .f32) (a5 a6 : FVec Ideal S128 .f32)
    (hids : ∀ k, 0 ≤ (a0 k).toInt ∧ (a0 k).toInt ≤ 99999) (htts : ∀ k, a1 k = 0#32 ∨ a1 k = 1#32)
    (b : Fin 1024) (l : Fin 200) (h : Fin 128) :
    res a0 a1 a2 a3 a4 a5 a6 (ix3 b l h)
      = rowNorm (fun k => xAt a0 a1 a2 a3 a4 b l k) (fun k => a5 (ix1 k)) (fun k => a6 (ix1 k)) h :=
  res_apply a0 a1 a2 a3 a4 a5 a6 hids (fun k => range_of_bit (htts k)) b l h

end Cert.ReferenceIdeal.RefValue

end
-- ==== Proof.RegValueBody.lean ====
/-
  The layer-norm body read at an index, over the extended reals.

  Each of the four regions' bodies computes, for every token position (r, l) of its block, one normalized row of 128
  lanes: the row is the sum of the gathered embedding row, the position row, and the token-type id (as a float) times the
  token-type difference row; its mean and its variance are lane sums divided by the constant 128; the row less its mean is
  multiplied by the reciprocal square root of the variance plus a small constant, scaled lane by lane and shifted lane by
  lane. This module states that as a closed form (`rowIn`, `rowMean`, `rowVar`, `LNk`) and proves that the store's payload
  at index (r, l, h) is that closed form — by pushing the index through the pointwise operations, reading each layout
  operation (a cast that adds a unit axis, a broadcast along absent or unit axes) at its coordinates, and each lane
  reduction as a sum over the 128 lanes.
-/
import proofs.«203556_g1357209665813_cont_week2b_798_48_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Proof.KI.Reg

open Cert.KernelIdeal Cert.KernelIdeal.Gen
open Idealize.ShloMosaic Idealize.ShloMosaic.ValueIdx
open scoped BigOperators

/-! ## Layout operations at coordinates -/

section Layout

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A `[1, b]` array cast to `[1, 1, b]` reads, at `(u, v, j)`, the operand at `(0, j)`. -/
theorem shapeCast_1b_11b_apply {b : ℕ} (x : (⟨2, ![1, b]⟩ : Shape).Idx → α)
    (h : (⟨2, ![1, b]⟩ : Shape).ShapeCasts ⟨3, ![1, 1, b]⟩) (u v : Fin 1) (j : Fin b) :
    shapeCast ⟨3, ![1, 1, b]⟩ x h (ix3 u v j) = x (ix2 (0 : Fin 1) j) :=
  shapeCast_apply x h _ _ (by
    have hu : u.val = 0 := by omega
    have hv : v.val = 0 := by omega
    rw [Shape.rowMajor_val_two, Shape.rowMajor_val_three]
    show 0 * b + j.val = (u.val * 1 + v.val) * b + j.val
    rw [hu, hv])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-- A lane reduction of a 64×200×128 array by addition, over the extended reals, is at `(r, l)` the sum over the 128
    lanes of the array at `(r, l, k)`. -/
theorem lane_sum (src : FVec Ideal S64x200x128 .f32) (h : S64x200x128.Reduces [2] S64x200) (hφ : FKind.Formats .f32)
    (hacc : (0x00000000#32 : BitVec 32) = FKind.add.neutral .f32 hφ) (r : Fin 64) (l : Fin 200) :
    multiReduction .add [2] S64x200 src 0x00000000#32 h hφ hacc (ix2 r l) = ∑ k : Fin 128, src (ix3 r l k) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

theorem rsqrt_apply {s : Shape} {φ : FTy} (a : FVec Ideal s φ) (i : s.Idx) : rsqrt a i = Ideal.rsqrt (a i) := rfl

/-! ## The closed form -/

/-- The row a body normalizes at token position `(r, l)` of its block: the gathered embedding row, plus the position row,
    plus the token-type id as a float times the token-type difference row. -/
def rowIn (x0 : Vec Ideal S64x200x128 .f32) (x1 : Vec Ideal S64x200 .i32) (x2 : Vec Ideal S200x128 .f32) (x3 : Vec Ideal S1x128 .f32)
    (r : Fin 64) (l : Fin 200) (k : Fin 128) : EReal :=
  (x0 (ix3 r l k) + x2 (ix2 l k)) + (((x1 (ix2 r l)).toInt : ℝ) : EReal) * x3 (ix2 (0 : Fin 1) k)

/-- A row's mean: its lane sum divided by the constant 128. -/
def rowMean (y : Fin 128 → EReal) : EReal := Ideal.div (∑ k : Fin 128, y k) (Ideal.ofBits .f32 0x43000000#32)

/-- A row's variance: the lane sum of the squared deviations from the mean, divided by the constant 128. -/
def rowVar (y : Fin 128 → EReal) : EReal :=
  Ideal.div (∑ k : Fin 128, (y k - rowMean y) * (y k - rowMean y)) (Ideal.ofBits .f32 0x43000000#32)

/-- The normalized row at lane `h`: the deviation from the mean times the reciprocal square root of the variance plus the
    small constant, scaled by `g h` and shifted by `b h`. -/
def LNk (g b y : Fin 128 → EReal) (h : Fin 128) : EReal :=
  ((y h - rowMean y) * Ideal.rsqrt (rowVar y + Ideal.ofBits .f32 0x3727C5AC#32)) * g h + b h

/-! ## The store's payload at an index -/

/-- Region 4's payload at `(r, l, h)` is the normalized row of token position `(r, l)` at lane `h`. -/
theorem pay4_apply (x0 : Vec Ideal S64x200x128 .f32) (x1 : Vec Ideal S64x200 .i32) (x2 : Vec Ideal S200x128 .f32)
    (x3 x4 x5 : Vec Ideal S1x128 .f32) (r : Fin 64) (l : Fin 200) (h : Fin 128) :
    k4_pay1 (F := Ideal) (k4_pay2 (F := Ideal) x0 x1 x2 x3 x4) x5 (ix3 r l h)
      = LNk (fun k => x4 (ix2 (0 : Fin 1) k)) (fun k => x5 (ix2 (0 : Fin 1) k)) (rowIn x0 x1 x2 x3 r l) h := by
  unfold k4_pay1 k4_pay2
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum, lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  unfold LNk rowVar rowMean rowIn
  rfl

/-- Region 5's payload at `(r, l, h)` is the normalized row of token position `(r, l)` at lane `h`. -/
theorem pay5_apply (x0 : Vec Ideal S64x200x128 .f32) (x1 : Vec Ideal S64x200 .i32) (x2 : Vec Ideal S200x128 .f32)
    (x3 x4 x5 : Vec Ideal S1x128 .f32) (r : Fin 64) (l : Fin 200) (h : Fin 128) :
    k5_pay1 (F := Ideal) (k5_pay2 (F := Ideal) x0 x1 x2 x3 x4) x5 (ix3 r l h)
      = LNk (fun k => x4 (ix2 (0 : Fin 1) k)) (fun k => x5 (ix2 (0 : Fin 1) k)) (rowIn x0 x1 x2 x3 r l) h := by
  unfold k5_pay1 k5_pay2
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum, lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  unfold LNk rowVar rowMean rowIn
  rfl

/-- Region 6's payload at `(r, l, h)` is the normalized row of token position `(r, l)` at lane `h`. -/
theorem pay6_apply (x0 : Vec Ideal S64x200x128 .f32) (x1 : Vec Ideal S64x200 .i32) (x2 : Vec Ideal S200x128 .f32)
    (x3 x4 x5 : Vec Ideal S1x128 .f32) (r : Fin 64) (l : Fin 200) (h : Fin 128) :
    k6_pay1 (F := Ideal) (k6_pay2 (F := Ideal) x0 x1 x2 x3 x4) x5 (ix3 r l h)
      = LNk (fun k => x4 (ix2 (0 : Fin 1) k)) (fun k => x5 (ix2 (0 : Fin 1) k)) (rowIn x0 x1 x2 x3 r l) h := by
  unfold k6_pay1 k6_pay2
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum, lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  unfold LNk rowVar rowMean rowIn
  rfl

/-- Region 7's payload at `(r, l, h)` is the normalized row of token position `(r, l)` at lane `h`. -/
theorem pay7_apply (x0 : Vec Ideal S64x200x128 .f32) (x1 : Vec Ideal S64x200 .i32) (x2 : Vec Ideal S200x128 .f32)
    (x3 x4 x5 : Vec Ideal S1x128 .f32) (r : Fin 64) (l : Fin 200) (h : Fin 128) :
    k7_pay1 (F := Ideal) (k7_pay2 (F := Ideal) x0 x1 x2 x3 x4) x5 (ix3 r l h)
      = LNk (fun k => x4 (ix2 (0 : Fin 1) k)) (fun k => x5 (ix2 (0 : Fin 1) k)) (rowIn x0 x1 x2 x3 r l) h := by
  unfold k7_pay1 k7_pay2
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum, lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  erw [lane_sum]
  simp only [addf_apply, mulf_apply, subf_apply, divf_apply, rsqrt_apply, broadcast_apply, sitofp_apply, shapeCast_self,
    shapeCast_ab_ab1_apply, shapeCast_1b_11b_apply, shapeCast_ab_1ab_apply, broadcastTo_ab1_abc_apply,
    broadcastTo_1bc_abc_apply, broadcastTo_11c_abc_apply]
  unfold LNk rowVar rowMean rowIn
  rfl

end Cert.Proof.KI.Reg

end
-- ==== Proof.Algebra.lean ====
/-
  The reference's closed form in the kernel's shape. Per row `(b, l)` the kernel adds the token-type row as
  `T(0, ·) + tf · (T(1, ·) − T(0, ·))` with `tf` the type id as a real (inside the position term), and normalizes by
  multiplying with the reciprocal square root where the reference divides by the square root. Under the input-domain
  precondition — ids within their tables, the type id 0 or 1, every table entry a real — the two agree:
  `0 · d = 0`, `1 · d = d`, `t₀ + (t₁ − t₀) = t₁` on reals, and for a positive real `v` the quotient by `√v` is the
  product with `(√v)⁻¹`. The variance plus the positive literal is a positive real because a row of reals has a real
  mean and a real variance that is not negative.
-/
import proofs.«203556_g1357209665813_cont_week2b_798_48_alg».proof.Proof.RefValue
import proofs.«203556_g1357209665813_cont_week2b_798_48_alg».proof.Proof.IdxRange
import proofs.«203556_g1357209665813_cont_week2b_798_48_alg».proof.Proof.RegValueBody

noncomputable section

open scoped BigOperators

namespace Cert.ReferenceIdeal.Algebra

open Cert.ReferenceIdeal Cert.ReferenceIdeal.RefRun Cert.ReferenceIdeal.RefValue Idealize.ShloMosaic Idealize.ShloMosaic.ValueIdx

/-! ## Reals inside the extended reals -/

/-- A finite sum of reals, as extended reals, is the real sum. -/
theorem coe_sum {ι : Type} (s : Finset ι) (x : ι → ℝ) : ∑ k ∈ s, ((x k : ℝ) : EReal) = ((∑ k ∈ s, x k : ℝ) : EReal) :=
  (map_sum (⟨⟨Real.toEReal, EReal.coe_zero⟩, EReal.coe_add⟩ : ℝ →+ EReal) x s).symm

/-- The word `0x43000000` is the real 128. -/
theorem lit128 : Ideal.ofBits .f32 0x43000000#32 = ((128 : ℝ) : EReal) := by
  simp [Ideal.ofBits, Ideal.ieee, -EReal.coe_mul] <;> norm_num

/-- The word `0x3727C5AC` is a positive real. -/
theorem litEps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul] <;> norm_num

/-- A real divided by the word of 128 is the real quotient. -/
theorem div128 (s : ℝ) : Ideal.div (s : EReal) (Ideal.ofBits .f32 0x43000000#32) = ((s / 128 : ℝ) : EReal) := by
  rw [lit128, Ideal.div_coe (by norm_num), ← EReal.coe_mul]
  congr 1; ring

/-- A quotient by the square root of a positive real is the product with the reciprocal square root, for any numerator. -/
theorem div_sqrt_eq_mul_rsqrt (x : EReal) {v : ℝ} (hv : 0 < v) :
    Ideal.div x (Ideal.sqrt (v : EReal)) = x * Ideal.rsqrt (v : EReal) := by
  have hs : 0 < Real.sqrt v := Real.sqrt_pos.mpr hv
  rw [Ideal.sqrt_coe, Ideal.rsqrt_coe, if_neg (not_lt.mpr hv.le), if_neg (not_lt.mpr hv.le), if_neg hv.ne']
  unfold Ideal.div
  rw [if_neg (EReal.coe_ne_zero.mpr hs.ne'), EReal.coe_inv]

/-! ## A row of reals -/

/-- The mean of a row of reals is the real mean. -/
theorem rowMean_coe (x : Fin 128 → ℝ) : rowMean (fun k => (x k : EReal)) = (((∑ k, x k) / 128 : ℝ) : EReal) := by
  unfold rowMean; rw [coe_sum, div128]

/-- The variance of a row of reals is the real variance. -/
theorem rowVar_coe (x : Fin 128 → ℝ) :
    rowVar (fun k => (x k : EReal))
      = (((∑ k, (x k - (∑ j, x j) / 128) * (x k - (∑ j, x j) / 128)) / 128 : ℝ) : EReal) := by
  unfold rowVar
  rw [rowMean_coe]
  simp only [← EReal.coe_sub, ← EReal.coe_mul]
  rw [coe_sum, div128]

/-- The reference's division by the square root is the kernel's multiplication by the reciprocal square root, on a row of
    reals: the variance plus the positive literal is a positive real. -/
theorem rowNorm_eq_kernel (r g c : Fin 128 → EReal) (hr : ∀ k, ∃ x : ℝ, r k = (x : EReal)) (h : Fin 128) :
    rowNorm r g c h
      = ((r h - rowMean r) * Ideal.rsqrt (rowVar r + Ideal.ofBits .f32 0x3727C5AC#32)) * g h + c h := by
  choose x hx using hr
  obtain rfl : r = fun k => (x k : EReal) := funext hx
  obtain ⟨e, he, hE⟩ := litEps
  unfold rowNorm
  have hV : 0 ≤ (∑ k, (x k - (∑ j, x j) / 128) * (x k - (∑ j, x j) / 128)) / 128 :=
    div_nonneg (Finset.sum_nonneg fun k _ => mul_self_nonneg _) (by norm_num)
  rw [rowVar_coe, hE, ← EReal.coe_add, div_sqrt_eq_mul_rsqrt _ (add_pos_of_nonneg_of_pos hV he)]

/-! ## The embedding row in the kernel's association -/

/-- The kernel's embedding row element: the word row, plus (the position row plus type row 0), plus the type id as a real
    times (type row 1 minus type row 0). -/
def xK (ids tts : IVec S1024x200 32) (w : FVec Ideal S100000x128 .f32) (p : FVec Ideal S512x128 .f32)
    (t : FVec Ideal S2x128 .f32) (b : Fin 1024) (l : Fin 200) (h : Fin 128) : EReal :=
  (w (ix2 ⟨min (ids (ix2 b l)).toInt.toNat 99999, by omega⟩ h) + (p (ix2 ⟨l.val, by omega⟩ h) + t (ix2 (0 : Fin 2) h)))
    + (((tts (ix2 b l)).toInt : ℝ) : EReal) * (t (ix2 (1 : Fin 2) h) - t (ix2 (0 : Fin 2) h))

/-- The reference's row element with the type row named: any `q` whose value is the clamped type id. -/
theorem xAt_eq (ids tts : IVec S1024x200 32) (w : FVec Ideal S100000x128 .f32) (p : FVec Ideal S512x128 .f32)
    (t : FVec Ideal S2x128 .f32) (b : Fin 1024) (l : Fin 200) (h : Fin 128) (q : Fin 2)
    (hq : q.val = min (tts (ix2 b l)).toInt.toNat 1) :
    xAt ids tts w p t b l h
      = (w (ix2 ⟨min (ids (ix2 b l)).toInt.toNat 99999, by omega⟩ h) + p (ix2 ⟨l.val, by omega⟩ h)) + t (ix2 q h) := by
  unfold xAt
  exact congrArg (fun q' : Fin 2 => (w _ + p _) + t (ix2 q' h)) (Fin.ext hq.symm)

/-- The reference's row element is the kernel's, when the type id is the word 0 or 1 and the type table's entries are reals. -/
theorem xAt_eq_kernel (ids tts : IVec S1024x200 32) (w : FVec Ideal S100000x128 .f32) (p : FVec Ideal S512x128 .f32)
    (t : FVec Ideal S2x128 .f32) (htts : ∀ k, tts k = 0#32 ∨ tts k = 1#32) (ht : ∀ i, ∃ x : ℝ, t i = (x : EReal))
    (b : Fin 1024) (l : Fin 200) (h : Fin 128) :
    xAt ids tts w p t b l h = xK ids tts w p t b l h := by
  obtain ⟨t0, h0⟩ := ht (ix2 (0 : Fin 2) h)
  obtain ⟨t1, h1⟩ := ht (ix2 (1 : Fin 2) h)
  unfold xK
  rcases htts (ix2 b l) with e | e
  · rw [xAt_eq ids tts w p t b l h 0 (by rw [e]; decide), e]
    have hz : (((0#32 : BitVec 32).toInt : ℝ) : EReal) = 0 := by
      rw [show (0#32 : BitVec 32).toInt = 0 by decide]; simp
    rw [hz, zero_mul, add_zero, add_assoc]
  · rw [xAt_eq ids tts w p t b l h 1 (by rw [e]; decide), e]
    have ho : (((1#32 : BitVec 32).toInt : ℝ) : EReal) = 1 := by
      rw [show (1#32 : BitVec 32).toInt = 1 by decide]; simp
    have key : (t1 : EReal) = (t0 : EReal) + ((t1 : EReal) - (t0 : EReal)) := by
      rw [← EReal.coe_sub, ← EReal.coe_add]; congr 1; ring
    rw [ho, one_mul, h0, h1, add_assoc, add_assoc, add_assoc, ← key]

/-- The reference's row element is a real when the tables' entries are. -/
theorem xAt_real (ids tts : IVec S1024x200 32) (w : FVec Ideal S100000x128 .f32) (p : FVec Ideal S512x128 .f32)
    (t : FVec Ideal S2x128 .f32) (hw : ∀ i, ∃ x : ℝ, w i = (x : EReal)) (hp : ∀ i, ∃ x : ℝ, p i = (x : EReal))
    (ht : ∀ i, ∃ x : ℝ, t i = (x : EReal)) (b : Fin 1024) (l : Fin 200) (h : Fin 128) :
    ∃ x : ℝ, xAt ids tts w p t b l h = (x : EReal) := by
  unfold xAt
  obtain ⟨a, ha⟩ := hw (ix2 ⟨min (ids (ix2 b l)).toInt.toNat 99999, by omega⟩ h)
  obtain ⟨q, hq⟩ := hp (ix2 ⟨l.val, by omega⟩ h)
  obtain ⟨s, hs⟩ := ht (ix2 ⟨min (tts (ix2 b l)).toInt.toNat 1, by omega⟩ h)
  exact ⟨a + q + s, by rw [ha, hq, hs, EReal.coe_add, EReal.coe_add]⟩

/-! ## The result in the kernel's shape -/

/-- The kernel's normalized element of a row: the deviation from the mean times the reciprocal square root of the variance
    plus the literal, times `g h`, plus `c h`. -/
def yK (r g c : Fin 128 → EReal) (h : Fin 128) : EReal :=
  ((r h - rowMean r) * Ideal.rsqrt (rowVar r + Ideal.ofBits .f32 0x3727C5AC#32)) * g h + c h

/-- THE REFERENCE'S RESULT AT `(b, l, h)` IN THE KERNEL'S SHAPE, under the input domain's facts: ids within `[0, 99999]`
    (signed), type ids the word 0 or 1, the three tables' entries reals. -/
theorem res_eq_kernel (a0 a1 : IVec S1024x200 32) (a2 : FVec Ideal S100000x128 .f32) (a3 : FVec Ideal S512x128 .f32)
    (a4 : FVec Ideal S2x128 .f32) (a5 a6 : FVec Ideal S128 .f32)
    (hids : ∀ k, 0 ≤ (a0 k).toInt ∧ (a0 k).toInt ≤ 99999) (htts : ∀ k, a1 k = 0#32 ∨ a1 k = 1#32)
    (h2 : ∀ i, ∃ x : ℝ, a2 i = (x : EReal)) (h3 : ∀ i, ∃ x : ℝ, a3 i = (x : EReal)) (h4 : ∀ i, ∃ x : ℝ, a4 i = (x : EReal))
    (b : Fin 1024) (l : Fin 200) (h : Fin 128) :
    res a0 a1 a2 a3 a4 a5 a6 (ix3 b l h)
      = yK (fun k => xK a0 a1 a2 a3 a4 b l k) (fun k => a5 (ix1 k)) (fun k => a6 (ix1 k)) h := by
  rw [res_apply_bits a0 a1 a2 a3 a4 a5 a6 hids htts b l h,
    rowNorm_eq_kernel _ _ _ (fun k => xAt_real a0 a1 a2 a3 a4 h2 h3 h4 b l k) h]
  have hx : xAt a0 a1 a2 a3 a4 b l = xK a0 a1 a2 a3 a4 b l := funext fun k => xAt_eq_kernel a0 a1 a2 a3 a4 htts h4 b l k
  unfold yK
  rw [hx]

/-- A word read signed within `[0, n]` is, clamped, its unsigned value. -/
theorem min_toInt_toNat (v : BitVec 32) (n : Nat) (h0 : 0 ≤ v.toInt) (h1 : v.toInt ≤ n) : min v.toInt.toNat n = v.toNat := by
  have h32 := v.isLt
  rw [BitVec.toInt_eq_toNat_cond] at h0 h1 ⊢
  split at h0 <;> omega

/-- The same from the precondition of the reference's memory: on every device, at every index. -/
theorem res_of_pre (m : (ℓ : Loc nD τ sig) → Buf (Elt Ideal) ℓ)
    (hpre : Cert.Pre_ReferenceIdeal (hPre_input_domain := Cert.Pre_input_domain.Gen.facts) m) (c : Dev nD)
    (b : Fin 1024) (l : Fin 200) (h : Fin 128) :
    res (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (ix3 b l h)
      = yK (fun k => xK (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) b l k)
          (fun k => (m ((c.tc : Thread nD τ).loc main_arg5) : FVec Ideal S128 .f32) (ix1 k))
          (fun k => (m ((c.tc : Thread nD τ).loc main_arg6) : FVec Ideal S128 .f32) (ix1 k)) h := by
  have hp := hpre c
  have e0 : (0#32 : BitVec 32).toInt = 0 := by decide
  have e9 : (99999#32 : BitVec 32).toInt = 99999 := by decide
  exact res_eq_kernel _ _ _ _ _ _ _
    (fun k => by have := (Cert.Proof.KI.pre_signed hp k).1; rw [e0, e9] at this; exact this)
    (Cert.Proof.KI.tt_range hp) (Cert.Proof.KI.arg2_real hp) (Cert.Proof.KI.arg3_real hp) (Cert.Proof.KI.arg4_real hp) b l h

/-! ## Against the kernel body's closed form -/

section Reg

open Cert.Proof.KI

/-- The kernel body's row mean is the same term. -/
theorem reg_rowMean_eq : Reg.rowMean = rowMean := rfl

/-- The kernel body's row variance is the same term. -/
theorem reg_rowVar_eq : Reg.rowVar = rowVar := rfl

/-- The kernel body's normalized row is `yK` with the row last. -/
theorem LNk_eq_yK (g c r : Fin 128 → EReal) (h : Fin 128) : Reg.LNk g c r h = yK r g c h := rfl

/-- The reference's normalized row is the kernel body's, on a row of reals. -/
theorem rowNorm_eq_LNk (r g c : Fin 128 → EReal) (hr : ∀ k, ∃ x : ℝ, r k = (x : EReal)) (h : Fin 128) :
    rowNorm r g c h = Reg.LNk g c r h :=
  (rowNorm_eq_kernel r g c hr h).trans (LNk_eq_yK g c r h).symm

/-- The two associations of the embedding sum, on reals, for a type id that is the word 0 or 1: the kernel's
    `(w + (p + t₀)) + tt · (t₁ − t₀)` is the reference's `(w + p) + t_tt`. -/
theorem embed_assoc (w p t0 t1 : ℝ) (tt : BitVec 32) (htt : tt = 0#32 ∨ tt = 1#32) :
    ((w : EReal) + ((p : EReal) + (t0 : EReal))) + ((tt.toInt : ℝ) : EReal) * ((t1 : EReal) - (t0 : EReal))
      = ((w : EReal) + (p : EReal)) + (if tt = 0#32 then (t0 : EReal) else (t1 : EReal)) := by
  rcases htt with rfl | rfl
  · have hz : (((0#32 : BitVec 32).toInt : ℝ) : EReal) = 0 := by
      rw [show (0#32 : BitVec 32).toInt = 0 by decide]; simp
    rw [hz, zero_mul, add_zero, add_assoc, if_pos rfl]
  · have ho : (((1#32 : BitVec 32).toInt : ℝ) : EReal) = 1 := by
      rw [show (1#32 : BitVec 32).toInt = 1 by decide]; simp
    have key : (t1 : EReal) = (t0 : EReal) + ((t1 : EReal) - (t0 : EReal)) := by
      rw [← EReal.coe_sub, ← EReal.coe_add]; congr 1; ring
    rw [ho, one_mul, if_neg (by decide), add_assoc, add_assoc, add_assoc, ← key]

/-- The reference's row is the kernel body's row `Reg.rowIn x0 x1 x2 x3 r l'` whenever the body's four operands hold, at
    that token position: the gathered word row, the type id, the position row plus type row 0, and type row 1 minus type
    row 0. -/
theorem xAt_eq_rowIn (ids tts : IVec S1024x200 32) (w : FVec Ideal S100000x128 .f32) (p : FVec Ideal S512x128 .f32)
    (t : FVec Ideal S2x128 .f32) (htts : ∀ k, tts k = 0#32 ∨ tts k = 1#32) (ht : ∀ i, ∃ x : ℝ, t i = (x : EReal))
    (b : Fin 1024) (l : Fin 200)
    (x0 : Vec Ideal Cert.KernelIdeal.S64x200x128 .f32) (x1 : Vec Ideal Cert.KernelIdeal.S64x200 .i32)
    (x2 : Vec Ideal Cert.KernelIdeal.S200x128 .f32) (x3 : Vec Ideal Cert.KernelIdeal.S1x128 .f32) (r : Fin 64) (l' : Fin 200)
    (h0 : ∀ k : Fin 128, x0 (ix3 r l' k) = w (ix2 ⟨min (ids (ix2 b l)).toInt.toNat 99999, by omega⟩ k))
    (h1 : x1 (ix2 r l') = tts (ix2 b l))
    (h2 : ∀ k : Fin 128, x2 (ix2 l' k) = p (ix2 ⟨l.val, by omega⟩ k) + t (ix2 (0 : Fin 2) k))
    (h3 : ∀ k : Fin 128, x3 (ix2 (0 : Fin 1) k) = t (ix2 (1 : Fin 2) k) - t (ix2 (0 : Fin 2) k)) :
    xAt ids tts w p t b l = Reg.rowIn x0 x1 x2 x3 r l' := by
  funext k
  rw [xAt_eq_kernel ids tts w p t htts ht b l k]
  unfold xK Reg.rowIn
  rw [h0, h1, h2, h3]

/-- THE REFERENCE'S RESULT AT `(b, l, h)` AS THE KERNEL BODY'S `Reg.LNk` of the row `xK`, under the input domain's facts. -/
theorem res_eq_LNk (a0 a1 : IVec S1024x200 32) (a2 : FVec Ideal S100000x128 .f32) (a3 : FVec Ideal S512x128 .f32)
    (a4 : FVec Ideal S2x128 .f32) (a5 a6 : FVec Ideal S128 .f32)
    (hids : ∀ k, 0 ≤ (a0 k).toInt ∧ (a0 k).toInt ≤ 99999) (htts : ∀ k, a1 k = 0#32 ∨ a1 k = 1#32)
    (h2 : ∀ i, ∃ x : ℝ, a2 i = (x : EReal)) (h3 : ∀ i, ∃ x : ℝ, a3 i = (x : EReal)) (h4 : ∀ i, ∃ x : ℝ, a4 i = (x : EReal))
    (b : Fin 1024) (l : Fin 200) (h : Fin 128) :
    res a0 a1 a2 a3 a4 a5 a6 (ix3 b l h)
      = Reg.LNk (fun k => a5 (ix1 k)) (fun k => a6 (ix1 k)) (fun k => xK a0 a1 a2 a3 a4 b l k) h :=
  (res_eq_kernel a0 a1 a2 a3 a4 a5 a6 hids htts h2 h3 h4 b l h).trans (LNk_eq_yK _ _ _ h).symm

/-- The same against the kernel body's own row `Reg.rowIn`, given what the body's four operands hold at the token position. -/
theorem res_eq_LNk_rowIn (a0 a1 : IVec S1024x200 32) (a2 : FVec Ideal S100000x128 .f32) (a3 : FVec Ideal S512x128 .f32)
    (a4 : FVec Ideal S2x128 .f32) (a5 a6 : FVec Ideal S128 .f32)
    (hids : ∀ k, 0 ≤ (a0 k).toInt ∧ (a0 k).toInt ≤ 99999) (htts : ∀ k, a1 k = 0#32 ∨ a1 k = 1#32)
    (h2 : ∀ i, ∃ x : ℝ, a2 i = (x : EReal)) (h3 : ∀ i, ∃ x : ℝ, a3 i = (x : EReal)) (h4 : ∀ i, ∃ x : ℝ, a4 i = (x : EReal))
    (b : Fin 1024) (l : Fin 200) (h : Fin 128)
    (x0 : Vec Ideal Cert.KernelIdeal.S64x200x128 .f32) (x1 : Vec Ideal Cert.KernelIdeal.S64x200 .i32)
    (x2 : Vec Ideal Cert.KernelIdeal.S200x128 .f32) (x3 : Vec Ideal Cert.KernelIdeal.S1x128 .f32) (r : Fin 64) (l' : Fin 200)
    (e0 : ∀ k : Fin 128, x0 (ix3 r l' k) = a2 (ix2 ⟨min (a0 (ix2 b l)).toInt.toNat 99999, by omega⟩ k))
    (e1 : x1 (ix2 r l') = a1 (ix2 b l))
    (e2 : ∀ k : Fin 128, x2 (ix2 l' k) = a3 (ix2 ⟨l.val, by omega⟩ k) + a4 (ix2 (0 : Fin 2) k))
    (e3 : ∀ k : Fin 128, x3 (ix2 (0 : Fin 1) k) = a4 (ix2 (1 : Fin 2) k) - a4 (ix2 (0 : Fin 2) k)) :
    res a0 a1 a2 a3 a4 a5 a6 (ix3 b l h)
      = Reg.LNk (fun k => a5 (ix1 k)) (fun k => a6 (ix1 k)) (Reg.rowIn x0 x1 x2 x3 r l') h := by
  rw [res_apply_bits a0 a1 a2 a3 a4 a5 a6 hids htts b l h,
    rowNorm_eq_LNk _ _ _ (fun k => xAt_real a0 a1 a2 a3 a4 h2 h3 h4 b l k) h]
  exact congrArg (fun y => Reg.LNk _ _ y h) (xAt_eq_rowIn a0 a1 a2 a3 a4 htts h4 b l x0 x1 x2 x3 r l' e0 e1 e2 e3)

/-- From the precondition of the reference's memory: the result as the kernel body's `Reg.LNk` of the row `xK`. -/
theorem res_of_pre_LNk (m : (ℓ : Loc nD τ sig) → Buf (Elt Ideal) ℓ)
    (hpre : Cert.Pre_ReferenceIdeal (hPre_input_domain := Cert.Pre_input_domain.Gen.facts) m) (c : Dev nD)
    (b : Fin 1024) (l : Fin 200) (h : Fin 128) :
    res (F := Ideal) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (ix3 b l h)
      = Reg.LNk (fun k => (m ((c.tc : Thread nD τ).loc main_arg5) : FVec Ideal S128 .f32) (ix1 k))
          (fun k => (m ((c.tc : Thread nD τ).loc main_arg6) : FVec Ideal S128 .f32) (ix1 k))
          (fun k => xK (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) b l k) h :=
  (res_of_pre m hpre c b l h).trans (LNk_eq_yK _ _ _ h).symm

end Reg

end Cert.ReferenceIdeal.Algebra

end
-- ==== Proof.RegValue.lean ====
/-
  What each layer-norm region leaves in its result array, as one function of the arrays the region is entered with.

  Region K (K = 4 … 7, quarter q = K − 4) writes, at grid point t, the block of rows 256·q + 64·t … + 63 of the
  1024×200×128 result; the block is the body's output for the matching blocks of the inputs: rows 64·t … + 63 of the
  quarter's gathered 256×200×128 array, rows 256·q + 64·t … of the token-type ids, and the four small operands whole.
  So every written entry (b, l, h) is the normalized row `LNk` of the token position: the gathered row `b mod 256` of the
  quarter's array plus the position row `l` plus the token-type id at `(b, l)` times the difference row. That is ONE
  function `Gout` of the whole arrays; each point writes back its block of it, the blocks of the four points fill rows
  256·q … 256·q + 255, and the rest of the array keeps what it held at entry.
-/
import proofs.«203556_g1357209665813_cont_week2b_798_48_alg».proof.Proof.Region4
import proofs.«203556_g1357209665813_cont_week2b_798_48_alg».proof.Proof.Region5
import proofs.«203556_g1357209665813_cont_week2b_798_48_alg».proof.Proof.Region6
import proofs.«203556_g1357209665813_cont_week2b_798_48_alg».proof.Proof.Region7
import proofs.«203556_g1357209665813_cont_week2b_798_48_alg».proof.Proof.RegValueBody
import Idealize.ShloMosaic.Lib.Pipeline.Value

set_option maxRecDepth 16384

noncomputable section

namespace Cert.Proof.KI.Reg

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

/-! ## The whole-array function -/

/-- The result at `(b, l, h)`: the normalized row of token position `(b, l)` at lane `h` — the gathered row `b mod 256` of
    the quarter's array `a0`, plus the position row `l` of `pos`, plus the token-type id `tt (b, l)` as a float times the
    difference row `dty`; scaled by `g`, shifted by `s`. -/
def GoutAt (a0 : S256x200x128.Idx → EReal) (tt : S1024x200.Idx → BitVec 32) (pos : S200x128.Idx → EReal)
    (dty g s : S1x128.Idx → EReal) (b : Fin 1024) (l : Fin 200) (h : Fin 128) : EReal :=
  LNk (fun k => g (ix2 (0 : Fin 1) k)) (fun k => s (ix2 (0 : Fin 1) k))
    (fun k => (a0 (ix3 (⟨b.val % 256, Nat.mod_lt _ (by decide)⟩ : Fin 256) l k) + pos (ix2 l k))
      + (((tt (ix2 b l)).toInt : ℝ) : EReal) * dty (ix2 (0 : Fin 1) k)) h

/-- The same as a function of the array index. -/
def Gout (a0 : S256x200x128.Idx → EReal) (tt : S1024x200.Idx → BitVec 32) (pos : S200x128.Idx → EReal)
    (dty g s : S1x128.Idx → EReal) : S1024x200x128.Idx → EReal :=
  fun i => GoutAt a0 tt pos dty g s (i 0) (i 1) (i 2)

/-! # Region 4 (quarter 0) -/

section Region4
variable (V : (c : Dev nD) → (b : Ref sig .tc) → Buf (Elt Ideal) ((c : Thread nD τ).loc b))
variable (Bd : Set (SemLoc sig × HIx 4))

/-- The one store covers the buffer from offset zero, and every load reads its buffer whole: the output buffer after
    the body is the payload of the loaded blocks. -/
theorem out4_6_eq {F : FTy → Type} [FloatOps F] (x0 : Vec F S64x200x128 .f32) (x1 : Vec F S64x200 .i32) (x2 : Vec F S200x128 .f32)
    (x3 x4 x5 : Vec F S1x128 .f32) : out4_6 x0 x1 x2 x3 x4 x5 = k4_pay1 (k4_pay2 x0 x1 x2 x3 x4) x5 := by
  unfold out4_6
  rw [View.canon_unit_zero hz3]
  simp only [View.ld_unit_zero (S := S64x200x128) hz3, View.ld_unit_zero (S := S64x200) hz2,
    View.ld_unit_zero (S := S200x128) hz2, View.ld_unit_zero (S := S1x128) hz2]

/-- The printed index maps over the grid's four points: the gathered array's block index is the point; the token-type
    ids' and the result's block index is 0 plus the point; the small operands' is zero. -/
theorem idx_facts4 : ∀ t : Fin cfg4.N, t.val < 4
    ∧ win4_0.index t (0 : Fin 3) = t.val ∧ win4_0.index t (1 : Fin 3) = 0 ∧ win4_0.index t (2 : Fin 3) = 0
    ∧ win4_1.index t (0 : Fin 2) = 0 + t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 3) = 0 + t.val ∧ win4_6.index t (1 : Fin 3) = 0 ∧ win4_6.index t (2 : Fin 3) = 0 :=
  (by decide +kernel : ∀ t : Fin grid4.N, _)

/-! ## The input blocks, read where the arrays hold them -/

theorem blk4_0 (c : Dev nD) (t : Fin cfg4.N) (r : Fin 64) (l : Fin 200) (k : Fin 128) :
    iblk4 V c 0 t (ix3 r l k)
      = (V c main_v28 : S256x200x128.Idx → EReal) (ix3 (⟨((0 + t.val) * 64 + r.val) % 256, Nat.mod_lt _ (by decide)⟩ : Fin 256) l k) := by
  obtain ⟨ht, e00, e01, e02, -⟩ := idx_facts4 t
  show (V c main_v28 : S256x200x128.Idx → EReal) (((cfg4.win 0).blk t).view.emb (ix3 r l k)) = _
  refine congrArg _ (funext fun a => Fin.ext ?_)
  match a with
  | ⟨0, _⟩ => show win4_0.index t (0 : Fin 3) * 64 + 1 * r.val = ((0 + t.val) * 64 + r.val) % 256; have := r.isLt; omega
  | ⟨1, _⟩ => show win4_0.index t (1 : Fin 3) * 200 + 1 * l.val = l.val; omega
  | ⟨2, _⟩ => show win4_0.index t (2 : Fin 3) * 128 + 1 * k.val = k.val; omega

theorem blk4_1 (c : Dev nD) (t : Fin cfg4.N) (r : Fin 64) (l : Fin 200) (hb : (0 + t.val) * 64 + r.val < 1024) :
    iblk4 V c 1 t (ix2 r l) = (V c main_arg1 : S1024x200.Idx → BitVec 32) (ix2 (⟨(0 + t.val) * 64 + r.val, hb⟩ : Fin 1024) l) := by
  obtain ⟨ht, -, -, -, e10, e11, -⟩ := idx_facts4 t
  show (V c main_arg1 : S1024x200.Idx → BitVec 32) (((cfg4.win 1).blk t).view.emb (ix2 r l)) = _
  refine congrArg _ (funext fun a => Fin.ext ?_)
  match a with
  | ⟨0, _⟩ => show win4_1.index t (0 : Fin 2) * 64 + 1 * r.val = (0 + t.val) * 64 + r.val; omega
  | ⟨1, _⟩ => show win4_1.index t (1 : Fin 2) * 200 + 1 * l.val = l.val; omega

theorem blk4_2 (c : Dev nD) (t : Fin cfg4.N) (l : Fin 200) (k : Fin 128) :
    iblk4 V c 2 t (ix2 l k) = (V c main_v19 : S200x128.Idx → EReal) (ix2 l k) := by
  obtain ⟨ht, -, -, -, -, -, e20, e21, -⟩ := idx_facts4 t
  show (V c main_v19 : S200x128.Idx → EReal) (((cfg4.win 2).blk t).view.emb (ix2 l k)) = _
  refine congrArg _ (funext fun a => Fin.ext ?_)
  match a with
  | ⟨0, _⟩ => show win4_2.index t (0 : Fin 2) * 200 + 1 * l.val = l.val; omega
  | ⟨1, _⟩ => show win4_2.index t (1 : Fin 2) * 128 + 1 * k.val = k.val; omega

theorem blk4_3 (c : Dev nD) (t : Fin cfg4.N) (z : Fin 1) (k : Fin 128) :
    iblk4 V c 3 t (ix2 z k) = (V c main_v25 : S1x128.Idx → EReal) (ix2 z k) := by
  obtain ⟨ht, -, -, -, -, -, -, -, ea, eb, -⟩ := idx_facts4 t
  show (V c main_v25 : S1x128.Idx → EReal) (((cfg4.win 3).blk t).view.emb (ix2 z k)) = _
  refine congrArg _ (funext fun a => Fin.ext ?_)
  match a with
  | ⟨0, _⟩ => show win4_3.index t (0 : Fin 2) * 1 + 1 * z.val = z.val; omega
  | ⟨1, _⟩ => show win4_3.index t (1 : Fin 2) * 128 + 1 * k.val = k.val; omega

theorem blk4_4 (c : Dev nD) (t : Fin cfg4.N) (z : Fin 1) (k : Fin 128) :
    iblk4 V c 4 t (ix2 z k) = (V c main_v26 : S1x128.Idx → EReal) (ix2 z k) := by
  obtain ⟨ht, -, -, -, -, -, -, -, -, -, ea, eb, -⟩ := idx_facts4 t
  show (V c main_v26 : S1x128.Idx → EReal) (((cfg4.win 4).blk t).view.emb (ix2 z k)) = _
  refine congrArg _ (funext fun a => Fin.ext ?_)
  match a with
  | ⟨0, _⟩ => show win4_4.index t (0 : Fin 2) * 1 + 1 * z.val = z.val; omega
  | ⟨1, _⟩ => show win4_4.index t (1 : Fin 2) * 128 + 1 * k.val = k.val; omega

theorem blk4_5 (c : Dev nD) (t : Fin cfg4.N) (z : Fin 1) (k : Fin 128) :
    iblk4 V c 5 t (ix2 z k) = (V c main_v27 : S1x128.Idx → EReal) (ix2 z k) := by
  obtain ⟨ht, -, -, -, -, -, -, -, -, -, -, -, ea, eb, -⟩ := idx_facts4 t
  show (V c main_v27 : S1x128.Idx → EReal) (((cfg4.win 5).blk t).view.emb (ix2 z k)) = _
  refine congrArg _ (funext fun a => Fin.ext ?_)
  match a with
  | ⟨0, _⟩ => show win4_5.index t (0 : Fin 2) * 1 + 1 * z.val = z.val; omega
  | ⟨1, _⟩ => show win4_5.index t (1 : Fin 2) * 128 + 1 * k.val = k.val; omega

/-! ## What a point writes back -/

/-- What point `t` writes back is its block of `Gout` of the arrays as the region finds them. -/
theorem flushed4_eq (c : Dev nD) (t : Fin cfg4.N) :
    (dat4 V Bd c).flushed 6 t = ((cfg4.win 6).blk t).view.read (Elt Ideal) (Gout (V c main_v28) (V c main_arg1) (V c main_v19) (V c main_v25) (V c main_v26) (V c main_v27)) := by
  show (cfg4.win 6).cut (grid4.coords t) ((dat4 V Bd c).after 6 t) = _
  rw [after4_6, out4_6_eq]
  obtain ⟨ht, -, -, -, -, -, -, -, -, -, -, -, -, -, e60, e61, e62⟩ := idx_facts4 t
  funext j
  obtain ⟨r, l, h, rfl⟩ : ∃ (r : Fin 64) (l : Fin 200) (h : Fin 128), j = ix3 r l h := ⟨j 0, j 1, j 2, eq_ix3 j⟩
  have hb : (0 + t.val) * 64 + r.val < 1024 := by have := r.isLt; omega
  have hemb : ((cfg4.win 6).blk t).view.emb (ix3 r l h) = (ix3 (⟨(0 + t.val) * 64 + r.val, hb⟩ : Fin 1024) l h : S1024x200x128.Idx) := by
    funext a; apply Fin.ext
    match a with
    | ⟨0, _⟩ => show win4_6.index t (0 : Fin 3) * 64 + 1 * r.val = (0 + t.val) * 64 + r.val; omega
    | ⟨1, _⟩ => show win4_6.index t (1 : Fin 3) * 200 + 1 * l.val = l.val; omega
    | ⟨2, _⟩ => show win4_6.index t (2 : Fin 3) * 128 + 1 * h.val = h.val; omega
  refine (pay4_apply (iblk4 V c 0 t) (iblk4 V c 1 t) (iblk4 V c 2 t) (iblk4 V c 3 t) (iblk4 V c 4 t) (iblk4 V c 5 t) r l h).trans ?_
  show _ = (Gout (V c main_v28) (V c main_arg1) (V c main_v19) (V c main_v25) (V c main_v26) (V c main_v27)) (((cfg4.win 6).blk t).view.emb (ix3 r l h))
  rw [hemb]
  show _ = GoutAt (V c main_v28) (V c main_arg1) (V c main_v19) (V c main_v25) (V c main_v26) (V c main_v27) ⟨(0 + t.val) * 64 + r.val, hb⟩ l h
  unfold GoutAt rowIn
  simp only [blk4_0, blk4_1 V c t _ _ hb, blk4_2, blk4_3, blk4_4, blk4_5]

/-- An index of the result array is in point `t`'s block iff each coordinate is in the block's range on its axis. -/
theorem mem_blk4 (t : Fin cfg4.N) (i : S1024x200x128.Idx) :
    i ∈ ((cfg4.win 6).blk t).view.set ↔ ∀ a : Fin 3, win4_6.index t a * S64x200x128.size a ≤ (i a).val ∧ (i a).val < win4_6.index t a * S64x200x128.size a + S64x200x128.size a := by
  show i ∈ ((View.whole main_v29).slice (win4_6.rect t)).set ↔ _
  rw [View.set_slice_whole, Rect.mem_set_unit]
  exact Iff.rfl

/-- The covered indices: in some point's block iff the row is one of the quarter's 256. -/
theorem covered_iff4 (i : S1024x200x128.Idx) :
    (∃ t : Fin cfg4.N, (cfg4.win 6).flush t = true ∧ i ∈ ((cfg4.win 6).blk t).view.set) ↔ 0 ≤ (i 0).val ∧ (i 0).val < 256 := by
  constructor
  · rintro ⟨t, -, hi⟩
    rw [mem_blk4] at hi
    have b0 : win4_6.index t (0 : Fin 3) * 64 ≤ (i 0).val ∧ (i 0).val < win4_6.index t (0 : Fin 3) * 64 + 64 := hi 0
    obtain ⟨ht, -, -, -, -, -, -, -, -, -, -, -, -, -, e60, e61, e62⟩ := idx_facts4 t
    omega
  · intro h
    have hi1 : (i 1).val < 200 := (i 1).isLt
    have hi2 : (i 2).val < 128 := (i 2).isLt
    have hN : (i 0).val / 64 - 0 < cfg4.N := lt_of_lt_of_eq (by omega : (i 0).val / 64 - 0 < 4) N_4.symm
    obtain ⟨ht, -, -, -, -, -, -, -, -, -, -, -, -, -, e60, e61, e62⟩ := idx_facts4 ⟨(i 0).val / 64 - 0, hN⟩
    refine ⟨⟨(i 0).val / 64 - 0, hN⟩, flush4_6 _, ?_⟩
    rw [mem_blk4]
    intro a
    match a with
    | ⟨0, _⟩ => show win4_6.index ⟨(i 0).val / 64 - 0, hN⟩ (0 : Fin 3) * 64 ≤ (i 0).val ∧ (i 0).val < win4_6.index ⟨(i 0).val / 64 - 0, hN⟩ (0 : Fin 3) * 64 + 64; simp only [] at e60; omega
    | ⟨1, _⟩ => show win4_6.index ⟨(i 0).val / 64 - 0, hN⟩ (1 : Fin 3) * 200 ≤ (i 1).val ∧ (i 1).val < win4_6.index ⟨(i 0).val / 64 - 0, hN⟩ (1 : Fin 3) * 200 + 200; omega
    | ⟨2, _⟩ => show win4_6.index ⟨(i 0).val / 64 - 0, hN⟩ (2 : Fin 3) * 128 ≤ (i 2).val ∧ (i 2).val < win4_6.index ⟨(i 0).val / 64 - 0, hN⟩ (2 : Fin 3) * 128 + 128; omega

/-- The result array after the region: `Gout` of the entry arrays on the quarter's rows, its entry contents elsewhere. -/
theorem final4 (c : Dev nD) :
    (dat4 V Bd c).arrAt 6 cfg4.N
      = (fun i => if 0 ≤ (i 0).val ∧ (i 0).val < 256 then (Gout (V c main_v28) (V c main_arg1) (V c main_v19) (V c main_v25) (V c main_v26) (V c main_v27)) i else (V c main_v29 : S1024x200x128.Idx → EReal) i) := by
  funext i
  rw [(dat4 V Bd c).arrAt_eq_piecewise 6 _ (fun t _ => flushed4_eq V Bd c t) i, A_eq4]
  exact if_congr (covered_iff4 i) rfl rfl

end Region4

/-! # Region 5 (quarter 1) -/

section Region5
variable (V : (c : Dev nD) → (b : Ref sig .tc) → Buf (Elt Ideal) ((c : Thread nD τ).loc b))
variable (Bd : Set (SemLoc sig × HIx 4))

/-- The one store covers the buffer from offset zero, and every load reads its buffer whole: the output buffer after
    the body is the payload of the loaded blocks. -/
theorem out5_6_eq {F : FTy → Type} [FloatOps F] (x0 : Vec F S64x200x128 .f32) (x1 : Vec F S64x200 .i32) (x2 : Vec F S200x128 .f32)
    (x3 x4 x5 : Vec F S1x128 .f32) : out5_6 x0 x1 x2 x3 x4 x5 = k5_pay1 (k5_pay2 x0 x1 x2 x3 x4) x5 := by
  unfold out5_6
  rw [View.canon_unit_zero hz3]
  simp only [View.ld_unit_zero (S := S64x200x128) hz3, View.ld_unit_zero (S := S64x200) hz2,
    View.ld_unit_zero (S := S200x128) hz2, View.ld_unit_zero (S := S1x128) hz2]

/-- The printed index maps over the grid's four points: the gathered array's block index is the point; the token-type
    ids' and the result's block index is 4 plus the point; the small operands' is zero. -/
theorem idx_facts5 : ∀ t : Fin cfg5.N, t.val < 4
    ∧ win5_0.index t (0 : Fin 3) = t.val ∧ win5_0.index t (1 : Fin 3) = 0 ∧ win5_0.index t (2 : Fin 3) = 0
    ∧ win5_1.index t (0 : Fin 2) = 4 + t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 3) = 4 + t.val ∧ win5_6.index t (1 : Fin 3) = 0 ∧ win5_6.index t (2 : Fin 3) = 0 :=
  (by decide +kernel : ∀ t : Fin grid5.N, _)

/-! ## The input blocks, read where the arrays hold them -/

theorem blk5_0 (c : Dev nD) (t : Fin cfg5.N) (r : Fin 64) (l : Fin 200) (k : Fin 128) :
    iblk5 V c 0 t (ix3 r l k)
      = (V c main_v30 : S256x200x128.Idx → EReal) (ix3 (⟨((4 + t.val) * 64 + r.val) % 256, Nat.mod_lt _ (by decide)⟩ : Fin 256) l k) := by
  obtain ⟨ht, e00, e01, e02, -⟩ := idx_facts5 t
  show (V c main_v30 : S256x200x128.Idx → EReal) (((cfg5.win 0).blk t).view.emb (ix3 r l k)) = _
  refine congrArg _ (funext fun a => Fin.ext ?_)
  match a with
  | ⟨0, _⟩ => show win5_0.index t (0 : Fin 3) * 64 + 1 * r.val = ((4 + t.val) * 64 + r.val) % 256; have := r.isLt; omega
  | ⟨1, _⟩ => show win5_0.index t (1 : Fin 3) * 200 + 1 * l.val = l.val; omega
  | ⟨2, _⟩ => show win5_0.index t (2 : Fin 3) * 128 + 1 * k.val = k.val; omega

theorem blk5_1 (c : Dev nD) (t : Fin cfg5.N) (r : Fin 64) (l : Fin 200) (hb : (4 + t.val) * 64 + r.val < 1024) :
    iblk5 V c 1 t (ix2 r l) = (V c main_arg1 : S1024x200.Idx → BitVec 32) (ix2 (⟨(4 + t.val) * 64 + r.val, hb⟩ : Fin 1024) l) := by
  obtain ⟨ht, -, -, -, e10, e11, -⟩ := idx_facts5 t
  show (V c main_arg1 : S1024x200.Idx → BitVec 32) (((cfg5.win 1).blk t).view.emb (ix2 r l)) = _
  refine congrArg _ (funext fun a => Fin.ext ?_)
  match a with
  | ⟨0, _⟩ => show win5_1.index t (0 : Fin 2) * 64 + 1 * r.val = (4 + t.val) * 64 + r.val; omega
  | ⟨1, _⟩ => show win5_1.index t (1 : Fin 2) * 200 + 1 * l.val = l.val; omega

theorem blk5_2 (c : Dev nD) (t : Fin cfg5.N) (l : Fin 200) (k : Fin 128) :
    iblk5 V c 2 t (ix2 l k) = (V c main_v19 : S200x128.Idx → EReal) (ix2 l k) := by
  obtain ⟨ht, -, -, -, -, -, e20, e21, -⟩ := idx_facts5 t
  show (V c main_v19 : S200x128.Idx → EReal) (((cfg5.win 2).blk t).view.emb (ix2 l k)) = _
  refine congrArg _ (funext fun a => Fin.ext ?_)
  match a with
  | ⟨0, _⟩ => show win5_2.index t (0 : Fin 2) * 200 + 1 * l.val = l.val; omega
  | ⟨1, _⟩ => show win5_2.index t (1 : Fin 2) * 128 + 1 * k.val = k.val; omega

theorem blk5_3 (c : Dev nD) (t : Fin cfg5.N) (z : Fin 1) (k : Fin 128) :
    iblk5 V c 3 t (ix2 z k) = (V c main_v25 : S1x128.Idx → EReal) (ix2 z k) := by
  obtain ⟨ht, -, -, -, -, -, -, -, ea, eb, -⟩ := idx_facts5 t
  show (V c main_v25 : S1x128.Idx → EReal) (((cfg5.win 3).blk t).view.emb (ix2 z k)) = _
  refine congrArg _ (funext fun a => Fin.ext ?_)
  match a with
  | ⟨0, _⟩ => show win5_3.index t (0 : Fin 2) * 1 + 1 * z.val = z.val; omega
  | ⟨1, _⟩ => show win5_3.index t (1 : Fin 2) * 128 + 1 * k.val = k.val; omega

theorem blk5_4 (c : Dev nD) (t : Fin cfg5.N) (z : Fin 1) (k : Fin 128) :
    iblk5 V c 4 t (ix2 z k) = (V c main_v26 : S1x128.Idx → EReal) (ix2 z k) := by
  obtain ⟨ht, -, -, -, -, -, -, -, -, -, ea, eb, -⟩ := idx_facts5 t
  show (V c main_v26 : S1x128.Idx → EReal) (((cfg5.win 4).blk t).view.emb (ix2 z k)) = _
  refine congrArg _ (funext fun a => Fin.ext ?_)
  match a with
  | ⟨0, _⟩ => show win5_4.index t (0 : Fin 2) * 1 + 1 * z.val = z.val; omega
  | ⟨1, _⟩ => show win5_4.index t (1 : Fin 2) * 128 + 1 * k.val = k.val; omega

theorem blk5_5 (c : Dev nD) (t : Fin cfg5.N) (z : Fin 1) (k : Fin 128) :
    iblk5 V c 5 t (ix2 z k) = (V c main_v27 : S1x128.Idx → EReal) (ix2 z k) := by
  obtain ⟨ht, -, -, -, -, -, -, -, -, -, -, -, ea, eb, -⟩ := idx_facts5 t
  show (V c main_v27 : S1x128.Idx → EReal) (((cfg5.win 5).blk t).view.emb (ix2 z k)) = _
  refine congrArg _ (funext fun a => Fin.ext ?_)
  match a with
  | ⟨0, _⟩ => show win5_5.index t (0 : Fin 2) * 1 + 1 * z.val = z.val; omega
  | ⟨1, _⟩ => show win5_5.index t (1 : Fin 2) * 128 + 1 * k.val = k.val; omega

/-! ## What a point writes back -/

/-- What point `t` writes back is its block of `Gout` of the arrays as the region finds them. -/
theorem flushed5_eq (c : Dev nD) (t : Fin cfg5.N) :
    (dat5 V Bd c).flushed 6 t = ((cfg5.win 6).blk t).view.read (Elt Ideal) (Gout (V c main_v30) (V c main_arg1) (V c main_v19) (V c main_v25) (V c main_v26) (V c main_v27)) := by
  show (cfg5.win 6).cut (grid5.coords t) ((dat5 V Bd c).after 6 t) = _
  rw [after5_6, out5_6_eq]
  obtain ⟨ht, -, -, -, -, -, -, -, -, -, -, -, -, -, e60, e61, e62⟩ := idx_facts5 t
  funext j
  obtain ⟨r, l, h, rfl⟩ : ∃ (r : Fin 64) (l : Fin 200) (h : Fin 128), j = ix3 r l h := ⟨j 0, j 1, j 2, eq_ix3 j⟩
  have hb : (4 + t.val) * 64 + r.val < 1024 := by have := r.isLt; omega
  have hemb : ((cfg5.win 6).blk t).view.emb (ix3 r l h) = (ix3 (⟨(4 + t.val) * 64 + r.val, hb⟩ : Fin 1024) l h : S1024x200x128.Idx) := by
    funext a; apply Fin.ext
    match a with
    | ⟨0, _⟩ => show win5_6.index t (0 : Fin 3) * 64 + 1 * r.val = (4 + t.val) * 64 + r.val; omega
    | ⟨1, _⟩ => show win5_6.index t (1 : Fin 3) * 200 + 1 * l.val = l.val; omega
    | ⟨2, _⟩ => show win5_6.index t (2 : Fin 3) * 128 + 1 * h.val = h.val; omega
  refine (pay5_apply (iblk5 V c 0 t) (iblk5 V c 1 t) (iblk5 V c 2 t) (iblk5 V c 3 t) (iblk5 V c 4 t) (iblk5 V c 5 t) r l h).trans ?_
  show _ = (Gout (V c main_v30) (V c main_arg1) (V c main_v19) (V c main_v25) (V c main_v26) (V c main_v27)) (((cfg5.win 6).blk t).view.emb (ix3 r l h))
  rw [hemb]
  show _ = GoutAt (V c main_v30) (V c main_arg1) (V c main_v19) (V c main_v25) (V c main_v26) (V c main_v27) ⟨(4 + t.val) * 64 + r.val, hb⟩ l h
  unfold GoutAt rowIn
  simp only [blk5_0, blk5_1 V c t _ _ hb, blk5_2, blk5_3, blk5_4, blk5_5]

/-- An index of the result array is in point `t`'s block iff each coordinate is in the block's range on its axis. -/
theorem mem_blk5 (t : Fin cfg5.N) (i : S1024x200x128.Idx) :
    i ∈ ((cfg5.win 6).blk t).view.set ↔ ∀ a : Fin 3, win5_6.index t a * S64x200x128.size a ≤ (i a).val ∧ (i a).val < win5_6.index t a * S64x200x128.size a + S64x200x128.size a := by
  show i ∈ ((View.whole main_v31).slice (win5_6.rect t)).set ↔ _
  rw [View.set_slice_whole, Rect.mem_set_unit]
  exact Iff.rfl

/-- The covered indices: in some point's block iff the row is one of the quarter's 256. -/
theorem covered_iff5 (i : S1024x200x128.Idx) :
    (∃ t : Fin cfg5.N, (cfg5.win 6).flush t = true ∧ i ∈ ((cfg5.win 6).blk t).view.set) ↔ 256 ≤ (i 0).val ∧ (i 0).val < 512 := by
  constructor
  · rintro ⟨t, -, hi⟩
    rw [mem_blk5] at hi
    have b0 : win5_6.index t (0 : Fin 3) * 64 ≤ (i 0).val ∧ (i 0).val < win5_6.index t (0 : Fin 3) * 64 + 64 := hi 0
    obtain ⟨ht, -, -, -, -, -, -, -, -, -, -, -, -, -, e60, e61, e62⟩ := idx_facts5 t
    omega
  · intro h
    have hi1 : (i 1).val < 200 := (i 1).isLt
    have hi2 : (i 2).val < 128 := (i 2).isLt
    have hN : (i 0).val / 64 - 4 < cfg5.N := lt_of_lt_of_eq (by omega : (i 0).val / 64 - 4 < 4) N_5.symm
    obtain ⟨ht, -, -, -, -, -, -, -, -, -, -, -, -, -, e60, e61, e62⟩ := idx_facts5 ⟨(i 0).val / 64 - 4, hN⟩
    refine ⟨⟨(i 0).val / 64 - 4, hN⟩, flush5_6 _, ?_⟩
    rw [mem_blk5]
    intro a
    match a with
    | ⟨0, _⟩ => show win5_6.index ⟨(i 0).val / 64 - 4, hN⟩ (0 : Fin 3) * 64 ≤ (i 0).val ∧ (i 0).val < win5_6.index ⟨(i 0).val / 64 - 4, hN⟩ (0 : Fin 3) * 64 + 64; simp only [] at e60; omega
    | ⟨1, _⟩ => show win5_6.index ⟨(i 0).val / 64 - 4, hN⟩ (1 : Fin 3) * 200 ≤ (i 1).val ∧ (i 1).val < win5_6.index ⟨(i 0).val / 64 - 4, hN⟩ (1 : Fin 3) * 200 + 200; omega
    | ⟨2, _⟩ => show win5_6.index ⟨(i 0).val / 64 - 4, hN⟩ (2 : Fin 3) * 128 ≤ (i 2).val ∧ (i 2).val < win5_6.index ⟨(i 0).val / 64 - 4, hN⟩ (2 : Fin 3) * 128 + 128; omega

/-- The result array after the region: `Gout` of the entry arrays on the quarter's rows, its entry contents elsewhere. -/
theorem final5 (c : Dev nD) :
    (dat5 V Bd c).arrAt 6 cfg5.N
      = (fun i => if 256 ≤ (i 0).val ∧ (i 0).val < 512 then (Gout (V c main_v30) (V c main_arg1) (V c main_v19) (V c main_v25) (V c main_v26) (V c main_v27)) i else (V c main_v31 : S1024x200x128.Idx → EReal) i) := by
  funext i
  rw [(dat5 V Bd c).arrAt_eq_piecewise 6 _ (fun t _ => flushed5_eq V Bd c t) i, A_eq5]
  exact if_congr (covered_iff5 i) rfl rfl

end Region5

/-! # Region 6 (quarter 2) -/

section Region6
variable (V : (c : Dev nD) → (b : Ref sig .tc) → Buf (Elt Ideal) ((c : Thread nD τ).loc b))
variable (Bd : Set (SemLoc sig × HIx 4))

/-- The one store covers the buffer from offset zero, and every load reads its buffer whole: the output buffer after
    the body is the payload of the loaded blocks. -/
theorem out6_6_eq {F : FTy → Type} [FloatOps F] (x0 : Vec F S64x200x128 .f32) (x1 : Vec F S64x200 .i32) (x2 : Vec F S200x128 .f32)
    (x3 x4 x5 : Vec F S1x128 .f32) : out6_6 x0 x1 x2 x3 x4 x5 = k6_pay1 (k6_pay2 x0 x1 x2 x3 x4) x5 := by
  unfold out6_6
  rw [View.canon_unit_zero hz3]
  simp only [View.ld_unit_zero (S := S64x200x128) hz3, View.ld_unit_zero (S := S64x200) hz2,
    View.ld_unit_zero (S := S200x128) hz2, View.ld_unit_zero (S := S1x128) hz2]

/-- The printed index maps over the grid's four points: the gathered array's block index is the point; the token-type
    ids' and the result's block index is 8 plus the point; the small operands' is zero. -/
theorem idx_facts6 : ∀ t : Fin cfg6.N, t.val < 4
    ∧ win6_0.index t (0 : Fin 3) = t.val ∧ win6_0.index t (1 : Fin 3) = 0 ∧ win6_0.index t (2 : Fin 3) = 0
    ∧ win6_1.index t (0 : Fin 2) = 8 + t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 3) = 8 + t.val ∧ win6_6.index t (1 : Fin 3) = 0 ∧ win6_6.index t (2 : Fin 3) = 0 :=
  (by decide +kernel : ∀ t : Fin grid6.N, _)

/-! ## The input blocks, read where the arrays hold them -/

theorem blk6_0 (c : Dev nD) (t : Fin cfg6.N) (r : Fin 64) (l : Fin 200) (k : Fin 128) :
    iblk6 V c 0 t (ix3 r l k)
      = (V c main_v32 : S256x200x128.Idx → EReal) (ix3 (⟨((8 + t.val) * 64 + r.val) % 256, Nat.mod_lt _ (by decide)⟩ : Fin 256) l k) := by
  obtain ⟨ht, e00, e01, e02, -⟩ := idx_facts6 t
  show (V c main_v32 : S256x200x128.Idx → EReal) (((cfg6.win 0).blk t).view.emb (ix3 r l k)) = _
  refine congrArg _ (funext fun a => Fin.ext ?_)
  match a with
  | ⟨0, _⟩ => show win6_0.index t (0 : Fin 3) * 64 + 1 * r.val = ((8 + t.val) * 64 + r.val) % 256; have := r.isLt; omega
  | ⟨1, _⟩ => show win6_0.index t (1 : Fin 3) * 200 + 1 * l.val = l.val; omega
  | ⟨2, _⟩ => show win6_0.index t (2 : Fin 3) * 128 + 1 * k.val = k.val; omega

theorem blk6_1 (c : Dev nD) (t : Fin cfg6.N) (r : Fin 64) (l : Fin 200) (hb : (8 + t.val) * 64 + r.val < 1024) :
    iblk6 V c 1 t (ix2 r l) = (V c main_arg1 : S1024x200.Idx → BitVec 32) (ix2 (⟨(8 + t.val) * 64 + r.val, hb⟩ : Fin 1024) l) := by
  obtain ⟨ht, -, -, -, e10, e11, -⟩ := idx_facts6 t
  show (V c main_arg1 : S1024x200.Idx → BitVec 32) (((cfg6.win 1).blk t).view.emb (ix2 r l)) = _
  refine congrArg _ (funext fun a => Fin.ext ?_)
  match a with
  | ⟨0, _⟩ => show win6_1.index t (0 : Fin 2) * 64 + 1 * r.val = (8 + t.val) * 64 + r.val; omega
  | ⟨1, _⟩ => show win6_1.index t (1 : Fin 2) * 200 + 1 * l.val = l.val; omega

theorem blk6_2 (c : Dev nD) (t : Fin cfg6.N) (l : Fin 200) (k : Fin 128) :
    iblk6 V c 2 t (ix2 l k) = (V c main_v19 : S200x128.Idx → EReal) (ix2 l k) := by
  obtain ⟨ht, -, -, -, -, -, e20, e21, -⟩ := idx_facts6 t
  show (V c main_v19 : S200x128.Idx → EReal) (((cfg6.win 2).blk t).view.emb (ix2 l k)) = _
  refine congrArg _ (funext fun a => Fin.ext ?_)
  match a with
  | ⟨0, _⟩ => show win6_2.index t (0 : Fin 2) * 200 + 1 * l.val = l.val; omega
  | ⟨1, _⟩ => show win6_2.index t (1 : Fin 2) * 128 + 1 * k.val = k.val; omega

theorem blk6_3 (c : Dev nD) (t : Fin cfg6.N) (z : Fin 1) (k : Fin 128) :
    iblk6 V c 3 t (ix2 z k) = (V c main_v25 : S1x128.Idx → EReal) (ix2 z k) := by
  obtain ⟨ht, -, -, -, -, -, -, -, ea, eb, -⟩ := idx_facts6 t
  show (V c main_v25 : S1x128.Idx → EReal) (((cfg6.win 3).blk t).view.emb (ix2 z k)) = _
  refine congrArg _ (funext fun a => Fin.ext ?_)
  match a with
  | ⟨0, _⟩ => show win6_3.index t (0 : Fin 2) * 1 + 1 * z.val = z.val; omega
  | ⟨1, _⟩ => show win6_3.index t (1 : Fin 2) * 128 + 1 * k.val = k.val; omega

theorem blk6_4 (c : Dev nD) (t : Fin cfg6.N) (z : Fin 1) (k : Fin 128) :
    iblk6 V c 4 t (ix2 z k) = (V c main_v26 : S1x128.Idx → EReal) (ix2 z k) := by
  obtain ⟨ht, -, -, -, -, -, -, -, -, -, ea, eb, -⟩ := idx_facts6 t
  show (V c main_v26 : S1x128.Idx → EReal) (((cfg6.win 4).blk t).view.emb (ix2 z k)) = _
  refine congrArg _ (funext fun a => Fin.ext ?_)
  match a with
  | ⟨0, _⟩ => show win6_4.index t (0 : Fin 2) * 1 + 1 * z.val = z.val; omega
  | ⟨1, _⟩ => show win6_4.index t (1 : Fin 2) * 128 + 1 * k.val = k.val; omega

theorem blk6_5 (c : Dev nD) (t : Fin cfg6.N) (z : Fin 1) (k : Fin 128) :
    iblk6 V c 5 t (ix2 z k) = (V c main_v27 : S1x128.Idx → EReal) (ix2 z k) := by
  obtain ⟨ht, -, -, -, -, -, -, -, -, -, -, -, ea, eb, -⟩ := idx_facts6 t
  show (V c main_v27 : S1x128.Idx → EReal) (((cfg6.win 5).blk t).view.emb (ix2 z k)) = _
  refine congrArg _ (funext fun a => Fin.ext ?_)
  match a with
  | ⟨0, _⟩ => show win6_5.index t (0 : Fin 2) * 1 + 1 * z.val = z.val; omega
  | ⟨1, _⟩ => show win6_5.index t (1 : Fin 2) * 128 + 1 * k.val = k.val; omega

/-! ## What a point writes back -/

/-- What point `t` writes back is its block of `Gout` of the arrays as the region finds them. -/
theorem flushed6_eq (c : Dev nD) (t : Fin cfg6.N) :
    (dat6 V Bd c).flushed 6 t = ((cfg6.win 6).blk t).view.read (Elt Ideal) (Gout (V c main_v32) (V c main_arg1) (V c main_v19) (V c main_v25) (V c main_v26) (V c main_v27)) := by
  show (cfg6.win 6).cut (grid6.coords t) ((dat6 V Bd c).after 6 t) = _
  rw [after6_6, out6_6_eq]
  obtain ⟨ht, -, -, -, -, -, -, -, -, -, -, -, -, -, e60, e61, e62⟩ := idx_facts6 t
  funext j
  obtain ⟨r, l, h, rfl⟩ : ∃ (r : Fin 64) (l : Fin 200) (h : Fin 128), j = ix3 r l h := ⟨j 0, j 1, j 2, eq_ix3 j⟩
  have hb : (8 + t.val) * 64 + r.val < 1024 := by have := r.isLt; omega
  have hemb : ((cfg6.win 6).blk t).view.emb (ix3 r l h) = (ix3 (⟨(8 + t.val) * 64 + r.val, hb⟩ : Fin 1024) l h : S1024x200x128.Idx) := by
    funext a; apply Fin.ext
    match a with
    | ⟨0, _⟩ => show win6_6.index t (0 : Fin 3) * 64 + 1 * r.val = (8 + t.val) * 64 + r.val; omega
    | ⟨1, _⟩ => show win6_6.index t (1 : Fin 3) * 200 + 1 * l.val = l.val; omega
    | ⟨2, _⟩ => show win6_6.index t (2 : Fin 3) * 128 + 1 * h.val = h.val; omega
  refine (pay6_apply (iblk6 V c 0 t) (iblk6 V c 1 t) (iblk6 V c 2 t) (iblk6 V c 3 t) (iblk6 V c 4 t) (iblk6 V c 5 t) r l h).trans ?_
  show _ = (Gout (V c main_v32) (V c main_arg1) (V c main_v19) (V c main_v25) (V c main_v26) (V c main_v27)) (((cfg6.win 6).blk t).view.emb (ix3 r l h))
  rw [hemb]
  show _ = GoutAt (V c main_v32) (V c main_arg1) (V c main_v19) (V c main_v25) (V c main_v26) (V c main_v27) ⟨(8 + t.val) * 64 + r.val, hb⟩ l h
  unfold GoutAt rowIn
  simp only [blk6_0, blk6_1 V c t _ _ hb, blk6_2, blk6_3, blk6_4, blk6_5]

/-- An index of the result array is in point `t`'s block iff each coordinate is in the block's range on its axis. -/
theorem mem_blk6 (t : Fin cfg6.N) (i : S1024x200x128.Idx) :
    i ∈ ((cfg6.win 6).blk t).view.set ↔ ∀ a : Fin 3, win6_6.index t a * S64x200x128.size a ≤ (i a).val ∧ (i a).val < win6_6.index t a * S64x200x128.size a + S64x200x128.size a := by
  show i ∈ ((View.whole main_v33).slice (win6_6.rect t)).set ↔ _
  rw [View.set_slice_whole, Rect.mem_set_unit]
  exact Iff.rfl

/-- The covered indices: in some point's block iff the row is one of the quarter's 256. -/
theorem covered_iff6 (i : S1024x200x128.Idx) :
    (∃ t : Fin cfg6.N, (cfg6.win 6).flush t = true ∧ i ∈ ((cfg6.win 6).blk t).view.set) ↔ 512 ≤ (i 0).val ∧ (i 0).val < 768 := by
  constructor
  · rintro ⟨t, -, hi⟩
    rw [mem_blk6] at hi
    have b0 : win6_6.index t (0 : Fin 3) * 64 ≤ (i 0).val ∧ (i 0).val < win6_6.index t (0 : Fin 3) * 64 + 64 := hi 0
    obtain ⟨ht, -, -, -, -, -, -, -, -, -, -, -, -, -, e60, e61, e62⟩ := idx_facts6 t
    omega
  · intro h
    have hi1 : (i 1).val < 200 := (i 1).isLt
    have hi2 : (i 2).val < 128 := (i 2).isLt
    have hN : (i 0).val / 64 - 8 < cfg6.N := lt_of_lt_of_eq (by omega : (i 0).val / 64 - 8 < 4) N_6.symm
    obtain ⟨ht, -, -, -, -, -, -, -, -, -, -, -, -, -, e60, e61, e62⟩ := idx_facts6 ⟨(i 0).val / 64 - 8, hN⟩
    refine ⟨⟨(i 0).val / 64 - 8, hN⟩, flush6_6 _, ?_⟩
    rw [mem_blk6]
    intro a
    match a with
    | ⟨0, _⟩ => show win6_6.index ⟨(i 0).val / 64 - 8, hN⟩ (0 : Fin 3) * 64 ≤ (i 0).val ∧ (i 0).val < win6_6.index ⟨(i 0).val / 64 - 8, hN⟩ (0 : Fin 3) * 64 + 64; simp only [] at e60; omega
    | ⟨1, _⟩ => show win6_6.index ⟨(i 0).val / 64 - 8, hN⟩ (1 : Fin 3) * 200 ≤ (i 1).val ∧ (i 1).val < win6_6.index ⟨(i 0).val / 64 - 8, hN⟩ (1 : Fin 3) * 200 + 200; omega
    | ⟨2, _⟩ => show win6_6.index ⟨(i 0).val / 64 - 8, hN⟩ (2 : Fin 3) * 128 ≤ (i 2).val ∧ (i 2).val < win6_6.index ⟨(i 0).val / 64 - 8, hN⟩ (2 : Fin 3) * 128 + 128; omega

/-- The result array after the region: `Gout` of the entry arrays on the quarter's rows, its entry contents elsewhere. -/
theorem final6 (c : Dev nD) :
    (dat6 V Bd c).arrAt 6 cfg6.N
      = (fun i => if 512 ≤ (i 0).val ∧ (i 0).val < 768 then (Gout (V c main_v32) (V c main_arg1) (V c main_v19) (V c main_v25) (V c main_v26) (V c main_v27)) i else (V c main_v33 : S1024x200x128.Idx → EReal) i) := by
  funext i
  rw [(dat6 V Bd c).arrAt_eq_piecewise 6 _ (fun t _ => flushed6_eq V Bd c t) i, A_eq6]
  exact if_congr (covered_iff6 i) rfl rfl

end Region6

/-! # Region 7 (quarter 3) -/

section Region7
variable (V : (c : Dev nD) → (b : Ref sig .tc) → Buf (Elt Ideal) ((c : Thread nD τ).loc b))
variable (Bd : Set (SemLoc sig × HIx 4))

/-- The one store covers the buffer from offset zero, and every load reads its buffer whole: the output buffer after
    the body is the payload of the loaded blocks. -/
theorem out7_6_eq {F : FTy → Type} [FloatOps F] (x0 : Vec F S64x200x128 .f32) (x1 : Vec F S64x200 .i32) (x2 : Vec F S200x128 .f32)
    (x3 x4 x5 : Vec F S1x128 .f32) : out7_6 x0 x1 x2 x3 x4 x5 = k7_pay1 (k7_pay2 x0 x1 x2 x3 x4) x5 := by
  unfold out7_6
  rw [View.canon_unit_zero hz3]
  simp only [View.ld_unit_zero (S := S64x200x128) hz3, View.ld_unit_zero (S := S64x200) hz2,
    View.ld_unit_zero (S := S200x128) hz2, View.ld_unit_zero (S := S1x128) hz2]

/-- The printed index maps over the grid's four points: the gathered array's block index is the point; the token-type
    ids' and the result's block index is 12 plus the point; the small operands' is zero. -/
theorem idx_facts7 : ∀ t : Fin cfg7.N, t.val < 4
    ∧ win7_0.index t (0 : Fin 3) = t.val ∧ win7_0.index t (1 : Fin 3) = 0 ∧ win7_0.index t (2 : Fin 3) = 0
    ∧ win7_1.index t (0 : Fin 2) = 12 + t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 3) = 12 + t.val ∧ win7_6.index t (1 : Fin 3) = 0 ∧ win7_6.index t (2 : Fin 3) = 0 :=
  (by decide +kernel : ∀ t : Fin grid7.N, _)

/-! ## The input blocks, read where the arrays hold them -/

theorem blk7_0 (c : Dev nD) (t : Fin cfg7.N) (r : Fin 64) (l : Fin 200) (k : Fin 128) :
    iblk7 V c 0 t (ix3 r l k)
      = (V c main_v34 : S256x200x128.Idx → EReal) (ix3 (⟨((12 + t.val) * 64 + r.val) % 256, Nat.mod_lt _ (by decide)⟩ : Fin 256) l k) := by
  obtain ⟨ht, e00, e01, e02, -⟩ := idx_facts7 t
  show (V c main_v34 : S256x200x128.Idx → EReal) (((cfg7.win 0).blk t).view.emb (ix3 r l k)) = _
  refine congrArg _ (funext fun a => Fin.ext ?_)
  match a with
  | ⟨0, _⟩ => show win7_0.index t (0 : Fin 3) * 64 + 1 * r.val = ((12 + t.val) * 64 + r.val) % 256; have := r.isLt; omega
  | ⟨1, _⟩ => show win7_0.index t (1 : Fin 3) * 200 + 1 * l.val = l.val; omega
  | ⟨2, _⟩ => show win7_0.index t (2 : Fin 3) * 128 + 1 * k.val = k.val; omega

theorem blk7_1 (c : Dev nD) (t : Fin cfg7.N) (r : Fin 64) (l : Fin 200) (hb : (12 + t.val) * 64 + r.val < 1024) :
    iblk7 V c 1 t (ix2 r l) = (V c main_arg1 : S1024x200.Idx → BitVec 32) (ix2 (⟨(12 + t.val) * 64 + r.val, hb⟩ : Fin 1024) l) := by
  obtain ⟨ht, -, -, -, e10, e11, -⟩ := idx_facts7 t
  show (V c main_arg1 : S1024x200.Idx → BitVec 32) (((cfg7.win 1).blk t).view.emb (ix2 r l)) = _
  refine congrArg _ (funext fun a => Fin.ext ?_)
  match a with
  | ⟨0, _⟩ => show win7_1.index t (0 : Fin 2) * 64 + 1 * r.val = (12 + t.val) * 64 + r.val; omega
  | ⟨1, _⟩ => show win7_1.index t (1 : Fin 2) * 200 + 1 * l.val = l.val; omega

theorem blk7_2 (c : Dev nD) (t : Fin cfg7.N) (l : Fin 200) (k : Fin 128) :
    iblk7 V c 2 t (ix2 l k) = (V c main_v19 : S200x128.Idx → EReal) (ix2 l k) := by
  obtain ⟨ht, -, -, -, -, -, e20, e21, -⟩ := idx_facts7 t
  show (V c main_v19 : S200x128.Idx → EReal) (((cfg7.win 2).blk t).view.emb (ix2 l k)) = _
  refine congrArg _ (funext fun a => Fin.ext ?_)
  match a with
  | ⟨0, _⟩ => show win7_2.index t (0 : Fin 2) * 200 + 1 * l.val = l.val; omega
  | ⟨1, _⟩ => show win7_2.index t (1 : Fin 2) * 128 + 1 * k.val = k.val; omega

theorem blk7_3 (c : Dev nD) (t : Fin cfg7.N) (z : Fin 1) (k : Fin 128) :
    iblk7 V c 3 t (ix2 z k) = (V c main_v25 : S1x128.Idx → EReal) (ix2 z k) := by
  obtain ⟨ht, -, -, -, -, -, -, -, ea, eb, -⟩ := idx_facts7 t
  show (V c main_v25 : S1x128.Idx → EReal) (((cfg7.win 3).blk t).view.emb (ix2 z k)) = _
  refine congrArg _ (funext fun a => Fin.ext ?_)
  match a with
  | ⟨0, _⟩ => show win7_3.index t (0 : Fin 2) * 1 + 1 * z.val = z.val; omega
  | ⟨1, _⟩ => show win7_3.index t (1 : Fin 2) * 128 + 1 * k.val = k.val; omega

theorem blk7_4 (c : Dev nD) (t : Fin cfg7.N) (z : Fin 1) (k : Fin 128) :
    iblk7 V c 4 t (ix2 z k) = (V c main_v26 : S1x128.Idx → EReal) (ix2 z k) := by
  obtain ⟨ht, -, -, -, -, -, -, -, -, -, ea, eb, -⟩ := idx_facts7 t
  show (V c main_v26 : S1x128.Idx → EReal) (((cfg7.win 4).blk t).view.emb (ix2 z k)) = _
  refine congrArg _ (funext fun a => Fin.ext ?_)
  match a with
  | ⟨0, _⟩ => show win7_4.index t (0 : Fin 2) * 1 + 1 * z.val = z.val; omega
  | ⟨1, _⟩ => show win7_4.index t (1 : Fin 2) * 128 + 1 * k.val = k.val; omega

theorem blk7_5 (c : Dev nD) (t : Fin cfg7.N) (z : Fin 1) (k : Fin 128) :
    iblk7 V c 5 t (ix2 z k) = (V c main_v27 : S1x128.Idx → EReal) (ix2 z k) := by
  obtain ⟨ht, -, -, -, -, -, -, -, -, -, -, -, ea, eb, -⟩ := idx_facts7 t
  show (V c main_v27 : S1x128.Idx → EReal) (((cfg7.win 5).blk t).view.emb (ix2 z k)) = _
  refine congrArg _ (funext fun a => Fin.ext ?_)
  match a with
  | ⟨0, _⟩ => show win7_5.index t (0 : Fin 2) * 1 + 1 * z.val = z.val; omega
  | ⟨1, _⟩ => show win7_5.index t (1 : Fin 2) * 128 + 1 * k.val = k.val; omega

/-! ## What a point writes back -/

/-- What point `t` writes back is its block of `Gout` of the arrays as the region finds them. -/
theorem flushed7_eq (c : Dev nD) (t : Fin cfg7.N) :
    (dat7 V Bd c).flushed 6 t = ((cfg7.win 6).blk t).view.read (Elt Ideal) (Gout (V c main_v34) (V c main_arg1) (V c main_v19) (V c main_v25) (V c main_v26) (V c main_v27)) := by
  show (cfg7.win 6).cut (grid7.coords t) ((dat7 V Bd c).after 6 t) = _
  rw [after7_6, out7_6_eq]
  obtain ⟨ht, -, -, -, -, -, -, -, -, -, -, -, -, -, e60, e61, e62⟩ := idx_facts7 t
  funext j
  obtain ⟨r, l, h, rfl⟩ : ∃ (r : Fin 64) (l : Fin 200) (h : Fin 128), j = ix3 r l h := ⟨j 0, j 1, j 2, eq_ix3 j⟩
  have hb : (12 + t.val) * 64 + r.val < 1024 := by have := r.isLt; omega
  have hemb : ((cfg7.win 6).blk t).view.emb (ix3 r l h) = (ix3 (⟨(12 + t.val) * 64 + r.val, hb⟩ : Fin 1024) l h : S1024x200x128.Idx) := by
    funext a; apply Fin.ext
    match a with
    | ⟨0, _⟩ => show win7_6.index t (0 : Fin 3) * 64 + 1 * r.val = (12 + t.val) * 64 + r.val; omega
    | ⟨1, _⟩ => show win7_6.index t (1 : Fin 3) * 200 + 1 * l.val = l.val; omega
    | ⟨2, _⟩ => show win7_6.index t (2 : Fin 3) * 128 + 1 * h.val = h.val; omega
  refine (pay7_apply (iblk7 V c 0 t) (iblk7 V c 1 t) (iblk7 V c 2 t) (iblk7 V c 3 t) (iblk7 V c 4 t) (iblk7 V c 5 t) r l h).trans ?_
  show _ = (Gout (V c main_v34) (V c main_arg1) (V c main_v19) (V c main_v25) (V c main_v26) (V c main_v27)) (((cfg7.win 6).blk t).view.emb (ix3 r l h))
  rw [hemb]
  show _ = GoutAt (V c main_v34) (V c main_arg1) (V c main_v19) (V c main_v25) (V c main_v26) (V c main_v27) ⟨(12 + t.val) * 64 + r.val, hb⟩ l h
  unfold GoutAt rowIn
  simp only [blk7_0, blk7_1 V c t _ _ hb, blk7_2, blk7_3, blk7_4, blk7_5]

/-- An index of the result array is in point `t`'s block iff each coordinate is in the block's range on its axis. -/
theorem mem_blk7 (t : Fin cfg7.N) (i : S1024x200x128.Idx) :
    i ∈ ((cfg7.win 6).blk t).view.set ↔ ∀ a : Fin 3, win7_6.index t a * S64x200x128.size a ≤ (i a).val ∧ (i a).val < win7_6.index t a * S64x200x128.size a + S64x200x128.size a := by
  show i ∈ ((View.whole main_v35).slice (win7_6.rect t)).set ↔ _
  rw [View.set_slice_whole, Rect.mem_set_unit]
  exact Iff.rfl

/-- The covered indices: in some point's block iff the row is one of the quarter's 256. -/
theorem covered_iff7 (i : S1024x200x128.Idx) :
    (∃ t : Fin cfg7.N, (cfg7.win 6).flush t = true ∧ i ∈ ((cfg7.win 6).blk t).view.set) ↔ 768 ≤ (i 0).val ∧ (i 0).val < 1024 := by
  constructor
  · rintro ⟨t, -, hi⟩
    rw [mem_blk7] at hi
    have b0 : win7_6.index t (0 : Fin 3) * 64 ≤ (i 0).val ∧ (i 0).val < win7_6.index t (0 : Fin 3) * 64 + 64 := hi 0
    obtain ⟨ht, -, -, -, -, -, -, -, -, -, -, -, -, -, e60, e61, e62⟩ := idx_facts7 t
    omega
  · intro h
    have hi1 : (i 1).val < 200 := (i 1).isLt
    have hi2 : (i 2).val < 128 := (i 2).isLt
    have hN : (i 0).val / 64 - 12 < cfg7.N := lt_of_lt_of_eq (by omega : (i 0).val / 64 - 12 < 4) N_7.symm
    obtain ⟨ht, -, -, -, -, -, -, -, -, -, -, -, -, -, e60, e61, e62⟩ := idx_facts7 ⟨(i 0).val / 64 - 12, hN⟩
    refine ⟨⟨(i 0).val / 64 - 12, hN⟩, flush7_6 _, ?_⟩
    rw [mem_blk7]
    intro a
    match a with
    | ⟨0, _⟩ => show win7_6.index ⟨(i 0).val / 64 - 12, hN⟩ (0 : Fin 3) * 64 ≤ (i 0).val ∧ (i 0).val < win7_6.index ⟨(i 0).val / 64 - 12, hN⟩ (0 : Fin 3) * 64 + 64; simp only [] at e60; omega
    | ⟨1, _⟩ => show win7_6.index ⟨(i 0).val / 64 - 12, hN⟩ (1 : Fin 3) * 200 ≤ (i 1).val ∧ (i 1).val < win7_6.index ⟨(i 0).val / 64 - 12, hN⟩ (1 : Fin 3) * 200 + 200; omega
    | ⟨2, _⟩ => show win7_6.index ⟨(i 0).val / 64 - 12, hN⟩ (2 : Fin 3) * 128 ≤ (i 2).val ∧ (i 2).val < win7_6.index ⟨(i 0).val / 64 - 12, hN⟩ (2 : Fin 3) * 128 + 128; omega

/-- The result array after the region: `Gout` of the entry arrays on the quarter's rows, its entry contents elsewhere. -/
theorem final7 (c : Dev nD) :
    (dat7 V Bd c).arrAt 6 cfg7.N
      = (fun i => if 768 ≤ (i 0).val ∧ (i 0).val < 1024 then (Gout (V c main_v34) (V c main_arg1) (V c main_v19) (V c main_v25) (V c main_v26) (V c main_v27)) i else (V c main_v35 : S1024x200x128.Idx → EReal) i) := by
  funext i
  rw [(dat7 V Bd c).arrAt_eq_piecewise 6 _ (fun t _ => flushed7_eq V Bd c t) i, A_eq7]
  exact if_congr (covered_iff7 i) rfl rfl

end Region7

end Cert.Proof.KI.Reg

end
-- ==== Proof.RegValueChain.lean ====
/-
  The result array at the end of the TensorCore tail, as one function of what the tail was entered with.

  The four regions write the four quarters of the 1024×200×128 result in turn: each region's result buffer starts as
  a copy of the previous region's, and the region overwrites its own 256 rows. The operands every region reads — the
  token-type ids, the combined position-and-type table, the type difference row, the scale and the shift — are written
  once (by the host stretch before the first region, or never) and no region or later stretch writes them again; each
  quarter's gathered rows are written by its SparseCore call before the tail and only reshaped here. So the last
  region's result array is, at every entry (b, l, h), `Gout` of quarter `b / 256`'s gathered array.
-/
import proofs.«203556_g1357209665813_cont_week2b_798_48_alg».proof.Proof.Tail
import proofs.«203556_g1357209665813_cont_week2b_798_48_alg».proof.Proof.RegValue

set_option maxRecDepth 16384

noncomputable section

namespace Cert.Proof.KI.Reg

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat Cfg Window)

section Chain
variable (Wt : Dev nD → Valuation τ sig (Elt Ideal))
variable (Bd : Dev nD → Set (SemLoc sig × HIx 4))

/-! ## The operands every region reads are the ones the first region is entered with -/

theorem VE1_arg1 (c : Dev nD) : VE1 Wt Bd c main_arg1 = E0 Wt c (Proc.devRef .tc main_arg1) :=
  calc E1 Wt Bd c (Proc.devRef .tc main_arg1)
    _ = X0 Wt Bd c (Proc.devRef .tc main_arg1) := StableHlo.after_of_forall_not_mem (b := Proc.devRef .tc main_arg1) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg1) := (X0_arr Wt Bd c 1).trans (((dat4 (VE0 Wt) (Bd c) c).arrAt_in 1 rfl _).trans (A_eq4 (VE0 Wt) (Bd c) c 1))

theorem VE2_arg1 (c : Dev nD) : VE2 Wt Bd c main_arg1 = E0 Wt c (Proc.devRef .tc main_arg1) :=
  calc E2 Wt Bd c (Proc.devRef .tc main_arg1)
    _ = X1 Wt Bd c (Proc.devRef .tc main_arg1) := StableHlo.after_of_forall_not_mem (b := Proc.devRef .tc main_arg1) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg1) := (X1_arr Wt Bd c 1).trans (((dat5 (VE1 Wt Bd) (Bd c) c).arrAt_in 1 rfl _).trans (A_eq5 (VE1 Wt Bd) (Bd c) c 1))
    _ = X0 Wt Bd c (Proc.devRef .tc main_arg1) := StableHlo.after_of_forall_not_mem (b := Proc.devRef .tc main_arg1) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg1) := (X0_arr Wt Bd c 1).trans (((dat4 (VE0 Wt) (Bd c) c).arrAt_in 1 rfl _).trans (A_eq4 (VE0 Wt) (Bd c) c 1))

theorem VE3_arg1 (c : Dev nD) : VE3 Wt Bd c main_arg1 = E0 Wt c (Proc.devRef .tc main_arg1) :=
  calc E3 Wt Bd c (Proc.devRef .tc main_arg1)
    _ = X2 Wt Bd c (Proc.devRef .tc main_arg1) := StableHlo.after_of_forall_not_mem (b := Proc.devRef .tc main_arg1) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_arg1) := (X2_arr Wt Bd c 1).trans (((dat6 (VE2 Wt Bd) (Bd c) c).arrAt_in 1 rfl _).trans (A_eq6 (VE2 Wt Bd) (Bd c) c 1))
    _ = X1 Wt Bd c (Proc.devRef .tc main_arg1) := StableHlo.after_of_forall_not_mem (b := Proc.devRef .tc main_arg1) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_arg1) := (X1_arr Wt Bd c 1).trans (((dat5 (VE1 Wt Bd) (Bd c) c).arrAt_in 1 rfl _).trans (A_eq5 (VE1 Wt Bd) (Bd c) c 1))
    _ = X0 Wt Bd c (Proc.devRef .tc main_arg1) := StableHlo.after_of_forall_not_mem (b := Proc.devRef .tc main_arg1) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_arg1) := (X0_arr Wt Bd c 1).trans (((dat4 (VE0 Wt) (Bd c) c).arrAt_in 1 rfl _).trans (A_eq4 (VE0 Wt) (Bd c) c 1))

theorem VE1_v19 (c : Dev nD) : VE1 Wt Bd c main_v19 = E0 Wt c (Proc.devRef .tc main_v19) :=
  calc E1 Wt Bd c (Proc.devRef .tc main_v19)
    _ = X0 Wt Bd c (Proc.devRef .tc main_v19) := StableHlo.after_of_forall_not_mem (b := Proc.devRef .tc main_v19) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v19) := (X0_arr Wt Bd c 2).trans (((dat4 (VE0 Wt) (Bd c) c).arrAt_in 2 rfl _).trans (A_eq4 (VE0 Wt) (Bd c) c 2))

theorem VE2_v19 (c : Dev nD) : VE2 Wt Bd c main_v19 = E0 Wt c (Proc.devRef .tc main_v19) :=
  calc E2 Wt Bd c (Proc.devRef .tc main_v19)
    _ = X1 Wt Bd c (Proc.devRef .tc main_v19) := StableHlo.after_of_forall_not_mem (b := Proc.devRef .tc main_v19) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v19) := (X1_arr Wt Bd c 2).trans (((dat5 (VE1 Wt Bd) (Bd c) c).arrAt_in 2 rfl _).trans (A_eq5 (VE1 Wt Bd) (Bd c) c 2))
    _ = X0 Wt Bd c (Proc.devRef .tc main_v19) := StableHlo.after_of_forall_not_mem (b := Proc.devRef .tc main_v19) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v19) := (X0_arr Wt Bd c 2).trans (((dat4 (VE0 Wt) (Bd c) c).arrAt_in 2 rfl _).trans (A_eq4 (VE0 Wt) (Bd c) c 2))

theorem VE3_v19 (c : Dev nD) : VE3 Wt Bd c main_v19 = E0 Wt c (Proc.devRef .tc main_v19) :=
  calc E3 Wt Bd c (Proc.devRef .tc main_v19)
    _ = X2 Wt Bd c (Proc.devRef .tc main_v19) := StableHlo.after_of_forall_not_mem (b := Proc.devRef .tc main_v19) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_v19) := (X2_arr Wt Bd c 2).trans (((dat6 (VE2 Wt Bd) (Bd c) c).arrAt_in 2 rfl _).trans (A_eq6 (VE2 Wt Bd) (Bd c) c 2))
    _ = X1 Wt Bd c (Proc.devRef .tc main_v19) := StableHlo.after_of_forall_not_mem (b := Proc.devRef .tc main_v19) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v19) := (X1_arr Wt Bd c 2).trans (((dat5 (VE1 Wt Bd) (Bd c) c).arrAt_in 2 rfl _).trans (A_eq5 (VE1 Wt Bd) (Bd c) c 2))
    _ = X0 Wt Bd c (Proc.devRef .tc main_v19) := StableHlo.after_of_forall_not_mem (b := Proc.devRef .tc main_v19) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v19) := (X0_arr Wt Bd c 2).trans (((dat4 (VE0 Wt) (Bd c) c).arrAt_in 2 rfl _).trans (A_eq4 (VE0 Wt) (Bd c) c 2))

theorem VE1_v25 (c : Dev nD) : VE1 Wt Bd c main_v25 = E0 Wt c (Proc.devRef .tc main_v25) :=
  calc E1 Wt Bd c (Proc.devRef .tc main_v25)
    _ = X0 Wt Bd c (Proc.devRef .tc main_v25) := StableHlo.after_of_forall_not_mem (b := Proc.devRef .tc main_v25) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v25) := (X0_arr Wt Bd c 3).trans (((dat4 (VE0 Wt) (Bd c) c).arrAt_in 3 rfl _).trans (A_eq4 (VE0 Wt) (Bd c) c 3))

theorem VE2_v25 (c : Dev nD) : VE2 Wt Bd c main_v25 = E0 Wt c (Proc.devRef .tc main_v25) :=
  calc E2 Wt Bd c (Proc.devRef .tc main_v25)
    _ = X1 Wt Bd c (Proc.devRef .tc main_v25) := StableHlo.after_of_forall_not_mem (b := Proc.devRef .tc main_v25) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v25) := (X1_arr Wt Bd c 3).trans (((dat5 (VE1 Wt Bd) (Bd c) c).arrAt_in 3 rfl _).trans (A_eq5 (VE1 Wt Bd) (Bd c) c 3))
    _ = X0 Wt Bd c (Proc.devRef .tc main_v25) := StableHlo.after_of_forall_not_mem (b := Proc.devRef .tc main_v25) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v25) := (X0_arr Wt Bd c 3).trans (((dat4 (VE0 Wt) (Bd c) c).arrAt_in 3 rfl _).trans (A_eq4 (VE0 Wt) (Bd c) c 3))

theorem VE3_v25 (c : Dev nD) : VE3 Wt Bd c main_v25 = E0 Wt c (Proc.devRef .tc main_v25) :=
  calc E3 Wt Bd c (Proc.devRef .tc main_v25)
    _ = X2 Wt Bd c (Proc.devRef .tc main_v25) := StableHlo.after_of_forall_not_mem (b := Proc.devRef .tc main_v25) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_v25) := (X2_arr Wt Bd c 3).trans (((dat6 (VE2 Wt Bd) (Bd c) c).arrAt_in 3 rfl _).trans (A_eq6 (VE2 Wt Bd) (Bd c) c 3))
    _ = X1 Wt Bd c (Proc.devRef .tc main_v25) := StableHlo.after_of_forall_not_mem (b := Proc.devRef .tc main_v25) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v25) := (X1_arr Wt Bd c 3).trans (((dat5 (VE1 Wt Bd) (Bd c) c).arrAt_in 3 rfl _).trans (A_eq5 (VE1 Wt Bd) (Bd c) c 3))
    _ = X0 Wt Bd c (Proc.devRef .tc main_v25) := StableHlo.after_of_forall_not_mem (b := Proc.devRef .tc main_v25) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v25) := (X0_arr Wt Bd c 3).trans (((dat4 (VE0 Wt) (Bd c) c).arrAt_in 3 rfl _).trans (A_eq4 (VE0 Wt) (Bd c) c 3))

theorem VE1_v26 (c : Dev nD) : VE1 Wt Bd c main_v26 = E0 Wt c (Proc.devRef .tc main_v26) :=
  calc E1 Wt Bd c (Proc.devRef .tc main_v26)
    _ = X0 Wt Bd c (Proc.devRef .tc main_v26) := StableHlo.after_of_forall_not_mem (b := Proc.devRef .tc main_v26) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v26) := (X0_arr Wt Bd c 4).trans (((dat4 (VE0 Wt) (Bd c) c).arrAt_in 4 rfl _).trans (A_eq4 (VE0 Wt) (Bd c) c 4))

theorem VE2_v26 (c : Dev nD) : VE2 Wt Bd c main_v26 = E0 Wt c (Proc.devRef .tc main_v26) :=
  calc E2 Wt Bd c (Proc.devRef .tc main_v26)
    _ = X1 Wt Bd c (Proc.devRef .tc main_v26) := StableHlo.after_of_forall_not_mem (b := Proc.devRef .tc main_v26) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v26) := (X1_arr Wt Bd c 4).trans (((dat5 (VE1 Wt Bd) (Bd c) c).arrAt_in 4 rfl _).trans (A_eq5 (VE1 Wt Bd) (Bd c) c 4))
    _ = X0 Wt Bd c (Proc.devRef .tc main_v26) := StableHlo.after_of_forall_not_mem (b := Proc.devRef .tc main_v26) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v26) := (X0_arr Wt Bd c 4).trans (((dat4 (VE0 Wt) (Bd c) c).arrAt_in 4 rfl _).trans (A_eq4 (VE0 Wt) (Bd c) c 4))

theorem VE3_v26 (c : Dev nD) : VE3 Wt Bd c main_v26 = E0 Wt c (Proc.devRef .tc main_v26) :=
  calc E3 Wt Bd c (Proc.devRef .tc main_v26)
    _ = X2 Wt Bd c (Proc.devRef .tc main_v26) := StableHlo.after_of_forall_not_mem (b := Proc.devRef .tc main_v26) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_v26) := (X2_arr Wt Bd c 4).trans (((dat6 (VE2 Wt Bd) (Bd c) c).arrAt_in 4 rfl _).trans (A_eq6 (VE2 Wt Bd) (Bd c) c 4))
    _ = X1 Wt Bd c (Proc.devRef .tc main_v26) := StableHlo.after_of_forall_not_mem (b := Proc.devRef .tc main_v26) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v26) := (X1_arr Wt Bd c 4).trans (((dat5 (VE1 Wt Bd) (Bd c) c).arrAt_in 4 rfl _).trans (A_eq5 (VE1 Wt Bd) (Bd c) c 4))
    _ = X0 Wt Bd c (Proc.devRef .tc main_v26) := StableHlo.after_of_forall_not_mem (b := Proc.devRef .tc main_v26) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v26) := (X0_arr Wt Bd c 4).trans (((dat4 (VE0 Wt) (Bd c) c).arrAt_in 4 rfl _).trans (A_eq4 (VE0 Wt) (Bd c) c 4))

theorem VE1_v27 (c : Dev nD) : VE1 Wt Bd c main_v27 = E0 Wt c (Proc.devRef .tc main_v27) :=
  calc E1 Wt Bd c (Proc.devRef .tc main_v27)
    _ = X0 Wt Bd c (Proc.devRef .tc main_v27) := StableHlo.after_of_forall_not_mem (b := Proc.devRef .tc main_v27) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v27) := (X0_arr Wt Bd c 5).trans (((dat4 (VE0 Wt) (Bd c) c).arrAt_in 5 rfl _).trans (A_eq4 (VE0 Wt) (Bd c) c 5))

theorem VE2_v27 (c : Dev nD) : VE2 Wt Bd c main_v27 = E0 Wt c (Proc.devRef .tc main_v27) :=
  calc E2 Wt Bd c (Proc.devRef .tc main_v27)
    _ = X1 Wt Bd c (Proc.devRef .tc main_v27) := StableHlo.after_of_forall_not_mem (b := Proc.devRef .tc main_v27) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v27) := (X1_arr Wt Bd c 5).trans (((dat5 (VE1 Wt Bd) (Bd c) c).arrAt_in 5 rfl _).trans (A_eq5 (VE1 Wt Bd) (Bd c) c 5))
    _ = X0 Wt Bd c (Proc.devRef .tc main_v27) := StableHlo.after_of_forall_not_mem (b := Proc.devRef .tc main_v27) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v27) := (X0_arr Wt Bd c 5).trans (((dat4 (VE0 Wt) (Bd c) c).arrAt_in 5 rfl _).trans (A_eq4 (VE0 Wt) (Bd c) c 5))

theorem VE3_v27 (c : Dev nD) : VE3 Wt Bd c main_v27 = E0 Wt c (Proc.devRef .tc main_v27) :=
  calc E3 Wt Bd c (Proc.devRef .tc main_v27)
    _ = X2 Wt Bd c (Proc.devRef .tc main_v27) := StableHlo.after_of_forall_not_mem (b := Proc.devRef .tc main_v27) _ _ (List.forall_iff_forall_mem.mp (by
          simp only [hops7, List.Forall, StableHlo.nullary_writes, StableHlo.unary_writes, StableHlo.binary_writes, StableHlo.reshape_writes, Finset.mem_singleton]
          repeat' apply And.intro
          all_goals exact StableHlo.devRef_ne_of_ne (by decide)))
    _ = E2 Wt Bd c (Proc.devRef .tc main_v27) := (X2_arr Wt Bd c 5).trans (((dat6 (VE2 Wt Bd) (Bd c) c).arrAt_in 5 rfl _).trans (A_eq6 (VE2 Wt Bd) (Bd c) c 5))
    _ = X1 Wt Bd c (Proc.devRef .tc main_v27) := StableHlo.after_of_forall_not_mem (b := Proc.devRef .tc main_v27) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
    _ = E1 Wt Bd c (Proc.devRef .tc main_v27) := (X1_arr Wt Bd c 5).trans (((dat5 (VE1 Wt Bd) (Bd c) c).arrAt_in 5 rfl _).trans (A_eq5 (VE1 Wt Bd) (Bd c) c 5))
    _ = X0 Wt Bd c (Proc.devRef .tc main_v27) := StableHlo.after_of_forall_not_mem (b := Proc.devRef .tc main_v27) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
    _ = E0 Wt c (Proc.devRef .tc main_v27) := (X0_arr Wt Bd c 5).trans (((dat4 (VE0 Wt) (Bd c) c).arrAt_in 5 rfl _).trans (A_eq4 (VE0 Wt) (Bd c) c 5))

/-- The token-type ids are an argument: the first host stretch of the tail does not write them either. -/
theorem E0_arg1 (c : Dev nD) : E0 Wt c (Proc.devRef .tc main_arg1) = Wt c (Proc.devRef .tc main_arg1) :=
  StableHlo.after_of_forall_not_mem (b := Proc.devRef .tc main_arg1) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))

/-! ## Each quarter's gathered rows, reshaped -/

theorem VE0_v28 (c : Dev nD) :
    (VE0 Wt c main_v28 : S256x200x128.Idx → EReal) = shapeCast S256x200x128 (Wt c (Proc.devRef .tc main_v4) : S51200x128.Idx → EReal) shapeCasts_S51200x128_S256x200x128 := by
  show StableHlo.after (hops4 (F := Ideal)) (Wt c) (Proc.devRef .tc main_v28) = _
  dsimp only [hops4]
  after_results
  rfl

theorem VE1_v30 (c : Dev nD) :
    (VE1 Wt Bd c main_v30 : S256x200x128.Idx → EReal) = shapeCast S256x200x128 (Wt c (Proc.devRef .tc main_v7) : S51200x128.Idx → EReal) shapeCasts_S51200x128_S256x200x128 := by
  have e : X0 Wt Bd c (Proc.devRef .tc main_v7) = Wt c (Proc.devRef .tc main_v7) :=
    calc X0 Wt Bd c (Proc.devRef .tc main_v7)
      _ = E0 Wt c (Proc.devRef .tc main_v7) := X0_of_ne Wt Bd c main_v7 (by decide)
      _ = Wt c (Proc.devRef .tc main_v7) := StableHlo.after_of_forall_not_mem (b := Proc.devRef .tc main_v7) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))
  show StableHlo.after (hops5 (F := Ideal)) (X0 Wt Bd c) (Proc.devRef .tc main_v30) = _
  dsimp only [hops5]
  after_results
  rw [e]
  rfl

theorem VE2_v32 (c : Dev nD) :
    (VE2 Wt Bd c main_v32 : S256x200x128.Idx → EReal) = shapeCast S256x200x128 (Wt c (Proc.devRef .tc main_v10) : S51200x128.Idx → EReal) shapeCasts_S51200x128_S256x200x128 := by
  have e : X1 Wt Bd c (Proc.devRef .tc main_v10) = Wt c (Proc.devRef .tc main_v10) :=
    calc X1 Wt Bd c (Proc.devRef .tc main_v10)
      _ = E1 Wt Bd c (Proc.devRef .tc main_v10) := X1_of_ne Wt Bd c main_v10 (by decide)
      _ = X0 Wt Bd c (Proc.devRef .tc main_v10) := StableHlo.after_of_forall_not_mem (b := Proc.devRef .tc main_v10) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
      _ = E0 Wt c (Proc.devRef .tc main_v10) := X0_of_ne Wt Bd c main_v10 (by decide)
      _ = Wt c (Proc.devRef .tc main_v10) := StableHlo.after_of_forall_not_mem (b := Proc.devRef .tc main_v10) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))
  show StableHlo.after (hops6 (F := Ideal)) (X1 Wt Bd c) (Proc.devRef .tc main_v32) = _
  dsimp only [hops6]
  after_results
  rw [e]
  rfl

theorem VE3_v34 (c : Dev nD) :
    (VE3 Wt Bd c main_v34 : S256x200x128.Idx → EReal) = shapeCast S256x200x128 (Wt c (Proc.devRef .tc main_v13) : S51200x128.Idx → EReal) shapeCasts_S51200x128_S256x200x128 := by
  have e : X2 Wt Bd c (Proc.devRef .tc main_v13) = Wt c (Proc.devRef .tc main_v13) :=
    calc X2 Wt Bd c (Proc.devRef .tc main_v13)
      _ = E2 Wt Bd c (Proc.devRef .tc main_v13) := X2_of_ne Wt Bd c main_v13 (by decide)
      _ = X1 Wt Bd c (Proc.devRef .tc main_v13) := StableHlo.after_of_forall_not_mem (b := Proc.devRef .tc main_v13) _ _ (List.forall_iff_forall_mem.mp (by
          simp only [hops6, List.Forall, StableHlo.nullary_writes, StableHlo.unary_writes, StableHlo.binary_writes, StableHlo.reshape_writes, Finset.mem_singleton]
          repeat' apply And.intro
          all_goals exact StableHlo.devRef_ne_of_ne (by decide)))
      _ = E1 Wt Bd c (Proc.devRef .tc main_v13) := X1_of_ne Wt Bd c main_v13 (by decide)
      _ = X0 Wt Bd c (Proc.devRef .tc main_v13) := StableHlo.after_of_forall_not_mem (b := Proc.devRef .tc main_v13) _ _ (List.forall_iff_forall_mem.mp (by
          simp only [hops5, List.Forall, StableHlo.nullary_writes, StableHlo.unary_writes, StableHlo.binary_writes, StableHlo.reshape_writes, Finset.mem_singleton]
          repeat' apply And.intro
          all_goals exact StableHlo.devRef_ne_of_ne (by decide)))
      _ = E0 Wt c (Proc.devRef .tc main_v13) := X0_of_ne Wt Bd c main_v13 (by decide)
      _ = Wt c (Proc.devRef .tc main_v13) := StableHlo.after_of_forall_not_mem (b := Proc.devRef .tc main_v13) _ _ (List.forall_iff_forall_mem.mp (by
          simp only [hops4, List.Forall, StableHlo.nullary_writes, StableHlo.unary_writes, StableHlo.binary_writes, StableHlo.reshape_writes, Finset.mem_singleton]
          repeat' apply And.intro
          all_goals exact StableHlo.devRef_ne_of_ne (by decide)))
  show StableHlo.after (hops7 (F := Ideal)) (X2 Wt Bd c) (Proc.devRef .tc main_v34) = _
  dsimp only [hops7]
  after_results
  rw [e]
  rfl

/-! ## Each region's result buffer starts as the previous region's result -/

theorem VE1_v31 (c : Dev nD) : VE1 Wt Bd c main_v31 = X0 Wt Bd c (Proc.devRef .tc main_v29) := by
  show StableHlo.after (hops5 (F := Ideal)) (X0 Wt Bd c) (Proc.devRef .tc main_v31) = _
  dsimp only [hops5]
  after_results
  rfl

theorem VE2_v33 (c : Dev nD) : VE2 Wt Bd c main_v33 = X1 Wt Bd c (Proc.devRef .tc main_v31) := by
  show StableHlo.after (hops6 (F := Ideal)) (X1 Wt Bd c) (Proc.devRef .tc main_v33) = _
  dsimp only [hops6]
  after_results
  rfl

theorem VE3_v35 (c : Dev nD) : VE3 Wt Bd c main_v35 = X2 Wt Bd c (Proc.devRef .tc main_v33) := by
  show StableHlo.after (hops7 (F := Ideal)) (X2 Wt Bd c) (Proc.devRef .tc main_v35) = _
  dsimp only [hops7]
  after_results
  rfl

/-! ## The result, quarter by quarter -/

/-- The gathered rows of quarter `q`, as the 256×200×128 array the quarter's region reads. -/
def gq (c : Dev nD) (q : Nat) : S256x200x128.Idx → EReal :=
  match q with
  | 0 => shapeCast S256x200x128 (Wt c (Proc.devRef .tc main_v4) : S51200x128.Idx → EReal) shapeCasts_S51200x128_S256x200x128
  | 1 => shapeCast S256x200x128 (Wt c (Proc.devRef .tc main_v7) : S51200x128.Idx → EReal) shapeCasts_S51200x128_S256x200x128
  | 2 => shapeCast S256x200x128 (Wt c (Proc.devRef .tc main_v10) : S51200x128.Idx → EReal) shapeCasts_S51200x128_S256x200x128
  | _ => shapeCast S256x200x128 (Wt c (Proc.devRef .tc main_v13) : S51200x128.Idx → EReal) shapeCasts_S51200x128_S256x200x128

/-- The whole result: at row `b`, `Gout` of quarter `b / 256`'s gathered rows, the token-type ids, and the four small operands
    as the first region finds them. -/
def Gfin (c : Dev nD) : S1024x200x128.Idx → EReal := fun i =>
  Gout (gq Wt c ((i 0).val / 256)) (Wt c (Proc.devRef .tc main_arg1)) (E0 Wt c (Proc.devRef .tc main_v19)) (E0 Wt c (Proc.devRef .tc main_v25))
    (E0 Wt c (Proc.devRef .tc main_v26)) (E0 Wt c (Proc.devRef .tc main_v27)) i

/-- After region 4 the result buffer holds the final result on rows below 256. -/
theorem out0 (c : Dev nD) (i : S1024x200x128.Idx) (hi : (i 0).val < 256) :
    (X0 Wt Bd c (Proc.devRef .tc main_v29) : S1024x200x128.Idx → EReal) i = Gfin Wt c i := by
  have hX : (X0 Wt Bd c (Proc.devRef .tc main_v29) : S1024x200x128.Idx → EReal) i
      = (if 0 ≤ (i 0).val ∧ (i 0).val < 256 then (Gout (VE0 Wt c main_v28) (VE0 Wt c main_arg1) (VE0 Wt c main_v19) (VE0 Wt c main_v25) (VE0 Wt c main_v26) (VE0 Wt c main_v27)) i
          else (VE0 Wt c main_v29 : S1024x200x128.Idx → EReal) i) :=
    congrFun ((X0_arr Wt Bd c 6).trans (final4 (VE0 Wt) (Bd c) c)) i
  rw [hX]
  by_cases hq : 0 ≤ (i 0).val
  · rw [if_pos ⟨hq, hi⟩]
    rw [VE0_v28, show VE0 Wt c main_arg1 = Wt c (Proc.devRef .tc main_arg1) from E0_arg1 Wt c]
    unfold Gfin
    rw [show (i 0).val / 256 = 0 from by omega]
    rfl
  · rw [if_neg (fun h => hq h.1)]
    exact absurd (Nat.zero_le _) hq

/-- After region 5 the result buffer holds the final result on rows below 512. -/
theorem out1 (c : Dev nD) (i : S1024x200x128.Idx) (hi : (i 0).val < 512) :
    (X1 Wt Bd c (Proc.devRef .tc main_v31) : S1024x200x128.Idx → EReal) i = Gfin Wt c i := by
  have hX : (X1 Wt Bd c (Proc.devRef .tc main_v31) : S1024x200x128.Idx → EReal) i
      = (if 256 ≤ (i 0).val ∧ (i 0).val < 512 then (Gout (VE1 Wt Bd c main_v30) (VE1 Wt Bd c main_arg1) (VE1 Wt Bd c main_v19) (VE1 Wt Bd c main_v25) (VE1 Wt Bd c main_v26) (VE1 Wt Bd c main_v27)) i
          else (VE1 Wt Bd c main_v31 : S1024x200x128.Idx → EReal) i) :=
    congrFun ((X1_arr Wt Bd c 6).trans (final5 (VE1 Wt Bd) (Bd c) c)) i
  rw [hX]
  by_cases hq : 256 ≤ (i 0).val
  · rw [if_pos ⟨hq, hi⟩]
    rw [VE1_v30, VE1_arg1, E0_arg1, VE1_v19, VE1_v25, VE1_v26, VE1_v27]
    unfold Gfin
    rw [show (i 0).val / 256 = 1 from by omega]
    rfl
  · rw [if_neg (fun h => hq h.1)]
    rw [VE1_v31]
    exact out0 Wt Bd c i (by omega)

/-- After region 6 the result buffer holds the final result on rows below 768. -/
theorem out2 (c : Dev nD) (i : S1024x200x128.Idx) (hi : (i 0).val < 768) :
    (X2 Wt Bd c (Proc.devRef .tc main_v33) : S1024x200x128.Idx → EReal) i = Gfin Wt c i := by
  have hX : (X2 Wt Bd c (Proc.devRef .tc main_v33) : S1024x200x128.Idx → EReal) i
      = (if 512 ≤ (i 0).val ∧ (i 0).val < 768 then (Gout (VE2 Wt Bd c main_v32) (VE2 Wt Bd c main_arg1) (VE2 Wt Bd c main_v19) (VE2 Wt Bd c main_v25) (VE2 Wt Bd c main_v26) (VE2 Wt Bd c main_v27)) i
          else (VE2 Wt Bd c main_v33 : S1024x200x128.Idx → EReal) i) :=
    congrFun ((X2_arr Wt Bd c 6).trans (final6 (VE2 Wt Bd) (Bd c) c)) i
  rw [hX]
  by_cases hq : 512 ≤ (i 0).val
  · rw [if_pos ⟨hq, hi⟩]
    rw [VE2_v32, VE2_arg1, E0_arg1, VE2_v19, VE2_v25, VE2_v26, VE2_v27]
    unfold Gfin
    rw [show (i 0).val / 256 = 2 from by omega]
    rfl
  · rw [if_neg (fun h => hq h.1)]
    rw [VE2_v33]
    exact out1 Wt Bd c i (by omega)

/-- After region 7 the result buffer holds the final result on rows below 1024. -/
theorem out3 (c : Dev nD) (i : S1024x200x128.Idx) (hi : (i 0).val < 1024) :
    (X3 Wt Bd c (Proc.devRef .tc main_v35) : S1024x200x128.Idx → EReal) i = Gfin Wt c i := by
  have hX : (X3 Wt Bd c (Proc.devRef .tc main_v35) : S1024x200x128.Idx → EReal) i
      = (if 768 ≤ (i 0).val ∧ (i 0).val < 1024 then (Gout (VE3 Wt Bd c main_v34) (VE3 Wt Bd c main_arg1) (VE3 Wt Bd c main_v19) (VE3 Wt Bd c main_v25) (VE3 Wt Bd c main_v26) (VE3 Wt Bd c main_v27)) i
          else (VE3 Wt Bd c main_v35 : S1024x200x128.Idx → EReal) i) :=
    congrFun ((X3_arr Wt Bd c 6).trans (final7 (VE3 Wt Bd) (Bd c) c)) i
  rw [hX]
  by_cases hq : 768 ≤ (i 0).val
  · rw [if_pos ⟨hq, hi⟩]
    rw [VE3_v34, VE3_arg1, E0_arg1, VE3_v19, VE3_v25, VE3_v26, VE3_v27]
    unfold Gfin
    rw [show (i 0).val / 256 = 3 from by omega]
    rfl
  · rw [if_neg (fun h => hq h.1)]
    rw [VE3_v35]
    exact out2 Wt Bd c i (by omega)

/-- THE RESULT ARRAY at the end of the tail: every entry is `Gfin`'s. -/
theorem X3_v35 (c : Dev nD) : (X3 Wt Bd c (Proc.devRef .tc main_v35) : S1024x200x128.Idx → EReal) = Gfin Wt c :=
  funext fun i => out3 Wt Bd c i (i 0).isLt

end Chain

end Cert.Proof.KI.Reg

end
-- ==== Proof.RegValueArgs.lean ====
/-
  The final result read over the tail's entry arrays directly.

  The small operands the regions read are computed by the host stretch before the first region: the combined table is
  rows 0–199 of the position table plus the type-0 row; the difference row is the type-1 row less the type-0 row; the
  scale and shift rows are the two vector arguments as one-row arrays. Each quarter's gathered rows are the SparseCore
  call's 51200×128 result reshaped to 256×200×128: entry (b', l, k) is row b'·200 + l. Read at an index, the result is the
  normalized row of those.
-/
import proofs.«203556_g1357209665813_cont_week2b_798_48_alg».proof.Proof.RegValueChain

set_option maxRecDepth 16384

noncomputable section

namespace Cert.Proof.KI.Reg

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem

/-- A 51200×128 array cast to 256×200×128 reads, at `(b, l, k)`, the operand's row `b·200 + l` at `k`. -/
theorem shapeCast_rows_apply {α : Type} (G : S51200x128.Idx → α) (h : S51200x128.ShapeCasts S256x200x128)
    (b : Fin 256) (l : Fin 200) (k : Fin 128) (hr : b.val * 200 + l.val < 51200) :
    shapeCast S256x200x128 G h (ix3 b l k) = G (ix2 (⟨b.val * 200 + l.val, hr⟩ : Fin 51200) k) :=
  shapeCast_apply G h _ _ (by
    rw [Shape.rowMajor_val_two, Shape.rowMajor_val_three]
    show (b.val * 200 + l.val) * 128 + k.val = (b.val * 200 + l.val) * 128 + k.val
    rfl)

section Small
variable {α : Type}

/-- Rows 0–199 of a 512-row table, read at `(l, k)`. -/
theorem slice_pos_apply (P : S512x128.Idx → α) (hs : S512x128.Slices ![0, 0] S200x128) (l : Fin 200) (k : Fin 128) (hl : l.val < 512) :
    extractStridedSlice S200x128 ![0, 0] P hs (ix2 l k) = P (ix2 (⟨l.val, hl⟩ : Fin 512) k) :=
  extractStridedSlice_apply _ P hs (ix2 l k) (ix2 (⟨l.val, hl⟩ : Fin 512) k) (fun a => by
    match a with
    | ⟨0, _⟩ => show l.val = 0 + l.val; omega
    | ⟨1, _⟩ => show k.val = 0 + k.val; omega)

/-- One row broadcast over 200 rows, read at `(l, k)`. -/
theorem bcast_rows_apply (X : S1x128.Idx → α) (hb : S1x128.BroadcastsInDim S200x128 ![0, 1]) (l : Fin 200) (k : Fin 128) :
    broadcastInDim S200x128 ![0, 1] hb X (ix2 l k) = X (ix2 (0 : Fin 1) k) :=
  broadcastInDim_apply _ hb X (ix2 l k) (ix2 (0 : Fin 1) k) (fun a => by
    match a with
    | ⟨0, _⟩ => rfl
    | ⟨1, _⟩ => rfl)

/-- A 128-vector as a one-row array, read at `(z, k)`. -/
theorem bcast_vec_apply (Y : S128.Idx → α) (hb : S128.BroadcastsInDim S1x128 ![1]) (z : Fin 1) (k : Fin 128) :
    broadcastInDim S1x128 ![1] hb Y (ix2 z k) = Y (ix1 k) :=
  broadcastInDim_apply _ hb Y (ix2 z k) (ix1 k) (fun a => by
    match a with
    | ⟨0, _⟩ => rfl)

/-- Row `o` of a two-row table as a 128-vector, read at `k`. -/
theorem row_apply (T : S2x128.Idx → α) (off : Fin 2 → Nat) (hs : S2x128.Slices off S1x128) (hc : S1x128.ShapeCasts S128)
    (o : Fin 2) (h0 : off 0 = o.val) (h1 : off 1 = 0) (k : Fin 128) :
    shapeCast S128 (extractStridedSlice S1x128 off T hs) hc (ix1 k) = T (ix2 o k) := by
  rw [shapeCast_1a_a_apply]
  exact extractStridedSlice_apply off T hs (ix2 (0 : Fin 1) k) (ix2 o k) (fun a => by
    match a with
    | ⟨0, _⟩ => show o.val = off 0 + 0; omega
    | ⟨1, _⟩ => show k.val = off 1 + k.val; omega)

end Small

section Args
variable (Wt : Dev nD → Valuation τ sig (Elt Ideal))

/-- The tail's entry arrays, by what they are. -/
abbrev ttA (c : Dev nD) : S1024x200.Idx → BitVec 32 := Wt c (Proc.devRef .tc main_arg1)
abbrev posA (c : Dev nD) : S512x128.Idx → EReal := Wt c (Proc.devRef .tc main_arg3)
abbrev tyA (c : Dev nD) : S2x128.Idx → EReal := Wt c (Proc.devRef .tc main_arg4)
abbrev gammaA (c : Dev nD) : S128.Idx → EReal := Wt c (Proc.devRef .tc main_arg5)
abbrev betaA (c : Dev nD) : S128.Idx → EReal := Wt c (Proc.devRef .tc main_arg6)

theorem E0_v19_at (c : Dev nD) (l : Fin 200) (k : Fin 128) (hl : l.val < 512) :
    (E0 Wt c (Proc.devRef .tc main_v19) : S200x128.Idx → EReal) (ix2 l k)
      = posA Wt c (ix2 (⟨l.val, hl⟩ : Fin 512) k) + tyA Wt c (ix2 (0 : Fin 2) k) := by
  show (StableHlo.after (hops4 (F := Ideal)) (Wt c) (Proc.devRef .tc main_v19) : S200x128.Idx → EReal) (ix2 l k) = _
  dsimp only [hops4]
  after_results
  show extractStridedSlice S200x128 ![0, 0] (posA Wt c) slices_S512x128_S200x128_0_0 (ix2 l k)
      + broadcastInDim S200x128 ![0, 1] bcast_S1x128_S200x128_0_1 (broadcastInDim S1x128 ![1] bcast_S128_S1x128_1
          (shapeCast S128 (extractStridedSlice S1x128 ![0, 0] (tyA Wt c) slices_S2x128_S1x128_0_0) shapeCasts_S1x128_S128)) (ix2 l k) = _
  rw [slice_pos_apply _ _ l k hl, bcast_rows_apply, bcast_vec_apply, row_apply (tyA Wt c) ![0, 0] slices_S2x128_S1x128_0_0 shapeCasts_S1x128_S128 (0 : Fin 2) rfl rfl]

theorem E0_v25_at (c : Dev nD) (z : Fin 1) (k : Fin 128) :
    (E0 Wt c (Proc.devRef .tc main_v25) : S1x128.Idx → EReal) (ix2 z k)
      = tyA Wt c (ix2 (1 : Fin 2) k) - tyA Wt c (ix2 (0 : Fin 2) k) := by
  show (StableHlo.after (hops4 (F := Ideal)) (Wt c) (Proc.devRef .tc main_v25) : S1x128.Idx → EReal) (ix2 z k) = _
  dsimp only [hops4]
  after_results
  show shapeCast S1x128 (subf (F := Ideal)
        (shapeCast S128 (extractStridedSlice S1x128 ![1, 0] (tyA Wt c) slices_S2x128_S1x128_1_0) shapeCasts_S1x128_S128)
        (shapeCast S128 (extractStridedSlice S1x128 ![0, 0] (tyA Wt c) slices_S2x128_S1x128_0_0) shapeCasts_S1x128_S128))
      shapeCasts_S128_S1x128 (ix2 z k) = _
  rw [shapeCast_a_1a_apply, subf_apply, row_apply (tyA Wt c) ![1, 0] slices_S2x128_S1x128_1_0 shapeCasts_S1x128_S128 (1 : Fin 2) rfl rfl,
    row_apply (tyA Wt c) ![0, 0] slices_S2x128_S1x128_0_0 shapeCasts_S1x128_S128 (0 : Fin 2) rfl rfl]

theorem E0_v26_at (c : Dev nD) (z : Fin 1) (k : Fin 128) :
    (E0 Wt c (Proc.devRef .tc main_v26) : S1x128.Idx → EReal) (ix2 z k) = gammaA Wt c (ix1 k) := by
  show (StableHlo.after (hops4 (F := Ideal)) (Wt c) (Proc.devRef .tc main_v26) : S1x128.Idx → EReal) (ix2 z k) = _
  dsimp only [hops4]
  after_results
  exact shapeCast_a_1a_apply (gammaA Wt c) shapeCasts_S128_S1x128 z k

theorem E0_v27_at (c : Dev nD) (z : Fin 1) (k : Fin 128) :
    (E0 Wt c (Proc.devRef .tc main_v27) : S1x128.Idx → EReal) (ix2 z k) = betaA Wt c (ix1 k) := by
  show (StableHlo.after (hops4 (F := Ideal)) (Wt c) (Proc.devRef .tc main_v27) : S1x128.Idx → EReal) (ix2 z k) = _
  dsimp only [hops4]
  after_results
  exact shapeCast_a_1a_apply (betaA Wt c) shapeCasts_S128_S1x128 z k

/-- Quarter `q`'s gathered rows as its SparseCore call left them. -/
abbrev gsrc (c : Dev nD) (q : Nat) : S51200x128.Idx → EReal :=
  match q with
  | 0 => Wt c (Proc.devRef .tc main_v4)
  | 1 => Wt c (Proc.devRef .tc main_v7)
  | 2 => Wt c (Proc.devRef .tc main_v10)
  | _ => Wt c (Proc.devRef .tc main_v13)

/-- The quarter's 256×200×128 array at `(b', l, k)` is the gathered row `b'·200 + l` at `k`. -/
theorem gq_at (c : Dev nD) (q : Nat) (b' : Fin 256) (l : Fin 200) (k : Fin 128) (hr : b'.val * 200 + l.val < 51200) :
    gq Wt c q (ix3 b' l k) = gsrc Wt c q (ix2 (⟨b'.val * 200 + l.val, hr⟩ : Fin 51200) k) := by
  match q with
  | 0 => exact shapeCast_rows_apply _ _ b' l k hr
  | 1 => exact shapeCast_rows_apply _ _ b' l k hr
  | 2 => exact shapeCast_rows_apply _ _ b' l k hr
  | (n + 3) => exact shapeCast_rows_apply _ _ b' l k hr

theorem LNk_congr {g g' s s' y y' : Fin 128 → EReal} (hg : ∀ k, g k = g' k) (hs : ∀ k, s k = s' k) (hy : ∀ k, y k = y' k)
    (h : Fin 128) : LNk g s y h = LNk g' s' y' h := by
  rw [funext hg, funext hs, funext hy]

theorem Gfin_ix3 (c : Dev nD) (b : Fin 1024) (l : Fin 200) (h : Fin 128) :
    Gfin Wt c (ix3 b l h) = GoutAt (gq Wt c (b.val / 256)) (Wt c (Proc.devRef .tc main_arg1)) (E0 Wt c (Proc.devRef .tc main_v19)) (E0 Wt c (Proc.devRef .tc main_v25))
      (E0 Wt c (Proc.devRef .tc main_v26)) (E0 Wt c (Proc.devRef .tc main_v27)) b l h := rfl

/-- THE RESULT AT AN INDEX, over the tail's entry arrays: entry `(b, l, h)` is the normalized row of token position
    `(b, l)` at lane `h` — the gathered row `(b mod 256)·200 + l` of quarter `b / 256`, plus position row `l` plus the type-0
    row, plus the token-type id at `(b, l)` as a float times the type-1 row less the type-0 row; scaled by the first vector
    argument, shifted by the second. -/
theorem Gfin_at (c : Dev nD) (b : Fin 1024) (l : Fin 200) (h : Fin 128) :
    Gfin Wt c (ix3 b l h)
      = LNk (fun k => gammaA Wt c (ix1 k)) (fun k => betaA Wt c (ix1 k))
          (fun k => (gsrc Wt c (b.val / 256) (ix2 (⟨(b.val % 256) * 200 + l.val, by have := l.isLt; omega⟩ : Fin 51200) k)
              + (posA Wt c (ix2 (⟨l.val, by have := l.isLt; omega⟩ : Fin 512) k) + tyA Wt c (ix2 (0 : Fin 2) k)))
            + (((ttA Wt c (ix2 b l)).toInt : ℝ) : EReal) * (tyA Wt c (ix2 (1 : Fin 2) k) - tyA Wt c (ix2 (0 : Fin 2) k))) h := by
  rw [Gfin_ix3]
  unfold GoutAt
  have hl : l.val < 512 := by have := l.isLt; omega
  have hr : (b.val % 256) * 200 + l.val < 51200 := by have := l.isLt; omega
  refine LNk_congr (fun k => E0_v26_at Wt c 0 k) (fun k => E0_v27_at Wt c 0 k) (fun k => ?_) h
  have e1 := gq_at Wt c (b.val / 256) ⟨b.val % 256, Nat.mod_lt _ (by decide)⟩ l k hr
  have e2 := E0_v19_at Wt c l k hl
  have e3 := E0_v25_at Wt c 0 k
  exact congr (congrArg HAdd.hAdd (congr (congrArg HAdd.hAdd e1) e2)) (congrArg (HMul.hMul _) e3)

/-- The same for the array the tail leaves: the last region's result buffer at `(b, l, h)`. -/
theorem X3_v35_at (Bd : Dev nD → Set (SemLoc sig × HIx 4)) (c : Dev nD) (b : Fin 1024) (l : Fin 200) (h : Fin 128) :
    (X3 Wt Bd c (Proc.devRef .tc main_v35) : S1024x200x128.Idx → EReal) (ix3 b l h)
      = LNk (fun k => gammaA Wt c (ix1 k)) (fun k => betaA Wt c (ix1 k))
          (fun k => (gsrc Wt c (b.val / 256) (ix2 (⟨(b.val % 256) * 200 + l.val, by have := l.isLt; omega⟩ : Fin 51200) k)
              + (posA Wt c (ix2 (⟨l.val, by have := l.isLt; omega⟩ : Fin 512) k) + tyA Wt c (ix2 (0 : Fin 2) k)))
            + (((ttA Wt c (ix2 b l)).toInt : ℝ) : EReal) * (tyA Wt c (ix2 (1 : Fin 2) k) - tyA Wt c (ix2 (0 : Fin 2) k))) h :=
  (congrFun (X3_v35 Wt Bd c) (ix3 b l h)).trans (Gfin_at Wt c b l h)

end Args

end Cert.Proof.KI.Reg

end
-- ==== Proof.ValueEq.lean ====
/-
  The kernel's result array equals the reference's result of the same argument arrays. Three ingredients. A gathered row:
  row `(b mod 256) · 200 + l` of the array call `b / 256` leaves is the word table's row at the token id of position
  `(b, l)` — the call's ids at that flat position are the launch's ids at `(b, l)`, and the two clamps agree on an id within
  the table. The reference's result at an index in the kernel body's normalized form, from the kernel memory's
  precondition. And the kernel's result array at an index, over the buffers its host stretches and calls leave: the same
  normalized form of the same row once the argument buffers are the launch's and each call's result is its gathered rows.
-/
import proofs.«203556_g1357209665813_cont_week2b_798_48_alg».proof.Proof.Gather
import proofs.«203556_g1357209665813_cont_week2b_798_48_alg».proof.Proof.IdxAt
import proofs.«203556_g1357209665813_cont_week2b_798_48_alg».proof.Proof.Algebra
import proofs.«203556_g1357209665813_cont_week2b_798_48_alg».proof.Proof.RegValueArgs

noncomputable section

namespace Cert.Proof.KI

open Cert.KernelIdeal Cert.KernelIdeal.Gen
open Idealize.ShloMosaic Idealize.SL.Sem Idealize.ShloMosaic.ValueIdx

section Row

variable {F : FTy → Type} [FloatOps F] (m : (ℓ : Loc nD τ sig) → Buf (Elt F) ℓ)

/-- Position `(b, l)` is flat position `(b mod 256) · 200 + l` of quarter `b / 256`. -/
theorem quarter_pos (q : Fin 4) (b : Fin 1024) (hq : q.val = b.val / 256) (l : Fin 200) :
    (ix2 ⟨256 * q.val + (b.val % 256 * 200 + l.val) / 200, by have := b.isLt; have := l.isLt; omega⟩
        ⟨(b.val % 256 * 200 + l.val) % 200, Nat.mod_lt _ (by norm_num)⟩ : S1024x200.Idx) = ix2 b l := by
  have hb := b.isLt; have hl := l.isLt
  funext a
  refine Fin.ext ?_
  match a with
  | ⟨0, _⟩ => show 256 * q.val + (b.val % 256 * 200 + l.val) / 200 = b.val; omega
  | ⟨1, _⟩ => show (b.val % 256 * 200 + l.val) % 200 = l.val; omega

/-- THE GATHERED ROW of position `(b, l)`: the table at the row the token id names, in the reference's clamp. -/
theorem gathered_row (Tb : S100000x128.Idx → Elt F .f32) (d : Dev nD)
    (hids : ∀ k, 0 ≤ (idsOf m d k).toInt ∧ (idsOf m d k).toInt ≤ 99999)
    (q : Fin 4) (b : Fin 1024) (hq : q.val = b.val / 256) (l : Fin 200) (k : Fin 128) :
    Gathered Tb (Ids m q d) (ix2 ⟨b.val % 256 * 200 + l.val, by have := b.isLt; have := l.isLt; omega⟩ k)
      = Tb (ix2 ⟨min (idsOf m d (ix2 b l)).toInt.toNat 99999, by omega⟩ k) := by
  have hb := b.isLt; have hl := l.isLt
  rw [Gathered_apply]
  refine congrArg (fun r => Tb (ix2 r k)) (Fin.ext ?_)
  show min (Ids m q d (ix3 ⟨(b.val % 256 * 200 + l.val) / 1600, by omega⟩ ⟨(b.val % 256 * 200 + l.val) % 1600 / 64, by omega⟩
      ⟨(b.val % 256 * 200 + l.val) % 64, by omega⟩)).toNat 99999 = min (idsOf m d (ix2 b l)).toInt.toNat 99999
  rw [Ids_flat m q d _ (by omega), quarter_pos q b hq l]
  have e := Cert.ReferenceIdeal.Algebra.min_toInt_toNat (idsOf m d (ix2 b l)) 99999 (hids _).1 (hids _).2
  rw [e]
  exact Nat.min_eq_left (by rw [← e]; exact Nat.min_le_right _ _)

end Row

section Pre

open Cert.ReferenceIdeal.RefRun Cert.ReferenceIdeal.Algebra

variable (m : (ℓ : Loc nD τ sig) → Buf (Elt Ideal) ℓ)

/-- The signed id range from the kernel memory's precondition. -/
theorem ids_signed_of_pre (hpre : Cert.Pre_KernelIdeal (hPre_input_domain := Cert.Pre_input_domain.Gen.facts) m) (d : Dev nD) :
    ∀ k, 0 ≤ (idsOf m d k).toInt ∧ (idsOf m d k).toInt ≤ 99999 := fun k => by
  have e0 : (0#32 : BitVec 32).toInt = 0 := by decide
  have e9 : (99999#32 : BitVec 32).toInt = 99999 := by decide
  have := (pre_signed (hpre d) k).1
  rw [e0, e9] at this
  exact this

/-- The reference's result at `(b, l, h)` over the kernel memory's argument arrays, in the kernel body's normalized form
    of the row `xK`. -/
theorem res_of_preK (hpre : Cert.Pre_KernelIdeal (hPre_input_domain := Cert.Pre_input_domain.Gen.facts) m) (d : Dev nD)
    (b : Fin 1024) (l : Fin 200) (h : Fin 128) :
    res (F := Ideal) (m ((SparseCore.T d).loc main_arg0)) (m ((SparseCore.T d).loc main_arg1))
        (m ((SparseCore.T d).loc main_arg2)) (m ((SparseCore.T d).loc main_arg3)) (m ((SparseCore.T d).loc main_arg4))
        (m ((SparseCore.T d).loc main_arg5)) (m ((SparseCore.T d).loc main_arg6)) (ix3 b l h)
      = Reg.LNk (fun k => (m ((SparseCore.T d).loc main_arg5) : S128.Idx → EReal) (ix1 k))
          (fun k => (m ((SparseCore.T d).loc main_arg6) : S128.Idx → EReal) (ix1 k))
          (fun k => xK (m ((SparseCore.T d).loc main_arg0)) (m ((SparseCore.T d).loc main_arg1))
              (m ((SparseCore.T d).loc main_arg2)) (m ((SparseCore.T d).loc main_arg3))
              (m ((SparseCore.T d).loc main_arg4)) b l k) h :=
  res_eq_LNk _ _ _ _ _ _ _ (ids_signed_of_pre m hpre d) (tt_range (hpre d)) (arg2_real (hpre d)) (arg3_real (hpre d))
    (arg4_real (hpre d)) b l h

end Pre

section Final

open Cert.ReferenceIdeal.RefRun Cert.ReferenceIdeal.Algebra
open Idealize.ShloMosaic.SparseCore.Cfg (HIx)

variable (m : (ℓ : Loc nD τ sig) → Buf (Elt Ideal) ℓ)

/-- THE KERNEL'S RESULT ARRAY IS THE REFERENCE'S RESULT of the launch's argument arrays: under the kernel memory's
    precondition, for any buffer contents `Wt d` whose argument buffers are the launch's and whose four call results are
    the gathered rows of the word table at each call's ids. -/
theorem X3_eq_res (hpre : Cert.Pre_KernelIdeal (hPre_input_domain := Cert.Pre_input_domain.Gen.facts) m)
    (Wt : Dev nD → Valuation τ sig (Elt Ideal)) (Bd : Dev nD → Set (SemLoc sig × HIx 4)) (d : Dev nD)
    (hA : ArgsOf m d (Wt d))
    (h4 : (Wt d (Proc.devRef .tc main_v4) : S51200x128.Idx → EReal) = Gathered (m ((SparseCore.T d).loc main_arg2)) (Ids0 m d))
    (h7 : (Wt d (Proc.devRef .tc main_v7) : S51200x128.Idx → EReal) = Gathered (m ((SparseCore.T d).loc main_arg2)) (Ids1 m d))
    (h10 : (Wt d (Proc.devRef .tc main_v10) : S51200x128.Idx → EReal) = Gathered (m ((SparseCore.T d).loc main_arg2)) (Ids2 m d))
    (h13 : (Wt d (Proc.devRef .tc main_v13) : S51200x128.Idx → EReal) = Gathered (m ((SparseCore.T d).loc main_arg2)) (Ids3 m d)) :
    (Reg.X3 Wt Bd d (Proc.devRef .tc main_v35) : S1024x200x128.Idx → EReal)
      = res (F := Ideal) (m ((SparseCore.T d).loc main_arg0)) (m ((SparseCore.T d).loc main_arg1))
          (m ((SparseCore.T d).loc main_arg2)) (m ((SparseCore.T d).loc main_arg3)) (m ((SparseCore.T d).loc main_arg4))
          (m ((SparseCore.T d).loc main_arg5)) (m ((SparseCore.T d).loc main_arg6)) := by
  funext i
  obtain ⟨b, l, h, rfl⟩ : ∃ b l h, i = ix3 b l h := ⟨i 0, i 1, i 2, eq_ix3 i⟩
  have hb := b.isLt
  -- each call's result, by the quarter's number
  have hG : ∀ q : Fin 4, Reg.gsrc Wt d q.val = Gathered (m ((SparseCore.T d).loc main_arg2)) (Ids m q d) := fun q => by
    match q with
    | 0 => exact h4
    | 1 => exact h7
    | 2 => exact h10
    | 3 => exact h13
  rw [Reg.X3_v35_at Wt Bd d b l h, res_of_preK m hpre d b l h]
  refine Reg.LNk_congr (fun k => ?_) (fun k => ?_) (fun k => ?_) h
  · exact congrFun (hA main_arg5 (by decide)) (ix1 k)
  · exact congrFun (hA main_arg6 (by decide)) (ix1 k)
  · unfold xK
    have e1 : Reg.ttA Wt d = m ((SparseCore.T d).loc main_arg1) := hA main_arg1 (by decide)
    have e3 : Reg.posA Wt d = m ((SparseCore.T d).loc main_arg3) := hA main_arg3 (by decide)
    have e4 : Reg.tyA Wt d = m ((SparseCore.T d).loc main_arg4) := hA main_arg4 (by decide)
    rw [e1, e3, e4, hG ⟨b.val / 256, by omega⟩,
      gathered_row m _ d (ids_signed_of_pre m hpre d) ⟨b.val / 256, by omega⟩ b rfl l k]

end Final

end Cert.Proof.KI

end
-- ==== Proof.AlgebraicOf.lean ====
/-
  The algebraic conjunct from the kernel's run. Given that the idealized kernel, from any memory satisfying the
  precondition, ends with its result buffer at the reference's result function of its own argument arrays (and the argument
  arrays unchanged), the two idealized programs run from memories that agree on the arguments end with equal results: the
  reference ends at that same function of its argument arrays, which are the kernel's.
-/
import proofs.«203556_g1357209665813_cont_week2b_798_48_alg».proof.Proof.LaunchE
import proofs.«203556_g1357209665813_cont_week2b_798_48_alg».proof.Proof.RefRun
import proofs.«203556_g1357209665813_cont_week2b_798_48_alg».proof.Proof.ValueEq

noncomputable section

namespace Cert.Proof.KI

open Cert.KernelIdeal Cert.KernelIdeal.Gen
open Idealize.ShloMosaic Idealize.SL.Sem

/-- The common result: the reference's result function of the kernel memory's seven argument arrays. -/
def vK (m : (ℓ : Loc nD τ sig) → Buf (Elt Ideal) ℓ) (c : Dev nD) : Buf (Elt Ideal) ((c.tc : Thread nD τ).loc main_v35) :=
  Cert.ReferenceIdeal.RefRun.res (F := Ideal) (m ((SparseCore.T c).loc main_arg0))
    (m ((SparseCore.T c).loc main_arg1))
    (m ((SparseCore.T c).loc main_arg2))
    (m ((SparseCore.T c).loc main_arg3))
    (m ((SparseCore.T c).loc main_arg4))
    (m ((SparseCore.T c).loc main_arg5))
    (m ((SparseCore.T c).loc main_arg6))

/-- The algebraic conjunct, from the kernel's run ending at `vK`. -/
theorem algebraic_of
    (hk : ∀ (m : (ℓ : Loc Cert.KernelIdeal.nD Cert.KernelIdeal.τ Cert.KernelIdeal.sig) → Buf (Elt Ideal) ℓ)
        (g : Dev Cert.KernelIdeal.nD → PrngReg),
        Cert.Pre_KernelIdeal (hPre_input_domain := Cert.Pre_input_domain.Gen.facts) m →
        θ_run (Cert.KernelIdeal.defs (F := Ideal)) (Cert.KernelIdeal.threads (F := Ideal)) ⟨m, fun _ => 0, g⟩ (QCV m (vK m))) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨vK m, hk m g hpre, ?_⟩
  refine (θ_run Cert.ReferenceIdeal.defs _ _).mono (fun _ h c => ⟨?_, (h c).2⟩)
    (Cert.ReferenceIdeal.RefRun.run (F := Ideal) m' g')
  obtain ⟨e0, e1, e2, e3, e4, e5, e6⟩ := hagree c
  rw [(h c).1, e0, e1, e2, e3, e4, e5, e6]
  rfl

end Cert.Proof.KI

end
-- ==== Proof.RunValue.lean ====
/-
  The idealized kernel's run ends with the result array at the reference's term of the arguments: the calls leave the
  gathered rows, the layer-norm regions make of them what the reference computes (the equation of ValueEq).
-/
import proofs.«203556_g1357209665813_cont_week2b_798_48_alg».proof.Proof.ValueKI
import proofs.«203556_g1357209665813_cont_week2b_798_48_alg».proof.Proof.AlgebraicOf

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL.Sem

/-- The kernel's run with its value, from the four valued tile obligations. -/
theorem run_value (m : (ℓ : Loc nD τ sig) → Buf (Elt Ideal) ℓ) (ρ : Dev nD → PrngReg)
    (hpre : Cert.Pre_KernelIdeal (hPre_input_domain := Cert.Pre_input_domain.Gen.facts) m)
    (htile : ∀ q, (K (F := Ideal)).TileObl (D (F := Ideal)) 𝒱 (P (TPvV m (JvV m))) v₀ q) :
    θ_run (Cert.KernelIdeal.defs (F := Ideal)) (Cert.KernelIdeal.threads (F := Ideal)) ⟨m, fun _ => 0, ρ⟩ (QCV m (vK m)) :=
  run_val (TPvV m (JvV m)) m ρ (vK m) (CIvV m (JvV m)) htile (hidx0V m) (hidx1V m) (hidx2V m) (hidx3V m)
    (fun d f0 f1 f2 f3 h0 h1 h2 h3 =>
      X3_eq_res m hpre (fun _ => WtOf m d f0 f1 f2 f3) (Bd (F := Ideal)) d (WtOf_args m d f0 f1 f2 f3)
        ((WtOf_out0 m d f0 f1 f2 f3).trans h0) ((WtOf_out1 m d f0 f1 f2 f3).trans h1)
        ((WtOf_out2 m d f0 f1 f2 f3).trans h2) ((WtOf_out3 m d f0 f1 f2 f3).trans h3))

/-- The algebraic conjunct, from the valued tile obligations under the precondition. -/
theorem algebraic_of_tiles
    (htile : ∀ (m : (ℓ : Loc nD τ sig) → Buf (Elt Ideal) ℓ), Cert.Pre_KernelIdeal (hPre_input_domain := Cert.Pre_input_domain.Gen.facts) m →
      ∀ q, (K (F := Ideal)).TileObl (D (F := Ideal)) 𝒱 (P (TPvV m (JvV m))) v₀ q) :
    Cert.algebraic_KernelIdeal_ReferenceIdeal (hKernelIdeal := Cert.KernelIdeal.Gen.facts) (hReferenceIdeal := Cert.ReferenceIdeal.Gen.facts) (hPre_input_domain := Cert.Pre_input_domain.Gen.facts) :=
  algebraic_of fun m g hpre => run_value m g hpre (htile m hpre)

end Cert.Proof.KI

end
-- ==== Proof.TileOblV0.lean ====
/-
  The launch theorem's obligation for SparseCore call 0 with its value: the task hands back its rows of the output at
  the gathered contents.
-/
import proofs.«203556_g1357209665813_cont_week2b_798_48_alg».proof.Proof.Tile0ValWrap
import proofs.«203556_g1357209665813_cont_week2b_798_48_alg».proof.Proof.TileOblBase0
import proofs.«203556_g1357209665813_cont_week2b_798_48_alg».proof.Proof.CallV0

noncomputable section

namespace Cert.Proof.KI.Tile0

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads `GO` out and `TD` back. -/
theorem tileOblV (TP : TilePay F) (Id : (d : Dev nD) → Buf (Elt F) (idxLoc d))
    (hgo : ∀ d c i, TP.go qC d c i = GO m Id d (c, i)) (htd : ∀ d c i, TP.td qC d c i = TD m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid0.bound 0 ∧ ((K (F := F)).sub qC i).val < grid0.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body_val (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile0

end
-- ==== Proof.TileOblV1.lean ====
/-
  The launch theorem's obligation for SparseCore call 1 with its value: the task hands back its rows of the output at
  the gathered contents.
-/
import proofs.«203556_g1357209665813_cont_week2b_798_48_alg».proof.Proof.Tile1ValWrap
import proofs.«203556_g1357209665813_cont_week2b_798_48_alg».proof.Proof.TileOblBase1
import proofs.«203556_g1357209665813_cont_week2b_798_48_alg».proof.Proof.CallV1

noncomputable section

namespace Cert.Proof.KI.Tile1

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads `GO` out and `TD` back. -/
theorem tileOblV (TP : TilePay F) (Id : (d : Dev nD) → Buf (Elt F) (idxLoc d))
    (hgo : ∀ d c i, TP.go qC d c i = GO m Id d (c, i)) (htd : ∀ d c i, TP.td qC d c i = TD m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid1.bound 0 ∧ ((K (F := F)).sub qC i).val < grid1.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body_val (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile1

end
-- ==== Proof.TileOblV2.lean ====
/-
  The launch theorem's obligation for SparseCore call 2 with its value: the task hands back its rows of the output at
  the gathered contents.
-/
import proofs.«203556_g1357209665813_cont_week2b_798_48_alg».proof.Proof.Tile2ValWrap
import proofs.«203556_g1357209665813_cont_week2b_798_48_alg».proof.Proof.TileOblBase2
import proofs.«203556_g1357209665813_cont_week2b_798_48_alg».proof.Proof.CallV2

noncomputable section

namespace Cert.Proof.KI.Tile2

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads `GO` out and `TD` back. -/
theorem tileOblV (TP : TilePay F) (Id : (d : Dev nD) → Buf (Elt F) (idxLoc d))
    (hgo : ∀ d c i, TP.go qC d c i = GO m Id d (c, i)) (htd : ∀ d c i, TP.td qC d c i = TD m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid2.bound 0 ∧ ((K (F := F)).sub qC i).val < grid2.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body_val (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile2

end
-- ==== Proof.TileOblV3.lean ====
/-
  The launch theorem's obligation for SparseCore call 3 with its value: the task hands back its rows of the output at
  the gathered contents.
-/
import proofs.«203556_g1357209665813_cont_week2b_798_48_alg».proof.Proof.Tile3ValWrap
import proofs.«203556_g1357209665813_cont_week2b_798_48_alg».proof.Proof.TileOblBase3
import proofs.«203556_g1357209665813_cont_week2b_798_48_alg».proof.Proof.CallV3

noncomputable section

namespace Cert.Proof.KI.Tile3

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

variable (m : (ℓ : Loc nD τ sig) → Buf (Elt F) ℓ)

/-- The tile obligation of the call, for payloads `GO` out and `TD` back. -/
theorem tileOblV (TP : TilePay F) (Id : (d : Dev nD) → Buf (Elt F) (idxLoc d))
    (hgo : ∀ d c i, TP.go qC d c i = GO m Id d (c, i)) (htd : ∀ d c i, TP.td qC d c i = TD m Id d (c, i))
    (hId : ∀ d cs, ∀ j ∈ idxSet (place cs), (Id d j).toNat < 100000) :
    (K (F := F)).TileObl (D (F := F)) 𝒱 (P TP) v₀ qC := by
  intro d c i O W hO _ _
  simp only [show (P TP).ox = fun _ _ => 0 from rfl, add_zero]
  change _ ⊢ wp _ _ _ (Pipeline.liftProg (defs₀ (F := F) (.scVector ((K (F := F)).core qC c) ((K (F := F)).sub qC i)) labC ())) _
  refine BI.Entails.trans ?_ (Pipeline.wp_liftProg (D (F := F)) (Pipeline.defs_kernel pcfgs defs₀) 𝒱₀ _ Set.univ none _ _)
  have hc : ((K (F := F)).core qC c).val < grid3.bound 0 ∧ ((K (F := F)).sub qC i).val < grid3.bound 1 := ⟨c.isLt, i.isLt⟩
  rw [defs₀_vector]; simp only [SparseCore.onTile, hc, and_self, ↓reduceDIte]
  show iprop(_ ∗ _ ∗ TP.go qC d c i ∗ _) ⊢ wp _ _ _ _ (fun _ => iprop(TP.td qC d c i ∗ _))
  rw [hgo, htd]
  have hb := tile_body_val (F := F) facts d (place (c, i)) (Transfers.shareTok fullShare 32 (tokIx (c, i))) (m (tblLoc d)) (Id d) (hId d (c, i)) O W hO
  have hb' := hb.trans (wp_mono frame _ _ fun _ => obl_post (q := qC))
  unfold GO
  iintro ⟨Hlv, -, Hgo, Hrest⟩
  iapply hb'
  isplitl [Hlv]; · iexact Hlv
  isplitl [Hgo]; · iexact Hgo
  iexact Hrest

end Cert.Proof.KI.Tile3

end
-- ==== Proof.ValueTiles.lean ====
/-
  The algebraic conjunct: the four valued tile obligations under the precondition give the kernel's run its value.
-/
import proofs.«203556_g1357209665813_cont_week2b_798_48_alg».proof.Proof.RunValue
import proofs.«203556_g1357209665813_cont_week2b_798_48_alg».proof.Proof.TileOblV0
import proofs.«203556_g1357209665813_cont_week2b_798_48_alg».proof.Proof.TileOblV1
import proofs.«203556_g1357209665813_cont_week2b_798_48_alg».proof.Proof.TileOblV2
import proofs.«203556_g1357209665813_cont_week2b_798_48_alg».proof.Proof.TileOblV3

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL.Sem

/-- The four valued tile obligations, from the precondition's range of the ids. -/
theorem htilesV (m : (ℓ : Loc nD τ sig) → Buf (Elt Ideal) ℓ)
    (hpre : Cert.Pre_KernelIdeal (hPre_input_domain := Cert.Pre_input_domain.Gen.facts) m) :
    ∀ q, (K (F := Ideal)).TileObl (D (F := Ideal)) 𝒱 (P (TPvV m (JvV m))) v₀ q
  | 0 => Tile0.tileOblV m (TPvV m (JvV m)) (Ids0 m) (fun _ _ _ => rfl) (fun _ _ _ => rfl) (fun d _ j _ => Ids_range0 m d (ids_range (hpre d)) j)
  | 1 => Tile1.tileOblV m (TPvV m (JvV m)) (Ids1 m) (fun _ _ _ => rfl) (fun _ _ _ => rfl) (fun d _ j _ => Ids_range1 m d (ids_range (hpre d)) j)
  | 2 => Tile2.tileOblV m (TPvV m (JvV m)) (Ids2 m) (fun _ _ _ => rfl) (fun _ _ _ => rfl) (fun d _ j _ => Ids_range2 m d (ids_range (hpre d)) j)
  | 3 => Tile3.tileOblV m (TPvV m (JvV m)) (Ids3 m) (fun _ _ _ => rfl) (fun _ _ _ => rfl) (fun d _ j _ => Ids_range3 m d (ids_range (hpre d)) j)

/-- The idealized kernel and the idealized reference end with equal results. -/
theorem algebraic : Cert.algebraic_KernelIdeal_ReferenceIdeal (hKernelIdeal := Cert.KernelIdeal.Gen.facts) (hReferenceIdeal := Cert.ReferenceIdeal.Gen.facts) (hPre_input_domain := Cert.Pre_input_domain.Gen.facts) :=
  algebraic_of_tiles htilesV

end Cert.Proof.KI

end
-- ==== Proof.lean ====
/-
  The certificate's five conjuncts. The kernel gathers each token's embedding row on the SparseCores — a five-slot
  ring of indirect copies per task, one copy outstanding per semaphore — and four TensorCore regions add the position
  and type rows and normalise each row; the reference takes the three rows by jnp.take and applies the same layer
  norm. Over the extended reals the two agree under the precondition: the ids name rows of the table, the token types
  are 0 or 1 (so type0 + tt · (type1 − type0) is the type's row, on finite entries), and x · rsqrt v = x / sqrt v for
  the positive real v = variance + eps. The frames: every execution of the thirty-five threads terminates, nothing
  faults, and the arguments end as launched (the SparseCore launch theorem over the four calls' tile obligations, the
  four layer-norm regions by the pipeline library's region rule run under the inner body table).
-/
import proofs.«203556_g1357209665813_cont_week2b_798_48_alg».proof.Defs
import proofs.«203556_g1357209665813_cont_week2b_798_48_alg».proof.Proof.Gen.Kernel
import proofs.«203556_g1357209665813_cont_week2b_798_48_alg».proof.Proof.Gen.KernelIdeal
import proofs.«203556_g1357209665813_cont_week2b_798_48_alg».proof.Proof.Gen.ReferenceIdeal
import proofs.«203556_g1357209665813_cont_week2b_798_48_alg».proof.Proof.Gen.Pre_input_domain
import proofs.«203556_g1357209665813_cont_week2b_798_48_alg».proof.Proof.Frames
import proofs.«203556_g1357209665813_cont_week2b_798_48_alg».proof.Proof.BFrames
import proofs.«203556_g1357209665813_cont_week2b_798_48_alg».proof.Proof.RefRun
import proofs.«203556_g1357209665813_cont_week2b_798_48_alg».proof.Proof.ValueTiles

noncomputable section

namespace Cert.Proof

open Idealize.ShloMosaic Idealize.SL.Sem

theorem frame_k : Cert.frame_Kernel (hKernel := Cert.Kernel.Gen.facts) (hPre_input_domain := Cert.Pre_input_domain.Gen.facts) :=
  fun m ρ hpre => (θ_run Cert.Kernel.defs _ _).mono (fun _ h c => h c)
    (Cert.Proof.KB.run_frame (F := Bits) m ρ fun d => Cert.Proof.KB.ids_range (hpre d))

theorem frame_ki : Cert.frame_KernelIdeal (hKernelIdeal := Cert.KernelIdeal.Gen.facts) (hPre_input_domain := Cert.Pre_input_domain.Gen.facts) :=
  fun m ρ hpre => (θ_run Cert.KernelIdeal.defs _ _).mono (fun _ h c => h c)
    (Cert.Proof.KI.run_frame (F := Ideal) m ρ fun d => Cert.Proof.KI.ids_range (hpre d))

theorem claim : Cert.Claim :=
  ⟨Cert.Kernel.Gen.facts, Cert.KernelIdeal.Gen.facts, Cert.ReferenceIdeal.Gen.facts, Cert.Pre_input_domain.Gen.facts,
    frame_k, frame_ki, frame_ri, trivial, Cert.Proof.KI.algebraic⟩

end Cert.Proof

end
